-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v97) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S3840x512 : Shape := ⟨2, ![3840, 512]⟩
abbrev S3584x512 : Shape := ⟨2, ![3584, 512]⟩
abbrev S3328x512 : Shape := ⟨2, ![3328, 512]⟩
abbrev S3072x512 : Shape := ⟨2, ![3072, 512]⟩
abbrev S2816x512 : Shape := ⟨2, ![2816, 512]⟩
abbrev S2560x512 : Shape := ⟨2, ![2560, 512]⟩
abbrev S2304x512 : Shape := ⟨2, ![2304, 512]⟩
abbrev S2048x512 : Shape := ⟨2, ![2048, 512]⟩
abbrev S1792x512 : Shape := ⟨2, ![1792, 512]⟩
abbrev S1536x512 : Shape := ⟨2, ![1536, 512]⟩
abbrev S1280x512 : Shape := ⟨2, ![1280, 512]⟩
abbrev S1024x512 : Shape := ⟨2, ![1024, 512]⟩
abbrev S768x512 : Shape := ⟨2, ![768, 512]⟩
abbrev S512x512 : Shape := ⟨2, ![512, 512]⟩
abbrev S256x512 : Shape := ⟨2, ![256, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S3840x512 : S_.BroadcastsInDim S3840x512 (![] : Fin 0 → Fin S3840x512.rank)
  reducesTo_S3840x512_S_d0_1 : S3840x512.ReducesTo [0, 1] S_
  bcast_S_S3584x512 : S_.BroadcastsInDim S3584x512 (![] : Fin 0 → Fin S3584x512.rank)
  reducesTo_S3584x512_S_d0_1 : S3584x512.ReducesTo [0, 1] S_
  bcast_S_S3328x512 : S_.BroadcastsInDim S3328x512 (![] : Fin 0 → Fin S3328x512.rank)
  reducesTo_S3328x512_S_d0_1 : S3328x512.ReducesTo [0, 1] S_
  bcast_S_S3072x512 : S_.BroadcastsInDim S3072x512 (![] : Fin 0 → Fin S3072x512.rank)
  reducesTo_S3072x512_S_d0_1 : S3072x512.ReducesTo [0, 1] S_
  bcast_S_S2816x512 : S_.BroadcastsInDim S2816x512 (![] : Fin 0 → Fin S2816x512.rank)
  reducesTo_S2816x512_S_d0_1 : S2816x512.ReducesTo [0, 1] S_
  bcast_S_S2560x512 : S_.BroadcastsInDim S2560x512 (![] : Fin 0 → Fin S2560x512.rank)
  reducesTo_S2560x512_S_d0_1 : S2560x512.ReducesTo [0, 1] S_
  bcast_S_S2304x512 : S_.BroadcastsInDim S2304x512 (![] : Fin 0 → Fin S2304x512.rank)
  reducesTo_S2304x512_S_d0_1 : S2304x512.ReducesTo [0, 1] S_
  bcast_S_S2048x512 : S_.BroadcastsInDim S2048x512 (![] : Fin 0 → Fin S2048x512.rank)
  reducesTo_S2048x512_S_d0_1 : S2048x512.ReducesTo [0, 1] S_
  bcast_S_S1792x512 : S_.BroadcastsInDim S1792x512 (![] : Fin 0 → Fin S1792x512.rank)
  reducesTo_S1792x512_S_d0_1 : S1792x512.ReducesTo [0, 1] S_
  bcast_S_S1536x512 : S_.BroadcastsInDim S1536x512 (![] : Fin 0 → Fin S1536x512.rank)
  reducesTo_S1536x512_S_d0_1 : S1536x512.ReducesTo [0, 1] S_
  bcast_S_S1280x512 : S_.BroadcastsInDim S1280x512 (![] : Fin 0 → Fin S1280x512.rank)
  reducesTo_S1280x512_S_d0_1 : S1280x512.ReducesTo [0, 1] S_
  bcast_S_S1024x512 : S_.BroadcastsInDim S1024x512 (![] : Fin 0 → Fin S1024x512.rank)
  reducesTo_S1024x512_S_d0_1 : S1024x512.ReducesTo [0, 1] S_
  bcast_S_S768x512 : S_.BroadcastsInDim S768x512 (![] : Fin 0 → Fin S768x512.rank)
  reducesTo_S768x512_S_d0_1 : S768x512.ReducesTo [0, 1] S_
  bcast_S_S512x512 : S_.BroadcastsInDim S512x512 (![] : Fin 0 → Fin S512x512.rank)
  reducesTo_S512x512_S_d0_1 : S512x512.ReducesTo [0, 1] S_
  bcast_S_S256x512 : S_.BroadcastsInDim S256x512 (![] : Fin 0 → Fin S256x512.rank)
  reducesTo_S256x512_S_d0_1 : S256x512.ReducesTo [0, 1] S_

variable [Facts]

def fn_part4 {F : FTy → Type} [FloatOps F] (main_arg14 : FVec F S512x512 .f32) (main_arg15 : FVec F S256x512 .f32) (main_v63 : IVec S_ 1) (main_v67 : IVec S_ 1) : IVec S_ 1 :=
  let main_v68 : IVec S_ 1 := andi main_v63 main_v67
  let main_v69 : FVec F S512x512 .f32 := Host.absf main_arg14
  let main_cst_26 : FVec F S_ .f32 := constant S_ .f32 0x7F800000#32
  let main_v70 : FVec F S512x512 .f32 := broadcastInDim S512x512 ![] bcast_S_S512x512 main_cst_26
  let main_v71 : IVec S512x512 1 := cmpf .olt main_v69 main_v70
  let main_c_27 : IVec S_ 1 := constantI S_ 1 1#1
  let main_v72 : IVec S_ 1 := (fun x v => Host.reduce IntOp.andi x v reducesTo_S512x512_S_d0_1 h_S_) main_v71 main_c_27
  let main_v73 : IVec S_ 1 := andi main_v68 main_v72
  let main_v74 : FVec F S256x512 .f32 := Host.absf main_arg15
  let main_cst_28 : FVec F S_ .f32 := constant S_ .f32 0x7F800000#32
  let main_v75 : FVec F S256x512 .f32 := broadcastInDim S256x512 ![] bcast_S_S256x512 main_cst_28
  let main_v76 : IVec S256x512 1 := cmpf .olt main_v74 main_v75
  let main_c_29 : IVec S_ 1 := constantI S_ 1 1#1
  let main_v77 : IVec S_ 1 := (fun x v => Host.reduce IntOp.andi x v reducesTo_S256x512_S_d0_1 h_S_) main_v76 main_c_29
  let main_v78 : IVec S_ 1 := andi main_v73 main_v77
  main_v78

def fn_part3 {F : FTy → Type} [FloatOps F] (main_arg11 : FVec F S1280x512 .f32) (main_arg12 : FVec F S1024x512 .f32) (main_arg13 : FVec F S768x512 .f32) (main_arg14 : FVec F S512x512 .f32) (main_arg15 : FVec F S256x512 .f32) (main_v48 : IVec S_ 1) (main_v49 : FVec F S1536x512 .f32) (main_v50 : FVec F S1536x512 .f32) : IVec S_ 1 :=
  let main_v51 : IVec S1536x512 1 := cmpf .olt main_v49 main_v50
  let main_c_19 : IVec S_ 1 := constantI S_ 1 1#1
  let main_v52 : IVec S_ 1 := (fun x v => Host.reduce IntOp.andi x v reducesTo_S1536x512_S_d0_1 h_S_) main_v51 main_c_19
  let main_v53 : IVec S_ 1 := andi main_v48 main_v52
  let main_v54 : FVec F S1280x512 .f32 := Host.absf main_arg11
  let main_cst_20 : FVec F S_ .f32 := constant S_ .f32 0x7F800000#32
  let main_v55 : FVec F S1280x512 .f32 := broadcastInDim S1280x512 ![] bcast_S_S1280x512 main_cst_20
  let main_v56 : IVec S1280x512 1 := cmpf .olt main_v54 main_v55
  let main_c_21 : IVec S_ 1 := constantI S_ 1 1#1
  let main_v57 : IVec S_ 1 := (fun x v => Host.reduce IntOp.andi x v reducesTo_S1280x512_S_d0_1 h_S_) main_v56 main_c_21
  let main_v58 : IVec S_ 1 := andi main_v53 main_v57
  let main_v59 : FVec F S1024x512 .f32 := Host.absf main_arg12
  let main_cst_22 : FVec F S_ .f32 := constant S_ .f32 0x7F800000#32
  let main_v60 : FVec F S1024x512 .f32 := broadcastInDim S1024x512 ![] bcast_S_S1024x512 main_cst_22
  let main_v61 : IVec S1024x512 1 := cmpf .olt main_v59 main_v60
  let main_c_23 : IVec S_ 1 := constantI S_ 1 1#1
  let main_v62 : IVec S_ 1 := (fun x v => Host.reduce IntOp.andi x v reducesTo_S1024x512_S_d0_1 h_S_) main_v61 main_c_23
  let main_v63 : IVec S_ 1 := andi main_v58 main_v62
  let main_v64 : FVec F S768x512 .f32 := Host.absf main_arg13
  let main_cst_24 : FVec F S_ .f32 := constant S_ .f32 0x7F800000#32
  let main_v65 : FVec F S768x512 .f32 := broadcastInDim S768x512 ![] bcast_S_S768x512 main_cst_24
  let main_v66 : IVec S768x512 1 := cmpf .olt main_v64 main_v65
  let main_c_25 : IVec S_ 1 := constantI S_ 1 1#1
  let main_v67 : IVec S_ 1 := (fun x v => Host.reduce IntOp.andi x v reducesTo_S768x512_S_d0_1 h_S_) main_v66 main_c_25
  fn_part4 (F := F) main_arg14 main_arg15 main_v63 main_v67

def fn_part2 {F : FTy → Type} [FloatOps F] (main_arg7 : FVec F S2304x512 .f32) (main_arg8 : FVec F S2048x512 .f32) (main_arg9 : FVec F S1792x512 .f32) (main_arg10 : FVec F S1536x512 .f32) (main_arg11 : FVec F S1280x512 .f32) (main_arg12 : FVec F S1024x512 .f32) (main_arg13 : FVec F S768x512 .f32) (main_arg14 : FVec F S512x512 .f32) (main_arg15 : FVec F S256x512 .f32) (main_v33 : IVec S_ 1) : IVec S_ 1 :=
  let main_v34 : FVec F S2304x512 .f32 := Host.absf main_arg7
  let main_cst_12 : FVec F S_ .f32 := constant S_ .f32 0x7F800000#32
  let main_v35 : FVec F S2304x512 .f32 := broadcastInDim S2304x512 ![] bcast_S_S2304x512 main_cst_12
  let main_v36 : IVec S2304x512 1 := cmpf .olt main_v34 main_v35
  let main_c_13 : IVec S_ 1 := constantI S_ 1 1#1
  let main_v37 : IVec S_ 1 := (fun x v => Host.reduce IntOp.andi x v reducesTo_S2304x512_S_d0_1 h_S_) main_v36 main_c_13
  let main_v38 : IVec S_ 1 := andi main_v33 main_v37
  let main_v39 : FVec F S2048x512 .f32 := Host.absf main_arg8
  let main_cst_14 : FVec F S_ .f32 := constant S_ .f32 0x7F800000#32
  let main_v40 : FVec F S2048x512 .f32 := broadcastInDim S2048x512 ![] bcast_S_S2048x512 main_cst_14
  let main_v41 : IVec S2048x512 1 := cmpf .olt main_v39 main_v40
  let main_c_15 : IVec S_ 1 := constantI S_ 1 1#1
  let main_v42 : IVec S_ 1 := (fun x v => Host.reduce IntOp.andi x v reducesTo_S2048x512_S_d0_1 h_S_) main_v41 main_c_15
  let main_v43 : IVec S_ 1 := andi main_v38 main_v42
  let main_v44 : FVec F S1792x512 .f32 := Host.absf main_arg9
  let main_cst_16 : FVec F S_ .f32 := constant S_ .f32 0x7F800000#32
  let main_v45 : FVec F S1792x512 .f32 := broadcastInDim S1792x512 ![] bcast_S_S1792x512 main_cst_16
  let main_v46 : IVec S1792x512 1 := cmpf .olt main_v44 main_v45
  let main_c_17 : IVec S_ 1 := constantI S_ 1 1#1
  let main_v47 : IVec S_ 1 := (fun x v => Host.reduce IntOp.andi x v reducesTo_S1792x512_S_d0_1 h_S_) main_v46 main_c_17
  let main_v48 : IVec S_ 1 := andi main_v43 main_v47
  let main_v49 : FVec F S1536x512 .f32 := Host.absf main_arg10
  let main_cst_18 : FVec F S_ .f32 := constant S_ .f32 0x7F800000#32
  let main_v50 : FVec F S1536x512 .f32 := broadcastInDim S1536x512 ![] bcast_S_S1536x512 main_cst_18
  fn_part3 (F := F) main_arg11 main_arg12 main_arg13 main_arg14 main_arg15 main_v48 main_v49 main_v50

def fn_part1 {F : FTy → Type} [FloatOps F] (main_arg4 : FVec F S3072x512 .f32) (main_arg5 : FVec F S2816x512 .f32) (main_arg6 : FVec F S2560x512 .f32) (main_arg7 : FVec F S2304x512 .f32) (main_arg8 : FVec F S2048x512 .f32) (main_arg9 : FVec F S1792x512 .f32) (main_arg10 : FVec F S1536x512 .f32) (main_arg11 : FVec F S1280x512 .f32) (main_arg12 : FVec F S1024x512 .f32) (main_arg13 : FVec F S768x512 .f32) (main_arg14 : FVec F S512x512 .f32) (main_arg15 : FVec F S256x512 .f32) (main_v13 : IVec S_ 1) (main_v16 : IVec S3328x512 1) : IVec S_ 1 :=
  let main_c_5 : IVec S_ 1 := constantI S_ 1 1#1
  let main_v17 : IVec S_ 1 := (fun x v => Host.reduce IntOp.andi x v reducesTo_S3328x512_S_d0_1 h_S_) main_v16 main_c_5
  let main_v18 : IVec S_ 1 := andi main_v13 main_v17
  let main_v19 : FVec F S3072x512 .f32 := Host.absf main_arg4
  let main_cst_6 : FVec F S_ .f32 := constant S_ .f32 0x7F800000#32
  let main_v20 : FVec F S3072x512 .f32 := broadcastInDim S3072x512 ![] bcast_S_S3072x512 main_cst_6
  let main_v21 : IVec S3072x512 1 := cmpf .olt main_v19 main_v20
  let main_c_7 : IVec S_ 1 := constantI S_ 1 1#1
  let main_v22 : IVec S_ 1 := (fun x v => Host.reduce IntOp.andi x v reducesTo_S3072x512_S_d0_1 h_S_) main_v21 main_c_7
  let main_v23 : IVec S_ 1 := andi main_v18 main_v22
  let main_v24 : FVec F S2816x512 .f32 := Host.absf main_arg5
  let main_cst_8 : FVec F S_ .f32 := constant S_ .f32 0x7F800000#32
  let main_v25 : FVec F S2816x512 .f32 := broadcastInDim S2816x512 ![] bcast_S_S2816x512 main_cst_8
  let main_v26 : IVec S2816x512 1 := cmpf .olt main_v24 main_v25
  let main_c_9 : IVec S_ 1 := constantI S_ 1 1#1
  let main_v27 : IVec S_ 1 := (fun x v => Host.reduce IntOp.andi x v reducesTo_S2816x512_S_d0_1 h_S_) main_v26 main_c_9
  let main_v28 : IVec S_ 1 := andi main_v23 main_v27
  let main_v29 : FVec F S2560x512 .f32 := Host.absf main_arg6
  let main_cst_10 : FVec F S_ .f32 := constant S_ .f32 0x7F800000#32
  let main_v30 : FVec F S2560x512 .f32 := broadcastInDim S2560x512 ![] bcast_S_S2560x512 main_cst_10
  let main_v31 : IVec S2560x512 1 := cmpf .olt main_v29 main_v30
  let main_c_11 : IVec S_ 1 := constantI S_ 1 1#1
  let main_v32 : IVec S_ 1 := (fun x v => Host.reduce IntOp.andi x v reducesTo_S2560x512_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S4096x512 .f32) (main_arg1 : FVec F S3840x512 .f32) (main_arg2 : FVec F S3584x512 .f32) (main_arg3 : FVec F S3328x512 .f32) (main_arg4 : FVec F S3072x512 .f32) (main_arg5 : FVec F S2816x512 .f32) (main_arg6 : FVec F S2560x512 .f32) (main_arg7 : FVec F S2304x512 .f32) (main_arg8 : FVec F S2048x512 .f32) (main_arg9 : FVec F S1792x512 .f32) (main_arg10 : FVec F S1536x512 .f32) (main_arg11 : FVec F S1280x512 .f32) (main_arg12 : FVec F S1024x512 .f32) (main_arg13 : FVec F S768x512 .f32) (main_arg14 : FVec F S512x512 .f32) (main_arg15 : FVec F S256x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S3840x512 .f32 := Host.absf main_arg1
  let main_cst_0 : FVec F S_ .f32 := constant S_ .f32 0x7F800000#32
  let main_v5 : FVec F S3840x512 .f32 := broadcastInDim S3840x512 ![] bcast_S_S3840x512 main_cst_0
  let main_v6 : IVec S3840x512 1 := cmpf .olt main_v4 main_v5
  let main_c_1 : IVec S_ 1 := constantI S_ 1 1#1
  let main_v7 : IVec S_ 1 := (fun x v => Host.reduce IntOp.andi x v reducesTo_S3840x512_S_d0_1 h_S_) main_v6 main_c_1
  let main_v8 : IVec S_ 1 := andi main_v3 main_v7
  let main_v9 : FVec F S3584x512 .f32 := Host.absf main_arg2
  let main_cst_2 : FVec F S_ .f32 := constant S_ .f32 0x7F800000#32
  let main_v10 : FVec F S3584x512 .f32 := broadcastInDim S3584x512 ![] bcast_S_S3584x512 main_cst_2
  let main_v11 : IVec S3584x512 1 := cmpf .olt main_v9 main_v10
  let main_c_3 : IVec S_ 1 := constantI S_ 1 1#1
  let main_v12 : IVec S_ 1 := (fun x v => Host.reduce IntOp.andi x v reducesTo_S3584x512_S_d0_1 h_S_) main_v11 main_c_3
  let main_v13 : IVec S_ 1 := andi main_v8 main_v12
  let main_v14 : FVec F S3328x512 .f32 := Host.absf main_arg3
  let main_cst_4 : FVec F S_ .f32 := constant S_ .f32 0x7F800000#32
  let main_v15 : FVec F S3328x512 .f32 := broadcastInDim S3328x512 ![] bcast_S_S3328x512 main_cst_4
  let main_v16 : IVec S3328x512 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S4096x512 : Shape := ⟨2, ![4096, 512]⟩
abbrev S3840x512 : Shape := ⟨2, ![3840, 512]⟩
abbrev S3584x512 : Shape := ⟨2, ![3584, 512]⟩
abbrev S3328x512 : Shape := ⟨2, ![3328, 512]⟩
abbrev S3072x512 : Shape := ⟨2, ![3072, 512]⟩
abbrev S2816x512 : Shape := ⟨2, ![2816, 512]⟩
abbrev S2560x512 : Shape := ⟨2, ![2560, 512]⟩
abbrev S2304x512 : Shape := ⟨2, ![2304, 512]⟩
abbrev S2048x512 : Shape := ⟨2, ![2048, 512]⟩
abbrev S1792x512 : Shape := ⟨2, ![1792, 512]⟩
abbrev S1536x512 : Shape := ⟨2, ![1536, 512]⟩
abbrev S1280x512 : Shape := ⟨2, ![1280, 512]⟩
abbrev S1024x512 : Shape := ⟨2, ![1024, 512]⟩
abbrev S768x512 : Shape := ⟨2, ![768, 512]⟩
abbrev S512x512 : Shape := ⟨2, ![512, 512]⟩
abbrev S256x512 : Shape := ⟨2, ![256, 512]⟩
abbrev S65536x512 : Shape := ⟨2, ![65536, 512]⟩
abbrev S64x512 : Shape := ⟨2, ![64, 512]⟩
abbrev S16 : Shape := ⟨1, ![16]⟩
abbrev S1x16 : Shape := ⟨2, ![1, 16]⟩
abbrev S_ : Shape := ⟨0, ![]⟩
abbrev S16x4096x512 : Shape := ⟨3, ![16, 4096, 512]⟩
abbrev S16x4096 : Shape := ⟨2, ![16, 4096]⟩

abbrev nBuf : Table → Nat
  | .hbm => 23
  | .local .tc .vmem => 1
  | .local .scVector .vmem => 2
  | _ => 0

abbrev bufTy : (tb : Table) → Fin (nBuf tb) → BufTy
  | .hbm, ⟨0, _⟩ => ⟨S4096x512, .f32⟩
  | .hbm, ⟨1, _⟩ => ⟨S3840x512, .f32⟩
  | .hbm, ⟨2, _⟩ => ⟨S3584x512, .f32⟩
  | .hbm, ⟨3, _⟩ => ⟨S3328x512, .f32⟩
  | .hbm, ⟨4, _⟩ => ⟨S3072x512, .f32⟩
  | .hbm, ⟨5, _⟩ => ⟨S2816x512, .f32⟩
  | .hbm, ⟨6, _⟩ => ⟨S2560x512, .f32⟩
  | .hbm, ⟨7, _⟩ => ⟨S2304x512, .f32⟩
  | .hbm, ⟨8, _⟩ => ⟨S2048x512, .f32⟩
  | .hbm, ⟨9, _⟩ => ⟨S1792x512, .f32⟩
  | .hbm, ⟨10, _⟩ => ⟨S1536x512, .f32⟩
  | .hbm, ⟨11, _⟩ => ⟨S1280x512, .f32⟩
  | .hbm, ⟨12, _⟩ => ⟨S1024x512, .f32⟩
  | .hbm, ⟨13, _⟩ => ⟨S768x512, .f32⟩
  | .hbm, ⟨14, _⟩ => ⟨S512x512, .f32⟩
  | .hbm, ⟨15, _⟩ => ⟨S256x512, .f32⟩
  | .hbm, ⟨16, _⟩ => ⟨S65536x512, .f32⟩
  | .hbm, ⟨17, _⟩ => ⟨S16x4096x512, .f32⟩
  | .hbm, ⟨18, _⟩ => ⟨S16x4096, .i32⟩
  | .hbm, ⟨19, _⟩ => ⟨S_, .i32⟩
  | .hbm, ⟨20, _⟩ => ⟨S16x4096, .i32⟩
  | .hbm, ⟨21, _⟩ => ⟨S16x4096, .i1⟩
  | .hbm, ⟨22, _⟩ => ⟨S16x4096, .i1⟩
  | .local .tc .vmem, ⟨0, _⟩ => ⟨S16x4096, .i32⟩
  | .local .scVector .vmem, ⟨0, _⟩ => ⟨S64x512, .f32⟩
  | .local .scVector .vmem, ⟨1, _⟩ => ⟨S64x512, .f32⟩
  | _, _ => ⟨S4096x512, .f32⟩

abbrev bufScoped : (cs : CoreSpace) → Fin (nBuf (.local .tc cs)) → Bool
  | .vmem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 67 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | ⟨45, _⟩ => false
  | ⟨46, _⟩ => false
  | ⟨47, _⟩ => false
  | ⟨48, _⟩ => false
  | ⟨49, _⟩ => false
  | ⟨50, _⟩ => false
  | ⟨51, _⟩ => false
  | ⟨52, _⟩ => false
  | ⟨53, _⟩ => false
  | ⟨54, _⟩ => false
  | ⟨55, _⟩ => false
  | ⟨56, _⟩ => false
  | ⟨57, _⟩ => false
  | ⟨58, _⟩ => false
  | ⟨59, _⟩ => false
  | ⟨60, _⟩ => false
  | ⟨61, _⟩ => false
  | ⟨62, _⟩ => false
  | ⟨63, _⟩ => false
  | ⟨64, _⟩ => false
  | ⟨65, _⟩ => false
  | ⟨66, _⟩ => true
  | _ => false

abbrev sig : RefSig :=
  ofTables nBuf rfl bufTy 4 67 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_c : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_arg4_scv : Ref sig .scVector := ⟨.hbm, 4, rfl⟩
abbrev main_arg5_scv : Ref sig .scVector := ⟨.hbm, 5, rfl⟩
abbrev main_arg6_scv : Ref sig .scVector := ⟨.hbm, 6, rfl⟩
abbrev main_arg7_scv : Ref sig .scVector := ⟨.hbm, 7, rfl⟩
abbrev main_arg8_scv : Ref sig .scVector := ⟨.hbm, 8, rfl⟩
abbrev main_arg9_scv : Ref sig .scVector := ⟨.hbm, 9, rfl⟩
abbrev main_arg10_scv : Ref sig .scVector := ⟨.hbm, 10, rfl⟩
abbrev main_arg11_scv : Ref sig .scVector := ⟨.hbm, 11, rfl⟩
abbrev main_arg12_scv : Ref sig .scVector := ⟨.hbm, 12, rfl⟩
abbrev main_arg13_scv : Ref sig .scVector := ⟨.hbm, 13, rfl⟩
abbrev main_arg14_scv : Ref sig .scVector := ⟨.hbm, 14, rfl⟩
abbrev main_arg15_scv : Ref sig .scVector := ⟨.hbm, 15, rfl⟩
abbrev main_v0_scv : Ref sig .scVector := ⟨.hbm, 16, rfl⟩
abbrev cc1_stg0_0 : Ref sig .tc := ⟨.vmem, 0, rfl⟩
abbrev cc0_scratch0 : Ref sig .scVector := ⟨.vmem, 0, rfl⟩
abbrev cc0_scratch1 : Ref sig .scVector := ⟨.vmem, 1, rfl⟩
abbrev cc1_sem0_0 : DmaSem sig := 66
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c64_i32 : BitVec 32 := 64#32
  let v1 : BitVec 32 := Scalar.addi c0_i32_0 c64_i32
  let c1_i32 : BitVec 32 := 1#32
  ⟨c0_i32_0, v1, c1_i32⟩
@[reducible] def k0_t2_loop : Scf.Loop 32 :=
  let c0_i32_50 : BitVec 32 := 0#32
  let c32_i32 : BitVec 32 := 32#32
  let v112 : BitVec 32 := Scalar.addi c0_i32_50 c32_i32
  let c1_i32_51 : BitVec 32 := 1#32
  ⟨c0_i32_50, v112, c1_i32_51⟩
def k0_off1 (k0_t1 : Fin k0_t1_loop.trips) (k0_t2 : Fin k0_t2_loop.trips) : Fin 2 → Nat :=
  let c0_i32_0 : BitVec 32 := 0#32
  let c1_i32 : BitVec 32 := 1#32
  let arg21 : BitVec 32 := Scf.iv c0_i32_0 c1_i32 k0_t1
  let v114 : Index := Scalar.indexCast arg21
  let c0_i32_50 : BitVec 32 := 0#32
  let c1_i32_51 : BitVec 32 := 1#32
  let arg22 : BitVec 32 := Scf.iv c0_i32_50 c1_i32_51 k0_t2
  let c16_i32 : BitVec 32 := 16#32
  let v113 : BitVec 32 := Scalar.muli arg22 c16_i32
  let v115 : Index := Scalar.indexCast v113
  ![v114.toNat, v115.toNat]
def k0_mult1 (i : grid0.Coords) : BitVec 32 :=
  let c2048_i32_16 : BitVec 32 := 2048#32
  let c0_i32_15 : BitVec 32 := 0#32
  let c4096_i32 : BitVec 32 := 4096#32
  let c256_i32 : BitVec 32 := 256#32
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v34 : BitVec 32 := Scalar.subi v33 v31
  let v35 : BitVec 32 := Scalar.maxsi c0_i32_15 v34
  let v36 : BitVec 32 := Scalar.minsi c2048_i32_16 v35
  v36
def k0_mult2 (i : grid0.Coords) : BitVec 32 :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let c4096_i32_17 : BitVec 32 := 4096#32
  let v38 : BitVec 32 := Scalar.muli v20 c4096_i32_17
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v39 : BitVec 32 := Scalar.addi v38 v31
  v39
def k0_cond1 (i : grid0.Coords) : BitVec 1 :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let c0_i32_18 : BitVec 32 := 0#32
  let v41 : BitVec 1 := Scalar.cmpi .eq v20 c0_i32_18
  let v42 : BitVec 32 := Scalar.extui v41
  let c0_i32_19 : BitVec 32 := 0#32
  let v43 : BitVec 1 := Scalar.cmpi .ne v42 c0_i32_19
  v43

@[reducible] def k0_t3_loop (i : grid0.Coords) : Scf.Loop 32 :=
  let c0_i32_58 : BitVec 32 := 0#32
  let c2048_i32_16 : BitVec 32 := 2048#32
  let c0_i32_15 : BitVec 32 := 0#32
  let c4096_i32 : BitVec 32 := 4096#32
  let c256_i32 : BitVec 32 := 256#32
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_60 : BitVec 32 := 1#32
  ⟨c0_i32_58, v133, c1_i32_60⟩
def k0_mult3 (i : grid0.Coords) (k0_t3 : Fin (k0_t3_loop i).trips) : BitVec 32 :=
  let c0_i32_58 : BitVec 32 := 0#32
  let c1_i32_60 : BitVec 32 := 1#32
  let arg21 : BitVec 32 := Scf.iv c0_i32_58 c1_i32_60 k0_t3
  let c64_i32_62 : BitVec 32 := 64#32
  let v134 : BitVec 32 := Scalar.muli arg21 c64_i32_62
  v134
def k0_off2 (i : grid0.Coords) (k0_t3 : Fin (k0_t3_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let c0_i32_58 : BitVec 32 := 0#32
  let c1_i32_60 : BitVec 32 := 1#32
  let arg21 : BitVec 32 := Scf.iv c0_i32_58 c1_i32_60 k0_t3
  let c64_i32_62 : BitVec 32 := 64#32
  let v134 : BitVec 32 := Scalar.muli arg21 c64_i32_62
  let v135 : BitVec 32 := v134
  let v136 : BitVec 32 := Scalar.addi v31 v135
  let c0_i32_63_r0 : BitVec 32 := 0#32
  ![v136.toNat, 0]
def k0_off3 (i : grid0.Coords) (k0_t3 : Fin (k0_t3_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let c4096_i32_17 : BitVec 32 := 4096#32
  let v38 : BitVec 32 := Scalar.muli v20 c4096_i32_17
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v39 : BitVec 32 := Scalar.addi v38 v31
  let v40 : BitVec 32 := v39
  let c0_i32_58 : BitVec 32 := 0#32
  let c1_i32_60 : BitVec 32 := 1#32
  let arg21 : BitVec 32 := Scf.iv c0_i32_58 c1_i32_60 k0_t3
  let c64_i32_62 : BitVec 32 := 64#32
  let v134 : BitVec 32 := Scalar.muli arg21 c64_i32_62
  let v135 : BitVec 32 := v134
  let v137 : BitVec 32 := Scalar.addi v40 v135
  let c0_i32_63_r1 : BitVec 32 := 0#32
  ![v137.toNat, 0]
@[reducible] def k0_t4_loop (i : grid0.Coords) : Scf.Loop 32 :=
  let c0_i32_58 : BitVec 32 := 0#32
  let c2048_i32_16 : BitVec 32 := 2048#32
  let c0_i32_15 : BitVec 32 := 0#32
  let c4096_i32 : BitVec 32 := 4096#32
  let c256_i32 : BitVec 32 := 256#32
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let v130 : BitVec 32 := Scalar.addi c0_i32_58 v129
  let c1_i32_61 : BitVec 32 := 1#32
  ⟨v133, v130, c1_i32_61⟩
def k0_mult4 (i : grid0.Coords) (k0_t4 : Fin (k0_t4_loop i).trips) : BitVec 32 :=
  let c0_i32_58 : BitVec 32 := 0#32
  let c2048_i32_16 : BitVec 32 := 2048#32
  let c0_i32_15 : BitVec 32 := 0#32
  let c4096_i32 : BitVec 32 := 4096#32
  let c256_i32 : BitVec 32 := 256#32
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_61 : BitVec 32 := 1#32
  let arg21 : BitVec 32 := Scf.iv v133 c1_i32_61 k0_t4
  let c64_i32_62 : BitVec 32 := 64#32
  let v134 : BitVec 32 := Scalar.muli arg21 c64_i32_62
  v134
def k0_off4 (i : grid0.Coords) (k0_t4 : Fin (k0_t4_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let c0_i32_58 : BitVec 32 := 0#32
  let c2048_i32_16 : BitVec 32 := 2048#32
  let c0_i32_15 : BitVec 32 := 0#32
  let c4096_i32 : BitVec 32 := 4096#32
  let c256_i32 : BitVec 32 := 256#32
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_61 : BitVec 32 := 1#32
  let arg21 : BitVec 32 := Scf.iv v133 c1_i32_61 k0_t4
  let c64_i32_62 : BitVec 32 := 64#32
  let v134 : BitVec 32 := Scalar.muli arg21 c64_i32_62
  let v135 : BitVec 32 := v134
  let v136 : BitVec 32 := Scalar.addi v31 v135
  let c0_i32_63_r2 : BitVec 32 := 0#32
  ![v136.toNat, 0]
def k0_off5 (i : grid0.Coords) (k0_t4 : Fin (k0_t4_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let c4096_i32_17 : BitVec 32 := 4096#32
  let v38 : BitVec 32 := Scalar.muli v20 c4096_i32_17
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v39 : BitVec 32 := Scalar.addi v38 v31
  let v40 : BitVec 32 := v39
  let c0_i32_58 : BitVec 32 := 0#32
  let c2048_i32_16 : BitVec 32 := 2048#32
  let c0_i32_15 : BitVec 32 := 0#32
  let c4096_i32 : BitVec 32 := 4096#32
  let c256_i32 : BitVec 32 := 256#32
  let v32 : BitVec 32 := Scalar.muli c256_i32 v20
  let v33 : BitVec 32 := Scalar.subi c4096_i32 v32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_61 : BitVec 32 := 1#32
  let arg21 : BitVec 32 := Scf.iv v133 c1_i32_61 k0_t4
  let c64_i32_62 : BitVec 32 := 64#32
  let v134 : BitVec 32 := Scalar.muli arg21 c64_i32_62
  let v135 : BitVec 32 := v134
  let v137 : BitVec 32 := Scalar.addi v40 v135
  let c0_i32_63_r3 : BitVec 32 := 0#32
  ![v137.toNat, 0]
def k0_cond2 (i : grid0.Coords) : BitVec 1 :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let c1_i32_20 : BitVec 32 := 1#32
  let v44 : BitVec 1 := Scalar.cmpi .eq v20 c1_i32_20
  let v45 : BitVec 32 := Scalar.extui v44
  let c0_i32_21 : BitVec 32 := 0#32
  let v46 : BitVec 1 := Scalar.cmpi .ne v45 c0_i32_21
  v46

@[reducible] def k0_t5_loop (i : grid0.Coords) : Scf.Loop 32 :=
  let c0_i32_58 : BitVec 32 := 0#32
  let c2048_i32_16 : BitVec 32 := 2048#32
  let c0_i32_15 : BitVec 32 := 0#32
  let c4096_i32 : BitVec 32 := 4096#32
  let c256_i32 : BitVec 32 := 256#32
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_60 : BitVec 32 := 1#32
  ⟨c0_i32_58, v133, c1_i32_60⟩
def k0_mult5 (i : grid0.Coords) (k0_t5 : Fin (k0_t5_loop i).trips) : BitVec 32 :=
  let c0_i32_58 : BitVec 32 := 0#32
  let c1_i32_60 : BitVec 32 := 1#32
  let arg21 : BitVec 32 := Scf.iv c0_i32_58 c1_i32_60 k0_t5
  let c64_i32_62 : BitVec 32 := 64#32
  let v134 : BitVec 32 := Scalar.muli arg21 c64_i32_62
  v134
def k0_off6 (i : grid0.Coords) (k0_t5 : Fin (k0_t5_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let c0_i32_58 : BitVec 32 := 0#32
  let c1_i32_60 : BitVec 32 := 1#32
  let arg21 : BitVec 32 := Scf.iv c0_i32_58 c1_i32_60 k0_t5
  let c64_i32_62 : BitVec 32 := 64#32
  let v134 : BitVec 32 := Scalar.muli arg21 c64_i32_62
  let v135 : BitVec 32 := v134
  let v136 : BitVec 32 := Scalar.addi v31 v135
  let c0_i32_63_r4 : BitVec 32 := 0#32
  ![v136.toNat, 0]
def k0_off7 (i : grid0.Coords) (k0_t5 : Fin (k0_t5_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let c4096_i32_17 : BitVec 32 := 4096#32
  let v38 : BitVec 32 := Scalar.muli v20 c4096_i32_17
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v39 : BitVec 32 := Scalar.addi v38 v31
  let v40 : BitVec 32 := v39
  let c0_i32_58 : BitVec 32 := 0#32
  let c1_i32_60 : BitVec 32 := 1#32
  let arg21 : BitVec 32 := Scf.iv c0_i32_58 c1_i32_60 k0_t5
  let c64_i32_62 : BitVec 32 := 64#32
  let v134 : BitVec 32 := Scalar.muli arg21 c64_i32_62
  let v135 : BitVec 32 := v134
  let v137 : BitVec 32 := Scalar.addi v40 v135
  let c0_i32_63_r5 : BitVec 32 := 0#32
  ![v137.toNat, 0]
@[reducible] def k0_t6_loop (i : grid0.Coords) : Scf.Loop 32 :=
  let c0_i32_58 : BitVec 32 := 0#32
  let c2048_i32_16 : BitVec 32 := 2048#32
  let c0_i32_15 : BitVec 32 := 0#32
  let c4096_i32 : BitVec 32 := 4096#32
  let c256_i32 : BitVec 32 := 256#32
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let v130 : BitVec 32 := Scalar.addi c0_i32_58 v129
  let c1_i32_61 : BitVec 32 := 1#32
  ⟨v133, v130, c1_i32_61⟩
def k0_mult6 (i : grid0.Coords) (k0_t6 : Fin (k0_t6_loop i).trips) : BitVec 32 :=
  let c0_i32_58 : BitVec 32 := 0#32
  let c2048_i32_16 : BitVec 32 := 2048#32
  let c0_i32_15 : BitVec 32 := 0#32
  let c4096_i32 : BitVec 32 := 4096#32
  let c256_i32 : BitVec 32 := 256#32
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_61 : BitVec 32 := 1#32
  let arg21 : BitVec 32 := Scf.iv v133 c1_i32_61 k0_t6
  let c64_i32_62 : BitVec 32 := 64#32
  let v134 : BitVec 32 := Scalar.muli arg21 c64_i32_62
  v134
def k0_off8 (i : grid0.Coords) (k0_t6 : Fin (k0_t6_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let c0_i32_58 : BitVec 32 := 0#32
  let c2048_i32_16 : BitVec 32 := 2048#32
  let c0_i32_15 : BitVec 32 := 0#32
  let c4096_i32 : BitVec 32 := 4096#32
  let c256_i32 : BitVec 32 := 256#32
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_61 : BitVec 32 := 1#32
  let arg21 : BitVec 32 := Scf.iv v133 c1_i32_61 k0_t6
  let c64_i32_62 : BitVec 32 := 64#32
  let v134 : BitVec 32 := Scalar.muli arg21 c64_i32_62
  let v135 : BitVec 32 := v134
  let v136 : BitVec 32 := Scalar.addi v31 v135
  let c0_i32_63_r6 : BitVec 32 := 0#32
  ![v136.toNat, 0]
def k0_off9 (i : grid0.Coords) (k0_t6 : Fin (k0_t6_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let c4096_i32_17 : BitVec 32 := 4096#32
  let v38 : BitVec 32 := Scalar.muli v20 c4096_i32_17
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v39 : BitVec 32 := Scalar.addi v38 v31
  let v40 : BitVec 32 := v39
  let c0_i32_58 : BitVec 32 := 0#32
  let c2048_i32_16 : BitVec 32 := 2048#32
  let c0_i32_15 : BitVec 32 := 0#32
  let c4096_i32 : BitVec 32 := 4096#32
  let c256_i32 : BitVec 32 := 256#32
  let v32 : BitVec 32 := Scalar.muli c256_i32 v20
  let v33 : BitVec 32 := Scalar.subi c4096_i32 v32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_61 : BitVec 32 := 1#32
  let arg21 : BitVec 32 := Scf.iv v133 c1_i32_61 k0_t6
  let c64_i32_62 : BitVec 32 := 64#32
  let v134 : BitVec 32 := Scalar.muli arg21 c64_i32_62
  let v135 : BitVec 32 := v134
  let v137 : BitVec 32 := Scalar.addi v40 v135
  let c0_i32_63_r7 : BitVec 32 := 0#32
  ![v137.toNat, 0]
def k0_cond3 (i : grid0.Coords) : BitVec 1 :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let c2_i32_22 : BitVec 32 := 2#32
  let v47 : BitVec 1 := Scalar.cmpi .eq v20 c2_i32_22
  let v48 : BitVec 32 := Scalar.extui v47
  let c0_i32_23 : BitVec 32 := 0#32
  let v49 : BitVec 1 := Scalar.cmpi .ne v48 c0_i32_23
  v49

@[reducible] def k0_t7_loop (i : grid0.Coords) : Scf.Loop 32 :=
  let c0_i32_58 : BitVec 32 := 0#32
  let c2048_i32_16 : BitVec 32 := 2048#32
  let c0_i32_15 : BitVec 32 := 0#32
  let c4096_i32 : BitVec 32 := 4096#32
  let c256_i32 : BitVec 32 := 256#32
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_60 : BitVec 32 := 1#32
  ⟨c0_i32_58, v133, c1_i32_60⟩
def k0_mult7 (i : grid0.Coords) (k0_t7 : Fin (k0_t7_loop i).trips) : BitVec 32 :=
  let c0_i32_58 : BitVec 32 := 0#32
  let c1_i32_60 : BitVec 32 := 1#32
  let arg21 : BitVec 32 := Scf.iv c0_i32_58 c1_i32_60 k0_t7
  let c64_i32_62 : BitVec 32 := 64#32
  let v134 : BitVec 32 := Scalar.muli arg21 c64_i32_62
  v134
def k0_off10 (i : grid0.Coords) (k0_t7 : Fin (k0_t7_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let c0_i32_58 : BitVec 32 := 0#32
  let c1_i32_60 : BitVec 32 := 1#32
  let arg21 : BitVec 32 := Scf.iv c0_i32_58 c1_i32_60 k0_t7
  let c64_i32_62 : BitVec 32 := 64#32
  let v134 : BitVec 32 := Scalar.muli arg21 c64_i32_62
  let v135 : BitVec 32 := v134
  let v136 : BitVec 32 := Scalar.addi v31 v135
  let c0_i32_63_r8 : BitVec 32 := 0#32
  ![v136.toNat, 0]
def k0_off11 (i : grid0.Coords) (k0_t7 : Fin (k0_t7_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let c4096_i32_17 : BitVec 32 := 4096#32
  let v38 : BitVec 32 := Scalar.muli v20 c4096_i32_17
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v39 : BitVec 32 := Scalar.addi v38 v31
  let v40 : BitVec 32 := v39
  let c0_i32_58 : BitVec 32 := 0#32
  let c1_i32_60 : BitVec 32 := 1#32
  let arg21 : BitVec 32 := Scf.iv c0_i32_58 c1_i32_60 k0_t7
  let c64_i32_62 : BitVec 32 := 64#32
  let v134 : BitVec 32 := Scalar.muli arg21 c64_i32_62
  let v135 : BitVec 32 := v134
  let v137 : BitVec 32 := Scalar.addi v40 v135
  let c0_i32_63_r9 : BitVec 32 := 0#32
  ![v137.toNat, 0]
@[reducible] def k0_t8_loop (i : grid0.Coords) : Scf.Loop 32 :=
  let c0_i32_58 : BitVec 32 := 0#32
  let c2048_i32_16 : BitVec 32 := 2048#32
  let c0_i32_15 : BitVec 32 := 0#32
  let c4096_i32 : BitVec 32 := 4096#32
  let c256_i32 : BitVec 32 := 256#32
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let v130 : BitVec 32 := Scalar.addi c0_i32_58 v129
  let c1_i32_61 : BitVec 32 := 1#32
  ⟨v133, v130, c1_i32_61⟩
def k0_mult8 (i : grid0.Coords) (k0_t8 : Fin (k0_t8_loop i).trips) : BitVec 32 :=
  let c0_i32_58 : BitVec 32 := 0#32
  let c2048_i32_16 : BitVec 32 := 2048#32
  let c0_i32_15 : BitVec 32 := 0#32
  let c4096_i32 : BitVec 32 := 4096#32
  let c256_i32 : BitVec 32 := 256#32
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_61 : BitVec 32 := 1#32
  let arg21 : BitVec 32 := Scf.iv v133 c1_i32_61 k0_t8
  let c64_i32_62 : BitVec 32 := 64#32
  let v134 : BitVec 32 := Scalar.muli arg21 c64_i32_62
  v134
def k0_off12 (i : grid0.Coords) (k0_t8 : Fin (k0_t8_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let c0_i32_58 : BitVec 32 := 0#32
  let c2048_i32_16 : BitVec 32 := 2048#32
  let c0_i32_15 : BitVec 32 := 0#32
  let c4096_i32 : BitVec 32 := 4096#32
  let c256_i32 : BitVec 32 := 256#32
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_61 : BitVec 32 := 1#32
  let arg21 : BitVec 32 := Scf.iv v133 c1_i32_61 k0_t8
  let c64_i32_62 : BitVec 32 := 64#32
  let v134 : BitVec 32 := Scalar.muli arg21 c64_i32_62
  let v135 : BitVec 32 := v134
  let v136 : BitVec 32 := Scalar.addi v31 v135
  let c0_i32_63_r10 : BitVec 32 := 0#32
  ![v136.toNat, 0]
def k0_off13 (i : grid0.Coords) (k0_t8 : Fin (k0_t8_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let c4096_i32_17 : BitVec 32 := 4096#32
  let v38 : BitVec 32 := Scalar.muli v20 c4096_i32_17
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v39 : BitVec 32 := Scalar.addi v38 v31
  let v40 : BitVec 32 := v39
  let c0_i32_58 : BitVec 32 := 0#32
  let c2048_i32_16 : BitVec 32 := 2048#32
  let c0_i32_15 : BitVec 32 := 0#32
  let c4096_i32 : BitVec 32 := 4096#32
  let c256_i32 : BitVec 32 := 256#32
  let v32 : BitVec 32 := Scalar.muli c256_i32 v20
  let v33 : BitVec 32 := Scalar.subi c4096_i32 v32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_61 : BitVec 32 := 1#32
  let arg21 : BitVec 32 := Scf.iv v133 c1_i32_61 k0_t8
  let c64_i32_62 : BitVec 32 := 64#32
  let v134 : BitVec 32 := Scalar.muli arg21 c64_i32_62
  let v135 : BitVec 32 := v134
  let v137 : BitVec 32 := Scalar.addi v40 v135
  let c0_i32_63_r11 : BitVec 32 := 0#32
  ![v137.toNat, 0]
def k0_cond4 (i : grid0.Coords) : BitVec 1 :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let c3_i32 : BitVec 32 := 3#32
  let v50 : BitVec 1 := Scalar.cmpi .eq v20 c3_i32
  let v51 : BitVec 32 := Scalar.extui v50
  let c0_i32_24 : BitVec 32 := 0#32
  let v52 : BitVec 1 := Scalar.cmpi .ne v51 c0_i32_24
  v52

@[reducible] def k0_t9_loop (i : grid0.Coords) : Scf.Loop 32 :=
  let c0_i32_58 : BitVec 32 := 0#32
  let c2048_i32_16 : BitVec 32 := 2048#32
  let c0_i32_15 : BitVec 32 := 0#32
  let c4096_i32 : BitVec 32 := 4096#32
  let c256_i32 : BitVec 32 := 256#32
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_60 : BitVec 32 := 1#32
  ⟨c0_i32_58, v133, c1_i32_60⟩
def k0_mult9 (i : grid0.Coords) (k0_t9 : Fin (k0_t9_loop i).trips) : BitVec 32 :=
  let c0_i32_58 : BitVec 32 := 0#32
  let c1_i32_60 : BitVec 32 := 1#32
  let arg21 : BitVec 32 := Scf.iv c0_i32_58 c1_i32_60 k0_t9
  let c64_i32_62 : BitVec 32 := 64#32
  let v134 : BitVec 32 := Scalar.muli arg21 c64_i32_62
  v134
def k0_off14 (i : grid0.Coords) (k0_t9 : Fin (k0_t9_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let c0_i32_58 : BitVec 32 := 0#32
  let c1_i32_60 : BitVec 32 := 1#32
  let arg21 : BitVec 32 := Scf.iv c0_i32_58 c1_i32_60 k0_t9
  let c64_i32_62 : BitVec 32 := 64#32
  let v134 : BitVec 32 := Scalar.muli arg21 c64_i32_62
  let v135 : BitVec 32 := v134
  let v136 : BitVec 32 := Scalar.addi v31 v135
  let c0_i32_63_r12 : BitVec 32 := 0#32
  ![v136.toNat, 0]
def k0_off15 (i : grid0.Coords) (k0_t9 : Fin (k0_t9_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let c4096_i32_17 : BitVec 32 := 4096#32
  let v38 : BitVec 32 := Scalar.muli v20 c4096_i32_17
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v39 : BitVec 32 := Scalar.addi v38 v31
  let v40 : BitVec 32 := v39
  let c0_i32_58 : BitVec 32 := 0#32
  let c1_i32_60 : BitVec 32 := 1#32
  let arg21 : BitVec 32 := Scf.iv c0_i32_58 c1_i32_60 k0_t9
  let c64_i32_62 : BitVec 32 := 64#32
  let v134 : BitVec 32 := Scalar.muli arg21 c64_i32_62
  let v135 : BitVec 32 := v134
  let v137 : BitVec 32 := Scalar.addi v40 v135
  let c0_i32_63_r13 : BitVec 32 := 0#32
  ![v137.toNat, 0]
@[reducible] def k0_t10_loop (i : grid0.Coords) : Scf.Loop 32 :=
  let c0_i32_58 : BitVec 32 := 0#32
  let c2048_i32_16 : BitVec 32 := 2048#32
  let c0_i32_15 : BitVec 32 := 0#32
  let c4096_i32 : BitVec 32 := 4096#32
  let c256_i32 : BitVec 32 := 256#32
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let v130 : BitVec 32 := Scalar.addi c0_i32_58 v129
  let c1_i32_61 : BitVec 32 := 1#32
  ⟨v133, v130, c1_i32_61⟩
def k0_mult10 (i : grid0.Coords) (k0_t10 : Fin (k0_t10_loop i).trips) : BitVec 32 :=
  let c0_i32_58 : BitVec 32 := 0#32
  let c2048_i32_16 : BitVec 32 := 2048#32
  let c0_i32_15 : BitVec 32 := 0#32
  let c4096_i32 : BitVec 32 := 4096#32
  let c256_i32 : BitVec 32 := 256#32
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_61 : BitVec 32 := 1#32
  let arg21 : BitVec 32 := Scf.iv v133 c1_i32_61 k0_t10
  let c64_i32_62 : BitVec 32 := 64#32
  let v134 : BitVec 32 := Scalar.muli arg21 c64_i32_62
  v134
def k0_off16 (i : grid0.Coords) (k0_t10 : Fin (k0_t10_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let c0_i32_58 : BitVec 32 := 0#32
  let c2048_i32_16 : BitVec 32 := 2048#32
  let c0_i32_15 : BitVec 32 := 0#32
  let c4096_i32 : BitVec 32 := 4096#32
  let c256_i32 : BitVec 32 := 256#32
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_61 : BitVec 32 := 1#32
  let arg21 : BitVec 32 := Scf.iv v133 c1_i32_61 k0_t10
  let c64_i32_62 : BitVec 32 := 64#32
  let v134 : BitVec 32 := Scalar.muli arg21 c64_i32_62
  let v135 : BitVec 32 := v134
  let v136 : BitVec 32 := Scalar.addi v31 v135
  let c0_i32_63_r14 : BitVec 32 := 0#32
  ![v136.toNat, 0]
def k0_off17 (i : grid0.Coords) (k0_t10 : Fin (k0_t10_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let c4096_i32_17 : BitVec 32 := 4096#32
  let v38 : BitVec 32 := Scalar.muli v20 c4096_i32_17
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v39 : BitVec 32 := Scalar.addi v38 v31
  let v40 : BitVec 32 := v39
  let c0_i32_58 : BitVec 32 := 0#32
  let c2048_i32_16 : BitVec 32 := 2048#32
  let c0_i32_15 : BitVec 32 := 0#32
  let c4096_i32 : BitVec 32 := 4096#32
  let c256_i32 : BitVec 32 := 256#32
  let v32 : BitVec 32 := Scalar.muli c256_i32 v20
  let v33 : BitVec 32 := Scalar.subi c4096_i32 v32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_61 : BitVec 32 := 1#32
  let arg21 : BitVec 32 := Scf.iv v133 c1_i32_61 k0_t10
  let c64_i32_62 : BitVec 32 := 64#32
  let v134 : BitVec 32 := Scalar.muli arg21 c64_i32_62
  let v135 : BitVec 32 := v134
  let v137 : BitVec 32 := Scalar.addi v40 v135
  let c0_i32_63_r15 : BitVec 32 := 0#32
  ![v137.toNat, 0]
def k0_cond5 (i : grid0.Coords) : BitVec 1 :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let c4_i32 : BitVec 32 := 4#32
  let v53 : BitVec 1 := Scalar.cmpi .eq v20 c4_i32
  let v54 : BitVec 32 := Scalar.extui v53
  let c0_i32_25 : BitVec 32 := 0#32
  let v55 : BitVec 1 := Scalar.cmpi .ne v54 c0_i32_25
  v55

@[reducible] def k0_t11_loop (i : grid0.Coords) : Scf.Loop 32 :=
  let c0_i32_58 : BitVec 32 := 0#32
  let c2048_i32_16 : BitVec 32 := 2048#32
  let c0_i32_15 : BitVec 32 := 0#32
  let c4096_i32 : BitVec 32 := 4096#32
  let c256_i32 : BitVec 32 := 256#32
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_60 : BitVec 32 := 1#32
  ⟨c0_i32_58, v133, c1_i32_60⟩
def k0_mult11 (i : grid0.Coords) (k0_t11 : Fin (k0_t11_loop i).trips) : BitVec 32 :=
  let c0_i32_58 : BitVec 32 := 0#32
  let c1_i32_60 : BitVec 32 := 1#32
  let arg21 : BitVec 32 := Scf.iv c0_i32_58 c1_i32_60 k0_t11
  let c64_i32_62 : BitVec 32 := 64#32
  let v134 : BitVec 32 := Scalar.muli arg21 c64_i32_62
  v134
def k0_off18 (i : grid0.Coords) (k0_t11 : Fin (k0_t11_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let c0_i32_58 : BitVec 32 := 0#32
  let c1_i32_60 : BitVec 32 := 1#32
  let arg21 : BitVec 32 := Scf.iv c0_i32_58 c1_i32_60 k0_t11
  let c64_i32_62 : BitVec 32 := 64#32
  let v134 : BitVec 32 := Scalar.muli arg21 c64_i32_62
  let v135 : BitVec 32 := v134
  let v136 : BitVec 32 := Scalar.addi v31 v135
  let c0_i32_63_r16 : BitVec 32 := 0#32
  ![v136.toNat, 0]
def k0_off19 (i : grid0.Coords) (k0_t11 : Fin (k0_t11_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let c4096_i32_17 : BitVec 32 := 4096#32
  let v38 : BitVec 32 := Scalar.muli v20 c4096_i32_17
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v39 : BitVec 32 := Scalar.addi v38 v31
  let v40 : BitVec 32 := v39
  let c0_i32_58 : BitVec 32 := 0#32
  let c1_i32_60 : BitVec 32 := 1#32
  let arg21 : BitVec 32 := Scf.iv c0_i32_58 c1_i32_60 k0_t11
  let c64_i32_62 : BitVec 32 := 64#32
  let v134 : BitVec 32 := Scalar.muli arg21 c64_i32_62
  let v135 : BitVec 32 := v134
  let v137 : BitVec 32 := Scalar.addi v40 v135
  let c0_i32_63_r17 : BitVec 32 := 0#32
  ![v137.toNat, 0]
@[reducible] def k0_t12_loop (i : grid0.Coords) : Scf.Loop 32 :=
  let c0_i32_58 : BitVec 32 := 0#32
  let c2048_i32_16 : BitVec 32 := 2048#32
  let c0_i32_15 : BitVec 32 := 0#32
  let c4096_i32 : BitVec 32 := 4096#32
  let c256_i32 : BitVec 32 := 256#32
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let v130 : BitVec 32 := Scalar.addi c0_i32_58 v129
  let c1_i32_61 : BitVec 32 := 1#32
  ⟨v133, v130, c1_i32_61⟩
def k0_mult12 (i : grid0.Coords) (k0_t12 : Fin (k0_t12_loop i).trips) : BitVec 32 :=
  let c0_i32_58 : BitVec 32 := 0#32
  let c2048_i32_16 : BitVec 32 := 2048#32
  let c0_i32_15 : BitVec 32 := 0#32
  let c4096_i32 : BitVec 32 := 4096#32
  let c256_i32 : BitVec 32 := 256#32
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_61 : BitVec 32 := 1#32
  let arg21 : BitVec 32 := Scf.iv v133 c1_i32_61 k0_t12
  let c64_i32_62 : BitVec 32 := 64#32
  let v134 : BitVec 32 := Scalar.muli arg21 c64_i32_62
  v134
def k0_off20 (i : grid0.Coords) (k0_t12 : Fin (k0_t12_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let c0_i32_58 : BitVec 32 := 0#32
  let c2048_i32_16 : BitVec 32 := 2048#32
  let c0_i32_15 : BitVec 32 := 0#32
  let c4096_i32 : BitVec 32 := 4096#32
  let c256_i32 : BitVec 32 := 256#32
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_61 : BitVec 32 := 1#32
  let arg21 : BitVec 32 := Scf.iv v133 c1_i32_61 k0_t12
  let c64_i32_62 : BitVec 32 := 64#32
  let v134 : BitVec 32 := Scalar.muli arg21 c64_i32_62
  let v135 : BitVec 32 := v134
  let v136 : BitVec 32 := Scalar.addi v31 v135
  let c0_i32_63_r18 : BitVec 32 := 0#32
  ![v136.toNat, 0]
def k0_off21 (i : grid0.Coords) (k0_t12 : Fin (k0_t12_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let c4096_i32_17 : BitVec 32 := 4096#32
  let v38 : BitVec 32 := Scalar.muli v20 c4096_i32_17
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v39 : BitVec 32 := Scalar.addi v38 v31
  let v40 : BitVec 32 := v39
  let c0_i32_58 : BitVec 32 := 0#32
  let c2048_i32_16 : BitVec 32 := 2048#32
  let c0_i32_15 : BitVec 32 := 0#32
  let c4096_i32 : BitVec 32 := 4096#32
  let c256_i32 : BitVec 32 := 256#32
  let v32 : BitVec 32 := Scalar.muli c256_i32 v20
  let v33 : BitVec 32 := Scalar.subi c4096_i32 v32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_61 : BitVec 32 := 1#32
  let arg21 : BitVec 32 := Scf.iv v133 c1_i32_61 k0_t12
  let c64_i32_62 : BitVec 32 := 64#32
  let v134 : BitVec 32 := Scalar.muli arg21 c64_i32_62
  let v135 : BitVec 32 := v134
  let v137 : BitVec 32 := Scalar.addi v40 v135
  let c0_i32_63_r19 : BitVec 32 := 0#32
  ![v137.toNat, 0]
def k0_cond6 (i : grid0.Coords) : BitVec 1 :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let c5_i32 : BitVec 32 := 5#32
  let v56 : BitVec 1 := Scalar.cmpi .eq v20 c5_i32
  let v57 : BitVec 32 := Scalar.extui v56
  let c0_i32_26 : BitVec 32 := 0#32
  let v58 : BitVec 1 := Scalar.cmpi .ne v57 c0_i32_26
  v58

@[reducible] def k0_t13_loop (i : grid0.Coords) : Scf.Loop 32 :=
  let c0_i32_58 : BitVec 32 := 0#32
  let c2048_i32_16 : BitVec 32 := 2048#32
  let c0_i32_15 : BitVec 32 := 0#32
  let c4096_i32 : BitVec 32 := 4096#32
  let c256_i32 : BitVec 32 := 256#32
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_60 : BitVec 32 := 1#32
  ⟨c0_i32_58, v133, c1_i32_60⟩
def k0_mult13 (i : grid0.Coords) (k0_t13 : Fin (k0_t13_loop i).trips) : BitVec 32 :=
  let c0_i32_58 : BitVec 32 := 0#32
  let c1_i32_60 : BitVec 32 := 1#32
  let arg21 : BitVec 32 := Scf.iv c0_i32_58 c1_i32_60 k0_t13
  let c64_i32_62 : BitVec 32 := 64#32
  let v134 : BitVec 32 := Scalar.muli arg21 c64_i32_62
  v134
def k0_off22 (i : grid0.Coords) (k0_t13 : Fin (k0_t13_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let c0_i32_58 : BitVec 32 := 0#32
  let c1_i32_60 : BitVec 32 := 1#32
  let arg21 : BitVec 32 := Scf.iv c0_i32_58 c1_i32_60 k0_t13
  let c64_i32_62 : BitVec 32 := 64#32
  let v134 : BitVec 32 := Scalar.muli arg21 c64_i32_62
  let v135 : BitVec 32 := v134
  let v136 : BitVec 32 := Scalar.addi v31 v135
  let c0_i32_63_r20 : BitVec 32 := 0#32
  ![v136.toNat, 0]
def k0_off23 (i : grid0.Coords) (k0_t13 : Fin (k0_t13_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let c4096_i32_17 : BitVec 32 := 4096#32
  let v38 : BitVec 32 := Scalar.muli v20 c4096_i32_17
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v39 : BitVec 32 := Scalar.addi v38 v31
  let v40 : BitVec 32 := v39
  let c0_i32_58 : BitVec 32 := 0#32
  let c1_i32_60 : BitVec 32 := 1#32
  let arg21 : BitVec 32 := Scf.iv c0_i32_58 c1_i32_60 k0_t13
  let c64_i32_62 : BitVec 32 := 64#32
  let v134 : BitVec 32 := Scalar.muli arg21 c64_i32_62
  let v135 : BitVec 32 := v134
  let v137 : BitVec 32 := Scalar.addi v40 v135
  let c0_i32_63_r21 : BitVec 32 := 0#32
  ![v137.toNat, 0]
@[reducible] def k0_t14_loop (i : grid0.Coords) : Scf.Loop 32 :=
  let c0_i32_58 : BitVec 32 := 0#32
  let c2048_i32_16 : BitVec 32 := 2048#32
  let c0_i32_15 : BitVec 32 := 0#32
  let c4096_i32 : BitVec 32 := 4096#32
  let c256_i32 : BitVec 32 := 256#32
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let v130 : BitVec 32 := Scalar.addi c0_i32_58 v129
  let c1_i32_61 : BitVec 32 := 1#32
  ⟨v133, v130, c1_i32_61⟩
def k0_mult14 (i : grid0.Coords) (k0_t14 : Fin (k0_t14_loop i).trips) : BitVec 32 :=
  let c0_i32_58 : BitVec 32 := 0#32
  let c2048_i32_16 : BitVec 32 := 2048#32
  let c0_i32_15 : BitVec 32 := 0#32
  let c4096_i32 : BitVec 32 := 4096#32
  let c256_i32 : BitVec 32 := 256#32
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_61 : BitVec 32 := 1#32
  let arg21 : BitVec 32 := Scf.iv v133 c1_i32_61 k0_t14
  let c64_i32_62 : BitVec 32 := 64#32
  let v134 : BitVec 32 := Scalar.muli arg21 c64_i32_62
  v134
def k0_off24 (i : grid0.Coords) (k0_t14 : Fin (k0_t14_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let c0_i32_58 : BitVec 32 := 0#32
  let c2048_i32_16 : BitVec 32 := 2048#32
  let c0_i32_15 : BitVec 32 := 0#32
  let c4096_i32 : BitVec 32 := 4096#32
  let c256_i32 : BitVec 32 := 256#32
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_61 : BitVec 32 := 1#32
  let arg21 : BitVec 32 := Scf.iv v133 c1_i32_61 k0_t14
  let c64_i32_62 : BitVec 32 := 64#32
  let v134 : BitVec 32 := Scalar.muli arg21 c64_i32_62
  let v135 : BitVec 32 := v134
  let v136 : BitVec 32 := Scalar.addi v31 v135
  let c0_i32_63_r22 : BitVec 32 := 0#32
  ![v136.toNat, 0]
def k0_off25 (i : grid0.Coords) (k0_t14 : Fin (k0_t14_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let c4096_i32_17 : BitVec 32 := 4096#32
  let v38 : BitVec 32 := Scalar.muli v20 c4096_i32_17
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v39 : BitVec 32 := Scalar.addi v38 v31
  let v40 : BitVec 32 := v39
  let c0_i32_58 : BitVec 32 := 0#32
  let c2048_i32_16 : BitVec 32 := 2048#32
  let c0_i32_15 : BitVec 32 := 0#32
  let c4096_i32 : BitVec 32 := 4096#32
  let c256_i32 : BitVec 32 := 256#32
  let v32 : BitVec 32 := Scalar.muli c256_i32 v20
  let v33 : BitVec 32 := Scalar.subi c4096_i32 v32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_61 : BitVec 32 := 1#32
  let arg21 : BitVec 32 := Scf.iv v133 c1_i32_61 k0_t14
  let c64_i32_62 : BitVec 32 := 64#32
  let v134 : BitVec 32 := Scalar.muli arg21 c64_i32_62
  let v135 : BitVec 32 := v134
  let v137 : BitVec 32 := Scalar.addi v40 v135
  let c0_i32_63_r23 : BitVec 32 := 0#32
  ![v137.toNat, 0]
def k0_cond7 (i : grid0.Coords) : BitVec 1 :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let c6_i32 : BitVec 32 := 6#32
  let v59 : BitVec 1 := Scalar.cmpi .eq v20 c6_i32
  let v60 : BitVec 32 := Scalar.extui v59
  let c0_i32_27 : BitVec 32 := 0#32
  let v61 : BitVec 1 := Scalar.cmpi .ne v60 c0_i32_27
  v61

@[reducible] def k0_t15_loop (i : grid0.Coords) : Scf.Loop 32 :=
  let c0_i32_58 : BitVec 32 := 0#32
  let c2048_i32_16 : BitVec 32 := 2048#32
  let c0_i32_15 : BitVec 32 := 0#32
  let c4096_i32 : BitVec 32 := 4096#32
  let c256_i32 : BitVec 32 := 256#32
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_60 : BitVec 32 := 1#32
  ⟨c0_i32_58, v133, c1_i32_60⟩
def k0_mult15 (i : grid0.Coords) (k0_t15 : Fin (k0_t15_loop i).trips) : BitVec 32 :=
  let c0_i32_58 : BitVec 32 := 0#32
  let c1_i32_60 : BitVec 32 := 1#32
  let arg21 : BitVec 32 := Scf.iv c0_i32_58 c1_i32_60 k0_t15
  let c64_i32_62 : BitVec 32 := 64#32
  let v134 : BitVec 32 := Scalar.muli arg21 c64_i32_62
  v134
def k0_off26 (i : grid0.Coords) (k0_t15 : Fin (k0_t15_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let c0_i32_58 : BitVec 32 := 0#32
  let c1_i32_60 : BitVec 32 := 1#32
  let arg21 : BitVec 32 := Scf.iv c0_i32_58 c1_i32_60 k0_t15
  let c64_i32_62 : BitVec 32 := 64#32
  let v134 : BitVec 32 := Scalar.muli arg21 c64_i32_62
  let v135 : BitVec 32 := v134
  let v136 : BitVec 32 := Scalar.addi v31 v135
  let c0_i32_63_r24 : BitVec 32 := 0#32
  ![v136.toNat, 0]
def k0_off27 (i : grid0.Coords) (k0_t15 : Fin (k0_t15_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let c4096_i32_17 : BitVec 32 := 4096#32
  let v38 : BitVec 32 := Scalar.muli v20 c4096_i32_17
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v39 : BitVec 32 := Scalar.addi v38 v31
  let v40 : BitVec 32 := v39
  let c0_i32_58 : BitVec 32 := 0#32
  let c1_i32_60 : BitVec 32 := 1#32
  let arg21 : BitVec 32 := Scf.iv c0_i32_58 c1_i32_60 k0_t15
  let c64_i32_62 : BitVec 32 := 64#32
  let v134 : BitVec 32 := Scalar.muli arg21 c64_i32_62
  let v135 : BitVec 32 := v134
  let v137 : BitVec 32 := Scalar.addi v40 v135
  let c0_i32_63_r25 : BitVec 32 := 0#32
  ![v137.toNat, 0]
@[reducible] def k0_t16_loop (i : grid0.Coords) : Scf.Loop 32 :=
  let c0_i32_58 : BitVec 32 := 0#32
  let c2048_i32_16 : BitVec 32 := 2048#32
  let c0_i32_15 : BitVec 32 := 0#32
  let c4096_i32 : BitVec 32 := 4096#32
  let c256_i32 : BitVec 32 := 256#32
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let v130 : BitVec 32 := Scalar.addi c0_i32_58 v129
  let c1_i32_61 : BitVec 32 := 1#32
  ⟨v133, v130, c1_i32_61⟩
def k0_mult16 (i : grid0.Coords) (k0_t16 : Fin (k0_t16_loop i).trips) : BitVec 32 :=
  let c0_i32_58 : BitVec 32 := 0#32
  let c2048_i32_16 : BitVec 32 := 2048#32
  let c0_i32_15 : BitVec 32 := 0#32
  let c4096_i32 : BitVec 32 := 4096#32
  let c256_i32 : BitVec 32 := 256#32
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_61 : BitVec 32 := 1#32
  let arg21 : BitVec 32 := Scf.iv v133 c1_i32_61 k0_t16
  let c64_i32_62 : BitVec 32 := 64#32
  let v134 : BitVec 32 := Scalar.muli arg21 c64_i32_62
  v134
def k0_off28 (i : grid0.Coords) (k0_t16 : Fin (k0_t16_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let c0_i32_58 : BitVec 32 := 0#32
  let c2048_i32_16 : BitVec 32 := 2048#32
  let c0_i32_15 : BitVec 32 := 0#32
  let c4096_i32 : BitVec 32 := 4096#32
  let c256_i32 : BitVec 32 := 256#32
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_61 : BitVec 32 := 1#32
  let arg21 : BitVec 32 := Scf.iv v133 c1_i32_61 k0_t16
  let c64_i32_62 : BitVec 32 := 64#32
  let v134 : BitVec 32 := Scalar.muli arg21 c64_i32_62
  let v135 : BitVec 32 := v134
  let v136 : BitVec 32 := Scalar.addi v31 v135
  let c0_i32_63_r26 : BitVec 32 := 0#32
  ![v136.toNat, 0]
def k0_off29 (i : grid0.Coords) (k0_t16 : Fin (k0_t16_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let c4096_i32_17 : BitVec 32 := 4096#32
  let v38 : BitVec 32 := Scalar.muli v20 c4096_i32_17
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v39 : BitVec 32 := Scalar.addi v38 v31
  let v40 : BitVec 32 := v39
  let c0_i32_58 : BitVec 32 := 0#32
  let c2048_i32_16 : BitVec 32 := 2048#32
  let c0_i32_15 : BitVec 32 := 0#32
  let c4096_i32 : BitVec 32 := 4096#32
  let c256_i32 : BitVec 32 := 256#32
  let v32 : BitVec 32 := Scalar.muli c256_i32 v20
  let v33 : BitVec 32 := Scalar.subi c4096_i32 v32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_61 : BitVec 32 := 1#32
  let arg21 : BitVec 32 := Scf.iv v133 c1_i32_61 k0_t16
  let c64_i32_62 : BitVec 32 := 64#32
  let v134 : BitVec 32 := Scalar.muli arg21 c64_i32_62
  let v135 : BitVec 32 := v134
  let v137 : BitVec 32 := Scalar.addi v40 v135
  let c0_i32_63_r27 : BitVec 32 := 0#32
  ![v137.toNat, 0]
def k0_cond8 (i : grid0.Coords) : BitVec 1 :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let c7_i32 : BitVec 32 := 7#32
  let v62 : BitVec 1 := Scalar.cmpi .eq v20 c7_i32
  let v63 : BitVec 32 := Scalar.extui v62
  let c0_i32_28 : BitVec 32 := 0#32
  let v64 : BitVec 1 := Scalar.cmpi .ne v63 c0_i32_28
  v64

@[reducible] def k0_t17_loop (i : grid0.Coords) : Scf.Loop 32 :=
  let c0_i32_58 : BitVec 32 := 0#32
  let c2048_i32_16 : BitVec 32 := 2048#32
  let c0_i32_15 : BitVec 32 := 0#32
  let c4096_i32 : BitVec 32 := 4096#32
  let c256_i32 : BitVec 32 := 256#32
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_60 : BitVec 32 := 1#32
  ⟨c0_i32_58, v133, c1_i32_60⟩
def k0_mult17 (i : grid0.Coords) (k0_t17 : Fin (k0_t17_loop i).trips) : BitVec 32 :=
  let c0_i32_58 : BitVec 32 := 0#32
  let c1_i32_60 : BitVec 32 := 1#32
  let arg21 : BitVec 32 := Scf.iv c0_i32_58 c1_i32_60 k0_t17
  let c64_i32_62 : BitVec 32 := 64#32
  let v134 : BitVec 32 := Scalar.muli arg21 c64_i32_62
  v134
def k0_off30 (i : grid0.Coords) (k0_t17 : Fin (k0_t17_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let c0_i32_58 : BitVec 32 := 0#32
  let c1_i32_60 : BitVec 32 := 1#32
  let arg21 : BitVec 32 := Scf.iv c0_i32_58 c1_i32_60 k0_t17
  let c64_i32_62 : BitVec 32 := 64#32
  let v134 : BitVec 32 := Scalar.muli arg21 c64_i32_62
  let v135 : BitVec 32 := v134
  let v136 : BitVec 32 := Scalar.addi v31 v135
  let c0_i32_63_r28 : BitVec 32 := 0#32
  ![v136.toNat, 0]
def k0_off31 (i : grid0.Coords) (k0_t17 : Fin (k0_t17_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let c4096_i32_17 : BitVec 32 := 4096#32
  let v38 : BitVec 32 := Scalar.muli v20 c4096_i32_17
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v39 : BitVec 32 := Scalar.addi v38 v31
  let v40 : BitVec 32 := v39
  let c0_i32_58 : BitVec 32 := 0#32
  let c1_i32_60 : BitVec 32 := 1#32
  let arg21 : BitVec 32 := Scf.iv c0_i32_58 c1_i32_60 k0_t17
  let c64_i32_62 : BitVec 32 := 64#32
  let v134 : BitVec 32 := Scalar.muli arg21 c64_i32_62
  let v135 : BitVec 32 := v134
  let v137 : BitVec 32 := Scalar.addi v40 v135
  let c0_i32_63_r29 : BitVec 32 := 0#32
  ![v137.toNat, 0]
@[reducible] def k0_t18_loop (i : grid0.Coords) : Scf.Loop 32 :=
  let c0_i32_58 : BitVec 32 := 0#32
  let c2048_i32_16 : BitVec 32 := 2048#32
  let c0_i32_15 : BitVec 32 := 0#32
  let c4096_i32 : BitVec 32 := 4096#32
  let c256_i32 : BitVec 32 := 256#32
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let v130 : BitVec 32 := Scalar.addi c0_i32_58 v129
  let c1_i32_61 : BitVec 32 := 1#32
  ⟨v133, v130, c1_i32_61⟩
def k0_mult18 (i : grid0.Coords) (k0_t18 : Fin (k0_t18_loop i).trips) : BitVec 32 :=
  let c0_i32_58 : BitVec 32 := 0#32
  let c2048_i32_16 : BitVec 32 := 2048#32
  let c0_i32_15 : BitVec 32 := 0#32
  let c4096_i32 : BitVec 32 := 4096#32
  let c256_i32 : BitVec 32 := 256#32
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_61 : BitVec 32 := 1#32
  let arg21 : BitVec 32 := Scf.iv v133 c1_i32_61 k0_t18
  let c64_i32_62 : BitVec 32 := 64#32
  let v134 : BitVec 32 := Scalar.muli arg21 c64_i32_62
  v134
def k0_off32 (i : grid0.Coords) (k0_t18 : Fin (k0_t18_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let c0_i32_58 : BitVec 32 := 0#32
  let c2048_i32_16 : BitVec 32 := 2048#32
  let c0_i32_15 : BitVec 32 := 0#32
  let c4096_i32 : BitVec 32 := 4096#32
  let c256_i32 : BitVec 32 := 256#32
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_61 : BitVec 32 := 1#32
  let arg21 : BitVec 32 := Scf.iv v133 c1_i32_61 k0_t18
  let c64_i32_62 : BitVec 32 := 64#32
  let v134 : BitVec 32 := Scalar.muli arg21 c64_i32_62
  let v135 : BitVec 32 := v134
  let v136 : BitVec 32 := Scalar.addi v31 v135
  let c0_i32_63_r30 : BitVec 32 := 0#32
  ![v136.toNat, 0]
def k0_off33 (i : grid0.Coords) (k0_t18 : Fin (k0_t18_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let c4096_i32_17 : BitVec 32 := 4096#32
  let v38 : BitVec 32 := Scalar.muli v20 c4096_i32_17
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v39 : BitVec 32 := Scalar.addi v38 v31
  let v40 : BitVec 32 := v39
  let c0_i32_58 : BitVec 32 := 0#32
  let c2048_i32_16 : BitVec 32 := 2048#32
  let c0_i32_15 : BitVec 32 := 0#32
  let c4096_i32 : BitVec 32 := 4096#32
  let c256_i32 : BitVec 32 := 256#32
  let v32 : BitVec 32 := Scalar.muli c256_i32 v20
  let v33 : BitVec 32 := Scalar.subi c4096_i32 v32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_61 : BitVec 32 := 1#32
  let arg21 : BitVec 32 := Scf.iv v133 c1_i32_61 k0_t18
  let c64_i32_62 : BitVec 32 := 64#32
  let v134 : BitVec 32 := Scalar.muli arg21 c64_i32_62
  let v135 : BitVec 32 := v134
  let v137 : BitVec 32 := Scalar.addi v40 v135
  let c0_i32_63_r31 : BitVec 32 := 0#32
  ![v137.toNat, 0]
def k0_cond9 (i : grid0.Coords) : BitVec 1 :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let c8_i32 : BitVec 32 := 8#32
  let v65 : BitVec 1 := Scalar.cmpi .eq v20 c8_i32
  let v66 : BitVec 32 := Scalar.extui v65
  let c0_i32_29 : BitVec 32 := 0#32
  let v67 : BitVec 1 := Scalar.cmpi .ne v66 c0_i32_29
  v67

@[reducible] def k0_t19_loop (i : grid0.Coords) : Scf.Loop 32 :=
  let c0_i32_58 : BitVec 32 := 0#32
  let c2048_i32_16 : BitVec 32 := 2048#32
  let c0_i32_15 : BitVec 32 := 0#32
  let c4096_i32 : BitVec 32 := 4096#32
  let c256_i32 : BitVec 32 := 256#32
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_60 : BitVec 32 := 1#32
  ⟨c0_i32_58, v133, c1_i32_60⟩
def k0_mult19 (i : grid0.Coords) (k0_t19 : Fin (k0_t19_loop i).trips) : BitVec 32 :=
  let c0_i32_58 : BitVec 32 := 0#32
  let c1_i32_60 : BitVec 32 := 1#32
  let arg21 : BitVec 32 := Scf.iv c0_i32_58 c1_i32_60 k0_t19
  let c64_i32_62 : BitVec 32 := 64#32
  let v134 : BitVec 32 := Scalar.muli arg21 c64_i32_62
  v134
def k0_off34 (i : grid0.Coords) (k0_t19 : Fin (k0_t19_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let c0_i32_58 : BitVec 32 := 0#32
  let c1_i32_60 : BitVec 32 := 1#32
  let arg21 : BitVec 32 := Scf.iv c0_i32_58 c1_i32_60 k0_t19
  let c64_i32_62 : BitVec 32 := 64#32
  let v134 : BitVec 32 := Scalar.muli arg21 c64_i32_62
  let v135 : BitVec 32 := v134
  let v136 : BitVec 32 := Scalar.addi v31 v135
  let c0_i32_63_r32 : BitVec 32 := 0#32
  ![v136.toNat, 0]
def k0_off35 (i : grid0.Coords) (k0_t19 : Fin (k0_t19_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let c4096_i32_17 : BitVec 32 := 4096#32
  let v38 : BitVec 32 := Scalar.muli v20 c4096_i32_17
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v39 : BitVec 32 := Scalar.addi v38 v31
  let v40 : BitVec 32 := v39
  let c0_i32_58 : BitVec 32 := 0#32
  let c1_i32_60 : BitVec 32 := 1#32
  let arg21 : BitVec 32 := Scf.iv c0_i32_58 c1_i32_60 k0_t19
  let c64_i32_62 : BitVec 32 := 64#32
  let v134 : BitVec 32 := Scalar.muli arg21 c64_i32_62
  let v135 : BitVec 32 := v134
  let v137 : BitVec 32 := Scalar.addi v40 v135
  let c0_i32_63_r33 : BitVec 32 := 0#32
  ![v137.toNat, 0]
@[reducible] def k0_t20_loop (i : grid0.Coords) : Scf.Loop 32 :=
  let c0_i32_58 : BitVec 32 := 0#32
  let c2048_i32_16 : BitVec 32 := 2048#32
  let c0_i32_15 : BitVec 32 := 0#32
  let c4096_i32 : BitVec 32 := 4096#32
  let c256_i32 : BitVec 32 := 256#32
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let v130 : BitVec 32 := Scalar.addi c0_i32_58 v129
  let c1_i32_61 : BitVec 32 := 1#32
  ⟨v133, v130, c1_i32_61⟩
def k0_mult20 (i : grid0.Coords) (k0_t20 : Fin (k0_t20_loop i).trips) : BitVec 32 :=
  let c0_i32_58 : BitVec 32 := 0#32
  let c2048_i32_16 : BitVec 32 := 2048#32
  let c0_i32_15 : BitVec 32 := 0#32
  let c4096_i32 : BitVec 32 := 4096#32
  let c256_i32 : BitVec 32 := 256#32
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_61 : BitVec 32 := 1#32
  let arg21 : BitVec 32 := Scf.iv v133 c1_i32_61 k0_t20
  let c64_i32_62 : BitVec 32 := 64#32
  let v134 : BitVec 32 := Scalar.muli arg21 c64_i32_62
  v134
def k0_off36 (i : grid0.Coords) (k0_t20 : Fin (k0_t20_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let c0_i32_58 : BitVec 32 := 0#32
  let c2048_i32_16 : BitVec 32 := 2048#32
  let c0_i32_15 : BitVec 32 := 0#32
  let c4096_i32 : BitVec 32 := 4096#32
  let c256_i32 : BitVec 32 := 256#32
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_61 : BitVec 32 := 1#32
  let arg21 : BitVec 32 := Scf.iv v133 c1_i32_61 k0_t20
  let c64_i32_62 : BitVec 32 := 64#32
  let v134 : BitVec 32 := Scalar.muli arg21 c64_i32_62
  let v135 : BitVec 32 := v134
  let v136 : BitVec 32 := Scalar.addi v31 v135
  let c0_i32_63_r34 : BitVec 32 := 0#32
  ![v136.toNat, 0]
def k0_off37 (i : grid0.Coords) (k0_t20 : Fin (k0_t20_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let c4096_i32_17 : BitVec 32 := 4096#32
  let v38 : BitVec 32 := Scalar.muli v20 c4096_i32_17
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v39 : BitVec 32 := Scalar.addi v38 v31
  let v40 : BitVec 32 := v39
  let c0_i32_58 : BitVec 32 := 0#32
  let c2048_i32_16 : BitVec 32 := 2048#32
  let c0_i32_15 : BitVec 32 := 0#32
  let c4096_i32 : BitVec 32 := 4096#32
  let c256_i32 : BitVec 32 := 256#32
  let v32 : BitVec 32 := Scalar.muli c256_i32 v20
  let v33 : BitVec 32 := Scalar.subi c4096_i32 v32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_61 : BitVec 32 := 1#32
  let arg21 : BitVec 32 := Scf.iv v133 c1_i32_61 k0_t20
  let c64_i32_62 : BitVec 32 := 64#32
  let v134 : BitVec 32 := Scalar.muli arg21 c64_i32_62
  let v135 : BitVec 32 := v134
  let v137 : BitVec 32 := Scalar.addi v40 v135
  let c0_i32_63_r35 : BitVec 32 := 0#32
  ![v137.toNat, 0]
def k0_cond10 (i : grid0.Coords) : BitVec 1 :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let c9_i32 : BitVec 32 := 9#32
  let v68 : BitVec 1 := Scalar.cmpi .eq v20 c9_i32
  let v69 : BitVec 32 := Scalar.extui v68
  let c0_i32_30 : BitVec 32 := 0#32
  let v70 : BitVec 1 := Scalar.cmpi .ne v69 c0_i32_30
  v70

@[reducible] def k0_t21_loop (i : grid0.Coords) : Scf.Loop 32 :=
  let c0_i32_58 : BitVec 32 := 0#32
  let c2048_i32_16 : BitVec 32 := 2048#32
  let c0_i32_15 : BitVec 32 := 0#32
  let c4096_i32 : BitVec 32 := 4096#32
  let c256_i32 : BitVec 32 := 256#32
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_60 : BitVec 32 := 1#32
  ⟨c0_i32_58, v133, c1_i32_60⟩
def k0_mult21 (i : grid0.Coords) (k0_t21 : Fin (k0_t21_loop i).trips) : BitVec 32 :=
  let c0_i32_58 : BitVec 32 := 0#32
  let c1_i32_60 : BitVec 32 := 1#32
  let arg21 : BitVec 32 := Scf.iv c0_i32_58 c1_i32_60 k0_t21
  let c64_i32_62 : BitVec 32 := 64#32
  let v134 : BitVec 32 := Scalar.muli arg21 c64_i32_62
  v134
def k0_off38 (i : grid0.Coords) (k0_t21 : Fin (k0_t21_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let c0_i32_58 : BitVec 32 := 0#32
  let c1_i32_60 : BitVec 32 := 1#32
  let arg21 : BitVec 32 := Scf.iv c0_i32_58 c1_i32_60 k0_t21
  let c64_i32_62 : BitVec 32 := 64#32
  let v134 : BitVec 32 := Scalar.muli arg21 c64_i32_62
  let v135 : BitVec 32 := v134
  let v136 : BitVec 32 := Scalar.addi v31 v135
  let c0_i32_63_r36 : BitVec 32 := 0#32
  ![v136.toNat, 0]
def k0_off39 (i : grid0.Coords) (k0_t21 : Fin (k0_t21_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let c4096_i32_17 : BitVec 32 := 4096#32
  let v38 : BitVec 32 := Scalar.muli v20 c4096_i32_17
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v39 : BitVec 32 := Scalar.addi v38 v31
  let v40 : BitVec 32 := v39
  let c0_i32_58 : BitVec 32 := 0#32
  let c1_i32_60 : BitVec 32 := 1#32
  let arg21 : BitVec 32 := Scf.iv c0_i32_58 c1_i32_60 k0_t21
  let c64_i32_62 : BitVec 32 := 64#32
  let v134 : BitVec 32 := Scalar.muli arg21 c64_i32_62
  let v135 : BitVec 32 := v134
  let v137 : BitVec 32 := Scalar.addi v40 v135
  let c0_i32_63_r37 : BitVec 32 := 0#32
  ![v137.toNat, 0]
@[reducible] def k0_t22_loop (i : grid0.Coords) : Scf.Loop 32 :=
  let c0_i32_58 : BitVec 32 := 0#32
  let c2048_i32_16 : BitVec 32 := 2048#32
  let c0_i32_15 : BitVec 32 := 0#32
  let c4096_i32 : BitVec 32 := 4096#32
  let c256_i32 : BitVec 32 := 256#32
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let v130 : BitVec 32 := Scalar.addi c0_i32_58 v129
  let c1_i32_61 : BitVec 32 := 1#32
  ⟨v133, v130, c1_i32_61⟩
def k0_mult22 (i : grid0.Coords) (k0_t22 : Fin (k0_t22_loop i).trips) : BitVec 32 :=
  let c0_i32_58 : BitVec 32 := 0#32
  let c2048_i32_16 : BitVec 32 := 2048#32
  let c0_i32_15 : BitVec 32 := 0#32
  let c4096_i32 : BitVec 32 := 4096#32
  let c256_i32 : BitVec 32 := 256#32
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_61 : BitVec 32 := 1#32
  let arg21 : BitVec 32 := Scf.iv v133 c1_i32_61 k0_t22
  let c64_i32_62 : BitVec 32 := 64#32
  let v134 : BitVec 32 := Scalar.muli arg21 c64_i32_62
  v134
def k0_off40 (i : grid0.Coords) (k0_t22 : Fin (k0_t22_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let c0_i32_58 : BitVec 32 := 0#32
  let c2048_i32_16 : BitVec 32 := 2048#32
  let c0_i32_15 : BitVec 32 := 0#32
  let c4096_i32 : BitVec 32 := 4096#32
  let c256_i32 : BitVec 32 := 256#32
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_61 : BitVec 32 := 1#32
  let arg21 : BitVec 32 := Scf.iv v133 c1_i32_61 k0_t22
  let c64_i32_62 : BitVec 32 := 64#32
  let v134 : BitVec 32 := Scalar.muli arg21 c64_i32_62
  let v135 : BitVec 32 := v134
  let v136 : BitVec 32 := Scalar.addi v31 v135
  let c0_i32_63_r38 : BitVec 32 := 0#32
  ![v136.toNat, 0]
def k0_off41 (i : grid0.Coords) (k0_t22 : Fin (k0_t22_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let c4096_i32_17 : BitVec 32 := 4096#32
  let v38 : BitVec 32 := Scalar.muli v20 c4096_i32_17
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v39 : BitVec 32 := Scalar.addi v38 v31
  let v40 : BitVec 32 := v39
  let c0_i32_58 : BitVec 32 := 0#32
  let c2048_i32_16 : BitVec 32 := 2048#32
  let c0_i32_15 : BitVec 32 := 0#32
  let c4096_i32 : BitVec 32 := 4096#32
  let c256_i32 : BitVec 32 := 256#32
  let v32 : BitVec 32 := Scalar.muli c256_i32 v20
  let v33 : BitVec 32 := Scalar.subi c4096_i32 v32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_61 : BitVec 32 := 1#32
  let arg21 : BitVec 32 := Scf.iv v133 c1_i32_61 k0_t22
  let c64_i32_62 : BitVec 32 := 64#32
  let v134 : BitVec 32 := Scalar.muli arg21 c64_i32_62
  let v135 : BitVec 32 := v134
  let v137 : BitVec 32 := Scalar.addi v40 v135
  let c0_i32_63_r39 : BitVec 32 := 0#32
  ![v137.toNat, 0]
def k0_cond11 (i : grid0.Coords) : BitVec 1 :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let c10_i32 : BitVec 32 := 10#32
  let v71 : BitVec 1 := Scalar.cmpi .eq v20 c10_i32
  let v72 : BitVec 32 := Scalar.extui v71
  let c0_i32_31 : BitVec 32 := 0#32
  let v73 : BitVec 1 := Scalar.cmpi .ne v72 c0_i32_31
  v73

@[reducible] def k0_t23_loop (i : grid0.Coords) : Scf.Loop 32 :=
  let c0_i32_58 : BitVec 32 := 0#32
  let c2048_i32_16 : BitVec 32 := 2048#32
  let c0_i32_15 : BitVec 32 := 0#32
  let c4096_i32 : BitVec 32 := 4096#32
  let c256_i32 : BitVec 32 := 256#32
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_60 : BitVec 32 := 1#32
  ⟨c0_i32_58, v133, c1_i32_60⟩
def k0_mult23 (i : grid0.Coords) (k0_t23 : Fin (k0_t23_loop i).trips) : BitVec 32 :=
  let c0_i32_58 : BitVec 32 := 0#32
  let c1_i32_60 : BitVec 32 := 1#32
  let arg21 : BitVec 32 := Scf.iv c0_i32_58 c1_i32_60 k0_t23
  let c64_i32_62 : BitVec 32 := 64#32
  let v134 : BitVec 32 := Scalar.muli arg21 c64_i32_62
  v134
def k0_off42 (i : grid0.Coords) (k0_t23 : Fin (k0_t23_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let c0_i32_58 : BitVec 32 := 0#32
  let c1_i32_60 : BitVec 32 := 1#32
  let arg21 : BitVec 32 := Scf.iv c0_i32_58 c1_i32_60 k0_t23
  let c64_i32_62 : BitVec 32 := 64#32
  let v134 : BitVec 32 := Scalar.muli arg21 c64_i32_62
  let v135 : BitVec 32 := v134
  let v136 : BitVec 32 := Scalar.addi v31 v135
  let c0_i32_63_r40 : BitVec 32 := 0#32
  ![v136.toNat, 0]
def k0_off43 (i : grid0.Coords) (k0_t23 : Fin (k0_t23_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let c4096_i32_17 : BitVec 32 := 4096#32
  let v38 : BitVec 32 := Scalar.muli v20 c4096_i32_17
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v39 : BitVec 32 := Scalar.addi v38 v31
  let v40 : BitVec 32 := v39
  let c0_i32_58 : BitVec 32 := 0#32
  let c1_i32_60 : BitVec 32 := 1#32
  let arg21 : BitVec 32 := Scf.iv c0_i32_58 c1_i32_60 k0_t23
  let c64_i32_62 : BitVec 32 := 64#32
  let v134 : BitVec 32 := Scalar.muli arg21 c64_i32_62
  let v135 : BitVec 32 := v134
  let v137 : BitVec 32 := Scalar.addi v40 v135
  let c0_i32_63_r41 : BitVec 32 := 0#32
  ![v137.toNat, 0]
@[reducible] def k0_t24_loop (i : grid0.Coords) : Scf.Loop 32 :=
  let c0_i32_58 : BitVec 32 := 0#32
  let c2048_i32_16 : BitVec 32 := 2048#32
  let c0_i32_15 : BitVec 32 := 0#32
  let c4096_i32 : BitVec 32 := 4096#32
  let c256_i32 : BitVec 32 := 256#32
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let v130 : BitVec 32 := Scalar.addi c0_i32_58 v129
  let c1_i32_61 : BitVec 32 := 1#32
  ⟨v133, v130, c1_i32_61⟩
def k0_mult24 (i : grid0.Coords) (k0_t24 : Fin (k0_t24_loop i).trips) : BitVec 32 :=
  let c0_i32_58 : BitVec 32 := 0#32
  let c2048_i32_16 : BitVec 32 := 2048#32
  let c0_i32_15 : BitVec 32 := 0#32
  let c4096_i32 : BitVec 32 := 4096#32
  let c256_i32 : BitVec 32 := 256#32
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_61 : BitVec 32 := 1#32
  let arg21 : BitVec 32 := Scf.iv v133 c1_i32_61 k0_t24
  let c64_i32_62 : BitVec 32 := 64#32
  let v134 : BitVec 32 := Scalar.muli arg21 c64_i32_62
  v134
def k0_off44 (i : grid0.Coords) (k0_t24 : Fin (k0_t24_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let c0_i32_58 : BitVec 32 := 0#32
  let c2048_i32_16 : BitVec 32 := 2048#32
  let c0_i32_15 : BitVec 32 := 0#32
  let c4096_i32 : BitVec 32 := 4096#32
  let c256_i32 : BitVec 32 := 256#32
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_61 : BitVec 32 := 1#32
  let arg21 : BitVec 32 := Scf.iv v133 c1_i32_61 k0_t24
  let c64_i32_62 : BitVec 32 := 64#32
  let v134 : BitVec 32 := Scalar.muli arg21 c64_i32_62
  let v135 : BitVec 32 := v134
  let v136 : BitVec 32 := Scalar.addi v31 v135
  let c0_i32_63_r42 : BitVec 32 := 0#32
  ![v136.toNat, 0]
def k0_off45 (i : grid0.Coords) (k0_t24 : Fin (k0_t24_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let c4096_i32_17 : BitVec 32 := 4096#32
  let v38 : BitVec 32 := Scalar.muli v20 c4096_i32_17
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v39 : BitVec 32 := Scalar.addi v38 v31
  let v40 : BitVec 32 := v39
  let c0_i32_58 : BitVec 32 := 0#32
  let c2048_i32_16 : BitVec 32 := 2048#32
  let c0_i32_15 : BitVec 32 := 0#32
  let c4096_i32 : BitVec 32 := 4096#32
  let c256_i32 : BitVec 32 := 256#32
  let v32 : BitVec 32 := Scalar.muli c256_i32 v20
  let v33 : BitVec 32 := Scalar.subi c4096_i32 v32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_61 : BitVec 32 := 1#32
  let arg21 : BitVec 32 := Scf.iv v133 c1_i32_61 k0_t24
  let c64_i32_62 : BitVec 32 := 64#32
  let v134 : BitVec 32 := Scalar.muli arg21 c64_i32_62
  let v135 : BitVec 32 := v134
  let v137 : BitVec 32 := Scalar.addi v40 v135
  let c0_i32_63_r43 : BitVec 32 := 0#32
  ![v137.toNat, 0]
def k0_cond12 (i : grid0.Coords) : BitVec 1 :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let c11_i32 : BitVec 32 := 11#32
  let v74 : BitVec 1 := Scalar.cmpi .eq v20 c11_i32
  let v75 : BitVec 32 := Scalar.extui v74
  let c0_i32_32 : BitVec 32 := 0#32
  let v76 : BitVec 1 := Scalar.cmpi .ne v75 c0_i32_32
  v76

@[reducible] def k0_t25_loop (i : grid0.Coords) : Scf.Loop 32 :=
  let c0_i32_58 : BitVec 32 := 0#32
  let c2048_i32_16 : BitVec 32 := 2048#32
  let c0_i32_15 : BitVec 32 := 0#32
  let c4096_i32 : BitVec 32 := 4096#32
  let c256_i32 : BitVec 32 := 256#32
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_60 : BitVec 32 := 1#32
  ⟨c0_i32_58, v133, c1_i32_60⟩
def k0_mult25 (i : grid0.Coords) (k0_t25 : Fin (k0_t25_loop i).trips) : BitVec 32 :=
  let c0_i32_58 : BitVec 32 := 0#32
  let c1_i32_60 : BitVec 32 := 1#32
  let arg21 : BitVec 32 := Scf.iv c0_i32_58 c1_i32_60 k0_t25
  let c64_i32_62 : BitVec 32 := 64#32
  let v134 : BitVec 32 := Scalar.muli arg21 c64_i32_62
  v134
def k0_off46 (i : grid0.Coords) (k0_t25 : Fin (k0_t25_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let c0_i32_58 : BitVec 32 := 0#32
  let c1_i32_60 : BitVec 32 := 1#32
  let arg21 : BitVec 32 := Scf.iv c0_i32_58 c1_i32_60 k0_t25
  let c64_i32_62 : BitVec 32 := 64#32
  let v134 : BitVec 32 := Scalar.muli arg21 c64_i32_62
  let v135 : BitVec 32 := v134
  let v136 : BitVec 32 := Scalar.addi v31 v135
  let c0_i32_63_r44 : BitVec 32 := 0#32
  ![v136.toNat, 0]
def k0_off47 (i : grid0.Coords) (k0_t25 : Fin (k0_t25_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let c4096_i32_17 : BitVec 32 := 4096#32
  let v38 : BitVec 32 := Scalar.muli v20 c4096_i32_17
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v39 : BitVec 32 := Scalar.addi v38 v31
  let v40 : BitVec 32 := v39
  let c0_i32_58 : BitVec 32 := 0#32
  let c1_i32_60 : BitVec 32 := 1#32
  let arg21 : BitVec 32 := Scf.iv c0_i32_58 c1_i32_60 k0_t25
  let c64_i32_62 : BitVec 32 := 64#32
  let v134 : BitVec 32 := Scalar.muli arg21 c64_i32_62
  let v135 : BitVec 32 := v134
  let v137 : BitVec 32 := Scalar.addi v40 v135
  let c0_i32_63_r45 : BitVec 32 := 0#32
  ![v137.toNat, 0]
@[reducible] def k0_t26_loop (i : grid0.Coords) : Scf.Loop 32 :=
  let c0_i32_58 : BitVec 32 := 0#32
  let c2048_i32_16 : BitVec 32 := 2048#32
  let c0_i32_15 : BitVec 32 := 0#32
  let c4096_i32 : BitVec 32 := 4096#32
  let c256_i32 : BitVec 32 := 256#32
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let v130 : BitVec 32 := Scalar.addi c0_i32_58 v129
  let c1_i32_61 : BitVec 32 := 1#32
  ⟨v133, v130, c1_i32_61⟩
def k0_mult26 (i : grid0.Coords) (k0_t26 : Fin (k0_t26_loop i).trips) : BitVec 32 :=
  let c0_i32_58 : BitVec 32 := 0#32
  let c2048_i32_16 : BitVec 32 := 2048#32
  let c0_i32_15 : BitVec 32 := 0#32
  let c4096_i32 : BitVec 32 := 4096#32
  let c256_i32 : BitVec 32 := 256#32
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_61 : BitVec 32 := 1#32
  let arg21 : BitVec 32 := Scf.iv v133 c1_i32_61 k0_t26
  let c64_i32_62 : BitVec 32 := 64#32
  let v134 : BitVec 32 := Scalar.muli arg21 c64_i32_62
  v134
def k0_off48 (i : grid0.Coords) (k0_t26 : Fin (k0_t26_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let c0_i32_58 : BitVec 32 := 0#32
  let c2048_i32_16 : BitVec 32 := 2048#32
  let c0_i32_15 : BitVec 32 := 0#32
  let c4096_i32 : BitVec 32 := 4096#32
  let c256_i32 : BitVec 32 := 256#32
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_61 : BitVec 32 := 1#32
  let arg21 : BitVec 32 := Scf.iv v133 c1_i32_61 k0_t26
  let c64_i32_62 : BitVec 32 := 64#32
  let v134 : BitVec 32 := Scalar.muli arg21 c64_i32_62
  let v135 : BitVec 32 := v134
  let v136 : BitVec 32 := Scalar.addi v31 v135
  let c0_i32_63_r46 : BitVec 32 := 0#32
  ![v136.toNat, 0]
def k0_off49 (i : grid0.Coords) (k0_t26 : Fin (k0_t26_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let c4096_i32_17 : BitVec 32 := 4096#32
  let v38 : BitVec 32 := Scalar.muli v20 c4096_i32_17
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v39 : BitVec 32 := Scalar.addi v38 v31
  let v40 : BitVec 32 := v39
  let c0_i32_58 : BitVec 32 := 0#32
  let c2048_i32_16 : BitVec 32 := 2048#32
  let c0_i32_15 : BitVec 32 := 0#32
  let c4096_i32 : BitVec 32 := 4096#32
  let c256_i32 : BitVec 32 := 256#32
  let v32 : BitVec 32 := Scalar.muli c256_i32 v20
  let v33 : BitVec 32 := Scalar.subi c4096_i32 v32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_61 : BitVec 32 := 1#32
  let arg21 : BitVec 32 := Scf.iv v133 c1_i32_61 k0_t26
  let c64_i32_62 : BitVec 32 := 64#32
  let v134 : BitVec 32 := Scalar.muli arg21 c64_i32_62
  let v135 : BitVec 32 := v134
  let v137 : BitVec 32 := Scalar.addi v40 v135
  let c0_i32_63_r47 : BitVec 32 := 0#32
  ![v137.toNat, 0]
def k0_cond13 (i : grid0.Coords) : BitVec 1 :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let c12_i32 : BitVec 32 := 12#32
  let v77 : BitVec 1 := Scalar.cmpi .eq v20 c12_i32
  let v78 : BitVec 32 := Scalar.extui v77
  let c0_i32_33 : BitVec 32 := 0#32
  let v79 : BitVec 1 := Scalar.cmpi .ne v78 c0_i32_33
  v79

@[reducible] def k0_t27_loop (i : grid0.Coords) : Scf.Loop 32 :=
  let c0_i32_58 : BitVec 32 := 0#32
  let c2048_i32_16 : BitVec 32 := 2048#32
  let c0_i32_15 : BitVec 32 := 0#32
  let c4096_i32 : BitVec 32 := 4096#32
  let c256_i32 : BitVec 32 := 256#32
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_60 : BitVec 32 := 1#32
  ⟨c0_i32_58, v133, c1_i32_60⟩
def k0_mult27 (i : grid0.Coords) (k0_t27 : Fin (k0_t27_loop i).trips) : BitVec 32 :=
  let c0_i32_58 : BitVec 32 := 0#32
  let c1_i32_60 : BitVec 32 := 1#32
  let arg21 : BitVec 32 := Scf.iv c0_i32_58 c1_i32_60 k0_t27
  let c64_i32_62 : BitVec 32 := 64#32
  let v134 : BitVec 32 := Scalar.muli arg21 c64_i32_62
  v134
def k0_off50 (i : grid0.Coords) (k0_t27 : Fin (k0_t27_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let c0_i32_58 : BitVec 32 := 0#32
  let c1_i32_60 : BitVec 32 := 1#32
  let arg21 : BitVec 32 := Scf.iv c0_i32_58 c1_i32_60 k0_t27
  let c64_i32_62 : BitVec 32 := 64#32
  let v134 : BitVec 32 := Scalar.muli arg21 c64_i32_62
  let v135 : BitVec 32 := v134
  let v136 : BitVec 32 := Scalar.addi v31 v135
  let c0_i32_63_r48 : BitVec 32 := 0#32
  ![v136.toNat, 0]
def k0_off51 (i : grid0.Coords) (k0_t27 : Fin (k0_t27_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let c4096_i32_17 : BitVec 32 := 4096#32
  let v38 : BitVec 32 := Scalar.muli v20 c4096_i32_17
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v39 : BitVec 32 := Scalar.addi v38 v31
  let v40 : BitVec 32 := v39
  let c0_i32_58 : BitVec 32 := 0#32
  let c1_i32_60 : BitVec 32 := 1#32
  let arg21 : BitVec 32 := Scf.iv c0_i32_58 c1_i32_60 k0_t27
  let c64_i32_62 : BitVec 32 := 64#32
  let v134 : BitVec 32 := Scalar.muli arg21 c64_i32_62
  let v135 : BitVec 32 := v134
  let v137 : BitVec 32 := Scalar.addi v40 v135
  let c0_i32_63_r49 : BitVec 32 := 0#32
  ![v137.toNat, 0]
@[reducible] def k0_t28_loop (i : grid0.Coords) : Scf.Loop 32 :=
  let c0_i32_58 : BitVec 32 := 0#32
  let c2048_i32_16 : BitVec 32 := 2048#32
  let c0_i32_15 : BitVec 32 := 0#32
  let c4096_i32 : BitVec 32 := 4096#32
  let c256_i32 : BitVec 32 := 256#32
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let v130 : BitVec 32 := Scalar.addi c0_i32_58 v129
  let c1_i32_61 : BitVec 32 := 1#32
  ⟨v133, v130, c1_i32_61⟩
def k0_mult28 (i : grid0.Coords) (k0_t28 : Fin (k0_t28_loop i).trips) : BitVec 32 :=
  let c0_i32_58 : BitVec 32 := 0#32
  let c2048_i32_16 : BitVec 32 := 2048#32
  let c0_i32_15 : BitVec 32 := 0#32
  let c4096_i32 : BitVec 32 := 4096#32
  let c256_i32 : BitVec 32 := 256#32
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_61 : BitVec 32 := 1#32
  let arg21 : BitVec 32 := Scf.iv v133 c1_i32_61 k0_t28
  let c64_i32_62 : BitVec 32 := 64#32
  let v134 : BitVec 32 := Scalar.muli arg21 c64_i32_62
  v134
def k0_off52 (i : grid0.Coords) (k0_t28 : Fin (k0_t28_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let c0_i32_58 : BitVec 32 := 0#32
  let c2048_i32_16 : BitVec 32 := 2048#32
  let c0_i32_15 : BitVec 32 := 0#32
  let c4096_i32 : BitVec 32 := 4096#32
  let c256_i32 : BitVec 32 := 256#32
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_61 : BitVec 32 := 1#32
  let arg21 : BitVec 32 := Scf.iv v133 c1_i32_61 k0_t28
  let c64_i32_62 : BitVec 32 := 64#32
  let v134 : BitVec 32 := Scalar.muli arg21 c64_i32_62
  let v135 : BitVec 32 := v134
  let v136 : BitVec 32 := Scalar.addi v31 v135
  let c0_i32_63_r50 : BitVec 32 := 0#32
  ![v136.toNat, 0]
def k0_off53 (i : grid0.Coords) (k0_t28 : Fin (k0_t28_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let c4096_i32_17 : BitVec 32 := 4096#32
  let v38 : BitVec 32 := Scalar.muli v20 c4096_i32_17
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v39 : BitVec 32 := Scalar.addi v38 v31
  let v40 : BitVec 32 := v39
  let c0_i32_58 : BitVec 32 := 0#32
  let c2048_i32_16 : BitVec 32 := 2048#32
  let c0_i32_15 : BitVec 32 := 0#32
  let c4096_i32 : BitVec 32 := 4096#32
  let c256_i32 : BitVec 32 := 256#32
  let v32 : BitVec 32 := Scalar.muli c256_i32 v20
  let v33 : BitVec 32 := Scalar.subi c4096_i32 v32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_61 : BitVec 32 := 1#32
  let arg21 : BitVec 32 := Scf.iv v133 c1_i32_61 k0_t28
  let c64_i32_62 : BitVec 32 := 64#32
  let v134 : BitVec 32 := Scalar.muli arg21 c64_i32_62
  let v135 : BitVec 32 := v134
  let v137 : BitVec 32 := Scalar.addi v40 v135
  let c0_i32_63_r51 : BitVec 32 := 0#32
  ![v137.toNat, 0]
def k0_cond14 (i : grid0.Coords) : BitVec 1 :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let c13_i32 : BitVec 32 := 13#32
  let v80 : BitVec 1 := Scalar.cmpi .eq v20 c13_i32
  let v81 : BitVec 32 := Scalar.extui v80
  let c0_i32_34 : BitVec 32 := 0#32
  let v82 : BitVec 1 := Scalar.cmpi .ne v81 c0_i32_34
  v82

@[reducible] def k0_t29_loop (i : grid0.Coords) : Scf.Loop 32 :=
  let c0_i32_58 : BitVec 32 := 0#32
  let c2048_i32_16 : BitVec 32 := 2048#32
  let c0_i32_15 : BitVec 32 := 0#32
  let c4096_i32 : BitVec 32 := 4096#32
  let c256_i32 : BitVec 32 := 256#32
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_60 : BitVec 32 := 1#32
  ⟨c0_i32_58, v133, c1_i32_60⟩
def k0_mult29 (i : grid0.Coords) (k0_t29 : Fin (k0_t29_loop i).trips) : BitVec 32 :=
  let c0_i32_58 : BitVec 32 := 0#32
  let c1_i32_60 : BitVec 32 := 1#32
  let arg21 : BitVec 32 := Scf.iv c0_i32_58 c1_i32_60 k0_t29
  let c64_i32_62 : BitVec 32 := 64#32
  let v134 : BitVec 32 := Scalar.muli arg21 c64_i32_62
  v134
def k0_off54 (i : grid0.Coords) (k0_t29 : Fin (k0_t29_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let c0_i32_58 : BitVec 32 := 0#32
  let c1_i32_60 : BitVec 32 := 1#32
  let arg21 : BitVec 32 := Scf.iv c0_i32_58 c1_i32_60 k0_t29
  let c64_i32_62 : BitVec 32 := 64#32
  let v134 : BitVec 32 := Scalar.muli arg21 c64_i32_62
  let v135 : BitVec 32 := v134
  let v136 : BitVec 32 := Scalar.addi v31 v135
  let c0_i32_63_r52 : BitVec 32 := 0#32
  ![v136.toNat, 0]
def k0_off55 (i : grid0.Coords) (k0_t29 : Fin (k0_t29_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let c4096_i32_17 : BitVec 32 := 4096#32
  let v38 : BitVec 32 := Scalar.muli v20 c4096_i32_17
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v39 : BitVec 32 := Scalar.addi v38 v31
  let v40 : BitVec 32 := v39
  let c0_i32_58 : BitVec 32 := 0#32
  let c1_i32_60 : BitVec 32 := 1#32
  let arg21 : BitVec 32 := Scf.iv c0_i32_58 c1_i32_60 k0_t29
  let c64_i32_62 : BitVec 32 := 64#32
  let v134 : BitVec 32 := Scalar.muli arg21 c64_i32_62
  let v135 : BitVec 32 := v134
  let v137 : BitVec 32 := Scalar.addi v40 v135
  let c0_i32_63_r53 : BitVec 32 := 0#32
  ![v137.toNat, 0]
@[reducible] def k0_t30_loop (i : grid0.Coords) : Scf.Loop 32 :=
  let c0_i32_58 : BitVec 32 := 0#32
  let c2048_i32_16 : BitVec 32 := 2048#32
  let c0_i32_15 : BitVec 32 := 0#32
  let c4096_i32 : BitVec 32 := 4096#32
  let c256_i32 : BitVec 32 := 256#32
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let v130 : BitVec 32 := Scalar.addi c0_i32_58 v129
  let c1_i32_61 : BitVec 32 := 1#32
  ⟨v133, v130, c1_i32_61⟩
def k0_mult30 (i : grid0.Coords) (k0_t30 : Fin (k0_t30_loop i).trips) : BitVec 32 :=
  let c0_i32_58 : BitVec 32 := 0#32
  let c2048_i32_16 : BitVec 32 := 2048#32
  let c0_i32_15 : BitVec 32 := 0#32
  let c4096_i32 : BitVec 32 := 4096#32
  let c256_i32 : BitVec 32 := 256#32
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_61 : BitVec 32 := 1#32
  let arg21 : BitVec 32 := Scf.iv v133 c1_i32_61 k0_t30
  let c64_i32_62 : BitVec 32 := 64#32
  let v134 : BitVec 32 := Scalar.muli arg21 c64_i32_62
  v134
def k0_off56 (i : grid0.Coords) (k0_t30 : Fin (k0_t30_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let c0_i32_58 : BitVec 32 := 0#32
  let c2048_i32_16 : BitVec 32 := 2048#32
  let c0_i32_15 : BitVec 32 := 0#32
  let c4096_i32 : BitVec 32 := 4096#32
  let c256_i32 : BitVec 32 := 256#32
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_61 : BitVec 32 := 1#32
  let arg21 : BitVec 32 := Scf.iv v133 c1_i32_61 k0_t30
  let c64_i32_62 : BitVec 32 := 64#32
  let v134 : BitVec 32 := Scalar.muli arg21 c64_i32_62
  let v135 : BitVec 32 := v134
  let v136 : BitVec 32 := Scalar.addi v31 v135
  let c0_i32_63_r54 : BitVec 32 := 0#32
  ![v136.toNat, 0]
def k0_off57 (i : grid0.Coords) (k0_t30 : Fin (k0_t30_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let c4096_i32_17 : BitVec 32 := 4096#32
  let v38 : BitVec 32 := Scalar.muli v20 c4096_i32_17
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v39 : BitVec 32 := Scalar.addi v38 v31
  let v40 : BitVec 32 := v39
  let c0_i32_58 : BitVec 32 := 0#32
  let c2048_i32_16 : BitVec 32 := 2048#32
  let c0_i32_15 : BitVec 32 := 0#32
  let c4096_i32 : BitVec 32 := 4096#32
  let c256_i32 : BitVec 32 := 256#32
  let v32 : BitVec 32 := Scalar.muli c256_i32 v20
  let v33 : BitVec 32 := Scalar.subi c4096_i32 v32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_61 : BitVec 32 := 1#32
  let arg21 : BitVec 32 := Scf.iv v133 c1_i32_61 k0_t30
  let c64_i32_62 : BitVec 32 := 64#32
  let v134 : BitVec 32 := Scalar.muli arg21 c64_i32_62
  let v135 : BitVec 32 := v134
  let v137 : BitVec 32 := Scalar.addi v40 v135
  let c0_i32_63_r55 : BitVec 32 := 0#32
  ![v137.toNat, 0]
def k0_cond15 (i : grid0.Coords) : BitVec 1 :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let c14_i32 : BitVec 32 := 14#32
  let v83 : BitVec 1 := Scalar.cmpi .eq v20 c14_i32
  let v84 : BitVec 32 := Scalar.extui v83
  let c0_i32_35 : BitVec 32 := 0#32
  let v85 : BitVec 1 := Scalar.cmpi .ne v84 c0_i32_35
  v85

@[reducible] def k0_t31_loop (i : grid0.Coords) : Scf.Loop 32 :=
  let c0_i32_58 : BitVec 32 := 0#32
  let c2048_i32_16 : BitVec 32 := 2048#32
  let c0_i32_15 : BitVec 32 := 0#32
  let c4096_i32 : BitVec 32 := 4096#32
  let c256_i32 : BitVec 32 := 256#32
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_60 : BitVec 32 := 1#32
  ⟨c0_i32_58, v133, c1_i32_60⟩
def k0_mult31 (i : grid0.Coords) (k0_t31 : Fin (k0_t31_loop i).trips) : BitVec 32 :=
  let c0_i32_58 : BitVec 32 := 0#32
  let c1_i32_60 : BitVec 32 := 1#32
  let arg21 : BitVec 32 := Scf.iv c0_i32_58 c1_i32_60 k0_t31
  let c64_i32_62 : BitVec 32 := 64#32
  let v134 : BitVec 32 := Scalar.muli arg21 c64_i32_62
  v134
def k0_off58 (i : grid0.Coords) (k0_t31 : Fin (k0_t31_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let c0_i32_58 : BitVec 32 := 0#32
  let c1_i32_60 : BitVec 32 := 1#32
  let arg21 : BitVec 32 := Scf.iv c0_i32_58 c1_i32_60 k0_t31
  let c64_i32_62 : BitVec 32 := 64#32
  let v134 : BitVec 32 := Scalar.muli arg21 c64_i32_62
  let v135 : BitVec 32 := v134
  let v136 : BitVec 32 := Scalar.addi v31 v135
  let c0_i32_63_r56 : BitVec 32 := 0#32
  ![v136.toNat, 0]
def k0_off59 (i : grid0.Coords) (k0_t31 : Fin (k0_t31_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let c4096_i32_17 : BitVec 32 := 4096#32
  let v38 : BitVec 32 := Scalar.muli v20 c4096_i32_17
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v39 : BitVec 32 := Scalar.addi v38 v31
  let v40 : BitVec 32 := v39
  let c0_i32_58 : BitVec 32 := 0#32
  let c1_i32_60 : BitVec 32 := 1#32
  let arg21 : BitVec 32 := Scf.iv c0_i32_58 c1_i32_60 k0_t31
  let c64_i32_62 : BitVec 32 := 64#32
  let v134 : BitVec 32 := Scalar.muli arg21 c64_i32_62
  let v135 : BitVec 32 := v134
  let v137 : BitVec 32 := Scalar.addi v40 v135
  let c0_i32_63_r57 : BitVec 32 := 0#32
  ![v137.toNat, 0]
@[reducible] def k0_t32_loop (i : grid0.Coords) : Scf.Loop 32 :=
  let c0_i32_58 : BitVec 32 := 0#32
  let c2048_i32_16 : BitVec 32 := 2048#32
  let c0_i32_15 : BitVec 32 := 0#32
  let c4096_i32 : BitVec 32 := 4096#32
  let c256_i32 : BitVec 32 := 256#32
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let v130 : BitVec 32 := Scalar.addi c0_i32_58 v129
  let c1_i32_61 : BitVec 32 := 1#32
  ⟨v133, v130, c1_i32_61⟩
def k0_mult32 (i : grid0.Coords) (k0_t32 : Fin (k0_t32_loop i).trips) : BitVec 32 :=
  let c0_i32_58 : BitVec 32 := 0#32
  let c2048_i32_16 : BitVec 32 := 2048#32
  let c0_i32_15 : BitVec 32 := 0#32
  let c4096_i32 : BitVec 32 := 4096#32
  let c256_i32 : BitVec 32 := 256#32
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_61 : BitVec 32 := 1#32
  let arg21 : BitVec 32 := Scf.iv v133 c1_i32_61 k0_t32
  let c64_i32_62 : BitVec 32 := 64#32
  let v134 : BitVec 32 := Scalar.muli arg21 c64_i32_62
  v134
def k0_off60 (i : grid0.Coords) (k0_t32 : Fin (k0_t32_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let c0_i32_58 : BitVec 32 := 0#32
  let c2048_i32_16 : BitVec 32 := 2048#32
  let c0_i32_15 : BitVec 32 := 0#32
  let c4096_i32 : BitVec 32 := 4096#32
  let c256_i32 : BitVec 32 := 256#32
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_61 : BitVec 32 := 1#32
  let arg21 : BitVec 32 := Scf.iv v133 c1_i32_61 k0_t32
  let c64_i32_62 : BitVec 32 := 64#32
  let v134 : BitVec 32 := Scalar.muli arg21 c64_i32_62
  let v135 : BitVec 32 := v134
  let v136 : BitVec 32 := Scalar.addi v31 v135
  let c0_i32_63_r58 : BitVec 32 := 0#32
  ![v136.toNat, 0]
def k0_off61 (i : grid0.Coords) (k0_t32 : Fin (k0_t32_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let c4096_i32_17 : BitVec 32 := 4096#32
  let v38 : BitVec 32 := Scalar.muli v20 c4096_i32_17
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v39 : BitVec 32 := Scalar.addi v38 v31
  let v40 : BitVec 32 := v39
  let c0_i32_58 : BitVec 32 := 0#32
  let c2048_i32_16 : BitVec 32 := 2048#32
  let c0_i32_15 : BitVec 32 := 0#32
  let c4096_i32 : BitVec 32 := 4096#32
  let c256_i32 : BitVec 32 := 256#32
  let v32 : BitVec 32 := Scalar.muli c256_i32 v20
  let v33 : BitVec 32 := Scalar.subi c4096_i32 v32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_61 : BitVec 32 := 1#32
  let arg21 : BitVec 32 := Scf.iv v133 c1_i32_61 k0_t32
  let c64_i32_62 : BitVec 32 := 64#32
  let v134 : BitVec 32 := Scalar.muli arg21 c64_i32_62
  let v135 : BitVec 32 := v134
  let v137 : BitVec 32 := Scalar.addi v40 v135
  let c0_i32_63_r59 : BitVec 32 := 0#32
  ![v137.toNat, 0]
def k0_cond16 (i : grid0.Coords) : BitVec 1 :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let c15_i32 : BitVec 32 := 15#32
  let v86 : BitVec 1 := Scalar.cmpi .eq v20 c15_i32
  let v87 : BitVec 32 := Scalar.extui v86
  let c0_i32_36 : BitVec 32 := 0#32
  let v88 : BitVec 1 := Scalar.cmpi .ne v87 c0_i32_36
  v88

@[reducible] def k0_t33_loop (i : grid0.Coords) : Scf.Loop 32 :=
  let c0_i32_58 : BitVec 32 := 0#32
  let c2048_i32_16 : BitVec 32 := 2048#32
  let c0_i32_15 : BitVec 32 := 0#32
  let c4096_i32 : BitVec 32 := 4096#32
  let c256_i32 : BitVec 32 := 256#32
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_60 : BitVec 32 := 1#32
  ⟨c0_i32_58, v133, c1_i32_60⟩
def k0_mult33 (i : grid0.Coords) (k0_t33 : Fin (k0_t33_loop i).trips) : BitVec 32 :=
  let c0_i32_58 : BitVec 32 := 0#32
  let c1_i32_60 : BitVec 32 := 1#32
  let arg21 : BitVec 32 := Scf.iv c0_i32_58 c1_i32_60 k0_t33
  let c64_i32_62 : BitVec 32 := 64#32
  let v134 : BitVec 32 := Scalar.muli arg21 c64_i32_62
  v134
def k0_off62 (i : grid0.Coords) (k0_t33 : Fin (k0_t33_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let c0_i32_58 : BitVec 32 := 0#32
  let c1_i32_60 : BitVec 32 := 1#32
  let arg21 : BitVec 32 := Scf.iv c0_i32_58 c1_i32_60 k0_t33
  let c64_i32_62 : BitVec 32 := 64#32
  let v134 : BitVec 32 := Scalar.muli arg21 c64_i32_62
  let v135 : BitVec 32 := v134
  let v136 : BitVec 32 := Scalar.addi v31 v135
  let c0_i32_63_r60 : BitVec 32 := 0#32
  ![v136.toNat, 0]
def k0_off63 (i : grid0.Coords) (k0_t33 : Fin (k0_t33_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let c4096_i32_17 : BitVec 32 := 4096#32
  let v38 : BitVec 32 := Scalar.muli v20 c4096_i32_17
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v39 : BitVec 32 := Scalar.addi v38 v31
  let v40 : BitVec 32 := v39
  let c0_i32_58 : BitVec 32 := 0#32
  let c1_i32_60 : BitVec 32 := 1#32
  let arg21 : BitVec 32 := Scf.iv c0_i32_58 c1_i32_60 k0_t33
  let c64_i32_62 : BitVec 32 := 64#32
  let v134 : BitVec 32 := Scalar.muli arg21 c64_i32_62
  let v135 : BitVec 32 := v134
  let v137 : BitVec 32 := Scalar.addi v40 v135
  let c0_i32_63_r61 : BitVec 32 := 0#32
  ![v137.toNat, 0]
@[reducible] def k0_t34_loop (i : grid0.Coords) : Scf.Loop 32 :=
  let c0_i32_58 : BitVec 32 := 0#32
  let c2048_i32_16 : BitVec 32 := 2048#32
  let c0_i32_15 : BitVec 32 := 0#32
  let c4096_i32 : BitVec 32 := 4096#32
  let c256_i32 : BitVec 32 := 256#32
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let v130 : BitVec 32 := Scalar.addi c0_i32_58 v129
  let c1_i32_61 : BitVec 32 := 1#32
  ⟨v133, v130, c1_i32_61⟩
def k0_mult34 (i : grid0.Coords) (k0_t34 : Fin (k0_t34_loop i).trips) : BitVec 32 :=
  let c0_i32_58 : BitVec 32 := 0#32
  let c2048_i32_16 : BitVec 32 := 2048#32
  let c0_i32_15 : BitVec 32 := 0#32
  let c4096_i32 : BitVec 32 := 4096#32
  let c256_i32 : BitVec 32 := 256#32
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_61 : BitVec 32 := 1#32
  let arg21 : BitVec 32 := Scf.iv v133 c1_i32_61 k0_t34
  let c64_i32_62 : BitVec 32 := 64#32
  let v134 : BitVec 32 := Scalar.muli arg21 c64_i32_62
  v134
def k0_off64 (i : grid0.Coords) (k0_t34 : Fin (k0_t34_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let c0_i32_58 : BitVec 32 := 0#32
  let c2048_i32_16 : BitVec 32 := 2048#32
  let c0_i32_15 : BitVec 32 := 0#32
  let c4096_i32 : BitVec 32 := 4096#32
  let c256_i32 : BitVec 32 := 256#32
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_61 : BitVec 32 := 1#32
  let arg21 : BitVec 32 := Scf.iv v133 c1_i32_61 k0_t34
  let c64_i32_62 : BitVec 32 := 64#32
  let v134 : BitVec 32 := Scalar.muli arg21 c64_i32_62
  let v135 : BitVec 32 := v134
  let v136 : BitVec 32 := Scalar.addi v31 v135
  let c0_i32_63_r62 : BitVec 32 := 0#32
  ![v136.toNat, 0]
def k0_off65 (i : grid0.Coords) (k0_t34 : Fin (k0_t34_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let c4096_i32_17 : BitVec 32 := 4096#32
  let v38 : BitVec 32 := Scalar.muli v20 c4096_i32_17
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v39 : BitVec 32 := Scalar.addi v38 v31
  let v40 : BitVec 32 := v39
  let c0_i32_58 : BitVec 32 := 0#32
  let c2048_i32_16 : BitVec 32 := 2048#32
  let c0_i32_15 : BitVec 32 := 0#32
  let c4096_i32 : BitVec 32 := 4096#32
  let c256_i32 : BitVec 32 := 256#32
  let v32 : BitVec 32 := Scalar.muli c256_i32 v20
  let v33 : BitVec 32 := Scalar.subi c4096_i32 v32
  let v34 : BitVec 32 := Scalar.subi v33 v31
  let v35 : BitVec 32 := Scalar.maxsi c0_i32_15 v34
  let v36 : BitVec 32 := Scalar.minsi c2048_i32_16 v35
  let v37 : BitVec 32 := v36
  let c0_i32_51 : BitVec 32 := 0#32
  let v113 : BitVec 1 := Scalar.cmpi .sgt v37 c0_i32_51
  let v114 : BitVec 32 := Scalar.extui v113
  let c0_i32_52 : BitVec 32 := 0#32
  let v115 : BitVec 1 := Scalar.cmpi .slt v37 c0_i32_52
  let v116 : BitVec 32 := Scalar.extui v115
  let v117 : BitVec 32 := Scalar.subi v114 v116
  let c64_i32_50 : BitVec 32 := 64#32
  let c0_i32_53 : BitVec 32 := 0#32
  let v118 : BitVec 1 := Scalar.cmpi .sgt c64_i32_50 c0_i32_53
  let v119 : BitVec 32 := Scalar.extui v118
  let c0_i32_54 : BitVec 32 := 0#32
  let v120 : BitVec 1 := Scalar.cmpi .slt c64_i32_50 c0_i32_54
  let v121 : BitVec 32 := Scalar.extui v120
  let v122 : BitVec 32 := Scalar.subi v119 v121
  let v123 : BitVec 1 := Scalar.cmpi .ne v117 v122
  let v124 : BitVec 32 := Scalar.remsi v37 c64_i32_50
  let c0_i32_55 : BitVec 32 := 0#32
  let v125 : BitVec 1 := Scalar.cmpi .ne v124 c0_i32_55
  let v126 : BitVec 1 := Scalar.andi v123 v125
  let v112 : BitVec 32 := Scalar.divsi v37 c64_i32_50
  let c1_i32_56 : BitVec 32 := 1#32
  let v127 : BitVec 32 := Scalar.subi v112 c1_i32_56
  let v128 : BitVec 32 := Scalar.select v126 v127 v112
  let v129 : BitVec 32 := Scalar.subi v128 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_61 : BitVec 32 := 1#32
  let arg21 : BitVec 32 := Scf.iv v133 c1_i32_61 k0_t34
  let c64_i32_62 : BitVec 32 := 64#32
  let v134 : BitVec 32 := Scalar.muli arg21 c64_i32_62
  let v135 : BitVec 32 := v134
  let v137 : BitVec 32 := Scalar.addi v40 v135
  let c0_i32_63_r63 : BitVec 32 := 0#32
  ![v137.toNat, 0]
@[reducible] def k0_t35_loop (i : grid0.Coords) : Scf.Loop 32 :=
  let c0_i32_46 : BitVec 32 := 0#32
  let c2048_i32_37 : BitVec 32 := 2048#32
  let c2048_i32_16 : BitVec 32 := 2048#32
  let c0_i32_15 : BitVec 32 := 0#32
  let c4096_i32 : BitVec 32 := 4096#32
  let c256_i32 : BitVec 32 := 256#32
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v34 : BitVec 32 := Scalar.subi v33 v31
  let v35 : BitVec 32 := Scalar.maxsi c0_i32_15 v34
  let v36 : BitVec 32 := Scalar.minsi c2048_i32_16 v35
  let v37 : BitVec 32 := v36
  let v89 : BitVec 32 := Scalar.subi c2048_i32_37 v37
  let c0_i32_39 : BitVec 32 := 0#32
  let v91 : BitVec 1 := Scalar.cmpi .sgt v89 c0_i32_39
  let v92 : BitVec 32 := Scalar.extui v91
  let c0_i32_40 : BitVec 32 := 0#32
  let v93 : BitVec 1 := Scalar.cmpi .slt v89 c0_i32_40
  let v94 : BitVec 32 := Scalar.extui v93
  let v95 : BitVec 32 := Scalar.subi v92 v94
  let c64_i32_38 : BitVec 32 := 64#32
  let c0_i32_41 : BitVec 32 := 0#32
  let v96 : BitVec 1 := Scalar.cmpi .sgt c64_i32_38 c0_i32_41
  let v97 : BitVec 32 := Scalar.extui v96
  let c0_i32_42 : BitVec 32 := 0#32
  let v98 : BitVec 1 := Scalar.cmpi .slt c64_i32_38 c0_i32_42
  let v99 : BitVec 32 := Scalar.extui v98
  let v100 : BitVec 32 := Scalar.subi v97 v99
  let v101 : BitVec 1 := Scalar.cmpi .ne v95 v100
  let v102 : BitVec 32 := Scalar.remsi v89 c64_i32_38
  let c0_i32_43 : BitVec 32 := 0#32
  let v103 : BitVec 1 := Scalar.cmpi .ne v102 c0_i32_43
  let v104 : BitVec 1 := Scalar.andi v101 v103
  let v90 : BitVec 32 := Scalar.divsi v89 c64_i32_38
  let c1_i32_44 : BitVec 32 := 1#32
  let v105 : BitVec 32 := Scalar.subi v90 c1_i32_44
  let v106 : BitVec 32 := Scalar.select v104 v105 v90
  let v107 : BitVec 32 := Scalar.subi v106 c0_i32_46
  let c1_i32_47 : BitVec 32 := 1#32
  let v109 : BitVec 32 := Scalar.divsi v107 c1_i32_47
  let v110 : BitVec 32 := Scalar.muli v109 c1_i32_47
  let v111 : BitVec 32 := Scalar.addi c0_i32_46 v110
  let c1_i32_48 : BitVec 32 := 1#32
  ⟨c0_i32_46, v111, c1_i32_48⟩
def k0_mult35 (i : grid0.Coords) (k0_t35 : Fin (k0_t35_loop i).trips) : BitVec 32 :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let c4096_i32_17 : BitVec 32 := 4096#32
  let v38 : BitVec 32 := Scalar.muli v20 c4096_i32_17
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v39 : BitVec 32 := Scalar.addi v38 v31
  let v40 : BitVec 32 := v39
  let c2048_i32_16 : BitVec 32 := 2048#32
  let c0_i32_15 : BitVec 32 := 0#32
  let c4096_i32 : BitVec 32 := 4096#32
  let c256_i32 : BitVec 32 := 256#32
  let v32 : BitVec 32 := Scalar.muli c256_i32 v20
  let v33 : BitVec 32 := Scalar.subi c4096_i32 v32
  let v34 : BitVec 32 := Scalar.subi v33 v31
  let v35 : BitVec 32 := Scalar.maxsi c0_i32_15 v34
  let v36 : BitVec 32 := Scalar.minsi c2048_i32_16 v35
  let v37 : BitVec 32 := v36
  let v112 : BitVec 32 := Scalar.addi v40 v37
  let c0_i32_46 : BitVec 32 := 0#32
  let c1_i32_48 : BitVec 32 := 1#32
  let arg21 : BitVec 32 := Scf.iv c0_i32_46 c1_i32_48 k0_t35
  let c64_i32_50 : BitVec 32 := 64#32
  let v113 : BitVec 32 := Scalar.muli arg21 c64_i32_50
  let v114 : BitVec 32 := Scalar.addi v112 v113
  v114
def k0_off66 (i : grid0.Coords) (k0_t35 : Fin (k0_t35_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let c4096_i32_17 : BitVec 32 := 4096#32
  let v38 : BitVec 32 := Scalar.muli v20 c4096_i32_17
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v39 : BitVec 32 := Scalar.addi v38 v31
  let v40 : BitVec 32 := v39
  let c2048_i32_16 : BitVec 32 := 2048#32
  let c0_i32_15 : BitVec 32 := 0#32
  let c4096_i32 : BitVec 32 := 4096#32
  let c256_i32 : BitVec 32 := 256#32
  let v32 : BitVec 32 := Scalar.muli c256_i32 v20
  let v33 : BitVec 32 := Scalar.subi c4096_i32 v32
  let v34 : BitVec 32 := Scalar.subi v33 v31
  let v35 : BitVec 32 := Scalar.maxsi c0_i32_15 v34
  let v36 : BitVec 32 := Scalar.minsi c2048_i32_16 v35
  let v37 : BitVec 32 := v36
  let v112 : BitVec 32 := Scalar.addi v40 v37
  let c0_i32_46 : BitVec 32 := 0#32
  let c1_i32_48 : BitVec 32 := 1#32
  let arg21 : BitVec 32 := Scf.iv c0_i32_46 c1_i32_48 k0_t35
  let c64_i32_50 : BitVec 32 := 64#32
  let v113 : BitVec 32 := Scalar.muli arg21 c64_i32_50
  let v114 : BitVec 32 := Scalar.addi v112 v113
  let v115 : BitVec 32 := v114
  let c0_i32_51_r64 : BitVec 32 := 0#32
  ![v115.toNat, 0]
@[reducible] def k0_t36_loop (i : grid0.Coords) : Scf.Loop 32 :=
  let c0_i32_46 : BitVec 32 := 0#32
  let c2048_i32_37 : BitVec 32 := 2048#32
  let c2048_i32_16 : BitVec 32 := 2048#32
  let c0_i32_15 : BitVec 32 := 0#32
  let c4096_i32 : BitVec 32 := 4096#32
  let c256_i32 : BitVec 32 := 256#32
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let v32 : BitVec 32 := Scalar.muli c256_i32 v20
  let v33 : BitVec 32 := Scalar.subi c4096_i32 v32
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v34 : BitVec 32 := Scalar.subi v33 v31
  let v35 : BitVec 32 := Scalar.maxsi c0_i32_15 v34
  let v36 : BitVec 32 := Scalar.minsi c2048_i32_16 v35
  let v37 : BitVec 32 := v36
  let v89 : BitVec 32 := Scalar.subi c2048_i32_37 v37
  let c0_i32_39 : BitVec 32 := 0#32
  let v91 : BitVec 1 := Scalar.cmpi .sgt v89 c0_i32_39
  let v92 : BitVec 32 := Scalar.extui v91
  let c0_i32_40 : BitVec 32 := 0#32
  let v93 : BitVec 1 := Scalar.cmpi .slt v89 c0_i32_40
  let v94 : BitVec 32 := Scalar.extui v93
  let v95 : BitVec 32 := Scalar.subi v92 v94
  let c64_i32_38 : BitVec 32 := 64#32
  let c0_i32_41 : BitVec 32 := 0#32
  let v96 : BitVec 1 := Scalar.cmpi .sgt c64_i32_38 c0_i32_41
  let v97 : BitVec 32 := Scalar.extui v96
  let c0_i32_42 : BitVec 32 := 0#32
  let v98 : BitVec 1 := Scalar.cmpi .slt c64_i32_38 c0_i32_42
  let v99 : BitVec 32 := Scalar.extui v98
  let v100 : BitVec 32 := Scalar.subi v97 v99
  let v101 : BitVec 1 := Scalar.cmpi .ne v95 v100
  let v102 : BitVec 32 := Scalar.remsi v89 c64_i32_38
  let c0_i32_43 : BitVec 32 := 0#32
  let v103 : BitVec 1 := Scalar.cmpi .ne v102 c0_i32_43
  let v104 : BitVec 1 := Scalar.andi v101 v103
  let v90 : BitVec 32 := Scalar.divsi v89 c64_i32_38
  let c1_i32_44 : BitVec 32 := 1#32
  let v105 : BitVec 32 := Scalar.subi v90 c1_i32_44
  let v106 : BitVec 32 := Scalar.select v104 v105 v90
  let v107 : BitVec 32 := Scalar.subi v106 c0_i32_46
  let c1_i32_47 : BitVec 32 := 1#32
  let v109 : BitVec 32 := Scalar.divsi v107 c1_i32_47
  let v110 : BitVec 32 := Scalar.muli v109 c1_i32_47
  let v111 : BitVec 32 := Scalar.addi c0_i32_46 v110
  let v108 : BitVec 32 := Scalar.addi c0_i32_46 v107
  let c1_i32_49 : BitVec 32 := 1#32
  ⟨v111, v108, c1_i32_49⟩
def k0_mult36 (i : grid0.Coords) (k0_t36 : Fin (k0_t36_loop i).trips) : BitVec 32 :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let c4096_i32_17 : BitVec 32 := 4096#32
  let v38 : BitVec 32 := Scalar.muli v20 c4096_i32_17
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v39 : BitVec 32 := Scalar.addi v38 v31
  let v40 : BitVec 32 := v39
  let c2048_i32_16 : BitVec 32 := 2048#32
  let c0_i32_15 : BitVec 32 := 0#32
  let c4096_i32 : BitVec 32 := 4096#32
  let c256_i32 : BitVec 32 := 256#32
  let v32 : BitVec 32 := Scalar.muli c256_i32 v20
  let v33 : BitVec 32 := Scalar.subi c4096_i32 v32
  let v34 : BitVec 32 := Scalar.subi v33 v31
  let v35 : BitVec 32 := Scalar.maxsi c0_i32_15 v34
  let v36 : BitVec 32 := Scalar.minsi c2048_i32_16 v35
  let v37 : BitVec 32 := v36
  let v112 : BitVec 32 := Scalar.addi v40 v37
  let c0_i32_46 : BitVec 32 := 0#32
  let c2048_i32_37 : BitVec 32 := 2048#32
  let v89 : BitVec 32 := Scalar.subi c2048_i32_37 v37
  let c0_i32_39 : BitVec 32 := 0#32
  let v91 : BitVec 1 := Scalar.cmpi .sgt v89 c0_i32_39
  let v92 : BitVec 32 := Scalar.extui v91
  let c0_i32_40 : BitVec 32 := 0#32
  let v93 : BitVec 1 := Scalar.cmpi .slt v89 c0_i32_40
  let v94 : BitVec 32 := Scalar.extui v93
  let v95 : BitVec 32 := Scalar.subi v92 v94
  let c64_i32_38 : BitVec 32 := 64#32
  let c0_i32_41 : BitVec 32 := 0#32
  let v96 : BitVec 1 := Scalar.cmpi .sgt c64_i32_38 c0_i32_41
  let v97 : BitVec 32 := Scalar.extui v96
  let c0_i32_42 : BitVec 32 := 0#32
  let v98 : BitVec 1 := Scalar.cmpi .slt c64_i32_38 c0_i32_42
  let v99 : BitVec 32 := Scalar.extui v98
  let v100 : BitVec 32 := Scalar.subi v97 v99
  let v101 : BitVec 1 := Scalar.cmpi .ne v95 v100
  let v102 : BitVec 32 := Scalar.remsi v89 c64_i32_38
  let c0_i32_43 : BitVec 32 := 0#32
  let v103 : BitVec 1 := Scalar.cmpi .ne v102 c0_i32_43
  let v104 : BitVec 1 := Scalar.andi v101 v103
  let v90 : BitVec 32 := Scalar.divsi v89 c64_i32_38
  let c1_i32_44 : BitVec 32 := 1#32
  let v105 : BitVec 32 := Scalar.subi v90 c1_i32_44
  let v106 : BitVec 32 := Scalar.select v104 v105 v90
  let v107 : BitVec 32 := Scalar.subi v106 c0_i32_46
  let c1_i32_47 : BitVec 32 := 1#32
  let v109 : BitVec 32 := Scalar.divsi v107 c1_i32_47
  let v110 : BitVec 32 := Scalar.muli v109 c1_i32_47
  let v111 : BitVec 32 := Scalar.addi c0_i32_46 v110
  let c1_i32_49 : BitVec 32 := 1#32
  let arg21 : BitVec 32 := Scf.iv v111 c1_i32_49 k0_t36
  let c64_i32_50 : BitVec 32 := 64#32
  let v113 : BitVec 32 := Scalar.muli arg21 c64_i32_50
  let v114 : BitVec 32 := Scalar.addi v112 v113
  v114
def k0_off67 (i : grid0.Coords) (k0_t36 : Fin (k0_t36_loop i).trips) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c2_i32_2 : BitVec 32 := 2#32
  let c0_i32_5 : BitVec 32 := 0#32
  let v10 : BitVec 1 := Scalar.cmpi .sgt c2_i32_2 c0_i32_5
  let v11 : BitVec 32 := Scalar.extui v10
  let c0_i32_6 : BitVec 32 := 0#32
  let v12 : BitVec 1 := Scalar.cmpi .slt c2_i32_2 c0_i32_6
  let v13 : BitVec 32 := Scalar.extui v12
  let v14 : BitVec 32 := Scalar.subi v11 v13
  let v15 : BitVec 1 := Scalar.cmpi .ne v9 v14
  let v16 : BitVec 32 := Scalar.remsi v3 c2_i32_2
  let c0_i32_7 : BitVec 32 := 0#32
  let v17 : BitVec 1 := Scalar.cmpi .ne v16 c0_i32_7
  let v18 : BitVec 1 := Scalar.andi v15 v17
  let v4 : BitVec 32 := Scalar.divsi v3 c2_i32_2
  let c1_i32_8 : BitVec 32 := 1#32
  let v19 : BitVec 32 := Scalar.subi v4 c1_i32_8
  let v20 : BitVec 32 := Scalar.select v18 v19 v4
  let c4096_i32_17 : BitVec 32 := 4096#32
  let v38 : BitVec 32 := Scalar.muli v20 c4096_i32_17
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi v3 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32 : BitVec 32 := 2048#32
  let v31 : BitVec 32 := Scalar.muli v30 c2048_i32
  let v39 : BitVec 32 := Scalar.addi v38 v31
  let v40 : BitVec 32 := v39
  let c2048_i32_16 : BitVec 32 := 2048#32
  let c0_i32_15 : BitVec 32 := 0#32
  let c4096_i32 : BitVec 32 := 4096#32
  let c256_i32 : BitVec 32 := 256#32
  let v32 : BitVec 32 := Scalar.muli c256_i32 v20
  let v33 : BitVec 32 := Scalar.subi c4096_i32 v32
  let v34 : BitVec 32 := Scalar.subi v33 v31
  let v35 : BitVec 32 := Scalar.maxsi c0_i32_15 v34
  let v36 : BitVec 32 := Scalar.minsi c2048_i32_16 v35
  let v37 : BitVec 32 := v36
  let v112 : BitVec 32 := Scalar.addi v40 v37
  let c0_i32_46 : BitVec 32 := 0#32
  let c2048_i32_37 : BitVec 32 := 2048#32
  let v89 : BitVec 32 := Scalar.subi c2048_i32_37 v37
  let c0_i32_39 : BitVec 32 := 0#32
  let v91 : BitVec 1 := Scalar.cmpi .sgt v89 c0_i32_39
  let v92 : BitVec 32 := Scalar.extui v91
  let c0_i32_40 : BitVec 32 := 0#32
  let v93 : BitVec 1 := Scalar.cmpi .slt v89 c0_i32_40
  let v94 : BitVec 32 := Scalar.extui v93
  let v95 : BitVec 32 := Scalar.subi v92 v94
  let c64_i32_38 : BitVec 32 := 64#32
  let c0_i32_41 : BitVec 32 := 0#32
  let v96 : BitVec 1 := Scalar.cmpi .sgt c64_i32_38 c0_i32_41
  let v97 : BitVec 32 := Scalar.extui v96
  let c0_i32_42 : BitVec 32 := 0#32
  let v98 : BitVec 1 := Scalar.cmpi .slt c64_i32_38 c0_i32_42
  let v99 : BitVec 32 := Scalar.extui v98
  let v100 : BitVec 32 := Scalar.subi v97 v99
  let v101 : BitVec 1 := Scalar.cmpi .ne v95 v100
  let v102 : BitVec 32 := Scalar.remsi v89 c64_i32_38
  let c0_i32_43 : BitVec 32 := 0#32
  let v103 : BitVec 1 := Scalar.cmpi .ne v102 c0_i32_43
  let v104 : BitVec 1 := Scalar.andi v101 v103
  let v90 : BitVec 32 := Scalar.divsi v89 c64_i32_38
  let c1_i32_44 : BitVec 32 := 1#32
  let v105 : BitVec 32 := Scalar.subi v90 c1_i32_44
  let v106 : BitVec 32 := Scalar.select v104 v105 v90
  let v107 : BitVec 32 := Scalar.subi v106 c0_i32_46
  let c1_i32_47 : BitVec 32 := 1#32
  let v109 : BitVec 32 := Scalar.divsi v107 c1_i32_47
  let v110 : BitVec 32 := Scalar.muli v109 c1_i32_47
  let v111 : BitVec 32 := Scalar.addi c0_i32_46 v110
  let c1_i32_49 : BitVec 32 := 1#32
  let arg21 : BitVec 32 := Scf.iv v111 c1_i32_49 k0_t36
  let c64_i32_50 : BitVec 32 := 64#32
  let v113 : BitVec 32 := Scalar.muli arg21 c64_i32_50
  let v114 : BitVec 32 := Scalar.addi v112 v113
  let v115 : BitVec 32 := v114
  let c0_i32_51_r65 : BitVec 32 := 0#32
  ![v115.toNat, 0]
abbrev grid1 : Pipeline.Grid := .none

abbrev stage1_0 : Fin 1 → Memref sig .tc .vmem S16x4096 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  h_S1x16 : 0 < S1x16.numel
  shapeCasts_S1x16_S16 : S1x16.ShapeCasts S16
  shapeCasts_S16_S1x16 : S16.ShapeCasts S1x16
  shapeCasts_S65536x512_S16x4096x512 : S65536x512.ShapeCasts S16x4096x512
  iota_S16x4096_d1_w32 : S16x4096.Iotas .tc 32 [1]
  iota_S16x4096_d0_w32 : S16x4096.Iotas .tc 32 [0]
  inb_S16x4096_S16x4096_0_0 : ∀ a, (![0, 0] : Fin 2 → Nat) a + S16x4096.size a ≤ S16x4096.size a
  h_S16x4096 : 0 < S16x4096.numel
  natLt_1_32 : 1 < 32
  bcast_S_S16x4096 : S_.BroadcastsInDim S16x4096 (![] : Fin 0 → Fin S16x4096.rank)
  hcc0_scoped0 : 0 + S_.numel ≤ 67
  hcc0_scoped1 : 1 + S_.numel ≤ 67
  hcc0_scoped2 : 2 + S_.numel ≤ 67
  hcc0_scoped3 : 3 + S_.numel ≤ 67
  hcc0_scoped4 : 4 + S_.numel ≤ 67
  hcc0_scoped5 : 5 + S_.numel ≤ 67
  hcc0_scoped6 : 6 + S_.numel ≤ 67
  hcc0_scoped7 : 7 + S_.numel ≤ 67
  hcc0_scoped8 : 8 + S_.numel ≤ 67
  hcc0_scoped9 : 9 + S_.numel ≤ 67
  hcc0_scoped10 : 10 + S_.numel ≤ 67
  hcc0_scoped11 : 11 + S_.numel ≤ 67
  hcc0_scoped12 : 12 + S_.numel ≤ 67
  hcc0_scoped13 : 13 + S_.numel ≤ 67
  hcc0_scoped14 : 14 + S_.numel ≤ 67
  hcc0_scoped15 : 15 + S_.numel ≤ 67
  hcc0_scoped16 : 16 + S_.numel ≤ 67
  hcc0_scoped17 : 17 + S_.numel ≤ 67
  hcc0_scoped18 : 18 + S_.numel ≤ 67
  hcc0_scoped19 : 19 + S_.numel ≤ 67
  hcc0_scoped20 : 20 + S_.numel ≤ 67
  hcc0_scoped21 : 21 + S_.numel ≤ 67
  hcc0_scoped22 : 22 + S_.numel ≤ 67
  hcc0_scoped23 : 23 + S_.numel ≤ 67
  hcc0_scoped24 : 24 + S_.numel ≤ 67
  hcc0_scoped25 : 25 + S_.numel ≤ 67
  hcc0_scoped26 : 26 + S_.numel ≤ 67
  hcc0_scoped27 : 27 + S_.numel ≤ 67
  hcc0_scoped28 : 28 + S_.numel ≤ 67
  hcc0_scoped29 : 29 + S_.numel ≤ 67
  hcc0_scoped30 : 30 + S_.numel ≤ 67
  hcc0_scoped31 : 31 + S_.numel ≤ 67
  hcc0_scoped32 : 32 + S_.numel ≤ 67
  hcc0_scoped33 : 33 + S_.numel ≤ 67
  hcc0_scoped34 : 34 + S_.numel ≤ 67
  hcc0_scoped35 : 35 + S_.numel ≤ 67
  hcc0_scoped36 : 36 + S_.numel ≤ 67
  hcc0_scoped37 : 37 + S_.numel ≤ 67
  hcc0_scoped38 : 38 + S_.numel ≤ 67
  hcc0_scoped39 : 39 + S_.numel ≤ 67
  hcc0_scoped40 : 40 + S_.numel ≤ 67
  hcc0_scoped41 : 41 + S_.numel ≤ 67
  hcc0_scoped42 : 42 + S_.numel ≤ 67
  hcc0_scoped43 : 43 + S_.numel ≤ 67
  hcc0_scoped44 : 44 + S_.numel ≤ 67
  hcc0_scoped45 : 45 + S_.numel ≤ 67
  hcc0_scoped46 : 46 + S_.numel ≤ 67
  hcc0_scoped47 : 47 + S_.numel ≤ 67
  hcc0_scoped48 : 48 + S_.numel ≤ 67
  hcc0_scoped49 : 49 + S_.numel ≤ 67
  hcc0_scoped50 : 50 + S_.numel ≤ 67
  hcc0_scoped51 : 51 + S_.numel ≤ 67
  hcc0_scoped52 : 52 + S_.numel ≤ 67
  hcc0_scoped53 : 53 + S_.numel ≤ 67
  hcc0_scoped54 : 54 + S_.numel ≤ 67
  hcc0_scoped55 : 55 + S_.numel ≤ 67
  hcc0_scoped56 : 56 + S_.numel ≤ 67
  hcc0_scoped57 : 57 + S_.numel ≤ 67
  hcc0_scoped58 : 58 + S_.numel ≤ 67
  hcc0_scoped59 : 59 + S_.numel ≤ 67
  hcc0_scoped60 : 60 + S_.numel ≤ 67
  hcc0_scoped61 : 61 + S_.numel ≤ 67
  hcc0_scoped62 : 62 + S_.numel ≤ 67
  hcc0_scoped63 : 63 + S_.numel ≤ 67
  hcc0_scoped64 : 64 + S_.numel ≤ 67
  hcc0_scoped65 : 65 + S_.numel ≤ 67
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : k0_t1_loop.OK
  k0_t2_ok : k0_t2_loop.OK
  k0_off1_inb : ∀ (k0_t1 : Fin k0_t1_loop.trips) (k0_t2 : Fin k0_t2_loop.trips), ∀ a, (k0_off1 k0_t1 k0_t2) a + S1x16.size a ≤ S64x512.size a
  k0_mult1_dvd : ∀ i : grid0.Coords, 64 ∣ (k0_mult1 i).toNat
  k0_mult2_dvd : ∀ i : grid0.Coords, 2048 ∣ (k0_mult2 i).toNat
  k0_t3_ok : ∀ i : grid0.Coords, ∀ (k0_h1 : k0_cond1 i = 1#1), (k0_t3_loop i).OK
  k0_mult3_dvd : ∀ (i : grid0.Coords) (k0_t3 : Fin (k0_t3_loop i).trips), ∀ (k0_h1 : k0_cond1 i = 1#1), 64 ∣ (k0_mult3 i k0_t3).toNat
  k0_off2_inb : ∀ (i : grid0.Coords) (k0_t3 : Fin (k0_t3_loop i).trips), ∀ (k0_h1 : k0_cond1 i = 1#1), ∀ a, (k0_off2 i k0_t3) a + S64x512.size a ≤ S4096x512.size a
  k0_off3_inb : ∀ (i : grid0.Coords) (k0_t3 : Fin (k0_t3_loop i).trips), ∀ (k0_h1 : k0_cond1 i = 1#1), ∀ a, (k0_off3 i k0_t3) a + S64x512.size a ≤ S65536x512.size a
  k0_t4_ok : ∀ i : grid0.Coords, ∀ (k0_h1 : k0_cond1 i = 1#1), (k0_t4_loop i).OK
  k0_mult4_dvd : ∀ (i : grid0.Coords) (k0_t4 : Fin (k0_t4_loop i).trips), ∀ (k0_h1 : k0_cond1 i = 1#1), 64 ∣ (k0_mult4 i k0_t4).toNat
  k0_off4_inb : ∀ (i : grid0.Coords) (k0_t4 : Fin (k0_t4_loop i).trips), ∀ (k0_h1 : k0_cond1 i = 1#1), ∀ a, (k0_off4 i k0_t4) a + S64x512.size a ≤ S4096x512.size a
  k0_off5_inb : ∀ (i : grid0.Coords) (k0_t4 : Fin (k0_t4_loop i).trips), ∀ (k0_h1 : k0_cond1 i = 1#1), ∀ a, (k0_off5 i k0_t4) a + S64x512.size a ≤ S65536x512.size a
  k0_t5_ok : ∀ i : grid0.Coords, ∀ (k0_h2 : k0_cond2 i = 1#1), (k0_t5_loop i).OK
  k0_mult5_dvd : ∀ (i : grid0.Coords) (k0_t5 : Fin (k0_t5_loop i).trips), ∀ (k0_h2 : k0_cond2 i = 1#1), 64 ∣ (k0_mult5 i k0_t5).toNat
  k0_off6_inb : ∀ (i : grid0.Coords) (k0_t5 : Fin (k0_t5_loop i).trips), ∀ (k0_h2 : k0_cond2 i = 1#1), ∀ a, (k0_off6 i k0_t5) a + S64x512.size a ≤ S3840x512.size a
  k0_off7_inb : ∀ (i : grid0.Coords) (k0_t5 : Fin (k0_t5_loop i).trips), ∀ (k0_h2 : k0_cond2 i = 1#1), ∀ a, (k0_off7 i k0_t5) a + S64x512.size a ≤ S65536x512.size a
  k0_t6_ok : ∀ i : grid0.Coords, ∀ (k0_h2 : k0_cond2 i = 1#1), (k0_t6_loop i).OK
  k0_mult6_dvd : ∀ (i : grid0.Coords) (k0_t6 : Fin (k0_t6_loop i).trips), ∀ (k0_h2 : k0_cond2 i = 1#1), 64 ∣ (k0_mult6 i k0_t6).toNat
  k0_off8_inb : ∀ (i : grid0.Coords) (k0_t6 : Fin (k0_t6_loop i).trips), ∀ (k0_h2 : k0_cond2 i = 1#1), ∀ a, (k0_off8 i k0_t6) a + S64x512.size a ≤ S3840x512.size a
  k0_off9_inb : ∀ (i : grid0.Coords) (k0_t6 : Fin (k0_t6_loop i).trips), ∀ (k0_h2 : k0_cond2 i = 1#1), ∀ a, (k0_off9 i k0_t6) a + S64x512.size a ≤ S65536x512.size a
  k0_t7_ok : ∀ i : grid0.Coords, ∀ (k0_h3 : k0_cond3 i = 1#1), (k0_t7_loop i).OK
  k0_mult7_dvd : ∀ (i : grid0.Coords) (k0_t7 : Fin (k0_t7_loop i).trips), ∀ (k0_h3 : k0_cond3 i = 1#1), 64 ∣ (k0_mult7 i k0_t7).toNat
  k0_off10_inb : ∀ (i : grid0.Coords) (k0_t7 : Fin (k0_t7_loop i).trips), ∀ (k0_h3 : k0_cond3 i = 1#1), ∀ a, (k0_off10 i k0_t7) a + S64x512.size a ≤ S3584x512.size a
  k0_off11_inb : ∀ (i : grid0.Coords) (k0_t7 : Fin (k0_t7_loop i).trips), ∀ (k0_h3 : k0_cond3 i = 1#1), ∀ a, (k0_off11 i k0_t7) a + S64x512.size a ≤ S65536x512.size a
  k0_t8_ok : ∀ i : grid0.Coords, ∀ (k0_h3 : k0_cond3 i = 1#1), (k0_t8_loop i).OK
  k0_mult8_dvd : ∀ (i : grid0.Coords) (k0_t8 : Fin (k0_t8_loop i).trips), ∀ (k0_h3 : k0_cond3 i = 1#1), 64 ∣ (k0_mult8 i k0_t8).toNat
  k0_off12_inb : ∀ (i : grid0.Coords) (k0_t8 : Fin (k0_t8_loop i).trips), ∀ (k0_h3 : k0_cond3 i = 1#1), ∀ a, (k0_off12 i k0_t8) a + S64x512.size a ≤ S3584x512.size a
  k0_off13_inb : ∀ (i : grid0.Coords) (k0_t8 : Fin (k0_t8_loop i).trips), ∀ (k0_h3 : k0_cond3 i = 1#1), ∀ a, (k0_off13 i k0_t8) a + S64x512.size a ≤ S65536x512.size a
  k0_t9_ok : ∀ i : grid0.Coords, ∀ (k0_h4 : k0_cond4 i = 1#1), (k0_t9_loop i).OK
  k0_mult9_dvd : ∀ (i : grid0.Coords) (k0_t9 : Fin (k0_t9_loop i).trips), ∀ (k0_h4 : k0_cond4 i = 1#1), 64 ∣ (k0_mult9 i k0_t9).toNat
  k0_off14_inb : ∀ (i : grid0.Coords) (k0_t9 : Fin (k0_t9_loop i).trips), ∀ (k0_h4 : k0_cond4 i = 1#1), ∀ a, (k0_off14 i k0_t9) a + S64x512.size a ≤ S3328x512.size a
  k0_off15_inb : ∀ (i : grid0.Coords) (k0_t9 : Fin (k0_t9_loop i).trips), ∀ (k0_h4 : k0_cond4 i = 1#1), ∀ a, (k0_off15 i k0_t9) a + S64x512.size a ≤ S65536x512.size a
  k0_t10_ok : ∀ i : grid0.Coords, ∀ (k0_h4 : k0_cond4 i = 1#1), (k0_t10_loop i).OK
  k0_mult10_dvd : ∀ (i : grid0.Coords) (k0_t10 : Fin (k0_t10_loop i).trips), ∀ (k0_h4 : k0_cond4 i = 1#1), 64 ∣ (k0_mult10 i k0_t10).toNat
  k0_off16_inb : ∀ (i : grid0.Coords) (k0_t10 : Fin (k0_t10_loop i).trips), ∀ (k0_h4 : k0_cond4 i = 1#1), ∀ a, (k0_off16 i k0_t10) a + S64x512.size a ≤ S3328x512.size a
  k0_off17_inb : ∀ (i : grid0.Coords) (k0_t10 : Fin (k0_t10_loop i).trips), ∀ (k0_h4 : k0_cond4 i = 1#1), ∀ a, (k0_off17 i k0_t10) a + S64x512.size a ≤ S65536x512.size a
  k0_t11_ok : ∀ i : grid0.Coords, ∀ (k0_h5 : k0_cond5 i = 1#1), (k0_t11_loop i).OK
  k0_mult11_dvd : ∀ (i : grid0.Coords) (k0_t11 : Fin (k0_t11_loop i).trips), ∀ (k0_h5 : k0_cond5 i = 1#1), 64 ∣ (k0_mult11 i k0_t11).toNat
  k0_off18_inb : ∀ (i : grid0.Coords) (k0_t11 : Fin (k0_t11_loop i).trips), ∀ (k0_h5 : k0_cond5 i = 1#1), ∀ a, (k0_off18 i k0_t11) a + S64x512.size a ≤ S3072x512.size a
  k0_off19_inb : ∀ (i : grid0.Coords) (k0_t11 : Fin (k0_t11_loop i).trips), ∀ (k0_h5 : k0_cond5 i = 1#1), ∀ a, (k0_off19 i k0_t11) a + S64x512.size a ≤ S65536x512.size a
  k0_t12_ok : ∀ i : grid0.Coords, ∀ (k0_h5 : k0_cond5 i = 1#1), (k0_t12_loop i).OK
  k0_mult12_dvd : ∀ (i : grid0.Coords) (k0_t12 : Fin (k0_t12_loop i).trips), ∀ (k0_h5 : k0_cond5 i = 1#1), 64 ∣ (k0_mult12 i k0_t12).toNat
  k0_off20_inb : ∀ (i : grid0.Coords) (k0_t12 : Fin (k0_t12_loop i).trips), ∀ (k0_h5 : k0_cond5 i = 1#1), ∀ a, (k0_off20 i k0_t12) a + S64x512.size a ≤ S3072x512.size a
  k0_off21_inb : ∀ (i : grid0.Coords) (k0_t12 : Fin (k0_t12_loop i).trips), ∀ (k0_h5 : k0_cond5 i = 1#1), ∀ a, (k0_off21 i k0_t12) a + S64x512.size a ≤ S65536x512.size a
  k0_t13_ok : ∀ i : grid0.Coords, ∀ (k0_h6 : k0_cond6 i = 1#1), (k0_t13_loop i).OK
  k0_mult13_dvd : ∀ (i : grid0.Coords) (k0_t13 : Fin (k0_t13_loop i).trips), ∀ (k0_h6 : k0_cond6 i = 1#1), 64 ∣ (k0_mult13 i k0_t13).toNat
  k0_off22_inb : ∀ (i : grid0.Coords) (k0_t13 : Fin (k0_t13_loop i).trips), ∀ (k0_h6 : k0_cond6 i = 1#1), ∀ a, (k0_off22 i k0_t13) a + S64x512.size a ≤ S2816x512.size a
  k0_off23_inb : ∀ (i : grid0.Coords) (k0_t13 : Fin (k0_t13_loop i).trips), ∀ (k0_h6 : k0_cond6 i = 1#1), ∀ a, (k0_off23 i k0_t13) a + S64x512.size a ≤ S65536x512.size a
  k0_t14_ok : ∀ i : grid0.Coords, ∀ (k0_h6 : k0_cond6 i = 1#1), (k0_t14_loop i).OK
  k0_mult14_dvd : ∀ (i : grid0.Coords) (k0_t14 : Fin (k0_t14_loop i).trips), ∀ (k0_h6 : k0_cond6 i = 1#1), 64 ∣ (k0_mult14 i k0_t14).toNat
  k0_off24_inb : ∀ (i : grid0.Coords) (k0_t14 : Fin (k0_t14_loop i).trips), ∀ (k0_h6 : k0_cond6 i = 1#1), ∀ a, (k0_off24 i k0_t14) a + S64x512.size a ≤ S2816x512.size a
  k0_off25_inb : ∀ (i : grid0.Coords) (k0_t14 : Fin (k0_t14_loop i).trips), ∀ (k0_h6 : k0_cond6 i = 1#1), ∀ a, (k0_off25 i k0_t14) a + S64x512.size a ≤ S65536x512.size a
  k0_t15_ok : ∀ i : grid0.Coords, ∀ (k0_h7 : k0_cond7 i = 1#1), (k0_t15_loop i).OK
  k0_mult15_dvd : ∀ (i : grid0.Coords) (k0_t15 : Fin (k0_t15_loop i).trips), ∀ (k0_h7 : k0_cond7 i = 1#1), 64 ∣ (k0_mult15 i k0_t15).toNat
  k0_off26_inb : ∀ (i : grid0.Coords) (k0_t15 : Fin (k0_t15_loop i).trips), ∀ (k0_h7 : k0_cond7 i = 1#1), ∀ a, (k0_off26 i k0_t15) a + S64x512.size a ≤ S2560x512.size a
  k0_off27_inb : ∀ (i : grid0.Coords) (k0_t15 : Fin (k0_t15_loop i).trips), ∀ (k0_h7 : k0_cond7 i = 1#1), ∀ a, (k0_off27 i k0_t15) a + S64x512.size a ≤ S65536x512.size a
  k0_t16_ok : ∀ i : grid0.Coords, ∀ (k0_h7 : k0_cond7 i = 1#1), (k0_t16_loop i).OK
  k0_mult16_dvd : ∀ (i : grid0.Coords) (k0_t16 : Fin (k0_t16_loop i).trips), ∀ (k0_h7 : k0_cond7 i = 1#1), 64 ∣ (k0_mult16 i k0_t16).toNat
  k0_off28_inb : ∀ (i : grid0.Coords) (k0_t16 : Fin (k0_t16_loop i).trips), ∀ (k0_h7 : k0_cond7 i = 1#1), ∀ a, (k0_off28 i k0_t16) a + S64x512.size a ≤ S2560x512.size a
  k0_off29_inb : ∀ (i : grid0.Coords) (k0_t16 : Fin (k0_t16_loop i).trips), ∀ (k0_h7 : k0_cond7 i = 1#1), ∀ a, (k0_off29 i k0_t16) a + S64x512.size a ≤ S65536x512.size a
  k0_t17_ok : ∀ i : grid0.Coords, ∀ (k0_h8 : k0_cond8 i = 1#1), (k0_t17_loop i).OK
  k0_mult17_dvd : ∀ (i : grid0.Coords) (k0_t17 : Fin (k0_t17_loop i).trips), ∀ (k0_h8 : k0_cond8 i = 1#1), 64 ∣ (k0_mult17 i k0_t17).toNat
  k0_off30_inb : ∀ (i : grid0.Coords) (k0_t17 : Fin (k0_t17_loop i).trips), ∀ (k0_h8 : k0_cond8 i = 1#1), ∀ a, (k0_off30 i k0_t17) a + S64x512.size a ≤ S2304x512.size a
  k0_off31_inb : ∀ (i : grid0.Coords) (k0_t17 : Fin (k0_t17_loop i).trips), ∀ (k0_h8 : k0_cond8 i = 1#1), ∀ a, (k0_off31 i k0_t17) a + S64x512.size a ≤ S65536x512.size a
  k0_t18_ok : ∀ i : grid0.Coords, ∀ (k0_h8 : k0_cond8 i = 1#1), (k0_t18_loop i).OK
  k0_mult18_dvd : ∀ (i : grid0.Coords) (k0_t18 : Fin (k0_t18_loop i).trips), ∀ (k0_h8 : k0_cond8 i = 1#1), 64 ∣ (k0_mult18 i k0_t18).toNat
  k0_off32_inb : ∀ (i : grid0.Coords) (k0_t18 : Fin (k0_t18_loop i).trips), ∀ (k0_h8 : k0_cond8 i = 1#1), ∀ a, (k0_off32 i k0_t18) a + S64x512.size a ≤ S2304x512.size a
  k0_off33_inb : ∀ (i : grid0.Coords) (k0_t18 : Fin (k0_t18_loop i).trips), ∀ (k0_h8 : k0_cond8 i = 1#1), ∀ a, (k0_off33 i k0_t18) a + S64x512.size a ≤ S65536x512.size a
  k0_t19_ok : ∀ i : grid0.Coords, ∀ (k0_h9 : k0_cond9 i = 1#1), (k0_t19_loop i).OK
  k0_mult19_dvd : ∀ (i : grid0.Coords) (k0_t19 : Fin (k0_t19_loop i).trips), ∀ (k0_h9 : k0_cond9 i = 1#1), 64 ∣ (k0_mult19 i k0_t19).toNat
  k0_off34_inb : ∀ (i : grid0.Coords) (k0_t19 : Fin (k0_t19_loop i).trips), ∀ (k0_h9 : k0_cond9 i = 1#1), ∀ a, (k0_off34 i k0_t19) a + S64x512.size a ≤ S2048x512.size a
  k0_off35_inb : ∀ (i : grid0.Coords) (k0_t19 : Fin (k0_t19_loop i).trips), ∀ (k0_h9 : k0_cond9 i = 1#1), ∀ a, (k0_off35 i k0_t19) a + S64x512.size a ≤ S65536x512.size a
  k0_t20_ok : ∀ i : grid0.Coords, ∀ (k0_h9 : k0_cond9 i = 1#1), (k0_t20_loop i).OK
  k0_mult20_dvd : ∀ (i : grid0.Coords) (k0_t20 : Fin (k0_t20_loop i).trips), ∀ (k0_h9 : k0_cond9 i = 1#1), 64 ∣ (k0_mult20 i k0_t20).toNat
  k0_off36_inb : ∀ (i : grid0.Coords) (k0_t20 : Fin (k0_t20_loop i).trips), ∀ (k0_h9 : k0_cond9 i = 1#1), ∀ a, (k0_off36 i k0_t20) a + S64x512.size a ≤ S2048x512.size a
  k0_off37_inb : ∀ (i : grid0.Coords) (k0_t20 : Fin (k0_t20_loop i).trips), ∀ (k0_h9 : k0_cond9 i = 1#1), ∀ a, (k0_off37 i k0_t20) a + S64x512.size a ≤ S65536x512.size a
  k0_t21_ok : ∀ i : grid0.Coords, ∀ (k0_h10 : k0_cond10 i = 1#1), (k0_t21_loop i).OK
  k0_mult21_dvd : ∀ (i : grid0.Coords) (k0_t21 : Fin (k0_t21_loop i).trips), ∀ (k0_h10 : k0_cond10 i = 1#1), 64 ∣ (k0_mult21 i k0_t21).toNat
  k0_off38_inb : ∀ (i : grid0.Coords) (k0_t21 : Fin (k0_t21_loop i).trips), ∀ (k0_h10 : k0_cond10 i = 1#1), ∀ a, (k0_off38 i k0_t21) a + S64x512.size a ≤ S1792x512.size a
  k0_off39_inb : ∀ (i : grid0.Coords) (k0_t21 : Fin (k0_t21_loop i).trips), ∀ (k0_h10 : k0_cond10 i = 1#1), ∀ a, (k0_off39 i k0_t21) a + S64x512.size a ≤ S65536x512.size a
  k0_t22_ok : ∀ i : grid0.Coords, ∀ (k0_h10 : k0_cond10 i = 1#1), (k0_t22_loop i).OK
  k0_mult22_dvd : ∀ (i : grid0.Coords) (k0_t22 : Fin (k0_t22_loop i).trips), ∀ (k0_h10 : k0_cond10 i = 1#1), 64 ∣ (k0_mult22 i k0_t22).toNat
  k0_off40_inb : ∀ (i : grid0.Coords) (k0_t22 : Fin (k0_t22_loop i).trips), ∀ (k0_h10 : k0_cond10 i = 1#1), ∀ a, (k0_off40 i k0_t22) a + S64x512.size a ≤ S1792x512.size a
  k0_off41_inb : ∀ (i : grid0.Coords) (k0_t22 : Fin (k0_t22_loop i).trips), ∀ (k0_h10 : k0_cond10 i = 1#1), ∀ a, (k0_off41 i k0_t22) a + S64x512.size a ≤ S65536x512.size a
  k0_t23_ok : ∀ i : grid0.Coords, ∀ (k0_h11 : k0_cond11 i = 1#1), (k0_t23_loop i).OK
  k0_mult23_dvd : ∀ (i : grid0.Coords) (k0_t23 : Fin (k0_t23_loop i).trips), ∀ (k0_h11 : k0_cond11 i = 1#1), 64 ∣ (k0_mult23 i k0_t23).toNat
  k0_off42_inb : ∀ (i : grid0.Coords) (k0_t23 : Fin (k0_t23_loop i).trips), ∀ (k0_h11 : k0_cond11 i = 1#1), ∀ a, (k0_off42 i k0_t23) a + S64x512.size a ≤ S1536x512.size a
  k0_off43_inb : ∀ (i : grid0.Coords) (k0_t23 : Fin (k0_t23_loop i).trips), ∀ (k0_h11 : k0_cond11 i = 1#1), ∀ a, (k0_off43 i k0_t23) a + S64x512.size a ≤ S65536x512.size a
  k0_t24_ok : ∀ i : grid0.Coords, ∀ (k0_h11 : k0_cond11 i = 1#1), (k0_t24_loop i).OK
  k0_mult24_dvd : ∀ (i : grid0.Coords) (k0_t24 : Fin (k0_t24_loop i).trips), ∀ (k0_h11 : k0_cond11 i = 1#1), 64 ∣ (k0_mult24 i k0_t24).toNat
  k0_off44_inb : ∀ (i : grid0.Coords) (k0_t24 : Fin (k0_t24_loop i).trips), ∀ (k0_h11 : k0_cond11 i = 1#1), ∀ a, (k0_off44 i k0_t24) a + S64x512.size a ≤ S1536x512.size a
  k0_off45_inb : ∀ (i : grid0.Coords) (k0_t24 : Fin (k0_t24_loop i).trips), ∀ (k0_h11 : k0_cond11 i = 1#1), ∀ a, (k0_off45 i k0_t24) a + S64x512.size a ≤ S65536x512.size a
  k0_t25_ok : ∀ i : grid0.Coords, ∀ (k0_h12 : k0_cond12 i = 1#1), (k0_t25_loop i).OK
  k0_mult25_dvd : ∀ (i : grid0.Coords) (k0_t25 : Fin (k0_t25_loop i).trips), ∀ (k0_h12 : k0_cond12 i = 1#1), 64 ∣ (k0_mult25 i k0_t25).toNat
  k0_off46_inb : ∀ (i : grid0.Coords) (k0_t25 : Fin (k0_t25_loop i).trips), ∀ (k0_h12 : k0_cond12 i = 1#1), ∀ a, (k0_off46 i k0_t25) a + S64x512.size a ≤ S1280x512.size a
  k0_off47_inb : ∀ (i : grid0.Coords) (k0_t25 : Fin (k0_t25_loop i).trips), ∀ (k0_h12 : k0_cond12 i = 1#1), ∀ a, (k0_off47 i k0_t25) a + S64x512.size a ≤ S65536x512.size a
  k0_t26_ok : ∀ i : grid0.Coords, ∀ (k0_h12 : k0_cond12 i = 1#1), (k0_t26_loop i).OK
  k0_mult26_dvd : ∀ (i : grid0.Coords) (k0_t26 : Fin (k0_t26_loop i).trips), ∀ (k0_h12 : k0_cond12 i = 1#1), 64 ∣ (k0_mult26 i k0_t26).toNat
  k0_off48_inb : ∀ (i : grid0.Coords) (k0_t26 : Fin (k0_t26_loop i).trips), ∀ (k0_h12 : k0_cond12 i = 1#1), ∀ a, (k0_off48 i k0_t26) a + S64x512.size a ≤ S1280x512.size a
  k0_off49_inb : ∀ (i : grid0.Coords) (k0_t26 : Fin (k0_t26_loop i).trips), ∀ (k0_h12 : k0_cond12 i = 1#1), ∀ a, (k0_off49 i k0_t26) a + S64x512.size a ≤ S65536x512.size a
  k0_t27_ok : ∀ i : grid0.Coords, ∀ (k0_h13 : k0_cond13 i = 1#1), (k0_t27_loop i).OK
  k0_mult27_dvd : ∀ (i : grid0.Coords) (k0_t27 : Fin (k0_t27_loop i).trips), ∀ (k0_h13 : k0_cond13 i = 1#1), 64 ∣ (k0_mult27 i k0_t27).toNat
  k0_off50_inb : ∀ (i : grid0.Coords) (k0_t27 : Fin (k0_t27_loop i).trips), ∀ (k0_h13 : k0_cond13 i = 1#1), ∀ a, (k0_off50 i k0_t27) a + S64x512.size a ≤ S1024x512.size a
  k0_off51_inb : ∀ (i : grid0.Coords) (k0_t27 : Fin (k0_t27_loop i).trips), ∀ (k0_h13 : k0_cond13 i = 1#1), ∀ a, (k0_off51 i k0_t27) a + S64x512.size a ≤ S65536x512.size a
  k0_t28_ok : ∀ i : grid0.Coords, ∀ (k0_h13 : k0_cond13 i = 1#1), (k0_t28_loop i).OK
  k0_mult28_dvd : ∀ (i : grid0.Coords) (k0_t28 : Fin (k0_t28_loop i).trips), ∀ (k0_h13 : k0_cond13 i = 1#1), 64 ∣ (k0_mult28 i k0_t28).toNat
  k0_off52_inb : ∀ (i : grid0.Coords) (k0_t28 : Fin (k0_t28_loop i).trips), ∀ (k0_h13 : k0_cond13 i = 1#1), ∀ a, (k0_off52 i k0_t28) a + S64x512.size a ≤ S1024x512.size a
  k0_off53_inb : ∀ (i : grid0.Coords) (k0_t28 : Fin (k0_t28_loop i).trips), ∀ (k0_h13 : k0_cond13 i = 1#1), ∀ a, (k0_off53 i k0_t28) a + S64x512.size a ≤ S65536x512.size a
  k0_t29_ok : ∀ i : grid0.Coords, ∀ (k0_h14 : k0_cond14 i = 1#1), (k0_t29_loop i).OK
  k0_mult29_dvd : ∀ (i : grid0.Coords) (k0_t29 : Fin (k0_t29_loop i).trips), ∀ (k0_h14 : k0_cond14 i = 1#1), 64 ∣ (k0_mult29 i k0_t29).toNat
  k0_off54_inb : ∀ (i : grid0.Coords) (k0_t29 : Fin (k0_t29_loop i).trips), ∀ (k0_h14 : k0_cond14 i = 1#1), ∀ a, (k0_off54 i k0_t29) a + S64x512.size a ≤ S768x512.size a
  k0_off55_inb : ∀ (i : grid0.Coords) (k0_t29 : Fin (k0_t29_loop i).trips), ∀ (k0_h14 : k0_cond14 i = 1#1), ∀ a, (k0_off55 i k0_t29) a + S64x512.size a ≤ S65536x512.size a
  k0_t30_ok : ∀ i : grid0.Coords, ∀ (k0_h14 : k0_cond14 i = 1#1), (k0_t30_loop i).OK
  k0_mult30_dvd : ∀ (i : grid0.Coords) (k0_t30 : Fin (k0_t30_loop i).trips), ∀ (k0_h14 : k0_cond14 i = 1#1), 64 ∣ (k0_mult30 i k0_t30).toNat
  k0_off56_inb : ∀ (i : grid0.Coords) (k0_t30 : Fin (k0_t30_loop i).trips), ∀ (k0_h14 : k0_cond14 i = 1#1), ∀ a, (k0_off56 i k0_t30) a + S64x512.size a ≤ S768x512.size a
  k0_off57_inb : ∀ (i : grid0.Coords) (k0_t30 : Fin (k0_t30_loop i).trips), ∀ (k0_h14 : k0_cond14 i = 1#1), ∀ a, (k0_off57 i k0_t30) a + S64x512.size a ≤ S65536x512.size a
  k0_t31_ok : ∀ i : grid0.Coords, ∀ (k0_h15 : k0_cond15 i = 1#1), (k0_t31_loop i).OK
  k0_mult31_dvd : ∀ (i : grid0.Coords) (k0_t31 : Fin (k0_t31_loop i).trips), ∀ (k0_h15 : k0_cond15 i = 1#1), 64 ∣ (k0_mult31 i k0_t31).toNat
  k0_off58_inb : ∀ (i : grid0.Coords) (k0_t31 : Fin (k0_t31_loop i).trips), ∀ (k0_h15 : k0_cond15 i = 1#1), ∀ a, (k0_off58 i k0_t31) a + S64x512.size a ≤ S512x512.size a
  k0_off59_inb : ∀ (i : grid0.Coords) (k0_t31 : Fin (k0_t31_loop i).trips), ∀ (k0_h15 : k0_cond15 i = 1#1), ∀ a, (k0_off59 i k0_t31) a + S64x512.size a ≤ S65536x512.size a
  k0_t32_ok : ∀ i : grid0.Coords, ∀ (k0_h15 : k0_cond15 i = 1#1), (k0_t32_loop i).OK
  k0_mult32_dvd : ∀ (i : grid0.Coords) (k0_t32 : Fin (k0_t32_loop i).trips), ∀ (k0_h15 : k0_cond15 i = 1#1), 64 ∣ (k0_mult32 i k0_t32).toNat
  k0_off60_inb : ∀ (i : grid0.Coords) (k0_t32 : Fin (k0_t32_loop i).trips), ∀ (k0_h15 : k0_cond15 i = 1#1), ∀ a, (k0_off60 i k0_t32) a + S64x512.size a ≤ S512x512.size a
  k0_off61_inb : ∀ (i : grid0.Coords) (k0_t32 : Fin (k0_t32_loop i).trips), ∀ (k0_h15 : k0_cond15 i = 1#1), ∀ a, (k0_off61 i k0_t32) a + S64x512.size a ≤ S65536x512.size a
  k0_t33_ok : ∀ i : grid0.Coords, ∀ (k0_h16 : k0_cond16 i = 1#1), (k0_t33_loop i).OK
  k0_mult33_dvd : ∀ (i : grid0.Coords) (k0_t33 : Fin (k0_t33_loop i).trips), ∀ (k0_h16 : k0_cond16 i = 1#1), 64 ∣ (k0_mult33 i k0_t33).toNat
  k0_off62_inb : ∀ (i : grid0.Coords) (k0_t33 : Fin (k0_t33_loop i).trips), ∀ (k0_h16 : k0_cond16 i = 1#1), ∀ a, (k0_off62 i k0_t33) a + S64x512.size a ≤ S256x512.size a
  k0_off63_inb : ∀ (i : grid0.Coords) (k0_t33 : Fin (k0_t33_loop i).trips), ∀ (k0_h16 : k0_cond16 i = 1#1), ∀ a, (k0_off63 i k0_t33) a + S64x512.size a ≤ S65536x512.size a
  k0_t34_ok : ∀ i : grid0.Coords, ∀ (k0_h16 : k0_cond16 i = 1#1), (k0_t34_loop i).OK
  k0_mult34_dvd : ∀ (i : grid0.Coords) (k0_t34 : Fin (k0_t34_loop i).trips), ∀ (k0_h16 : k0_cond16 i = 1#1), 64 ∣ (k0_mult34 i k0_t34).toNat
  k0_off64_inb : ∀ (i : grid0.Coords) (k0_t34 : Fin (k0_t34_loop i).trips), ∀ (k0_h16 : k0_cond16 i = 1#1), ∀ a, (k0_off64 i k0_t34) a + S64x512.size a ≤ S256x512.size a
  k0_off65_inb : ∀ (i : grid0.Coords) (k0_t34 : Fin (k0_t34_loop i).trips), ∀ (k0_h16 : k0_cond16 i = 1#1), ∀ a, (k0_off65 i k0_t34) a + S64x512.size a ≤ S65536x512.size a
  k0_t35_ok : ∀ i : grid0.Coords, (k0_t35_loop i).OK
  k0_mult35_dvd : ∀ (i : grid0.Coords) (k0_t35 : Fin (k0_t35_loop i).trips), 64 ∣ (k0_mult35 i k0_t35).toNat
  k0_off66_inb : ∀ (i : grid0.Coords) (k0_t35 : Fin (k0_t35_loop i).trips), ∀ a, (k0_off66 i k0_t35) a + S64x512.size a ≤ S65536x512.size a
  k0_t36_ok : ∀ i : grid0.Coords, (k0_t36_loop i).OK
  k0_mult36_dvd : ∀ (i : grid0.Coords) (k0_t36 : Fin (k0_t36_loop i).trips), 64 ∣ (k0_mult36 i k0_t36).toNat
  k0_off67_inb : ∀ (i : grid0.Coords) (k0_t36 : Fin (k0_t36_loop i).trips), ∀ a, (k0_off67 i k0_t36) a + S64x512.size a ≤ S65536x512.size a
  hstage1_0 : ∀ j, (stage1_0 j).IsWhole

variable [Facts₀]

abbrev cc0_scoped0 : DmaSems sig S_ := SemArray.consecutive 0 S_ hcc0_scoped0
abbrev cc0_scoped1 : DmaSems sig S_ := SemArray.consecutive 1 S_ hcc0_scoped1
abbrev cc0_scoped2 : DmaSems sig S_ := SemArray.consecutive 2 S_ hcc0_scoped2
abbrev cc0_scoped3 : DmaSems sig S_ := SemArray.consecutive 3 S_ hcc0_scoped3
abbrev cc0_scoped4 : DmaSems sig S_ := SemArray.consecutive 4 S_ hcc0_scoped4
abbrev cc0_scoped5 : DmaSems sig S_ := SemArray.consecutive 5 S_ hcc0_scoped5
abbrev cc0_scoped6 : DmaSems sig S_ := SemArray.consecutive 6 S_ hcc0_scoped6
abbrev cc0_scoped7 : DmaSems sig S_ := SemArray.consecutive 7 S_ hcc0_scoped7
abbrev cc0_scoped8 : DmaSems sig S_ := SemArray.consecutive 8 S_ hcc0_scoped8
abbrev cc0_scoped9 : DmaSems sig S_ := SemArray.consecutive 9 S_ hcc0_scoped9
abbrev cc0_scoped10 : DmaSems sig S_ := SemArray.consecutive 10 S_ hcc0_scoped10
abbrev cc0_scoped11 : DmaSems sig S_ := SemArray.consecutive 11 S_ hcc0_scoped11
abbrev cc0_scoped12 : DmaSems sig S_ := SemArray.consecutive 12 S_ hcc0_scoped12
abbrev cc0_scoped13 : DmaSems sig S_ := SemArray.consecutive 13 S_ hcc0_scoped13
abbrev cc0_scoped14 : DmaSems sig S_ := SemArray.consecutive 14 S_ hcc0_scoped14
abbrev cc0_scoped15 : DmaSems sig S_ := SemArray.consecutive 15 S_ hcc0_scoped15
abbrev cc0_scoped16 : DmaSems sig S_ := SemArray.consecutive 16 S_ hcc0_scoped16
abbrev cc0_scoped17 : DmaSems sig S_ := SemArray.consecutive 17 S_ hcc0_scoped17
abbrev cc0_scoped18 : DmaSems sig S_ := SemArray.consecutive 18 S_ hcc0_scoped18
abbrev cc0_scoped19 : DmaSems sig S_ := SemArray.consecutive 19 S_ hcc0_scoped19
abbrev cc0_scoped20 : DmaSems sig S_ := SemArray.consecutive 20 S_ hcc0_scoped20
abbrev cc0_scoped21 : DmaSems sig S_ := SemArray.consecutive 21 S_ hcc0_scoped21
abbrev cc0_scoped22 : DmaSems sig S_ := SemArray.consecutive 22 S_ hcc0_scoped22
abbrev cc0_scoped23 : DmaSems sig S_ := SemArray.consecutive 23 S_ hcc0_scoped23
abbrev cc0_scoped24 : DmaSems sig S_ := SemArray.consecutive 24 S_ hcc0_scoped24
abbrev cc0_scoped25 : DmaSems sig S_ := SemArray.consecutive 25 S_ hcc0_scoped25
abbrev cc0_scoped26 : DmaSems sig S_ := SemArray.consecutive 26 S_ hcc0_scoped26
abbrev cc0_scoped27 : DmaSems sig S_ := SemArray.consecutive 27 S_ hcc0_scoped27
abbrev cc0_scoped28 : DmaSems sig S_ := SemArray.consecutive 28 S_ hcc0_scoped28
abbrev cc0_scoped29 : DmaSems sig S_ := SemArray.consecutive 29 S_ hcc0_scoped29
abbrev cc0_scoped30 : DmaSems sig S_ := SemArray.consecutive 30 S_ hcc0_scoped30
abbrev cc0_scoped31 : DmaSems sig S_ := SemArray.consecutive 31 S_ hcc0_scoped31
abbrev cc0_scoped32 : DmaSems sig S_ := SemArray.consecutive 32 S_ hcc0_scoped32
abbrev cc0_scoped33 : DmaSems sig S_ := SemArray.consecutive 33 S_ hcc0_scoped33
abbrev cc0_scoped34 : DmaSems sig S_ := SemArray.consecutive 34 S_ hcc0_scoped34
abbrev cc0_scoped35 : DmaSems sig S_ := SemArray.consecutive 35 S_ hcc0_scoped35
abbrev cc0_scoped36 : DmaSems sig S_ := SemArray.consecutive 36 S_ hcc0_scoped36
abbrev cc0_scoped37 : DmaSems sig S_ := SemArray.consecutive 37 S_ hcc0_scoped37
abbrev cc0_scoped38 : DmaSems sig S_ := SemArray.consecutive 38 S_ hcc0_scoped38
abbrev cc0_scoped39 : DmaSems sig S_ := SemArray.consecutive 39 S_ hcc0_scoped39
abbrev cc0_scoped40 : DmaSems sig S_ := SemArray.consecutive 40 S_ hcc0_scoped40
abbrev cc0_scoped41 : DmaSems sig S_ := SemArray.consecutive 41 S_ hcc0_scoped41
abbrev cc0_scoped42 : DmaSems sig S_ := SemArray.consecutive 42 S_ hcc0_scoped42
abbrev cc0_scoped43 : DmaSems sig S_ := SemArray.consecutive 43 S_ hcc0_scoped43
abbrev cc0_scoped44 : DmaSems sig S_ := SemArray.consecutive 44 S_ hcc0_scoped44
abbrev cc0_scoped45 : DmaSems sig S_ := SemArray.consecutive 45 S_ hcc0_scoped45
abbrev cc0_scoped46 : DmaSems sig S_ := SemArray.consecutive 46 S_ hcc0_scoped46
abbrev cc0_scoped47 : DmaSems sig S_ := SemArray.consecutive 47 S_ hcc0_scoped47
abbrev cc0_scoped48 : DmaSems sig S_ := SemArray.consecutive 48 S_ hcc0_scoped48
abbrev cc0_scoped49 : DmaSems sig S_ := SemArray.consecutive 49 S_ hcc0_scoped49
abbrev cc0_scoped50 : DmaSems sig S_ := SemArray.consecutive 50 S_ hcc0_scoped50
abbrev cc0_scoped51 : DmaSems sig S_ := SemArray.consecutive 51 S_ hcc0_scoped51
abbrev cc0_scoped52 : DmaSems sig S_ := SemArray.consecutive 52 S_ hcc0_scoped52
abbrev cc0_scoped53 : DmaSems sig S_ := SemArray.consecutive 53 S_ hcc0_scoped53
abbrev cc0_scoped54 : DmaSems sig S_ := SemArray.consecutive 54 S_ hcc0_scoped54
abbrev cc0_scoped55 : DmaSems sig S_ := SemArray.consecutive 55 S_ hcc0_scoped55
abbrev cc0_scoped56 : DmaSems sig S_ := SemArray.consecutive 56 S_ hcc0_scoped56
abbrev cc0_scoped57 : DmaSems sig S_ := SemArray.consecutive 57 S_ hcc0_scoped57
abbrev cc0_scoped58 : DmaSems sig S_ := SemArray.consecutive 58 S_ hcc0_scoped58
abbrev cc0_scoped59 : DmaSems sig S_ := SemArray.consecutive 59 S_ hcc0_scoped59
abbrev cc0_scoped60 : DmaSems sig S_ := SemArray.consecutive 60 S_ hcc0_scoped60
abbrev cc0_scoped61 : DmaSems sig S_ := SemArray.consecutive 61 S_ hcc0_scoped61
abbrev cc0_scoped62 : DmaSems sig S_ := SemArray.consecutive 62 S_ hcc0_scoped62
abbrev cc0_scoped63 : DmaSems sig S_ := SemArray.consecutive 63 S_ hcc0_scoped63
abbrev cc0_scoped64 : DmaSems sig S_ := SemArray.consecutive 64 S_ hcc0_scoped64
abbrev cc0_scoped65 : DmaSems sig S_ := SemArray.consecutive 65 S_ hcc0_scoped65

abbrev win1_0 : Pipeline.Window sig grid1 :=
  Pipeline.Window.whole (Memref.whole main_v2) true false (stage1_0 0) (sem1_0 0) (Memref.isWhole_whole _) (hstage1_0 0)

abbrev win1 : Fin 1 → Pipeline.Window sig grid1 := fun | 0 => win1_0 | ⟨_ + 1, h⟩ => absurd h (Nat.not_lt.2 (Nat.le_add_left _ _))
abbrev spec1 : Fin 1 → Pipeline.WinSpec sig grid1.rank := fun w => (win1 w).toWinSpec

class Facts : Prop extends Facts₀ where

variable [Facts]
-- ==== ReferenceIdeal.lean ====
abbrev S4096x512 : Shape := ⟨2, ![4096, 512]⟩
abbrev S3840x512 : Shape := ⟨2, ![3840, 512]⟩
abbrev S3584x512 : Shape := ⟨2, ![3584, 512]⟩
abbrev S3328x512 : Shape := ⟨2, ![3328, 512]⟩
abbrev S3072x512 : Shape := ⟨2, ![3072, 512]⟩
abbrev S2816x512 : Shape := ⟨2, ![2816, 512]⟩
abbrev S2560x512 : Shape := ⟨2, ![2560, 512]⟩
abbrev S2304x512 : Shape := ⟨2, ![2304, 512]⟩
abbrev S2048x512 : Shape := ⟨2, ![2048, 512]⟩
abbrev S1792x512 : Shape := ⟨2, ![1792, 512]⟩
abbrev S1536x512 : Shape := ⟨2, ![1536, 512]⟩
abbrev S1280x512 : Shape := ⟨2, ![1280, 512]⟩
abbrev S1024x512 : Shape := ⟨2, ![1024, 512]⟩
abbrev S768x512 : Shape := ⟨2, ![768, 512]⟩
abbrev S512x512 : Shape := ⟨2, ![512, 512]⟩
abbrev S256x512 : Shape := ⟨2, ![256, 512]⟩
abbrev S_ : Shape := ⟨0, ![]⟩
abbrev S1x4096x512 : Shape := ⟨3, ![1, 4096, 512]⟩
abbrev S16x4096x512 : Shape := ⟨3, ![16, 4096, 512]⟩
abbrev S4096 : Shape := ⟨1, ![4096]⟩
abbrev S1x4096 : Shape := ⟨2, ![1, 4096]⟩
abbrev S16x4096 : Shape := ⟨2, ![16, 4096]⟩

abbrev nBuf : Space → Nat
  | .hbm => 162
  | .vmem => 0
  | .smem => 0
  | _ => 0

abbrev hbmTy0_0 (i : Nat) : BufTy := match i % 128 with
  | 0 => ⟨S4096x512, .f32⟩
  | 1 => ⟨S3840x512, .f32⟩
  | 2 => ⟨S3584x512, .f32⟩
  | 3 => ⟨S3328x512, .f32⟩
  | 4 => ⟨S3072x512, .f32⟩
  | 5 => ⟨S2816x512, .f32⟩
  | 6 => ⟨S2560x512, .f32⟩
  | 7 => ⟨S2304x512, .f32⟩
  | 8 => ⟨S2048x512, .f32⟩
  | 9 => ⟨S1792x512, .f32⟩
  | 10 => ⟨S1536x512, .f32⟩
  | 11 => ⟨S1280x512, .f32⟩
  | 12 => ⟨S1024x512, .f32⟩
  | 13 => ⟨S768x512, .f32⟩
  | 14 => ⟨S512x512, .f32⟩
  | 15 => ⟨S256x512, .f32⟩
  | 16 => ⟨S_, .f32⟩
  | 17 => ⟨S_, .f32⟩
  | 18 => ⟨S4096x512, .f32⟩
  | 19 => ⟨S_, .f32⟩
  | 20 => ⟨S_, .f32⟩
  | 21 => ⟨S4096x512, .f32⟩
  | 22 => ⟨S_, .f32⟩
  | 23 => ⟨S_, .f32⟩
  | 24 => ⟨S4096x512, .f32⟩
  | 25 => ⟨S_, .f32⟩
  | 26 => ⟨S_, .f32⟩
  | 27 => ⟨S4096x512, .f32⟩
  | 28 => ⟨S_, .f32⟩
  | 29 => ⟨S_, .f32⟩
  | 30 => ⟨S4096x512, .f32⟩
  | 31 => ⟨S_, .f32⟩
  | 32 => ⟨S_, .f32⟩
  | 33 => ⟨S4096x512, .f32⟩
  | 34 => ⟨S_, .f32⟩
  | 35 => ⟨S_, .f32⟩
  | 36 => ⟨S4096x512, .f32⟩
  | 37 => ⟨S_, .f32⟩
  | 38 => ⟨S_, .f32⟩
  | 39 => ⟨S4096x512, .f32⟩
  | 40 => ⟨S_, .f32⟩
  | 41 => ⟨S_, .f32⟩
  | 42 => ⟨S4096x512, .f32⟩
  | 43 => ⟨S_, .f32⟩
  | 44 => ⟨S_, .f32⟩
  | 45 => ⟨S4096x512, .f32⟩
  | 46 => ⟨S_, .f32⟩
  | 47 => ⟨S_, .f32⟩
  | 48 => ⟨S4096x512, .f32⟩
  | 49 => ⟨S_, .f32⟩
  | 50 => ⟨S_, .f32⟩
  | 51 => ⟨S4096x512, .f32⟩
  | 52 => ⟨S_, .f32⟩
  | 53 => ⟨S_, .f32⟩
  | 54 => ⟨S4096x512, .f32⟩
  | 55 => ⟨S_, .f32⟩
  | 56 => ⟨S_, .f32⟩
  | 57 => ⟨S4096x512, .f32⟩
  | 58 => ⟨S_, .f32⟩
  | 59 => ⟨S_, .f32⟩
  | 60 => ⟨S4096x512, .f32⟩
  | 61 => ⟨S_, .f32⟩
  | 62 => ⟨S_, .f32⟩
  | 63 => ⟨S4096x512, .f32⟩
  | 64 => ⟨S1x4096x512, .f32⟩
  | 65 => ⟨S1x4096x512, .f32⟩
  | 66 => ⟨S1x4096x512, .f32⟩
  | 67 => ⟨S1x4096x512, .f32⟩
  | 68 => ⟨S1x4096x512, .f32⟩
  | 69 => ⟨S1x4096x512, .f32⟩
  | 70 => ⟨S1x4096x512, .f32⟩
  | 71 => ⟨S1x4096x512, .f32⟩
  | 72 => ⟨S1x4096x512, .f32⟩
  | 73 => ⟨S1x4096x512, .f32⟩
  | 74 => ⟨S1x4096x512, .f32⟩
  | 75 => ⟨S1x4096x512, .f32⟩
  | 76 => ⟨S1x4096x512, .f32⟩
  | 77 => ⟨S1x4096x512, .f32⟩
  | 78 => ⟨S1x4096x512, .f32⟩
  | 79 => ⟨S1x4096x512, .f32⟩
  | 80 => ⟨S16x4096x512, .f32⟩
  | 81 => ⟨S4096, .i32⟩
  | 82 => ⟨S_, .i32⟩
  | 83 => ⟨S4096, .i32⟩
  | 84 => ⟨S4096, .i1⟩
  | 85 => ⟨S4096, .i32⟩
  | 86 => ⟨S_, .i32⟩
  | 87 => ⟨S4096, .i32⟩
  | 88 => ⟨S4096, .i1⟩
  | 89 => ⟨S4096, .i32⟩
  | 90 => ⟨S_, .i32⟩
  | 91 => ⟨S4096, .i32⟩
  | 92 => ⟨S4096, .i1⟩
  | 93 => ⟨S4096, .i32⟩
  | 94 => ⟨S_, .i32⟩
  | 95 => ⟨S4096, .i32⟩
  | 96 => ⟨S4096, .i1⟩
  | 97 => ⟨S4096, .i32⟩
  | 98 => ⟨S_, .i32⟩
  | 99 => ⟨S4096, .i32⟩
  | 100 => ⟨S4096, .i1⟩
  | 101 => ⟨S4096, .i32⟩
  | 102 => ⟨S_, .i32⟩
  | 103 => ⟨S4096, .i32⟩
  | 104 => ⟨S4096, .i1⟩
  | 105 => ⟨S4096, .i32⟩
  | 106 => ⟨S_, .i32⟩
  | 107 => ⟨S4096, .i32⟩
  | 108 => ⟨S4096, .i1⟩
  | 109 => ⟨S4096, .i32⟩
  | 110 => ⟨S_, .i32⟩
  | 111 => ⟨S4096, .i32⟩
  | 112 => ⟨S4096, .i1⟩
  | 113 => ⟨S4096, .i32⟩
  | 114 => ⟨S_, .i32⟩
  | 115 => ⟨S4096, .i32⟩
  | 116 => ⟨S4096, .i1⟩
  | 117 => ⟨S4096, .i32⟩
  | 118 => ⟨S_, .i32⟩
  | 119 => ⟨S4096, .i32⟩
  | 120 => ⟨S4096, .i1⟩
  | 121 => ⟨S4096, .i32⟩
  | 122 => ⟨S_, .i32⟩
  | 123 => ⟨S4096, .i32⟩
  | 124 => ⟨S4096, .i1⟩
  | 125 => ⟨S4096, .i32⟩
  | 126 => ⟨S_, .i32⟩
  | 127 => ⟨S4096, .i32⟩
  | _ => ⟨S4096x512, .f32⟩

abbrev hbmTy0_1 (i : Nat) : BufTy := match i % 128 with
  | 0 => ⟨S4096, .i1⟩
  | 1 => ⟨S4096, .i32⟩
  | 2 => ⟨S_, .i32⟩
  | 3 => ⟨S4096, .i32⟩
  | 4 => ⟨S4096, .i1⟩
  | 5 => ⟨S4096, .i32⟩
  | 6 => ⟨S_, .i32⟩
  | 7 => ⟨S4096, .i32⟩
  | 8 => ⟨S4096, .i1⟩
  | 9 => ⟨S4096, .i32⟩
  | 10 => ⟨S_, .i32⟩
  | 11 => ⟨S4096, .i32⟩
  | 12 => ⟨S4096, .i1⟩
  | 13 => ⟨S4096, .i32⟩
  | 14 => ⟨S_, .i32⟩
  | 15 => ⟨S4096, .i32⟩
  | 16 => ⟨S4096, .i1⟩
  | 17 => ⟨S1x4096, .i1⟩
  | 18 => ⟨S1x4096, .i1⟩
  | 19 => ⟨S1x4096, .i1⟩
  | 20 => ⟨S1x4096, .i1⟩
  | 21 => ⟨S1x4096, .i1⟩
  | 22 => ⟨S1x4096, .i1⟩
  | 23 => ⟨S1x4096, .i1⟩
  | 24 => ⟨S1x4096, .i1⟩
  | 25 => ⟨S1x4096, .i1⟩
  | 26 => ⟨S1x4096, .i1⟩
  | 27 => ⟨S1x4096, .i1⟩
  | 28 => ⟨S1x4096, .i1⟩
  | 29 => ⟨S1x4096, .i1⟩
  | 30 => ⟨S1x4096, .i1⟩
  | 31 => ⟨S1x4096, .i1⟩
  | 32 => ⟨S1x4096, .i1⟩
  | 33 => ⟨S16x4096, .i1⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_call0_v0 : Ref sig .tc := ⟨.hbm, 17, rfl⟩
abbrev main_v0 : Ref sig .tc := ⟨.hbm, 18, rfl⟩
abbrev main_cst_0 : Ref sig .tc := ⟨.hbm, 19, rfl⟩
abbrev main_call1_v0 : Ref sig .tc := ⟨.hbm, 20, rfl⟩
abbrev main_v1 : Ref sig .tc := ⟨.hbm, 21, rfl⟩
abbrev main_cst_1 : Ref sig .tc := ⟨.hbm, 22, rfl⟩
abbrev main_call2_v0 : Ref sig .tc := ⟨.hbm, 23, rfl⟩
abbrev main_v2 : Ref sig .tc := ⟨.hbm, 24, rfl⟩
abbrev main_cst_2 : Ref sig .tc := ⟨.hbm, 25, rfl⟩
abbrev main_call3_v0 : Ref sig .tc := ⟨.hbm, 26, rfl⟩
abbrev main_v3 : Ref sig .tc := ⟨.hbm, 27, rfl⟩
abbrev main_cst_3 : Ref sig .tc := ⟨.hbm, 28, rfl⟩
abbrev main_call4_v0 : Ref sig .tc := ⟨.hbm, 29, rfl⟩
abbrev main_v4 : Ref sig .tc := ⟨.hbm, 30, rfl⟩
abbrev main_cst_4 : Ref sig .tc := ⟨.hbm, 31, rfl⟩
abbrev main_call5_v0 : Ref sig .tc := ⟨.hbm, 32, rfl⟩
abbrev main_v5 : Ref sig .tc := ⟨.hbm, 33, rfl⟩
abbrev main_cst_5 : Ref sig .tc := ⟨.hbm, 34, rfl⟩
abbrev main_call6_v0 : Ref sig .tc := ⟨.hbm, 35, rfl⟩
abbrev main_v6 : Ref sig .tc := ⟨.hbm, 36, rfl⟩
abbrev main_cst_6 : Ref sig .tc := ⟨.hbm, 37, rfl⟩
abbrev main_call7_v0 : Ref sig .tc := ⟨.hbm, 38, rfl⟩
abbrev main_v7 : Ref sig .tc := ⟨.hbm, 39, rfl⟩
abbrev main_cst_7 : Ref sig .tc := ⟨.hbm, 40, rfl⟩
abbrev main_call8_v0 : Ref sig .tc := ⟨.hbm, 41, rfl⟩
abbrev main_v8 : Ref sig .tc := ⟨.hbm, 42, rfl⟩
abbrev main_cst_8 : Ref sig .tc := ⟨.hbm, 43, rfl⟩
abbrev main_call9_v0 : Ref sig .tc := ⟨.hbm, 44, rfl⟩
abbrev main_v9 : Ref sig .tc := ⟨.hbm, 45, rfl⟩
abbrev main_cst_9 : Ref sig .tc := ⟨.hbm, 46, rfl⟩
abbrev main_call10_v0 : Ref sig .tc := ⟨.hbm, 47, rfl⟩
abbrev main_v10 : Ref sig .tc := ⟨.hbm, 48, rfl⟩
abbrev main_cst_10 : Ref sig .tc := ⟨.hbm, 49, rfl⟩
abbrev main_call11_v0 : Ref sig .tc := ⟨.hbm, 50, rfl⟩
abbrev main_v11 : Ref sig .tc := ⟨.hbm, 51, rfl⟩
abbrev main_cst_11 : Ref sig .tc := ⟨.hbm, 52, rfl⟩
abbrev main_call12_v0 : Ref sig .tc := ⟨.hbm, 53, rfl⟩
abbrev main_v12 : Ref sig .tc := ⟨.hbm, 54, rfl⟩
abbrev main_cst_12 : Ref sig .tc := ⟨.hbm, 55, rfl⟩
abbrev main_call13_v0 : Ref sig .tc := ⟨.hbm, 56, rfl⟩
abbrev main_v13 : Ref sig .tc := ⟨.hbm, 57, rfl⟩
abbrev main_cst_13 : Ref sig .tc := ⟨.hbm, 58, rfl⟩
abbrev main_call14_v0 : Ref sig .tc := ⟨.hbm, 59, rfl⟩
abbrev main_v14 : Ref sig .tc := ⟨.hbm, 60, rfl⟩
abbrev main_cst_14 : Ref sig .tc := ⟨.hbm, 61, rfl⟩
abbrev main_call15_v0 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_c : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_c_15 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_c_16 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_c_17 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_c_18 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_c_19 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_c_20 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_c_21 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_c_22 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_c_23 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_c_24 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_c_25 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_c_26 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_c_27 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_c_28 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_c_29 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩

abbrev nD : Nat := 1
abbrev τ : Topo := Topo.v7x

variable {F : FTy → Type} [FloatOps F]

class Facts₀ : Prop where
  pads_S4096x512_S4096x512_000_000 : S4096x512.Pads (![0, 0] : Fin 2 → Nat) ![0, 0] ![0, 0] S4096x512
  h_S_ : 0 < S_.numel
  pads_S3840x512_S4096x512_02560_000 : S3840x512.Pads (![0, 0] : Fin 2 → Nat) ![256, 0] ![0, 0] S4096x512
  pads_S3584x512_S4096x512_05120_000 : S3584x512.Pads (![0, 0] : Fin 2 → Nat) ![512, 0] ![0, 0] S4096x512
  pads_S3328x512_S4096x512_07680_000 : S3328x512.Pads (![0, 0] : Fin 2 → Nat) ![768, 0] ![0, 0] S4096x512
  pads_S3072x512_S4096x512_010240_000 : S3072x512.Pads (![0, 0] : Fin 2 → Nat) ![1024, 0] ![0, 0] S4096x512
  pads_S2816x512_S4096x512_012800_000 : S2816x512.Pads (![0, 0] : Fin 2 → Nat) ![1280, 0] ![0, 0] S4096x512
  pads_S2560x512_S4096x512_015360_000 : S2560x512.Pads (![0, 0] : Fin 2 → Nat) ![1536, 0] ![0, 0] S4096x512
  pads_S2304x512_S4096x512_017920_000 : S2304x512.Pads (![0, 0] : Fin 2 → Nat) ![1792, 0] ![0, 0] S4096x512
  pads_S2048x512_S4096x512_020480_000 : S2048x512.Pads (![0, 0] : Fin 2 → Nat) ![2048, 0] ![0, 0] S4096x512
  pads_S1792x512_S4096x512_023040_000 : S1792x512.Pads (![0, 0] : Fin 2 → Nat) ![2304, 0] ![0, 0] S4096x512
  pads_S1536x512_S4096x512_025600_000 : S1536x512.Pads (![0, 0] : Fin 2 → Nat) ![2560, 0] ![0, 0] S4096x512
  pads_S1280x512_S4096x512_028160_000 : S1280x512.Pads (![0, 0] : Fin 2 → Nat) ![2816, 0] ![0, 0] S4096x512
  pads_S1024x512_S4096x512_030720_000 : S1024x512.Pads (![0, 0] : Fin 2 → Nat) ![3072, 0] ![0, 0] S4096x512
  pads_S768x512_S4096x512_033280_000 : S768x512.Pads (![0, 0] : Fin 2 → Nat) ![3328, 0] ![0, 0] S4096x512
  pads_S512x512_S4096x512_035840_000 : S512x512.Pads (![0, 0] : Fin 2 → Nat) ![3584, 0] ![0, 0] S4096x512
  pads_S256x512_S4096x512_038400_000 : S256x512.Pads (![0, 0] : Fin 2 → Nat) ![3840, 0] ![0, 0] S4096x512
  bcast_S4096x512_S1x4096x512_1_2 : S4096x512.BroadcastsInDim S1x4096x512 (![1, 2] : Fin 2 → Fin S1x4096x512.rank)
  concatenates_S1x4096x512_S1x4096x512_S1x4096x512_S1x4096x512_S1x4096x512_S1x4096x512_S1x4096x512_S1x4096x512_S1x4096x512_S1x4096x512_S1x4096x512_S1x4096x512_S1x4096x512_S1x4096x512_S1x4096x512_S1x4096x512_S16x4096x512_d0 : Shape.Concatenates [S1x4096x512, S1x4096x512, S1x4096x512, S1x4096x512, S1x4096x512, S1x4096x512, S1x4096x512, S1x4096x512, S1x4096x512, S1x4096x512, S1x4096x512, S1x4096x512, S1x4096x512, S1x4096x512, S1x4096x512, S1x4096x512] S16x4096x512 0
  bcast_S_S4096 : S_.BroadcastsInDim S4096 (![] : Fin 0 → Fin S4096.rank)
  bcast_S4096_S1x4096_1 : S4096.BroadcastsInDim S1x4096 (![1] : Fin 1 → Fin S1x4096.rank)
  concatenates_S1x4096_S1x4096_S1x4096_S1x4096_S1x4096_S1x4096_S1x4096_S1x4096_S1x4096_S1x4096_S1x4096_S1x4096_S1x4096_S1x4096_S1x4096_S1x4096_S16x4096_d0 : Shape.Concatenates [S1x4096, S1x4096, S1x4096, S1x4096, S1x4096, S1x4096, S1x4096, S1x4096, S1x4096, S1x4096, S1x4096, S1x4096, S1x4096, S1x4096, S1x4096, S1x4096] S16x4096 0

variable [Facts₀]

class Facts : Prop extends Facts₀ where

variable [Facts]
-- ==== Proof.Spec.lean ====
/-
  What the two programs compute, as functions of the sixteen argument arrays.

  Sequence `s` (of sixteen) has `4096 − 256·s` rows of 512 entries. The first result lays the sequences in one
  `16 × 4096 × 512` array: entry `(s, p, q)` is entry `(p, q)` of sequence `s` when `p` is one of its rows, and the
  padding value otherwise. The second result marks the padded positions: entry `(s, p)` is one exactly when
  `4096 − 256·s ≤ p`. The flat form `65536 × 512` is the same array with row `4096·s + p` for `(s, p)`.
-/
import Idealize.ShloMosaic.Lib.ValueIdx
import Idealize.ShloMosaic.PureOps.Ideal

noncomputable section

namespace Cert.Spec

open Idealize.ShloMosaic Idealize.ShloMosaic.ValueIdx

/-- Entry `(p, q)` of an `L × 512` array when `p` is one of its rows, the padding value `z` past its end. -/
def rowOr {X : Type} {L : Nat} (z : X) (a : (⟨2, ![L, 512]⟩ : Shape).Idx → X) (p : Nat) (q : Fin 512) : X :=
  if h : p < L then a (ix2 ⟨p, h⟩ q) else z

theorem rowOr_lt {X : Type} {L : Nat} (z : X) (a : (⟨2, ![L, 512]⟩ : Shape).Idx → X) {p : Nat} (q : Fin 512) (h : p < L) :
    rowOr z a p q = a (ix2 ⟨p, h⟩ q) := dif_pos h

theorem rowOr_ge {X : Type} {L : Nat} (z : X) (a : (⟨2, ![L, 512]⟩ : Shape).Idx → X) {p : Nat} (q : Fin 512) (h : L ≤ p) :
    rowOr z a p q = z := dif_neg (Nat.not_lt.2 h)

/-- Entry `(p, q)` of sequence `s` padded with `z` (`z` also for an `s` that names no sequence). -/
def padded {X : Type} (z : X) (a0 : (⟨2, ![4096, 512]⟩ : Shape).Idx → X) (a1 : (⟨2, ![3840, 512]⟩ : Shape).Idx → X) (a2 : (⟨2, ![3584, 512]⟩ : Shape).Idx → X) (a3 : (⟨2, ![3328, 512]⟩ : Shape).Idx → X) (a4 : (⟨2, ![3072, 512]⟩ : Shape).Idx → X) (a5 : (⟨2, ![2816, 512]⟩ : Shape).Idx → X) (a6 : (⟨2, ![2560, 512]⟩ : Shape).Idx → X) (a7 : (⟨2, ![2304, 512]⟩ : Shape).Idx → X) (a8 : (⟨2, ![2048, 512]⟩ : Shape).Idx → X) (a9 : (⟨2, ![1792, 512]⟩ : Shape).Idx → X) (a10 : (⟨2, ![1536, 512]⟩ : Shape).Idx → X) (a11 : (⟨2, ![1280, 512]⟩ : Shape).Idx → X) (a12 : (⟨2, ![1024, 512]⟩ : Shape).Idx → X) (a13 : (⟨2, ![768, 512]⟩ : Shape).Idx → X) (a14 : (⟨2, ![512, 512]⟩ : Shape).Idx → X) (a15 : (⟨2, ![256, 512]⟩ : Shape).Idx → X)
    (s p : Nat) (q : Fin 512) : X :=
  match s with
  | 0 => rowOr z a0 p q
  | 1 => rowOr z a1 p q
  | 2 => rowOr z a2 p q
  | 3 => rowOr z a3 p q
  | 4 => rowOr z a4 p q
  | 5 => rowOr z a5 p q
  | 6 => rowOr z a6 p q
  | 7 => rowOr z a7 p q
  | 8 => rowOr z a8 p q
  | 9 => rowOr z a9 p q
  | 10 => rowOr z a10 p q
  | 11 => rowOr z a11 p q
  | 12 => rowOr z a12 p q
  | 13 => rowOr z a13 p q
  | 14 => rowOr z a14 p q
  | 15 => rowOr z a15 p q
  | _ => z

/-- The padded sequences as one `16 × 4096 × 512` array. -/
def pad3 {X : Type} (z : X) (a0 : (⟨2, ![4096, 512]⟩ : Shape).Idx → X) (a1 : (⟨2, ![3840, 512]⟩ : Shape).Idx → X) (a2 : (⟨2, ![3584, 512]⟩ : Shape).Idx → X) (a3 : (⟨2, ![3328, 512]⟩ : Shape).Idx → X) (a4 : (⟨2, ![3072, 512]⟩ : Shape).Idx → X) (a5 : (⟨2, ![2816, 512]⟩ : Shape).Idx → X) (a6 : (⟨2, ![2560, 512]⟩ : Shape).Idx → X) (a7 : (⟨2, ![2304, 512]⟩ : Shape).Idx → X) (a8 : (⟨2, ![2048, 512]⟩ : Shape).Idx → X) (a9 : (⟨2, ![1792, 512]⟩ : Shape).Idx → X) (a10 : (⟨2, ![1536, 512]⟩ : Shape).Idx → X) (a11 : (⟨2, ![1280, 512]⟩ : Shape).Idx → X) (a12 : (⟨2, ![1024, 512]⟩ : Shape).Idx → X) (a13 : (⟨2, ![768, 512]⟩ : Shape).Idx → X) (a14 : (⟨2, ![512, 512]⟩ : Shape).Idx → X) (a15 : (⟨2, ![256, 512]⟩ : Shape).Idx → X) :
    (⟨3, ![16, 4096, 512]⟩ : Shape).Idx → X :=
  fun j => padded z a0 a1 a2 a3 a4 a5 a6 a7 a8 a9 a10 a11 a12 a13 a14 a15 (j 0).val (j 1).val (j 2)

/-- The same array flat, `65536 × 512`: row `r` is row `r % 4096` of sequence `r / 4096`. -/
def padFlat {X : Type} (z : X) (a0 : (⟨2, ![4096, 512]⟩ : Shape).Idx → X) (a1 : (⟨2, ![3840, 512]⟩ : Shape).Idx → X) (a2 : (⟨2, ![3584, 512]⟩ : Shape).Idx → X) (a3 : (⟨2, ![3328, 512]⟩ : Shape).Idx → X) (a4 : (⟨2, ![3072, 512]⟩ : Shape).Idx → X) (a5 : (⟨2, ![2816, 512]⟩ : Shape).Idx → X) (a6 : (⟨2, ![2560, 512]⟩ : Shape).Idx → X) (a7 : (⟨2, ![2304, 512]⟩ : Shape).Idx → X) (a8 : (⟨2, ![2048, 512]⟩ : Shape).Idx → X) (a9 : (⟨2, ![1792, 512]⟩ : Shape).Idx → X) (a10 : (⟨2, ![1536, 512]⟩ : Shape).Idx → X) (a11 : (⟨2, ![1280, 512]⟩ : Shape).Idx → X) (a12 : (⟨2, ![1024, 512]⟩ : Shape).Idx → X) (a13 : (⟨2, ![768, 512]⟩ : Shape).Idx → X) (a14 : (⟨2, ![512, 512]⟩ : Shape).Idx → X) (a15 : (⟨2, ![256, 512]⟩ : Shape).Idx → X) :
    (⟨2, ![65536, 512]⟩ : Shape).Idx → X :=
  fun j => padded z a0 a1 a2 a3 a4 a5 a6 a7 a8 a9 a10 a11 a12 a13 a14 a15 ((j 0).val / 4096) ((j 0).val % 4096) (j 1)

/-- One at the padded positions: `4096 − 256·s ≤ p`. -/
def maskBit (s p : Nat) : BitVec 1 := if 4096 - 256 * s ≤ p then 1#1 else 0#1

/-- The padding mask as a `16 × 4096` array of bits. -/
def mask2 : (⟨2, ![16, 4096]⟩ : Shape).Idx → BitVec 1 := fun j => maskBit (j 0).val (j 1).val

end Cert.Spec

end
-- ==== Proof.KBSetup.lean ====
/-
  The padding kernel as its launch sees it, and what its threads hand one another.

  One call runs on 2 SparseCores x 16 vector subcores. Subcore `s` of SparseCore `c` writes block `2 s + c` of the
  32 blocks of 2048 rows the flat `65536 x 512` output is cut into (rows `4096 s + 2048 c` onwards): the first
  `n = clip (4096 - 256 s - 2048 c) 0 2048` of them rows `2048 c` onwards of sequence `s`, the rest zero. Each subcore is
  handed a read share of all sixteen sequences and its own block of the output whole, and hands back the same shares
  and its block at the padded array (`Cert.Spec.padFlat`).
-/
import proofs.«212850_g39865886441476_cont_8to1_b_277_5_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Transfers
import Idealize.ShloMosaic.Lib.Tactic
import proofs.«212850_g39865886441476_cont_8to1_b_277_5_alg».proof.Proof.Gen.Kernel
import proofs.«212850_g39865886441476_cont_8to1_b_277_5_alg».proof.Proof.Gen.Kernel.Skeleton
import proofs.«212850_g39865886441476_cont_8to1_b_277_5_alg».proof.Proof.Spec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the mask region's staging cells' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP; infer_instance

/-! ## The launch memory, the arrays, the blocks -/

variable (m : (ℓ : Loc nD τ sig) → Buf (Elt F) ℓ) (ρ : Dev nD → PrngReg)

abbrev aLoc0 (d : Dev nD) : Loc nD τ sig := (SparseCore.T d).loc main_arg0
abbrev aLoc1 (d : Dev nD) : Loc nD τ sig := (SparseCore.T d).loc main_arg1
abbrev aLoc2 (d : Dev nD) : Loc nD τ sig := (SparseCore.T d).loc main_arg2
abbrev aLoc3 (d : Dev nD) : Loc nD τ sig := (SparseCore.T d).loc main_arg3
abbrev aLoc4 (d : Dev nD) : Loc nD τ sig := (SparseCore.T d).loc main_arg4
abbrev aLoc5 (d : Dev nD) : Loc nD τ sig := (SparseCore.T d).loc main_arg5
abbrev aLoc6 (d : Dev nD) : Loc nD τ sig := (SparseCore.T d).loc main_arg6
abbrev aLoc7 (d : Dev nD) : Loc nD τ sig := (SparseCore.T d).loc main_arg7
abbrev aLoc8 (d : Dev nD) : Loc nD τ sig := (SparseCore.T d).loc main_arg8
abbrev aLoc9 (d : Dev nD) : Loc nD τ sig := (SparseCore.T d).loc main_arg9
abbrev aLoc10 (d : Dev nD) : Loc nD τ sig := (SparseCore.T d).loc main_arg10
abbrev aLoc11 (d : Dev nD) : Loc nD τ sig := (SparseCore.T d).loc main_arg11
abbrev aLoc12 (d : Dev nD) : Loc nD τ sig := (SparseCore.T d).loc main_arg12
abbrev aLoc13 (d : Dev nD) : Loc nD τ sig := (SparseCore.T d).loc main_arg13
abbrev aLoc14 (d : Dev nD) : Loc nD τ sig := (SparseCore.T d).loc main_arg14
abbrev aLoc15 (d : Dev nD) : Loc nD τ sig := (SparseCore.T d).loc main_arg15
/-- The flat output, the SparseCore call's result. -/
abbrev oLoc (d : Dev nD) : Loc nD τ sig := (SparseCore.T d).loc main_v0

variable [FloatOps F]

/-- The padding value: the word `0x00000000` read as a float. -/
abbrev zF : F .f32 := Scalar.ofBits .f32 0x00000000#32

/-- The padded sequences, flat: what the call leaves in its result. -/
def flat (d : Dev nD) : Buf (Elt F) (oLoc d) :=
  Cert.Spec.padFlat (zF (F := F)) (m (aLoc0 d)) (m (aLoc1 d)) (m (aLoc2 d)) (m (aLoc3 d)) (m (aLoc4 d)) (m (aLoc5 d)) (m (aLoc6 d)) (m (aLoc7 d)) (m (aLoc8 d)) (m (aLoc9 d)) (m (aLoc10 d)) (m (aLoc11 d)) (m (aLoc12 d)) (m (aLoc13 d)) (m (aLoc14 d)) (m (aLoc15 d))

/-- All sixteen sequences at their launch contents, each at share `q`. -/
def argsAt (q : PosShare TreeShare) (d : Dev nD) : sProp 𝕄 :=
  iprop((aLoc0 d ↦{q} m (aLoc0 d)) ∗ (aLoc1 d ↦{q} m (aLoc1 d)) ∗ (aLoc2 d ↦{q} m (aLoc2 d)) ∗ (aLoc3 d ↦{q} m (aLoc3 d)) ∗ (aLoc4 d ↦{q} m (aLoc4 d)) ∗ (aLoc5 d ↦{q} m (aLoc5 d)) ∗ (aLoc6 d ↦{q} m (aLoc6 d)) ∗ (aLoc7 d ↦{q} m (aLoc7 d)) ∗ (aLoc8 d ↦{q} m (aLoc8 d)) ∗ (aLoc9 d ↦{q} m (aLoc9 d)) ∗ (aLoc10 d ↦{q} m (aLoc10 d)) ∗ (aLoc11 d ↦{q} m (aLoc11 d)) ∗ (aLoc12 d ↦{q} m (aLoc12 d)) ∗ (aLoc13 d ↦{q} m (aLoc13 d)) ∗ (aLoc14 d ↦{q} m (aLoc14 d)) ∗ (aLoc15 d ↦{q} m (aLoc15 d)))

theorem hdiv32 : 32 ∣ S65536x512.size 0 := ⟨2048, rfl⟩
/-- Block `b` of the 32 blocks of 2048 rows. -/
abbrev blk (b : Fin 32) : Rect S65536x512 := Rect.part (s := S65536x512) (a₀ := 0) hdiv32 b
abbrev blkSet (b : Fin 32) : Finset S65536x512.Idx := (blk b).set
/-- The block of subcore `s` of SparseCore `c`. -/
def bIx (c : Fin 2) (s : Fin 16) : Fin 32 := ⟨2 * s.val + c.val, by omega⟩

/-- The share of the sequences SparseCore `c` is handed, and subcore `s` of it. -/
abbrev shC (c : Fin 2) : PosShare TreeShare := Transfers.shareTok fullShare 2 c
abbrev shT (c : Fin 2) (s : Fin 16) : PosShare TreeShare := Transfers.shareTok (shC c) 16 s

/-! ## What the handshakes carry -/

def P : (K (F := F)).Pay (nD := nD) (Val := Elt F) (Name := ℕ) (U := UU) where
  st := fun q d c => match q with
    | 0 => iprop(argsAt m (shC (Fin.cast nCore_zero c)) d ∗ bigSep Finset.univ fun s : Fin 16 => oLoc d ↦[blkSet (bIx (Fin.cast nCore_zero c) s)]{fullShare} m (oLoc d))
  dn := fun q d c => match q with
    | 0 => iprop(argsAt m (shC (Fin.cast nCore_zero c)) d ∗ bigSep Finset.univ fun s : Fin 16 => oLoc d ↦[blkSet (bIx (Fin.cast nCore_zero c) s)]{fullShare} flat m d)
  go := fun q d c i => match q with
    | 0 => iprop(argsAt m (shT (Fin.cast nCore_zero c) (Fin.cast nSub_zero i)) d ∗ oLoc d ↦[blkSet (bIx (Fin.cast nCore_zero c) (Fin.cast nSub_zero i))]{fullShare} m (oLoc d))
  td := fun q d c i => match q with
    | 0 => iprop(argsAt m (shT (Fin.cast nCore_zero c) (Fin.cast nSub_zero i)) d ∗ oLoc d ↦[blkSet (bIx (Fin.cast nCore_zero c) (Fin.cast nSub_zero i))]{fullShare} flat m d)
  x := fun _ _ => iprop(emp)

instance argsAt_storable (q : PosShare TreeShare) (d : Dev nD) : BI.Storable (upEmb : UEmb _ 𝕄) (argsAt m q d) := by
  unfold argsAt; infer_instance

instance P_storable : (P (F := F) m).IsStorable where
  st q d c := match q with | 0 => by unfold P; dsimp only; infer_instance
  dn q d c := match q with | 0 => by unfold P; dsimp only; infer_instance
  go q d c i := match q with | 0 => by unfold P; dsimp only; infer_instance
  td q d c i := match q with | 0 => by unfold P; dsimp only; infer_instance

end Cert.Proof.KB

end
-- ==== Proof.KBMask.lean ====
/-
  The mask region of the padding program: a pipelined call with no grid and one window, its result, staged whole.

  The body reads its staging buffer (the value is not used) and overwrites it with the mask words: word `(s, p)` is
  one exactly when `4096 − 256·s ≤ p`, as 32-bit signed words. The pipeline then writes the buffer back over the
  whole result array. Stated here: the body's run on a whole staging buffer; the region's proof data (the array as
  entered, the buffer left at the mask words, nothing owed, no invariant of the body's own); that the one
  write-back covers the array, so that it ends at the mask words; and the region as a segment of the TensorCore's
  program, entered with the array at any launch contents and nothing owed, left with the array at the mask words.
  The region runs after the program's one SparseCore call: the TensorCore then owes no signal, and the pairs its
  waits have recorded all sit at the first call's levels, which the staging cell's own wait (level zero) keeps.
-/
import proofs.«212850_g39865886441476_cont_8to1_b_277_5_alg».proof.Proof.KBSetup
import proofs.«212850_g39865886441476_cont_8to1_b_277_5_alg».proof.Proof.Gen.Kernel.Launch
import proofs.«212850_g39865886441476_cont_8to1_b_277_5_alg».proof.Proof.Gen.Kernel.Points
import Idealize.ShloMosaic.Lib.Pipeline.Regions
import Idealize.ShloMosaic.Lib.Tactic
import Idealize.ShloMosaic.Lib.Pipeline.Value

noncomputable section

namespace Cert.Proof.KB

open Cert.Kernel Cert.Kernel.Gen
open Idealize.ShloMosaic
open Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)

abbrev adm : (p : Fin 1) → (pcfgs (F := F) p).Adm := fun p => (cfgs p).toPCfg_adm

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The full rectangle at offset zero embeds an index as itself. -/
theorem unit00_emb (x : (Rect.unit (s := S16x4096) ![0, 0] S16x4096.size inb_S16x4096_S16x4096_0_0).shape.Idx) :
    (Rect.unit (s := S16x4096) ![0, 0] S16x4096.size inb_S16x4096_S16x4096_0_0).emb x = x := by
  funext a; apply Fin.ext; rw [Rect.emb_apply]
  fin_cases a <;> simp [Rect.unit]

/-- The mask kernel's body on its staging buffer: the buffer is read and then overwritten whole with the mask words. -/
theorem maskRun (c : Dev nD) (M0 : Memref sig .tc .vmem S16x4096 .i32) (h0 : M0.IsWhole)
    (f0 : Bf (F := F) c M0) (W : Waits sig (HIx 1)) (Q : PUnit → sProp 𝕄) :
    iprop(pt c M0 f0 ∗ owes (c : Thread nD τ) 0 W
      ∗ (iprop((∃ f, ⌜M0.view.read (Elt F) f = k1_pay1⌝ ∗ pt c M0 f) ∗ owes (c : Thread nD τ) 0 W) -∗ Q ⟨⟩))
    ⊢ wp frame (wpE (defs₀ (F := F)) Variants.none c none) Set.univ (cc1__mask_body M0 h0) Q := by
  rw [cc1__mask_body_eq_skeleton]; unfold cc1__mask_body_skel
  iintro ⟨H0, HO, Hk⟩
  sl_exec
  sl_step
  iapply Hk
  isplitl [H0]
  · iexists _; isplitr; swap; (· iexact H0)
    ipureintro
    funext y
    refine View.read_writes_apply_of_pieces (v := M0.view) (f := f0) k1_pay1 _ ?_ y ?_
    · intro p hp x
      rw [List.mem_singleton] at hp; subst hp
      exact congrArg k1_pay1 (unit00_emb x).symm
    · refine ⟨⟨Rect.unit (s := S16x4096) ![0, 0] S16x4096.size inb_S16x4096_S16x4096_0_0, k1_pay1⟩, List.mem_singleton_self _, (Rect.mem_set_unit (inb := inb_S16x4096_S16x4096_0_0)).mpr fun a => ?_⟩
      have h := (y a).isLt
      fin_cases a
      · exact ⟨by simp, by simpa using h⟩
      · exact ⟨by simp, by simpa using h⟩
  iexact HO

/-- The pairs a TensorCore's waits may have recorded once its one SparseCore call is over: those at the first call's levels. -/
def recB (c : Dev nD) : Set (SemLoc sig × HIx 1) := {p | (K (F := F)).lev ((c : Thread nD τ), p.1) p.2 ≤ 8}

/-- The mask words as the contents of the result's array. -/
abbrev maskWords (c : Dev nD) : Buf (Elt F) ((c : Thread nD τ).loc main_v2) := k1_pay1

/-- The mask region's proof data on core `c`: the array as launched; the staging buffer left at the mask words;
    no invariant of the body's own; nothing owed; the recorded pairs within the first call's. -/
def dats (_ : Fin 1) (c : Dev nD) : Dat τ (Elt F) (HIx 1) ℕ UU ℕ cfg1 c where
  A w := m ((cfg1.win w).arr.view.loc (c : Thread nD τ))
  after w _ := match w with | ⟨0, _⟩ => k1_pay1
  Φ _ := iprop(emp)
  q _ := fullShare
  owed _ := 0
  recorded _ := recB (F := F) c

theorem body_obligation (c : Dev nD) : BodyObligation (dats m 0 c) (defs₀ (F := F)) 𝒱₀ (none : HIx 1) Set.univ := fun t => by
  obtain rfl := fin_N1 t
  rw [bigSep_W1, bigSep_W1]
  simp only [owns_whole_eq]
  rw [show (dats m 0 c).Φ t1_0.castSucc = iprop(emp) from rfl, show (dats m 0 c).Φ t1_0.succ = iprop(emp) from rfl]
  unfold Dat.owesAt Pipeline.owesWithin
  rw [show (dats m 0 c).owed t1_0.castSucc = 0 from rfl, show (dats m 0 c).owed t1_0.succ = 0 from rfl]
  iintro ⟨-, ⟨%W, %hW, HO⟩, ⟨%d0, %f0, %hf0, H0⟩⟩
  iapply (maskRun c (stage1_0 0) (hstage1_0 0) f0 W)
  isplitl [H0]; · iexact H0
  isplitl [HO]; · iexact HO
  iintro ⟨⟨%f, %hf, H0⟩, HO⟩
  isplitr; · iempintro
  isplitl [HO]
  · iexists W; isplitr; · ipureintro; exact hW
    iexact HO
  iexists f; isplitr; swap; (· iexact H0)
  ipureintro; dsimp only [dats]; exact hf

/-- The region owns no semaphore beside its staging cell's. -/
abbrev osem : Fin 0 → SemLoc sig := fun i => i.elim0
theorem ownSemFacts : Pipeline.OwnSemFacts spec1 osem := by decide

omit [FloatOps F] in
theorem ownSems0_eq (c : Dev nD) :
    (Pipeline.ownSems0 (Ix := HIx 1) (Name := ℕ) (U := UU) (Lvl := ℕ) (Val := Elt F) (τ := τ) osem c : sProp 𝕄) = iprop(emp) :=
  Pipeline.ownSems0_eq_of_list c osem [] (by decide) (by decide)

/-- The region's one array, at contents `G`. -/
theorem arrays_eq1 (c : Dev nD) (G : (w : Fin cfg1.W) → Buf (Elt F) ((cfg1.win w).arr.view.loc (c : Thread nD τ))) :
    ((dats m 0 c).arrays G : sProp 𝕄) = ((c : Thread nD τ).loc main_v2 ↦{fullShare} G 0) := by
  rw [Pipeline.arrays_eq (Pipeline.pin (pcfgs (F := F)) adm) (dats m) 0 c arr_whole1 ((dats m 0 c).share_full fun _ => rfl) G, bigSep_W1]

/-- After the region the array holds the mask words: the one point's write-back covers it. -/
theorem arrAt_end (c : Dev nD) : (dats m 0 c).arrAt 0 cfg1.N = maskWords c := by
  refine (dats m 0 c).arrAt_eq_of_cover 0 (maskWords c) ?_ ?_
  · intro t _
    obtain rfl := fin_N1 t
    funext y
    refine Eq.trans (b := k1_pay1 y) rfl ?_
    rw [View.read_apply]
    refine Eq.trans ?_ (b := k1_pay1 (((cfg1.win 0).blk t1_0).view.emb y)) rfl
    congr 1
    funext a; apply Fin.ext
    exact (Pipeline.Window.rect_emb_val_of_index_zero (cfg1.win 0) t1_0 a rfl y).symm
  · intro i
    refine ⟨t1_0, flush1_0 _, ?_⟩
    show i ∈ ((View.whole (main_v2 : Ref sig .tc)).slice ((cfg1.win 0).rect t1_0)).set
    rw [View.set_slice_whole, Rect.mem_set_unit]
    intro a
    have h : (i a : ℕ) < S16x4096.size a := (i a).isLt
    refine ⟨?_, ?_⟩
    · show 0 * S16x4096.size a ≤ (i a : ℕ); omega
    · show (i a : ℕ) < 0 * S16x4096.size a + S16x4096.size a; omega

/-- The levels the mask region's waits are checked against: the SparseCore launch's own. -/
abbrev LL : GSem nD τ sig → Finset (HIx 1) := (K (F := F)).L
abbrev lvv : GSem nD τ sig → HIx 1 → ℕ := (K (F := F)).lev

/-- What the TensorCore owes once its one SparseCore call is over — nothing —, its recorded pairs at the first call's levels. -/
abbrev owesT (c : Dev nD) : sProp 𝕄 :=
  iprop(∃ W, ⌜(K (F := F)).WBelow (c : Thread nD τ) W 8⌝ ∗ owes (c : Thread nD τ) (0 : CellTallies nD τ sig (HIx 1)) W)

set_option backward.isDefEq.respectTransparency.types false in
/-- The mask region: entered with the result's array at its launch contents and nothing owed; left with the array
    at the mask words. Nothing of the kernel's own enters the pipeline's invariant. -/
def reg0 : Pipeline.RegionSeg (pcfgs (F := F)) adm (dats m) (none : HIx 1) defs₀ 𝒱₀ (LL (F := F)) (lvv (F := F)) 0 where
  win := launch1.win.to₀
  block_pos := launch1.block_pos
  stage_whole := launch1.stage_whole
  K := Fin 0
  osem := osem
  ho := ownSemFacts
  hbody c := (body_obligation m c).loose
  hwaits := Pipeline.hwaits_of_owed_zero _ _ _ _ (LL (F := F)) (lvv (F := F)) 0 fun _ _ => rfl
  pre c := iprop(((c : Thread nD τ).loc main_v2 ↦{fullShare} m ((c : Thread nD τ).loc main_v2)) ∗ owesT c)
  post c := iprop(((c : Thread nD τ).loc main_v2 ↦{fullShare} maskWords c) ∗ owesT c)
  X _ := iprop(emp)
  Y _ := iprop(emp)
  Z _ := iprop(emp)
  hentry c := by
    rw [arrays_eq1, ownSems0_eq]
    iintro ⟨⟨H2, ⟨%W, %hW, HO⟩⟩, -, -⟩
    imodintro
    isplitl [H2]; · iexact H2
    isplitr
    · unfold Pipeline.prefHeld; rw [show (Finset.univ : Finset (Fin 0)) = ∅ from rfl, BI.bigSep_empty]; iempintro
    isplitl [HO]
    · unfold Dat.owesAt Pipeline.owesWithin
      iexists W; isplitr; · ipureintro; exact fun p hp => Or.inl (hW p (Finset.mem_coe.mp hp))
      iexact HO
    isplitl <;> iempintro
  hin c := by
    rw [show (dats m 0 c).Φ 0 = iprop(emp) from rfl]
    iintro -; iempintro
  hout c := by
    rw [ownSems0_eq, scopedRest1_eq, show (dats m 0 c).Φ (Fin.last cfg1.N) = iprop(emp) from rfl]
    iintro -
    isplitl; · iempintro
    isplitl <;> iempintro
  hexit c := by
    have e : ((dats m 0 c).arrays ((dats m 0 c).arrAt · (Pipeline.pin (pcfgs (F := F)) adm 0).N) : sProp 𝕄)
        = ((c : Thread nD τ).loc main_v2 ↦{fullShare} maskWords c) := by
      rw [arrays_eq1]; exact congrArg (fun f => ((c : Thread nD τ).loc main_v2 ↦{fullShare} f : sProp 𝕄)) (arrAt_end m c)
    rw [e]
    iintro ⟨H2, HO, -, -⟩
    imodintro
    isplitl [H2]; · iexact H2
    unfold Dat.owesAt Pipeline.owesWithin
    icases HO with ⟨%W, %hW, HO⟩
    iexists W; isplitr; swap; (· iexact HO)
    ipureintro
    intro p hp
    rcases hW (Finset.mem_coe.mpr hp) with h | ⟨w, s, rfl⟩
    · exact h
    · exact Nat.zero_le _

theorem reg0_pre (c : Dev nD) :
    (reg0 m).pre c = iprop(((c : Thread nD τ).loc main_v2 ↦{fullShare} m ((c : Thread nD τ).loc main_v2)) ∗ owesT c) := rfl
theorem reg0_post (c : Dev nD) :
    (reg0 m).post c = iprop(((c : Thread nD τ).loc main_v2 ↦{fullShare} maskWords c) ∗ owesT c) := rfl

end Cert.Proof.KB

end
-- ==== Proof.SpecLayout.lean ====
/-
  The flat form re-shaped. Reading the `65536 × 512` array in which row `4096·s + p` is row `p` of the padded
  sequence `s` as a `16 × 4096 × 512` array, in row-major order, gives the padded sequences stacked: entry
  `(s, p, q)` sits at row-major position `(4096·s + p)·512 + q` in both, and `(4096·s + p) / 4096 = s`,
  `(4096·s + p) % 4096 = p` because `p < 4096`.
-/
import proofs.«212850_g39865886441476_cont_8to1_b_277_5_alg».proof.Proof.Spec
import Idealize.ShloMosaic.Lib.Pipeline.Value

noncomputable section

namespace Cert.Spec

open Idealize.ShloMosaic Idealize.ShloMosaic.ValueIdx

/-- The flat `65536 × 512` array cast to `16 × 4096 × 512` is the stacked array. -/
theorem pad3_of_flat {X : Type} (z : X) (a0 : (⟨2, ![4096, 512]⟩ : Shape).Idx → X) (a1 : (⟨2, ![3840, 512]⟩ : Shape).Idx → X) (a2 : (⟨2, ![3584, 512]⟩ : Shape).Idx → X) (a3 : (⟨2, ![3328, 512]⟩ : Shape).Idx → X) (a4 : (⟨2, ![3072, 512]⟩ : Shape).Idx → X) (a5 : (⟨2, ![2816, 512]⟩ : Shape).Idx → X) (a6 : (⟨2, ![2560, 512]⟩ : Shape).Idx → X) (a7 : (⟨2, ![2304, 512]⟩ : Shape).Idx → X) (a8 : (⟨2, ![2048, 512]⟩ : Shape).Idx → X) (a9 : (⟨2, ![1792, 512]⟩ : Shape).Idx → X) (a10 : (⟨2, ![1536, 512]⟩ : Shape).Idx → X) (a11 : (⟨2, ![1280, 512]⟩ : Shape).Idx → X) (a12 : (⟨2, ![1024, 512]⟩ : Shape).Idx → X) (a13 : (⟨2, ![768, 512]⟩ : Shape).Idx → X) (a14 : (⟨2, ![512, 512]⟩ : Shape).Idx → X) (a15 : (⟨2, ![256, 512]⟩ : Shape).Idx → X)
    (h : (⟨2, ![65536, 512]⟩ : Shape).ShapeCasts (⟨3, ![16, 4096, 512]⟩ : Shape)) :
    shapeCast (⟨3, ![16, 4096, 512]⟩ : Shape) (padFlat z a0 a1 a2 a3 a4 a5 a6 a7 a8 a9 a10 a11 a12 a13 a14 a15) h = pad3 z a0 a1 a2 a3 a4 a5 a6 a7 a8 a9 a10 a11 a12 a13 a14 a15 := by
  funext j
  obtain ⟨s, p, q, rfl⟩ : ∃ (s : Fin 16) (p : Fin 4096) (q : Fin 512), j = ix3 s p q := ⟨j 0, j 1, j 2, eq_ix3 j⟩
  have hs := s.isLt
  have hp := p.isLt
  have hr : 4096 * s.val + p.val < 65536 := by omega
  refine (shapeCast_apply _ h (ix3 s p q) (ix2 ⟨4096 * s.val + p.val, hr⟩ q) ?_).trans ?_
  · rw [Shape.rowMajor_val_two, Shape.rowMajor_val_three]
    show (4096 * s.val + p.val) * 512 + q.val = (s.val * 4096 + p.val) * 512 + q.val
    omega
  · show padded z a0 a1 a2 a3 a4 a5 a6 a7 a8 a9 a10 a11 a12 a13 a14 a15 ((4096 * s.val + p.val) / 4096) ((4096 * s.val + p.val) % 4096) q
        = padded z a0 a1 a2 a3 a4 a5 a6 a7 a8 a9 a10 a11 a12 a13 a14 a15 s.val p.val q
    have e1 : (4096 * s.val + p.val) / 4096 = s.val := by omega
    have e2 : (4096 * s.val + p.val) % 4096 = p.val := by omega
    rw [e1, e2]

end Cert.Spec

end
-- ==== Proof.Stages.lean ====
/-
  The reference's stages, read at an index, over abstract arrays.

  A sequence of `L` rows padded at the end to 4096 rows reads, at `(p, q)`, the sequence's entry when `p < L` and the
  padding value otherwise. Giving it a leading axis of extent one and laying sixteen such slabs end to end along that
  axis, entry `(s, p, q)` is entry `(0, p, q)` of slab `s`: the stacked array is the specification's. The mask is the
  same stacking of sixteen rows, row `s` comparing the position `p` with the sequence's length as signed 32-bit words;
  both are below `2³¹`, so the comparison of words is the comparison of numbers.
-/
import proofs.«212850_g39865886441476_cont_8to1_b_277_5_alg».proof.Proof.Spec
import Idealize.ShloMosaic.Lib.Pipeline.Value
import Idealize.ShloMosaic.Lib.KernelVsHost
import Idealize.ShloMosaic.Lib.Affine

noncomputable section

namespace Cert.Proof.Stages

open Idealize.ShloMosaic Idealize.ShloMosaic.ValueIdx Cert.Spec

/-! ## Padding the rows -/

/-- An `L × 512` array padded with `hi` rows after its last, read at `(p, q)`: the array's entry on its own rows, the
    padding value past them. -/
theorem pad_rows_apply {X : Type} {L hi : Nat} (x : (⟨2, ![L, 512]⟩ : Shape).Idx → X) (v : (⟨0, ![]⟩ : Shape).Idx → X)
    (h : (⟨2, ![L, 512]⟩ : Shape).Pads (![0, 0] : Fin 2 → Nat) ![hi, 0] ![0, 0] (⟨2, ![4096, 512]⟩ : Shape)) (hu : 0 < (⟨0, ![]⟩ : Shape).numel)
    (j : (⟨2, ![4096, 512]⟩ : Shape).Idx) (p : Nat) (q : Fin 512) (hj0 : (j 0).val = p) (hj1 : (j 1).val = q.val) :
    pad (s := (⟨2, ![L, 512]⟩ : Shape)) (⟨2, ![4096, 512]⟩ : Shape) (![0, 0] : Fin 2 → Nat) ![hi, 0] ![0, 0] x v h hu j = rowOr (v ix0) x p q := by
  by_cases hp : p < L
  · rw [rowOr_lt (v ix0) x q hp]
    exact pad_apply_of_inside _ _ _ x v h hu j (ix2 ⟨p, hp⟩ q) (fun a => match a with
      | ⟨0, _⟩ => by show (j 0).val = 0 + p * (0 + 1); omega
      | ⟨1, _⟩ => by show (j 1).val = 0 + q.val * (0 + 1); omega)
  · rw [rowOr_ge (v ix0) x q (Nat.le_of_not_lt hp)]
    refine (pad_apply_of_not_inside _ _ _ x v h hu j ⟨0, Nat.succ_pos 1⟩ ?_).trans (congrArg v (funext fun a => a.elim0))
    show ¬(0 ≤ (j 0).val ∧ ((j 0).val - 0) % (0 + 1) = 0 ∧ ((j 0).val - 0) / (0 + 1) < L)
    intro hh
    have h3 := hh.2.2
    rw [Nat.sub_zero, Nat.div_one] at h3
    omega

/-- The padded array under a new leading axis of extent one, read at `(0, p, q)`. -/
theorem slab_apply {X : Type} {L hi : Nat} (x : (⟨2, ![L, 512]⟩ : Shape).Idx → X) (v : (⟨0, ![]⟩ : Shape).Idx → X)
    (h : (⟨2, ![L, 512]⟩ : Shape).Pads (![0, 0] : Fin 2 → Nat) ![hi, 0] ![0, 0] (⟨2, ![4096, 512]⟩ : Shape)) (hu : 0 < (⟨0, ![]⟩ : Shape).numel)
    (hb : (⟨2, ![4096, 512]⟩ : Shape).BroadcastsInDim (⟨3, ![1, 4096, 512]⟩ : Shape) (![1, 2] : Fin 2 → Fin 3)) (p : Fin 4096) (q : Fin 512) :
    broadcastInDim (⟨3, ![1, 4096, 512]⟩ : Shape) (![1, 2] : Fin 2 → Fin 3) hb
        (pad (s := (⟨2, ![L, 512]⟩ : Shape)) (⟨2, ![4096, 512]⟩ : Shape) (![0, 0] : Fin 2 → Nat) ![hi, 0] ![0, 0] x v h hu) (ix3 0 p q)
      = rowOr (v ix0) x p.val q :=
  (broadcastInDim_apply _ hb _ (ix3 0 p q) (ix2 p q) (fun a => match a with
    | ⟨0, _⟩ => by show p.val = if (4096 : Nat) = 1 then 0 else p.val; rw [if_neg (by decide)]
    | ⟨1, _⟩ => by show q.val = if (512 : Nat) = 1 then 0 else q.val; rw [if_neg (by decide)])).trans
    (pad_rows_apply x v h hu (ix2 p q) p.val q rfl rfl)

/-! ## Stacking slabs of extent one -/

/-- The extents of `N` pieces of one shape, each of extent one along the axis: the first `k` of them sum to `k`. -/
theorem sum_take_unit (f : Shape → Nat) (s₁ : Shape) (hf : f s₁ = 1) (N k : Nat) (hk : k ≤ N) :
    (((List.replicate N s₁).take k).map f).sum = k := by
  rw [List.take_replicate, List.map_replicate, hf, Nat.min_eq_left hk]
  simp

/-- Sixteen pieces of shape `1 × 4096 × 512` laid end to end along the leading axis of a `16 × 4096 × 512` array, each
    taking one position: entry `(k, p, q)` is entry `(0, p, q)` of piece `k`. -/
theorem stack3_apply {X : Type} (xs : List ((s : Shape) × (s.Idx → X)))
    (h : Shape.Concatenates (xs.map (·.1)) (⟨3, ![16, 4096, 512]⟩ : Shape) 0) (hall : xs.map (·.1) = List.replicate 16 (⟨3, ![1, 4096, 512]⟩ : Shape)) (k : Nat)
    (x : (⟨3, ![1, 4096, 512]⟩ : Shape).Idx → X) (hxk : xs[k]? = some ⟨(⟨3, ![1, 4096, 512]⟩ : Shape), x⟩)
    (s : Fin 16) (hs : s.val = k) (p : Fin 4096) (q : Fin 512) :
    concatenate (⟨3, ![16, 4096, 512]⟩ : Shape) 0 xs h (ix3 s p q) = x (ix3 0 p q) := by
  obtain ⟨hk, hxk'⟩ := List.getElem?_eq_some_iff.1 hxk
  have hk16 : k ≤ 16 := by have := s.isLt; omega
  have hpre : (((xs.take k).map (·.1)).map (fun s : Shape => if h : s.rank = (⟨3, ![16, 4096, 512]⟩ : Shape).rank then s.size ((0 : Fin (⟨3, ![16, 4096, 512]⟩ : Shape).rank).cast h.symm) else 0)).sum = k := by
    rw [List.map_take, hall]
    exact sum_take_unit _ (⟨3, ![1, 4096, 512]⟩ : Shape) rfl 16 k hk16
  exact concatenate_apply_piece 0 xs h (ix3 s p q) k hk _ x hxk' rfl k hpre (ix3 0 p q)
    (fun b hb => match b with
      | ⟨0, _⟩ => absurd rfl hb
      | ⟨1, _⟩ => rfl
      | ⟨2, _⟩ => rfl)
    (by show k + 0 = s.val; omega)

/-- The same for sixteen rows of shape `1 × 4096` along the leading axis of a `16 × 4096` array. -/
theorem stack2_apply {X : Type} (xs : List ((s : Shape) × (s.Idx → X)))
    (h : Shape.Concatenates (xs.map (·.1)) (⟨2, ![16, 4096]⟩ : Shape) 0) (hall : xs.map (·.1) = List.replicate 16 (⟨2, ![1, 4096]⟩ : Shape)) (k : Nat)
    (x : (⟨2, ![1, 4096]⟩ : Shape).Idx → X) (hxk : xs[k]? = some ⟨(⟨2, ![1, 4096]⟩ : Shape), x⟩)
    (s : Fin 16) (hs : s.val = k) (p : Fin 4096) :
    concatenate (⟨2, ![16, 4096]⟩ : Shape) 0 xs h (ix2 s p) = x (ix2 0 p) := by
  obtain ⟨hk, hxk'⟩ := List.getElem?_eq_some_iff.1 hxk
  have hk16 : k ≤ 16 := by have := s.isLt; omega
  have hpre : (((xs.take k).map (·.1)).map (fun s : Shape => if h : s.rank = (⟨2, ![16, 4096]⟩ : Shape).rank then s.size ((0 : Fin (⟨2, ![16, 4096]⟩ : Shape).rank).cast h.symm) else 0)).sum = k := by
    rw [List.map_take, hall]
    exact sum_take_unit _ (⟨2, ![1, 4096]⟩ : Shape) rfl 16 k hk16
  exact concatenate_apply_piece 0 xs h (ix2 s p) k hk _ x hxk' rfl k hpre (ix2 0 p)
    (fun b hb => match b with
      | ⟨0, _⟩ => absurd rfl hb
      | ⟨1, _⟩ => rfl)
    (by show k + 0 = s.val; omega)

/-! ## The sixteen padded sequences stacked -/

/-- Sixteen sequences, each padded to 4096 rows with the value `v` holds and given a leading axis of extent one, laid
    end to end along that axis: the specification's array at the padding value `v` holds. -/
theorem stacked_eq_pad3 {X : Type} (v : (⟨0, ![]⟩ : Shape).Idx → X) (x0 : (⟨2, ![4096, 512]⟩ : Shape).Idx → X) (x1 : (⟨2, ![3840, 512]⟩ : Shape).Idx → X) (x2 : (⟨2, ![3584, 512]⟩ : Shape).Idx → X) (x3 : (⟨2, ![3328, 512]⟩ : Shape).Idx → X) (x4 : (⟨2, ![3072, 512]⟩ : Shape).Idx → X) (x5 : (⟨2, ![2816, 512]⟩ : Shape).Idx → X) (x6 : (⟨2, ![2560, 512]⟩ : Shape).Idx → X) (x7 : (⟨2, ![2304, 512]⟩ : Shape).Idx → X) (x8 : (⟨2, ![2048, 512]⟩ : Shape).Idx → X) (x9 : (⟨2, ![1792, 512]⟩ : Shape).Idx → X) (x10 : (⟨2, ![1536, 512]⟩ : Shape).Idx → X) (x11 : (⟨2, ![1280, 512]⟩ : Shape).Idx → X) (x12 : (⟨2, ![1024, 512]⟩ : Shape).Idx → X) (x13 : (⟨2, ![768, 512]⟩ : Shape).Idx → X) (x14 : (⟨2, ![512, 512]⟩ : Shape).Idx → X) (x15 : (⟨2, ![256, 512]⟩ : Shape).Idx → X)
    (hp0 : (⟨2, ![4096, 512]⟩ : Shape).Pads (![0, 0] : Fin 2 → Nat) ![0, 0] ![0, 0] (⟨2, ![4096, 512]⟩ : Shape))
    (hp1 : (⟨2, ![3840, 512]⟩ : Shape).Pads (![0, 0] : Fin 2 → Nat) ![256, 0] ![0, 0] (⟨2, ![4096, 512]⟩ : Shape))
    (hp2 : (⟨2, ![3584, 512]⟩ : Shape).Pads (![0, 0] : Fin 2 → Nat) ![512, 0] ![0, 0] (⟨2, ![4096, 512]⟩ : Shape))
    (hp3 : (⟨2, ![3328, 512]⟩ : Shape).Pads (![0, 0] : Fin 2 → Nat) ![768, 0] ![0, 0] (⟨2, ![4096, 512]⟩ : Shape))
    (hp4 : (⟨2, ![3072, 512]⟩ : Shape).Pads (![0, 0] : Fin 2 → Nat) ![1024, 0] ![0, 0] (⟨2, ![4096, 512]⟩ : Shape))
    (hp5 : (⟨2, ![2816, 512]⟩ : Shape).Pads (![0, 0] : Fin 2 → Nat) ![1280, 0] ![0, 0] (⟨2, ![4096, 512]⟩ : Shape))
    (hp6 : (⟨2, ![2560, 512]⟩ : Shape).Pads (![0, 0] : Fin 2 → Nat) ![1536, 0] ![0, 0] (⟨2, ![4096, 512]⟩ : Shape))
    (hp7 : (⟨2, ![2304, 512]⟩ : Shape).Pads (![0, 0] : Fin 2 → Nat) ![1792, 0] ![0, 0] (⟨2, ![4096, 512]⟩ : Shape))
    (hp8 : (⟨2, ![2048, 512]⟩ : Shape).Pads (![0, 0] : Fin 2 → Nat) ![2048, 0] ![0, 0] (⟨2, ![4096, 512]⟩ : Shape))
    (hp9 : (⟨2, ![1792, 512]⟩ : Shape).Pads (![0, 0] : Fin 2 → Nat) ![2304, 0] ![0, 0] (⟨2, ![4096, 512]⟩ : Shape))
    (hp10 : (⟨2, ![1536, 512]⟩ : Shape).Pads (![0, 0] : Fin 2 → Nat) ![2560, 0] ![0, 0] (⟨2, ![4096, 512]⟩ : Shape))
    (hp11 : (⟨2, ![1280, 512]⟩ : Shape).Pads (![0, 0] : Fin 2 → Nat) ![2816, 0] ![0, 0] (⟨2, ![4096, 512]⟩ : Shape))
    (hp12 : (⟨2, ![1024, 512]⟩ : Shape).Pads (![0, 0] : Fin 2 → Nat) ![3072, 0] ![0, 0] (⟨2, ![4096, 512]⟩ : Shape))
    (hp13 : (⟨2, ![768, 512]⟩ : Shape).Pads (![0, 0] : Fin 2 → Nat) ![3328, 0] ![0, 0] (⟨2, ![4096, 512]⟩ : Shape))
    (hp14 : (⟨2, ![512, 512]⟩ : Shape).Pads (![0, 0] : Fin 2 → Nat) ![3584, 0] ![0, 0] (⟨2, ![4096, 512]⟩ : Shape))
    (hp15 : (⟨2, ![256, 512]⟩ : Shape).Pads (![0, 0] : Fin 2 → Nat) ![3840, 0] ![0, 0] (⟨2, ![4096, 512]⟩ : Shape))
    (hu : 0 < (⟨0, ![]⟩ : Shape).numel) (hb : (⟨2, ![4096, 512]⟩ : Shape).BroadcastsInDim (⟨3, ![1, 4096, 512]⟩ : Shape) (![1, 2] : Fin 2 → Fin 3))
    (hc : Shape.Concatenates [(⟨3, ![1, 4096, 512]⟩ : Shape), (⟨3, ![1, 4096, 512]⟩ : Shape), (⟨3, ![1, 4096, 512]⟩ : Shape), (⟨3, ![1, 4096, 512]⟩ : Shape), (⟨3, ![1, 4096, 512]⟩ : Shape), (⟨3, ![1, 4096, 512]⟩ : Shape), (⟨3, ![1, 4096, 512]⟩ : Shape), (⟨3, ![1, 4096, 512]⟩ : Shape), (⟨3, ![1, 4096, 512]⟩ : Shape), (⟨3, ![1, 4096, 512]⟩ : Shape), (⟨3, ![1, 4096, 512]⟩ : Shape), (⟨3, ![1, 4096, 512]⟩ : Shape), (⟨3, ![1, 4096, 512]⟩ : Shape), (⟨3, ![1, 4096, 512]⟩ : Shape), (⟨3, ![1, 4096, 512]⟩ : Shape), (⟨3, ![1, 4096, 512]⟩ : Shape)] (⟨3, ![16, 4096, 512]⟩ : Shape) 0) :
    concatenate (⟨3, ![16, 4096, 512]⟩ : Shape) 0
      [ ⟨(⟨3, ![1, 4096, 512]⟩ : Shape), broadcastInDim (⟨3, ![1, 4096, 512]⟩ : Shape) (![1, 2] : Fin 2 → Fin 3) hb (pad (s := (⟨2, ![4096, 512]⟩ : Shape)) (⟨2, ![4096, 512]⟩ : Shape) (![0, 0] : Fin 2 → Nat) ![0, 0] ![0, 0] x0 v hp0 hu)⟩,
        ⟨(⟨3, ![1, 4096, 512]⟩ : Shape), broadcastInDim (⟨3, ![1, 4096, 512]⟩ : Shape) (![1, 2] : Fin 2 → Fin 3) hb (pad (s := (⟨2, ![3840, 512]⟩ : Shape)) (⟨2, ![4096, 512]⟩ : Shape) (![0, 0] : Fin 2 → Nat) ![256, 0] ![0, 0] x1 v hp1 hu)⟩,
        ⟨(⟨3, ![1, 4096, 512]⟩ : Shape), broadcastInDim (⟨3, ![1, 4096, 512]⟩ : Shape) (![1, 2] : Fin 2 → Fin 3) hb (pad (s := (⟨2, ![3584, 512]⟩ : Shape)) (⟨2, ![4096, 512]⟩ : Shape) (![0, 0] : Fin 2 → Nat) ![512, 0] ![0, 0] x2 v hp2 hu)⟩,
        ⟨(⟨3, ![1, 4096, 512]⟩ : Shape), broadcastInDim (⟨3, ![1, 4096, 512]⟩ : Shape) (![1, 2] : Fin 2 → Fin 3) hb (pad (s := (⟨2, ![3328, 512]⟩ : Shape)) (⟨2, ![4096, 512]⟩ : Shape) (![0, 0] : Fin 2 → Nat) ![768, 0] ![0, 0] x3 v hp3 hu)⟩,
        ⟨(⟨3, ![1, 4096, 512]⟩ : Shape), broadcastInDim (⟨3, ![1, 4096, 512]⟩ : Shape) (![1, 2] : Fin 2 → Fin 3) hb (pad (s := (⟨2, ![3072, 512]⟩ : Shape)) (⟨2, ![4096, 512]⟩ : Shape) (![0, 0] : Fin 2 → Nat) ![1024, 0] ![0, 0] x4 v hp4 hu)⟩,
        ⟨(⟨3, ![1, 4096, 512]⟩ : Shape), broadcastInDim (⟨3, ![1, 4096, 512]⟩ : Shape) (![1, 2] : Fin 2 → Fin 3) hb (pad (s := (⟨2, ![2816, 512]⟩ : Shape)) (⟨2, ![4096, 512]⟩ : Shape) (![0, 0] : Fin 2 → Nat) ![1280, 0] ![0, 0] x5 v hp5 hu)⟩,
        ⟨(⟨3, ![1, 4096, 512]⟩ : Shape), broadcastInDim (⟨3, ![1, 4096, 512]⟩ : Shape) (![1, 2] : Fin 2 → Fin 3) hb (pad (s := (⟨2, ![2560, 512]⟩ : Shape)) (⟨2, ![4096, 512]⟩ : Shape) (![0, 0] : Fin 2 → Nat) ![1536, 0] ![0, 0] x6 v hp6 hu)⟩,
        ⟨(⟨3, ![1, 4096, 512]⟩ : Shape), broadcastInDim (⟨3, ![1, 4096, 512]⟩ : Shape) (![1, 2] : Fin 2 → Fin 3) hb (pad (s := (⟨2, ![2304, 512]⟩ : Shape)) (⟨2, ![4096, 512]⟩ : Shape) (![0, 0] : Fin 2 → Nat) ![1792, 0] ![0, 0] x7 v hp7 hu)⟩,
        ⟨(⟨3, ![1, 4096, 512]⟩ : Shape), broadcastInDim (⟨3, ![1, 4096, 512]⟩ : Shape) (![1, 2] : Fin 2 → Fin 3) hb (pad (s := (⟨2, ![2048, 512]⟩ : Shape)) (⟨2, ![4096, 512]⟩ : Shape) (![0, 0] : Fin 2 → Nat) ![2048, 0] ![0, 0] x8 v hp8 hu)⟩,
        ⟨(⟨3, ![1, 4096, 512]⟩ : Shape), broadcastInDim (⟨3, ![1, 4096, 512]⟩ : Shape) (![1, 2] : Fin 2 → Fin 3) hb (pad (s := (⟨2, ![1792, 512]⟩ : Shape)) (⟨2, ![4096, 512]⟩ : Shape) (![0, 0] : Fin 2 → Nat) ![2304, 0] ![0, 0] x9 v hp9 hu)⟩,
        ⟨(⟨3, ![1, 4096, 512]⟩ : Shape), broadcastInDim (⟨3, ![1, 4096, 512]⟩ : Shape) (![1, 2] : Fin 2 → Fin 3) hb (pad (s := (⟨2, ![1536, 512]⟩ : Shape)) (⟨2, ![4096, 512]⟩ : Shape) (![0, 0] : Fin 2 → Nat) ![2560, 0] ![0, 0] x10 v hp10 hu)⟩,
        ⟨(⟨3, ![1, 4096, 512]⟩ : Shape), broadcastInDim (⟨3, ![1, 4096, 512]⟩ : Shape) (![1, 2] : Fin 2 → Fin 3) hb (pad (s := (⟨2, ![1280, 512]⟩ : Shape)) (⟨2, ![4096, 512]⟩ : Shape) (![0, 0] : Fin 2 → Nat) ![2816, 0] ![0, 0] x11 v hp11 hu)⟩,
        ⟨(⟨3, ![1, 4096, 512]⟩ : Shape), broadcastInDim (⟨3, ![1, 4096, 512]⟩ : Shape) (![1, 2] : Fin 2 → Fin 3) hb (pad (s := (⟨2, ![1024, 512]⟩ : Shape)) (⟨2, ![4096, 512]⟩ : Shape) (![0, 0] : Fin 2 → Nat) ![3072, 0] ![0, 0] x12 v hp12 hu)⟩,
        ⟨(⟨3, ![1, 4096, 512]⟩ : Shape), broadcastInDim (⟨3, ![1, 4096, 512]⟩ : Shape) (![1, 2] : Fin 2 → Fin 3) hb (pad (s := (⟨2, ![768, 512]⟩ : Shape)) (⟨2, ![4096, 512]⟩ : Shape) (![0, 0] : Fin 2 → Nat) ![3328, 0] ![0, 0] x13 v hp13 hu)⟩,
        ⟨(⟨3, ![1, 4096, 512]⟩ : Shape), broadcastInDim (⟨3, ![1, 4096, 512]⟩ : Shape) (![1, 2] : Fin 2 → Fin 3) hb (pad (s := (⟨2, ![512, 512]⟩ : Shape)) (⟨2, ![4096, 512]⟩ : Shape) (![0, 0] : Fin 2 → Nat) ![3584, 0] ![0, 0] x14 v hp14 hu)⟩,
        ⟨(⟨3, ![1, 4096, 512]⟩ : Shape), broadcastInDim (⟨3, ![1, 4096, 512]⟩ : Shape) (![1, 2] : Fin 2 → Fin 3) hb (pad (s := (⟨2, ![256, 512]⟩ : Shape)) (⟨2, ![4096, 512]⟩ : Shape) (![0, 0] : Fin 2 → Nat) ![3840, 0] ![0, 0] x15 v hp15 hu)⟩] hc
      = pad3 (v ix0) x0 x1 x2 x3 x4 x5 x6 x7 x8 x9 x10 x11 x12 x13 x14 x15 := by
  funext j
  obtain ⟨s, p, q, rfl⟩ : ∃ (s : Fin 16) (p : Fin 4096) (q : Fin 512), j = ix3 s p q := ⟨j 0, j 1, j 2, eq_ix3 j⟩
  have key := fun k x hxk s hs => stack3_apply
      [ ⟨(⟨3, ![1, 4096, 512]⟩ : Shape), broadcastInDim (⟨3, ![1, 4096, 512]⟩ : Shape) (![1, 2] : Fin 2 → Fin 3) hb (pad (s := (⟨2, ![4096, 512]⟩ : Shape)) (⟨2, ![4096, 512]⟩ : Shape) (![0, 0] : Fin 2 → Nat) ![0, 0] ![0, 0] x0 v hp0 hu)⟩,
        ⟨(⟨3, ![1, 4096, 512]⟩ : Shape), broadcastInDim (⟨3, ![1, 4096, 512]⟩ : Shape) (![1, 2] : Fin 2 → Fin 3) hb (pad (s := (⟨2, ![3840, 512]⟩ : Shape)) (⟨2, ![4096, 512]⟩ : Shape) (![0, 0] : Fin 2 → Nat) ![256, 0] ![0, 0] x1 v hp1 hu)⟩,
        ⟨(⟨3, ![1, 4096, 512]⟩ : Shape), broadcastInDim (⟨3, ![1, 4096, 512]⟩ : Shape) (![1, 2] : Fin 2 → Fin 3) hb (pad (s := (⟨2, ![3584, 512]⟩ : Shape)) (⟨2, ![4096, 512]⟩ : Shape) (![0, 0] : Fin 2 → Nat) ![512, 0] ![0, 0] x2 v hp2 hu)⟩,
        ⟨(⟨3, ![1, 4096, 512]⟩ : Shape), broadcastInDim (⟨3, ![1, 4096, 512]⟩ : Shape) (![1, 2] : Fin 2 → Fin 3) hb (pad (s := (⟨2, ![3328, 512]⟩ : Shape)) (⟨2, ![4096, 512]⟩ : Shape) (![0, 0] : Fin 2 → Nat) ![768, 0] ![0, 0] x3 v hp3 hu)⟩,
        ⟨(⟨3, ![1, 4096, 512]⟩ : Shape), broadcastInDim (⟨3, ![1, 4096, 512]⟩ : Shape) (![1, 2] : Fin 2 → Fin 3) hb (pad (s := (⟨2, ![3072, 512]⟩ : Shape)) (⟨2, ![4096, 512]⟩ : Shape) (![0, 0] : Fin 2 → Nat) ![1024, 0] ![0, 0] x4 v hp4 hu)⟩,
        ⟨(⟨3, ![1, 4096, 512]⟩ : Shape), broadcastInDim (⟨3, ![1, 4096, 512]⟩ : Shape) (![1, 2] : Fin 2 → Fin 3) hb (pad (s := (⟨2, ![2816, 512]⟩ : Shape)) (⟨2, ![4096, 512]⟩ : Shape) (![0, 0] : Fin 2 → Nat) ![1280, 0] ![0, 0] x5 v hp5 hu)⟩,
        ⟨(⟨3, ![1, 4096, 512]⟩ : Shape), broadcastInDim (⟨3, ![1, 4096, 512]⟩ : Shape) (![1, 2] : Fin 2 → Fin 3) hb (pad (s := (⟨2, ![2560, 512]⟩ : Shape)) (⟨2, ![4096, 512]⟩ : Shape) (![0, 0] : Fin 2 → Nat) ![1536, 0] ![0, 0] x6 v hp6 hu)⟩,
        ⟨(⟨3, ![1, 4096, 512]⟩ : Shape), broadcastInDim (⟨3, ![1, 4096, 512]⟩ : Shape) (![1, 2] : Fin 2 → Fin 3) hb (pad (s := (⟨2, ![2304, 512]⟩ : Shape)) (⟨2, ![4096, 512]⟩ : Shape) (![0, 0] : Fin 2 → Nat) ![1792, 0] ![0, 0] x7 v hp7 hu)⟩,
        ⟨(⟨3, ![1, 4096, 512]⟩ : Shape), broadcastInDim (⟨3, ![1, 4096, 512]⟩ : Shape) (![1, 2] : Fin 2 → Fin 3) hb (pad (s := (⟨2, ![2048, 512]⟩ : Shape)) (⟨2, ![4096, 512]⟩ : Shape) (![0, 0] : Fin 2 → Nat) ![2048, 0] ![0, 0] x8 v hp8 hu)⟩,
        ⟨(⟨3, ![1, 4096, 512]⟩ : Shape), broadcastInDim (⟨3, ![1, 4096, 512]⟩ : Shape) (![1, 2] : Fin 2 → Fin 3) hb (pad (s := (⟨2, ![1792, 512]⟩ : Shape)) (⟨2, ![4096, 512]⟩ : Shape) (![0, 0] : Fin 2 → Nat) ![2304, 0] ![0, 0] x9 v hp9 hu)⟩,
        ⟨(⟨3, ![1, 4096, 512]⟩ : Shape), broadcastInDim (⟨3, ![1, 4096, 512]⟩ : Shape) (![1, 2] : Fin 2 → Fin 3) hb (pad (s := (⟨2, ![1536, 512]⟩ : Shape)) (⟨2, ![4096, 512]⟩ : Shape) (![0, 0] : Fin 2 → Nat) ![2560, 0] ![0, 0] x10 v hp10 hu)⟩,
        ⟨(⟨3, ![1, 4096, 512]⟩ : Shape), broadcastInDim (⟨3, ![1, 4096, 512]⟩ : Shape) (![1, 2] : Fin 2 → Fin 3) hb (pad (s := (⟨2, ![1280, 512]⟩ : Shape)) (⟨2, ![4096, 512]⟩ : Shape) (![0, 0] : Fin 2 → Nat) ![2816, 0] ![0, 0] x11 v hp11 hu)⟩,
        ⟨(⟨3, ![1, 4096, 512]⟩ : Shape), broadcastInDim (⟨3, ![1, 4096, 512]⟩ : Shape) (![1, 2] : Fin 2 → Fin 3) hb (pad (s := (⟨2, ![1024, 512]⟩ : Shape)) (⟨2, ![4096, 512]⟩ : Shape) (![0, 0] : Fin 2 → Nat) ![3072, 0] ![0, 0] x12 v hp12 hu)⟩,
        ⟨(⟨3, ![1, 4096, 512]⟩ : Shape), broadcastInDim (⟨3, ![1, 4096, 512]⟩ : Shape) (![1, 2] : Fin 2 → Fin 3) hb (pad (s := (⟨2, ![768, 512]⟩ : Shape)) (⟨2, ![4096, 512]⟩ : Shape) (![0, 0] : Fin 2 → Nat) ![3328, 0] ![0, 0] x13 v hp13 hu)⟩,
        ⟨(⟨3, ![1, 4096, 512]⟩ : Shape), broadcastInDim (⟨3, ![1, 4096, 512]⟩ : Shape) (![1, 2] : Fin 2 → Fin 3) hb (pad (s := (⟨2, ![512, 512]⟩ : Shape)) (⟨2, ![4096, 512]⟩ : Shape) (![0, 0] : Fin 2 → Nat) ![3584, 0] ![0, 0] x14 v hp14 hu)⟩,
        ⟨(⟨3, ![1, 4096, 512]⟩ : Shape), broadcastInDim (⟨3, ![1, 4096, 512]⟩ : Shape) (![1, 2] : Fin 2 → Fin 3) hb (pad (s := (⟨2, ![256, 512]⟩ : Shape)) (⟨2, ![4096, 512]⟩ : Shape) (![0, 0] : Fin 2 → Nat) ![3840, 0] ![0, 0] x15 v hp15 hu)⟩] hc rfl k x hxk s hs p q
  obtain ⟨k, hk⟩ := s
  interval_cases k
  · exact (key 0 _ rfl _ rfl).trans (slab_apply x0 v hp0 hu hb p q)
  · exact (key 1 _ rfl _ rfl).trans (slab_apply x1 v hp1 hu hb p q)
  · exact (key 2 _ rfl _ rfl).trans (slab_apply x2 v hp2 hu hb p q)
  · exact (key 3 _ rfl _ rfl).trans (slab_apply x3 v hp3 hu hb p q)
  · exact (key 4 _ rfl _ rfl).trans (slab_apply x4 v hp4 hu hb p q)
  · exact (key 5 _ rfl _ rfl).trans (slab_apply x5 v hp5 hu hb p q)
  · exact (key 6 _ rfl _ rfl).trans (slab_apply x6 v hp6 hu hb p q)
  · exact (key 7 _ rfl _ rfl).trans (slab_apply x7 v hp7 hu hb p q)
  · exact (key 8 _ rfl _ rfl).trans (slab_apply x8 v hp8 hu hb p q)
  · exact (key 9 _ rfl _ rfl).trans (slab_apply x9 v hp9 hu hb p q)
  · exact (key 10 _ rfl _ rfl).trans (slab_apply x10 v hp10 hu hb p q)
  · exact (key 11 _ rfl _ rfl).trans (slab_apply x11 v hp11 hu hb p q)
  · exact (key 12 _ rfl _ rfl).trans (slab_apply x12 v hp12 hu hb p q)
  · exact (key 13 _ rfl _ rfl).trans (slab_apply x13 v hp13 hu hb p q)
  · exact (key 14 _ rfl _ rfl).trans (slab_apply x14 v hp14 hu hb p q)
  · exact (key 15 _ rfl _ rfl).trans (slab_apply x15 v hp15 hu hb p q)

/-! ## The mask -/

/-- A number below `2³¹` as a 32-bit word, read signed, is the number. -/
theorem toInt_ofNat_small (p : Nat) (hp : p < 2147483648) : (BitVec.ofNat 32 p).toInt = (p : Int) := by
  have h1 : (BitVec.ofNat 32 p).toNat = p := by rw [BitVec.toNat_ofNat]; exact Nat.mod_eq_of_lt (by omega)
  rw [BitVec.toInt_eq_toNat_of_lt (by rw [h1]; omega), h1]

/-- The signed comparison `p ≥ c` of two numbers below `2³¹` as words is the comparison of the numbers. -/
theorem sge_ofNat (p c : Nat) (hp : p < 2147483648) (hc : c < 2147483648) :
    IntOp.cmpi .sge (BitVec.ofNat 32 p) (BitVec.ofNat 32 c) = if c ≤ p then 1#1 else 0#1 := by
  have tp := toInt_ofNat_small p hp
  have tc := toInt_ofNat_small c hc
  by_cases h : c ≤ p
  · rw [if_pos h]
    exact IntOp.cmpi_sge.2 (by rw [tp, tc]; omega)
  · rw [if_neg h]
    exact eq_zero_of_ne_one (fun h1 => h (by have h2 := IntOp.cmpi_sge.1 h1; rw [tp, tc] at h2; omega))

/-- One row of the mask under a new leading axis of extent one, read at `(0, p)`: the bit of `c ≤ p`. -/
theorem mask_row_apply (c : Nat) (hc : c < 2147483648)
    (hb0 : (⟨0, ![]⟩ : Shape).BroadcastsInDim (⟨1, ![4096]⟩ : Shape) (![] : Fin 0 → Fin 1))
    (hb1 : (⟨1, ![4096]⟩ : Shape).BroadcastsInDim (⟨2, ![1, 4096]⟩ : Shape) (![1] : Fin 1 → Fin 2)) (p : Fin 4096) :
    broadcastInDim (⟨2, ![1, 4096]⟩ : Shape) (![1] : Fin 1 → Fin 2) hb1
        (cmpi .sge (iotaInDim (⟨1, ![4096]⟩ : Shape) 32 0) (broadcastInDim (⟨1, ![4096]⟩ : Shape) (![] : Fin 0 → Fin 1) hb0 (constantI (⟨0, ![]⟩ : Shape) 32 (BitVec.ofNat 32 c))))
        (ix2 0 p)
      = if c ≤ p.val then 1#1 else 0#1 := by
  refine (broadcastInDim_apply _ hb1 _ (ix2 0 p) (ix1 p) (fun a => match a with
    | ⟨0, _⟩ => by show p.val = if (4096 : Nat) = 1 then 0 else p.val; rw [if_neg (by decide)])).trans ?_
  have e : broadcastInDim (⟨1, ![4096]⟩ : Shape) (![] : Fin 0 → Fin 1) hb0 (constantI (⟨0, ![]⟩ : Shape) 32 (BitVec.ofNat 32 c)) (ix1 p) = BitVec.ofNat 32 c :=
    broadcastInDim_apply _ hb0 _ (ix1 p) ix0 (fun a => a.elim0)
  show IntOp.cmpi .sge (BitVec.ofNat 32 p.val)
      (broadcastInDim (⟨1, ![4096]⟩ : Shape) (![] : Fin 0 → Fin 1) hb0 (constantI (⟨0, ![]⟩ : Shape) 32 (BitVec.ofNat 32 c)) (ix1 p)) = _
  rw [e]
  exact sge_ofNat p.val c (by have := p.isLt; omega) hc

/-- The sixteen rows stacked are the specification's mask. -/
theorem mask_stacked_eq (hb0 : (⟨0, ![]⟩ : Shape).BroadcastsInDim (⟨1, ![4096]⟩ : Shape) (![] : Fin 0 → Fin 1))
    (hb1 : (⟨1, ![4096]⟩ : Shape).BroadcastsInDim (⟨2, ![1, 4096]⟩ : Shape) (![1] : Fin 1 → Fin 2))
    (hc : Shape.Concatenates [(⟨2, ![1, 4096]⟩ : Shape), (⟨2, ![1, 4096]⟩ : Shape), (⟨2, ![1, 4096]⟩ : Shape), (⟨2, ![1, 4096]⟩ : Shape), (⟨2, ![1, 4096]⟩ : Shape), (⟨2, ![1, 4096]⟩ : Shape), (⟨2, ![1, 4096]⟩ : Shape), (⟨2, ![1, 4096]⟩ : Shape), (⟨2, ![1, 4096]⟩ : Shape), (⟨2, ![1, 4096]⟩ : Shape), (⟨2, ![1, 4096]⟩ : Shape), (⟨2, ![1, 4096]⟩ : Shape), (⟨2, ![1, 4096]⟩ : Shape), (⟨2, ![1, 4096]⟩ : Shape), (⟨2, ![1, 4096]⟩ : Shape), (⟨2, ![1, 4096]⟩ : Shape)] (⟨2, ![16, 4096]⟩ : Shape) 0) :
    concatenate (⟨2, ![16, 4096]⟩ : Shape) 0
      [ ⟨(⟨2, ![1, 4096]⟩ : Shape), broadcastInDim (⟨2, ![1, 4096]⟩ : Shape) (![1] : Fin 1 → Fin 2) hb1 (cmpi .sge (iotaInDim (⟨1, ![4096]⟩ : Shape) 32 0) (broadcastInDim (⟨1, ![4096]⟩ : Shape) (![] : Fin 0 → Fin 1) hb0 (constantI (⟨0, ![]⟩ : Shape) 32 4096#32)))⟩,
        ⟨(⟨2, ![1, 4096]⟩ : Shape), broadcastInDim (⟨2, ![1, 4096]⟩ : Shape) (![1] : Fin 1 → Fin 2) hb1 (cmpi .sge (iotaInDim (⟨1, ![4096]⟩ : Shape) 32 0) (broadcastInDim (⟨1, ![4096]⟩ : Shape) (![] : Fin 0 → Fin 1) hb0 (constantI (⟨0, ![]⟩ : Shape) 32 3840#32)))⟩,
        ⟨(⟨2, ![1, 4096]⟩ : Shape), broadcastInDim (⟨2, ![1, 4096]⟩ : Shape) (![1] : Fin 1 → Fin 2) hb1 (cmpi .sge (iotaInDim (⟨1, ![4096]⟩ : Shape) 32 0) (broadcastInDim (⟨1, ![4096]⟩ : Shape) (![] : Fin 0 → Fin 1) hb0 (constantI (⟨0, ![]⟩ : Shape) 32 3584#32)))⟩,
        ⟨(⟨2, ![1, 4096]⟩ : Shape), broadcastInDim (⟨2, ![1, 4096]⟩ : Shape) (![1] : Fin 1 → Fin 2) hb1 (cmpi .sge (iotaInDim (⟨1, ![4096]⟩ : Shape) 32 0) (broadcastInDim (⟨1, ![4096]⟩ : Shape) (![] : Fin 0 → Fin 1) hb0 (constantI (⟨0, ![]⟩ : Shape) 32 3328#32)))⟩,
        ⟨(⟨2, ![1, 4096]⟩ : Shape), broadcastInDim (⟨2, ![1, 4096]⟩ : Shape) (![1] : Fin 1 → Fin 2) hb1 (cmpi .sge (iotaInDim (⟨1, ![4096]⟩ : Shape) 32 0) (broadcastInDim (⟨1, ![4096]⟩ : Shape) (![] : Fin 0 → Fin 1) hb0 (constantI (⟨0, ![]⟩ : Shape) 32 3072#32)))⟩,
        ⟨(⟨2, ![1, 4096]⟩ : Shape), broadcastInDim (⟨2, ![1, 4096]⟩ : Shape) (![1] : Fin 1 → Fin 2) hb1 (cmpi .sge (iotaInDim (⟨1, ![4096]⟩ : Shape) 32 0) (broadcastInDim (⟨1, ![4096]⟩ : Shape) (![] : Fin 0 → Fin 1) hb0 (constantI (⟨0, ![]⟩ : Shape) 32 2816#32)))⟩,
        ⟨(⟨2, ![1, 4096]⟩ : Shape), broadcastInDim (⟨2, ![1, 4096]⟩ : Shape) (![1] : Fin 1 → Fin 2) hb1 (cmpi .sge (iotaInDim (⟨1, ![4096]⟩ : Shape) 32 0) (broadcastInDim (⟨1, ![4096]⟩ : Shape) (![] : Fin 0 → Fin 1) hb0 (constantI (⟨0, ![]⟩ : Shape) 32 2560#32)))⟩,
        ⟨(⟨2, ![1, 4096]⟩ : Shape), broadcastInDim (⟨2, ![1, 4096]⟩ : Shape) (![1] : Fin 1 → Fin 2) hb1 (cmpi .sge (iotaInDim (⟨1, ![4096]⟩ : Shape) 32 0) (broadcastInDim (⟨1, ![4096]⟩ : Shape) (![] : Fin 0 → Fin 1) hb0 (constantI (⟨0, ![]⟩ : Shape) 32 2304#32)))⟩,
        ⟨(⟨2, ![1, 4096]⟩ : Shape), broadcastInDim (⟨2, ![1, 4096]⟩ : Shape) (![1] : Fin 1 → Fin 2) hb1 (cmpi .sge (iotaInDim (⟨1, ![4096]⟩ : Shape) 32 0) (broadcastInDim (⟨1, ![4096]⟩ : Shape) (![] : Fin 0 → Fin 1) hb0 (constantI (⟨0, ![]⟩ : Shape) 32 2048#32)))⟩,
        ⟨(⟨2, ![1, 4096]⟩ : Shape), broadcastInDim (⟨2, ![1, 4096]⟩ : Shape) (![1] : Fin 1 → Fin 2) hb1 (cmpi .sge (iotaInDim (⟨1, ![4096]⟩ : Shape) 32 0) (broadcastInDim (⟨1, ![4096]⟩ : Shape) (![] : Fin 0 → Fin 1) hb0 (constantI (⟨0, ![]⟩ : Shape) 32 1792#32)))⟩,
        ⟨(⟨2, ![1, 4096]⟩ : Shape), broadcastInDim (⟨2, ![1, 4096]⟩ : Shape) (![1] : Fin 1 → Fin 2) hb1 (cmpi .sge (iotaInDim (⟨1, ![4096]⟩ : Shape) 32 0) (broadcastInDim (⟨1, ![4096]⟩ : Shape) (![] : Fin 0 → Fin 1) hb0 (constantI (⟨0, ![]⟩ : Shape) 32 1536#32)))⟩,
        ⟨(⟨2, ![1, 4096]⟩ : Shape), broadcastInDim (⟨2, ![1, 4096]⟩ : Shape) (![1] : Fin 1 → Fin 2) hb1 (cmpi .sge (iotaInDim (⟨1, ![4096]⟩ : Shape) 32 0) (broadcastInDim (⟨1, ![4096]⟩ : Shape) (![] : Fin 0 → Fin 1) hb0 (constantI (⟨0, ![]⟩ : Shape) 32 1280#32)))⟩,
        ⟨(⟨2, ![1, 4096]⟩ : Shape), broadcastInDim (⟨2, ![1, 4096]⟩ : Shape) (![1] : Fin 1 → Fin 2) hb1 (cmpi .sge (iotaInDim (⟨1, ![4096]⟩ : Shape) 32 0) (broadcastInDim (⟨1, ![4096]⟩ : Shape) (![] : Fin 0 → Fin 1) hb0 (constantI (⟨0, ![]⟩ : Shape) 32 1024#32)))⟩,
        ⟨(⟨2, ![1, 4096]⟩ : Shape), broadcastInDim (⟨2, ![1, 4096]⟩ : Shape) (![1] : Fin 1 → Fin 2) hb1 (cmpi .sge (iotaInDim (⟨1, ![4096]⟩ : Shape) 32 0) (broadcastInDim (⟨1, ![4096]⟩ : Shape) (![] : Fin 0 → Fin 1) hb0 (constantI (⟨0, ![]⟩ : Shape) 32 768#32)))⟩,
        ⟨(⟨2, ![1, 4096]⟩ : Shape), broadcastInDim (⟨2, ![1, 4096]⟩ : Shape) (![1] : Fin 1 → Fin 2) hb1 (cmpi .sge (iotaInDim (⟨1, ![4096]⟩ : Shape) 32 0) (broadcastInDim (⟨1, ![4096]⟩ : Shape) (![] : Fin 0 → Fin 1) hb0 (constantI (⟨0, ![]⟩ : Shape) 32 512#32)))⟩,
        ⟨(⟨2, ![1, 4096]⟩ : Shape), broadcastInDim (⟨2, ![1, 4096]⟩ : Shape) (![1] : Fin 1 → Fin 2) hb1 (cmpi .sge (iotaInDim (⟨1, ![4096]⟩ : Shape) 32 0) (broadcastInDim (⟨1, ![4096]⟩ : Shape) (![] : Fin 0 → Fin 1) hb0 (constantI (⟨0, ![]⟩ : Shape) 32 256#32)))⟩] hc
      = mask2 := by
  funext j
  obtain ⟨s, p, rfl⟩ : ∃ (s : Fin 16) (p : Fin 4096), j = ix2 s p := ⟨j 0, j 1, eq_ix2 j⟩
  have key := fun k x hxk s hs => stack2_apply
      [ ⟨(⟨2, ![1, 4096]⟩ : Shape), broadcastInDim (⟨2, ![1, 4096]⟩ : Shape) (![1] : Fin 1 → Fin 2) hb1 (cmpi .sge (iotaInDim (⟨1, ![4096]⟩ : Shape) 32 0) (broadcastInDim (⟨1, ![4096]⟩ : Shape) (![] : Fin 0 → Fin 1) hb0 (constantI (⟨0, ![]⟩ : Shape) 32 4096#32)))⟩,
        ⟨(⟨2, ![1, 4096]⟩ : Shape), broadcastInDim (⟨2, ![1, 4096]⟩ : Shape) (![1] : Fin 1 → Fin 2) hb1 (cmpi .sge (iotaInDim (⟨1, ![4096]⟩ : Shape) 32 0) (broadcastInDim (⟨1, ![4096]⟩ : Shape) (![] : Fin 0 → Fin 1) hb0 (constantI (⟨0, ![]⟩ : Shape) 32 3840#32)))⟩,
        ⟨(⟨2, ![1, 4096]⟩ : Shape), broadcastInDim (⟨2, ![1, 4096]⟩ : Shape) (![1] : Fin 1 → Fin 2) hb1 (cmpi .sge (iotaInDim (⟨1, ![4096]⟩ : Shape) 32 0) (broadcastInDim (⟨1, ![4096]⟩ : Shape) (![] : Fin 0 → Fin 1) hb0 (constantI (⟨0, ![]⟩ : Shape) 32 3584#32)))⟩,
        ⟨(⟨2, ![1, 4096]⟩ : Shape), broadcastInDim (⟨2, ![1, 4096]⟩ : Shape) (![1] : Fin 1 → Fin 2) hb1 (cmpi .sge (iotaInDim (⟨1, ![4096]⟩ : Shape) 32 0) (broadcastInDim (⟨1, ![4096]⟩ : Shape) (![] : Fin 0 → Fin 1) hb0 (constantI (⟨0, ![]⟩ : Shape) 32 3328#32)))⟩,
        ⟨(⟨2, ![1, 4096]⟩ : Shape), broadcastInDim (⟨2, ![1, 4096]⟩ : Shape) (![1] : Fin 1 → Fin 2) hb1 (cmpi .sge (iotaInDim (⟨1, ![4096]⟩ : Shape) 32 0) (broadcastInDim (⟨1, ![4096]⟩ : Shape) (![] : Fin 0 → Fin 1) hb0 (constantI (⟨0, ![]⟩ : Shape) 32 3072#32)))⟩,
        ⟨(⟨2, ![1, 4096]⟩ : Shape), broadcastInDim (⟨2, ![1, 4096]⟩ : Shape) (![1] : Fin 1 → Fin 2) hb1 (cmpi .sge (iotaInDim (⟨1, ![4096]⟩ : Shape) 32 0) (broadcastInDim (⟨1, ![4096]⟩ : Shape) (![] : Fin 0 → Fin 1) hb0 (constantI (⟨0, ![]⟩ : Shape) 32 2816#32)))⟩,
        ⟨(⟨2, ![1, 4096]⟩ : Shape), broadcastInDim (⟨2, ![1, 4096]⟩ : Shape) (![1] : Fin 1 → Fin 2) hb1 (cmpi .sge (iotaInDim (⟨1, ![4096]⟩ : Shape) 32 0) (broadcastInDim (⟨1, ![4096]⟩ : Shape) (![] : Fin 0 → Fin 1) hb0 (constantI (⟨0, ![]⟩ : Shape) 32 2560#32)))⟩,
        ⟨(⟨2, ![1, 4096]⟩ : Shape), broadcastInDim (⟨2, ![1, 4096]⟩ : Shape) (![1] : Fin 1 → Fin 2) hb1 (cmpi .sge (iotaInDim (⟨1, ![4096]⟩ : Shape) 32 0) (broadcastInDim (⟨1, ![4096]⟩ : Shape) (![] : Fin 0 → Fin 1) hb0 (constantI (⟨0, ![]⟩ : Shape) 32 2304#32)))⟩,
        ⟨(⟨2, ![1, 4096]⟩ : Shape), broadcastInDim (⟨2, ![1, 4096]⟩ : Shape) (![1] : Fin 1 → Fin 2) hb1 (cmpi .sge (iotaInDim (⟨1, ![4096]⟩ : Shape) 32 0) (broadcastInDim (⟨1, ![4096]⟩ : Shape) (![] : Fin 0 → Fin 1) hb0 (constantI (⟨0, ![]⟩ : Shape) 32 2048#32)))⟩,
        ⟨(⟨2, ![1, 4096]⟩ : Shape), broadcastInDim (⟨2, ![1, 4096]⟩ : Shape) (![1] : Fin 1 → Fin 2) hb1 (cmpi .sge (iotaInDim (⟨1, ![4096]⟩ : Shape) 32 0) (broadcastInDim (⟨1, ![4096]⟩ : Shape) (![] : Fin 0 → Fin 1) hb0 (constantI (⟨0, ![]⟩ : Shape) 32 1792#32)))⟩,
        ⟨(⟨2, ![1, 4096]⟩ : Shape), broadcastInDim (⟨2, ![1, 4096]⟩ : Shape) (![1] : Fin 1 → Fin 2) hb1 (cmpi .sge (iotaInDim (⟨1, ![4096]⟩ : Shape) 32 0) (broadcastInDim (⟨1, ![4096]⟩ : Shape) (![] : Fin 0 → Fin 1) hb0 (constantI (⟨0, ![]⟩ : Shape) 32 1536#32)))⟩,
        ⟨(⟨2, ![1, 4096]⟩ : Shape), broadcastInDim (⟨2, ![1, 4096]⟩ : Shape) (![1] : Fin 1 → Fin 2) hb1 (cmpi .sge (iotaInDim (⟨1, ![4096]⟩ : Shape) 32 0) (broadcastInDim (⟨1, ![4096]⟩ : Shape) (![] : Fin 0 → Fin 1) hb0 (constantI (⟨0, ![]⟩ : Shape) 32 1280#32)))⟩,
        ⟨(⟨2, ![1, 4096]⟩ : Shape), broadcastInDim (⟨2, ![1, 4096]⟩ : Shape) (![1] : Fin 1 → Fin 2) hb1 (cmpi .sge (iotaInDim (⟨1, ![4096]⟩ : Shape) 32 0) (broadcastInDim (⟨1, ![4096]⟩ : Shape) (![] : Fin 0 → Fin 1) hb0 (constantI (⟨0, ![]⟩ : Shape) 32 1024#32)))⟩,
        ⟨(⟨2, ![1, 4096]⟩ : Shape), broadcastInDim (⟨2, ![1, 4096]⟩ : Shape) (![1] : Fin 1 → Fin 2) hb1 (cmpi .sge (iotaInDim (⟨1, ![4096]⟩ : Shape) 32 0) (broadcastInDim (⟨1, ![4096]⟩ : Shape) (![] : Fin 0 → Fin 1) hb0 (constantI (⟨0, ![]⟩ : Shape) 32 768#32)))⟩,
        ⟨(⟨2, ![1, 4096]⟩ : Shape), broadcastInDim (⟨2, ![1, 4096]⟩ : Shape) (![1] : Fin 1 → Fin 2) hb1 (cmpi .sge (iotaInDim (⟨1, ![4096]⟩ : Shape) 32 0) (broadcastInDim (⟨1, ![4096]⟩ : Shape) (![] : Fin 0 → Fin 1) hb0 (constantI (⟨0, ![]⟩ : Shape) 32 512#32)))⟩,
        ⟨(⟨2, ![1, 4096]⟩ : Shape), broadcastInDim (⟨2, ![1, 4096]⟩ : Shape) (![1] : Fin 1 → Fin 2) hb1 (cmpi .sge (iotaInDim (⟨1, ![4096]⟩ : Shape) 32 0) (broadcastInDim (⟨1, ![4096]⟩ : Shape) (![] : Fin 0 → Fin 1) hb0 (constantI (⟨0, ![]⟩ : Shape) 32 256#32)))⟩] hc rfl k x hxk s hs p
  obtain ⟨k, hk⟩ := s
  interval_cases k
  · exact (key 0 _ rfl _ rfl).trans (mask_row_apply 4096 (by decide) hb0 hb1 p)
  · exact (key 1 _ rfl _ rfl).trans (mask_row_apply 3840 (by decide) hb0 hb1 p)
  · exact (key 2 _ rfl _ rfl).trans (mask_row_apply 3584 (by decide) hb0 hb1 p)
  · exact (key 3 _ rfl _ rfl).trans (mask_row_apply 3328 (by decide) hb0 hb1 p)
  · exact (key 4 _ rfl _ rfl).trans (mask_row_apply 3072 (by decide) hb0 hb1 p)
  · exact (key 5 _ rfl _ rfl).trans (mask_row_apply 2816 (by decide) hb0 hb1 p)
  · exact (key 6 _ rfl _ rfl).trans (mask_row_apply 2560 (by decide) hb0 hb1 p)
  · exact (key 7 _ rfl _ rfl).trans (mask_row_apply 2304 (by decide) hb0 hb1 p)
  · exact (key 8 _ rfl _ rfl).trans (mask_row_apply 2048 (by decide) hb0 hb1 p)
  · exact (key 9 _ rfl _ rfl).trans (mask_row_apply 1792 (by decide) hb0 hb1 p)
  · exact (key 10 _ rfl _ rfl).trans (mask_row_apply 1536 (by decide) hb0 hb1 p)
  · exact (key 11 _ rfl _ rfl).trans (mask_row_apply 1280 (by decide) hb0 hb1 p)
  · exact (key 12 _ rfl _ rfl).trans (mask_row_apply 1024 (by decide) hb0 hb1 p)
  · exact (key 13 _ rfl _ rfl).trans (mask_row_apply 768 (by decide) hb0 hb1 p)
  · exact (key 14 _ rfl _ rfl).trans (mask_row_apply 512 (by decide) hb0 hb1 p)
  · exact (key 15 _ rfl _ rfl).trans (mask_row_apply 256 (by decide) hb0 hb1 p)

end Cert.Proof.Stages

end
-- ==== Proof.MaskValue.lean ====
/-
  The mask as the kernel's side computes it.

  At `(s, p)` the stored word is the bit of the signed comparison `p ≥ 4096 − 256·s`, widened to 32 bits; the result
  is the bit of "that word is not zero". For `s < 16` the threshold `4096 − 256·s`, computed in 32-bit words, does not
  wrap, and it and `p` are below `2³¹`, so the signed comparison of the words is the comparison of the numbers; and a
  bit widened is nonzero exactly when the bit is one. So the result is the specification's mask.
-/
import proofs.«212850_g39865886441476_cont_8to1_b_277_5_alg».proof.Proof.Spec
import proofs.«212850_g39865886441476_cont_8to1_b_277_5_alg».proof.Proof.Stages
import Idealize.ShloMosaic.Lib.Pipeline.Value

noncomputable section

namespace Cert.Proof.MaskValue

open Idealize.ShloMosaic Idealize.ShloMosaic.ValueIdx Cert.Spec

/-- For `s < 16` the threshold computed in 32-bit words is the word of `4096 − 256·s`. -/
theorem thr_word (s : Nat) (hs : s < 16) :
    IntOp.subi 4096#32 (IntOp.muli 256#32 (BitVec.ofNat 32 s)) = BitVec.ofNat 32 (4096 - 256 * s) := by
  interval_cases s <;> decide

/-- A bit widened to 32 bits differs from zero exactly when it is one. -/
theorem ne_zero_bit (b : BitVec 1) : IntOp.cmpi .ne (b.setWidth 32) 0#32 = b := by
  revert b; decide

/-- "The widened bit of `p ≥ 4096 − 256·s` is not zero", over the `16 × 4096` positions `(s, p)`, is the specification's
    mask. -/
theorem mask_eq (h1 : (⟨2, ![16, 4096]⟩ : Shape).Iotas .tc 32 [1]) (h0 : (⟨2, ![16, 4096]⟩ : Shape).Iotas .tc 32 [0]) (hlt : 1 < 32)
    (hb : (⟨0, ![]⟩ : Shape).BroadcastsInDim (⟨2, ![16, 4096]⟩ : Shape) (![] : Fin 0 → Fin 2)) :
    cmpi .ne
        (extui 32 (cmpi .sge (iota .tc (⟨2, ![16, 4096]⟩ : Shape) 32 [1] h1)
          (subi (broadcast (⟨2, ![16, 4096]⟩ : Shape) 4096#32) (muli (broadcast (⟨2, ![16, 4096]⟩ : Shape) 256#32) (iota .tc (⟨2, ![16, 4096]⟩ : Shape) 32 [0] h0)))) hlt)
        (broadcastInDim (⟨2, ![16, 4096]⟩ : Shape) (![] : Fin 0 → Fin 2) hb (constantI (⟨0, ![]⟩ : Shape) 32 0#32))
      = Cert.Spec.mask2 := by
  funext j
  obtain ⟨s, p, rfl⟩ : ∃ (s : Fin 16) (p : Fin 4096), j = ix2 s p := ⟨j 0, j 1, eq_ix2 j⟩
  have hs := s.isLt
  have hp := p.isLt
  have e0 : broadcastInDim (⟨2, ![16, 4096]⟩ : Shape) (![] : Fin 0 → Fin 2) hb (constantI (⟨0, ![]⟩ : Shape) 32 0#32) (ix2 s p) = 0#32 :=
    broadcastInDim_apply _ hb _ (ix2 s p) ix0 (fun a => a.elim0)
  have e1 : iota .tc (⟨2, ![16, 4096]⟩ : Shape) 32 [1] h1 (ix2 s p) = BitVec.ofNat 32 p.val :=
    iota_single_apply .tc (⟨2, ![16, 4096]⟩ : Shape) 32 1 h1 (ix2 s p)
  have e2 : iota .tc (⟨2, ![16, 4096]⟩ : Shape) 32 [0] h0 (ix2 s p) = BitVec.ofNat 32 s.val :=
    iota_single_apply .tc (⟨2, ![16, 4096]⟩ : Shape) 32 0 h0 (ix2 s p)
  show IntOp.cmpi .ne
      ((IntOp.cmpi .sge (iota .tc (⟨2, ![16, 4096]⟩ : Shape) 32 [1] h1 (ix2 s p))
        (IntOp.subi 4096#32 (IntOp.muli 256#32 (iota .tc (⟨2, ![16, 4096]⟩ : Shape) 32 [0] h0 (ix2 s p))))).setWidth 32)
      (broadcastInDim (⟨2, ![16, 4096]⟩ : Shape) (![] : Fin 0 → Fin 2) hb (constantI (⟨0, ![]⟩ : Shape) 32 0#32) (ix2 s p))
    = maskBit s.val p.val
  rw [e0, e1, e2, thr_word s.val hs,
    Cert.Proof.Stages.sge_ofNat p.val (4096 - 256 * s.val) (by omega) (by omega), ne_zero_bit]
  rfl

end Cert.Proof.MaskValue

end
-- ==== Proof.KBLaunch.lean ====
/-
  The padding program's launch: its run from a memory with zero counters.

  @main on each TensorCore is one SparseCore call (2 SparseCores x 16 vector subcores write the flat padded array),
  a reshape of the flat array to `16 × 4096 × 512`, one pipelined TensorCore call that writes the mask words, and
  four host operations that compare the words with zero. The run is the SparseCore launch theorem's: the call hands
  each SparseCore a read share of the sixteen sequences and its sixteen blocks of the flat output, and takes the
  blocks back at the padded array; the shares of a sequence split three ways (one kept, one per SparseCore) and join
  again, the flat output splits into its thirty-two blocks of 2048 rows and joins again. The mask region is entered
  after the call, when the TensorCore owes no signal; its staging cell's rounds are funded at the launch beside the
  handshakes'. At the end the sixteen sequences are as launched, the first result is the padded sequences
  (`Cert.Spec.pad3`) and the second the padding mask (`Cert.Spec.mask2`). The vector subcores' task and the split of
  a SparseCore's operands among them are taken as hypotheses of the run.
-/
import proofs.«212850_g39865886441476_cont_8to1_b_277_5_alg».proof.Proof.KBSetup
import proofs.«212850_g39865886441476_cont_8to1_b_277_5_alg».proof.Proof.KBMask
import proofs.«212850_g39865886441476_cont_8to1_b_277_5_alg».proof.Proof.SpecLayout
import proofs.«212850_g39865886441476_cont_8to1_b_277_5_alg».proof.Proof.MaskValue
import Idealize.ShloMosaic.Lib.StableHlo.Run

noncomputable section

namespace Cert.Proof.KB

open Cert.Kernel Cert.Kernel.Gen
open Idealize.ShloMosaic
open Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)

open Idealize.ShloMosaic.SparseCore (S V T)
open Idealize.ShloMosaic.SparseCore.Cfg (tileRest ownBufs ownSems0 ownCells ownRefs mem_ownCells mem_ownRefs)
open Idealize.ShloMosaic.StableHlo (held held_split held_sdiff_result wp_hlo_within)

variable (ρ : Dev nD → PrngReg)

/-! ## The launch element: the handshakes' rounds, the mask region's staging cell's rounds -/

def u₀ : UU := (initOf (K (F := F)).hsCells (K (F := F)).hsToks,
  (initOf (Pipeline.cells (nD := nD) (τ := τ) cfgs cellOf_inj) (Pipeline.launchToks (nD := nD) (τ := τ) cfgs cellOf_inj), 1))

/-- What the launch leaves each TensorCore for its mask region: the staging cell's ghost state and the duty tokens of
    the region's transfers. -/
abbrev G (c : Dev nD) : sProp 𝕄 :=
  iprop(Pipeline.cellsGhost (Pipeline.pin (pcfgs (F := F)) adm) EP 0 c ∗ Pipeline.toksInit (Pipeline.pin (pcfgs (F := F)) adm) EP 0 c)

omit [FloatOps F] in
theorem own_EP (x : UP) : (BI.own (((Emb.inl : Emb UP (UP × Counters)).trans embR) x) : sProp 𝕄) ⊢ BI.own (EP x) := by
  unfold EP; exact BI.Entails.refl _

omit [FloatOps F] in
theorem bigSep_emp' {I : Type} (s : Finset I) : (bigSep s fun _ => iprop(emp)) = (iprop(emp) : sProp 𝕄) := bigSep_emp_const s

omit [FloatOps F] in
theorem hG1 : (bigSep Finset.univ fun c : Dev nD => bigSep Finset.univ fun p : Fin 1 => Pipeline.cellsGhost (nD := nD) (τ := τ) cfgs EP p c)
    ⊢ (bigSep Finset.univ fun c : Dev nD => Pipeline.cellsGhost (Pipeline.pin (pcfgs (F := F)) adm) EP 0 c : sProp 𝕄) :=
  bigSep_mono fun c _ => Entails.of_eq (bigSep_W1 fun p => Pipeline.cellsGhost (nD := nD) (τ := τ) cfgs EP p c)
omit [FloatOps F] in
theorem hG2 : (bigSep Finset.univ fun c : Dev nD => bigSep Finset.univ fun p : Fin 1 => Pipeline.toksInit (nD := nD) (τ := τ) cfgs EP p c)
    ⊢ (bigSep Finset.univ fun c : Dev nD => Pipeline.toksInit (Pipeline.pin (pcfgs (F := F)) adm) EP 0 c : sProp 𝕄) :=
  bigSep_mono fun c _ => Entails.of_eq (bigSep_W1 fun p => Pipeline.toksInit (nD := nD) (τ := τ) cfgs EP p c)

theorem hu₀ : (ownU (u₀ (F := F)) : sProp 𝕄)
    ⊢ |={Set.univ}=> iprop(BI.own (EH (initOf (K (F := F)).hsCells (K (F := F)).hsToks)) ∗ (bigSep Finset.univ fun c : Dev nD => G (F := F) c)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave HR' := (own_pair_emb embR _ _) $$ HR
  icases HR' with ⟨HP, -⟩
  ihave HP' := (own_EP _) $$ HP
  imod (Pipeline.fund_ghost (nD := nD) (τ := τ) cfgs EP cellOf_inj) $$ HP' with ⟨Hg, Ht⟩
  imodintro
  isplitl [HH]; · iexact HH
  isplitl [Hg Ht]
  · rw [bigSep_sep']
    isplitl [Hg]
    · iapply (hG1 (F := F)); iexact Hg
    · iapply (hG2 (F := F)); iexact Ht
  · rw [show (bigSep Finset.univ fun thr : Thread nD τ => bigSep Finset.univ fun q : Fin 1 => (P (F := F) m).x q thr) = (iprop(emp) : sProp 𝕄) from by
      unfold P; dsimp only; rw [bigSep_congr fun _ _ => bigSep_emp' _, bigSep_emp']]
    iempintro

/-! ## The TensorCore's arrays, the shares of the sequences, the blocks of the flat output -/

/-- The padded sequences as the `16 × 4096 × 512` result. -/
def pad3m (d : Dev nD) : Buf (Elt F) ((SparseCore.T d : Thread nD τ).loc main_v1) :=
  Cert.Spec.pad3 (zF (F := F)) (m (aLoc0 d)) (m (aLoc1 d)) (m (aLoc2 d)) (m (aLoc3 d)) (m (aLoc4 d)) (m (aLoc5 d)) (m (aLoc6 d)) (m (aLoc7 d)) (m (aLoc8 d)) (m (aLoc9 d)) (m (aLoc10 d)) (m (aLoc11 d)) (m (aLoc12 d)) (m (aLoc13 d)) (m (aLoc14 d)) (m (aLoc15 d))

omit [FloatOps F] in
/-- The TensorCore's unscoped arrays, listed: the sixteen sequences, the flat output, the two results and the mask's
    intermediate arrays. -/
theorem unscoped_eq (d : Dev nD) (W : (b : Ref sig .tc) → Buf (Elt F) ((d.tc : Thread nD τ).loc b)) :
    (unscopedBufs d W : sProp 𝕄) = iprop(((d.tc : Thread nD τ).loc main_arg0 ↦{fullShare} W main_arg0) ∗ ((d.tc : Thread nD τ).loc main_arg1 ↦{fullShare} W main_arg1) ∗ ((d.tc : Thread nD τ).loc main_arg2 ↦{fullShare} W main_arg2) ∗ ((d.tc : Thread nD τ).loc main_arg3 ↦{fullShare} W main_arg3) ∗ ((d.tc : Thread nD τ).loc main_arg4 ↦{fullShare} W main_arg4) ∗ ((d.tc : Thread nD τ).loc main_arg5 ↦{fullShare} W main_arg5) ∗ ((d.tc : Thread nD τ).loc main_arg6 ↦{fullShare} W main_arg6) ∗ ((d.tc : Thread nD τ).loc main_arg7 ↦{fullShare} W main_arg7) ∗ ((d.tc : Thread nD τ).loc main_arg8 ↦{fullShare} W main_arg8) ∗ ((d.tc : Thread nD τ).loc main_arg9 ↦{fullShare} W main_arg9) ∗ ((d.tc : Thread nD τ).loc main_arg10 ↦{fullShare} W main_arg10) ∗ ((d.tc : Thread nD τ).loc main_arg11 ↦{fullShare} W main_arg11) ∗ ((d.tc : Thread nD τ).loc main_arg12 ↦{fullShare} W main_arg12) ∗ ((d.tc : Thread nD τ).loc main_arg13 ↦{fullShare} W main_arg13) ∗ ((d.tc : Thread nD τ).loc main_arg14 ↦{fullShare} W main_arg14) ∗ ((d.tc : Thread nD τ).loc main_arg15 ↦{fullShare} W main_arg15) ∗ ((d.tc : Thread nD τ).loc main_v0 ↦{fullShare} W main_v0) ∗ ((d.tc : Thread nD τ).loc main_v1 ↦{fullShare} W main_v1) ∗ ((d.tc : Thread nD τ).loc main_v2 ↦{fullShare} W main_v2) ∗ ((d.tc : Thread nD τ).loc main_c ↦{fullShare} W main_c) ∗ ((d.tc : Thread nD τ).loc main_v3 ↦{fullShare} W main_v3) ∗ ((d.tc : Thread nD τ).loc main_v4 ↦{fullShare} W main_v4) ∗ ((d.tc : Thread nD τ).loc main_v5 ↦{fullShare} W main_v5)) := by
  unfold unscopedBufs
  exact bigSep_eq_bigSepL_of_eq [main_arg0, main_arg1, main_arg2, main_arg3, main_arg4, main_arg5, main_arg6, main_arg7, main_arg8, main_arg9, main_arg10, main_arg11, main_arg12, main_arg13, main_arg14, main_arg15, main_v0, main_v1, main_v2, main_c, main_v3, main_v4, main_v5] (by decide) (by decide) _

omit [FloatOps F] in
/-- At the launch contents: the sequences together, then the rest. -/
theorem unscoped_split (d : Dev nD) :
    (unscopedBufs d (fun b => m ((SparseCore.T d : Thread nD τ).loc b)) : sProp 𝕄)
      ⊢ iprop(argsAt m fullShare d ∗ (oLoc d ↦{fullShare} m (oLoc d))
          ∗ ((SparseCore.T d : Thread nD τ).loc main_v1 ↦{fullShare} m ((SparseCore.T d : Thread nD τ).loc main_v1)) ∗ ((SparseCore.T d : Thread nD τ).loc main_v2 ↦{fullShare} m ((SparseCore.T d : Thread nD τ).loc main_v2)) ∗ ((SparseCore.T d : Thread nD τ).loc main_c ↦{fullShare} m ((SparseCore.T d : Thread nD τ).loc main_c)) ∗ ((SparseCore.T d : Thread nD τ).loc main_v3 ↦{fullShare} m ((SparseCore.T d : Thread nD τ).loc main_v3)) ∗ ((SparseCore.T d : Thread nD τ).loc main_v4 ↦{fullShare} m ((SparseCore.T d : Thread nD τ).loc main_v4)) ∗ ((SparseCore.T d : Thread nD τ).loc main_v5 ↦{fullShare} m ((SparseCore.T d : Thread nD τ).loc main_v5))) := by
  rw [unscoped_eq]
  unfold argsAt
  iintro ⟨A0, A1, A2, A3, A4, A5, A6, A7, A8, A9, A10, A11, A12, A13, A14, A15, R⟩
  isplitr [R]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    iexact A15
  iexact R

/-- The share of each sequence the TensorCore keeps while the two SparseCores hold theirs. -/
abbrev shK : PosShare TreeShare := Transfers.shareDrop fullShare 2

omit [FloatOps F] in
theorem pts3_split (ℓ : Loc nD τ sig) (f : Buf (Elt F) ℓ) :
    (ℓ ↦{fullShare} f : sProp 𝕄) ⊢ iprop((ℓ ↦{shK} f) ∗ (ℓ ↦{shC 0} f) ∗ (ℓ ↦{shC 1} f)) := by
  refine (Transfers.pointsTo_toks_split fullShare 2).trans ?_
  rw [bigSep_univ_two]

omit [FloatOps F] in
theorem pts3_join (ℓ : Loc nD τ sig) (f : Buf (Elt F) ℓ) :
    iprop((ℓ ↦{shK} f) ∗ (ℓ ↦{shC 0} f) ∗ (ℓ ↦{shC 1} f)) ⊢ (ℓ ↦{fullShare} f : sProp 𝕄) := by
  refine BI.Entails.trans ?_ (Transfers.pointsTo_toks_join fullShare 2)
  rw [bigSep_univ_two]
  exact BI.Entails.refl _

omit [FloatOps F] in
theorem sep3_mono {A A1 A2 A3 B B1 B2 B3 : sProp 𝕄} (hA : A ⊢ iprop(A1 ∗ A2 ∗ A3)) (hB : B ⊢ iprop(B1 ∗ B2 ∗ B3)) :
    iprop(A ∗ B) ⊢ iprop((A1 ∗ B1) ∗ (A2 ∗ B2) ∗ (A3 ∗ B3)) := by
  iintro ⟨HA, HB⟩
  ihave HA' := hA $$ HA
  ihave HB' := hB $$ HB
  icases HA' with ⟨H1, H2, H3⟩
  icases HB' with ⟨G1, G2, G3⟩
  isplitl [H1 G1]; · isplitl [H1] <;> iassumption
  isplitl [H2 G2]; · isplitl [H2] <;> iassumption
  isplitl [H3] <;> iassumption

omit [FloatOps F] in
theorem sep3_join {A A1 A2 A3 B B1 B2 B3 : sProp 𝕄} (hA : iprop(A1 ∗ A2 ∗ A3) ⊢ A) (hB : iprop(B1 ∗ B2 ∗ B3) ⊢ B) :
    iprop((A1 ∗ B1) ∗ (A2 ∗ B2) ∗ (A3 ∗ B3)) ⊢ iprop(A ∗ B) := by
  iintro ⟨⟨H1, G1⟩, ⟨H2, G2⟩, ⟨H3, G3⟩⟩
  isplitl [H1 H2 H3]
  · iapply hA; isplitl [H1]; · iexact H1
    isplitl [H2] <;> iassumption
  · iapply hB; isplitl [G1]; · iexact G1
    isplitl [G2] <;> iassumption

omit [FloatOps F] in
/-- The sequences' full shares split into the share kept and one per SparseCore; -/
theorem args_split (d : Dev nD) :
    argsAt m fullShare d ⊢ (iprop(argsAt m shK d ∗ argsAt m (shC 0) d ∗ argsAt m (shC 1) d) : sProp 𝕄) := by
  unfold argsAt
  exact (sep3_mono (pts3_split _ _) (sep3_mono (pts3_split _ _) (sep3_mono (pts3_split _ _) (sep3_mono (pts3_split _ _) (sep3_mono (pts3_split _ _) (sep3_mono (pts3_split _ _) (sep3_mono (pts3_split _ _) (sep3_mono (pts3_split _ _) (sep3_mono (pts3_split _ _) (sep3_mono (pts3_split _ _) (sep3_mono (pts3_split _ _) (sep3_mono (pts3_split _ _) (sep3_mono (pts3_split _ _) (sep3_mono (pts3_split _ _) (sep3_mono (pts3_split _ _) (pts3_split _ _))))))))))))))))

omit [FloatOps F] in
/-- and join again. -/
theorem args_join (d : Dev nD) :
    (iprop(argsAt m shK d ∗ argsAt m (shC 0) d ∗ argsAt m (shC 1) d) : sProp 𝕄) ⊢ argsAt m fullShare d := by
  unfold argsAt
  exact (sep3_join (pts3_join _ _) (sep3_join (pts3_join _ _) (sep3_join (pts3_join _ _) (sep3_join (pts3_join _ _) (sep3_join (pts3_join _ _) (sep3_join (pts3_join _ _) (sep3_join (pts3_join _ _) (sep3_join (pts3_join _ _) (sep3_join (pts3_join _ _) (sep3_join (pts3_join _ _) (sep3_join (pts3_join _ _) (sep3_join (pts3_join _ _) (sep3_join (pts3_join _ _) (sep3_join (pts3_join _ _) (sep3_join (pts3_join _ _) (pts3_join _ _))))))))))))))))

omit [FloatOps F] in
theorem blocks_disjoint : ∀ i ∈ (Finset.univ : Finset (Fin 32)), ∀ j ∈ (Finset.univ : Finset (Fin 32)), i ≠ j → Disjoint (blkSet i) (blkSet j) :=
  fun _ _ _ _ h => Rect.part_disjoint hdiv32 h
omit [FloatOps F] in
theorem blocks_cover : (Finset.univ : Finset (Fin 32)).biUnion blkSet = Finset.univ := Rect.biUnion_part hdiv32

/-- Block `2 s + c` for SparseCore `c` and subcore `s`: the thirty-two blocks, each once. -/
def blkEquiv : Fin 2 × Fin 16 ≃ Fin 32 where
  toFun x := bIx x.1 x.2
  invFun b := (⟨b.val % 2, Nat.mod_lt _ (by decide)⟩, ⟨b.val / 2, by have := b.isLt; omega⟩)
  left_inv := fun ⟨c, s⟩ => by
    have hc := c.isLt
    apply Prod.ext
    · apply Fin.ext; show (2 * s.val + c.val) % 2 = c.val; omega
    · apply Fin.ext; show (2 * s.val + c.val) / 2 = s.val; omega
  right_inv := fun b => by apply Fin.ext; show 2 * (b.val / 2) + b.val % 2 = b.val; omega

omit [FloatOps F] in
set_option maxRecDepth 16384 in
/-- The flat output whole is its thirty-two blocks, grouped by SparseCore. -/
theorem oPts_blocks (d : Dev nD) (f : Buf (Elt F) (oLoc d)) :
    (oLoc d ↦{fullShare} f : sProp 𝕄)
      = iprop((bigSep Finset.univ fun s : Fin 16 => oLoc d ↦[blkSet (bIx 0 s)]{fullShare} f)
          ∗ bigSep Finset.univ fun s : Fin 16 => oLoc d ↦[blkSet (bIx 1 s)]{fullShare} f) := by
  have h1 : (oLoc d ↦[(Finset.univ : Finset (Fin 32)).biUnion blkSet]{fullShare} f : sProp 𝕄) = _ :=
    pointsTo_biUnion (ℓ := oLoc d) (q := fullShare) (f := f) Finset.univ blkSet blocks_disjoint
  rw [blocks_cover] at h1
  refine h1.trans ?_
  rw [bigSep_univ_equiv blkEquiv, bigSep_univ_prod, bigSep_univ_two]
  rfl

theorem P_st (d : Dev nD) (c : Fin ((K (F := F)).nCore 0)) :
    (P m).st 0 d c = iprop(argsAt m (shC (Fin.cast nCore_zero c)) d ∗ bigSep Finset.univ fun s : Fin 16 => oLoc d ↦[blkSet (bIx (Fin.cast nCore_zero c) s)]{fullShare} m (oLoc d)) := by
  unfold P; rfl
theorem P_dn (d : Dev nD) (c : Fin ((K (F := F)).nCore 0)) :
    (P m).dn 0 d c = iprop(argsAt m (shC (Fin.cast nCore_zero c)) d ∗ bigSep Finset.univ fun s : Fin 16 => oLoc d ↦[blkSet (bIx (Fin.cast nCore_zero c) s)]{fullShare} flat m d) := by
  unfold P; rfl

/-- What the call takes for the two SparseCores, and what it hands back. -/
theorem st0_eq (d : Dev nD) : (bigSep Finset.univ fun c : Fin ((K (F := F)).nCore 0) => (P m).st 0 d c)
    = iprop((argsAt m (shC 0) d ∗ bigSep Finset.univ fun s : Fin 16 => oLoc d ↦[blkSet (bIx 0 s)]{fullShare} m (oLoc d))
        ∗ (argsAt m (shC 1) d ∗ bigSep Finset.univ fun s : Fin 16 => oLoc d ↦[blkSet (bIx 1 s)]{fullShare} m (oLoc d))) := by
  show (bigSep (Finset.univ : Finset (Fin 2)) fun c => (P m).st 0 d c) = _
  rw [bigSep_univ_two, P_st, P_st]
  rfl
theorem dn0_eq (d : Dev nD) : (bigSep Finset.univ fun c : Fin ((K (F := F)).nCore 0) => (P m).dn 0 d c)
    = iprop((argsAt m (shC 0) d ∗ bigSep Finset.univ fun s : Fin 16 => oLoc d ↦[blkSet (bIx 0 s)]{fullShare} flat m d)
        ∗ (argsAt m (shC 1) d ∗ bigSep Finset.univ fun s : Fin 16 => oLoc d ↦[blkSet (bIx 1 s)]{fullShare} flat m d)) := by
  show (bigSep (Finset.univ : Finset (Fin 2)) fun c => (P m).dn 0 d c) = _
  rw [bigSep_univ_two, P_dn, P_dn]
  rfl

/-! ## @main on the TensorCore -/

abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev c' : DevRef τ sig := Proc.devRef .tc (main_c : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)

abbrev opRe : HloOp τ sig (Elt F) := StableHlo.reshape main_v0 main_v1 rfl shapeCasts_S65536x512_S16x4096x512
abbrev op1 : HloOp τ sig (Elt F) := StableHlo.nullary main_c (constantI S_ 32 0#32)
abbrev op2 : HloOp τ sig (Elt F) := StableHlo.unary main_c main_v3 (broadcastInDim S16x4096 ![] bcast_S_S16x4096 : (⟨S_, .i32⟩ : BufTy).Contents (Elt F) → (⟨S16x4096, .i32⟩ : BufTy).Contents (Elt F))
abbrev op3 : HloOp τ sig (Elt F) := StableHlo.binary main_v2 main_v3 main_v4 (cmpi .ne : (⟨S16x4096, .i32⟩ : BufTy).Contents (Elt F) → (⟨S16x4096, .i32⟩ : BufTy).Contents (Elt F) → (⟨S16x4096, .i1⟩ : BufTy).Contents (Elt F))
abbrev op4 : HloOp τ sig (Elt F) := StableHlo.unary main_v4 main_v5 (id : (⟨S16x4096, .i1⟩ : BufTy).Contents (Elt F) → (⟨S16x4096, .i1⟩ : BufTy).Contents (Elt F))

/-- The reshape's two arrays; the five arrays of the mask's host operations. -/
abbrev S01 : Finset (DevRef τ sig) := {v0', v1'}
abbrev S5 : Finset (DevRef τ sig) := {c', v3', v2', v4', v5'}

omit [FloatOps F] in
theorem held_S01 (d : Dev nD) (W : Valuation τ sig (Elt F)) :
    (held (T d) S01 W : sProp 𝕄) = iprop((oLoc d ↦{fullShare} W v0') ∗ (SparseCore.T d : Thread nD τ).loc main_v1 ↦{fullShare} W v1') := by
  unfold held S01
  rw [SparseCore.bigSep_insert' (by decide), bigSep_singleton]

omit [FloatOps F] in
theorem held_S5 (d : Dev nD) (W : Valuation τ sig (Elt F)) :
    (held (T d) S5 W : sProp 𝕄) = iprop(((SparseCore.T d : Thread nD τ).loc main_c ↦{fullShare} W c') ∗ ((SparseCore.T d : Thread nD τ).loc main_v3 ↦{fullShare} W v3')
      ∗ ((SparseCore.T d : Thread nD τ).loc main_v2 ↦{fullShare} W v2') ∗ ((SparseCore.T d : Thread nD τ).loc main_v4 ↦{fullShare} W v4') ∗ (SparseCore.T d : Thread nD τ).loc main_v5 ↦{fullShare} W v5') := by
  unfold held S5
  rw [SparseCore.bigSep_insert' (by decide), SparseCore.bigSep_insert' (by decide), SparseCore.bigSep_insert' (by decide), SparseCore.bigSep_insert' (by decide), bigSep_singleton]

theorem hRe : (opRe (F := F)).bufs ⊆ S01 := show ({v0', v1'} : Finset (DevRef τ sig)) ⊆ S01 by decide
theorem h1 : (op1 (F := F)).bufs ⊆ S5 := show ({c'} : Finset (DevRef τ sig)) ⊆ S5 by decide
theorem h2 : (op2 (F := F)).bufs ⊆ S5 := show ({c', v3'} : Finset (DevRef τ sig)) ⊆ S5 by decide
theorem h3 : (op3 (F := F)).bufs ⊆ S5 := show ({v2', v3', v4'} : Finset (DevRef τ sig)) ⊆ S5 by decide
theorem h4 : (op4 (F := F)).bufs ⊆ S5 := show ({v4', v5'} : Finset (DevRef τ sig)) ⊆ S5 by decide

/-- The launch contents; with the flat output at what the call left; with the mask's array at what the region left. -/
def V0 (d : Dev nD) : Valuation τ sig (Elt F) := fun b => m (d, b)
def V1 (d : Dev nD) : Valuation τ sig (Elt F) := Function.update (V0 m d) v0' (flat m d)
def V2 (d : Dev nD) : Valuation τ sig (Elt F) := Function.update (V0 m d) v2' (maskWords d)

theorem V1_v0 (d : Dev nD) : V1 m d v0' = flat m d := Function.update_self _ _ _
theorem V1_v1 (d : Dev nD) : V1 m d v1' = m ((SparseCore.T d : Thread nD τ).loc main_v1) := Function.update_of_ne (show v1' ≠ v0' by decide) _ _
theorem V2_v2 (d : Dev nD) : V2 m d v2' = maskWords d := Function.update_self _ _ _
theorem V2_c (d : Dev nD) : V2 m d c' = m ((SparseCore.T d : Thread nD τ).loc main_c) := Function.update_of_ne (show c' ≠ v2' by decide) _ _
theorem V2_v3 (d : Dev nD) : V2 m d v3' = m ((SparseCore.T d : Thread nD τ).loc main_v3) := Function.update_of_ne (show v3' ≠ v2' by decide) _ _
theorem V2_v4 (d : Dev nD) : V2 m d v4' = m ((SparseCore.T d : Thread nD τ).loc main_v4) := Function.update_of_ne (show v4' ≠ v2' by decide) _ _
theorem V2_v5 (d : Dev nD) : V2 m d v5' = m ((SparseCore.T d : Thread nD τ).loc main_v5) := Function.update_of_ne (show v5' ≠ v2' by decide) _ _

/-- After the reshape: the flat output as it was, the first result the padded sequences. -/
theorem re_v0 (d : Dev nD) : (opRe (F := F)).result (V1 m d) v0' = flat m d := by
  rw [HloOp.result_of_not_mem _ _ (show v0' ∉ ({v1'} : Finset (DevRef τ sig)) by decide)]; exact V1_v0 m d
theorem re_v1 (d : Dev nD) : (opRe (F := F)).result (V1 m d) v1' = pad3m m d := by
  refine (StableHlo.reshape_result _ _ _ _ _ _ (V1 m d)).trans ?_
  rw [V1_v0]
  exact Cert.Spec.pad3_of_flat _ _ _ _ _ _ _ _ _ _ _ _ _ _ _ _ _ _
theorem held_re (d : Dev nD) :
    (held (T d) S01 ((opRe (F := F)).result (V1 m d)) : sProp 𝕄) = iprop((oLoc d ↦{fullShare} flat m d) ∗ (SparseCore.T d : Thread nD τ).loc main_v1 ↦{fullShare} pad3m m d) := by
  rw [held_S01, re_v0, re_v1]

/-- After the four host operations the second result is the padding mask. -/
theorem fin_v5 (d : Dev nD) :
    (op4 (F := F)).result ((op3 (F := F)).result ((op2 (F := F)).result ((op1 (F := F)).result (V2 m d)))) v5' = (Cert.Spec.mask2 : Buf (Elt F) ((SparseCore.T d : Thread nD τ).loc main_v5)) := by
  rw [StableHlo.unary_result, StableHlo.binary_result, StableHlo.unary_result_ne (h := show main_v2 ≠ main_v3 by decide),
    StableHlo.nullary_result_ne (h := show main_v2 ≠ main_c by decide), StableHlo.unary_result, StableHlo.nullary_result, V2_v2]
  exact Cert.Proof.MaskValue.mask_eq iota_S16x4096_d1_w32 iota_S16x4096_d0_w32 natLt_1_32 bcast_S_S16x4096
theorem held_fin (d : Dev nD) :
    (held (T d) S5 ((op4 (F := F)).result ((op3 (F := F)).result ((op2 (F := F)).result ((op1 (F := F)).result (V2 m d))))) : sProp 𝕄)
      ⊢ (SparseCore.T d : Thread nD τ).loc main_v5 ↦{fullShare} (Cert.Spec.mask2 : Buf (Elt F) ((SparseCore.T d : Thread nD τ).loc main_v5)) := by
  unfold held
  refine (bigSep_elim (show v5' ∈ S5 by decide)).trans ?_
  rw [fin_v5]
  exact BI.Entails.refl _

/-- What @main leaves the claim: the sequences as launched, the padded sequences, the padding mask. -/
abbrev FIN (d : Dev nD) : sProp 𝕄 :=
  iprop(argsAt m fullShare d ∗ ((SparseCore.T d : Thread nD τ).loc main_v1 ↦{fullShare} pad3m m d)
    ∗ (SparseCore.T d : Thread nD τ).loc main_v5 ↦{fullShare} (Cert.Spec.mask2 : Buf (Elt F) ((SparseCore.T d : Thread nD τ).loc main_v5)))

omit [FloatOps F] in
/-- Once its one call is over the TensorCore owes nothing: its handshake state yields that, and takes it back. -/
theorem tcSt_owes (d : Dev nD) :
    (K (F := F)).tcSt EH d 1 ⊢ (iprop(owesT d ∗ (owesT d -∗ (K (F := F)).tcSt EH d 1)) : sProp 𝕄) := by
  unfold SparseCore.Cfg.tcSt
  rw [(K (F := F)).Otc_end d (le_refl 1)]
  iintro ⟨HO, Hrest⟩
  isplitl [HO]; · iexact HO
  iintro HO
  isplitl [HO]; · iexact HO
  iexact Hrest

set_option backward.isDefEq.respectTransparency.types false in
/-- @main on device `d`'s TensorCore: the SparseCore call (each SparseCore handed a read share of the sequences and its
    sixteen blocks of the flat output, the blocks handed back at the padded array), the reshape, the mask region, the
    four host operations that turn its words into the mask. -/
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  simp only [main, wp_bind, wp_pure]
  iintro ⟨#Hctx, Hst, ⟨Hb, Hub, -, -⟩, ⟨Hg, Ht⟩⟩
  ihave Hu := (unscoped_split m d) $$ Hub
  icases Hu with ⟨Hargs, Hv0, Hv1, Hv2, Hc, Hv3, Hv4, Hv5⟩
  ihave Hs := (args_split m d) $$ Hargs
  icases Hs with ⟨HaK, Ha0, Ha1⟩
  ihave Hbl := (Entails.of_eq (oPts_blocks d (m (oLoc d)))) $$ Hv0
  icases Hbl with ⟨Hb0, Hb1⟩
  -- the call: a share of the sequences and sixteen blocks to each SparseCore, and back
  iapply ((K (F := F)).wp_run (D (F := F)) 𝒱 (EH := EH) (P := P m) κ d 0)
  isplitr; · iexact Hctx
  isplitl [Hst]; · iexact Hst
  isplitl [Ha0 Ha1 Hb0 Hb1]
  · rw [st0_eq]
    isplitl [Ha0 Hb0]; · isplitl [Ha0] <;> iassumption
    isplitl [Ha1] <;> iassumption
  iintro ⟨Hst, Hdn⟩
  ihave Hst := (show ((K (F := F)).tcSt EH d ((0 : Fin 1).val + 1) : sProp 𝕄) ⊢ (K (F := F)).tcSt EH d 1 from BI.Entails.refl _) $$ Hst
  ihave Hdn' := (Entails.of_eq (dn0_eq m d)) $$ Hdn
  icases Hdn' with ⟨⟨Ha0, Hb0⟩, ⟨Ha1, Hb1⟩⟩
  ihave Hv0 := (Entails.of_eq (oPts_blocks d (flat m d)).symm) $$ [Hb0 Hb1]
  · isplitl [Hb0] <;> iassumption
  ihave Hargs := (args_join m d) $$ [HaK Ha0 Ha1]
  · isplitl [HaK]; · iexact HaK
    isplitl [Ha0] <;> iassumption
  -- the reshape
  iapply (wp_hlo_within 𝒱 (SparseCore.T d) none Set.univ (op := opRe) (S := S01) hRe (V := V1 m d)) $$ [Hb Hv0 Hv1]
  · isplitl [Hb]; · iexact Hb
    rw [held_S01, V1_v0, V1_v1]
    isplitl [Hv0] <;> iassumption
  iintro ⟨Hb, Hheld⟩
  ihave Hh := (Entails.of_eq (held_re m d)) $$ Hheld
  icases Hh with ⟨-, Hv1⟩
  rw [wp_ret]; imodintro
  -- the mask region
  ihave Hst' := (tcSt_owes d) $$ Hst
  icases Hst' with ⟨HO, Hback⟩
  iapply ((K (F := F)).wp_liftProg (D (F := F)) 𝒱 (SparseCore.T d) Set.univ none (p := Prog.op (TpuEff.customCall (Pipeline.entry (0 : Fin 1)) ()) Prog.ret))
  iapply (Pipeline.RegionSeg.wp (pcfgs (F := F)) adm (dats m) (none : HIx 1) cellOf_inj EP defs₀ 𝒱₀ (LL (F := F)) (lvv (F := F)) (reg0 m) d none (by intro u h; cases h) Prog.ret _)
  isplitr [Hb Hv2 HO Hg Ht]
  swap
  · isplitl [Hb]; · iexact Hb
    rw [reg0_pre]
    isplitl [Hv2 HO]; · isplitl [Hv2] <;> iassumption
    isplitr; · iapply (SparseCore.Cfg.ctx_levAts κ); iexact Hctx
    isplitl [Hg] <;> iassumption
  rw [reg0_post]
  iintro ⟨Hb, Hv2, HO⟩
  ihave Hst := Hback $$ HO
  rw [wp_ret]; imodintro
  -- the mask's host operations
  iapply (wp_hlo_within 𝒱 (SparseCore.T d) none Set.univ (op := op1) (S := S5) h1 (V := V2 m d)) $$ [Hb Hc Hv3 Hv2 Hv4 Hv5]
  · isplitl [Hb]; · iexact Hb
    rw [held_S5, V2_c, V2_v3, V2_v2, V2_v4, V2_v5]
    isplitl [Hc]; · iexact Hc
    isplitl [Hv3]; · iexact Hv3
    isplitl [Hv2]; · iexact Hv2
    isplitl [Hv4] <;> iassumption
  iintro H
  rw [wp_ret]; imodintro
  iapply (wp_hlo_within 𝒱 (SparseCore.T d) none Set.univ (op := op2) (S := S5) h2) $$ H
  iintro H
  rw [wp_ret]; imodintro
  iapply (wp_hlo_within 𝒱 (SparseCore.T d) none Set.univ (op := op3) (S := S5) h3) $$ H
  iintro H
  rw [wp_ret]; imodintro
  iapply (wp_hlo_within 𝒱 (SparseCore.T d) none Set.univ (op := op4) (S := S5) h4) $$ H
  iintro ⟨Hb, Hheld⟩
  rw [wp_ret]; imodintro; imodintro
  isplitl [Hst]; · iexact Hst
  isplitl [Hargs]; · iexact Hargs
  isplitl [Hv1]; · iexact Hv1
  iapply (held_fin m d); iexact Hheld

/-! ## The final memory, the program's run -/

def fq (d : Dev nD) (s' : Phys nD τ sig (Elt F)) : Prop :=
  s'.mem.mem ((SparseCore.T d : Thread nD τ).loc main_v1) = pad3m m d ∧ s'.mem.mem ((SparseCore.T d : Thread nD τ).loc main_v5) = Cert.Spec.mask2
    ∧ s'.mem.mem (aLoc0 d) = m (aLoc0 d) ∧ s'.mem.mem (aLoc1 d) = m (aLoc1 d) ∧ s'.mem.mem (aLoc2 d) = m (aLoc2 d) ∧ s'.mem.mem (aLoc3 d) = m (aLoc3 d) ∧ s'.mem.mem (aLoc4 d) = m (aLoc4 d) ∧ s'.mem.mem (aLoc5 d) = m (aLoc5 d) ∧ s'.mem.mem (aLoc6 d) = m (aLoc6 d) ∧ s'.mem.mem (aLoc7 d) = m (aLoc7 d) ∧ s'.mem.mem (aLoc8 d) = m (aLoc8 d) ∧ s'.mem.mem (aLoc9 d) = m (aLoc9 d) ∧ s'.mem.mem (aLoc10 d) = m (aLoc10 d) ∧ s'.mem.mem (aLoc11 d) = m (aLoc11 d) ∧ s'.mem.mem (aLoc12 d) = m (aLoc12 d) ∧ s'.mem.mem (aLoc13 d) = m (aLoc13 d) ∧ s'.mem.mem (aLoc14 d) = m (aLoc14 d) ∧ s'.mem.mem (aLoc15 d) = m (aLoc15 d)

theorem hfin (d : Dev nD) (s' : Phys nD τ sig (Elt F)) : iprop(FIN m d ∗ SI s') ⊢ (⌜fq m d s'⌝ : sProp 𝕄) := by
  unfold FIN argsAt
  iintro ⟨⟨⟨A0, A1, A2, A3, A4, A5, A6, A7, A8, A9, A10, A11, A12, A13, A14, A15⟩, Hv1, Hv5⟩, HSI⟩
  ihave H := (persistent_entails_right (SI_pointsTo_agree (st := s') (ℓ := (SparseCore.T d : Thread nD τ).loc main_v1) (I := Finset.univ) (q := fullShare) (f := pad3m m d))) $$ [HSI Hv1]
  · isplitl [HSI] <;> iassumption
  icases H with ⟨%hv1, HSI, -⟩
  ihave H := (persistent_entails_right (SI_pointsTo_agree (st := s') (ℓ := (SparseCore.T d : Thread nD τ).loc main_v5) (I := Finset.univ) (q := fullShare) (f := (Cert.Spec.mask2 : Buf (Elt F) ((SparseCore.T d : Thread nD τ).loc main_v5))))) $$ [HSI Hv5]
  · isplitl [HSI] <;> iassumption
  icases H with ⟨%hv5, HSI, -⟩
  ihave H := (persistent_entails_right (SI_pointsTo_agree (st := s') (ℓ := aLoc0 d) (I := Finset.univ) (q := fullShare) (f := m (aLoc0 d)))) $$ [HSI A0]
  · isplitl [HSI] <;> iassumption
  icases H with ⟨%ha0, HSI, -⟩
  ihave H := (persistent_entails_right (SI_pointsTo_agree (st := s') (ℓ := aLoc1 d) (I := Finset.univ) (q := fullShare) (f := m (aLoc1 d)))) $$ [HSI A1]
  · isplitl [HSI] <;> iassumption
  icases H with ⟨%ha1, HSI, -⟩
  ihave H := (persistent_entails_right (SI_pointsTo_agree (st := s') (ℓ := aLoc2 d) (I := Finset.univ) (q := fullShare) (f := m (aLoc2 d)))) $$ [HSI A2]
  · isplitl [HSI] <;> iassumption
  icases H with ⟨%ha2, HSI, -⟩
  ihave H := (persistent_entails_right (SI_pointsTo_agree (st := s') (ℓ := aLoc3 d) (I := Finset.univ) (q := fullShare) (f := m (aLoc3 d)))) $$ [HSI A3]
  · isplitl [HSI] <;> iassumption
  icases H with ⟨%ha3, HSI, -⟩
  ihave H := (persistent_entails_right (SI_pointsTo_agree (st := s') (ℓ := aLoc4 d) (I := Finset.univ) (q := fullShare) (f := m (aLoc4 d)))) $$ [HSI A4]
  · isplitl [HSI] <;> iassumption
  icases H with ⟨%ha4, HSI, -⟩
  ihave H := (persistent_entails_right (SI_pointsTo_agree (st := s') (ℓ := aLoc5 d) (I := Finset.univ) (q := fullShare) (f := m (aLoc5 d)))) $$ [HSI A5]
  · isplitl [HSI] <;> iassumption
  icases H with ⟨%ha5, HSI, -⟩
  ihave H := (persistent_entails_right (SI_pointsTo_agree (st := s') (ℓ := aLoc6 d) (I := Finset.univ) (q := fullShare) (f := m (aLoc6 d)))) $$ [HSI A6]
  · isplitl [HSI] <;> iassumption
  icases H with ⟨%ha6, HSI, -⟩
  ihave H := (persistent_entails_right (SI_pointsTo_agree (st := s') (ℓ := aLoc7 d) (I := Finset.univ) (q := fullShare) (f := m (aLoc7 d)))) $$ [HSI A7]
  · isplitl [HSI] <;> iassumption
  icases H with ⟨%ha7, HSI, -⟩
  ihave H := (persistent_entails_right (SI_pointsTo_agree (st := s') (ℓ := aLoc8 d) (I := Finset.univ) (q := fullShare) (f := m (aLoc8 d)))) $$ [HSI A8]
  · isplitl [HSI] <;> iassumption
  icases H with ⟨%ha8, HSI, -⟩
  ihave H := (persistent_entails_right (SI_pointsTo_agree (st := s') (ℓ := aLoc9 d) (I := Finset.univ) (q := fullShare) (f := m (aLoc9 d)))) $$ [HSI A9]
  · isplitl [HSI] <;> iassumption
  icases H with ⟨%ha9, HSI, -⟩
  ihave H := (persistent_entails_right (SI_pointsTo_agree (st := s') (ℓ := aLoc10 d) (I := Finset.univ) (q := fullShare) (f := m (aLoc10 d)))) $$ [HSI A10]
  · isplitl [HSI] <;> iassumption
  icases H with ⟨%ha10, HSI, -⟩
  ihave H := (persistent_entails_right (SI_pointsTo_agree (st := s') (ℓ := aLoc11 d) (I := Finset.univ) (q := fullShare) (f := m (aLoc11 d)))) $$ [HSI A11]
  · isplitl [HSI] <;> iassumption
  icases H with ⟨%ha11, HSI, -⟩
  ihave H := (persistent_entails_right (SI_pointsTo_agree (st := s') (ℓ := aLoc12 d) (I := Finset.univ) (q := fullShare) (f := m (aLoc12 d)))) $$ [HSI A12]
  · isplitl [HSI] <;> iassumption
  icases H with ⟨%ha12, HSI, -⟩
  ihave H := (persistent_entails_right (SI_pointsTo_agree (st := s') (ℓ := aLoc13 d) (I := Finset.univ) (q := fullShare) (f := m (aLoc13 d)))) $$ [HSI A13]
  · isplitl [HSI] <;> iassumption
  icases H with ⟨%ha13, HSI, -⟩
  ihave H := (persistent_entails_right (SI_pointsTo_agree (st := s') (ℓ := aLoc14 d) (I := Finset.univ) (q := fullShare) (f := m (aLoc14 d)))) $$ [HSI A14]
  · isplitl [HSI] <;> iassumption
  icases H with ⟨%ha14, HSI, -⟩
  ihave H := (persistent_entails_right (SI_pointsTo_agree (st := s') (ℓ := aLoc15 d) (I := Finset.univ) (q := fullShare) (f := m (aLoc15 d)))) $$ [HSI A15]
  · isplitl [HSI] <;> iassumption
  icases H with ⟨%ha15, HSI, -⟩
  ipureintro
  exact ⟨funext fun i => hv1 i (Finset.mem_univ i), funext fun i => hv5 i (Finset.mem_univ i), funext fun i => ha0 i (Finset.mem_univ i), funext fun i => ha1 i (Finset.mem_univ i), funext fun i => ha2 i (Finset.mem_univ i), funext fun i => ha3 i (Finset.mem_univ i), funext fun i => ha4 i (Finset.mem_univ i), funext fun i => ha5 i (Finset.mem_univ i), funext fun i => ha6 i (Finset.mem_univ i), funext fun i => ha7 i (Finset.mem_univ i), funext fun i => ha8 i (Finset.mem_univ i), funext fun i => ha9 i (Finset.mem_univ i), funext fun i => ha10 i (Finset.mem_univ i), funext fun i => ha11 i (Finset.mem_univ i), funext fun i => ha12 i (Finset.mem_univ i), funext fun i => ha13 i (Finset.mem_univ i), funext fun i => ha14 i (Finset.mem_univ i), funext fun i => ha15 i (Finset.mem_univ i)⟩

/-- The claim's post: on every device the two results and the sixteen sequences. -/
def QC : PUnit × MemSt nD τ sig (Elt F) → Prop := fun r => ∀ c : Dev nD,
  r.2.mem ((c.tc : Thread nD τ).loc main_v1) = pad3m m c ∧ r.2.mem ((c.tc : Thread nD τ).loc main_v5) = Cert.Spec.mask2
    ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13) ∧ r.2.mem ((c.tc : Thread nD τ).loc main_arg14) = m ((c.tc : Thread nD τ).loc main_arg14) ∧ r.2.mem ((c.tc : Thread nD τ).loc main_arg15) = m ((c.tc : Thread nD τ).loc main_arg15)

/-- From a memory with zero counters every weakly fair execution of the program's threads terminates, and every final
    memory holds the padded sequences, the padding mask and the sequences unchanged — given the vector subcores' task
    and the split of a SparseCore's operands among them. -/
theorem run_main [∀ e, Nonempty (Elt F e)] (htile : (K (F := F)).TileObl (D (F := F)) 𝒱 (P m) v₀ 0) (hvec : (K (F := F)).VecSplit' (P m) 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain hvec)
    m ρ main (G (F := F)) (FIN m) (u₀ (F := F)) (sep_elim_left.trans (hu₀ m)) (hmain m ρ) (fq m) (hfin m) (QC m) (fun _ h => h)

end Cert.Proof.KB

end
-- ==== Proof.KBArith.lean ====
/-
  The printed index arithmetic in closed form.

  At grid point `i` (`i 0` the SparseCore `c`, `i 1` the subcore `s`) the task copies
  `ncopy i = min 2048 (4096 − 256 s − 2048 c)` rows. The `k`-th conditional holds exactly when `s = k`; its copying
  loop makes `ncopy i / 64` trips, trip `t` reading rows `2048 c + 64 t` onwards of the sequence and writing rows
  `4096 s + 2048 c + 64 t` onwards of the output; the loop after it (the remainder of an unrolling by one) makes none.
  The zero-filling loop makes `(2048 − ncopy i) / 64` trips, trip `t` writing rows `4096 s + 2048 c + ncopy i + 64 t` onwards.
  Each fact is decided over the 32 grid points and the loop's trips.
-/
import proofs.«212850_g39865886441476_cont_8to1_b_277_5_alg».proof.Proof.Gen.Kernel
import Idealize.ShloMosaic.Lib.Decide

set_option synthInstance.maxSize 4096
set_option Elab.async false

namespace Cert.Proof.KB

open Cert.Kernel Cert.Kernel.Gen Idealize.ShloMosaic

/-- The number of rows the task at `i` copies. -/
def ncopy (i : grid0.Coords) : Nat := min 2048 (4096 - 256 * (i 1).val - 2048 * (i 0).val)

theorem cond1_iff : ∀ i : grid0.Coords, k0_cond1 i = 1#1 ↔ (i 1).val = 0 := by decide +kernel
theorem trips3 : ∀ i : grid0.Coords, (k0_t3_loop i).trips = ncopy i / 64 := by decide +kernel
theorem trips4 : ∀ i : grid0.Coords, (k0_t4_loop i).trips = 0 := fun i => Nat.le_zero.mp (k0_t4_abs i).2.1
theorem off2_eq : ∀ (i : grid0.Coords) (t : Fin (k0_t3_loop i).trips), k0_off2 i t = ![2048 * (i 0).val + 64 * t.val, 0] := by decide +kernel
theorem off3_eq : ∀ (i : grid0.Coords) (t : Fin (k0_t3_loop i).trips), k0_off3 i t = ![4096 * (i 1).val + 2048 * (i 0).val + 64 * t.val, 0] := by decide +kernel
theorem cond2_iff : ∀ i : grid0.Coords, k0_cond2 i = 1#1 ↔ (i 1).val = 1 := by decide +kernel
theorem trips5 : ∀ i : grid0.Coords, (k0_t5_loop i).trips = ncopy i / 64 := by decide +kernel
theorem trips6 : ∀ i : grid0.Coords, (k0_t6_loop i).trips = 0 := fun i => Nat.le_zero.mp (k0_t6_abs i).2.1
theorem off6_eq : ∀ (i : grid0.Coords) (t : Fin (k0_t5_loop i).trips), k0_off6 i t = ![2048 * (i 0).val + 64 * t.val, 0] := by decide +kernel
theorem off7_eq : ∀ (i : grid0.Coords) (t : Fin (k0_t5_loop i).trips), k0_off7 i t = ![4096 * (i 1).val + 2048 * (i 0).val + 64 * t.val, 0] := by decide +kernel
theorem cond3_iff : ∀ i : grid0.Coords, k0_cond3 i = 1#1 ↔ (i 1).val = 2 := by decide +kernel
theorem trips7 : ∀ i : grid0.Coords, (k0_t7_loop i).trips = ncopy i / 64 := by decide +kernel
theorem trips8 : ∀ i : grid0.Coords, (k0_t8_loop i).trips = 0 := fun i => Nat.le_zero.mp (k0_t8_abs i).2.1
theorem off10_eq : ∀ (i : grid0.Coords) (t : Fin (k0_t7_loop i).trips), k0_off10 i t = ![2048 * (i 0).val + 64 * t.val, 0] := by decide +kernel
theorem off11_eq : ∀ (i : grid0.Coords) (t : Fin (k0_t7_loop i).trips), k0_off11 i t = ![4096 * (i 1).val + 2048 * (i 0).val + 64 * t.val, 0] := by decide +kernel
theorem cond4_iff : ∀ i : grid0.Coords, k0_cond4 i = 1#1 ↔ (i 1).val = 3 := by decide +kernel
theorem trips9 : ∀ i : grid0.Coords, (k0_t9_loop i).trips = ncopy i / 64 := by decide +kernel
theorem trips10 : ∀ i : grid0.Coords, (k0_t10_loop i).trips = 0 := fun i => Nat.le_zero.mp (k0_t10_abs i).2.1
theorem off14_eq : ∀ (i : grid0.Coords) (t : Fin (k0_t9_loop i).trips), k0_off14 i t = ![2048 * (i 0).val + 64 * t.val, 0] := by decide +kernel
theorem off15_eq : ∀ (i : grid0.Coords) (t : Fin (k0_t9_loop i).trips), k0_off15 i t = ![4096 * (i 1).val + 2048 * (i 0).val + 64 * t.val, 0] := by decide +kernel
theorem cond5_iff : ∀ i : grid0.Coords, k0_cond5 i = 1#1 ↔ (i 1).val = 4 := by decide +kernel
theorem trips11 : ∀ i : grid0.Coords, (k0_t11_loop i).trips = ncopy i / 64 := by decide +kernel
theorem trips12 : ∀ i : grid0.Coords, (k0_t12_loop i).trips = 0 := fun i => Nat.le_zero.mp (k0_t12_abs i).2.1
theorem off18_eq : ∀ (i : grid0.Coords) (t : Fin (k0_t11_loop i).trips), k0_off18 i t = ![2048 * (i 0).val + 64 * t.val, 0] := by decide +kernel
theorem off19_eq : ∀ (i : grid0.Coords) (t : Fin (k0_t11_loop i).trips), k0_off19 i t = ![4096 * (i 1).val + 2048 * (i 0).val + 64 * t.val, 0] := by decide +kernel
theorem cond6_iff : ∀ i : grid0.Coords, k0_cond6 i = 1#1 ↔ (i 1).val = 5 := by decide +kernel
theorem trips13 : ∀ i : grid0.Coords, (k0_t13_loop i).trips = ncopy i / 64 := by decide +kernel
theorem trips14 : ∀ i : grid0.Coords, (k0_t14_loop i).trips = 0 := fun i => Nat.le_zero.mp (k0_t14_abs i).2.1
theorem off22_eq : ∀ (i : grid0.Coords) (t : Fin (k0_t13_loop i).trips), k0_off22 i t = ![2048 * (i 0).val + 64 * t.val, 0] := by decide +kernel
theorem off23_eq : ∀ (i : grid0.Coords) (t : Fin (k0_t13_loop i).trips), k0_off23 i t = ![4096 * (i 1).val + 2048 * (i 0).val + 64 * t.val, 0] := by decide +kernel
theorem cond7_iff : ∀ i : grid0.Coords, k0_cond7 i = 1#1 ↔ (i 1).val = 6 := by decide +kernel
theorem trips15 : ∀ i : grid0.Coords, (k0_t15_loop i).trips = ncopy i / 64 := by decide +kernel
theorem trips16 : ∀ i : grid0.Coords, (k0_t16_loop i).trips = 0 := fun i => Nat.le_zero.mp (k0_t16_abs i).2.1
theorem off26_eq : ∀ (i : grid0.Coords) (t : Fin (k0_t15_loop i).trips), k0_off26 i t = ![2048 * (i 0).val + 64 * t.val, 0] := by decide +kernel
theorem off27_eq : ∀ (i : grid0.Coords) (t : Fin (k0_t15_loop i).trips), k0_off27 i t = ![4096 * (i 1).val + 2048 * (i 0).val + 64 * t.val, 0] := by decide +kernel
theorem cond8_iff : ∀ i : grid0.Coords, k0_cond8 i = 1#1 ↔ (i 1).val = 7 := by decide +kernel
theorem trips17 : ∀ i : grid0.Coords, (k0_t17_loop i).trips = ncopy i / 64 := by decide +kernel
theorem trips18 : ∀ i : grid0.Coords, (k0_t18_loop i).trips = 0 := fun i => Nat.le_zero.mp (k0_t18_abs i).2.1
theorem off30_eq : ∀ (i : grid0.Coords) (t : Fin (k0_t17_loop i).trips), k0_off30 i t = ![2048 * (i 0).val + 64 * t.val, 0] := by decide +kernel
theorem off31_eq : ∀ (i : grid0.Coords) (t : Fin (k0_t17_loop i).trips), k0_off31 i t = ![4096 * (i 1).val + 2048 * (i 0).val + 64 * t.val, 0] := by decide +kernel
theorem cond9_iff : ∀ i : grid0.Coords, k0_cond9 i = 1#1 ↔ (i 1).val = 8 := by decide +kernel
theorem trips19 : ∀ i : grid0.Coords, (k0_t19_loop i).trips = ncopy i / 64 := by decide +kernel
theorem trips20 : ∀ i : grid0.Coords, (k0_t20_loop i).trips = 0 := fun i => Nat.le_zero.mp (k0_t20_abs i).2.1
theorem off34_eq : ∀ (i : grid0.Coords) (t : Fin (k0_t19_loop i).trips), k0_off34 i t = ![2048 * (i 0).val + 64 * t.val, 0] := by decide +kernel
theorem off35_eq : ∀ (i : grid0.Coords) (t : Fin (k0_t19_loop i).trips), k0_off35 i t = ![4096 * (i 1).val + 2048 * (i 0).val + 64 * t.val, 0] := by decide +kernel
theorem cond10_iff : ∀ i : grid0.Coords, k0_cond10 i = 1#1 ↔ (i 1).val = 9 := by decide +kernel
theorem trips21 : ∀ i : grid0.Coords, (k0_t21_loop i).trips = ncopy i / 64 := by decide +kernel
theorem trips22 : ∀ i : grid0.Coords, (k0_t22_loop i).trips = 0 := fun i => Nat.le_zero.mp (k0_t22_abs i).2.1
theorem off38_eq : ∀ (i : grid0.Coords) (t : Fin (k0_t21_loop i).trips), k0_off38 i t = ![2048 * (i 0).val + 64 * t.val, 0] := by decide +kernel
theorem off39_eq : ∀ (i : grid0.Coords) (t : Fin (k0_t21_loop i).trips), k0_off39 i t = ![4096 * (i 1).val + 2048 * (i 0).val + 64 * t.val, 0] := by decide +kernel
theorem cond11_iff : ∀ i : grid0.Coords, k0_cond11 i = 1#1 ↔ (i 1).val = 10 := by decide +kernel
theorem trips23 : ∀ i : grid0.Coords, (k0_t23_loop i).trips = ncopy i / 64 := by decide +kernel
theorem trips24 : ∀ i : grid0.Coords, (k0_t24_loop i).trips = 0 := fun i => Nat.le_zero.mp (k0_t24_abs i).2.1
theorem off42_eq : ∀ (i : grid0.Coords) (t : Fin (k0_t23_loop i).trips), k0_off42 i t = ![2048 * (i 0).val + 64 * t.val, 0] := by decide +kernel
theorem off43_eq : ∀ (i : grid0.Coords) (t : Fin (k0_t23_loop i).trips), k0_off43 i t = ![4096 * (i 1).val + 2048 * (i 0).val + 64 * t.val, 0] := by decide +kernel
theorem cond12_iff : ∀ i : grid0.Coords, k0_cond12 i = 1#1 ↔ (i 1).val = 11 := by decide +kernel
theorem trips25 : ∀ i : grid0.Coords, (k0_t25_loop i).trips = ncopy i / 64 := by decide +kernel
theorem trips26 : ∀ i : grid0.Coords, (k0_t26_loop i).trips = 0 := fun i => Nat.le_zero.mp (k0_t26_abs i).2.1
theorem off46_eq : ∀ (i : grid0.Coords) (t : Fin (k0_t25_loop i).trips), k0_off46 i t = ![2048 * (i 0).val + 64 * t.val, 0] := by decide +kernel
theorem off47_eq : ∀ (i : grid0.Coords) (t : Fin (k0_t25_loop i).trips), k0_off47 i t = ![4096 * (i 1).val + 2048 * (i 0).val + 64 * t.val, 0] := by decide +kernel
theorem cond13_iff : ∀ i : grid0.Coords, k0_cond13 i = 1#1 ↔ (i 1).val = 12 := by decide +kernel
theorem trips27 : ∀ i : grid0.Coords, (k0_t27_loop i).trips = ncopy i / 64 := by decide +kernel
theorem trips28 : ∀ i : grid0.Coords, (k0_t28_loop i).trips = 0 := fun i => Nat.le_zero.mp (k0_t28_abs i).2.1
theorem off50_eq : ∀ (i : grid0.Coords) (t : Fin (k0_t27_loop i).trips), k0_off50 i t = ![2048 * (i 0).val + 64 * t.val, 0] := by decide +kernel
theorem off51_eq : ∀ (i : grid0.Coords) (t : Fin (k0_t27_loop i).trips), k0_off51 i t = ![4096 * (i 1).val + 2048 * (i 0).val + 64 * t.val, 0] := by decide +kernel
theorem cond14_iff : ∀ i : grid0.Coords, k0_cond14 i = 1#1 ↔ (i 1).val = 13 := by decide +kernel
theorem trips29 : ∀ i : grid0.Coords, (k0_t29_loop i).trips = ncopy i / 64 := by decide +kernel
theorem trips30 : ∀ i : grid0.Coords, (k0_t30_loop i).trips = 0 := fun i => Nat.le_zero.mp (k0_t30_abs i).2.1
theorem off54_eq : ∀ (i : grid0.Coords) (t : Fin (k0_t29_loop i).trips), k0_off54 i t = ![2048 * (i 0).val + 64 * t.val, 0] := by decide +kernel
theorem off55_eq : ∀ (i : grid0.Coords) (t : Fin (k0_t29_loop i).trips), k0_off55 i t = ![4096 * (i 1).val + 2048 * (i 0).val + 64 * t.val, 0] := by decide +kernel
theorem cond15_iff : ∀ i : grid0.Coords, k0_cond15 i = 1#1 ↔ (i 1).val = 14 := by decide +kernel
theorem trips31 : ∀ i : grid0.Coords, (k0_t31_loop i).trips = ncopy i / 64 := by decide +kernel
theorem trips32 : ∀ i : grid0.Coords, (k0_t32_loop i).trips = 0 := fun i => Nat.le_zero.mp (k0_t32_abs i).2.1
theorem off58_eq : ∀ (i : grid0.Coords) (t : Fin (k0_t31_loop i).trips), k0_off58 i t = ![2048 * (i 0).val + 64 * t.val, 0] := by decide +kernel
theorem off59_eq : ∀ (i : grid0.Coords) (t : Fin (k0_t31_loop i).trips), k0_off59 i t = ![4096 * (i 1).val + 2048 * (i 0).val + 64 * t.val, 0] := by decide +kernel
theorem cond16_iff : ∀ i : grid0.Coords, k0_cond16 i = 1#1 ↔ (i 1).val = 15 := by decide +kernel
theorem trips33 : ∀ i : grid0.Coords, (k0_t33_loop i).trips = ncopy i / 64 := by decide +kernel
theorem trips34 : ∀ i : grid0.Coords, (k0_t34_loop i).trips = 0 := fun i => Nat.le_zero.mp (k0_t34_abs i).2.1
theorem off62_eq : ∀ (i : grid0.Coords) (t : Fin (k0_t33_loop i).trips), k0_off62 i t = ![2048 * (i 0).val + 64 * t.val, 0] := by decide +kernel
theorem off63_eq : ∀ (i : grid0.Coords) (t : Fin (k0_t33_loop i).trips), k0_off63 i t = ![4096 * (i 1).val + 2048 * (i 0).val + 64 * t.val, 0] := by decide +kernel
theorem trips35 : ∀ i : grid0.Coords, (k0_t35_loop i).trips = (2048 - ncopy i) / 64 := by decide +kernel
theorem trips36 : ∀ i : grid0.Coords, (k0_t36_loop i).trips = 0 := fun i => Nat.le_zero.mp (k0_t36_abs i).2.1
theorem off66_eq : ∀ (i : grid0.Coords) (t : Fin (k0_t35_loop i).trips), k0_off66 i t = ![4096 * (i 1).val + 2048 * (i 0).val + ncopy i + 64 * t.val, 0] := by decide +kernel

/-- The copied rows are a whole number of 64-row chunks, at most 2048. -/
theorem ncopy_dvd : ∀ i : grid0.Coords, 64 ∣ ncopy i := by decide +kernel
theorem ncopy_le (i : grid0.Coords) : ncopy i ≤ 2048 := Nat.min_le_left _ _
/-- Row `r` of the task's half is copied exactly when row `2048 c + r` is a row of sequence `s`. -/
theorem lt_ncopy_iff (i : grid0.Coords) (r : Nat) (hr : r < 2048) :
    r < ncopy i ↔ 2048 * (i 0).val + r < 4096 - 256 * (i 1).val := by
  unfold ncopy; omega
theorem coord0_lt (i : grid0.Coords) : (i 0).val < 2 := (i 0).isLt
theorem coord1_lt (i : grid0.Coords) : (i 1).val < 16 := (i 1).isLt

end Cert.Proof.KB
-- ==== Proof.KBTilePure.lean ====
/-
  The arithmetic of one task's block, apart from any program.

  The task at grid point `i` (SparseCore `c = i 0`, subcore `s = i 1`) owns rows `R0 i = 4096 s + 2048 c` onwards,
  2048 of them: block `2 s + c`. `Done hi f` says the first `hi` rows of the block already hold the padded array.
  A 64-row chunk written at offset `o` inside the block with the rows `2048 c + o` onwards of sequence `s` (while they
  are rows of it) or with zeros (past its end) extends `Done o` to `Done (o + 64)`; `Done 2048` is the whole block.
-/
import proofs.«212850_g39865886441476_cont_8to1_b_277_5_alg».proof.Proof.KBSetup
import proofs.«212850_g39865886441476_cont_8to1_b_277_5_alg».proof.Proof.KBArith
import Idealize.ShloMosaic.Lib.Writes

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "oW" => (Memref.whole Cert.Kernel.main_v0_scv : Memref Cert.Kernel.sig Kind.scVector Space.hbm Cert.Kernel.S65536x512 EltTy.f32)

variable (m : (ℓ : Loc nD τ sig) → Buf (Elt F) ℓ) (d : Dev nD) (i : grid0.Coords)

/-- The first output row of the task at `i`. -/
def R0 (i : grid0.Coords) : Nat := 4096 * (i 1).val + 2048 * (i 0).val
/-- Its block. -/
def bI (i : grid0.Coords) : Fin 32 := ⟨2 * (i 1).val + (i 0).val, by have := coord0_lt i; have := coord1_lt i; omega⟩

omit [FloatOps F] in
theorem R0_eq (i : grid0.Coords) : R0 i = 2048 * (bI i).val := by unfold R0 bI; simp only; omega

omit [FloatOps F] in
theorem mem_blkSet (b : Fin 32) (j : S65536x512.Idx) : j ∈ blkSet b ↔ 2048 * b.val ≤ (j 0).val ∧ (j 0).val < 2048 * b.val + 2048 := by
  unfold blkSet blk Rect.part
  rw [Rect.mem_set_unit, Fin.forall_fin_two]
  have h1 := (j 1).isLt
  simp only [Shape.partIx, Shape.partSize] at *
  constructor
  · rintro ⟨⟨h0, h0'⟩, -⟩; simp at h0 h0'; omega
  · intro ⟨h0, h0'⟩; refine ⟨⟨by simp; omega, by simp; omega⟩, by simp, by simp; exact h1⟩

/-- The 64-row chunk of the output at rows `off 0` onwards, as the program slices it. -/
abbrev chunk (off : Fin 2 → Nat) (inb : ∀ a, off a + S64x512.size a ≤ S65536x512.size a)
    (hsl : ∀ a, (Rect.unit (s := S65536x512) off S64x512.size inb).stride a = 1) : Memref sig .scVector .hbm S64x512 .f32 :=
  (oW).slice (Rect.unit (s := S65536x512) off S64x512.size inb) hsl

omit [FloatOps F] in
theorem chunk_emb (off : Fin 2 → Nat) (inb) (hsl) (y : S64x512.Idx) (a : Fin 2) :
    (((chunk off inb hsl).view.emb y : S65536x512.Idx) a).val = off a + (y a).val := by
  show off a + 1 * (y a).val = _; omega

omit [FloatOps F] in
theorem mem_chunk (off : Fin 2 → Nat) (inb) (hsl) (j : S65536x512.Idx) :
    j ∈ (chunk off inb hsl).view.set ↔ ∃ y : S64x512.Idx, (chunk off inb hsl).view.emb y = j := by
  unfold View.set; simp

omit [FloatOps F] in
theorem chunk_subset (off : Fin 2 → Nat) (inb) (hsl) (o : Nat) (ho : o + 64 ≤ 2048) (hoff : off 0 = R0 i + o) :
    (chunk off inb hsl).view.set ⊆ blkSet (bI i) := by
  intro j hj
  obtain ⟨y, rfl⟩ := (mem_chunk off inb hsl j).mp hj
  rw [mem_blkSet, chunk_emb, hoff, ← R0_eq]
  have := (y 0).isLt
  change (y 0).val < 64 at this
  omega

/-- The first `hi` rows of the block hold the padded array. -/
def Done (hi : Nat) (f : Buf (Elt F) (oLoc d)) : Prop :=
  ∀ j : S65536x512.Idx, R0 i ≤ (j 0).val → (j 0).val < R0 i + hi → f j = flat m d j

theorem done_zero (f : Buf (Elt F) (oLoc d)) : Done m d i 0 f := fun j h1 h2 => by omega

theorem done_all (f : Buf (Elt F) (oLoc d)) (h : Done m d i 2048 f) : ∀ j ∈ blkSet (bI i), f j = flat m d j := by
  intro j hj
  rw [mem_blkSet, ← R0_eq] at hj
  exact h j hj.1 hj.2

/-- What a written chunk holds: at the image of `y`, the payload at `y`; elsewhere what was there. -/
theorem chunk_writes_emb (off) (inb) (hsl) (fo : Buf (Elt F) (oLoc d)) (w : S64x512.Idx → F .f32) (y : S64x512.Idx) :
    ((chunk off inb hsl).view.writes (Elt F) fo [⟨Rect.whole S64x512, w⟩] : Buf (Elt F) (oLoc d)) ((chunk off inb hsl).view.emb y) = w y := by
  have h := View.read_writes_cons_emb (v := (chunk off inb hsl).view) (f := fo) (Rect.whole S64x512) w [] y
  have e : (Rect.whole S64x512).emb y = y := by
    funext a; apply Fin.ext; show 0 + 1 * (y a).val = _; omega
  rw [e] at h
  exact ((View.read_apply _ _).trans (cast_eq _ _)).symm.trans h

/-- One chunk more: if the written chunk agrees with the padded array, `Done o` becomes `Done (o + 64)`. -/
theorem done_step (off) (inb) (hsl) (o : Nat) (hoff : off 0 = R0 i + o) (hoff1 : off 1 = 0)
    (fo : Buf (Elt F) (oLoc d)) (w : S64x512.Idx → F .f32) (hD : Done m d i o fo)
    (hw : ∀ y : S64x512.Idx, w y = flat m d ((chunk off inb hsl).view.emb y)) :
    Done m d i (o + 64) ((chunk off inb hsl).view.set.piecewise ((chunk off inb hsl).view.writes (Elt F) fo [⟨Rect.whole S64x512, w⟩]) fo) := by
  intro j h1 h2
  by_cases hj : j ∈ (chunk off inb hsl).view.set
  · rw [Finset.piecewise_eq_of_mem _ _ _ hj]
    obtain ⟨y, rfl⟩ := (mem_chunk off inb hsl j).mp hj
    rw [chunk_writes_emb, hw]
  · rw [Finset.piecewise_eq_of_notMem _ _ _ hj]
    refine hD j h1 ?_
    by_contra hge
    apply hj
    rw [mem_chunk]
    have hj1 := (j 1).isLt
    change (j 1).val < 512 at hj1
    refine ⟨ix2 ⟨(j 0).val - (R0 i + o), by omega⟩ ⟨(j 1).val, hj1⟩, ?_⟩
    funext a; apply Fin.ext
    rw [chunk_emb]
    match a with
    | ⟨0, _⟩ => show off 0 + ((j 0).val - (R0 i + o)) = (j 0).val; omega
    | ⟨1, _⟩ => show off 1 + (j 1).val = (j 1).val; omega

/-- The padded array on the task's block: row `R0 i + r` (`r < 2048`) is row `2048 c + r` of sequence `s`, padded. -/
theorem flat_row (j : S65536x512.Idx) (r : Nat) (hr : r < 2048) (hj : (j 0).val = R0 i + r) :
    flat m d j = Cert.Spec.padded (zF (F := F)) (m (aLoc0 d)) (m (aLoc1 d)) (m (aLoc2 d)) (m (aLoc3 d)) (m (aLoc4 d)) (m (aLoc5 d)) (m (aLoc6 d)) (m (aLoc7 d)) (m (aLoc8 d)) (m (aLoc9 d)) (m (aLoc10 d)) (m (aLoc11 d)) (m (aLoc12 d)) (m (aLoc13 d)) (m (aLoc14 d)) (m (aLoc15 d)) (i 1).val (2048 * (i 0).val + r) (j 1) := by
  have h0 := coord0_lt i
  have h1 := coord1_lt i
  unfold flat Cert.Spec.padFlat
  show Cert.Spec.padded _ _ _ _ _ _ _ _ _ _ _ _ _ _ _ _ _ ((j 0).val / 4096) ((j 0).val % 4096) (j 1) = _
  rw [hj]
  have e1 : (R0 i + r) / 4096 = (i 1).val := by unfold R0; omega
  have e2 : (R0 i + r) % 4096 = 2048 * (i 0).val + r := by unfold R0; omega
  rw [e1, e2]

/-- Past the end of sequence `s` the padded array holds the padding value. -/
theorem padded_ge {X : Type} (z : X) (a0 : (⟨2, ![4096, 512]⟩ : Shape).Idx → X) (a1 : (⟨2, ![3840, 512]⟩ : Shape).Idx → X) (a2 : (⟨2, ![3584, 512]⟩ : Shape).Idx → X) (a3 : (⟨2, ![3328, 512]⟩ : Shape).Idx → X) (a4 : (⟨2, ![3072, 512]⟩ : Shape).Idx → X) (a5 : (⟨2, ![2816, 512]⟩ : Shape).Idx → X) (a6 : (⟨2, ![2560, 512]⟩ : Shape).Idx → X) (a7 : (⟨2, ![2304, 512]⟩ : Shape).Idx → X) (a8 : (⟨2, ![2048, 512]⟩ : Shape).Idx → X) (a9 : (⟨2, ![1792, 512]⟩ : Shape).Idx → X) (a10 : (⟨2, ![1536, 512]⟩ : Shape).Idx → X) (a11 : (⟨2, ![1280, 512]⟩ : Shape).Idx → X) (a12 : (⟨2, ![1024, 512]⟩ : Shape).Idx → X) (a13 : (⟨2, ![768, 512]⟩ : Shape).Idx → X) (a14 : (⟨2, ![512, 512]⟩ : Shape).Idx → X) (a15 : (⟨2, ![256, 512]⟩ : Shape).Idx → X)
    (s p : Nat) (q : Fin 512) (h : 4096 - 256 * s ≤ p) : Cert.Spec.padded z a0 a1 a2 a3 a4 a5 a6 a7 a8 a9 a10 a11 a12 a13 a14 a15 s p q = z := by
  unfold Cert.Spec.padded
  split <;> first | rfl | exact Cert.Spec.rowOr_ge _ _ _ (by omega)

set_option backward.isDefEq.respectTransparency.types false in
/-- A chunk copied from the sequence the task serves agrees with the padded array: trip `t` of the copying loop moved
    rows `2048 c + 64 t` onwards of the sequence (`sidx`: where the source slice places its own indices) to rows
    `R0 i + 64 t` onwards of the output. -/
theorem hw_copy {Ln : Nat} (a : (⟨2, ![Ln, 512]⟩ : Shape).Idx → F .f32)
    (hpad : ∀ (p : Nat) (q : Fin 512), Cert.Spec.padded (zF (F := F)) (m (aLoc0 d)) (m (aLoc1 d)) (m (aLoc2 d)) (m (aLoc3 d)) (m (aLoc4 d)) (m (aLoc5 d)) (m (aLoc6 d)) (m (aLoc7 d)) (m (aLoc8 d)) (m (aLoc9 d)) (m (aLoc10 d)) (m (aLoc11 d)) (m (aLoc12 d)) (m (aLoc13 d)) (m (aLoc14 d)) (m (aLoc15 d)) (i 1).val p q = Cert.Spec.rowOr (zF (F := F)) a p q)
    (hLn : Ln = 4096 - 256 * (i 1).val)
    (t : Nat) (ht : 64 * t + 64 ≤ ncopy i)
    (off : Fin 2 → Nat) (inb) (hsl) (hoff0 : off 0 = R0 i + 64 * t) (hoff1 : off 1 = 0)
    (sidx : S64x512.Idx → (⟨2, ![Ln, 512]⟩ : Shape).Idx)
    (hsidx : ∀ y : S64x512.Idx, ((sidx y) 0).val = 2048 * (i 0).val + 64 * t + (y 0).val ∧ ((sidx y) 1).val = (y 1).val)
    (w : S64x512.Idx → F .f32) (hw : ∀ y, w y = a (sidx y)) :
    ∀ y : S64x512.Idx, w y = flat m d ((chunk off inb hsl).view.emb y) := by
  intro y
  have hy0 : (y 0).val < 64 := (y 0).isLt
  have hnc := ncopy_le i
  have hlt : 2048 * (i 0).val + (64 * t + (y 0).val) < Ln := by
    rw [hLn]; exact (lt_ncopy_iff i (64 * t + (y 0).val) (by omega)).mp (by omega)
  rw [hw, flat_row m d i _ (64 * t + (y 0).val) (by omega) (by rw [chunk_emb, hoff0]; omega), hpad, Cert.Spec.rowOr_lt _ _ _ hlt]
  congr 1
  funext a'
  apply Fin.ext
  match a' with
  | ⟨0, _⟩ => show ((sidx y) 0).val = 2048 * (i 0).val + (64 * t + (y 0).val); rw [(hsidx y).1]; omega
  | ⟨1, _⟩ =>
    show ((sidx y) 1).val = (((chunk off inb hsl).view.emb y : S65536x512.Idx) 1).val
    rw [(hsidx y).2, chunk_emb, hoff1]; omega

set_option backward.isDefEq.respectTransparency.types false in
/-- A chunk of zeros past the copied rows agrees with the padded array. -/
theorem hw_zero (t : Nat) (ht : ncopy i + 64 * t + 64 ≤ 2048)
    (off : Fin 2 → Nat) (inb) (hsl) (hoff0 : off 0 = R0 i + ncopy i + 64 * t)
    (w : S64x512.Idx → F .f32) (hw : ∀ y, w y = zF (F := F)) :
    ∀ y : S64x512.Idx, w y = flat m d ((chunk off inb hsl).view.emb y) := by
  intro y
  have hy0 : (y 0).val < 64 := (y 0).isLt
  rw [hw, flat_row m d i _ (ncopy i + 64 * t + (y 0).val) (by omega) (by rw [chunk_emb, hoff0]; omega),
    padded_ge _ _ _ _ _ _ _ _ _ _ _ _ _ _ _ _ _ _ _ _ ?_]
  have := (lt_ncopy_iff i (ncopy i + 64 * t + (y 0).val) (by omega)).not.mp (by omega)
  omega

end Cert.Proof.KB

end
-- ==== Proof.KBTileCommon.lean ====
/-
  What every task of the padding kernel shares: its thread, its specification, its two scratch buffers, and the
  zeroing of the second one.

  The task at grid point `L` runs on subcore `L 1` of SparseCore `L 0`. It is handed a read share of the sixteen
  sequences and its block of the output, and returns the shares and the block at the padded array. Before anything
  else it fills its second scratch buffer (64 x 512) with the word `0x00000000`, sixteen lanes at a time: row by
  row, 32 stores a row.
-/
import proofs.«212850_g39865886441476_cont_8to1_b_277_5_alg».proof.Proof.KBTilePure

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "a0W" => (Memref.whole Cert.Kernel.main_arg0_scv : Memref Cert.Kernel.sig Kind.scVector Space.hbm Cert.Kernel.S4096x512 EltTy.f32)
local notation "a1W" => (Memref.whole Cert.Kernel.main_arg1_scv : Memref Cert.Kernel.sig Kind.scVector Space.hbm Cert.Kernel.S3840x512 EltTy.f32)
local notation "a2W" => (Memref.whole Cert.Kernel.main_arg2_scv : Memref Cert.Kernel.sig Kind.scVector Space.hbm Cert.Kernel.S3584x512 EltTy.f32)
local notation "a3W" => (Memref.whole Cert.Kernel.main_arg3_scv : Memref Cert.Kernel.sig Kind.scVector Space.hbm Cert.Kernel.S3328x512 EltTy.f32)
local notation "a4W" => (Memref.whole Cert.Kernel.main_arg4_scv : Memref Cert.Kernel.sig Kind.scVector Space.hbm Cert.Kernel.S3072x512 EltTy.f32)
local notation "a5W" => (Memref.whole Cert.Kernel.main_arg5_scv : Memref Cert.Kernel.sig Kind.scVector Space.hbm Cert.Kernel.S2816x512 EltTy.f32)
local notation "a6W" => (Memref.whole Cert.Kernel.main_arg6_scv : Memref Cert.Kernel.sig Kind.scVector Space.hbm Cert.Kernel.S2560x512 EltTy.f32)
local notation "a7W" => (Memref.whole Cert.Kernel.main_arg7_scv : Memref Cert.Kernel.sig Kind.scVector Space.hbm Cert.Kernel.S2304x512 EltTy.f32)
local notation "a8W" => (Memref.whole Cert.Kernel.main_arg8_scv : Memref Cert.Kernel.sig Kind.scVector Space.hbm Cert.Kernel.S2048x512 EltTy.f32)
local notation "a9W" => (Memref.whole Cert.Kernel.main_arg9_scv : Memref Cert.Kernel.sig Kind.scVector Space.hbm Cert.Kernel.S1792x512 EltTy.f32)
local notation "a10W" => (Memref.whole Cert.Kernel.main_arg10_scv : Memref Cert.Kernel.sig Kind.scVector Space.hbm Cert.Kernel.S1536x512 EltTy.f32)
local notation "a11W" => (Memref.whole Cert.Kernel.main_arg11_scv : Memref Cert.Kernel.sig Kind.scVector Space.hbm Cert.Kernel.S1280x512 EltTy.f32)
local notation "a12W" => (Memref.whole Cert.Kernel.main_arg12_scv : Memref Cert.Kernel.sig Kind.scVector Space.hbm Cert.Kernel.S1024x512 EltTy.f32)
local notation "a13W" => (Memref.whole Cert.Kernel.main_arg13_scv : Memref Cert.Kernel.sig Kind.scVector Space.hbm Cert.Kernel.S768x512 EltTy.f32)
local notation "a14W" => (Memref.whole Cert.Kernel.main_arg14_scv : Memref Cert.Kernel.sig Kind.scVector Space.hbm Cert.Kernel.S512x512 EltTy.f32)
local notation "a15W" => (Memref.whole Cert.Kernel.main_arg15_scv : Memref Cert.Kernel.sig Kind.scVector Space.hbm Cert.Kernel.S256x512 EltTy.f32)
local notation "oW" => (Memref.whole Cert.Kernel.main_v0_scv : Memref Cert.Kernel.sig Kind.scVector Space.hbm Cert.Kernel.S65536x512 EltTy.f32)
local notation "bW" => (Memref.whole Cert.Kernel.cc0_scratch0 : Memref Cert.Kernel.sig Kind.scVector Space.vmem Cert.Kernel.S64x512 EltTy.f32)
local notation "zW" => (Memref.whole Cert.Kernel.cc0_scratch1 : Memref Cert.Kernel.sig Kind.scVector Space.vmem Cert.Kernel.S64x512 EltTy.f32)

variable (m : (ℓ : Loc nD τ sig) → Buf (Elt F) ℓ) (d : Dev nD)

/-- The task's thread. -/
abbrev thr (d : Dev nD) (L : grid0.Coords) : Thread nD τ := V d ((L 0).castLE hcore0) ((L 1).castLE hsub0)

omit [FloatOps F] in
theorem bound_zero : grid0.bound 0 = 2 := rfl
omit [FloatOps F] in
theorem bound_one : grid0.bound 1 = 16 := rfl
abbrev cL (L : grid0.Coords) : Fin 2 := Fin.cast bound_zero (L 0)
abbrev sL (L : grid0.Coords) : Fin 16 := Fin.cast bound_one (L 1)

omit [FloatOps F] in
theorem bIx_eq (L : grid0.Coords) : bIx (cL L) (sL L) = bI L := Fin.ext rfl

/-- The task: from the launch's levels, its share of the sequences, its block of the output, its own buffers and
    semaphores and what it owes, the kernel's body runs and leaves the block at the padded array. -/
def TileSpec (L : grid0.Coords) (O : CellTallies nD τ sig (HIx 1)) (W : Waits sig (HIx 1)) : Prop :=
  iprop(levAts (K (F := F)).L (K (F := F)).lev ∗ emp
        ∗ (argsAt m (shT (cL L) (sL L)) d ∗ oLoc d ↦[blkSet (bI L)]{fullShare} m (oLoc d))
        ∗ scopedBufs (thr d L) ∗ scopedSems0 (thr d L) ∗ owes (thr d L) O W)
      ⊢ wp frame (wpE (defs₀ (F := F)) 𝒱₀ (thr d L) none) Set.univ
          (cc0__pad_body L a0W (Memref.isWhole_whole _) a1W (Memref.isWhole_whole _) a2W (Memref.isWhole_whole _) a3W (Memref.isWhole_whole _) a4W (Memref.isWhole_whole _) a5W (Memref.isWhole_whole _) a6W (Memref.isWhole_whole _) a7W (Memref.isWhole_whole _) a8W (Memref.isWhole_whole _) a9W (Memref.isWhole_whole _) a10W (Memref.isWhole_whole _) a11W (Memref.isWhole_whole _) a12W (Memref.isWhole_whole _) a13W (Memref.isWhole_whole _) a14W (Memref.isWhole_whole _) a15W (Memref.isWhole_whole _) oW (Memref.isWhole_whole _) bW (Memref.isWhole_whole _) zW (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65)
          fun _ => iprop((argsAt m (shT (cL L) (sL L)) d ∗ oLoc d ↦[blkSet (bI L)]{fullShare} flat m d)
            ∗ scopedBufs (thr d L) ∗ scopedSems0 (thr d L)
            ∗ ∃ W', ⌜∀ p ∈ W', p ∈ W ∨ p.2 = none⌝ ∗ owes (thr d L) O W')

omit [FloatOps F] in
/-- The two scratch buffers are among the subcore's own: they are them, at some contents, and the rest. -/
theorem ownBufs_V (L : grid0.Coords) :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector ((L 0).castLE hcore0) ((L 1).castLE hsub0))).erase ((Proc.scVector ((L 0).castLE hcore0) ((L 1).castLE hsub0)).devRef cc0_scratch0)).erase
              ((Proc.scVector ((L 0).castLE hcore0) ((L 1).castLE hsub0)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector ((L 0).castLE hcore0) ((L 1).castLE hsub0))
    (b := (Proc.scVector ((L 0).castLE hcore0) ((L 1).castLE hsub0)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector ((L 0).castLE hcore0) ((L 1).castLE hsub0)) (b := (Proc.scVector ((L 0).castLE hcore0) ((L 1).castLE hsub0)).devRef cc0_scratch1) rfl⟩)]

omit [FloatOps F] in
theorem pts_b (L : grid0.Coords) (f : Buf (Elt F) ((thr d L).loc cc0_scratch0)) :
    ((bW).view.loc (thr d L) ↦{fullShare} f : sProp 𝕄) = (thr d L).loc cc0_scratch0 ↦{fullShare} f := rfl
omit [FloatOps F] in
theorem pts_z (L : grid0.Coords) (f : Buf (Elt F) ((thr d L).loc cc0_scratch1)) :
    ((zW).view.loc (thr d L) ↦{fullShare} f : sProp 𝕄) = (thr d L).loc cc0_scratch1 ↦{fullShare} f := rfl
omit [FloatOps F] in
/-- A chunk of the output as its slice memref addresses it is that chunk of the TensorCore's array. -/
theorem pts_chunk (L : grid0.Coords) (off : Fin 2 → Nat) (inb) (hsl) (f : Buf (Elt F) (oLoc d)) :
    ((chunk off inb hsl).view.loc (thr d L) ↦[(chunk off inb hsl).view.set]{fullShare} f : sProp 𝕄)
      = oLoc d ↦[(chunk off inb hsl).view.set]{fullShare} f := rfl

/-! ## The zeroing loops -/

/-- Before store `k2` of row `k1`: the rows above, and the first `16 k2` lanes of this one, are zero. -/
def invZ2 (L : grid0.Coords) (k1 : Fin k0_t1_loop.trips) (k2 : Nat) (_ : PUnit) : sProp 𝕄 :=
  iprop(∃ f, ((zW).view.loc (thr d L) ↦{fullShare} f) ∗ ⌜∀ (r : Fin 64) (q : Fin 512), (r.val < k1.val ∨ (r.val = k1.val ∧ q.val < 16 * k2)) → f (ix2 r q) = zF (F := F)⌝)
/-- Before row `k1`: the rows above are zero. -/
def invZ1 (L : grid0.Coords) (k1 : Nat) (_ : PUnit) : sProp 𝕄 :=
  iprop(∃ f, ((zW).view.loc (thr d L) ↦{fullShare} f) ∗ ⌜∀ (r : Fin 64) (q : Fin 512), r.val < k1 → f (ix2 r q) = zF (F := F)⌝)

theorem pay1_apply (x : S1x16.Idx) : (k0_pay1 (F := F)) x = zF (F := F) := rfl

omit [FloatOps F] in
/-- Store `k2` of row `k1` covers lanes `16 k2 … 16 k2 + 15` of that row. -/
theorem mem_row16 (k1 : Fin k0_t1_loop.trips) (k2 : Fin k0_t2_loop.trips) (r : Fin 64) (q : Fin 512) :
    ix2 r q ∈ (Rect.unit (s := S64x512) (k0_off1 k1 k2) S1x16.size (k0_off1_inb k1 k2)).set
      ↔ (k1.val ≤ r.val ∧ r.val < k1.val + 1) ∧ (16 * k2.val ≤ q.val ∧ q.val < 16 * k2.val + 16) := by
  rw [Rect.mem_set_unit, Fin.forall_fin_two, k0_off1_eq]
  exact Iff.rfl

set_option maxHeartbeats 1000000 in
theorem invZ2_step (k1 : Fin k0_t1_loop.trips) (k2 : Fin k0_t2_loop.trips) (f : S64x512.Idx → F .f32)
    (hf : ∀ (r : Fin 64) (q : Fin 512), (r.val < k1.val ∨ (r.val = k1.val ∧ q.val < 16 * k2.val)) → f (ix2 r q) = zF (F := F)) :
    ∀ (r : Fin 64) (q : Fin 512), (r.val < k1.val ∨ (r.val = k1.val ∧ q.val < 16 * (k2.val + 1))) →
      ((zW).view.writes (Elt F) f [⟨Rect.unit (s := S64x512) (k0_off1 k1 k2) S1x16.size (k0_off1_inb k1 k2), k0_pay1 (F := F)⟩]) (ix2 r q) = zF (F := F) := by
  intro r q hrq
  have rd : ∀ g : (cc0_scratch1 : Ref sig .scVector).ty.Contents (Elt F), (View.whole (cc0_scratch1 : Ref sig .scVector)).read (Elt F) g = g :=
    fun g => View.read_whole _ g
  by_cases hm : ix2 r q ∈ (Rect.unit (s := S64x512) (k0_off1 k1 k2) S1x16.size (k0_off1_inb k1 k2)).set
  · have h := View.read_writes_apply_of_pieces (Val := Elt F) (v := View.whole (cc0_scratch1 : Ref sig .scVector)) (f := f) (fun _ => zF (F := F))
      [⟨Rect.unit (s := S64x512) (k0_off1 k1 k2) S1x16.size (k0_off1_inb k1 k2), k0_pay1 (F := F)⟩]
      (by intro p hp x; rw [List.mem_singleton] at hp; subst hp; rfl) (ix2 r q)
      ⟨⟨Rect.unit (s := S64x512) (k0_off1 k1 k2) S1x16.size (k0_off1_inb k1 k2), k0_pay1 (F := F)⟩, List.mem_singleton_self _, hm⟩
    rw [rd] at h
    exact h
  · have h := View.read_writes_apply_of_forall_not_mem (Val := Elt F) (v := View.whole (cc0_scratch1 : Ref sig .scVector)) (f := f) (ix2 r q)
      [⟨Rect.unit (s := S64x512) (k0_off1 k1 k2) S1x16.size (k0_off1_inb k1 k2), k0_pay1 (F := F)⟩]
      (by intro p hp; rw [List.mem_singleton] at hp; subst hp; exact hm)
    rw [rd, rd] at h
    refine h.trans (hf r q ?_)
    rw [mem_row16] at hm
    omega

theorem invZ2_init (k1 : Fin k0_t1_loop.trips) (f : S64x512.Idx → F .f32)
    (hf : ∀ (r : Fin 64) (q : Fin 512), r.val < k1.val → f (ix2 r q) = zF (F := F)) :
    ∀ (r : Fin 64) (q : Fin 512), (r.val < k1.val ∨ (r.val = k1.val ∧ q.val < 16 * 0)) → f (ix2 r q) = zF (F := F) := by
  intro r q h; rcases h with h | ⟨_, h⟩
  · exact hf r q h
  · omega

omit [FloatOps F] in
theorem trips2_eq : k0_t2_loop.trips = 32 := by decide
omit [FloatOps F] in
theorem trips1_eq : k0_t1_loop.trips = 64 := by decide

theorem invZ1_step (k1 : Fin k0_t1_loop.trips) (f : S64x512.Idx → F .f32)
    (hf : ∀ (r : Fin 64) (q : Fin 512), (r.val < k1.val ∨ (r.val = k1.val ∧ q.val < 16 * k0_t2_loop.trips)) → f (ix2 r q) = zF (F := F)) :
    ∀ (r : Fin 64) (q : Fin 512), r.val < k1.val + 1 → f (ix2 r q) = zF (F := F) := by
  intro r q h
  refine hf r q ?_
  rw [trips2_eq]
  have := q.isLt
  omega

theorem invZ1_final (f : S64x512.Idx → F .f32)
    (hf : ∀ (r : Fin 64) (q : Fin 512), r.val < k0_t1_loop.trips → f (ix2 r q) = zF (F := F)) : f = fun _ => zF (F := F) := by
  funext j
  rw [eq_ix2 j]
  exact hf _ _ (by rw [trips1_eq]; exact (j 0).isLt)

/-- The zero-filling loop's invariant before trip `t`: the copied rows and the first `64 t` rows after them hold the
    padded array; the second scratch buffer is all zeros. -/
def invF (L : grid0.Coords) (O : CellTallies nD τ sig (HIx 1)) (W : Waits sig (HIx 1)) (t : Nat) (_ : PUnit) : sProp 𝕄 :=
  iprop(Transfers.MayWaits (thr d L) (none : HIx 1) O
    ∗ ((zW).view.loc (thr d L) ↦{fullShare} (fun _ => zF (F := F)))
    ∗ (∃ fo, (oLoc d ↦[blkSet (bI L)]{fullShare} fo) ∗ ⌜Done m d L (ncopy L + 64 * t) fo⌝)
    ∗ semVal (thr d L, SemLoc.dma cc0_scoped64.sem) 0
    ∗ ∃ W', ⌜∀ p ∈ W', p ∈ W ∨ p.2 = none⌝ ∗ owes (thr d L) O W')

end Cert.Proof.KB

end
-- ==== Proof.KBTile0.lean ====
/-
  The task on subcore 0 (of either SparseCore): it serves sequence 0, of 4096 rows. Its second scratch buffer is
  zeroed; the rows of the sequence that fall in its half are copied, 64 at a time, through the first scratch buffer
  into its block of the output; the rest of the block is filled from the zeroed buffer. Each loop keeps "the first so
  many rows of the block hold the padded array".
-/
import proofs.«212850_g39865886441476_cont_8to1_b_277_5_alg».proof.Proof.KBTileCommon

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "a0W" => (Memref.whole Cert.Kernel.main_arg0_scv : Memref Cert.Kernel.sig Kind.scVector Space.hbm Cert.Kernel.S4096x512 EltTy.f32)
local notation "a1W" => (Memref.whole Cert.Kernel.main_arg1_scv : Memref Cert.Kernel.sig Kind.scVector Space.hbm Cert.Kernel.S3840x512 EltTy.f32)
local notation "a2W" => (Memref.whole Cert.Kernel.main_arg2_scv : Memref Cert.Kernel.sig Kind.scVector Space.hbm Cert.Kernel.S3584x512 EltTy.f32)
local notation "a3W" => (Memref.whole Cert.Kernel.main_arg3_scv : Memref Cert.Kernel.sig Kind.scVector Space.hbm Cert.Kernel.S3328x512 EltTy.f32)
local notation "a4W" => (Memref.whole Cert.Kernel.main_arg4_scv : Memref Cert.Kernel.sig Kind.scVector Space.hbm Cert.Kernel.S3072x512 EltTy.f32)
local notation "a5W" => (Memref.whole Cert.Kernel.main_arg5_scv : Memref Cert.Kernel.sig Kind.scVector Space.hbm Cert.Kernel.S2816x512 EltTy.f32)
local notation "a6W" => (Memref.whole Cert.Kernel.main_arg6_scv : Memref Cert.Kernel.sig Kind.scVector Space.hbm Cert.Kernel.S2560x512 EltTy.f32)
local notation "a7W" => (Memref.whole Cert.Kernel.main_arg7_scv : Memref Cert.Kernel.sig Kind.scVector Space.hbm Cert.Kernel.S2304x512 EltTy.f32)
local notation "a8W" => (Memref.whole Cert.Kernel.main_arg8_scv : Memref Cert.Kernel.sig Kind.scVector Space.hbm Cert.Kernel.S2048x512 EltTy.f32)
local notation "a9W" => (Memref.whole Cert.Kernel.main_arg9_scv : Memref Cert.Kernel.sig Kind.scVector Space.hbm Cert.Kernel.S1792x512 EltTy.f32)
local notation "a10W" => (Memref.whole Cert.Kernel.main_arg10_scv : Memref Cert.Kernel.sig Kind.scVector Space.hbm Cert.Kernel.S1536x512 EltTy.f32)
local notation "a11W" => (Memref.whole Cert.Kernel.main_arg11_scv : Memref Cert.Kernel.sig Kind.scVector Space.hbm Cert.Kernel.S1280x512 EltTy.f32)
local notation "a12W" => (Memref.whole Cert.Kernel.main_arg12_scv : Memref Cert.Kernel.sig Kind.scVector Space.hbm Cert.Kernel.S1024x512 EltTy.f32)
local notation "a13W" => (Memref.whole Cert.Kernel.main_arg13_scv : Memref Cert.Kernel.sig Kind.scVector Space.hbm Cert.Kernel.S768x512 EltTy.f32)
local notation "a14W" => (Memref.whole Cert.Kernel.main_arg14_scv : Memref Cert.Kernel.sig Kind.scVector Space.hbm Cert.Kernel.S512x512 EltTy.f32)
local notation "a15W" => (Memref.whole Cert.Kernel.main_arg15_scv : Memref Cert.Kernel.sig Kind.scVector Space.hbm Cert.Kernel.S256x512 EltTy.f32)
local notation "oW" => (Memref.whole Cert.Kernel.main_v0_scv : Memref Cert.Kernel.sig Kind.scVector Space.hbm Cert.Kernel.S65536x512 EltTy.f32)
local notation "bW" => (Memref.whole Cert.Kernel.cc0_scratch0 : Memref Cert.Kernel.sig Kind.scVector Space.vmem Cert.Kernel.S64x512 EltTy.f32)
local notation "zW" => (Memref.whole Cert.Kernel.cc0_scratch1 : Memref Cert.Kernel.sig Kind.scVector Space.vmem Cert.Kernel.S64x512 EltTy.f32)

variable (m : (ℓ : Loc nD τ sig) → Buf (Elt F) ℓ) (d : Dev nD)

omit [FloatOps F] in
theorem ownSems0_V0 (L : grid0.Coords) :
    (ownSems0 (thr d L) : sProp 𝕄)
      = iprop(semVal (thr d L, SemLoc.dma cc0_scoped0.sem) 0 ∗ semVal (thr d L, SemLoc.dma cc0_scoped1.sem) 0 ∗ semVal (thr d L, SemLoc.dma cc0_scoped64.sem) 0
          ∗ bigSep ((((ownCells (thr d L)).erase (thr d L, SemLoc.dma cc0_scoped0.sem)).erase (thr d L, SemLoc.dma cc0_scoped1.sem)).erase (thr d L, SemLoc.dma cc0_scoped64.sem))
              fun g => semVal g 0) := by
  unfold SparseCore.Cfg.ownSems0
  rw [SparseCore.bigSep_erase' ((mem_ownCells (g := (thr d L, SemLoc.dma cc0_scoped0.sem))).mpr ⟨rfl, by
      show (SemLoc.dma cc0_scoped0.sem : SemLoc sig).isScoped .scVector = true; decide⟩),
    SparseCore.bigSep_erase' (Finset.mem_erase.mpr ⟨by simp; decide, (mem_ownCells (g := (thr d L, SemLoc.dma cc0_scoped1.sem))).mpr ⟨rfl, by
      show (SemLoc.dma cc0_scoped1.sem : SemLoc sig).isScoped .scVector = true; decide⟩⟩),
    SparseCore.bigSep_erase' (Finset.mem_erase.mpr ⟨by simp; decide, Finset.mem_erase.mpr ⟨by simp; decide,
      (mem_ownCells (g := (thr d L, SemLoc.dma cc0_scoped64.sem))).mpr ⟨rfl, by show (SemLoc.dma cc0_scoped64.sem : SemLoc sig).isScoped .scVector = true; decide⟩⟩⟩)]

/-- The source chunk of trip `t`, as the program slices it. -/
abbrev srcS0 (L : grid0.Coords) (h : k0_cond1 L = 1#1) (t : Fin (k0_t3_loop L).trips) : Memref sig .scVector .hbm S64x512 .f32 :=
  (a0W).slice (Rect.unit (s := S4096x512) (k0_off2 L t) S64x512.size (k0_off2_inb L t h)) (fun _ => rfl)

omit [FloatOps F] in
theorem pts_a0 (L : grid0.Coords) (q : PosShare TreeShare) (f : Buf (Elt F) (aLoc0 d)) :
    ((a0W).view.loc (thr d L) ↦{q} f : sProp 𝕄) = aLoc0 d ↦{q} f := rfl

/-- The copying loop's invariant before trip `t`: the first `64 t` rows of the block hold the padded array. -/
def invC0 (L : grid0.Coords) (O : CellTallies nD τ sig (HIx 1)) (W : Waits sig (HIx 1)) (q : PosShare TreeShare) (t : Nat) (_ : PUnit) : sProp 𝕄 :=
  iprop(Transfers.MayWaits (thr d L) (none : HIx 1) O
    ∗ ((a0W).view.loc (thr d L) ↦{q} m (aLoc0 d))
    ∗ (∃ fb, (bW).view.loc (thr d L) ↦{fullShare} fb)
    ∗ (∃ fo, (oLoc d ↦[blkSet (bI L)]{fullShare} fo) ∗ ⌜Done m d L (64 * t) fo⌝)
    ∗ semVal (thr d L, SemLoc.dma cc0_scoped0.sem) 0
    ∗ semVal (thr d L, SemLoc.dma cc0_scoped1.sem) 0
    ∗ ∃ W', ⌜∀ p ∈ W', p ∈ W ∨ p.2 = none⌝ ∗ owes (thr d L) O W')

theorem tile_s0 (hF : (K (F := F)).Facts) (L : grid0.Coords) (hs : (L 1).val = 0) (O : CellTallies nD τ sig (HIx 1)) (W : Waits sig (HIx 1)) (hO : ∀ g, O g none = 0) :
    TileSpec m d L O W := by
  have k0_h1 : k0_cond1 L = 1#1 := (cond1_iff L).mpr hs
  have k0_h2 : ¬ k0_cond2 L = 1#1 := fun h => absurd ((cond2_iff L).mp h) (by omega)
  have k0_h3 : ¬ k0_cond3 L = 1#1 := fun h => absurd ((cond3_iff L).mp h) (by omega)
  have k0_h4 : ¬ k0_cond4 L = 1#1 := fun h => absurd ((cond4_iff L).mp h) (by omega)
  have k0_h5 : ¬ k0_cond5 L = 1#1 := fun h => absurd ((cond5_iff L).mp h) (by omega)
  have k0_h6 : ¬ k0_cond6 L = 1#1 := fun h => absurd ((cond6_iff L).mp h) (by omega)
  have k0_h7 : ¬ k0_cond7 L = 1#1 := fun h => absurd ((cond7_iff L).mp h) (by omega)
  have k0_h8 : ¬ k0_cond8 L = 1#1 := fun h => absurd ((cond8_iff L).mp h) (by omega)
  have k0_h9 : ¬ k0_cond9 L = 1#1 := fun h => absurd ((cond9_iff L).mp h) (by omega)
  have k0_h10 : ¬ k0_cond10 L = 1#1 := fun h => absurd ((cond10_iff L).mp h) (by omega)
  have k0_h11 : ¬ k0_cond11 L = 1#1 := fun h => absurd ((cond11_iff L).mp h) (by omega)
  have k0_h12 : ¬ k0_cond12 L = 1#1 := fun h => absurd ((cond12_iff L).mp h) (by omega)
  have k0_h13 : ¬ k0_cond13 L = 1#1 := fun h => absurd ((cond13_iff L).mp h) (by omega)
  have k0_h14 : ¬ k0_cond14 L = 1#1 := fun h => absurd ((cond14_iff L).mp h) (by omega)
  have k0_h15 : ¬ k0_cond15 L = 1#1 := fun h => absurd ((cond15_iff L).mp h) (by omega)
  have k0_h16 : ¬ k0_cond16 L = 1#1 := fun h => absurd ((cond16_iff L).mp h) (by omega)
  have rt : ∀ (fb rd : (cc0_scratch0 : Ref sig .scVector).ty.Contents (Elt F)),
      ReadAs.same.apply (View.read (Elt F) (View.whole (cc0_scratch0 : Ref sig .scVector)) (View.write (Elt F) (View.whole (cc0_scratch0 : Ref sig .scVector)) fb (ReadAs.same.apply rd) Finset.univ)) = rd :=
    fun fb rd => (congrArg (View.read (Elt F) (View.whole (cc0_scratch0 : Ref sig .scVector))) (View.write_whole_univ (Val := Elt F) (cc0_scratch0 : Ref sig .scVector) fb rd)).trans (View.read_whole _ rd)
  unfold TileSpec
  simp only [cc0__pad_body_eq_skeleton]; unfold cc0__pad_body_skel
  rw [(K (F := F)).scopedBufs_V hF d _ _, SparseCore.Cfg.scopedSems0_V (Val := Elt F) d _ _, ownSems0_V0, ownBufs_V]
  unfold argsAt
  iintro ⟨#Hlv, -, ⟨⟨A0, A1, A2, A3, A4, A5, A6, A7, A8, A9, A10, A11, A12, A13, A14, A15⟩, Ho⟩, ⟨⟨%fb, Hb⟩, ⟨%fz, Hz⟩, Hbufs⟩, ⟨Hs0, Hs1, Hs64, Hsems⟩, HO⟩
  ihave Hmw := ((K (F := F)).mayWaits_none (thr := thr d L) hO) $$ Hlv
  ihave Aa := (Entails.of_eq (pts_a0 (F := F) d L _ _).symm) $$ A0
  ihave Hb' := (Entails.of_eq (pts_b (F := F) d L _).symm) $$ Hb
  ihave Hz' := (Entails.of_eq (pts_z (F := F) d L _).symm) $$ Hz
  sl_exec
  -- the zeroing loops
  sl_for (invZ1 (F := F) d L) $$ [Hz']
  case region =>
    intro k1 _
    unfold invZ1
    iintro ⟨%f, Hz, %hf⟩
    sl_exec
    sl_for (invZ2 (F := F) d L k1) $$ [Hz]
    case region =>
      intro k2 _
      unfold invZ2
      iintro ⟨%f, Hz, %hf⟩
      sl_exec
      sl_step
      iexists _; isplitl [Hz]; · iexact Hz
      ipureintro
      exact invZ2_step k1 k2 f hf
    · unfold invZ2
      iexists f; isplitl [Hz]; · iexact Hz
      ipureintro
      exact invZ2_init k1 f hf
    iintro %_ HI
    unfold invZ2
    icases HI with ⟨%f', Hz, %hf'⟩
    sl_exec
    sl_step
    iexists f'; isplitl [Hz]; · iexact Hz
    ipureintro
    exact invZ1_step k1 f' hf'
  · unfold invZ1
    iexists fz; isplitl [Hz']; · iexact Hz'
    ipureintro
    intro r q h; omega
  iintro %_ HI
  unfold invZ1
  icases HI with ⟨%fz1, Hz, %hfz⟩
  have hfz1 : fz1 = fun _ => zF (F := F) := invZ1_final fz1 hfz
  subst hfz1
  sl_exec
  -- the copying loop
  sl_for (invC0 (F := F) m d L O W (shT (cL L) (sL L))) $$ [Hmw Aa Hb' Ho Hs0 Hs1 HO]
  case region =>
    intro t _
    unfold invC0
    iintro ⟨Hmw, Aa, ⟨%fb, Hb⟩, ⟨%fo, Ho, %hD⟩, Hs0, Hs1, %W', %hW', HO⟩
    have htr : 64 * t.val + 64 ≤ ncopy L := by
      have h1 := t.isLt; have h2 := trips3 L; have h3 := ncopy_dvd L
      change t.val < (k0_t3_loop L).trips at h1
      rw [h2] at h1; omega
    have hnc := ncopy_le L
    have hoff : k0_off3 L t 0 = R0 L + 64 * t.val := by rw [off3_eq]; unfold R0; rfl
    have hsub := chunk_subset L (k0_off3 L t) (k0_off3_inb L t k0_h1) (fun _ => rfl) (64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Aa]; · iexact Aa
    isplitl [Hb]; · iexists _; iexact Hb
    isplitl [Ho]
    · iexists _; isplitl [Ho]; · iexact Ho
      ipureintro
      have e : 64 * (t.val + 1) = 64 * t.val + 64 := by omega
      rw [e]
      refine done_step m d L _ _ _ (64 * t.val) hoff (by rw [off3_eq]; rfl) fo _ hD ?_
      refine hw_copy m d L (m (aLoc0 d)) (fun p q => by rw [hs]; rfl) (by rw [hs]) t.val htr _ _ _ hoff (by rw [off3_eq]; rfl)
        (fun y => (srcS0 L k0_h1 t).view.emb y) (fun y => ?_) _
        (fun y => (congrFun (rt fb _) y).trans ((View.read_apply (v := (srcS0 L k0_h1 t).view) _ y).trans (cast_eq _ _)))
      constructor
      · show k0_off2 L t 0 + 1 * (y 0).val = _; rw [off2_eq]; show 2048 * (L 0).val + 64 * t.val + 1 * (y 0).val = _; omega
      · show k0_off2 L t 1 + 1 * (y 1).val = _; rw [off2_eq]; show 0 + 1 * (y 1).val = _; omega
    isplitl [Hs0]; · iexact Hs0
    isplitl [Hs1]; · iexact Hs1
    iexists (insert (SemLoc.dma cc0_scoped1.sem, (default : HIx 1)) (insert (SemLoc.dma cc0_scoped0.sem, (default : HIx 1)) W')); isplitr
    · ipureintro; intro p hp
      rcases Finset.mem_insert.mp hp with hp | hp
      · exact .inr (hp ▸ rfl)
      rcases Finset.mem_insert.mp hp with hp | hp
      · exact .inr (hp ▸ rfl)
      · exact hW' p hp
    · iexact HO
  · unfold invC0
    isplitl [Hmw]; · iexact Hmw
    isplitl [Aa]; · iexact Aa
    isplitl [Hb']; · iexists _; iexact Hb'
    isplitl [Ho]
    · iexists _; isplitl [Ho]; · iexact Ho
      ipureintro; exact done_zero m d L _
    isplitl [Hs0]; · iexact Hs0
    isplitl [Hs1]; · iexact Hs1
    iexists W; isplitr
    · ipureintro; exact fun p hp => .inl hp
    · iexact HO
  iintro %_ HI
  unfold invC0
  icases HI with ⟨Hmw, Aa, ⟨%fb, Hb⟩, ⟨%fo, Ho, %hD⟩, Hs0, Hs1, %W1, %hW1, HO⟩
  have hDn : Done m d L (ncopy L) fo := by
    have h3 := ncopy_dvd L
    have e : 64 * (k0_t3_loop L).trips = ncopy L := by rw [trips3 L]; omega
    rw [← e]; exact hD
  sl_exec
  -- the remainder of the unrolling by one: no trips
  sl_for (fun (_ : Nat) (_ : PUnit) => (iprop(emp) : sProp 𝕄)) $$ []
  case region =>
    intro t _
    exact absurd t.isLt (by have h0 := trips4 L; change ¬ (t.val < (k0_t4_loop L).trips); omega)
  · iempintro
  iintro %_ -
  sl_exec
  -- the zero-filling loop
  sl_for (invF (F := F) m d L O W) $$ [Hmw Hz Ho Hs64 HO]
  case region =>
    intro t _
    unfold invF
    iintro ⟨Hmw, Hz, ⟨%fo, Ho, %hD⟩, Hs64, %W', %hW', HO⟩
    have hnc := ncopy_le L
    have htr : ncopy L + 64 * t.val + 64 ≤ 2048 := by
      have h1 := t.isLt; have h2 := trips35 L; obtain ⟨c, hc⟩ := ncopy_dvd L
      change t.val < (k0_t35_loop L).trips at h1
      rw [h2] at h1; omega
    have hoff : k0_off66 L t 0 = R0 L + (ncopy L + 64 * t.val) := by rw [off66_eq]; unfold R0; show _ + _ + _ + _ = _; omega
    have hsub := chunk_subset L (k0_off66 L t) (k0_off66_inb L t) (fun _ => rfl) (ncopy L + 64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Hz]; · iexact Hz
    isplitl [Ho]
    · iexists _; isplitl [Ho]; · iexact Ho
      ipureintro
      have e : ncopy L + 64 * (t.val + 1) = (ncopy L + 64 * t.val) + 64 := by omega
      rw [e]
      refine done_step m d L _ _ _ (ncopy L + 64 * t.val) hoff (by rw [off66_eq]; rfl) fo _ hD ?_
      exact hw_zero m d L t.val htr _ _ _ (by rw [hoff]; omega) _ (fun y => rfl)
    isplitl [Hs64]; · iexact Hs64
    iexists (insert (SemLoc.dma cc0_scoped64.sem, (default : HIx 1)) W'); isplitr
    · ipureintro; intro p hp
      rcases Finset.mem_insert.mp hp with hp | hp
      · exact .inr (hp ▸ rfl)
      · exact hW' p hp
    · iexact HO
  · unfold invF
    isplitl [Hmw]; · iexact Hmw
    isplitl [Hz]; · iexact Hz
    isplitl [Ho]
    · iexists _; isplitl [Ho]; · iexact Ho
      ipureintro; rw [Nat.mul_zero, Nat.add_zero]; exact hDn
    isplitl [Hs64]; · iexact Hs64
    iexists W1; isplitr
    · ipureintro; exact hW1
    · iexact HO
  iintro %_ HI
  unfold invF
  icases HI with ⟨Hmw, Hz, ⟨%fo2, Ho, %hD2⟩, Hs64, %W2, %hW2, HO⟩
  have hAll : Done m d L 2048 fo2 := by
    have hnc := ncopy_le L
    obtain ⟨c, hc⟩ := ncopy_dvd L
    have e : ncopy L + 64 * (k0_t35_loop L).trips = 2048 := by rw [trips35 L]; omega
    rw [← e]; exact hD2
  sl_exec
  sl_for (fun (_ : Nat) (_ : PUnit) => (iprop(emp) : sProp 𝕄)) $$ []
  case region =>
    intro t _
    exact absurd t.isLt (by have h0 := trips36 L; change ¬ (t.val < (k0_t36_loop L).trips); omega)
  · iempintro
  iintro %_ -
  sl_exec
  sl_step
  -- hand everything back
  isplitl [A1 A2 A3 A4 A5 A6 A7 A8 A9 A10 A11 A12 A13 A14 A15 Aa Ho]
  · isplitl [A1 A2 A3 A4 A5 A6 A7 A8 A9 A10 A11 A12 A13 A14 A15 Aa]
    ·
      isplitl [Aa]; · iapply (Entails.of_eq (pts_a0 (F := F) d L _ _)); iexact Aa
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [A12]; · iexact A12
      isplitl [A13]; · iexact A13
      isplitl [A14]; · iexact A14
      iexact A15
    · iapply (Entails.of_eq (pointsTo_congr (ℓ := oLoc d) (done_all m d L fo2 hAll))); iexact Ho
  isplitl [Hb Hz Hbufs]
  · isplitl [Hb]; · iexists _; iapply (Entails.of_eq (pts_b (F := F) d L _)); iexact Hb
    isplitl [Hz]; · iexists _; iapply (Entails.of_eq (pts_z (F := F) d L _)); iexact Hz
    iexact Hbufs
  isplitl [Hs0 Hs1 Hs64 Hsems]
  · isplitl [Hs0]; · iexact Hs0
    isplitl [Hs1]; · iexact Hs1
    isplitl [Hs64]; · iexact Hs64
    iexact Hsems
  iexists W2; isplitr
  · ipureintro; exact hW2
  · iexact HO

end Cert.Proof.KB

end
-- ==== Proof.KBTile1.lean ====
/-
  The task on subcore 1 (of either SparseCore): it serves sequence 1, of 3840 rows. Its second scratch buffer is
  zeroed; the rows of the sequence that fall in its half are copied, 64 at a time, through the first scratch buffer
  into its block of the output; the rest of the block is filled from the zeroed buffer. Each loop keeps "the first so
  many rows of the block hold the padded array".
-/
import proofs.«212850_g39865886441476_cont_8to1_b_277_5_alg».proof.Proof.KBTileCommon

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "a0W" => (Memref.whole Cert.Kernel.main_arg0_scv : Memref Cert.Kernel.sig Kind.scVector Space.hbm Cert.Kernel.S4096x512 EltTy.f32)
local notation "a1W" => (Memref.whole Cert.Kernel.main_arg1_scv : Memref Cert.Kernel.sig Kind.scVector Space.hbm Cert.Kernel.S3840x512 EltTy.f32)
local notation "a2W" => (Memref.whole Cert.Kernel.main_arg2_scv : Memref Cert.Kernel.sig Kind.scVector Space.hbm Cert.Kernel.S3584x512 EltTy.f32)
local notation "a3W" => (Memref.whole Cert.Kernel.main_arg3_scv : Memref Cert.Kernel.sig Kind.scVector Space.hbm Cert.Kernel.S3328x512 EltTy.f32)
local notation "a4W" => (Memref.whole Cert.Kernel.main_arg4_scv : Memref Cert.Kernel.sig Kind.scVector Space.hbm Cert.Kernel.S3072x512 EltTy.f32)
local notation "a5W" => (Memref.whole Cert.Kernel.main_arg5_scv : Memref Cert.Kernel.sig Kind.scVector Space.hbm Cert.Kernel.S2816x512 EltTy.f32)
local notation "a6W" => (Memref.whole Cert.Kernel.main_arg6_scv : Memref Cert.Kernel.sig Kind.scVector Space.hbm Cert.Kernel.S2560x512 EltTy.f32)
local notation "a7W" => (Memref.whole Cert.Kernel.main_arg7_scv : Memref Cert.Kernel.sig Kind.scVector Space.hbm Cert.Kernel.S2304x512 EltTy.f32)
local notation "a8W" => (Memref.whole Cert.Kernel.main_arg8_scv : Memref Cert.Kernel.sig Kind.scVector Space.hbm Cert.Kernel.S2048x512 EltTy.f32)
local notation "a9W" => (Memref.whole Cert.Kernel.main_arg9_scv : Memref Cert.Kernel.sig Kind.scVector Space.hbm Cert.Kernel.S1792x512 EltTy.f32)
local notation "a10W" => (Memref.whole Cert.Kernel.main_arg10_scv : Memref Cert.Kernel.sig Kind.scVector Space.hbm Cert.Kernel.S1536x512 EltTy.f32)
local notation "a11W" => (Memref.whole Cert.Kernel.main_arg11_scv : Memref Cert.Kernel.sig Kind.scVector Space.hbm Cert.Kernel.S1280x512 EltTy.f32)
local notation "a12W" => (Memref.whole Cert.Kernel.main_arg12_scv : Memref Cert.Kernel.sig Kind.scVector Space.hbm Cert.Kernel.S1024x512 EltTy.f32)
local notation "a13W" => (Memref.whole Cert.Kernel.main_arg13_scv : Memref Cert.Kernel.sig Kind.scVector Space.hbm Cert.Kernel.S768x512 EltTy.f32)
local notation "a14W" => (Memref.whole Cert.Kernel.main_arg14_scv : Memref Cert.Kernel.sig Kind.scVector Space.hbm Cert.Kernel.S512x512 EltTy.f32)
local notation "a15W" => (Memref.whole Cert.Kernel.main_arg15_scv : Memref Cert.Kernel.sig Kind.scVector Space.hbm Cert.Kernel.S256x512 EltTy.f32)
local notation "oW" => (Memref.whole Cert.Kernel.main_v0_scv : Memref Cert.Kernel.sig Kind.scVector Space.hbm Cert.Kernel.S65536x512 EltTy.f32)
local notation "bW" => (Memref.whole Cert.Kernel.cc0_scratch0 : Memref Cert.Kernel.sig Kind.scVector Space.vmem Cert.Kernel.S64x512 EltTy.f32)
local notation "zW" => (Memref.whole Cert.Kernel.cc0_scratch1 : Memref Cert.Kernel.sig Kind.scVector Space.vmem Cert.Kernel.S64x512 EltTy.f32)

variable (m : (ℓ : Loc nD τ sig) → Buf (Elt F) ℓ) (d : Dev nD)

omit [FloatOps F] in
theorem ownSems0_V1 (L : grid0.Coords) :
    (ownSems0 (thr d L) : sProp 𝕄)
      = iprop(semVal (thr d L, SemLoc.dma cc0_scoped4.sem) 0 ∗ semVal (thr d L, SemLoc.dma cc0_scoped5.sem) 0 ∗ semVal (thr d L, SemLoc.dma cc0_scoped64.sem) 0
          ∗ bigSep ((((ownCells (thr d L)).erase (thr d L, SemLoc.dma cc0_scoped4.sem)).erase (thr d L, SemLoc.dma cc0_scoped5.sem)).erase (thr d L, SemLoc.dma cc0_scoped64.sem))
              fun g => semVal g 0) := by
  unfold SparseCore.Cfg.ownSems0
  rw [SparseCore.bigSep_erase' ((mem_ownCells (g := (thr d L, SemLoc.dma cc0_scoped4.sem))).mpr ⟨rfl, by
      show (SemLoc.dma cc0_scoped4.sem : SemLoc sig).isScoped .scVector = true; decide⟩),
    SparseCore.bigSep_erase' (Finset.mem_erase.mpr ⟨by simp; decide, (mem_ownCells (g := (thr d L, SemLoc.dma cc0_scoped5.sem))).mpr ⟨rfl, by
      show (SemLoc.dma cc0_scoped5.sem : SemLoc sig).isScoped .scVector = true; decide⟩⟩),
    SparseCore.bigSep_erase' (Finset.mem_erase.mpr ⟨by simp; decide, Finset.mem_erase.mpr ⟨by simp; decide,
      (mem_ownCells (g := (thr d L, SemLoc.dma cc0_scoped64.sem))).mpr ⟨rfl, by show (SemLoc.dma cc0_scoped64.sem : SemLoc sig).isScoped .scVector = true; decide⟩⟩⟩)]

/-- The source chunk of trip `t`, as the program slices it. -/
abbrev srcS1 (L : grid0.Coords) (h : k0_cond2 L = 1#1) (t : Fin (k0_t5_loop L).trips) : Memref sig .scVector .hbm S64x512 .f32 :=
  (a1W).slice (Rect.unit (s := S3840x512) (k0_off6 L t) S64x512.size (k0_off6_inb L t h)) (fun _ => rfl)

omit [FloatOps F] in
theorem pts_a1 (L : grid0.Coords) (q : PosShare TreeShare) (f : Buf (Elt F) (aLoc1 d)) :
    ((a1W).view.loc (thr d L) ↦{q} f : sProp 𝕄) = aLoc1 d ↦{q} f := rfl

/-- The copying loop's invariant before trip `t`: the first `64 t` rows of the block hold the padded array. -/
def invC1 (L : grid0.Coords) (O : CellTallies nD τ sig (HIx 1)) (W : Waits sig (HIx 1)) (q : PosShare TreeShare) (t : Nat) (_ : PUnit) : sProp 𝕄 :=
  iprop(Transfers.MayWaits (thr d L) (none : HIx 1) O
    ∗ ((a1W).view.loc (thr d L) ↦{q} m (aLoc1 d))
    ∗ (∃ fb, (bW).view.loc (thr d L) ↦{fullShare} fb)
    ∗ (∃ fo, (oLoc d ↦[blkSet (bI L)]{fullShare} fo) ∗ ⌜Done m d L (64 * t) fo⌝)
    ∗ semVal (thr d L, SemLoc.dma cc0_scoped4.sem) 0
    ∗ semVal (thr d L, SemLoc.dma cc0_scoped5.sem) 0
    ∗ ∃ W', ⌜∀ p ∈ W', p ∈ W ∨ p.2 = none⌝ ∗ owes (thr d L) O W')

theorem tile_s1 (hF : (K (F := F)).Facts) (L : grid0.Coords) (hs : (L 1).val = 1) (O : CellTallies nD τ sig (HIx 1)) (W : Waits sig (HIx 1)) (hO : ∀ g, O g none = 0) :
    TileSpec m d L O W := by
  have k0_h1 : ¬ k0_cond1 L = 1#1 := fun h => absurd ((cond1_iff L).mp h) (by omega)
  have k0_h2 : k0_cond2 L = 1#1 := (cond2_iff L).mpr hs
  have k0_h3 : ¬ k0_cond3 L = 1#1 := fun h => absurd ((cond3_iff L).mp h) (by omega)
  have k0_h4 : ¬ k0_cond4 L = 1#1 := fun h => absurd ((cond4_iff L).mp h) (by omega)
  have k0_h5 : ¬ k0_cond5 L = 1#1 := fun h => absurd ((cond5_iff L).mp h) (by omega)
  have k0_h6 : ¬ k0_cond6 L = 1#1 := fun h => absurd ((cond6_iff L).mp h) (by omega)
  have k0_h7 : ¬ k0_cond7 L = 1#1 := fun h => absurd ((cond7_iff L).mp h) (by omega)
  have k0_h8 : ¬ k0_cond8 L = 1#1 := fun h => absurd ((cond8_iff L).mp h) (by omega)
  have k0_h9 : ¬ k0_cond9 L = 1#1 := fun h => absurd ((cond9_iff L).mp h) (by omega)
  have k0_h10 : ¬ k0_cond10 L = 1#1 := fun h => absurd ((cond10_iff L).mp h) (by omega)
  have k0_h11 : ¬ k0_cond11 L = 1#1 := fun h => absurd ((cond11_iff L).mp h) (by omega)
  have k0_h12 : ¬ k0_cond12 L = 1#1 := fun h => absurd ((cond12_iff L).mp h) (by omega)
  have k0_h13 : ¬ k0_cond13 L = 1#1 := fun h => absurd ((cond13_iff L).mp h) (by omega)
  have k0_h14 : ¬ k0_cond14 L = 1#1 := fun h => absurd ((cond14_iff L).mp h) (by omega)
  have k0_h15 : ¬ k0_cond15 L = 1#1 := fun h => absurd ((cond15_iff L).mp h) (by omega)
  have k0_h16 : ¬ k0_cond16 L = 1#1 := fun h => absurd ((cond16_iff L).mp h) (by omega)
  have rt : ∀ (fb rd : (cc0_scratch0 : Ref sig .scVector).ty.Contents (Elt F)),
      ReadAs.same.apply (View.read (Elt F) (View.whole (cc0_scratch0 : Ref sig .scVector)) (View.write (Elt F) (View.whole (cc0_scratch0 : Ref sig .scVector)) fb (ReadAs.same.apply rd) Finset.univ)) = rd :=
    fun fb rd => (congrArg (View.read (Elt F) (View.whole (cc0_scratch0 : Ref sig .scVector))) (View.write_whole_univ (Val := Elt F) (cc0_scratch0 : Ref sig .scVector) fb rd)).trans (View.read_whole _ rd)
  unfold TileSpec
  simp only [cc0__pad_body_eq_skeleton]; unfold cc0__pad_body_skel
  rw [(K (F := F)).scopedBufs_V hF d _ _, SparseCore.Cfg.scopedSems0_V (Val := Elt F) d _ _, ownSems0_V1, ownBufs_V]
  unfold argsAt
  iintro ⟨#Hlv, -, ⟨⟨A0, A1, A2, A3, A4, A5, A6, A7, A8, A9, A10, A11, A12, A13, A14, A15⟩, Ho⟩, ⟨⟨%fb, Hb⟩, ⟨%fz, Hz⟩, Hbufs⟩, ⟨Hs0, Hs1, Hs64, Hsems⟩, HO⟩
  ihave Hmw := ((K (F := F)).mayWaits_none (thr := thr d L) hO) $$ Hlv
  ihave Aa := (Entails.of_eq (pts_a1 (F := F) d L _ _).symm) $$ A1
  ihave Hb' := (Entails.of_eq (pts_b (F := F) d L _).symm) $$ Hb
  ihave Hz' := (Entails.of_eq (pts_z (F := F) d L _).symm) $$ Hz
  sl_exec
  -- the zeroing loops
  sl_for (invZ1 (F := F) d L) $$ [Hz']
  case region =>
    intro k1 _
    unfold invZ1
    iintro ⟨%f, Hz, %hf⟩
    sl_exec
    sl_for (invZ2 (F := F) d L k1) $$ [Hz]
    case region =>
      intro k2 _
      unfold invZ2
      iintro ⟨%f, Hz, %hf⟩
      sl_exec
      sl_step
      iexists _; isplitl [Hz]; · iexact Hz
      ipureintro
      exact invZ2_step k1 k2 f hf
    · unfold invZ2
      iexists f; isplitl [Hz]; · iexact Hz
      ipureintro
      exact invZ2_init k1 f hf
    iintro %_ HI
    unfold invZ2
    icases HI with ⟨%f', Hz, %hf'⟩
    sl_exec
    sl_step
    iexists f'; isplitl [Hz]; · iexact Hz
    ipureintro
    exact invZ1_step k1 f' hf'
  · unfold invZ1
    iexists fz; isplitl [Hz']; · iexact Hz'
    ipureintro
    intro r q h; omega
  iintro %_ HI
  unfold invZ1
  icases HI with ⟨%fz1, Hz, %hfz⟩
  have hfz1 : fz1 = fun _ => zF (F := F) := invZ1_final fz1 hfz
  subst hfz1
  sl_exec
  -- the copying loop
  sl_for (invC1 (F := F) m d L O W (shT (cL L) (sL L))) $$ [Hmw Aa Hb' Ho Hs0 Hs1 HO]
  case region =>
    intro t _
    unfold invC1
    iintro ⟨Hmw, Aa, ⟨%fb, Hb⟩, ⟨%fo, Ho, %hD⟩, Hs0, Hs1, %W', %hW', HO⟩
    have htr : 64 * t.val + 64 ≤ ncopy L := by
      have h1 := t.isLt; have h2 := trips5 L; have h3 := ncopy_dvd L
      change t.val < (k0_t5_loop L).trips at h1
      rw [h2] at h1; omega
    have hnc := ncopy_le L
    have hoff : k0_off7 L t 0 = R0 L + 64 * t.val := by rw [off7_eq]; unfold R0; rfl
    have hsub := chunk_subset L (k0_off7 L t) (k0_off7_inb L t k0_h2) (fun _ => rfl) (64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Aa]; · iexact Aa
    isplitl [Hb]; · iexists _; iexact Hb
    isplitl [Ho]
    · iexists _; isplitl [Ho]; · iexact Ho
      ipureintro
      have e : 64 * (t.val + 1) = 64 * t.val + 64 := by omega
      rw [e]
      refine done_step m d L _ _ _ (64 * t.val) hoff (by rw [off7_eq]; rfl) fo _ hD ?_
      refine hw_copy m d L (m (aLoc1 d)) (fun p q => by rw [hs]; rfl) (by rw [hs]) t.val htr _ _ _ hoff (by rw [off7_eq]; rfl)
        (fun y => (srcS1 L k0_h2 t).view.emb y) (fun y => ?_) _
        (fun y => (congrFun (rt fb _) y).trans ((View.read_apply (v := (srcS1 L k0_h2 t).view) _ y).trans (cast_eq _ _)))
      constructor
      · show k0_off6 L t 0 + 1 * (y 0).val = _; rw [off6_eq]; show 2048 * (L 0).val + 64 * t.val + 1 * (y 0).val = _; omega
      · show k0_off6 L t 1 + 1 * (y 1).val = _; rw [off6_eq]; show 0 + 1 * (y 1).val = _; omega
    isplitl [Hs0]; · iexact Hs0
    isplitl [Hs1]; · iexact Hs1
    iexists (insert (SemLoc.dma cc0_scoped5.sem, (default : HIx 1)) (insert (SemLoc.dma cc0_scoped4.sem, (default : HIx 1)) W')); isplitr
    · ipureintro; intro p hp
      rcases Finset.mem_insert.mp hp with hp | hp
      · exact .inr (hp ▸ rfl)
      rcases Finset.mem_insert.mp hp with hp | hp
      · exact .inr (hp ▸ rfl)
      · exact hW' p hp
    · iexact HO
  · unfold invC1
    isplitl [Hmw]; · iexact Hmw
    isplitl [Aa]; · iexact Aa
    isplitl [Hb']; · iexists _; iexact Hb'
    isplitl [Ho]
    · iexists _; isplitl [Ho]; · iexact Ho
      ipureintro; exact done_zero m d L _
    isplitl [Hs0]; · iexact Hs0
    isplitl [Hs1]; · iexact Hs1
    iexists W; isplitr
    · ipureintro; exact fun p hp => .inl hp
    · iexact HO
  iintro %_ HI
  unfold invC1
  icases HI with ⟨Hmw, Aa, ⟨%fb, Hb⟩, ⟨%fo, Ho, %hD⟩, Hs0, Hs1, %W1, %hW1, HO⟩
  have hDn : Done m d L (ncopy L) fo := by
    have h3 := ncopy_dvd L
    have e : 64 * (k0_t5_loop L).trips = ncopy L := by rw [trips5 L]; omega
    rw [← e]; exact hD
  sl_exec
  -- the remainder of the unrolling by one: no trips
  sl_for (fun (_ : Nat) (_ : PUnit) => (iprop(emp) : sProp 𝕄)) $$ []
  case region =>
    intro t _
    exact absurd t.isLt (by have h0 := trips6 L; change ¬ (t.val < (k0_t6_loop L).trips); omega)
  · iempintro
  iintro %_ -
  sl_exec
  -- the zero-filling loop
  sl_for (invF (F := F) m d L O W) $$ [Hmw Hz Ho Hs64 HO]
  case region =>
    intro t _
    unfold invF
    iintro ⟨Hmw, Hz, ⟨%fo, Ho, %hD⟩, Hs64, %W', %hW', HO⟩
    have hnc := ncopy_le L
    have htr : ncopy L + 64 * t.val + 64 ≤ 2048 := by
      have h1 := t.isLt; have h2 := trips35 L; obtain ⟨c, hc⟩ := ncopy_dvd L
      change t.val < (k0_t35_loop L).trips at h1
      rw [h2] at h1; omega
    have hoff : k0_off66 L t 0 = R0 L + (ncopy L + 64 * t.val) := by rw [off66_eq]; unfold R0; show _ + _ + _ + _ = _; omega
    have hsub := chunk_subset L (k0_off66 L t) (k0_off66_inb L t) (fun _ => rfl) (ncopy L + 64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Hz]; · iexact Hz
    isplitl [Ho]
    · iexists _; isplitl [Ho]; · iexact Ho
      ipureintro
      have e : ncopy L + 64 * (t.val + 1) = (ncopy L + 64 * t.val) + 64 := by omega
      rw [e]
      refine done_step m d L _ _ _ (ncopy L + 64 * t.val) hoff (by rw [off66_eq]; rfl) fo _ hD ?_
      exact hw_zero m d L t.val htr _ _ _ (by rw [hoff]; omega) _ (fun y => rfl)
    isplitl [Hs64]; · iexact Hs64
    iexists (insert (SemLoc.dma cc0_scoped64.sem, (default : HIx 1)) W'); isplitr
    · ipureintro; intro p hp
      rcases Finset.mem_insert.mp hp with hp | hp
      · exact .inr (hp ▸ rfl)
      · exact hW' p hp
    · iexact HO
  · unfold invF
    isplitl [Hmw]; · iexact Hmw
    isplitl [Hz]; · iexact Hz
    isplitl [Ho]
    · iexists _; isplitl [Ho]; · iexact Ho
      ipureintro; rw [Nat.mul_zero, Nat.add_zero]; exact hDn
    isplitl [Hs64]; · iexact Hs64
    iexists W1; isplitr
    · ipureintro; exact hW1
    · iexact HO
  iintro %_ HI
  unfold invF
  icases HI with ⟨Hmw, Hz, ⟨%fo2, Ho, %hD2⟩, Hs64, %W2, %hW2, HO⟩
  have hAll : Done m d L 2048 fo2 := by
    have hnc := ncopy_le L
    obtain ⟨c, hc⟩ := ncopy_dvd L
    have e : ncopy L + 64 * (k0_t35_loop L).trips = 2048 := by rw [trips35 L]; omega
    rw [← e]; exact hD2
  sl_exec
  sl_for (fun (_ : Nat) (_ : PUnit) => (iprop(emp) : sProp 𝕄)) $$ []
  case region =>
    intro t _
    exact absurd t.isLt (by have h0 := trips36 L; change ¬ (t.val < (k0_t36_loop L).trips); omega)
  · iempintro
  iintro %_ -
  sl_exec
  sl_step
  -- hand everything back
  isplitl [A0 A2 A3 A4 A5 A6 A7 A8 A9 A10 A11 A12 A13 A14 A15 Aa Ho]
  · isplitl [A0 A2 A3 A4 A5 A6 A7 A8 A9 A10 A11 A12 A13 A14 A15 Aa]
    ·
      isplitl [A0]; · iexact A0
      isplitl [Aa]; · iapply (Entails.of_eq (pts_a1 (F := F) d L _ _)); iexact Aa
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [A12]; · iexact A12
      isplitl [A13]; · iexact A13
      isplitl [A14]; · iexact A14
      iexact A15
    · iapply (Entails.of_eq (pointsTo_congr (ℓ := oLoc d) (done_all m d L fo2 hAll))); iexact Ho
  isplitl [Hb Hz Hbufs]
  · isplitl [Hb]; · iexists _; iapply (Entails.of_eq (pts_b (F := F) d L _)); iexact Hb
    isplitl [Hz]; · iexists _; iapply (Entails.of_eq (pts_z (F := F) d L _)); iexact Hz
    iexact Hbufs
  isplitl [Hs0 Hs1 Hs64 Hsems]
  · isplitl [Hs0]; · iexact Hs0
    isplitl [Hs1]; · iexact Hs1
    isplitl [Hs64]; · iexact Hs64
    iexact Hsems
  iexists W2; isplitr
  · ipureintro; exact hW2
  · iexact HO

end Cert.Proof.KB

end
-- ==== Proof.KBTile2.lean ====
/-
  The task on subcore 2 (of either SparseCore): it serves sequence 2, of 3584 rows. Its second scratch buffer is
  zeroed; the rows of the sequence that fall in its half are copied, 64 at a time, through the first scratch buffer
  into its block of the output; the rest of the block is filled from the zeroed buffer. Each loop keeps "the first so
  many rows of the block hold the padded array".
-/
import proofs.«212850_g39865886441476_cont_8to1_b_277_5_alg».proof.Proof.KBTileCommon

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "a0W" => (Memref.whole Cert.Kernel.main_arg0_scv : Memref Cert.Kernel.sig Kind.scVector Space.hbm Cert.Kernel.S4096x512 EltTy.f32)
local notation "a1W" => (Memref.whole Cert.Kernel.main_arg1_scv : Memref Cert.Kernel.sig Kind.scVector Space.hbm Cert.Kernel.S3840x512 EltTy.f32)
local notation "a2W" => (Memref.whole Cert.Kernel.main_arg2_scv : Memref Cert.Kernel.sig Kind.scVector Space.hbm Cert.Kernel.S3584x512 EltTy.f32)
local notation "a3W" => (Memref.whole Cert.Kernel.main_arg3_scv : Memref Cert.Kernel.sig Kind.scVector Space.hbm Cert.Kernel.S3328x512 EltTy.f32)
local notation "a4W" => (Memref.whole Cert.Kernel.main_arg4_scv : Memref Cert.Kernel.sig Kind.scVector Space.hbm Cert.Kernel.S3072x512 EltTy.f32)
local notation "a5W" => (Memref.whole Cert.Kernel.main_arg5_scv : Memref Cert.Kernel.sig Kind.scVector Space.hbm Cert.Kernel.S2816x512 EltTy.f32)
local notation "a6W" => (Memref.whole Cert.Kernel.main_arg6_scv : Memref Cert.Kernel.sig Kind.scVector Space.hbm Cert.Kernel.S2560x512 EltTy.f32)
local notation "a7W" => (Memref.whole Cert.Kernel.main_arg7_scv : Memref Cert.Kernel.sig Kind.scVector Space.hbm Cert.Kernel.S2304x512 EltTy.f32)
local notation "a8W" => (Memref.whole Cert.Kernel.main_arg8_scv : Memref Cert.Kernel.sig Kind.scVector Space.hbm Cert.Kernel.S2048x512 EltTy.f32)
local notation "a9W" => (Memref.whole Cert.Kernel.main_arg9_scv : Memref Cert.Kernel.sig Kind.scVector Space.hbm Cert.Kernel.S1792x512 EltTy.f32)
local notation "a10W" => (Memref.whole Cert.Kernel.main_arg10_scv : Memref Cert.Kernel.sig Kind.scVector Space.hbm Cert.Kernel.S1536x512 EltTy.f32)
local notation "a11W" => (Memref.whole Cert.Kernel.main_arg11_scv : Memref Cert.Kernel.sig Kind.scVector Space.hbm Cert.Kernel.S1280x512 EltTy.f32)
local notation "a12W" => (Memref.whole Cert.Kernel.main_arg12_scv : Memref Cert.Kernel.sig Kind.scVector Space.hbm Cert.Kernel.S1024x512 EltTy.f32)
local notation "a13W" => (Memref.whole Cert.Kernel.main_arg13_scv : Memref Cert.Kernel.sig Kind.scVector Space.hbm Cert.Kernel.S768x512 EltTy.f32)
local notation "a14W" => (Memref.whole Cert.Kernel.main_arg14_scv : Memref Cert.Kernel.sig Kind.scVector Space.hbm Cert.Kernel.S512x512 EltTy.f32)
local notation "a15W" => (Memref.whole Cert.Kernel.main_arg15_scv : Memref Cert.Kernel.sig Kind.scVector Space.hbm Cert.Kernel.S256x512 EltTy.f32)
local notation "oW" => (Memref.whole Cert.Kernel.main_v0_scv : Memref Cert.Kernel.sig Kind.scVector Space.hbm Cert.Kernel.S65536x512 EltTy.f32)
local notation "bW" => (Memref.whole Cert.Kernel.cc0_scratch0 : Memref Cert.Kernel.sig Kind.scVector Space.vmem Cert.Kernel.S64x512 EltTy.f32)
local notation "zW" => (Memref.whole Cert.Kernel.cc0_scratch1 : Memref Cert.Kernel.sig Kind.scVector Space.vmem Cert.Kernel.S64x512 EltTy.f32)

variable (m : (ℓ : Loc nD τ sig) → Buf (Elt F) ℓ) (d : Dev nD)

omit [FloatOps F] in
theorem ownSems0_V2 (L : grid0.Coords) :
    (ownSems0 (thr d L) : sProp 𝕄)
      = iprop(semVal (thr d L, SemLoc.dma cc0_scoped8.sem) 0 ∗ semVal (thr d L, SemLoc.dma cc0_scoped9.sem) 0 ∗ semVal (thr d L, SemLoc.dma cc0_scoped64.sem) 0
          ∗ bigSep ((((ownCells (thr d L)).erase (thr d L, SemLoc.dma cc0_scoped8.sem)).erase (thr d L, SemLoc.dma cc0_scoped9.sem)).erase (thr d L, SemLoc.dma cc0_scoped64.sem))
              fun g => semVal g 0) := by
  unfold SparseCore.Cfg.ownSems0
  rw [SparseCore.bigSep_erase' ((mem_ownCells (g := (thr d L, SemLoc.dma cc0_scoped8.sem))).mpr ⟨rfl, by
      show (SemLoc.dma cc0_scoped8.sem : SemLoc sig).isScoped .scVector = true; decide⟩),
    SparseCore.bigSep_erase' (Finset.mem_erase.mpr ⟨by simp; decide, (mem_ownCells (g := (thr d L, SemLoc.dma cc0_scoped9.sem))).mpr ⟨rfl, by
      show (SemLoc.dma cc0_scoped9.sem : SemLoc sig).isScoped .scVector = true; decide⟩⟩),
    SparseCore.bigSep_erase' (Finset.mem_erase.mpr ⟨by simp; decide, Finset.mem_erase.mpr ⟨by simp; decide,
      (mem_ownCells (g := (thr d L, SemLoc.dma cc0_scoped64.sem))).mpr ⟨rfl, by show (SemLoc.dma cc0_scoped64.sem : SemLoc sig).isScoped .scVector = true; decide⟩⟩⟩)]

/-- The source chunk of trip `t`, as the program slices it. -/
abbrev srcS2 (L : grid0.Coords) (h : k0_cond3 L = 1#1) (t : Fin (k0_t7_loop L).trips) : Memref sig .scVector .hbm S64x512 .f32 :=
  (a2W).slice (Rect.unit (s := S3584x512) (k0_off10 L t) S64x512.size (k0_off10_inb L t h)) (fun _ => rfl)

omit [FloatOps F] in
theorem pts_a2 (L : grid0.Coords) (q : PosShare TreeShare) (f : Buf (Elt F) (aLoc2 d)) :
    ((a2W).view.loc (thr d L) ↦{q} f : sProp 𝕄) = aLoc2 d ↦{q} f := rfl

/-- The copying loop's invariant before trip `t`: the first `64 t` rows of the block hold the padded array. -/
def invC2 (L : grid0.Coords) (O : CellTallies nD τ sig (HIx 1)) (W : Waits sig (HIx 1)) (q : PosShare TreeShare) (t : Nat) (_ : PUnit) : sProp 𝕄 :=
  iprop(Transfers.MayWaits (thr d L) (none : HIx 1) O
    ∗ ((a2W).view.loc (thr d L) ↦{q} m (aLoc2 d))
    ∗ (∃ fb, (bW).view.loc (thr d L) ↦{fullShare} fb)
    ∗ (∃ fo, (oLoc d ↦[blkSet (bI L)]{fullShare} fo) ∗ ⌜Done m d L (64 * t) fo⌝)
    ∗ semVal (thr d L, SemLoc.dma cc0_scoped8.sem) 0
    ∗ semVal (thr d L, SemLoc.dma cc0_scoped9.sem) 0
    ∗ ∃ W', ⌜∀ p ∈ W', p ∈ W ∨ p.2 = none⌝ ∗ owes (thr d L) O W')

theorem tile_s2 (hF : (K (F := F)).Facts) (L : grid0.Coords) (hs : (L 1).val = 2) (O : CellTallies nD τ sig (HIx 1)) (W : Waits sig (HIx 1)) (hO : ∀ g, O g none = 0) :
    TileSpec m d L O W := by
  have k0_h1 : ¬ k0_cond1 L = 1#1 := fun h => absurd ((cond1_iff L).mp h) (by omega)
  have k0_h2 : ¬ k0_cond2 L = 1#1 := fun h => absurd ((cond2_iff L).mp h) (by omega)
  have k0_h3 : k0_cond3 L = 1#1 := (cond3_iff L).mpr hs
  have k0_h4 : ¬ k0_cond4 L = 1#1 := fun h => absurd ((cond4_iff L).mp h) (by omega)
  have k0_h5 : ¬ k0_cond5 L = 1#1 := fun h => absurd ((cond5_iff L).mp h) (by omega)
  have k0_h6 : ¬ k0_cond6 L = 1#1 := fun h => absurd ((cond6_iff L).mp h) (by omega)
  have k0_h7 : ¬ k0_cond7 L = 1#1 := fun h => absurd ((cond7_iff L).mp h) (by omega)
  have k0_h8 : ¬ k0_cond8 L = 1#1 := fun h => absurd ((cond8_iff L).mp h) (by omega)
  have k0_h9 : ¬ k0_cond9 L = 1#1 := fun h => absurd ((cond9_iff L).mp h) (by omega)
  have k0_h10 : ¬ k0_cond10 L = 1#1 := fun h => absurd ((cond10_iff L).mp h) (by omega)
  have k0_h11 : ¬ k0_cond11 L = 1#1 := fun h => absurd ((cond11_iff L).mp h) (by omega)
  have k0_h12 : ¬ k0_cond12 L = 1#1 := fun h => absurd ((cond12_iff L).mp h) (by omega)
  have k0_h13 : ¬ k0_cond13 L = 1#1 := fun h => absurd ((cond13_iff L).mp h) (by omega)
  have k0_h14 : ¬ k0_cond14 L = 1#1 := fun h => absurd ((cond14_iff L).mp h) (by omega)
  have k0_h15 : ¬ k0_cond15 L = 1#1 := fun h => absurd ((cond15_iff L).mp h) (by omega)
  have k0_h16 : ¬ k0_cond16 L = 1#1 := fun h => absurd ((cond16_iff L).mp h) (by omega)
  have rt : ∀ (fb rd : (cc0_scratch0 : Ref sig .scVector).ty.Contents (Elt F)),
      ReadAs.same.apply (View.read (Elt F) (View.whole (cc0_scratch0 : Ref sig .scVector)) (View.write (Elt F) (View.whole (cc0_scratch0 : Ref sig .scVector)) fb (ReadAs.same.apply rd) Finset.univ)) = rd :=
    fun fb rd => (congrArg (View.read (Elt F) (View.whole (cc0_scratch0 : Ref sig .scVector))) (View.write_whole_univ (Val := Elt F) (cc0_scratch0 : Ref sig .scVector) fb rd)).trans (View.read_whole _ rd)
  unfold TileSpec
  simp only [cc0__pad_body_eq_skeleton]; unfold cc0__pad_body_skel
  rw [(K (F := F)).scopedBufs_V hF d _ _, SparseCore.Cfg.scopedSems0_V (Val := Elt F) d _ _, ownSems0_V2, ownBufs_V]
  unfold argsAt
  iintro ⟨#Hlv, -, ⟨⟨A0, A1, A2, A3, A4, A5, A6, A7, A8, A9, A10, A11, A12, A13, A14, A15⟩, Ho⟩, ⟨⟨%fb, Hb⟩, ⟨%fz, Hz⟩, Hbufs⟩, ⟨Hs0, Hs1, Hs64, Hsems⟩, HO⟩
  ihave Hmw := ((K (F := F)).mayWaits_none (thr := thr d L) hO) $$ Hlv
  ihave Aa := (Entails.of_eq (pts_a2 (F := F) d L _ _).symm) $$ A2
  ihave Hb' := (Entails.of_eq (pts_b (F := F) d L _).symm) $$ Hb
  ihave Hz' := (Entails.of_eq (pts_z (F := F) d L _).symm) $$ Hz
  sl_exec
  -- the zeroing loops
  sl_for (invZ1 (F := F) d L) $$ [Hz']
  case region =>
    intro k1 _
    unfold invZ1
    iintro ⟨%f, Hz, %hf⟩
    sl_exec
    sl_for (invZ2 (F := F) d L k1) $$ [Hz]
    case region =>
      intro k2 _
      unfold invZ2
      iintro ⟨%f, Hz, %hf⟩
      sl_exec
      sl_step
      iexists _; isplitl [Hz]; · iexact Hz
      ipureintro
      exact invZ2_step k1 k2 f hf
    · unfold invZ2
      iexists f; isplitl [Hz]; · iexact Hz
      ipureintro
      exact invZ2_init k1 f hf
    iintro %_ HI
    unfold invZ2
    icases HI with ⟨%f', Hz, %hf'⟩
    sl_exec
    sl_step
    iexists f'; isplitl [Hz]; · iexact Hz
    ipureintro
    exact invZ1_step k1 f' hf'
  · unfold invZ1
    iexists fz; isplitl [Hz']; · iexact Hz'
    ipureintro
    intro r q h; omega
  iintro %_ HI
  unfold invZ1
  icases HI with ⟨%fz1, Hz, %hfz⟩
  have hfz1 : fz1 = fun _ => zF (F := F) := invZ1_final fz1 hfz
  subst hfz1
  sl_exec
  -- the copying loop
  sl_for (invC2 (F := F) m d L O W (shT (cL L) (sL L))) $$ [Hmw Aa Hb' Ho Hs0 Hs1 HO]
  case region =>
    intro t _
    unfold invC2
    iintro ⟨Hmw, Aa, ⟨%fb, Hb⟩, ⟨%fo, Ho, %hD⟩, Hs0, Hs1, %W', %hW', HO⟩
    have htr : 64 * t.val + 64 ≤ ncopy L := by
      have h1 := t.isLt; have h2 := trips7 L; have h3 := ncopy_dvd L
      change t.val < (k0_t7_loop L).trips at h1
      rw [h2] at h1; omega
    have hnc := ncopy_le L
    have hoff : k0_off11 L t 0 = R0 L + 64 * t.val := by rw [off11_eq]; unfold R0; rfl
    have hsub := chunk_subset L (k0_off11 L t) (k0_off11_inb L t k0_h3) (fun _ => rfl) (64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Aa]; · iexact Aa
    isplitl [Hb]; · iexists _; iexact Hb
    isplitl [Ho]
    · iexists _; isplitl [Ho]; · iexact Ho
      ipureintro
      have e : 64 * (t.val + 1) = 64 * t.val + 64 := by omega
      rw [e]
      refine done_step m d L _ _ _ (64 * t.val) hoff (by rw [off11_eq]; rfl) fo _ hD ?_
      refine hw_copy m d L (m (aLoc2 d)) (fun p q => by rw [hs]; rfl) (by rw [hs]) t.val htr _ _ _ hoff (by rw [off11_eq]; rfl)
        (fun y => (srcS2 L k0_h3 t).view.emb y) (fun y => ?_) _
        (fun y => (congrFun (rt fb _) y).trans ((View.read_apply (v := (srcS2 L k0_h3 t).view) _ y).trans (cast_eq _ _)))
      constructor
      · show k0_off10 L t 0 + 1 * (y 0).val = _; rw [off10_eq]; show 2048 * (L 0).val + 64 * t.val + 1 * (y 0).val = _; omega
      · show k0_off10 L t 1 + 1 * (y 1).val = _; rw [off10_eq]; show 0 + 1 * (y 1).val = _; omega
    isplitl [Hs0]; · iexact Hs0
    isplitl [Hs1]; · iexact Hs1
    iexists (insert (SemLoc.dma cc0_scoped9.sem, (default : HIx 1)) (insert (SemLoc.dma cc0_scoped8.sem, (default : HIx 1)) W')); isplitr
    · ipureintro; intro p hp
      rcases Finset.mem_insert.mp hp with hp | hp
      · exact .inr (hp ▸ rfl)
      rcases Finset.mem_insert.mp hp with hp | hp
      · exact .inr (hp ▸ rfl)
      · exact hW' p hp
    · iexact HO
  · unfold invC2
    isplitl [Hmw]; · iexact Hmw
    isplitl [Aa]; · iexact Aa
    isplitl [Hb']; · iexists _; iexact Hb'
    isplitl [Ho]
    · iexists _; isplitl [Ho]; · iexact Ho
      ipureintro; exact done_zero m d L _
    isplitl [Hs0]; · iexact Hs0
    isplitl [Hs1]; · iexact Hs1
    iexists W; isplitr
    · ipureintro; exact fun p hp => .inl hp
    · iexact HO
  iintro %_ HI
  unfold invC2
  icases HI with ⟨Hmw, Aa, ⟨%fb, Hb⟩, ⟨%fo, Ho, %hD⟩, Hs0, Hs1, %W1, %hW1, HO⟩
  have hDn : Done m d L (ncopy L) fo := by
    have h3 := ncopy_dvd L
    have e : 64 * (k0_t7_loop L).trips = ncopy L := by rw [trips7 L]; omega
    rw [← e]; exact hD
  sl_exec
  -- the remainder of the unrolling by one: no trips
  sl_for (fun (_ : Nat) (_ : PUnit) => (iprop(emp) : sProp 𝕄)) $$ []
  case region =>
    intro t _
    exact absurd t.isLt (by have h0 := trips8 L; change ¬ (t.val < (k0_t8_loop L).trips); omega)
  · iempintro
  iintro %_ -
  sl_exec
  -- the zero-filling loop
  sl_for (invF (F := F) m d L O W) $$ [Hmw Hz Ho Hs64 HO]
  case region =>
    intro t _
    unfold invF
    iintro ⟨Hmw, Hz, ⟨%fo, Ho, %hD⟩, Hs64, %W', %hW', HO⟩
    have hnc := ncopy_le L
    have htr : ncopy L + 64 * t.val + 64 ≤ 2048 := by
      have h1 := t.isLt; have h2 := trips35 L; obtain ⟨c, hc⟩ := ncopy_dvd L
      change t.val < (k0_t35_loop L).trips at h1
      rw [h2] at h1; omega
    have hoff : k0_off66 L t 0 = R0 L + (ncopy L + 64 * t.val) := by rw [off66_eq]; unfold R0; show _ + _ + _ + _ = _; omega
    have hsub := chunk_subset L (k0_off66 L t) (k0_off66_inb L t) (fun _ => rfl) (ncopy L + 64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Hz]; · iexact Hz
    isplitl [Ho]
    · iexists _; isplitl [Ho]; · iexact Ho
      ipureintro
      have e : ncopy L + 64 * (t.val + 1) = (ncopy L + 64 * t.val) + 64 := by omega
      rw [e]
      refine done_step m d L _ _ _ (ncopy L + 64 * t.val) hoff (by rw [off66_eq]; rfl) fo _ hD ?_
      exact hw_zero m d L t.val htr _ _ _ (by rw [hoff]; omega) _ (fun y => rfl)
    isplitl [Hs64]; · iexact Hs64
    iexists (insert (SemLoc.dma cc0_scoped64.sem, (default : HIx 1)) W'); isplitr
    · ipureintro; intro p hp
      rcases Finset.mem_insert.mp hp with hp | hp
      · exact .inr (hp ▸ rfl)
      · exact hW' p hp
    · iexact HO
  · unfold invF
    isplitl [Hmw]; · iexact Hmw
    isplitl [Hz]; · iexact Hz
    isplitl [Ho]
    · iexists _; isplitl [Ho]; · iexact Ho
      ipureintro; rw [Nat.mul_zero, Nat.add_zero]; exact hDn
    isplitl [Hs64]; · iexact Hs64
    iexists W1; isplitr
    · ipureintro; exact hW1
    · iexact HO
  iintro %_ HI
  unfold invF
  icases HI with ⟨Hmw, Hz, ⟨%fo2, Ho, %hD2⟩, Hs64, %W2, %hW2, HO⟩
  have hAll : Done m d L 2048 fo2 := by
    have hnc := ncopy_le L
    obtain ⟨c, hc⟩ := ncopy_dvd L
    have e : ncopy L + 64 * (k0_t35_loop L).trips = 2048 := by rw [trips35 L]; omega
    rw [← e]; exact hD2
  sl_exec
  sl_for (fun (_ : Nat) (_ : PUnit) => (iprop(emp) : sProp 𝕄)) $$ []
  case region =>
    intro t _
    exact absurd t.isLt (by have h0 := trips36 L; change ¬ (t.val < (k0_t36_loop L).trips); omega)
  · iempintro
  iintro %_ -
  sl_exec
  sl_step
  -- hand everything back
  isplitl [A0 A1 A3 A4 A5 A6 A7 A8 A9 A10 A11 A12 A13 A14 A15 Aa Ho]
  · isplitl [A0 A1 A3 A4 A5 A6 A7 A8 A9 A10 A11 A12 A13 A14 A15 Aa]
    ·
      isplitl [A0]; · iexact A0
      isplitl [A1]; · iexact A1
      isplitl [Aa]; · iapply (Entails.of_eq (pts_a2 (F := F) d L _ _)); iexact Aa
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [A12]; · iexact A12
      isplitl [A13]; · iexact A13
      isplitl [A14]; · iexact A14
      iexact A15
    · iapply (Entails.of_eq (pointsTo_congr (ℓ := oLoc d) (done_all m d L fo2 hAll))); iexact Ho
  isplitl [Hb Hz Hbufs]
  · isplitl [Hb]; · iexists _; iapply (Entails.of_eq (pts_b (F := F) d L _)); iexact Hb
    isplitl [Hz]; · iexists _; iapply (Entails.of_eq (pts_z (F := F) d L _)); iexact Hz
    iexact Hbufs
  isplitl [Hs0 Hs1 Hs64 Hsems]
  · isplitl [Hs0]; · iexact Hs0
    isplitl [Hs1]; · iexact Hs1
    isplitl [Hs64]; · iexact Hs64
    iexact Hsems
  iexists W2; isplitr
  · ipureintro; exact hW2
  · iexact HO

end Cert.Proof.KB

end
-- ==== Proof.KBTile3.lean ====
/-
  The task on subcore 3 (of either SparseCore): it serves sequence 3, of 3328 rows. Its second scratch buffer is
  zeroed; the rows of the sequence that fall in its half are copied, 64 at a time, through the first scratch buffer
  into its block of the output; the rest of the block is filled from the zeroed buffer. Each loop keeps "the first so
  many rows of the block hold the padded array".
-/
import proofs.«212850_g39865886441476_cont_8to1_b_277_5_alg».proof.Proof.KBTileCommon

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "a0W" => (Memref.whole Cert.Kernel.main_arg0_scv : Memref Cert.Kernel.sig Kind.scVector Space.hbm Cert.Kernel.S4096x512 EltTy.f32)
local notation "a1W" => (Memref.whole Cert.Kernel.main_arg1_scv : Memref Cert.Kernel.sig Kind.scVector Space.hbm Cert.Kernel.S3840x512 EltTy.f32)
local notation "a2W" => (Memref.whole Cert.Kernel.main_arg2_scv : Memref Cert.Kernel.sig Kind.scVector Space.hbm Cert.Kernel.S3584x512 EltTy.f32)
local notation "a3W" => (Memref.whole Cert.Kernel.main_arg3_scv : Memref Cert.Kernel.sig Kind.scVector Space.hbm Cert.Kernel.S3328x512 EltTy.f32)
local notation "a4W" => (Memref.whole Cert.Kernel.main_arg4_scv : Memref Cert.Kernel.sig Kind.scVector Space.hbm Cert.Kernel.S3072x512 EltTy.f32)
local notation "a5W" => (Memref.whole Cert.Kernel.main_arg5_scv : Memref Cert.Kernel.sig Kind.scVector Space.hbm Cert.Kernel.S2816x512 EltTy.f32)
local notation "a6W" => (Memref.whole Cert.Kernel.main_arg6_scv : Memref Cert.Kernel.sig Kind.scVector Space.hbm Cert.Kernel.S2560x512 EltTy.f32)
local notation "a7W" => (Memref.whole Cert.Kernel.main_arg7_scv : Memref Cert.Kernel.sig Kind.scVector Space.hbm Cert.Kernel.S2304x512 EltTy.f32)
local notation "a8W" => (Memref.whole Cert.Kernel.main_arg8_scv : Memref Cert.Kernel.sig Kind.scVector Space.hbm Cert.Kernel.S2048x512 EltTy.f32)
local notation "a9W" => (Memref.whole Cert.Kernel.main_arg9_scv : Memref Cert.Kernel.sig Kind.scVector Space.hbm Cert.Kernel.S1792x512 EltTy.f32)
local notation "a10W" => (Memref.whole Cert.Kernel.main_arg10_scv : Memref Cert.Kernel.sig Kind.scVector Space.hbm Cert.Kernel.S1536x512 EltTy.f32)
local notation "a11W" => (Memref.whole Cert.Kernel.main_arg11_scv : Memref Cert.Kernel.sig Kind.scVector Space.hbm Cert.Kernel.S1280x512 EltTy.f32)
local notation "a12W" => (Memref.whole Cert.Kernel.main_arg12_scv : Memref Cert.Kernel.sig Kind.scVector Space.hbm Cert.Kernel.S1024x512 EltTy.f32)
local notation "a13W" => (Memref.whole Cert.Kernel.main_arg13_scv : Memref Cert.Kernel.sig Kind.scVector Space.hbm Cert.Kernel.S768x512 EltTy.f32)
local notation "a14W" => (Memref.whole Cert.Kernel.main_arg14_scv : Memref Cert.Kernel.sig Kind.scVector Space.hbm Cert.Kernel.S512x512 EltTy.f32)
local notation "a15W" => (Memref.whole Cert.Kernel.main_arg15_scv : Memref Cert.Kernel.sig Kind.scVector Space.hbm Cert.Kernel.S256x512 EltTy.f32)
local notation "oW" => (Memref.whole Cert.Kernel.main_v0_scv : Memref Cert.Kernel.sig Kind.scVector Space.hbm Cert.Kernel.S65536x512 EltTy.f32)
local notation "bW" => (Memref.whole Cert.Kernel.cc0_scratch0 : Memref Cert.Kernel.sig Kind.scVector Space.vmem Cert.Kernel.S64x512 EltTy.f32)
local notation "zW" => (Memref.whole Cert.Kernel.cc0_scratch1 : Memref Cert.Kernel.sig Kind.scVector Space.vmem Cert.Kernel.S64x512 EltTy.f32)

variable (m : (ℓ : Loc nD τ sig) → Buf (Elt F) ℓ) (d : Dev nD)

omit [FloatOps F] in
theorem ownSems0_V3 (L : grid0.Coords) :
    (ownSems0 (thr d L) : sProp 𝕄)
      = iprop(semVal (thr d L, SemLoc.dma cc0_scoped12.sem) 0 ∗ semVal (thr d L, SemLoc.dma cc0_scoped13.sem) 0 ∗ semVal (thr d L, SemLoc.dma cc0_scoped64.sem) 0
          ∗ bigSep ((((ownCells (thr d L)).erase (thr d L, SemLoc.dma cc0_scoped12.sem)).erase (thr d L, SemLoc.dma cc0_scoped13.sem)).erase (thr d L, SemLoc.dma cc0_scoped64.sem))
              fun g => semVal g 0) := by
  unfold SparseCore.Cfg.ownSems0
  rw [SparseCore.bigSep_erase' ((mem_ownCells (g := (thr d L, SemLoc.dma cc0_scoped12.sem))).mpr ⟨rfl, by
      show (SemLoc.dma cc0_scoped12.sem : SemLoc sig).isScoped .scVector = true; decide⟩),
    SparseCore.bigSep_erase' (Finset.mem_erase.mpr ⟨by simp; decide, (mem_ownCells (g := (thr d L, SemLoc.dma cc0_scoped13.sem))).mpr ⟨rfl, by
      show (SemLoc.dma cc0_scoped13.sem : SemLoc sig).isScoped .scVector = true; decide⟩⟩),
    SparseCore.bigSep_erase' (Finset.mem_erase.mpr ⟨by simp; decide, Finset.mem_erase.mpr ⟨by simp; decide,
      (mem_ownCells (g := (thr d L, SemLoc.dma cc0_scoped64.sem))).mpr ⟨rfl, by show (SemLoc.dma cc0_scoped64.sem : SemLoc sig).isScoped .scVector = true; decide⟩⟩⟩)]

/-- The source chunk of trip `t`, as the program slices it. -/
abbrev srcS3 (L : grid0.Coords) (h : k0_cond4 L = 1#1) (t : Fin (k0_t9_loop L).trips) : Memref sig .scVector .hbm S64x512 .f32 :=
  (a3W).slice (Rect.unit (s := S3328x512) (k0_off14 L t) S64x512.size (k0_off14_inb L t h)) (fun _ => rfl)

omit [FloatOps F] in
theorem pts_a3 (L : grid0.Coords) (q : PosShare TreeShare) (f : Buf (Elt F) (aLoc3 d)) :
    ((a3W).view.loc (thr d L) ↦{q} f : sProp 𝕄) = aLoc3 d ↦{q} f := rfl

/-- The copying loop's invariant before trip `t`: the first `64 t` rows of the block hold the padded array. -/
def invC3 (L : grid0.Coords) (O : CellTallies nD τ sig (HIx 1)) (W : Waits sig (HIx 1)) (q : PosShare TreeShare) (t : Nat) (_ : PUnit) : sProp 𝕄 :=
  iprop(Transfers.MayWaits (thr d L) (none : HIx 1) O
    ∗ ((a3W).view.loc (thr d L) ↦{q} m (aLoc3 d))
    ∗ (∃ fb, (bW).view.loc (thr d L) ↦{fullShare} fb)
    ∗ (∃ fo, (oLoc d ↦[blkSet (bI L)]{fullShare} fo) ∗ ⌜Done m d L (64 * t) fo⌝)
    ∗ semVal (thr d L, SemLoc.dma cc0_scoped12.sem) 0
    ∗ semVal (thr d L, SemLoc.dma cc0_scoped13.sem) 0
    ∗ ∃ W', ⌜∀ p ∈ W', p ∈ W ∨ p.2 = none⌝ ∗ owes (thr d L) O W')

theorem tile_s3 (hF : (K (F := F)).Facts) (L : grid0.Coords) (hs : (L 1).val = 3) (O : CellTallies nD τ sig (HIx 1)) (W : Waits sig (HIx 1)) (hO : ∀ g, O g none = 0) :
    TileSpec m d L O W := by
  have k0_h1 : ¬ k0_cond1 L = 1#1 := fun h => absurd ((cond1_iff L).mp h) (by omega)
  have k0_h2 : ¬ k0_cond2 L = 1#1 := fun h => absurd ((cond2_iff L).mp h) (by omega)
  have k0_h3 : ¬ k0_cond3 L = 1#1 := fun h => absurd ((cond3_iff L).mp h) (by omega)
  have k0_h4 : k0_cond4 L = 1#1 := (cond4_iff L).mpr hs
  have k0_h5 : ¬ k0_cond5 L = 1#1 := fun h => absurd ((cond5_iff L).mp h) (by omega)
  have k0_h6 : ¬ k0_cond6 L = 1#1 := fun h => absurd ((cond6_iff L).mp h) (by omega)
  have k0_h7 : ¬ k0_cond7 L = 1#1 := fun h => absurd ((cond7_iff L).mp h) (by omega)
  have k0_h8 : ¬ k0_cond8 L = 1#1 := fun h => absurd ((cond8_iff L).mp h) (by omega)
  have k0_h9 : ¬ k0_cond9 L = 1#1 := fun h => absurd ((cond9_iff L).mp h) (by omega)
  have k0_h10 : ¬ k0_cond10 L = 1#1 := fun h => absurd ((cond10_iff L).mp h) (by omega)
  have k0_h11 : ¬ k0_cond11 L = 1#1 := fun h => absurd ((cond11_iff L).mp h) (by omega)
  have k0_h12 : ¬ k0_cond12 L = 1#1 := fun h => absurd ((cond12_iff L).mp h) (by omega)
  have k0_h13 : ¬ k0_cond13 L = 1#1 := fun h => absurd ((cond13_iff L).mp h) (by omega)
  have k0_h14 : ¬ k0_cond14 L = 1#1 := fun h => absurd ((cond14_iff L).mp h) (by omega)
  have k0_h15 : ¬ k0_cond15 L = 1#1 := fun h => absurd ((cond15_iff L).mp h) (by omega)
  have k0_h16 : ¬ k0_cond16 L = 1#1 := fun h => absurd ((cond16_iff L).mp h) (by omega)
  have rt : ∀ (fb rd : (cc0_scratch0 : Ref sig .scVector).ty.Contents (Elt F)),
      ReadAs.same.apply (View.read (Elt F) (View.whole (cc0_scratch0 : Ref sig .scVector)) (View.write (Elt F) (View.whole (cc0_scratch0 : Ref sig .scVector)) fb (ReadAs.same.apply rd) Finset.univ)) = rd :=
    fun fb rd => (congrArg (View.read (Elt F) (View.whole (cc0_scratch0 : Ref sig .scVector))) (View.write_whole_univ (Val := Elt F) (cc0_scratch0 : Ref sig .scVector) fb rd)).trans (View.read_whole _ rd)
  unfold TileSpec
  simp only [cc0__pad_body_eq_skeleton]; unfold cc0__pad_body_skel
  rw [(K (F := F)).scopedBufs_V hF d _ _, SparseCore.Cfg.scopedSems0_V (Val := Elt F) d _ _, ownSems0_V3, ownBufs_V]
  unfold argsAt
  iintro ⟨#Hlv, -, ⟨⟨A0, A1, A2, A3, A4, A5, A6, A7, A8, A9, A10, A11, A12, A13, A14, A15⟩, Ho⟩, ⟨⟨%fb, Hb⟩, ⟨%fz, Hz⟩, Hbufs⟩, ⟨Hs0, Hs1, Hs64, Hsems⟩, HO⟩
  ihave Hmw := ((K (F := F)).mayWaits_none (thr := thr d L) hO) $$ Hlv
  ihave Aa := (Entails.of_eq (pts_a3 (F := F) d L _ _).symm) $$ A3
  ihave Hb' := (Entails.of_eq (pts_b (F := F) d L _).symm) $$ Hb
  ihave Hz' := (Entails.of_eq (pts_z (F := F) d L _).symm) $$ Hz
  sl_exec
  -- the zeroing loops
  sl_for (invZ1 (F := F) d L) $$ [Hz']
  case region =>
    intro k1 _
    unfold invZ1
    iintro ⟨%f, Hz, %hf⟩
    sl_exec
    sl_for (invZ2 (F := F) d L k1) $$ [Hz]
    case region =>
      intro k2 _
      unfold invZ2
      iintro ⟨%f, Hz, %hf⟩
      sl_exec
      sl_step
      iexists _; isplitl [Hz]; · iexact Hz
      ipureintro
      exact invZ2_step k1 k2 f hf
    · unfold invZ2
      iexists f; isplitl [Hz]; · iexact Hz
      ipureintro
      exact invZ2_init k1 f hf
    iintro %_ HI
    unfold invZ2
    icases HI with ⟨%f', Hz, %hf'⟩
    sl_exec
    sl_step
    iexists f'; isplitl [Hz]; · iexact Hz
    ipureintro
    exact invZ1_step k1 f' hf'
  · unfold invZ1
    iexists fz; isplitl [Hz']; · iexact Hz'
    ipureintro
    intro r q h; omega
  iintro %_ HI
  unfold invZ1
  icases HI with ⟨%fz1, Hz, %hfz⟩
  have hfz1 : fz1 = fun _ => zF (F := F) := invZ1_final fz1 hfz
  subst hfz1
  sl_exec
  -- the copying loop
  sl_for (invC3 (F := F) m d L O W (shT (cL L) (sL L))) $$ [Hmw Aa Hb' Ho Hs0 Hs1 HO]
  case region =>
    intro t _
    unfold invC3
    iintro ⟨Hmw, Aa, ⟨%fb, Hb⟩, ⟨%fo, Ho, %hD⟩, Hs0, Hs1, %W', %hW', HO⟩
    have htr : 64 * t.val + 64 ≤ ncopy L := by
      have h1 := t.isLt; have h2 := trips9 L; have h3 := ncopy_dvd L
      change t.val < (k0_t9_loop L).trips at h1
      rw [h2] at h1; omega
    have hnc := ncopy_le L
    have hoff : k0_off15 L t 0 = R0 L + 64 * t.val := by rw [off15_eq]; unfold R0; rfl
    have hsub := chunk_subset L (k0_off15 L t) (k0_off15_inb L t k0_h4) (fun _ => rfl) (64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Aa]; · iexact Aa
    isplitl [Hb]; · iexists _; iexact Hb
    isplitl [Ho]
    · iexists _; isplitl [Ho]; · iexact Ho
      ipureintro
      have e : 64 * (t.val + 1) = 64 * t.val + 64 := by omega
      rw [e]
      refine done_step m d L _ _ _ (64 * t.val) hoff (by rw [off15_eq]; rfl) fo _ hD ?_
      refine hw_copy m d L (m (aLoc3 d)) (fun p q => by rw [hs]; rfl) (by rw [hs]) t.val htr _ _ _ hoff (by rw [off15_eq]; rfl)
        (fun y => (srcS3 L k0_h4 t).view.emb y) (fun y => ?_) _
        (fun y => (congrFun (rt fb _) y).trans ((View.read_apply (v := (srcS3 L k0_h4 t).view) _ y).trans (cast_eq _ _)))
      constructor
      · show k0_off14 L t 0 + 1 * (y 0).val = _; rw [off14_eq]; show 2048 * (L 0).val + 64 * t.val + 1 * (y 0).val = _; omega
      · show k0_off14 L t 1 + 1 * (y 1).val = _; rw [off14_eq]; show 0 + 1 * (y 1).val = _; omega
    isplitl [Hs0]; · iexact Hs0
    isplitl [Hs1]; · iexact Hs1
    iexists (insert (SemLoc.dma cc0_scoped13.sem, (default : HIx 1)) (insert (SemLoc.dma cc0_scoped12.sem, (default : HIx 1)) W')); isplitr
    · ipureintro; intro p hp
      rcases Finset.mem_insert.mp hp with hp | hp
      · exact .inr (hp ▸ rfl)
      rcases Finset.mem_insert.mp hp with hp | hp
      · exact .inr (hp ▸ rfl)
      · exact hW' p hp
    · iexact HO
  · unfold invC3
    isplitl [Hmw]; · iexact Hmw
    isplitl [Aa]; · iexact Aa
    isplitl [Hb']; · iexists _; iexact Hb'
    isplitl [Ho]
    · iexists _; isplitl [Ho]; · iexact Ho
      ipureintro; exact done_zero m d L _
    isplitl [Hs0]; · iexact Hs0
    isplitl [Hs1]; · iexact Hs1
    iexists W; isplitr
    · ipureintro; exact fun p hp => .inl hp
    · iexact HO
  iintro %_ HI
  unfold invC3
  icases HI with ⟨Hmw, Aa, ⟨%fb, Hb⟩, ⟨%fo, Ho, %hD⟩, Hs0, Hs1, %W1, %hW1, HO⟩
  have hDn : Done m d L (ncopy L) fo := by
    have h3 := ncopy_dvd L
    have e : 64 * (k0_t9_loop L).trips = ncopy L := by rw [trips9 L]; omega
    rw [← e]; exact hD
  sl_exec
  -- the remainder of the unrolling by one: no trips
  sl_for (fun (_ : Nat) (_ : PUnit) => (iprop(emp) : sProp 𝕄)) $$ []
  case region =>
    intro t _
    exact absurd t.isLt (by have h0 := trips10 L; change ¬ (t.val < (k0_t10_loop L).trips); omega)
  · iempintro
  iintro %_ -
  sl_exec
  -- the zero-filling loop
  sl_for (invF (F := F) m d L O W) $$ [Hmw Hz Ho Hs64 HO]
  case region =>
    intro t _
    unfold invF
    iintro ⟨Hmw, Hz, ⟨%fo, Ho, %hD⟩, Hs64, %W', %hW', HO⟩
    have hnc := ncopy_le L
    have htr : ncopy L + 64 * t.val + 64 ≤ 2048 := by
      have h1 := t.isLt; have h2 := trips35 L; obtain ⟨c, hc⟩ := ncopy_dvd L
      change t.val < (k0_t35_loop L).trips at h1
      rw [h2] at h1; omega
    have hoff : k0_off66 L t 0 = R0 L + (ncopy L + 64 * t.val) := by rw [off66_eq]; unfold R0; show _ + _ + _ + _ = _; omega
    have hsub := chunk_subset L (k0_off66 L t) (k0_off66_inb L t) (fun _ => rfl) (ncopy L + 64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Hz]; · iexact Hz
    isplitl [Ho]
    · iexists _; isplitl [Ho]; · iexact Ho
      ipureintro
      have e : ncopy L + 64 * (t.val + 1) = (ncopy L + 64 * t.val) + 64 := by omega
      rw [e]
      refine done_step m d L _ _ _ (ncopy L + 64 * t.val) hoff (by rw [off66_eq]; rfl) fo _ hD ?_
      exact hw_zero m d L t.val htr _ _ _ (by rw [hoff]; omega) _ (fun y => rfl)
    isplitl [Hs64]; · iexact Hs64
    iexists (insert (SemLoc.dma cc0_scoped64.sem, (default : HIx 1)) W'); isplitr
    · ipureintro; intro p hp
      rcases Finset.mem_insert.mp hp with hp | hp
      · exact .inr (hp ▸ rfl)
      · exact hW' p hp
    · iexact HO
  · unfold invF
    isplitl [Hmw]; · iexact Hmw
    isplitl [Hz]; · iexact Hz
    isplitl [Ho]
    · iexists _; isplitl [Ho]; · iexact Ho
      ipureintro; rw [Nat.mul_zero, Nat.add_zero]; exact hDn
    isplitl [Hs64]; · iexact Hs64
    iexists W1; isplitr
    · ipureintro; exact hW1
    · iexact HO
  iintro %_ HI
  unfold invF
  icases HI with ⟨Hmw, Hz, ⟨%fo2, Ho, %hD2⟩, Hs64, %W2, %hW2, HO⟩
  have hAll : Done m d L 2048 fo2 := by
    have hnc := ncopy_le L
    obtain ⟨c, hc⟩ := ncopy_dvd L
    have e : ncopy L + 64 * (k0_t35_loop L).trips = 2048 := by rw [trips35 L]; omega
    rw [← e]; exact hD2
  sl_exec
  sl_for (fun (_ : Nat) (_ : PUnit) => (iprop(emp) : sProp 𝕄)) $$ []
  case region =>
    intro t _
    exact absurd t.isLt (by have h0 := trips36 L; change ¬ (t.val < (k0_t36_loop L).trips); omega)
  · iempintro
  iintro %_ -
  sl_exec
  sl_step
  -- hand everything back
  isplitl [A0 A1 A2 A4 A5 A6 A7 A8 A9 A10 A11 A12 A13 A14 A15 Aa Ho]
  · isplitl [A0 A1 A2 A4 A5 A6 A7 A8 A9 A10 A11 A12 A13 A14 A15 Aa]
    ·
      isplitl [A0]; · iexact A0
      isplitl [A1]; · iexact A1
      isplitl [A2]; · iexact A2
      isplitl [Aa]; · iapply (Entails.of_eq (pts_a3 (F := F) d L _ _)); iexact Aa
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [A12]; · iexact A12
      isplitl [A13]; · iexact A13
      isplitl [A14]; · iexact A14
      iexact A15
    · iapply (Entails.of_eq (pointsTo_congr (ℓ := oLoc d) (done_all m d L fo2 hAll))); iexact Ho
  isplitl [Hb Hz Hbufs]
  · isplitl [Hb]; · iexists _; iapply (Entails.of_eq (pts_b (F := F) d L _)); iexact Hb
    isplitl [Hz]; · iexists _; iapply (Entails.of_eq (pts_z (F := F) d L _)); iexact Hz
    iexact Hbufs
  isplitl [Hs0 Hs1 Hs64 Hsems]
  · isplitl [Hs0]; · iexact Hs0
    isplitl [Hs1]; · iexact Hs1
    isplitl [Hs64]; · iexact Hs64
    iexact Hsems
  iexists W2; isplitr
  · ipureintro; exact hW2
  · iexact HO

end Cert.Proof.KB

end
-- ==== Proof.KBTile4.lean ====
/-
  The task on subcore 4 (of either SparseCore): it serves sequence 4, of 3072 rows. Its second scratch buffer is
  zeroed; the rows of the sequence that fall in its half are copied, 64 at a time, through the first scratch buffer
  into its block of the output; the rest of the block is filled from the zeroed buffer. Each loop keeps "the first so
  many rows of the block hold the padded array".
-/
import proofs.«212850_g39865886441476_cont_8to1_b_277_5_alg».proof.Proof.KBTileCommon

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "a0W" => (Memref.whole Cert.Kernel.main_arg0_scv : Memref Cert.Kernel.sig Kind.scVector Space.hbm Cert.Kernel.S4096x512 EltTy.f32)
local notation "a1W" => (Memref.whole Cert.Kernel.main_arg1_scv : Memref Cert.Kernel.sig Kind.scVector Space.hbm Cert.Kernel.S3840x512 EltTy.f32)
local notation "a2W" => (Memref.whole Cert.Kernel.main_arg2_scv : Memref Cert.Kernel.sig Kind.scVector Space.hbm Cert.Kernel.S3584x512 EltTy.f32)
local notation "a3W" => (Memref.whole Cert.Kernel.main_arg3_scv : Memref Cert.Kernel.sig Kind.scVector Space.hbm Cert.Kernel.S3328x512 EltTy.f32)
local notation "a4W" => (Memref.whole Cert.Kernel.main_arg4_scv : Memref Cert.Kernel.sig Kind.scVector Space.hbm Cert.Kernel.S3072x512 EltTy.f32)
local notation "a5W" => (Memref.whole Cert.Kernel.main_arg5_scv : Memref Cert.Kernel.sig Kind.scVector Space.hbm Cert.Kernel.S2816x512 EltTy.f32)
local notation "a6W" => (Memref.whole Cert.Kernel.main_arg6_scv : Memref Cert.Kernel.sig Kind.scVector Space.hbm Cert.Kernel.S2560x512 EltTy.f32)
local notation "a7W" => (Memref.whole Cert.Kernel.main_arg7_scv : Memref Cert.Kernel.sig Kind.scVector Space.hbm Cert.Kernel.S2304x512 EltTy.f32)
local notation "a8W" => (Memref.whole Cert.Kernel.main_arg8_scv : Memref Cert.Kernel.sig Kind.scVector Space.hbm Cert.Kernel.S2048x512 EltTy.f32)
local notation "a9W" => (Memref.whole Cert.Kernel.main_arg9_scv : Memref Cert.Kernel.sig Kind.scVector Space.hbm Cert.Kernel.S1792x512 EltTy.f32)
local notation "a10W" => (Memref.whole Cert.Kernel.main_arg10_scv : Memref Cert.Kernel.sig Kind.scVector Space.hbm Cert.Kernel.S1536x512 EltTy.f32)
local notation "a11W" => (Memref.whole Cert.Kernel.main_arg11_scv : Memref Cert.Kernel.sig Kind.scVector Space.hbm Cert.Kernel.S1280x512 EltTy.f32)
local notation "a12W" => (Memref.whole Cert.Kernel.main_arg12_scv : Memref Cert.Kernel.sig Kind.scVector Space.hbm Cert.Kernel.S1024x512 EltTy.f32)
local notation "a13W" => (Memref.whole Cert.Kernel.main_arg13_scv : Memref Cert.Kernel.sig Kind.scVector Space.hbm Cert.Kernel.S768x512 EltTy.f32)
local notation "a14W" => (Memref.whole Cert.Kernel.main_arg14_scv : Memref Cert.Kernel.sig Kind.scVector Space.hbm Cert.Kernel.S512x512 EltTy.f32)
local notation "a15W" => (Memref.whole Cert.Kernel.main_arg15_scv : Memref Cert.Kernel.sig Kind.scVector Space.hbm Cert.Kernel.S256x512 EltTy.f32)
local notation "oW" => (Memref.whole Cert.Kernel.main_v0_scv : Memref Cert.Kernel.sig Kind.scVector Space.hbm Cert.Kernel.S65536x512 EltTy.f32)
local notation "bW" => (Memref.whole Cert.Kernel.cc0_scratch0 : Memref Cert.Kernel.sig Kind.scVector Space.vmem Cert.Kernel.S64x512 EltTy.f32)
local notation "zW" => (Memref.whole Cert.Kernel.cc0_scratch1 : Memref Cert.Kernel.sig Kind.scVector Space.vmem Cert.Kernel.S64x512 EltTy.f32)

variable (m : (ℓ : Loc nD τ sig) → Buf (Elt F) ℓ) (d : Dev nD)

omit [FloatOps F] in
theorem ownSems0_V4 (L : grid0.Coords) :
    (ownSems0 (thr d L) : sProp 𝕄)
      = iprop(semVal (thr d L, SemLoc.dma cc0_scoped16.sem) 0 ∗ semVal (thr d L, SemLoc.dma cc0_scoped17.sem) 0 ∗ semVal (thr d L, SemLoc.dma cc0_scoped64.sem) 0
          ∗ bigSep ((((ownCells (thr d L)).erase (thr d L, SemLoc.dma cc0_scoped16.sem)).erase (thr d L, SemLoc.dma cc0_scoped17.sem)).erase (thr d L, SemLoc.dma cc0_scoped64.sem))
              fun g => semVal g 0) := by
  unfold SparseCore.Cfg.ownSems0
  rw [SparseCore.bigSep_erase' ((mem_ownCells (g := (thr d L, SemLoc.dma cc0_scoped16.sem))).mpr ⟨rfl, by
      show (SemLoc.dma cc0_scoped16.sem : SemLoc sig).isScoped .scVector = true; decide⟩),
    SparseCore.bigSep_erase' (Finset.mem_erase.mpr ⟨by simp; decide, (mem_ownCells (g := (thr d L, SemLoc.dma cc0_scoped17.sem))).mpr ⟨rfl, by
      show (SemLoc.dma cc0_scoped17.sem : SemLoc sig).isScoped .scVector = true; decide⟩⟩),
    SparseCore.bigSep_erase' (Finset.mem_erase.mpr ⟨by simp; decide, Finset.mem_erase.mpr ⟨by simp; decide,
      (mem_ownCells (g := (thr d L, SemLoc.dma cc0_scoped64.sem))).mpr ⟨rfl, by show (SemLoc.dma cc0_scoped64.sem : SemLoc sig).isScoped .scVector = true; decide⟩⟩⟩)]

/-- The source chunk of trip `t`, as the program slices it. -/
abbrev srcS4 (L : grid0.Coords) (h : k0_cond5 L = 1#1) (t : Fin (k0_t11_loop L).trips) : Memref sig .scVector .hbm S64x512 .f32 :=
  (a4W).slice (Rect.unit (s := S3072x512) (k0_off18 L t) S64x512.size (k0_off18_inb L t h)) (fun _ => rfl)

omit [FloatOps F] in
theorem pts_a4 (L : grid0.Coords) (q : PosShare TreeShare) (f : Buf (Elt F) (aLoc4 d)) :
    ((a4W).view.loc (thr d L) ↦{q} f : sProp 𝕄) = aLoc4 d ↦{q} f := rfl

/-- The copying loop's invariant before trip `t`: the first `64 t` rows of the block hold the padded array. -/
def invC4 (L : grid0.Coords) (O : CellTallies nD τ sig (HIx 1)) (W : Waits sig (HIx 1)) (q : PosShare TreeShare) (t : Nat) (_ : PUnit) : sProp 𝕄 :=
  iprop(Transfers.MayWaits (thr d L) (none : HIx 1) O
    ∗ ((a4W).view.loc (thr d L) ↦{q} m (aLoc4 d))
    ∗ (∃ fb, (bW).view.loc (thr d L) ↦{fullShare} fb)
    ∗ (∃ fo, (oLoc d ↦[blkSet (bI L)]{fullShare} fo) ∗ ⌜Done m d L (64 * t) fo⌝)
    ∗ semVal (thr d L, SemLoc.dma cc0_scoped16.sem) 0
    ∗ semVal (thr d L, SemLoc.dma cc0_scoped17.sem) 0
    ∗ ∃ W', ⌜∀ p ∈ W', p ∈ W ∨ p.2 = none⌝ ∗ owes (thr d L) O W')

theorem tile_s4 (hF : (K (F := F)).Facts) (L : grid0.Coords) (hs : (L 1).val = 4) (O : CellTallies nD τ sig (HIx 1)) (W : Waits sig (HIx 1)) (hO : ∀ g, O g none = 0) :
    TileSpec m d L O W := by
  have k0_h1 : ¬ k0_cond1 L = 1#1 := fun h => absurd ((cond1_iff L).mp h) (by omega)
  have k0_h2 : ¬ k0_cond2 L = 1#1 := fun h => absurd ((cond2_iff L).mp h) (by omega)
  have k0_h3 : ¬ k0_cond3 L = 1#1 := fun h => absurd ((cond3_iff L).mp h) (by omega)
  have k0_h4 : ¬ k0_cond4 L = 1#1 := fun h => absurd ((cond4_iff L).mp h) (by omega)
  have k0_h5 : k0_cond5 L = 1#1 := (cond5_iff L).mpr hs
  have k0_h6 : ¬ k0_cond6 L = 1#1 := fun h => absurd ((cond6_iff L).mp h) (by omega)
  have k0_h7 : ¬ k0_cond7 L = 1#1 := fun h => absurd ((cond7_iff L).mp h) (by omega)
  have k0_h8 : ¬ k0_cond8 L = 1#1 := fun h => absurd ((cond8_iff L).mp h) (by omega)
  have k0_h9 : ¬ k0_cond9 L = 1#1 := fun h => absurd ((cond9_iff L).mp h) (by omega)
  have k0_h10 : ¬ k0_cond10 L = 1#1 := fun h => absurd ((cond10_iff L).mp h) (by omega)
  have k0_h11 : ¬ k0_cond11 L = 1#1 := fun h => absurd ((cond11_iff L).mp h) (by omega)
  have k0_h12 : ¬ k0_cond12 L = 1#1 := fun h => absurd ((cond12_iff L).mp h) (by omega)
  have k0_h13 : ¬ k0_cond13 L = 1#1 := fun h => absurd ((cond13_iff L).mp h) (by omega)
  have k0_h14 : ¬ k0_cond14 L = 1#1 := fun h => absurd ((cond14_iff L).mp h) (by omega)
  have k0_h15 : ¬ k0_cond15 L = 1#1 := fun h => absurd ((cond15_iff L).mp h) (by omega)
  have k0_h16 : ¬ k0_cond16 L = 1#1 := fun h => absurd ((cond16_iff L).mp h) (by omega)
  have rt : ∀ (fb rd : (cc0_scratch0 : Ref sig .scVector).ty.Contents (Elt F)),
      ReadAs.same.apply (View.read (Elt F) (View.whole (cc0_scratch0 : Ref sig .scVector)) (View.write (Elt F) (View.whole (cc0_scratch0 : Ref sig .scVector)) fb (ReadAs.same.apply rd) Finset.univ)) = rd :=
    fun fb rd => (congrArg (View.read (Elt F) (View.whole (cc0_scratch0 : Ref sig .scVector))) (View.write_whole_univ (Val := Elt F) (cc0_scratch0 : Ref sig .scVector) fb rd)).trans (View.read_whole _ rd)
  unfold TileSpec
  simp only [cc0__pad_body_eq_skeleton]; unfold cc0__pad_body_skel
  rw [(K (F := F)).scopedBufs_V hF d _ _, SparseCore.Cfg.scopedSems0_V (Val := Elt F) d _ _, ownSems0_V4, ownBufs_V]
  unfold argsAt
  iintro ⟨#Hlv, -, ⟨⟨A0, A1, A2, A3, A4, A5, A6, A7, A8, A9, A10, A11, A12, A13, A14, A15⟩, Ho⟩, ⟨⟨%fb, Hb⟩, ⟨%fz, Hz⟩, Hbufs⟩, ⟨Hs0, Hs1, Hs64, Hsems⟩, HO⟩
  ihave Hmw := ((K (F := F)).mayWaits_none (thr := thr d L) hO) $$ Hlv
  ihave Aa := (Entails.of_eq (pts_a4 (F := F) d L _ _).symm) $$ A4
  ihave Hb' := (Entails.of_eq (pts_b (F := F) d L _).symm) $$ Hb
  ihave Hz' := (Entails.of_eq (pts_z (F := F) d L _).symm) $$ Hz
  sl_exec
  -- the zeroing loops
  sl_for (invZ1 (F := F) d L) $$ [Hz']
  case region =>
    intro k1 _
    unfold invZ1
    iintro ⟨%f, Hz, %hf⟩
    sl_exec
    sl_for (invZ2 (F := F) d L k1) $$ [Hz]
    case region =>
      intro k2 _
      unfold invZ2
      iintro ⟨%f, Hz, %hf⟩
      sl_exec
      sl_step
      iexists _; isplitl [Hz]; · iexact Hz
      ipureintro
      exact invZ2_step k1 k2 f hf
    · unfold invZ2
      iexists f; isplitl [Hz]; · iexact Hz
      ipureintro
      exact invZ2_init k1 f hf
    iintro %_ HI
    unfold invZ2
    icases HI with ⟨%f', Hz, %hf'⟩
    sl_exec
    sl_step
    iexists f'; isplitl [Hz]; · iexact Hz
    ipureintro
    exact invZ1_step k1 f' hf'
  · unfold invZ1
    iexists fz; isplitl [Hz']; · iexact Hz'
    ipureintro
    intro r q h; omega
  iintro %_ HI
  unfold invZ1
  icases HI with ⟨%fz1, Hz, %hfz⟩
  have hfz1 : fz1 = fun _ => zF (F := F) := invZ1_final fz1 hfz
  subst hfz1
  sl_exec
  -- the copying loop
  sl_for (invC4 (F := F) m d L O W (shT (cL L) (sL L))) $$ [Hmw Aa Hb' Ho Hs0 Hs1 HO]
  case region =>
    intro t _
    unfold invC4
    iintro ⟨Hmw, Aa, ⟨%fb, Hb⟩, ⟨%fo, Ho, %hD⟩, Hs0, Hs1, %W', %hW', HO⟩
    have htr : 64 * t.val + 64 ≤ ncopy L := by
      have h1 := t.isLt; have h2 := trips11 L; have h3 := ncopy_dvd L
      change t.val < (k0_t11_loop L).trips at h1
      rw [h2] at h1; omega
    have hnc := ncopy_le L
    have hoff : k0_off19 L t 0 = R0 L + 64 * t.val := by rw [off19_eq]; unfold R0; rfl
    have hsub := chunk_subset L (k0_off19 L t) (k0_off19_inb L t k0_h5) (fun _ => rfl) (64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Aa]; · iexact Aa
    isplitl [Hb]; · iexists _; iexact Hb
    isplitl [Ho]
    · iexists _; isplitl [Ho]; · iexact Ho
      ipureintro
      have e : 64 * (t.val + 1) = 64 * t.val + 64 := by omega
      rw [e]
      refine done_step m d L _ _ _ (64 * t.val) hoff (by rw [off19_eq]; rfl) fo _ hD ?_
      refine hw_copy m d L (m (aLoc4 d)) (fun p q => by rw [hs]; rfl) (by rw [hs]) t.val htr _ _ _ hoff (by rw [off19_eq]; rfl)
        (fun y => (srcS4 L k0_h5 t).view.emb y) (fun y => ?_) _
        (fun y => (congrFun (rt fb _) y).trans ((View.read_apply (v := (srcS4 L k0_h5 t).view) _ y).trans (cast_eq _ _)))
      constructor
      · show k0_off18 L t 0 + 1 * (y 0).val = _; rw [off18_eq]; show 2048 * (L 0).val + 64 * t.val + 1 * (y 0).val = _; omega
      · show k0_off18 L t 1 + 1 * (y 1).val = _; rw [off18_eq]; show 0 + 1 * (y 1).val = _; omega
    isplitl [Hs0]; · iexact Hs0
    isplitl [Hs1]; · iexact Hs1
    iexists (insert (SemLoc.dma cc0_scoped17.sem, (default : HIx 1)) (insert (SemLoc.dma cc0_scoped16.sem, (default : HIx 1)) W')); isplitr
    · ipureintro; intro p hp
      rcases Finset.mem_insert.mp hp with hp | hp
      · exact .inr (hp ▸ rfl)
      rcases Finset.mem_insert.mp hp with hp | hp
      · exact .inr (hp ▸ rfl)
      · exact hW' p hp
    · iexact HO
  · unfold invC4
    isplitl [Hmw]; · iexact Hmw
    isplitl [Aa]; · iexact Aa
    isplitl [Hb']; · iexists _; iexact Hb'
    isplitl [Ho]
    · iexists _; isplitl [Ho]; · iexact Ho
      ipureintro; exact done_zero m d L _
    isplitl [Hs0]; · iexact Hs0
    isplitl [Hs1]; · iexact Hs1
    iexists W; isplitr
    · ipureintro; exact fun p hp => .inl hp
    · iexact HO
  iintro %_ HI
  unfold invC4
  icases HI with ⟨Hmw, Aa, ⟨%fb, Hb⟩, ⟨%fo, Ho, %hD⟩, Hs0, Hs1, %W1, %hW1, HO⟩
  have hDn : Done m d L (ncopy L) fo := by
    have h3 := ncopy_dvd L
    have e : 64 * (k0_t11_loop L).trips = ncopy L := by rw [trips11 L]; omega
    rw [← e]; exact hD
  sl_exec
  -- the remainder of the unrolling by one: no trips
  sl_for (fun (_ : Nat) (_ : PUnit) => (iprop(emp) : sProp 𝕄)) $$ []
  case region =>
    intro t _
    exact absurd t.isLt (by have h0 := trips12 L; change ¬ (t.val < (k0_t12_loop L).trips); omega)
  · iempintro
  iintro %_ -
  sl_exec
  -- the zero-filling loop
  sl_for (invF (F := F) m d L O W) $$ [Hmw Hz Ho Hs64 HO]
  case region =>
    intro t _
    unfold invF
    iintro ⟨Hmw, Hz, ⟨%fo, Ho, %hD⟩, Hs64, %W', %hW', HO⟩
    have hnc := ncopy_le L
    have htr : ncopy L + 64 * t.val + 64 ≤ 2048 := by
      have h1 := t.isLt; have h2 := trips35 L; obtain ⟨c, hc⟩ := ncopy_dvd L
      change t.val < (k0_t35_loop L).trips at h1
      rw [h2] at h1; omega
    have hoff : k0_off66 L t 0 = R0 L + (ncopy L + 64 * t.val) := by rw [off66_eq]; unfold R0; show _ + _ + _ + _ = _; omega
    have hsub := chunk_subset L (k0_off66 L t) (k0_off66_inb L t) (fun _ => rfl) (ncopy L + 64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Hz]; · iexact Hz
    isplitl [Ho]
    · iexists _; isplitl [Ho]; · iexact Ho
      ipureintro
      have e : ncopy L + 64 * (t.val + 1) = (ncopy L + 64 * t.val) + 64 := by omega
      rw [e]
      refine done_step m d L _ _ _ (ncopy L + 64 * t.val) hoff (by rw [off66_eq]; rfl) fo _ hD ?_
      exact hw_zero m d L t.val htr _ _ _ (by rw [hoff]; omega) _ (fun y => rfl)
    isplitl [Hs64]; · iexact Hs64
    iexists (insert (SemLoc.dma cc0_scoped64.sem, (default : HIx 1)) W'); isplitr
    · ipureintro; intro p hp
      rcases Finset.mem_insert.mp hp with hp | hp
      · exact .inr (hp ▸ rfl)
      · exact hW' p hp
    · iexact HO
  · unfold invF
    isplitl [Hmw]; · iexact Hmw
    isplitl [Hz]; · iexact Hz
    isplitl [Ho]
    · iexists _; isplitl [Ho]; · iexact Ho
      ipureintro; rw [Nat.mul_zero, Nat.add_zero]; exact hDn
    isplitl [Hs64]; · iexact Hs64
    iexists W1; isplitr
    · ipureintro; exact hW1
    · iexact HO
  iintro %_ HI
  unfold invF
  icases HI with ⟨Hmw, Hz, ⟨%fo2, Ho, %hD2⟩, Hs64, %W2, %hW2, HO⟩
  have hAll : Done m d L 2048 fo2 := by
    have hnc := ncopy_le L
    obtain ⟨c, hc⟩ := ncopy_dvd L
    have e : ncopy L + 64 * (k0_t35_loop L).trips = 2048 := by rw [trips35 L]; omega
    rw [← e]; exact hD2
  sl_exec
  sl_for (fun (_ : Nat) (_ : PUnit) => (iprop(emp) : sProp 𝕄)) $$ []
  case region =>
    intro t _
    exact absurd t.isLt (by have h0 := trips36 L; change ¬ (t.val < (k0_t36_loop L).trips); omega)
  · iempintro
  iintro %_ -
  sl_exec
  sl_step
  -- hand everything back
  isplitl [A0 A1 A2 A3 A5 A6 A7 A8 A9 A10 A11 A12 A13 A14 A15 Aa Ho]
  · isplitl [A0 A1 A2 A3 A5 A6 A7 A8 A9 A10 A11 A12 A13 A14 A15 Aa]
    ·
      isplitl [A0]; · iexact A0
      isplitl [A1]; · iexact A1
      isplitl [A2]; · iexact A2
      isplitl [A3]; · iexact A3
      isplitl [Aa]; · iapply (Entails.of_eq (pts_a4 (F := F) d L _ _)); iexact Aa
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [A12]; · iexact A12
      isplitl [A13]; · iexact A13
      isplitl [A14]; · iexact A14
      iexact A15
    · iapply (Entails.of_eq (pointsTo_congr (ℓ := oLoc d) (done_all m d L fo2 hAll))); iexact Ho
  isplitl [Hb Hz Hbufs]
  · isplitl [Hb]; · iexists _; iapply (Entails.of_eq (pts_b (F := F) d L _)); iexact Hb
    isplitl [Hz]; · iexists _; iapply (Entails.of_eq (pts_z (F := F) d L _)); iexact Hz
    iexact Hbufs
  isplitl [Hs0 Hs1 Hs64 Hsems]
  · isplitl [Hs0]; · iexact Hs0
    isplitl [Hs1]; · iexact Hs1
    isplitl [Hs64]; · iexact Hs64
    iexact Hsems
  iexists W2; isplitr
  · ipureintro; exact hW2
  · iexact HO

end Cert.Proof.KB

end
-- ==== Proof.KBTile5.lean ====
/-
  The task on subcore 5 (of either SparseCore): it serves sequence 5, of 2816 rows. Its second scratch buffer is
  zeroed; the rows of the sequence that fall in its half are copied, 64 at a time, through the first scratch buffer
  into its block of the output; the rest of the block is filled from the zeroed buffer. Each loop keeps "the first so
  many rows of the block hold the padded array".
-/
import proofs.«212850_g39865886441476_cont_8to1_b_277_5_alg».proof.Proof.KBTileCommon

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "a0W" => (Memref.whole Cert.Kernel.main_arg0_scv : Memref Cert.Kernel.sig Kind.scVector Space.hbm Cert.Kernel.S4096x512 EltTy.f32)
local notation "a1W" => (Memref.whole Cert.Kernel.main_arg1_scv : Memref Cert.Kernel.sig Kind.scVector Space.hbm Cert.Kernel.S3840x512 EltTy.f32)
local notation "a2W" => (Memref.whole Cert.Kernel.main_arg2_scv : Memref Cert.Kernel.sig Kind.scVector Space.hbm Cert.Kernel.S3584x512 EltTy.f32)
local notation "a3W" => (Memref.whole Cert.Kernel.main_arg3_scv : Memref Cert.Kernel.sig Kind.scVector Space.hbm Cert.Kernel.S3328x512 EltTy.f32)
local notation "a4W" => (Memref.whole Cert.Kernel.main_arg4_scv : Memref Cert.Kernel.sig Kind.scVector Space.hbm Cert.Kernel.S3072x512 EltTy.f32)
local notation "a5W" => (Memref.whole Cert.Kernel.main_arg5_scv : Memref Cert.Kernel.sig Kind.scVector Space.hbm Cert.Kernel.S2816x512 EltTy.f32)
local notation "a6W" => (Memref.whole Cert.Kernel.main_arg6_scv : Memref Cert.Kernel.sig Kind.scVector Space.hbm Cert.Kernel.S2560x512 EltTy.f32)
local notation "a7W" => (Memref.whole Cert.Kernel.main_arg7_scv : Memref Cert.Kernel.sig Kind.scVector Space.hbm Cert.Kernel.S2304x512 EltTy.f32)
local notation "a8W" => (Memref.whole Cert.Kernel.main_arg8_scv : Memref Cert.Kernel.sig Kind.scVector Space.hbm Cert.Kernel.S2048x512 EltTy.f32)
local notation "a9W" => (Memref.whole Cert.Kernel.main_arg9_scv : Memref Cert.Kernel.sig Kind.scVector Space.hbm Cert.Kernel.S1792x512 EltTy.f32)
local notation "a10W" => (Memref.whole Cert.Kernel.main_arg10_scv : Memref Cert.Kernel.sig Kind.scVector Space.hbm Cert.Kernel.S1536x512 EltTy.f32)
local notation "a11W" => (Memref.whole Cert.Kernel.main_arg11_scv : Memref Cert.Kernel.sig Kind.scVector Space.hbm Cert.Kernel.S1280x512 EltTy.f32)
local notation "a12W" => (Memref.whole Cert.Kernel.main_arg12_scv : Memref Cert.Kernel.sig Kind.scVector Space.hbm Cert.Kernel.S1024x512 EltTy.f32)
local notation "a13W" => (Memref.whole Cert.Kernel.main_arg13_scv : Memref Cert.Kernel.sig Kind.scVector Space.hbm Cert.Kernel.S768x512 EltTy.f32)
local notation "a14W" => (Memref.whole Cert.Kernel.main_arg14_scv : Memref Cert.Kernel.sig Kind.scVector Space.hbm Cert.Kernel.S512x512 EltTy.f32)
local notation "a15W" => (Memref.whole Cert.Kernel.main_arg15_scv : Memref Cert.Kernel.sig Kind.scVector Space.hbm Cert.Kernel.S256x512 EltTy.f32)
local notation "oW" => (Memref.whole Cert.Kernel.main_v0_scv : Memref Cert.Kernel.sig Kind.scVector Space.hbm Cert.Kernel.S65536x512 EltTy.f32)
local notation "bW" => (Memref.whole Cert.Kernel.cc0_scratch0 : Memref Cert.Kernel.sig Kind.scVector Space.vmem Cert.Kernel.S64x512 EltTy.f32)
local notation "zW" => (Memref.whole Cert.Kernel.cc0_scratch1 : Memref Cert.Kernel.sig Kind.scVector Space.vmem Cert.Kernel.S64x512 EltTy.f32)

variable (m : (ℓ : Loc nD τ sig) → Buf (Elt F) ℓ) (d : Dev nD)

omit [FloatOps F] in
theorem ownSems0_V5 (L : grid0.Coords) :
    (ownSems0 (thr d L) : sProp 𝕄)
      = iprop(semVal (thr d L, SemLoc.dma cc0_scoped20.sem) 0 ∗ semVal (thr d L, SemLoc.dma cc0_scoped21.sem) 0 ∗ semVal (thr d L, SemLoc.dma cc0_scoped64.sem) 0
          ∗ bigSep ((((ownCells (thr d L)).erase (thr d L, SemLoc.dma cc0_scoped20.sem)).erase (thr d L, SemLoc.dma cc0_scoped21.sem)).erase (thr d L, SemLoc.dma cc0_scoped64.sem))
              fun g => semVal g 0) := by
  unfold SparseCore.Cfg.ownSems0
  rw [SparseCore.bigSep_erase' ((mem_ownCells (g := (thr d L, SemLoc.dma cc0_scoped20.sem))).mpr ⟨rfl, by
      show (SemLoc.dma cc0_scoped20.sem : SemLoc sig).isScoped .scVector = true; decide⟩),
    SparseCore.bigSep_erase' (Finset.mem_erase.mpr ⟨by simp; decide, (mem_ownCells (g := (thr d L, SemLoc.dma cc0_scoped21.sem))).mpr ⟨rfl, by
      show (SemLoc.dma cc0_scoped21.sem : SemLoc sig).isScoped .scVector = true; decide⟩⟩),
    SparseCore.bigSep_erase' (Finset.mem_erase.mpr ⟨by simp; decide, Finset.mem_erase.mpr ⟨by simp; decide,
      (mem_ownCells (g := (thr d L, SemLoc.dma cc0_scoped64.sem))).mpr ⟨rfl, by show (SemLoc.dma cc0_scoped64.sem : SemLoc sig).isScoped .scVector = true; decide⟩⟩⟩)]

/-- The source chunk of trip `t`, as the program slices it. -/
abbrev srcS5 (L : grid0.Coords) (h : k0_cond6 L = 1#1) (t : Fin (k0_t13_loop L).trips) : Memref sig .scVector .hbm S64x512 .f32 :=
  (a5W).slice (Rect.unit (s := S2816x512) (k0_off22 L t) S64x512.size (k0_off22_inb L t h)) (fun _ => rfl)

omit [FloatOps F] in
theorem pts_a5 (L : grid0.Coords) (q : PosShare TreeShare) (f : Buf (Elt F) (aLoc5 d)) :
    ((a5W).view.loc (thr d L) ↦{q} f : sProp 𝕄) = aLoc5 d ↦{q} f := rfl

/-- The copying loop's invariant before trip `t`: the first `64 t` rows of the block hold the padded array. -/
def invC5 (L : grid0.Coords) (O : CellTallies nD τ sig (HIx 1)) (W : Waits sig (HIx 1)) (q : PosShare TreeShare) (t : Nat) (_ : PUnit) : sProp 𝕄 :=
  iprop(Transfers.MayWaits (thr d L) (none : HIx 1) O
    ∗ ((a5W).view.loc (thr d L) ↦{q} m (aLoc5 d))
    ∗ (∃ fb, (bW).view.loc (thr d L) ↦{fullShare} fb)
    ∗ (∃ fo, (oLoc d ↦[blkSet (bI L)]{fullShare} fo) ∗ ⌜Done m d L (64 * t) fo⌝)
    ∗ semVal (thr d L, SemLoc.dma cc0_scoped20.sem) 0
    ∗ semVal (thr d L, SemLoc.dma cc0_scoped21.sem) 0
    ∗ ∃ W', ⌜∀ p ∈ W', p ∈ W ∨ p.2 = none⌝ ∗ owes (thr d L) O W')

theorem tile_s5 (hF : (K (F := F)).Facts) (L : grid0.Coords) (hs : (L 1).val = 5) (O : CellTallies nD τ sig (HIx 1)) (W : Waits sig (HIx 1)) (hO : ∀ g, O g none = 0) :
    TileSpec m d L O W := by
  have k0_h1 : ¬ k0_cond1 L = 1#1 := fun h => absurd ((cond1_iff L).mp h) (by omega)
  have k0_h2 : ¬ k0_cond2 L = 1#1 := fun h => absurd ((cond2_iff L).mp h) (by omega)
  have k0_h3 : ¬ k0_cond3 L = 1#1 := fun h => absurd ((cond3_iff L).mp h) (by omega)
  have k0_h4 : ¬ k0_cond4 L = 1#1 := fun h => absurd ((cond4_iff L).mp h) (by omega)
  have k0_h5 : ¬ k0_cond5 L = 1#1 := fun h => absurd ((cond5_iff L).mp h) (by omega)
  have k0_h6 : k0_cond6 L = 1#1 := (cond6_iff L).mpr hs
  have k0_h7 : ¬ k0_cond7 L = 1#1 := fun h => absurd ((cond7_iff L).mp h) (by omega)
  have k0_h8 : ¬ k0_cond8 L = 1#1 := fun h => absurd ((cond8_iff L).mp h) (by omega)
  have k0_h9 : ¬ k0_cond9 L = 1#1 := fun h => absurd ((cond9_iff L).mp h) (by omega)
  have k0_h10 : ¬ k0_cond10 L = 1#1 := fun h => absurd ((cond10_iff L).mp h) (by omega)
  have k0_h11 : ¬ k0_cond11 L = 1#1 := fun h => absurd ((cond11_iff L).mp h) (by omega)
  have k0_h12 : ¬ k0_cond12 L = 1#1 := fun h => absurd ((cond12_iff L).mp h) (by omega)
  have k0_h13 : ¬ k0_cond13 L = 1#1 := fun h => absurd ((cond13_iff L).mp h) (by omega)
  have k0_h14 : ¬ k0_cond14 L = 1#1 := fun h => absurd ((cond14_iff L).mp h) (by omega)
  have k0_h15 : ¬ k0_cond15 L = 1#1 := fun h => absurd ((cond15_iff L).mp h) (by omega)
  have k0_h16 : ¬ k0_cond16 L = 1#1 := fun h => absurd ((cond16_iff L).mp h) (by omega)
  have rt : ∀ (fb rd : (cc0_scratch0 : Ref sig .scVector).ty.Contents (Elt F)),
      ReadAs.same.apply (View.read (Elt F) (View.whole (cc0_scratch0 : Ref sig .scVector)) (View.write (Elt F) (View.whole (cc0_scratch0 : Ref sig .scVector)) fb (ReadAs.same.apply rd) Finset.univ)) = rd :=
    fun fb rd => (congrArg (View.read (Elt F) (View.whole (cc0_scratch0 : Ref sig .scVector))) (View.write_whole_univ (Val := Elt F) (cc0_scratch0 : Ref sig .scVector) fb rd)).trans (View.read_whole _ rd)
  unfold TileSpec
  simp only [cc0__pad_body_eq_skeleton]; unfold cc0__pad_body_skel
  rw [(K (F := F)).scopedBufs_V hF d _ _, SparseCore.Cfg.scopedSems0_V (Val := Elt F) d _ _, ownSems0_V5, ownBufs_V]
  unfold argsAt
  iintro ⟨#Hlv, -, ⟨⟨A0, A1, A2, A3, A4, A5, A6, A7, A8, A9, A10, A11, A12, A13, A14, A15⟩, Ho⟩, ⟨⟨%fb, Hb⟩, ⟨%fz, Hz⟩, Hbufs⟩, ⟨Hs0, Hs1, Hs64, Hsems⟩, HO⟩
  ihave Hmw := ((K (F := F)).mayWaits_none (thr := thr d L) hO) $$ Hlv
  ihave Aa := (Entails.of_eq (pts_a5 (F := F) d L _ _).symm) $$ A5
  ihave Hb' := (Entails.of_eq (pts_b (F := F) d L _).symm) $$ Hb
  ihave Hz' := (Entails.of_eq (pts_z (F := F) d L _).symm) $$ Hz
  sl_exec
  -- the zeroing loops
  sl_for (invZ1 (F := F) d L) $$ [Hz']
  case region =>
    intro k1 _
    unfold invZ1
    iintro ⟨%f, Hz, %hf⟩
    sl_exec
    sl_for (invZ2 (F := F) d L k1) $$ [Hz]
    case region =>
      intro k2 _
      unfold invZ2
      iintro ⟨%f, Hz, %hf⟩
      sl_exec
      sl_step
      iexists _; isplitl [Hz]; · iexact Hz
      ipureintro
      exact invZ2_step k1 k2 f hf
    · unfold invZ2
      iexists f; isplitl [Hz]; · iexact Hz
      ipureintro
      exact invZ2_init k1 f hf
    iintro %_ HI
    unfold invZ2
    icases HI with ⟨%f', Hz, %hf'⟩
    sl_exec
    sl_step
    iexists f'; isplitl [Hz]; · iexact Hz
    ipureintro
    exact invZ1_step k1 f' hf'
  · unfold invZ1
    iexists fz; isplitl [Hz']; · iexact Hz'
    ipureintro
    intro r q h; omega
  iintro %_ HI
  unfold invZ1
  icases HI with ⟨%fz1, Hz, %hfz⟩
  have hfz1 : fz1 = fun _ => zF (F := F) := invZ1_final fz1 hfz
  subst hfz1
  sl_exec
  -- the copying loop
  sl_for (invC5 (F := F) m d L O W (shT (cL L) (sL L))) $$ [Hmw Aa Hb' Ho Hs0 Hs1 HO]
  case region =>
    intro t _
    unfold invC5
    iintro ⟨Hmw, Aa, ⟨%fb, Hb⟩, ⟨%fo, Ho, %hD⟩, Hs0, Hs1, %W', %hW', HO⟩
    have htr : 64 * t.val + 64 ≤ ncopy L := by
      have h1 := t.isLt; have h2 := trips13 L; have h3 := ncopy_dvd L
      change t.val < (k0_t13_loop L).trips at h1
      rw [h2] at h1; omega
    have hnc := ncopy_le L
    have hoff : k0_off23 L t 0 = R0 L + 64 * t.val := by rw [off23_eq]; unfold R0; rfl
    have hsub := chunk_subset L (k0_off23 L t) (k0_off23_inb L t k0_h6) (fun _ => rfl) (64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Aa]; · iexact Aa
    isplitl [Hb]; · iexists _; iexact Hb
    isplitl [Ho]
    · iexists _; isplitl [Ho]; · iexact Ho
      ipureintro
      have e : 64 * (t.val + 1) = 64 * t.val + 64 := by omega
      rw [e]
      refine done_step m d L _ _ _ (64 * t.val) hoff (by rw [off23_eq]; rfl) fo _ hD ?_
      refine hw_copy m d L (m (aLoc5 d)) (fun p q => by rw [hs]; rfl) (by rw [hs]) t.val htr _ _ _ hoff (by rw [off23_eq]; rfl)
        (fun y => (srcS5 L k0_h6 t).view.emb y) (fun y => ?_) _
        (fun y => (congrFun (rt fb _) y).trans ((View.read_apply (v := (srcS5 L k0_h6 t).view) _ y).trans (cast_eq _ _)))
      constructor
      · show k0_off22 L t 0 + 1 * (y 0).val = _; rw [off22_eq]; show 2048 * (L 0).val + 64 * t.val + 1 * (y 0).val = _; omega
      · show k0_off22 L t 1 + 1 * (y 1).val = _; rw [off22_eq]; show 0 + 1 * (y 1).val = _; omega
    isplitl [Hs0]; · iexact Hs0
    isplitl [Hs1]; · iexact Hs1
    iexists (insert (SemLoc.dma cc0_scoped21.sem, (default : HIx 1)) (insert (SemLoc.dma cc0_scoped20.sem, (default : HIx 1)) W')); isplitr
    · ipureintro; intro p hp
      rcases Finset.mem_insert.mp hp with hp | hp
      · exact .inr (hp ▸ rfl)
      rcases Finset.mem_insert.mp hp with hp | hp
      · exact .inr (hp ▸ rfl)
      · exact hW' p hp
    · iexact HO
  · unfold invC5
    isplitl [Hmw]; · iexact Hmw
    isplitl [Aa]; · iexact Aa
    isplitl [Hb']; · iexists _; iexact Hb'
    isplitl [Ho]
    · iexists _; isplitl [Ho]; · iexact Ho
      ipureintro; exact done_zero m d L _
    isplitl [Hs0]; · iexact Hs0
    isplitl [Hs1]; · iexact Hs1
    iexists W; isplitr
    · ipureintro; exact fun p hp => .inl hp
    · iexact HO
  iintro %_ HI
  unfold invC5
  icases HI with ⟨Hmw, Aa, ⟨%fb, Hb⟩, ⟨%fo, Ho, %hD⟩, Hs0, Hs1, %W1, %hW1, HO⟩
  have hDn : Done m d L (ncopy L) fo := by
    have h3 := ncopy_dvd L
    have e : 64 * (k0_t13_loop L).trips = ncopy L := by rw [trips13 L]; omega
    rw [← e]; exact hD
  sl_exec
  -- the remainder of the unrolling by one: no trips
  sl_for (fun (_ : Nat) (_ : PUnit) => (iprop(emp) : sProp 𝕄)) $$ []
  case region =>
    intro t _
    exact absurd t.isLt (by have h0 := trips14 L; change ¬ (t.val < (k0_t14_loop L).trips); omega)
  · iempintro
  iintro %_ -
  sl_exec
  -- the zero-filling loop
  sl_for (invF (F := F) m d L O W) $$ [Hmw Hz Ho Hs64 HO]
  case region =>
    intro t _
    unfold invF
    iintro ⟨Hmw, Hz, ⟨%fo, Ho, %hD⟩, Hs64, %W', %hW', HO⟩
    have hnc := ncopy_le L
    have htr : ncopy L + 64 * t.val + 64 ≤ 2048 := by
      have h1 := t.isLt; have h2 := trips35 L; obtain ⟨c, hc⟩ := ncopy_dvd L
      change t.val < (k0_t35_loop L).trips at h1
      rw [h2] at h1; omega
    have hoff : k0_off66 L t 0 = R0 L + (ncopy L + 64 * t.val) := by rw [off66_eq]; unfold R0; show _ + _ + _ + _ = _; omega
    have hsub := chunk_subset L (k0_off66 L t) (k0_off66_inb L t) (fun _ => rfl) (ncopy L + 64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Hz]; · iexact Hz
    isplitl [Ho]
    · iexists _; isplitl [Ho]; · iexact Ho
      ipureintro
      have e : ncopy L + 64 * (t.val + 1) = (ncopy L + 64 * t.val) + 64 := by omega
      rw [e]
      refine done_step m d L _ _ _ (ncopy L + 64 * t.val) hoff (by rw [off66_eq]; rfl) fo _ hD ?_
      exact hw_zero m d L t.val htr _ _ _ (by rw [hoff]; omega) _ (fun y => rfl)
    isplitl [Hs64]; · iexact Hs64
    iexists (insert (SemLoc.dma cc0_scoped64.sem, (default : HIx 1)) W'); isplitr
    · ipureintro; intro p hp
      rcases Finset.mem_insert.mp hp with hp | hp
      · exact .inr (hp ▸ rfl)
      · exact hW' p hp
    · iexact HO
  · unfold invF
    isplitl [Hmw]; · iexact Hmw
    isplitl [Hz]; · iexact Hz
    isplitl [Ho]
    · iexists _; isplitl [Ho]; · iexact Ho
      ipureintro; rw [Nat.mul_zero, Nat.add_zero]; exact hDn
    isplitl [Hs64]; · iexact Hs64
    iexists W1; isplitr
    · ipureintro; exact hW1
    · iexact HO
  iintro %_ HI
  unfold invF
  icases HI with ⟨Hmw, Hz, ⟨%fo2, Ho, %hD2⟩, Hs64, %W2, %hW2, HO⟩
  have hAll : Done m d L 2048 fo2 := by
    have hnc := ncopy_le L
    obtain ⟨c, hc⟩ := ncopy_dvd L
    have e : ncopy L + 64 * (k0_t35_loop L).trips = 2048 := by rw [trips35 L]; omega
    rw [← e]; exact hD2
  sl_exec
  sl_for (fun (_ : Nat) (_ : PUnit) => (iprop(emp) : sProp 𝕄)) $$ []
  case region =>
    intro t _
    exact absurd t.isLt (by have h0 := trips36 L; change ¬ (t.val < (k0_t36_loop L).trips); omega)
  · iempintro
  iintro %_ -
  sl_exec
  sl_step
  -- hand everything back
  isplitl [A0 A1 A2 A3 A4 A6 A7 A8 A9 A10 A11 A12 A13 A14 A15 Aa Ho]
  · isplitl [A0 A1 A2 A3 A4 A6 A7 A8 A9 A10 A11 A12 A13 A14 A15 Aa]
    ·
      isplitl [A0]; · iexact A0
      isplitl [A1]; · iexact A1
      isplitl [A2]; · iexact A2
      isplitl [A3]; · iexact A3
      isplitl [A4]; · iexact A4
      isplitl [Aa]; · iapply (Entails.of_eq (pts_a5 (F := F) d L _ _)); iexact Aa
      isplitl [A6]; · iexact A6
      isplitl [A7]; · iexact A7
      isplitl [A8]; · iexact A8
      isplitl [A9]; · iexact A9
      isplitl [A10]; · iexact A10
      isplitl [A11]; · iexact A11
      isplitl [A12]; · iexact A12
      isplitl [A13]; · iexact A13
      isplitl [A14]; · iexact A14
      iexact A15
    · iapply (Entails.of_eq (pointsTo_congr (ℓ := oLoc d) (done_all m d L fo2 hAll))); iexact Ho
  isplitl [Hb Hz Hbufs]
  · isplitl [Hb]; · iexists _; iapply (Entails.of_eq (pts_b (F := F) d L _)); iexact Hb
    isplitl [Hz]; · iexists _; iapply (Entails.of_eq (pts_z (F := F) d L _)); iexact Hz
    iexact Hbufs
  isplitl [Hs0 Hs1 Hs64 Hsems]
  · isplitl [Hs0]; · iexact Hs0
    isplitl [Hs1]; · iexact Hs1
    isplitl [Hs64]; · iexact Hs64
    iexact Hsems
  iexists W2; isplitr
  · ipureintro; exact hW2
  · iexact HO

end Cert.Proof.KB

end
-- ==== Proof.KBTile6.lean ====
/-
  The task on subcore 6 (of either SparseCore): it serves sequence 6, of 2560 rows. Its second scratch buffer is
  zeroed; the rows of the sequence that fall in its half are copied, 64 at a time, through the first scratch buffer
  into its block of the output; the rest of the block is filled from the zeroed buffer. Each loop keeps "the first so
  many rows of the block hold the padded array".
-/
import proofs.«212850_g39865886441476_cont_8to1_b_277_5_alg».proof.Proof.KBTileCommon

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "a0W" => (Memref.whole Cert.Kernel.main_arg0_scv : Memref Cert.Kernel.sig Kind.scVector Space.hbm Cert.Kernel.S4096x512 EltTy.f32)
local notation "a1W" => (Memref.whole Cert.Kernel.main_arg1_scv : Memref Cert.Kernel.sig Kind.scVector Space.hbm Cert.Kernel.S3840x512 EltTy.f32)
local notation "a2W" => (Memref.whole Cert.Kernel.main_arg2_scv : Memref Cert.Kernel.sig Kind.scVector Space.hbm Cert.Kernel.S3584x512 EltTy.f32)
local notation "a3W" => (Memref.whole Cert.Kernel.main_arg3_scv : Memref Cert.Kernel.sig Kind.scVector Space.hbm Cert.Kernel.S3328x512 EltTy.f32)
local notation "a4W" => (Memref.whole Cert.Kernel.main_arg4_scv : Memref Cert.Kernel.sig Kind.scVector Space.hbm Cert.Kernel.S3072x512 EltTy.f32)
local notation "a5W" => (Memref.whole Cert.Kernel.main_arg5_scv : Memref Cert.Kernel.sig Kind.scVector Space.hbm Cert.Kernel.S2816x512 EltTy.f32)
local notation "a6W" => (Memref.whole Cert.Kernel.main_arg6_scv : Memref Cert.Kernel.sig Kind.scVector Space.hbm Cert.Kernel.S2560x512 EltTy.f32)
local notation "a7W" => (Memref.whole Cert.Kernel.main_arg7_scv : Memref Cert.Kernel.sig Kind.scVector Space.hbm Cert.Kernel.S2304x512 EltTy.f32)
local notation "a8W" => (Memref.whole Cert.Kernel.main_arg8_scv : Memref Cert.Kernel.sig Kind.scVector Space.hbm Cert.Kernel.S2048x512 EltTy.f32)
local notation "a9W" => (Memref.whole Cert.Kernel.main_arg9_scv : Memref Cert.Kernel.sig Kind.scVector Space.hbm Cert.Kernel.S1792x512 EltTy.f32)
local notation "a10W" => (Memref.whole Cert.Kernel.main_arg10_scv : Memref Cert.Kernel.sig Kind.scVector Space.hbm Cert.Kernel.S1536x512 EltTy.f32)
local notation "a11W" => (Memref.whole Cert.Kernel.main_arg11_scv : Memref Cert.Kernel.sig Kind.scVector Space.hbm Cert.Kernel.S1280x512 EltTy.f32)
local notation "a12W" => (Memref.whole Cert.Kernel.main_arg12_scv : Memref Cert.Kernel.sig Kind.scVector Space.hbm Cert.Kernel.S1024x512 EltTy.f32)
local notation "a13W" => (Memref.whole Cert.Kernel.main_arg13_scv : Memref Cert.Kernel.sig Kind.scVector Space.hbm Cert.Kernel.S768x512 EltTy.f32)
local notation "a14W" => (Memref.whole Cert.Kernel.main_arg14_scv : Memref Cert.Kernel.sig Kind.scVector Space.hbm Cert.Kernel.S512x512 EltTy.f32)
local notation "a15W" => (Memref.whole Cert.Kernel.main_arg15_scv : Memref Cert.Kernel.sig Kind.scVector Space.hbm Cert.Kernel.S256x512 EltTy.f32)
local notation "oW" => (Memref.whole Cert.Kernel.main_v0_scv : Memref Cert.Kernel.sig Kind.scVector Space.hbm Cert.Kernel.S65536x512 EltTy.f32)
local notation "bW" => (Memref.whole Cert.Kernel.cc0_scratch0 : Memref Cert.Kernel.sig Kind.scVector Space.vmem Cert.Kernel.S64x512 EltTy.f32)
local notation "zW" => (Memref.whole Cert.Kernel.cc0_scratch1 : Memref Cert.Kernel.sig Kind.scVector Space.vmem Cert.Kernel.S64x512 EltTy.f32)

variable (m : (ℓ : Loc nD τ sig) → Buf (Elt F) ℓ) (d : Dev nD)

omit [FloatOps F] in
theorem ownSems0_V6 (L : grid0.Coords) :
    (ownSems0 (thr d L) : sProp 𝕄)
      = iprop(semVal (thr d L, SemLoc.dma cc0_scoped24.sem) 0 ∗ semVal (thr d L, SemLoc.dma cc0_scoped25.sem) 0 ∗ semVal (thr d L, SemLoc.dma cc0_scoped64.sem) 0
          ∗ bigSep ((((ownCells (thr d L)).erase (thr d L, SemLoc.dma cc0_scoped24.sem)).erase (thr d L, SemLoc.dma cc0_scoped25.sem)).erase (thr d L, SemLoc.dma cc0_scoped64.sem))
              fun g => semVal g 0) := by
  unfold SparseCore.Cfg.ownSems0
  rw [SparseCore.bigSep_erase' ((mem_ownCells (g := (thr d L, SemLoc.dma cc0_scoped24.sem))).mpr ⟨rfl, by
      show (SemLoc.dma cc0_scoped24.sem : SemLoc sig).isScoped .scVector = true; decide⟩),
    SparseCore.bigSep_erase' (Finset.mem_erase.mpr ⟨by simp; decide, (mem_ownCells (g := (thr d L, SemLoc.dma cc0_scoped25.sem))).mpr ⟨rfl, by
      show (SemLoc.dma cc0_scoped25.sem : SemLoc sig).isScoped .scVector = true; decide⟩⟩),
    SparseCore.bigSep_erase' (Finset.mem_erase.mpr ⟨by simp; decide, Finset.mem_erase.mpr ⟨by simp; decide,
      (mem_ownCells (g := (thr d L, SemLoc.dma cc0_scoped64.sem))).mpr ⟨rfl, by show (SemLoc.dma cc0_scoped64.sem : SemLoc sig).isScoped .scVector = true; decide⟩⟩⟩)]

/-- The source chunk of trip `t`, as the program slices it. -/
abbrev srcS6 (L : grid0.Coords) (h : k0_cond7 L = 1#1) (t : Fin (k0_t15_loop L).trips) : Memref sig .scVector .hbm S64x512 .f32 :=
  (a6W).slice (Rect.unit (s := S2560x512) (k0_off26 L t) S64x512.size (k0_off26_inb L t h)) (fun _ => rfl)

omit [FloatOps F] in
theorem pts_a6 (L : grid0.Coords) (q : PosShare TreeShare) (f : Buf (Elt F) (aLoc6 d)) :
    ((a6W).view.loc (thr d L) ↦{q} f : sProp 𝕄) = aLoc6 d ↦{q} f := rfl

/-- The copying loop's invariant before trip `t`: the first `64 t` rows of the block hold the padded array. -/
def invC6 (L : grid0.Coords) (O : CellTallies nD τ sig (HIx 1)) (W : Waits sig (HIx 1)) (q : PosShare TreeShare) (t : Nat) (_ : PUnit) : sProp 𝕄 :=
  iprop(Transfers.MayWaits (thr d L) (none : HIx 1) O
    ∗ ((a6W).view.loc (thr d L) ↦{q} m (aLoc6 d))
    ∗ (∃ fb, (bW).view.loc (thr d L) ↦{fullShare} fb)
    ∗ (∃ fo, (oLoc d ↦[blkSet (bI L)]{fullShare} fo) ∗ ⌜Done m d L (64 * t) fo⌝)
    ∗ semVal (thr d L, SemLoc.dma cc0_scoped24.sem) 0
    ∗ semVal (thr d L, SemLoc.dma cc0_scoped25.sem) 0
    ∗ ∃ W', ⌜∀ p ∈ W', p ∈ W ∨ p.2 = none⌝ ∗ owes (thr d L) O W')

theorem tile_s6 (hF : (K (F := F)).Facts) (L : grid0.Coords) (hs : (L 1).val = 6) (O : CellTallies nD τ sig (HIx 1)) (W : Waits sig (HIx 1)) (hO : ∀ g, O g none = 0) :
    TileSpec m d L O W := by
  have k0_h1 : ¬ k0_cond1 L = 1#1 := fun h => absurd ((cond1_iff L).mp h) (by omega)
  have k0_h2 : ¬ k0_cond2 L = 1#1 := fun h => absurd ((cond2_iff L).mp h) (by omega)
  have k0_h3 : ¬ k0_cond3 L = 1#1 := fun h => absurd ((cond3_iff L).mp h) (by omega)
  have k0_h4 : ¬ k0_cond4 L = 1#1 := fun h => absurd ((cond4_iff L).mp h) (by omega)
  have k0_h5 : ¬ k0_cond5 L = 1#1 := fun h => absurd ((cond5_iff L).mp h) (by omega)
  have k0_h6 : ¬ k0_cond6 L = 1#1 := fun h => absurd ((cond6_iff L).mp h) (by omega)
  have k0_h7 : k0_cond7 L = 1#1 := (cond7_iff L).mpr hs
  have k0_h8 : ¬ k0_cond8 L = 1#1 := fun h => absurd ((cond8_iff L).mp h) (by omega)
  have k0_h9 : ¬ k0_cond9 L = 1#1 := fun h => absurd ((cond9_iff L).mp h) (by omega)
  have k0_h10 : ¬ k0_cond10 L = 1#1 := fun h => absurd ((cond10_iff L).mp h) (by omega)
  have k0_h11 : ¬ k0_cond11 L = 1#1 := fun h => absurd ((cond11_iff L).mp h) (by omega)
  have k0_h12 : ¬ k0_cond12 L = 1#1 := fun h => absurd ((cond12_iff L).mp h) (by omega)
  have k0_h13 : ¬ k0_cond13 L = 1#1 := fun h => absurd ((cond13_iff L).mp h) (by omega)
  have k0_h14 : ¬ k0_cond14 L = 1#1 := fun h => absurd ((cond14_iff L).mp h) (by omega)
  have k0_h15 : ¬ k0_cond15 L = 1#1 := fun h => absurd ((cond15_iff L).mp h) (by omega)
  have k0_h16 : ¬ k0_cond16 L = 1#1 := fun h => absurd ((cond16_iff L).mp h) (by omega)
  have rt : ∀ (fb rd : (cc0_scratch0 : Ref sig .scVector).ty.Contents (Elt F)),
      ReadAs.same.apply (View.read (Elt F) (View.whole (cc0_scratch0 : Ref sig .scVector)) (View.write (Elt F) (View.whole (cc0_scratch0 : Ref sig .scVector)) fb (ReadAs.same.apply rd) Finset.univ)) = rd :=
    fun fb rd => (congrArg (View.read (Elt F) (View.whole (cc0_scratch0 : Ref sig .scVector))) (View.write_whole_univ (Val := Elt F) (cc0_scratch0 : Ref sig .scVector) fb rd)).trans (View.read_whole _ rd)
  unfold TileSpec
  simp only [cc0__pad_body_eq_skeleton]; unfold cc0__pad_body_skel
  rw [(K (F := F)).scopedBufs_V hF d _ _, SparseCore.Cfg.scopedSems0_V (Val := Elt F) d _ _, ownSems0_V6, ownBufs_V]
  unfold argsAt
  iintro ⟨#Hlv, -, ⟨⟨A0, A1, A2, A3, A4, A5, A6, A7, A8, A9, A10, A11, A12, A13, A14, A15⟩, Ho⟩, ⟨⟨%fb, Hb⟩, ⟨%fz, Hz⟩, Hbufs⟩, ⟨Hs0, Hs1, Hs64, Hsems⟩, HO⟩
  ihave Hmw := ((K (F := F)).mayWaits_none (thr := thr d L) hO) $$ Hlv
  ihave Aa := (Entails.of_eq (pts_a6 (F := F) d L _ _).symm) $$ A6
  ihave Hb' := (Entails.of_eq (pts_b (F := F) d L _).symm) $$ Hb
  ihave Hz' := (Entails.of_eq (pts_z (F := F) d L _).symm) $$ Hz
  sl_exec
  -- the zeroing loops
  sl_for (invZ1 (F := F) d L) $$ [Hz']
  case region =>
    intro k1 _
    unfold invZ1
    iintro ⟨%f, Hz, %hf⟩
    sl_exec
    sl_for (invZ2 (F := F) d L k1) $$ [Hz]
    case region =>
      intro k2 _
      unfold invZ2
      iintro ⟨%f, Hz, %hf⟩
      sl_exec
      sl_step
      iexists _; isplitl [Hz]; · iexact Hz
      ipureintro
      exact invZ2_step k1 k2 f hf
    · unfold invZ2
      iexists f; isplitl [Hz]; · iexact Hz
      ipureintro
      exact invZ2_init k1 f hf
    iintro %_ HI
    unfold invZ2
    icases HI with ⟨%f', Hz, %hf'⟩
    sl_exec
    sl_step
    iexists f'; isplitl [Hz]; · iexact Hz
    ipureintro
    exact invZ1_step k1 f' hf'
  · unfold invZ1
    iexists fz; isplitl [Hz']; · iexact Hz'
    ipureintro
    intro r q h; omega
  iintro %_ HI
  unfold invZ1
  icases HI with ⟨%fz1, Hz, %hfz⟩
  have hfz1 : fz1 = fun _ => zF (F := F) := invZ1_final fz1 hfz
  subst hfz1
  sl_exec
  -- the copying loop
  sl_for (invC6 (F := F) m d L O W (shT (cL L) (sL L))) $$ [Hmw Aa Hb' Ho Hs0 Hs1 HO]
  case region =>
    intro t _
    unfold invC6
    iintro ⟨Hmw, Aa, ⟨%fb, Hb⟩, ⟨%fo, Ho, %hD⟩, Hs0, Hs1, %W', %hW', HO⟩
    have htr : 64 * t.val + 64 ≤ ncopy L := by
      have h1 := t.isLt; have h2 := trips15 L; have h3 := ncopy_dvd L
      change t.val < (k0_t15_loop L).trips at h1
      rw [h2] at h1; omega
    have hnc := ncopy_le L
    have hoff : k0_off27 L t 0 = R0 L + 64 * t.val := by rw [off27_eq]; unfold R0; rfl
    have hsub := chunk_subset L (k0_off27 L t) (k0_off27_inb L t k0_h7) (fun _ => rfl) (64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Aa]; · iexact Aa
    isplitl [Hb]; · iexists _; iexact Hb
    isplitl [Ho]
    · iexists _; isplitl [Ho]; · iexact Ho
      ipureintro
      have e : 64 * (t.val + 1) = 64 * t.val + 64 := by omega
      rw [e]
      refine done_step m d L _ _ _ (64 * t.val) hoff (by rw [off27_eq]; rfl) fo _ hD ?_
      refine hw_copy m d L (m (aLoc6 d)) (fun p q => by rw [hs]; rfl) (by rw [hs]) t.val htr _ _ _ hoff (by rw [off27_eq]; rfl)
        (fun y => (srcS6 L k0_h7 t).view.emb y) (fun y => ?_) _
        (fun y => (congrFun (rt fb _) y).trans ((View.read_apply (v := (srcS6 L k0_h7 t).view) _ y).trans (cast_eq _ _)))
      constructor
      · show k0_off26 L t 0 + 1 * (y 0).val = _; rw [off26_eq]; show 2048 * (L 0).val + 64 * t.val + 1 * (y 0).val = _; omega
      · show k0_off26 L t 1 + 1 * (y 1).val = _; rw [off26_eq]; show 0 + 1 * (y 1).val = _; omega
    isplitl [Hs0]; · iexact Hs0
    isplitl [Hs1]; · iexact Hs1
    iexists (insert (SemLoc.dma cc0_scoped25.sem, (default : HIx 1)) (insert (SemLoc.dma cc0_scoped24.sem, (default : HIx 1)) W')); isplitr
    · ipureintro; intro p hp
      rcases Finset.mem_insert.mp hp with hp | hp
      · exact .inr (hp ▸ rfl)
      rcases Finset.mem_insert.mp hp with hp | hp
      · exact .inr (hp ▸ rfl)
      · exact hW' p hp
    · iexact HO
  · unfold invC6
    isplitl [Hmw]; · iexact Hmw
    isplitl [Aa]; · iexact Aa
    isplitl [Hb']; · iexists _; iexact Hb'
    isplitl [Ho]
    · iexists _; isplitl [Ho]; · iexact Ho
      ipureintro; exact done_zero m d L _
    isplitl [Hs0]; · iexact Hs0
    isplitl [Hs1]; · iexact Hs1
    iexists W; isplitr
    · ipureintro; exact fun p hp => .inl hp
    · iexact HO
  iintro %_ HI
  unfold invC6
  icases HI with ⟨Hmw, Aa, ⟨%fb, Hb⟩, ⟨%fo, Ho, %hD⟩, Hs0, Hs1, %W1, %hW1, HO⟩
  have hDn : Done m d L (ncopy L) fo := by
    have h3 := ncopy_dvd L
    have e : 64 * (k0_t15_loop L).trips = ncopy L := by rw [trips15 L]; omega
    rw [← e]; exact hD
  sl_exec
  -- the remainder of the unrolling by one: no trips
  sl_for (fun (_ : Nat) (_ : PUnit) => (iprop(emp) : sProp 𝕄)) $$ []
  case region =>
    intro t _
    exact absurd t.isLt (by have h0 := trips16 L; change ¬ (t.val < (k0_t16_loop L).trips); omega)
  · iempintro
  iintro %_ -
  sl_exec
  -- the zero-filling loop
  sl_for (invF (F := F) m d L O W) $$ [Hmw Hz Ho Hs64 HO]
  case region =>
    intro t _
    unfold invF
    iintro ⟨Hmw, Hz, ⟨%fo, Ho, %hD⟩, Hs64, %W', %hW', HO⟩
    have hnc := ncopy_le L
    have htr : ncopy L + 64 * t.val + 64 ≤ 2048 := by
      have h1 := t.isLt; have h2 := trips35 L; obtain ⟨c, hc⟩ := ncopy_dvd L
      change t.val < (k0_t35_loop L).trips at h1
      rw [h2] at h1; omega
    have hoff : k0_off66 L t 0 = R0 L + (ncopy L + 64 * t.val) := by rw [off66_eq]; unfold R0; show _ + _ + _ + _ = _; omega
    have hsub := chunk_subset L (k0_off66 L t) (k0_off66_inb L t) (fun _ => rfl) (ncopy L + 64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Hz]; · iexact Hz
    isplitl [Ho]
    · iexists _; isplitl [Ho]; · iexact Ho
      ipureintro
      have e : ncopy L + 64 * (t.val + 1) = (ncopy L + 64 * t.val) + 64 := by omega
      rw [e]
      refine done_step m d L _ _ _ (ncopy L + 64 * t.val) hoff (by rw [off66_eq]; rfl) fo _ hD ?_
      exact hw_zero m d L t.val htr _ _ _ (by rw [hoff]; omega) _ (fun y => rfl)
    isplitl [Hs64]; · iexact Hs64
    iexists (insert (SemLoc.dma cc0_scoped64.sem, (default : HIx 1)) W'); isplitr
    · ipureintro; intro p hp
      rcases Finset.mem_insert.mp hp with hp | hp
      · exact .inr (hp ▸ rfl)
      · exact hW' p hp
    · iexact HO
  · unfold invF
    isplitl [Hmw]; · iexact Hmw
    isplitl [Hz]; · iexact Hz
    isplitl [Ho]
    · iexists _; isplitl [Ho]; · iexact Ho
      ipureintro; rw [Nat.mul_zero, Nat.add_zero]; exact hDn
    isplitl [Hs64]; · iexact Hs64
    iexists W1; isplitr
    · ipureintro; exact hW1
    · iexact HO
  iintro %_ HI
  unfold invF
  icases HI with ⟨Hmw, Hz, ⟨%fo2, Ho, %hD2⟩, Hs64, %W2, %hW2, HO⟩
  have hAll : Done m d L 2048 fo2 := by
    have hnc := ncopy_le L
    obtain ⟨c, hc⟩ := ncopy_dvd L
    have e : ncopy L + 64 * (k0_t35_loop L).trips = 2048 := by rw [trips35 L]; omega
    rw [← e]; exact hD2
  sl_exec
  sl_for (fun (_ : Nat) (_ : PUnit) => (iprop(emp) : sProp 𝕄)) $$ []
  case region =>
    intro t _
    exact absurd t.isLt (by have h0 := trips36 L; change ¬ (t.val < (k0_t36_loop L).trips); omega)
  · iempintro
  iintro %_ -
  sl_exec
  sl_step
  -- hand everything back
  isplitl [A0 A1 A2 A3 A4 A5 A7 A8 A9 A10 A11 A12 A13 A14 A15 Aa Ho]
  · isplitl [A0 A1 A2 A3 A4 A5 A7 A8 A9 A10 A11 A12 A13 A14 A15 Aa]
    ·
      isplitl [A0]; · iexact A0
      isplitl [A1]; · iexact A1
      isplitl [A2]; · iexact A2
      isplitl [A3]; · iexact A3
      isplitl [A4]; · iexact A4
      isplitl [A5]; · iexact A5
      isplitl [Aa]; · iapply (Entails.of_eq (pts_a6 (F := F) d L _ _)); iexact Aa
      isplitl [A7]; · iexact A7
      isplitl [A8]; · iexact A8
      isplitl [A9]; · iexact A9
      isplitl [A10]; · iexact A10
      isplitl [A11]; · iexact A11
      isplitl [A12]; · iexact A12
      isplitl [A13]; · iexact A13
      isplitl [A14]; · iexact A14
      iexact A15
    · iapply (Entails.of_eq (pointsTo_congr (ℓ := oLoc d) (done_all m d L fo2 hAll))); iexact Ho
  isplitl [Hb Hz Hbufs]
  · isplitl [Hb]; · iexists _; iapply (Entails.of_eq (pts_b (F := F) d L _)); iexact Hb
    isplitl [Hz]; · iexists _; iapply (Entails.of_eq (pts_z (F := F) d L _)); iexact Hz
    iexact Hbufs
  isplitl [Hs0 Hs1 Hs64 Hsems]
  · isplitl [Hs0]; · iexact Hs0
    isplitl [Hs1]; · iexact Hs1
    isplitl [Hs64]; · iexact Hs64
    iexact Hsems
  iexists W2; isplitr
  · ipureintro; exact hW2
  · iexact HO

end Cert.Proof.KB

end
-- ==== Proof.KBTile7.lean ====
/-
  The task on subcore 7 (of either SparseCore): it serves sequence 7, of 2304 rows. Its second scratch buffer is
  zeroed; the rows of the sequence that fall in its half are copied, 64 at a time, through the first scratch buffer
  into its block of the output; the rest of the block is filled from the zeroed buffer. Each loop keeps "the first so
  many rows of the block hold the padded array".
-/
import proofs.«212850_g39865886441476_cont_8to1_b_277_5_alg».proof.Proof.KBTileCommon

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "a0W" => (Memref.whole Cert.Kernel.main_arg0_scv : Memref Cert.Kernel.sig Kind.scVector Space.hbm Cert.Kernel.S4096x512 EltTy.f32)
local notation "a1W" => (Memref.whole Cert.Kernel.main_arg1_scv : Memref Cert.Kernel.sig Kind.scVector Space.hbm Cert.Kernel.S3840x512 EltTy.f32)
local notation "a2W" => (Memref.whole Cert.Kernel.main_arg2_scv : Memref Cert.Kernel.sig Kind.scVector Space.hbm Cert.Kernel.S3584x512 EltTy.f32)
local notation "a3W" => (Memref.whole Cert.Kernel.main_arg3_scv : Memref Cert.Kernel.sig Kind.scVector Space.hbm Cert.Kernel.S3328x512 EltTy.f32)
local notation "a4W" => (Memref.whole Cert.Kernel.main_arg4_scv : Memref Cert.Kernel.sig Kind.scVector Space.hbm Cert.Kernel.S3072x512 EltTy.f32)
local notation "a5W" => (Memref.whole Cert.Kernel.main_arg5_scv : Memref Cert.Kernel.sig Kind.scVector Space.hbm Cert.Kernel.S2816x512 EltTy.f32)
local notation "a6W" => (Memref.whole Cert.Kernel.main_arg6_scv : Memref Cert.Kernel.sig Kind.scVector Space.hbm Cert.Kernel.S2560x512 EltTy.f32)
local notation "a7W" => (Memref.whole Cert.Kernel.main_arg7_scv : Memref Cert.Kernel.sig Kind.scVector Space.hbm Cert.Kernel.S2304x512 EltTy.f32)
local notation "a8W" => (Memref.whole Cert.Kernel.main_arg8_scv : Memref Cert.Kernel.sig Kind.scVector Space.hbm Cert.Kernel.S2048x512 EltTy.f32)
local notation "a9W" => (Memref.whole Cert.Kernel.main_arg9_scv : Memref Cert.Kernel.sig Kind.scVector Space.hbm Cert.Kernel.S1792x512 EltTy.f32)
local notation "a10W" => (Memref.whole Cert.Kernel.main_arg10_scv : Memref Cert.Kernel.sig Kind.scVector Space.hbm Cert.Kernel.S1536x512 EltTy.f32)
local notation "a11W" => (Memref.whole Cert.Kernel.main_arg11_scv : Memref Cert.Kernel.sig Kind.scVector Space.hbm Cert.Kernel.S1280x512 EltTy.f32)
local notation "a12W" => (Memref.whole Cert.Kernel.main_arg12_scv : Memref Cert.Kernel.sig Kind.scVector Space.hbm Cert.Kernel.S1024x512 EltTy.f32)
local notation "a13W" => (Memref.whole Cert.Kernel.main_arg13_scv : Memref Cert.Kernel.sig Kind.scVector Space.hbm Cert.Kernel.S768x512 EltTy.f32)
local notation "a14W" => (Memref.whole Cert.Kernel.main_arg14_scv : Memref Cert.Kernel.sig Kind.scVector Space.hbm Cert.Kernel.S512x512 EltTy.f32)
local notation "a15W" => (Memref.whole Cert.Kernel.main_arg15_scv : Memref Cert.Kernel.sig Kind.scVector Space.hbm Cert.Kernel.S256x512 EltTy.f32)
local notation "oW" => (Memref.whole Cert.Kernel.main_v0_scv : Memref Cert.Kernel.sig Kind.scVector Space.hbm Cert.Kernel.S65536x512 EltTy.f32)
local notation "bW" => (Memref.whole Cert.Kernel.cc0_scratch0 : Memref Cert.Kernel.sig Kind.scVector Space.vmem Cert.Kernel.S64x512 EltTy.f32)
local notation "zW" => (Memref.whole Cert.Kernel.cc0_scratch1 : Memref Cert.Kernel.sig Kind.scVector Space.vmem Cert.Kernel.S64x512 EltTy.f32)

variable (m : (ℓ : Loc nD τ sig) → Buf (Elt F) ℓ) (d : Dev nD)

omit [FloatOps F] in
theorem ownSems0_V7 (L : grid0.Coords) :
    (ownSems0 (thr d L) : sProp 𝕄)
      = iprop(semVal (thr d L, SemLoc.dma cc0_scoped28.sem) 0 ∗ semVal (thr d L, SemLoc.dma cc0_scoped29.sem) 0 ∗ semVal (thr d L, SemLoc.dma cc0_scoped64.sem) 0
          ∗ bigSep ((((ownCells (thr d L)).erase (thr d L, SemLoc.dma cc0_scoped28.sem)).erase (thr d L, SemLoc.dma cc0_scoped29.sem)).erase (thr d L, SemLoc.dma cc0_scoped64.sem))
              fun g => semVal g 0) := by
  unfold SparseCore.Cfg.ownSems0
  rw [SparseCore.bigSep_erase' ((mem_ownCells (g := (thr d L, SemLoc.dma cc0_scoped28.sem))).mpr ⟨rfl, by
      show (SemLoc.dma cc0_scoped28.sem : SemLoc sig).isScoped .scVector = true; decide⟩),
    SparseCore.bigSep_erase' (Finset.mem_erase.mpr ⟨by simp; decide, (mem_ownCells (g := (thr d L, SemLoc.dma cc0_scoped29.sem))).mpr ⟨rfl, by
      show (SemLoc.dma cc0_scoped29.sem : SemLoc sig).isScoped .scVector = true; decide⟩⟩),
    SparseCore.bigSep_erase' (Finset.mem_erase.mpr ⟨by simp; decide, Finset.mem_erase.mpr ⟨by simp; decide,
      (mem_ownCells (g := (thr d L, SemLoc.dma cc0_scoped64.sem))).mpr ⟨rfl, by show (SemLoc.dma cc0_scoped64.sem : SemLoc sig).isScoped .scVector = true; decide⟩⟩⟩)]

/-- The source chunk of trip `t`, as the program slices it. -/
abbrev srcS7 (L : grid0.Coords) (h : k0_cond8 L = 1#1) (t : Fin (k0_t17_loop L).trips) : Memref sig .scVector .hbm S64x512 .f32 :=
  (a7W).slice (Rect.unit (s := S2304x512) (k0_off30 L t) S64x512.size (k0_off30_inb L t h)) (fun _ => rfl)

omit [FloatOps F] in
theorem pts_a7 (L : grid0.Coords) (q : PosShare TreeShare) (f : Buf (Elt F) (aLoc7 d)) :
    ((a7W).view.loc (thr d L) ↦{q} f : sProp 𝕄) = aLoc7 d ↦{q} f := rfl

/-- The copying loop's invariant before trip `t`: the first `64 t` rows of the block hold the padded array. -/
def invC7 (L : grid0.Coords) (O : CellTallies nD τ sig (HIx 1)) (W : Waits sig (HIx 1)) (q : PosShare TreeShare) (t : Nat) (_ : PUnit) : sProp 𝕄 :=
  iprop(Transfers.MayWaits (thr d L) (none : HIx 1) O
    ∗ ((a7W).view.loc (thr d L) ↦{q} m (aLoc7 d))
    ∗ (∃ fb, (bW).view.loc (thr d L) ↦{fullShare} fb)
    ∗ (∃ fo, (oLoc d ↦[blkSet (bI L)]{fullShare} fo) ∗ ⌜Done m d L (64 * t) fo⌝)
    ∗ semVal (thr d L, SemLoc.dma cc0_scoped28.sem) 0
    ∗ semVal (thr d L, SemLoc.dma cc0_scoped29.sem) 0
    ∗ ∃ W', ⌜∀ p ∈ W', p ∈ W ∨ p.2 = none⌝ ∗ owes (thr d L) O W')

theorem tile_s7 (hF : (K (F := F)).Facts) (L : grid0.Coords) (hs : (L 1).val = 7) (O : CellTallies nD τ sig (HIx 1)) (W : Waits sig (HIx 1)) (hO : ∀ g, O g none = 0) :
    TileSpec m d L O W := by
  have k0_h1 : ¬ k0_cond1 L = 1#1 := fun h => absurd ((cond1_iff L).mp h) (by omega)
  have k0_h2 : ¬ k0_cond2 L = 1#1 := fun h => absurd ((cond2_iff L).mp h) (by omega)
  have k0_h3 : ¬ k0_cond3 L = 1#1 := fun h => absurd ((cond3_iff L).mp h) (by omega)
  have k0_h4 : ¬ k0_cond4 L = 1#1 := fun h => absurd ((cond4_iff L).mp h) (by omega)
  have k0_h5 : ¬ k0_cond5 L = 1#1 := fun h => absurd ((cond5_iff L).mp h) (by omega)
  have k0_h6 : ¬ k0_cond6 L = 1#1 := fun h => absurd ((cond6_iff L).mp h) (by omega)
  have k0_h7 : ¬ k0_cond7 L = 1#1 := fun h => absurd ((cond7_iff L).mp h) (by omega)
  have k0_h8 : k0_cond8 L = 1#1 := (cond8_iff L).mpr hs
  have k0_h9 : ¬ k0_cond9 L = 1#1 := fun h => absurd ((cond9_iff L).mp h) (by omega)
  have k0_h10 : ¬ k0_cond10 L = 1#1 := fun h => absurd ((cond10_iff L).mp h) (by omega)
  have k0_h11 : ¬ k0_cond11 L = 1#1 := fun h => absurd ((cond11_iff L).mp h) (by omega)
  have k0_h12 : ¬ k0_cond12 L = 1#1 := fun h => absurd ((cond12_iff L).mp h) (by omega)
  have k0_h13 : ¬ k0_cond13 L = 1#1 := fun h => absurd ((cond13_iff L).mp h) (by omega)
  have k0_h14 : ¬ k0_cond14 L = 1#1 := fun h => absurd ((cond14_iff L).mp h) (by omega)
  have k0_h15 : ¬ k0_cond15 L = 1#1 := fun h => absurd ((cond15_iff L).mp h) (by omega)
  have k0_h16 : ¬ k0_cond16 L = 1#1 := fun h => absurd ((cond16_iff L).mp h) (by omega)
  have rt : ∀ (fb rd : (cc0_scratch0 : Ref sig .scVector).ty.Contents (Elt F)),
      ReadAs.same.apply (View.read (Elt F) (View.whole (cc0_scratch0 : Ref sig .scVector)) (View.write (Elt F) (View.whole (cc0_scratch0 : Ref sig .scVector)) fb (ReadAs.same.apply rd) Finset.univ)) = rd :=
    fun fb rd => (congrArg (View.read (Elt F) (View.whole (cc0_scratch0 : Ref sig .scVector))) (View.write_whole_univ (Val := Elt F) (cc0_scratch0 : Ref sig .scVector) fb rd)).trans (View.read_whole _ rd)
  unfold TileSpec
  simp only [cc0__pad_body_eq_skeleton]; unfold cc0__pad_body_skel
  rw [(K (F := F)).scopedBufs_V hF d _ _, SparseCore.Cfg.scopedSems0_V (Val := Elt F) d _ _, ownSems0_V7, ownBufs_V]
  unfold argsAt
  iintro ⟨#Hlv, -, ⟨⟨A0, A1, A2, A3, A4, A5, A6, A7, A8, A9, A10, A11, A12, A13, A14, A15⟩, Ho⟩, ⟨⟨%fb, Hb⟩, ⟨%fz, Hz⟩, Hbufs⟩, ⟨Hs0, Hs1, Hs64, Hsems⟩, HO⟩
  ihave Hmw := ((K (F := F)).mayWaits_none (thr := thr d L) hO) $$ Hlv
  ihave Aa := (Entails.of_eq (pts_a7 (F := F) d L _ _).symm) $$ A7
  ihave Hb' := (Entails.of_eq (pts_b (F := F) d L _).symm) $$ Hb
  ihave Hz' := (Entails.of_eq (pts_z (F := F) d L _).symm) $$ Hz
  sl_exec
  -- the zeroing loops
  sl_for (invZ1 (F := F) d L) $$ [Hz']
  case region =>
    intro k1 _
    unfold invZ1
    iintro ⟨%f, Hz, %hf⟩
    sl_exec
    sl_for (invZ2 (F := F) d L k1) $$ [Hz]
    case region =>
      intro k2 _
      unfold invZ2
      iintro ⟨%f, Hz, %hf⟩
      sl_exec
      sl_step
      iexists _; isplitl [Hz]; · iexact Hz
      ipureintro
      exact invZ2_step k1 k2 f hf
    · unfold invZ2
      iexists f; isplitl [Hz]; · iexact Hz
      ipureintro
      exact invZ2_init k1 f hf
    iintro %_ HI
    unfold invZ2
    icases HI with ⟨%f', Hz, %hf'⟩
    sl_exec
    sl_step
    iexists f'; isplitl [Hz]; · iexact Hz
    ipureintro
    exact invZ1_step k1 f' hf'
  · unfold invZ1
    iexists fz; isplitl [Hz']; · iexact Hz'
    ipureintro
    intro r q h; omega
  iintro %_ HI
  unfold invZ1
  icases HI with ⟨%fz1, Hz, %hfz⟩
  have hfz1 : fz1 = fun _ => zF (F := F) := invZ1_final fz1 hfz
  subst hfz1
  sl_exec
  -- the copying loop
  sl_for (invC7 (F := F) m d L O W (shT (cL L) (sL L))) $$ [Hmw Aa Hb' Ho Hs0 Hs1 HO]
  case region =>
    intro t _
    unfold invC7
    iintro ⟨Hmw, Aa, ⟨%fb, Hb⟩, ⟨%fo, Ho, %hD⟩, Hs0, Hs1, %W', %hW', HO⟩
    have htr : 64 * t.val + 64 ≤ ncopy L := by
      have h1 := t.isLt; have h2 := trips17 L; have h3 := ncopy_dvd L
      change t.val < (k0_t17_loop L).trips at h1
      rw [h2] at h1; omega
    have hnc := ncopy_le L
    have hoff : k0_off31 L t 0 = R0 L + 64 * t.val := by rw [off31_eq]; unfold R0; rfl
    have hsub := chunk_subset L (k0_off31 L t) (k0_off31_inb L t k0_h8) (fun _ => rfl) (64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Aa]; · iexact Aa
    isplitl [Hb]; · iexists _; iexact Hb
    isplitl [Ho]
    · iexists _; isplitl [Ho]; · iexact Ho
      ipureintro
      have e : 64 * (t.val + 1) = 64 * t.val + 64 := by omega
      rw [e]
      refine done_step m d L _ _ _ (64 * t.val) hoff (by rw [off31_eq]; rfl) fo _ hD ?_
      refine hw_copy m d L (m (aLoc7 d)) (fun p q => by rw [hs]; rfl) (by rw [hs]) t.val htr _ _ _ hoff (by rw [off31_eq]; rfl)
        (fun y => (srcS7 L k0_h8 t).view.emb y) (fun y => ?_) _
        (fun y => (congrFun (rt fb _) y).trans ((View.read_apply (v := (srcS7 L k0_h8 t).view) _ y).trans (cast_eq _ _)))
      constructor
      · show k0_off30 L t 0 + 1 * (y 0).val = _; rw [off30_eq]; show 2048 * (L 0).val + 64 * t.val + 1 * (y 0).val = _; omega
      · show k0_off30 L t 1 + 1 * (y 1).val = _; rw [off30_eq]; show 0 + 1 * (y 1).val = _; omega
    isplitl [Hs0]; · iexact Hs0
    isplitl [Hs1]; · iexact Hs1
    iexists (insert (SemLoc.dma cc0_scoped29.sem, (default : HIx 1)) (insert (SemLoc.dma cc0_scoped28.sem, (default : HIx 1)) W')); isplitr
    · ipureintro; intro p hp
      rcases Finset.mem_insert.mp hp with hp | hp
      · exact .inr (hp ▸ rfl)
      rcases Finset.mem_insert.mp hp with hp | hp
      · exact .inr (hp ▸ rfl)
      · exact hW' p hp
    · iexact HO
  · unfold invC7
    isplitl [Hmw]; · iexact Hmw
    isplitl [Aa]; · iexact Aa
    isplitl [Hb']; · iexists _; iexact Hb'
    isplitl [Ho]
    · iexists _; isplitl [Ho]; · iexact Ho
      ipureintro; exact done_zero m d L _
    isplitl [Hs0]; · iexact Hs0
    isplitl [Hs1]; · iexact Hs1
    iexists W; isplitr
    · ipureintro; exact fun p hp => .inl hp
    · iexact HO
  iintro %_ HI
  unfold invC7
  icases HI with ⟨Hmw, Aa, ⟨%fb, Hb⟩, ⟨%fo, Ho, %hD⟩, Hs0, Hs1, %W1, %hW1, HO⟩
  have hDn : Done m d L (ncopy L) fo := by
    have h3 := ncopy_dvd L
    have e : 64 * (k0_t17_loop L).trips = ncopy L := by rw [trips17 L]; omega
    rw [← e]; exact hD
  sl_exec
  -- the remainder of the unrolling by one: no trips
  sl_for (fun (_ : Nat) (_ : PUnit) => (iprop(emp) : sProp 𝕄)) $$ []
  case region =>
    intro t _
    exact absurd t.isLt (by have h0 := trips18 L; change ¬ (t.val < (k0_t18_loop L).trips); omega)
  · iempintro
  iintro %_ -
  sl_exec
  -- the zero-filling loop
  sl_for (invF (F := F) m d L O W) $$ [Hmw Hz Ho Hs64 HO]
  case region =>
    intro t _
    unfold invF
    iintro ⟨Hmw, Hz, ⟨%fo, Ho, %hD⟩, Hs64, %W', %hW', HO⟩
    have hnc := ncopy_le L
    have htr : ncopy L + 64 * t.val + 64 ≤ 2048 := by
      have h1 := t.isLt; have h2 := trips35 L; obtain ⟨c, hc⟩ := ncopy_dvd L
      change t.val < (k0_t35_loop L).trips at h1
      rw [h2] at h1; omega
    have hoff : k0_off66 L t 0 = R0 L + (ncopy L + 64 * t.val) := by rw [off66_eq]; unfold R0; show _ + _ + _ + _ = _; omega
    have hsub := chunk_subset L (k0_off66 L t) (k0_off66_inb L t) (fun _ => rfl) (ncopy L + 64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Hz]; · iexact Hz
    isplitl [Ho]
    · iexists _; isplitl [Ho]; · iexact Ho
      ipureintro
      have e : ncopy L + 64 * (t.val + 1) = (ncopy L + 64 * t.val) + 64 := by omega
      rw [e]
      refine done_step m d L _ _ _ (ncopy L + 64 * t.val) hoff (by rw [off66_eq]; rfl) fo _ hD ?_
      exact hw_zero m d L t.val htr _ _ _ (by rw [hoff]; omega) _ (fun y => rfl)
    isplitl [Hs64]; · iexact Hs64
    iexists (insert (SemLoc.dma cc0_scoped64.sem, (default : HIx 1)) W'); isplitr
    · ipureintro; intro p hp
      rcases Finset.mem_insert.mp hp with hp | hp
      · exact .inr (hp ▸ rfl)
      · exact hW' p hp
    · iexact HO
  · unfold invF
    isplitl [Hmw]; · iexact Hmw
    isplitl [Hz]; · iexact Hz
    isplitl [Ho]
    · iexists _; isplitl [Ho]; · iexact Ho
      ipureintro; rw [Nat.mul_zero, Nat.add_zero]; exact hDn
    isplitl [Hs64]; · iexact Hs64
    iexists W1; isplitr
    · ipureintro; exact hW1
    · iexact HO
  iintro %_ HI
  unfold invF
  icases HI with ⟨Hmw, Hz, ⟨%fo2, Ho, %hD2⟩, Hs64, %W2, %hW2, HO⟩
  have hAll : Done m d L 2048 fo2 := by
    have hnc := ncopy_le L
    obtain ⟨c, hc⟩ := ncopy_dvd L
    have e : ncopy L + 64 * (k0_t35_loop L).trips = 2048 := by rw [trips35 L]; omega
    rw [← e]; exact hD2
  sl_exec
  sl_for (fun (_ : Nat) (_ : PUnit) => (iprop(emp) : sProp 𝕄)) $$ []
  case region =>
    intro t _
    exact absurd t.isLt (by have h0 := trips36 L; change ¬ (t.val < (k0_t36_loop L).trips); omega)
  · iempintro
  iintro %_ -
  sl_exec
  sl_step
  -- hand everything back
  isplitl [A0 A1 A2 A3 A4 A5 A6 A8 A9 A10 A11 A12 A13 A14 A15 Aa Ho]
  · isplitl [A0 A1 A2 A3 A4 A5 A6 A8 A9 A10 A11 A12 A13 A14 A15 Aa]
    ·
      isplitl [A0]; · iexact A0
      isplitl [A1]; · iexact A1
      isplitl [A2]; · iexact A2
      isplitl [A3]; · iexact A3
      isplitl [A4]; · iexact A4
      isplitl [A5]; · iexact A5
      isplitl [A6]; · iexact A6
      isplitl [Aa]; · iapply (Entails.of_eq (pts_a7 (F := F) d L _ _)); iexact Aa
      isplitl [A8]; · iexact A8
      isplitl [A9]; · iexact A9
      isplitl [A10]; · iexact A10
      isplitl [A11]; · iexact A11
      isplitl [A12]; · iexact A12
      isplitl [A13]; · iexact A13
      isplitl [A14]; · iexact A14
      iexact A15
    · iapply (Entails.of_eq (pointsTo_congr (ℓ := oLoc d) (done_all m d L fo2 hAll))); iexact Ho
  isplitl [Hb Hz Hbufs]
  · isplitl [Hb]; · iexists _; iapply (Entails.of_eq (pts_b (F := F) d L _)); iexact Hb
    isplitl [Hz]; · iexists _; iapply (Entails.of_eq (pts_z (F := F) d L _)); iexact Hz
    iexact Hbufs
  isplitl [Hs0 Hs1 Hs64 Hsems]
  · isplitl [Hs0]; · iexact Hs0
    isplitl [Hs1]; · iexact Hs1
    isplitl [Hs64]; · iexact Hs64
    iexact Hsems
  iexists W2; isplitr
  · ipureintro; exact hW2
  · iexact HO

end Cert.Proof.KB

end
-- ==== Proof.KBTile8.lean ====
/-
  The task on subcore 8 (of either SparseCore): it serves sequence 8, of 2048 rows. Its second scratch buffer is
  zeroed; the rows of the sequence that fall in its half are copied, 64 at a time, through the first scratch buffer
  into its block of the output; the rest of the block is filled from the zeroed buffer. Each loop keeps "the first so
  many rows of the block hold the padded array".
-/
import proofs.«212850_g39865886441476_cont_8to1_b_277_5_alg».proof.Proof.KBTileCommon

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "a0W" => (Memref.whole Cert.Kernel.main_arg0_scv : Memref Cert.Kernel.sig Kind.scVector Space.hbm Cert.Kernel.S4096x512 EltTy.f32)
local notation "a1W" => (Memref.whole Cert.Kernel.main_arg1_scv : Memref Cert.Kernel.sig Kind.scVector Space.hbm Cert.Kernel.S3840x512 EltTy.f32)
local notation "a2W" => (Memref.whole Cert.Kernel.main_arg2_scv : Memref Cert.Kernel.sig Kind.scVector Space.hbm Cert.Kernel.S3584x512 EltTy.f32)
local notation "a3W" => (Memref.whole Cert.Kernel.main_arg3_scv : Memref Cert.Kernel.sig Kind.scVector Space.hbm Cert.Kernel.S3328x512 EltTy.f32)
local notation "a4W" => (Memref.whole Cert.Kernel.main_arg4_scv : Memref Cert.Kernel.sig Kind.scVector Space.hbm Cert.Kernel.S3072x512 EltTy.f32)
local notation "a5W" => (Memref.whole Cert.Kernel.main_arg5_scv : Memref Cert.Kernel.sig Kind.scVector Space.hbm Cert.Kernel.S2816x512 EltTy.f32)
local notation "a6W" => (Memref.whole Cert.Kernel.main_arg6_scv : Memref Cert.Kernel.sig Kind.scVector Space.hbm Cert.Kernel.S2560x512 EltTy.f32)
local notation "a7W" => (Memref.whole Cert.Kernel.main_arg7_scv : Memref Cert.Kernel.sig Kind.scVector Space.hbm Cert.Kernel.S2304x512 EltTy.f32)
local notation "a8W" => (Memref.whole Cert.Kernel.main_arg8_scv : Memref Cert.Kernel.sig Kind.scVector Space.hbm Cert.Kernel.S2048x512 EltTy.f32)
local notation "a9W" => (Memref.whole Cert.Kernel.main_arg9_scv : Memref Cert.Kernel.sig Kind.scVector Space.hbm Cert.Kernel.S1792x512 EltTy.f32)
local notation "a10W" => (Memref.whole Cert.Kernel.main_arg10_scv : Memref Cert.Kernel.sig Kind.scVector Space.hbm Cert.Kernel.S1536x512 EltTy.f32)
local notation "a11W" => (Memref.whole Cert.Kernel.main_arg11_scv : Memref Cert.Kernel.sig Kind.scVector Space.hbm Cert.Kernel.S1280x512 EltTy.f32)
local notation "a12W" => (Memref.whole Cert.Kernel.main_arg12_scv : Memref Cert.Kernel.sig Kind.scVector Space.hbm Cert.Kernel.S1024x512 EltTy.f32)
local notation "a13W" => (Memref.whole Cert.Kernel.main_arg13_scv : Memref Cert.Kernel.sig Kind.scVector Space.hbm Cert.Kernel.S768x512 EltTy.f32)
local notation "a14W" => (Memref.whole Cert.Kernel.main_arg14_scv : Memref Cert.Kernel.sig Kind.scVector Space.hbm Cert.Kernel.S512x512 EltTy.f32)
local notation "a15W" => (Memref.whole Cert.Kernel.main_arg15_scv : Memref Cert.Kernel.sig Kind.scVector Space.hbm Cert.Kernel.S256x512 EltTy.f32)
local notation "oW" => (Memref.whole Cert.Kernel.main_v0_scv : Memref Cert.Kernel.sig Kind.scVector Space.hbm Cert.Kernel.S65536x512 EltTy.f32)
local notation "bW" => (Memref.whole Cert.Kernel.cc0_scratch0 : Memref Cert.Kernel.sig Kind.scVector Space.vmem Cert.Kernel.S64x512 EltTy.f32)
local notation "zW" => (Memref.whole Cert.Kernel.cc0_scratch1 : Memref Cert.Kernel.sig Kind.scVector Space.vmem Cert.Kernel.S64x512 EltTy.f32)

variable (m : (ℓ : Loc nD τ sig) → Buf (Elt F) ℓ) (d : Dev nD)

omit [FloatOps F] in
theorem ownSems0_V8 (L : grid0.Coords) :
    (ownSems0 (thr d L) : sProp 𝕄)
      = iprop(semVal (thr d L, SemLoc.dma cc0_scoped32.sem) 0 ∗ semVal (thr d L, SemLoc.dma cc0_scoped33.sem) 0 ∗ semVal (thr d L, SemLoc.dma cc0_scoped64.sem) 0
          ∗ bigSep ((((ownCells (thr d L)).erase (thr d L, SemLoc.dma cc0_scoped32.sem)).erase (thr d L, SemLoc.dma cc0_scoped33.sem)).erase (thr d L, SemLoc.dma cc0_scoped64.sem))
              fun g => semVal g 0) := by
  unfold SparseCore.Cfg.ownSems0
  rw [SparseCore.bigSep_erase' ((mem_ownCells (g := (thr d L, SemLoc.dma cc0_scoped32.sem))).mpr ⟨rfl, by
      show (SemLoc.dma cc0_scoped32.sem : SemLoc sig).isScoped .scVector = true; decide⟩),
    SparseCore.bigSep_erase' (Finset.mem_erase.mpr ⟨by simp; decide, (mem_ownCells (g := (thr d L, SemLoc.dma cc0_scoped33.sem))).mpr ⟨rfl, by
      show (SemLoc.dma cc0_scoped33.sem : SemLoc sig).isScoped .scVector = true; decide⟩⟩),
    SparseCore.bigSep_erase' (Finset.mem_erase.mpr ⟨by simp; decide, Finset.mem_erase.mpr ⟨by simp; decide,
      (mem_ownCells (g := (thr d L, SemLoc.dma cc0_scoped64.sem))).mpr ⟨rfl, by show (SemLoc.dma cc0_scoped64.sem : SemLoc sig).isScoped .scVector = true; decide⟩⟩⟩)]

/-- The source chunk of trip `t`, as the program slices it. -/
abbrev srcS8 (L : grid0.Coords) (h : k0_cond9 L = 1#1) (t : Fin (k0_t19_loop L).trips) : Memref sig .scVector .hbm S64x512 .f32 :=
  (a8W).slice (Rect.unit (s := S2048x512) (k0_off34 L t) S64x512.size (k0_off34_inb L t h)) (fun _ => rfl)

omit [FloatOps F] in
theorem pts_a8 (L : grid0.Coords) (q : PosShare TreeShare) (f : Buf (Elt F) (aLoc8 d)) :
    ((a8W).view.loc (thr d L) ↦{q} f : sProp 𝕄) = aLoc8 d ↦{q} f := rfl

/-- The copying loop's invariant before trip `t`: the first `64 t` rows of the block hold the padded array. -/
def invC8 (L : grid0.Coords) (O : CellTallies nD τ sig (HIx 1)) (W : Waits sig (HIx 1)) (q : PosShare TreeShare) (t : Nat) (_ : PUnit) : sProp 𝕄 :=
  iprop(Transfers.MayWaits (thr d L) (none : HIx 1) O
    ∗ ((a8W).view.loc (thr d L) ↦{q} m (aLoc8 d))
    ∗ (∃ fb, (bW).view.loc (thr d L) ↦{fullShare} fb)
    ∗ (∃ fo, (oLoc d ↦[blkSet (bI L)]{fullShare} fo) ∗ ⌜Done m d L (64 * t) fo⌝)
    ∗ semVal (thr d L, SemLoc.dma cc0_scoped32.sem) 0
    ∗ semVal (thr d L, SemLoc.dma cc0_scoped33.sem) 0
    ∗ ∃ W', ⌜∀ p ∈ W', p ∈ W ∨ p.2 = none⌝ ∗ owes (thr d L) O W')

theorem tile_s8 (hF : (K (F := F)).Facts) (L : grid0.Coords) (hs : (L 1).val = 8) (O : CellTallies nD τ sig (HIx 1)) (W : Waits sig (HIx 1)) (hO : ∀ g, O g none = 0) :
    TileSpec m d L O W := by
  have k0_h1 : ¬ k0_cond1 L = 1#1 := fun h => absurd ((cond1_iff L).mp h) (by omega)
  have k0_h2 : ¬ k0_cond2 L = 1#1 := fun h => absurd ((cond2_iff L).mp h) (by omega)
  have k0_h3 : ¬ k0_cond3 L = 1#1 := fun h => absurd ((cond3_iff L).mp h) (by omega)
  have k0_h4 : ¬ k0_cond4 L = 1#1 := fun h => absurd ((cond4_iff L).mp h) (by omega)
  have k0_h5 : ¬ k0_cond5 L = 1#1 := fun h => absurd ((cond5_iff L).mp h) (by omega)
  have k0_h6 : ¬ k0_cond6 L = 1#1 := fun h => absurd ((cond6_iff L).mp h) (by omega)
  have k0_h7 : ¬ k0_cond7 L = 1#1 := fun h => absurd ((cond7_iff L).mp h) (by omega)
  have k0_h8 : ¬ k0_cond8 L = 1#1 := fun h => absurd ((cond8_iff L).mp h) (by omega)
  have k0_h9 : k0_cond9 L = 1#1 := (cond9_iff L).mpr hs
  have k0_h10 : ¬ k0_cond10 L = 1#1 := fun h => absurd ((cond10_iff L).mp h) (by omega)
  have k0_h11 : ¬ k0_cond11 L = 1#1 := fun h => absurd ((cond11_iff L).mp h) (by omega)
  have k0_h12 : ¬ k0_cond12 L = 1#1 := fun h => absurd ((cond12_iff L).mp h) (by omega)
  have k0_h13 : ¬ k0_cond13 L = 1#1 := fun h => absurd ((cond13_iff L).mp h) (by omega)
  have k0_h14 : ¬ k0_cond14 L = 1#1 := fun h => absurd ((cond14_iff L).mp h) (by omega)
  have k0_h15 : ¬ k0_cond15 L = 1#1 := fun h => absurd ((cond15_iff L).mp h) (by omega)
  have k0_h16 : ¬ k0_cond16 L = 1#1 := fun h => absurd ((cond16_iff L).mp h) (by omega)
  have rt : ∀ (fb rd : (cc0_scratch0 : Ref sig .scVector).ty.Contents (Elt F)),
      ReadAs.same.apply (View.read (Elt F) (View.whole (cc0_scratch0 : Ref sig .scVector)) (View.write (Elt F) (View.whole (cc0_scratch0 : Ref sig .scVector)) fb (ReadAs.same.apply rd) Finset.univ)) = rd :=
    fun fb rd => (congrArg (View.read (Elt F) (View.whole (cc0_scratch0 : Ref sig .scVector))) (View.write_whole_univ (Val := Elt F) (cc0_scratch0 : Ref sig .scVector) fb rd)).trans (View.read_whole _ rd)
  unfold TileSpec
  simp only [cc0__pad_body_eq_skeleton]; unfold cc0__pad_body_skel
  rw [(K (F := F)).scopedBufs_V hF d _ _, SparseCore.Cfg.scopedSems0_V (Val := Elt F) d _ _, ownSems0_V8, ownBufs_V]
  unfold argsAt
  iintro ⟨#Hlv, -, ⟨⟨A0, A1, A2, A3, A4, A5, A6, A7, A8, A9, A10, A11, A12, A13, A14, A15⟩, Ho⟩, ⟨⟨%fb, Hb⟩, ⟨%fz, Hz⟩, Hbufs⟩, ⟨Hs0, Hs1, Hs64, Hsems⟩, HO⟩
  ihave Hmw := ((K (F := F)).mayWaits_none (thr := thr d L) hO) $$ Hlv
  ihave Aa := (Entails.of_eq (pts_a8 (F := F) d L _ _).symm) $$ A8
  ihave Hb' := (Entails.of_eq (pts_b (F := F) d L _).symm) $$ Hb
  ihave Hz' := (Entails.of_eq (pts_z (F := F) d L _).symm) $$ Hz
  sl_exec
  -- the zeroing loops
  sl_for (invZ1 (F := F) d L) $$ [Hz']
  case region =>
    intro k1 _
    unfold invZ1
    iintro ⟨%f, Hz, %hf⟩
    sl_exec
    sl_for (invZ2 (F := F) d L k1) $$ [Hz]
    case region =>
      intro k2 _
      unfold invZ2
      iintro ⟨%f, Hz, %hf⟩
      sl_exec
      sl_step
      iexists _; isplitl [Hz]; · iexact Hz
      ipureintro
      exact invZ2_step k1 k2 f hf
    · unfold invZ2
      iexists f; isplitl [Hz]; · iexact Hz
      ipureintro
      exact invZ2_init k1 f hf
    iintro %_ HI
    unfold invZ2
    icases HI with ⟨%f', Hz, %hf'⟩
    sl_exec
    sl_step
    iexists f'; isplitl [Hz]; · iexact Hz
    ipureintro
    exact invZ1_step k1 f' hf'
  · unfold invZ1
    iexists fz; isplitl [Hz']; · iexact Hz'
    ipureintro
    intro r q h; omega
  iintro %_ HI
  unfold invZ1
  icases HI with ⟨%fz1, Hz, %hfz⟩
  have hfz1 : fz1 = fun _ => zF (F := F) := invZ1_final fz1 hfz
  subst hfz1
  sl_exec
  -- the copying loop
  sl_for (invC8 (F := F) m d L O W (shT (cL L) (sL L))) $$ [Hmw Aa Hb' Ho Hs0 Hs1 HO]
  case region =>
    intro t _
    unfold invC8
    iintro ⟨Hmw, Aa, ⟨%fb, Hb⟩, ⟨%fo, Ho, %hD⟩, Hs0, Hs1, %W', %hW', HO⟩
    have htr : 64 * t.val + 64 ≤ ncopy L := by
      have h1 := t.isLt; have h2 := trips19 L; have h3 := ncopy_dvd L
      change t.val < (k0_t19_loop L).trips at h1
      rw [h2] at h1; omega
    have hnc := ncopy_le L
    have hoff : k0_off35 L t 0 = R0 L + 64 * t.val := by rw [off35_eq]; unfold R0; rfl
    have hsub := chunk_subset L (k0_off35 L t) (k0_off35_inb L t k0_h9) (fun _ => rfl) (64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Aa]; · iexact Aa
    isplitl [Hb]; · iexists _; iexact Hb
    isplitl [Ho]
    · iexists _; isplitl [Ho]; · iexact Ho
      ipureintro
      have e : 64 * (t.val + 1) = 64 * t.val + 64 := by omega
      rw [e]
      refine done_step m d L _ _ _ (64 * t.val) hoff (by rw [off35_eq]; rfl) fo _ hD ?_
      refine hw_copy m d L (m (aLoc8 d)) (fun p q => by rw [hs]; rfl) (by rw [hs]) t.val htr _ _ _ hoff (by rw [off35_eq]; rfl)
        (fun y => (srcS8 L k0_h9 t).view.emb y) (fun y => ?_) _
        (fun y => (congrFun (rt fb _) y).trans ((View.read_apply (v := (srcS8 L k0_h9 t).view) _ y).trans (cast_eq _ _)))
      constructor
      · show k0_off34 L t 0 + 1 * (y 0).val = _; rw [off34_eq]; show 2048 * (L 0).val + 64 * t.val + 1 * (y 0).val = _; omega
      · show k0_off34 L t 1 + 1 * (y 1).val = _; rw [off34_eq]; show 0 + 1 * (y 1).val = _; omega
    isplitl [Hs0]; · iexact Hs0
    isplitl [Hs1]; · iexact Hs1
    iexists (insert (SemLoc.dma cc0_scoped33.sem, (default : HIx 1)) (insert (SemLoc.dma cc0_scoped32.sem, (default : HIx 1)) W')); isplitr
    · ipureintro; intro p hp
      rcases Finset.mem_insert.mp hp with hp | hp
      · exact .inr (hp ▸ rfl)
      rcases Finset.mem_insert.mp hp with hp | hp
      · exact .inr (hp ▸ rfl)
      · exact hW' p hp
    · iexact HO
  · unfold invC8
    isplitl [Hmw]; · iexact Hmw
    isplitl [Aa]; · iexact Aa
    isplitl [Hb']; · iexists _; iexact Hb'
    isplitl [Ho]
    · iexists _; isplitl [Ho]; · iexact Ho
      ipureintro; exact done_zero m d L _
    isplitl [Hs0]; · iexact Hs0
    isplitl [Hs1]; · iexact Hs1
    iexists W; isplitr
    · ipureintro; exact fun p hp => .inl hp
    · iexact HO
  iintro %_ HI
  unfold invC8
  icases HI with ⟨Hmw, Aa, ⟨%fb, Hb⟩, ⟨%fo, Ho, %hD⟩, Hs0, Hs1, %W1, %hW1, HO⟩
  have hDn : Done m d L (ncopy L) fo := by
    have h3 := ncopy_dvd L
    have e : 64 * (k0_t19_loop L).trips = ncopy L := by rw [trips19 L]; omega
    rw [← e]; exact hD
  sl_exec
  -- the remainder of the unrolling by one: no trips
  sl_for (fun (_ : Nat) (_ : PUnit) => (iprop(emp) : sProp 𝕄)) $$ []
  case region =>
    intro t _
    exact absurd t.isLt (by have h0 := trips20 L; change ¬ (t.val < (k0_t20_loop L).trips); omega)
  · iempintro
  iintro %_ -
  sl_exec
  -- the zero-filling loop
  sl_for (invF (F := F) m d L O W) $$ [Hmw Hz Ho Hs64 HO]
  case region =>
    intro t _
    unfold invF
    iintro ⟨Hmw, Hz, ⟨%fo, Ho, %hD⟩, Hs64, %W', %hW', HO⟩
    have hnc := ncopy_le L
    have htr : ncopy L + 64 * t.val + 64 ≤ 2048 := by
      have h1 := t.isLt; have h2 := trips35 L; obtain ⟨c, hc⟩ := ncopy_dvd L
      change t.val < (k0_t35_loop L).trips at h1
      rw [h2] at h1; omega
    have hoff : k0_off66 L t 0 = R0 L + (ncopy L + 64 * t.val) := by rw [off66_eq]; unfold R0; show _ + _ + _ + _ = _; omega
    have hsub := chunk_subset L (k0_off66 L t) (k0_off66_inb L t) (fun _ => rfl) (ncopy L + 64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Hz]; · iexact Hz
    isplitl [Ho]
    · iexists _; isplitl [Ho]; · iexact Ho
      ipureintro
      have e : ncopy L + 64 * (t.val + 1) = (ncopy L + 64 * t.val) + 64 := by omega
      rw [e]
      refine done_step m d L _ _ _ (ncopy L + 64 * t.val) hoff (by rw [off66_eq]; rfl) fo _ hD ?_
      exact hw_zero m d L t.val htr _ _ _ (by rw [hoff]; omega) _ (fun y => rfl)
    isplitl [Hs64]; · iexact Hs64
    iexists (insert (SemLoc.dma cc0_scoped64.sem, (default : HIx 1)) W'); isplitr
    · ipureintro; intro p hp
      rcases Finset.mem_insert.mp hp with hp | hp
      · exact .inr (hp ▸ rfl)
      · exact hW' p hp
    · iexact HO
  · unfold invF
    isplitl [Hmw]; · iexact Hmw
    isplitl [Hz]; · iexact Hz
    isplitl [Ho]
    · iexists _; isplitl [Ho]; · iexact Ho
      ipureintro; rw [Nat.mul_zero, Nat.add_zero]; exact hDn
    isplitl [Hs64]; · iexact Hs64
    iexists W1; isplitr
    · ipureintro; exact hW1
    · iexact HO
  iintro %_ HI
  unfold invF
  icases HI with ⟨Hmw, Hz, ⟨%fo2, Ho, %hD2⟩, Hs64, %W2, %hW2, HO⟩
  have hAll : Done m d L 2048 fo2 := by
    have hnc := ncopy_le L
    obtain ⟨c, hc⟩ := ncopy_dvd L
    have e : ncopy L + 64 * (k0_t35_loop L).trips = 2048 := by rw [trips35 L]; omega
    rw [← e]; exact hD2
  sl_exec
  sl_for (fun (_ : Nat) (_ : PUnit) => (iprop(emp) : sProp 𝕄)) $$ []
  case region =>
    intro t _
    exact absurd t.isLt (by have h0 := trips36 L; change ¬ (t.val < (k0_t36_loop L).trips); omega)
  · iempintro
  iintro %_ -
  sl_exec
  sl_step
  -- hand everything back
  isplitl [A0 A1 A2 A3 A4 A5 A6 A7 A9 A10 A11 A12 A13 A14 A15 Aa Ho]
  · isplitl [A0 A1 A2 A3 A4 A5 A6 A7 A9 A10 A11 A12 A13 A14 A15 Aa]
    ·
      isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [Aa]; · iapply (Entails.of_eq (pts_a8 (F := F) d L _ _)); iexact Aa
      isplitl [A9]; · iexact A9
      isplitl [A10]; · iexact A10
      isplitl [A11]; · iexact A11
      isplitl [A12]; · iexact A12
      isplitl [A13]; · iexact A13
      isplitl [A14]; · iexact A14
      iexact A15
    · iapply (Entails.of_eq (pointsTo_congr (ℓ := oLoc d) (done_all m d L fo2 hAll))); iexact Ho
  isplitl [Hb Hz Hbufs]
  · isplitl [Hb]; · iexists _; iapply (Entails.of_eq (pts_b (F := F) d L _)); iexact Hb
    isplitl [Hz]; · iexists _; iapply (Entails.of_eq (pts_z (F := F) d L _)); iexact Hz
    iexact Hbufs
  isplitl [Hs0 Hs1 Hs64 Hsems]
  · isplitl [Hs0]; · iexact Hs0
    isplitl [Hs1]; · iexact Hs1
    isplitl [Hs64]; · iexact Hs64
    iexact Hsems
  iexists W2; isplitr
  · ipureintro; exact hW2
  · iexact HO

end Cert.Proof.KB

end
-- ==== Proof.KBTile9.lean ====
/-
  The task on subcore 9 (of either SparseCore): it serves sequence 9, of 1792 rows. Its second scratch buffer is
  zeroed; the rows of the sequence that fall in its half are copied, 64 at a time, through the first scratch buffer
  into its block of the output; the rest of the block is filled from the zeroed buffer. Each loop keeps "the first so
  many rows of the block hold the padded array".
-/
import proofs.«212850_g39865886441476_cont_8to1_b_277_5_alg».proof.Proof.KBTileCommon

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "a0W" => (Memref.whole Cert.Kernel.main_arg0_scv : Memref Cert.Kernel.sig Kind.scVector Space.hbm Cert.Kernel.S4096x512 EltTy.f32)
local notation "a1W" => (Memref.whole Cert.Kernel.main_arg1_scv : Memref Cert.Kernel.sig Kind.scVector Space.hbm Cert.Kernel.S3840x512 EltTy.f32)
local notation "a2W" => (Memref.whole Cert.Kernel.main_arg2_scv : Memref Cert.Kernel.sig Kind.scVector Space.hbm Cert.Kernel.S3584x512 EltTy.f32)
local notation "a3W" => (Memref.whole Cert.Kernel.main_arg3_scv : Memref Cert.Kernel.sig Kind.scVector Space.hbm Cert.Kernel.S3328x512 EltTy.f32)
local notation "a4W" => (Memref.whole Cert.Kernel.main_arg4_scv : Memref Cert.Kernel.sig Kind.scVector Space.hbm Cert.Kernel.S3072x512 EltTy.f32)
local notation "a5W" => (Memref.whole Cert.Kernel.main_arg5_scv : Memref Cert.Kernel.sig Kind.scVector Space.hbm Cert.Kernel.S2816x512 EltTy.f32)
local notation "a6W" => (Memref.whole Cert.Kernel.main_arg6_scv : Memref Cert.Kernel.sig Kind.scVector Space.hbm Cert.Kernel.S2560x512 EltTy.f32)
local notation "a7W" => (Memref.whole Cert.Kernel.main_arg7_scv : Memref Cert.Kernel.sig Kind.scVector Space.hbm Cert.Kernel.S2304x512 EltTy.f32)
local notation "a8W" => (Memref.whole Cert.Kernel.main_arg8_scv : Memref Cert.Kernel.sig Kind.scVector Space.hbm Cert.Kernel.S2048x512 EltTy.f32)
local notation "a9W" => (Memref.whole Cert.Kernel.main_arg9_scv : Memref Cert.Kernel.sig Kind.scVector Space.hbm Cert.Kernel.S1792x512 EltTy.f32)
local notation "a10W" => (Memref.whole Cert.Kernel.main_arg10_scv : Memref Cert.Kernel.sig Kind.scVector Space.hbm Cert.Kernel.S1536x512 EltTy.f32)
local notation "a11W" => (Memref.whole Cert.Kernel.main_arg11_scv : Memref Cert.Kernel.sig Kind.scVector Space.hbm Cert.Kernel.S1280x512 EltTy.f32)
local notation "a12W" => (Memref.whole Cert.Kernel.main_arg12_scv : Memref Cert.Kernel.sig Kind.scVector Space.hbm Cert.Kernel.S1024x512 EltTy.f32)
local notation "a13W" => (Memref.whole Cert.Kernel.main_arg13_scv : Memref Cert.Kernel.sig Kind.scVector Space.hbm Cert.Kernel.S768x512 EltTy.f32)
local notation "a14W" => (Memref.whole Cert.Kernel.main_arg14_scv : Memref Cert.Kernel.sig Kind.scVector Space.hbm Cert.Kernel.S512x512 EltTy.f32)
local notation "a15W" => (Memref.whole Cert.Kernel.main_arg15_scv : Memref Cert.Kernel.sig Kind.scVector Space.hbm Cert.Kernel.S256x512 EltTy.f32)
local notation "oW" => (Memref.whole Cert.Kernel.main_v0_scv : Memref Cert.Kernel.sig Kind.scVector Space.hbm Cert.Kernel.S65536x512 EltTy.f32)
local notation "bW" => (Memref.whole Cert.Kernel.cc0_scratch0 : Memref Cert.Kernel.sig Kind.scVector Space.vmem Cert.Kernel.S64x512 EltTy.f32)
local notation "zW" => (Memref.whole Cert.Kernel.cc0_scratch1 : Memref Cert.Kernel.sig Kind.scVector Space.vmem Cert.Kernel.S64x512 EltTy.f32)

variable (m : (ℓ : Loc nD τ sig) → Buf (Elt F) ℓ) (d : Dev nD)

omit [FloatOps F] in
theorem ownSems0_V9 (L : grid0.Coords) :
    (ownSems0 (thr d L) : sProp 𝕄)
      = iprop(semVal (thr d L, SemLoc.dma cc0_scoped36.sem) 0 ∗ semVal (thr d L, SemLoc.dma cc0_scoped37.sem) 0 ∗ semVal (thr d L, SemLoc.dma cc0_scoped64.sem) 0
          ∗ bigSep ((((ownCells (thr d L)).erase (thr d L, SemLoc.dma cc0_scoped36.sem)).erase (thr d L, SemLoc.dma cc0_scoped37.sem)).erase (thr d L, SemLoc.dma cc0_scoped64.sem))
              fun g => semVal g 0) := by
  unfold SparseCore.Cfg.ownSems0
  rw [SparseCore.bigSep_erase' ((mem_ownCells (g := (thr d L, SemLoc.dma cc0_scoped36.sem))).mpr ⟨rfl, by
      show (SemLoc.dma cc0_scoped36.sem : SemLoc sig).isScoped .scVector = true; decide⟩),
    SparseCore.bigSep_erase' (Finset.mem_erase.mpr ⟨by simp; decide, (mem_ownCells (g := (thr d L, SemLoc.dma cc0_scoped37.sem))).mpr ⟨rfl, by
      show (SemLoc.dma cc0_scoped37.sem : SemLoc sig).isScoped .scVector = true; decide⟩⟩),
    SparseCore.bigSep_erase' (Finset.mem_erase.mpr ⟨by simp; decide, Finset.mem_erase.mpr ⟨by simp; decide,
      (mem_ownCells (g := (thr d L, SemLoc.dma cc0_scoped64.sem))).mpr ⟨rfl, by show (SemLoc.dma cc0_scoped64.sem : SemLoc sig).isScoped .scVector = true; decide⟩⟩⟩)]

/-- The source chunk of trip `t`, as the program slices it. -/
abbrev srcS9 (L : grid0.Coords) (h : k0_cond10 L = 1#1) (t : Fin (k0_t21_loop L).trips) : Memref sig .scVector .hbm S64x512 .f32 :=
  (a9W).slice (Rect.unit (s := S1792x512) (k0_off38 L t) S64x512.size (k0_off38_inb L t h)) (fun _ => rfl)

omit [FloatOps F] in
theorem pts_a9 (L : grid0.Coords) (q : PosShare TreeShare) (f : Buf (Elt F) (aLoc9 d)) :
    ((a9W).view.loc (thr d L) ↦{q} f : sProp 𝕄) = aLoc9 d ↦{q} f := rfl

/-- The copying loop's invariant before trip `t`: the first `64 t` rows of the block hold the padded array. -/
def invC9 (L : grid0.Coords) (O : CellTallies nD τ sig (HIx 1)) (W : Waits sig (HIx 1)) (q : PosShare TreeShare) (t : Nat) (_ : PUnit) : sProp 𝕄 :=
  iprop(Transfers.MayWaits (thr d L) (none : HIx 1) O
    ∗ ((a9W).view.loc (thr d L) ↦{q} m (aLoc9 d))
    ∗ (∃ fb, (bW).view.loc (thr d L) ↦{fullShare} fb)
    ∗ (∃ fo, (oLoc d ↦[blkSet (bI L)]{fullShare} fo) ∗ ⌜Done m d L (64 * t) fo⌝)
    ∗ semVal (thr d L, SemLoc.dma cc0_scoped36.sem) 0
    ∗ semVal (thr d L, SemLoc.dma cc0_scoped37.sem) 0
    ∗ ∃ W', ⌜∀ p ∈ W', p ∈ W ∨ p.2 = none⌝ ∗ owes (thr d L) O W')

theorem tile_s9 (hF : (K (F := F)).Facts) (L : grid0.Coords) (hs : (L 1).val = 9) (O : CellTallies nD τ sig (HIx 1)) (W : Waits sig (HIx 1)) (hO : ∀ g, O g none = 0) :
    TileSpec m d L O W := by
  have k0_h1 : ¬ k0_cond1 L = 1#1 := fun h => absurd ((cond1_iff L).mp h) (by omega)
  have k0_h2 : ¬ k0_cond2 L = 1#1 := fun h => absurd ((cond2_iff L).mp h) (by omega)
  have k0_h3 : ¬ k0_cond3 L = 1#1 := fun h => absurd ((cond3_iff L).mp h) (by omega)
  have k0_h4 : ¬ k0_cond4 L = 1#1 := fun h => absurd ((cond4_iff L).mp h) (by omega)
  have k0_h5 : ¬ k0_cond5 L = 1#1 := fun h => absurd ((cond5_iff L).mp h) (by omega)
  have k0_h6 : ¬ k0_cond6 L = 1#1 := fun h => absurd ((cond6_iff L).mp h) (by omega)
  have k0_h7 : ¬ k0_cond7 L = 1#1 := fun h => absurd ((cond7_iff L).mp h) (by omega)
  have k0_h8 : ¬ k0_cond8 L = 1#1 := fun h => absurd ((cond8_iff L).mp h) (by omega)
  have k0_h9 : ¬ k0_cond9 L = 1#1 := fun h => absurd ((cond9_iff L).mp h) (by omega)
  have k0_h10 : k0_cond10 L = 1#1 := (cond10_iff L).mpr hs
  have k0_h11 : ¬ k0_cond11 L = 1#1 := fun h => absurd ((cond11_iff L).mp h) (by omega)
  have k0_h12 : ¬ k0_cond12 L = 1#1 := fun h => absurd ((cond12_iff L).mp h) (by omega)
  have k0_h13 : ¬ k0_cond13 L = 1#1 := fun h => absurd ((cond13_iff L).mp h) (by omega)
  have k0_h14 : ¬ k0_cond14 L = 1#1 := fun h => absurd ((cond14_iff L).mp h) (by omega)
  have k0_h15 : ¬ k0_cond15 L = 1#1 := fun h => absurd ((cond15_iff L).mp h) (by omega)
  have k0_h16 : ¬ k0_cond16 L = 1#1 := fun h => absurd ((cond16_iff L).mp h) (by omega)
  have rt : ∀ (fb rd : (cc0_scratch0 : Ref sig .scVector).ty.Contents (Elt F)),
      ReadAs.same.apply (View.read (Elt F) (View.whole (cc0_scratch0 : Ref sig .scVector)) (View.write (Elt F) (View.whole (cc0_scratch0 : Ref sig .scVector)) fb (ReadAs.same.apply rd) Finset.univ)) = rd :=
    fun fb rd => (congrArg (View.read (Elt F) (View.whole (cc0_scratch0 : Ref sig .scVector))) (View.write_whole_univ (Val := Elt F) (cc0_scratch0 : Ref sig .scVector) fb rd)).trans (View.read_whole _ rd)
  unfold TileSpec
  simp only [cc0__pad_body_eq_skeleton]; unfold cc0__pad_body_skel
  rw [(K (F := F)).scopedBufs_V hF d _ _, SparseCore.Cfg.scopedSems0_V (Val := Elt F) d _ _, ownSems0_V9, ownBufs_V]
  unfold argsAt
  iintro ⟨#Hlv, -, ⟨⟨A0, A1, A2, A3, A4, A5, A6, A7, A8, A9, A10, A11, A12, A13, A14, A15⟩, Ho⟩, ⟨⟨%fb, Hb⟩, ⟨%fz, Hz⟩, Hbufs⟩, ⟨Hs0, Hs1, Hs64, Hsems⟩, HO⟩
  ihave Hmw := ((K (F := F)).mayWaits_none (thr := thr d L) hO) $$ Hlv
  ihave Aa := (Entails.of_eq (pts_a9 (F := F) d L _ _).symm) $$ A9
  ihave Hb' := (Entails.of_eq (pts_b (F := F) d L _).symm) $$ Hb
  ihave Hz' := (Entails.of_eq (pts_z (F := F) d L _).symm) $$ Hz
  sl_exec
  -- the zeroing loops
  sl_for (invZ1 (F := F) d L) $$ [Hz']
  case region =>
    intro k1 _
    unfold invZ1
    iintro ⟨%f, Hz, %hf⟩
    sl_exec
    sl_for (invZ2 (F := F) d L k1) $$ [Hz]
    case region =>
      intro k2 _
      unfold invZ2
      iintro ⟨%f, Hz, %hf⟩
      sl_exec
      sl_step
      iexists _; isplitl [Hz]; · iexact Hz
      ipureintro
      exact invZ2_step k1 k2 f hf
    · unfold invZ2
      iexists f; isplitl [Hz]; · iexact Hz
      ipureintro
      exact invZ2_init k1 f hf
    iintro %_ HI
    unfold invZ2
    icases HI with ⟨%f', Hz, %hf'⟩
    sl_exec
    sl_step
    iexists f'; isplitl [Hz]; · iexact Hz
    ipureintro
    exact invZ1_step k1 f' hf'
  · unfold invZ1
    iexists fz; isplitl [Hz']; · iexact Hz'
    ipureintro
    intro r q h; omega
  iintro %_ HI
  unfold invZ1
  icases HI with ⟨%fz1, Hz, %hfz⟩
  have hfz1 : fz1 = fun _ => zF (F := F) := invZ1_final fz1 hfz
  subst hfz1
  sl_exec
  -- the copying loop
  sl_for (invC9 (F := F) m d L O W (shT (cL L) (sL L))) $$ [Hmw Aa Hb' Ho Hs0 Hs1 HO]
  case region =>
    intro t _
    unfold invC9
    iintro ⟨Hmw, Aa, ⟨%fb, Hb⟩, ⟨%fo, Ho, %hD⟩, Hs0, Hs1, %W', %hW', HO⟩
    have htr : 64 * t.val + 64 ≤ ncopy L := by
      have h1 := t.isLt; have h2 := trips21 L; have h3 := ncopy_dvd L
      change t.val < (k0_t21_loop L).trips at h1
      rw [h2] at h1; omega
    have hnc := ncopy_le L
    have hoff : k0_off39 L t 0 = R0 L + 64 * t.val := by rw [off39_eq]; unfold R0; rfl
    have hsub := chunk_subset L (k0_off39 L t) (k0_off39_inb L t k0_h10) (fun _ => rfl) (64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Aa]; · iexact Aa
    isplitl [Hb]; · iexists _; iexact Hb
    isplitl [Ho]
    · iexists _; isplitl [Ho]; · iexact Ho
      ipureintro
      have e : 64 * (t.val + 1) = 64 * t.val + 64 := by omega
      rw [e]
      refine done_step m d L _ _ _ (64 * t.val) hoff (by rw [off39_eq]; rfl) fo _ hD ?_
      refine hw_copy m d L (m (aLoc9 d)) (fun p q => by rw [hs]; rfl) (by rw [hs]) t.val htr _ _ _ hoff (by rw [off39_eq]; rfl)
        (fun y => (srcS9 L k0_h10 t).view.emb y) (fun y => ?_) _
        (fun y => (congrFun (rt fb _) y).trans ((View.read_apply (v := (srcS9 L k0_h10 t).view) _ y).trans (cast_eq _ _)))
      constructor
      · show k0_off38 L t 0 + 1 * (y 0).val = _; rw [off38_eq]; show 2048 * (L 0).val + 64 * t.val + 1 * (y 0).val = _; omega
      · show k0_off38 L t 1 + 1 * (y 1).val = _; rw [off38_eq]; show 0 + 1 * (y 1).val = _; omega
    isplitl [Hs0]; · iexact Hs0
    isplitl [Hs1]; · iexact Hs1
    iexists (insert (SemLoc.dma cc0_scoped37.sem, (default : HIx 1)) (insert (SemLoc.dma cc0_scoped36.sem, (default : HIx 1)) W')); isplitr
    · ipureintro; intro p hp
      rcases Finset.mem_insert.mp hp with hp | hp
      · exact .inr (hp ▸ rfl)
      rcases Finset.mem_insert.mp hp with hp | hp
      · exact .inr (hp ▸ rfl)
      · exact hW' p hp
    · iexact HO
  · unfold invC9
    isplitl [Hmw]; · iexact Hmw
    isplitl [Aa]; · iexact Aa
    isplitl [Hb']; · iexists _; iexact Hb'
    isplitl [Ho]
    · iexists _; isplitl [Ho]; · iexact Ho
      ipureintro; exact done_zero m d L _
    isplitl [Hs0]; · iexact Hs0
    isplitl [Hs1]; · iexact Hs1
    iexists W; isplitr
    · ipureintro; exact fun p hp => .inl hp
    · iexact HO
  iintro %_ HI
  unfold invC9
  icases HI with ⟨Hmw, Aa, ⟨%fb, Hb⟩, ⟨%fo, Ho, %hD⟩, Hs0, Hs1, %W1, %hW1, HO⟩
  have hDn : Done m d L (ncopy L) fo := by
    have h3 := ncopy_dvd L
    have e : 64 * (k0_t21_loop L).trips = ncopy L := by rw [trips21 L]; omega
    rw [← e]; exact hD
  sl_exec
  -- the remainder of the unrolling by one: no trips
  sl_for (fun (_ : Nat) (_ : PUnit) => (iprop(emp) : sProp 𝕄)) $$ []
  case region =>
    intro t _
    exact absurd t.isLt (by have h0 := trips22 L; change ¬ (t.val < (k0_t22_loop L).trips); omega)
  · iempintro
  iintro %_ -
  sl_exec
  -- the zero-filling loop
  sl_for (invF (F := F) m d L O W) $$ [Hmw Hz Ho Hs64 HO]
  case region =>
    intro t _
    unfold invF
    iintro ⟨Hmw, Hz, ⟨%fo, Ho, %hD⟩, Hs64, %W', %hW', HO⟩
    have hnc := ncopy_le L
    have htr : ncopy L + 64 * t.val + 64 ≤ 2048 := by
      have h1 := t.isLt; have h2 := trips35 L; obtain ⟨c, hc⟩ := ncopy_dvd L
      change t.val < (k0_t35_loop L).trips at h1
      rw [h2] at h1; omega
    have hoff : k0_off66 L t 0 = R0 L + (ncopy L + 64 * t.val) := by rw [off66_eq]; unfold R0; show _ + _ + _ + _ = _; omega
    have hsub := chunk_subset L (k0_off66 L t) (k0_off66_inb L t) (fun _ => rfl) (ncopy L + 64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Hz]; · iexact Hz
    isplitl [Ho]
    · iexists _; isplitl [Ho]; · iexact Ho
      ipureintro
      have e : ncopy L + 64 * (t.val + 1) = (ncopy L + 64 * t.val) + 64 := by omega
      rw [e]
      refine done_step m d L _ _ _ (ncopy L + 64 * t.val) hoff (by rw [off66_eq]; rfl) fo _ hD ?_
      exact hw_zero m d L t.val htr _ _ _ (by rw [hoff]; omega) _ (fun y => rfl)
    isplitl [Hs64]; · iexact Hs64
    iexists (insert (SemLoc.dma cc0_scoped64.sem, (default : HIx 1)) W'); isplitr
    · ipureintro; intro p hp
      rcases Finset.mem_insert.mp hp with hp | hp
      · exact .inr (hp ▸ rfl)
      · exact hW' p hp
    · iexact HO
  · unfold invF
    isplitl [Hmw]; · iexact Hmw
    isplitl [Hz]; · iexact Hz
    isplitl [Ho]
    · iexists _; isplitl [Ho]; · iexact Ho
      ipureintro; rw [Nat.mul_zero, Nat.add_zero]; exact hDn
    isplitl [Hs64]; · iexact Hs64
    iexists W1; isplitr
    · ipureintro; exact hW1
    · iexact HO
  iintro %_ HI
  unfold invF
  icases HI with ⟨Hmw, Hz, ⟨%fo2, Ho, %hD2⟩, Hs64, %W2, %hW2, HO⟩
  have hAll : Done m d L 2048 fo2 := by
    have hnc := ncopy_le L
    obtain ⟨c, hc⟩ := ncopy_dvd L
    have e : ncopy L + 64 * (k0_t35_loop L).trips = 2048 := by rw [trips35 L]; omega
    rw [← e]; exact hD2
  sl_exec
  sl_for (fun (_ : Nat) (_ : PUnit) => (iprop(emp) : sProp 𝕄)) $$ []
  case region =>
    intro t _
    exact absurd t.isLt (by have h0 := trips36 L; change ¬ (t.val < (k0_t36_loop L).trips); omega)
  · iempintro
  iintro %_ -
  sl_exec
  sl_step
  -- hand everything back
  isplitl [A0 A1 A2 A3 A4 A5 A6 A7 A8 A10 A11 A12 A13 A14 A15 Aa Ho]
  · isplitl [A0 A1 A2 A3 A4 A5 A6 A7 A8 A10 A11 A12 A13 A14 A15 Aa]
    ·
      isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [Aa]; · iapply (Entails.of_eq (pts_a9 (F := F) d L _ _)); iexact Aa
      isplitl [A10]; · iexact A10
      isplitl [A11]; · iexact A11
      isplitl [A12]; · iexact A12
      isplitl [A13]; · iexact A13
      isplitl [A14]; · iexact A14
      iexact A15
    · iapply (Entails.of_eq (pointsTo_congr (ℓ := oLoc d) (done_all m d L fo2 hAll))); iexact Ho
  isplitl [Hb Hz Hbufs]
  · isplitl [Hb]; · iexists _; iapply (Entails.of_eq (pts_b (F := F) d L _)); iexact Hb
    isplitl [Hz]; · iexists _; iapply (Entails.of_eq (pts_z (F := F) d L _)); iexact Hz
    iexact Hbufs
  isplitl [Hs0 Hs1 Hs64 Hsems]
  · isplitl [Hs0]; · iexact Hs0
    isplitl [Hs1]; · iexact Hs1
    isplitl [Hs64]; · iexact Hs64
    iexact Hsems
  iexists W2; isplitr
  · ipureintro; exact hW2
  · iexact HO

end Cert.Proof.KB

end
-- ==== Proof.KBTile10.lean ====
/-
  The task on subcore 10 (of either SparseCore): it serves sequence 10, of 1536 rows. Its second scratch buffer is
  zeroed; the rows of the sequence that fall in its half are copied, 64 at a time, through the first scratch buffer
  into its block of the output; the rest of the block is filled from the zeroed buffer. Each loop keeps "the first so
  many rows of the block hold the padded array".
-/
import proofs.«212850_g39865886441476_cont_8to1_b_277_5_alg».proof.Proof.KBTileCommon

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "a0W" => (Memref.whole Cert.Kernel.main_arg0_scv : Memref Cert.Kernel.sig Kind.scVector Space.hbm Cert.Kernel.S4096x512 EltTy.f32)
local notation "a1W" => (Memref.whole Cert.Kernel.main_arg1_scv : Memref Cert.Kernel.sig Kind.scVector Space.hbm Cert.Kernel.S3840x512 EltTy.f32)
local notation "a2W" => (Memref.whole Cert.Kernel.main_arg2_scv : Memref Cert.Kernel.sig Kind.scVector Space.hbm Cert.Kernel.S3584x512 EltTy.f32)
local notation "a3W" => (Memref.whole Cert.Kernel.main_arg3_scv : Memref Cert.Kernel.sig Kind.scVector Space.hbm Cert.Kernel.S3328x512 EltTy.f32)
local notation "a4W" => (Memref.whole Cert.Kernel.main_arg4_scv : Memref Cert.Kernel.sig Kind.scVector Space.hbm Cert.Kernel.S3072x512 EltTy.f32)
local notation "a5W" => (Memref.whole Cert.Kernel.main_arg5_scv : Memref Cert.Kernel.sig Kind.scVector Space.hbm Cert.Kernel.S2816x512 EltTy.f32)
local notation "a6W" => (Memref.whole Cert.Kernel.main_arg6_scv : Memref Cert.Kernel.sig Kind.scVector Space.hbm Cert.Kernel.S2560x512 EltTy.f32)
local notation "a7W" => (Memref.whole Cert.Kernel.main_arg7_scv : Memref Cert.Kernel.sig Kind.scVector Space.hbm Cert.Kernel.S2304x512 EltTy.f32)
local notation "a8W" => (Memref.whole Cert.Kernel.main_arg8_scv : Memref Cert.Kernel.sig Kind.scVector Space.hbm Cert.Kernel.S2048x512 EltTy.f32)
local notation "a9W" => (Memref.whole Cert.Kernel.main_arg9_scv : Memref Cert.Kernel.sig Kind.scVector Space.hbm Cert.Kernel.S1792x512 EltTy.f32)
local notation "a10W" => (Memref.whole Cert.Kernel.main_arg10_scv : Memref Cert.Kernel.sig Kind.scVector Space.hbm Cert.Kernel.S1536x512 EltTy.f32)
local notation "a11W" => (Memref.whole Cert.Kernel.main_arg11_scv : Memref Cert.Kernel.sig Kind.scVector Space.hbm Cert.Kernel.S1280x512 EltTy.f32)
local notation "a12W" => (Memref.whole Cert.Kernel.main_arg12_scv : Memref Cert.Kernel.sig Kind.scVector Space.hbm Cert.Kernel.S1024x512 EltTy.f32)
local notation "a13W" => (Memref.whole Cert.Kernel.main_arg13_scv : Memref Cert.Kernel.sig Kind.scVector Space.hbm Cert.Kernel.S768x512 EltTy.f32)
local notation "a14W" => (Memref.whole Cert.Kernel.main_arg14_scv : Memref Cert.Kernel.sig Kind.scVector Space.hbm Cert.Kernel.S512x512 EltTy.f32)
local notation "a15W" => (Memref.whole Cert.Kernel.main_arg15_scv : Memref Cert.Kernel.sig Kind.scVector Space.hbm Cert.Kernel.S256x512 EltTy.f32)
local notation "oW" => (Memref.whole Cert.Kernel.main_v0_scv : Memref Cert.Kernel.sig Kind.scVector Space.hbm Cert.Kernel.S65536x512 EltTy.f32)
local notation "bW" => (Memref.whole Cert.Kernel.cc0_scratch0 : Memref Cert.Kernel.sig Kind.scVector Space.vmem Cert.Kernel.S64x512 EltTy.f32)
local notation "zW" => (Memref.whole Cert.Kernel.cc0_scratch1 : Memref Cert.Kernel.sig Kind.scVector Space.vmem Cert.Kernel.S64x512 EltTy.f32)

variable (m : (ℓ : Loc nD τ sig) → Buf (Elt F) ℓ) (d : Dev nD)

omit [FloatOps F] in
theorem ownSems0_V10 (L : grid0.Coords) :
    (ownSems0 (thr d L) : sProp 𝕄)
      = iprop(semVal (thr d L, SemLoc.dma cc0_scoped40.sem) 0 ∗ semVal (thr d L, SemLoc.dma cc0_scoped41.sem) 0 ∗ semVal (thr d L, SemLoc.dma cc0_scoped64.sem) 0
          ∗ bigSep ((((ownCells (thr d L)).erase (thr d L, SemLoc.dma cc0_scoped40.sem)).erase (thr d L, SemLoc.dma cc0_scoped41.sem)).erase (thr d L, SemLoc.dma cc0_scoped64.sem))
              fun g => semVal g 0) := by
  unfold SparseCore.Cfg.ownSems0
  rw [SparseCore.bigSep_erase' ((mem_ownCells (g := (thr d L, SemLoc.dma cc0_scoped40.sem))).mpr ⟨rfl, by
      show (SemLoc.dma cc0_scoped40.sem : SemLoc sig).isScoped .scVector = true; decide⟩),
    SparseCore.bigSep_erase' (Finset.mem_erase.mpr ⟨by simp; decide, (mem_ownCells (g := (thr d L, SemLoc.dma cc0_scoped41.sem))).mpr ⟨rfl, by
      show (SemLoc.dma cc0_scoped41.sem : SemLoc sig).isScoped .scVector = true; decide⟩⟩),
    SparseCore.bigSep_erase' (Finset.mem_erase.mpr ⟨by simp; decide, Finset.mem_erase.mpr ⟨by simp; decide,
      (mem_ownCells (g := (thr d L, SemLoc.dma cc0_scoped64.sem))).mpr ⟨rfl, by show (SemLoc.dma cc0_scoped64.sem : SemLoc sig).isScoped .scVector = true; decide⟩⟩⟩)]

/-- The source chunk of trip `t`, as the program slices it. -/
abbrev srcS10 (L : grid0.Coords) (h : k0_cond11 L = 1#1) (t : Fin (k0_t23_loop L).trips) : Memref sig .scVector .hbm S64x512 .f32 :=
  (a10W).slice (Rect.unit (s := S1536x512) (k0_off42 L t) S64x512.size (k0_off42_inb L t h)) (fun _ => rfl)

omit [FloatOps F] in
theorem pts_a10 (L : grid0.Coords) (q : PosShare TreeShare) (f : Buf (Elt F) (aLoc10 d)) :
    ((a10W).view.loc (thr d L) ↦{q} f : sProp 𝕄) = aLoc10 d ↦{q} f := rfl

/-- The copying loop's invariant before trip `t`: the first `64 t` rows of the block hold the padded array. -/
def invC10 (L : grid0.Coords) (O : CellTallies nD τ sig (HIx 1)) (W : Waits sig (HIx 1)) (q : PosShare TreeShare) (t : Nat) (_ : PUnit) : sProp 𝕄 :=
  iprop(Transfers.MayWaits (thr d L) (none : HIx 1) O
    ∗ ((a10W).view.loc (thr d L) ↦{q} m (aLoc10 d))
    ∗ (∃ fb, (bW).view.loc (thr d L) ↦{fullShare} fb)
    ∗ (∃ fo, (oLoc d ↦[blkSet (bI L)]{fullShare} fo) ∗ ⌜Done m d L (64 * t) fo⌝)
    ∗ semVal (thr d L, SemLoc.dma cc0_scoped40.sem) 0
    ∗ semVal (thr d L, SemLoc.dma cc0_scoped41.sem) 0
    ∗ ∃ W', ⌜∀ p ∈ W', p ∈ W ∨ p.2 = none⌝ ∗ owes (thr d L) O W')

theorem tile_s10 (hF : (K (F := F)).Facts) (L : grid0.Coords) (hs : (L 1).val = 10) (O : CellTallies nD τ sig (HIx 1)) (W : Waits sig (HIx 1)) (hO : ∀ g, O g none = 0) :
    TileSpec m d L O W := by
  have k0_h1 : ¬ k0_cond1 L = 1#1 := fun h => absurd ((cond1_iff L).mp h) (by omega)
  have k0_h2 : ¬ k0_cond2 L = 1#1 := fun h => absurd ((cond2_iff L).mp h) (by omega)
  have k0_h3 : ¬ k0_cond3 L = 1#1 := fun h => absurd ((cond3_iff L).mp h) (by omega)
  have k0_h4 : ¬ k0_cond4 L = 1#1 := fun h => absurd ((cond4_iff L).mp h) (by omega)
  have k0_h5 : ¬ k0_cond5 L = 1#1 := fun h => absurd ((cond5_iff L).mp h) (by omega)
  have k0_h6 : ¬ k0_cond6 L = 1#1 := fun h => absurd ((cond6_iff L).mp h) (by omega)
  have k0_h7 : ¬ k0_cond7 L = 1#1 := fun h => absurd ((cond7_iff L).mp h) (by omega)
  have k0_h8 : ¬ k0_cond8 L = 1#1 := fun h => absurd ((cond8_iff L).mp h) (by omega)
  have k0_h9 : ¬ k0_cond9 L = 1#1 := fun h => absurd ((cond9_iff L).mp h) (by omega)
  have k0_h10 : ¬ k0_cond10 L = 1#1 := fun h => absurd ((cond10_iff L).mp h) (by omega)
  have k0_h11 : k0_cond11 L = 1#1 := (cond11_iff L).mpr hs
  have k0_h12 : ¬ k0_cond12 L = 1#1 := fun h => absurd ((cond12_iff L).mp h) (by omega)
  have k0_h13 : ¬ k0_cond13 L = 1#1 := fun h => absurd ((cond13_iff L).mp h) (by omega)
  have k0_h14 : ¬ k0_cond14 L = 1#1 := fun h => absurd ((cond14_iff L).mp h) (by omega)
  have k0_h15 : ¬ k0_cond15 L = 1#1 := fun h => absurd ((cond15_iff L).mp h) (by omega)
  have k0_h16 : ¬ k0_cond16 L = 1#1 := fun h => absurd ((cond16_iff L).mp h) (by omega)
  have rt : ∀ (fb rd : (cc0_scratch0 : Ref sig .scVector).ty.Contents (Elt F)),
      ReadAs.same.apply (View.read (Elt F) (View.whole (cc0_scratch0 : Ref sig .scVector)) (View.write (Elt F) (View.whole (cc0_scratch0 : Ref sig .scVector)) fb (ReadAs.same.apply rd) Finset.univ)) = rd :=
    fun fb rd => (congrArg (View.read (Elt F) (View.whole (cc0_scratch0 : Ref sig .scVector))) (View.write_whole_univ (Val := Elt F) (cc0_scratch0 : Ref sig .scVector) fb rd)).trans (View.read_whole _ rd)
  unfold TileSpec
  simp only [cc0__pad_body_eq_skeleton]; unfold cc0__pad_body_skel
  rw [(K (F := F)).scopedBufs_V hF d _ _, SparseCore.Cfg.scopedSems0_V (Val := Elt F) d _ _, ownSems0_V10, ownBufs_V]
  unfold argsAt
  iintro ⟨#Hlv, -, ⟨⟨A0, A1, A2, A3, A4, A5, A6, A7, A8, A9, A10, A11, A12, A13, A14, A15⟩, Ho⟩, ⟨⟨%fb, Hb⟩, ⟨%fz, Hz⟩, Hbufs⟩, ⟨Hs0, Hs1, Hs64, Hsems⟩, HO⟩
  ihave Hmw := ((K (F := F)).mayWaits_none (thr := thr d L) hO) $$ Hlv
  ihave Aa := (Entails.of_eq (pts_a10 (F := F) d L _ _).symm) $$ A10
  ihave Hb' := (Entails.of_eq (pts_b (F := F) d L _).symm) $$ Hb
  ihave Hz' := (Entails.of_eq (pts_z (F := F) d L _).symm) $$ Hz
  sl_exec
  -- the zeroing loops
  sl_for (invZ1 (F := F) d L) $$ [Hz']
  case region =>
    intro k1 _
    unfold invZ1
    iintro ⟨%f, Hz, %hf⟩
    sl_exec
    sl_for (invZ2 (F := F) d L k1) $$ [Hz]
    case region =>
      intro k2 _
      unfold invZ2
      iintro ⟨%f, Hz, %hf⟩
      sl_exec
      sl_step
      iexists _; isplitl [Hz]; · iexact Hz
      ipureintro
      exact invZ2_step k1 k2 f hf
    · unfold invZ2
      iexists f; isplitl [Hz]; · iexact Hz
      ipureintro
      exact invZ2_init k1 f hf
    iintro %_ HI
    unfold invZ2
    icases HI with ⟨%f', Hz, %hf'⟩
    sl_exec
    sl_step
    iexists f'; isplitl [Hz]; · iexact Hz
    ipureintro
    exact invZ1_step k1 f' hf'
  · unfold invZ1
    iexists fz; isplitl [Hz']; · iexact Hz'
    ipureintro
    intro r q h; omega
  iintro %_ HI
  unfold invZ1
  icases HI with ⟨%fz1, Hz, %hfz⟩
  have hfz1 : fz1 = fun _ => zF (F := F) := invZ1_final fz1 hfz
  subst hfz1
  sl_exec
  -- the copying loop
  sl_for (invC10 (F := F) m d L O W (shT (cL L) (sL L))) $$ [Hmw Aa Hb' Ho Hs0 Hs1 HO]
  case region =>
    intro t _
    unfold invC10
    iintro ⟨Hmw, Aa, ⟨%fb, Hb⟩, ⟨%fo, Ho, %hD⟩, Hs0, Hs1, %W', %hW', HO⟩
    have htr : 64 * t.val + 64 ≤ ncopy L := by
      have h1 := t.isLt; have h2 := trips23 L; have h3 := ncopy_dvd L
      change t.val < (k0_t23_loop L).trips at h1
      rw [h2] at h1; omega
    have hnc := ncopy_le L
    have hoff : k0_off43 L t 0 = R0 L + 64 * t.val := by rw [off43_eq]; unfold R0; rfl
    have hsub := chunk_subset L (k0_off43 L t) (k0_off43_inb L t k0_h11) (fun _ => rfl) (64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Aa]; · iexact Aa
    isplitl [Hb]; · iexists _; iexact Hb
    isplitl [Ho]
    · iexists _; isplitl [Ho]; · iexact Ho
      ipureintro
      have e : 64 * (t.val + 1) = 64 * t.val + 64 := by omega
      rw [e]
      refine done_step m d L _ _ _ (64 * t.val) hoff (by rw [off43_eq]; rfl) fo _ hD ?_
      refine hw_copy m d L (m (aLoc10 d)) (fun p q => by rw [hs]; rfl) (by rw [hs]) t.val htr _ _ _ hoff (by rw [off43_eq]; rfl)
        (fun y => (srcS10 L k0_h11 t).view.emb y) (fun y => ?_) _
        (fun y => (congrFun (rt fb _) y).trans ((View.read_apply (v := (srcS10 L k0_h11 t).view) _ y).trans (cast_eq _ _)))
      constructor
      · show k0_off42 L t 0 + 1 * (y 0).val = _; rw [off42_eq]; show 2048 * (L 0).val + 64 * t.val + 1 * (y 0).val = _; omega
      · show k0_off42 L t 1 + 1 * (y 1).val = _; rw [off42_eq]; show 0 + 1 * (y 1).val = _; omega
    isplitl [Hs0]; · iexact Hs0
    isplitl [Hs1]; · iexact Hs1
    iexists (insert (SemLoc.dma cc0_scoped41.sem, (default : HIx 1)) (insert (SemLoc.dma cc0_scoped40.sem, (default : HIx 1)) W')); isplitr
    · ipureintro; intro p hp
      rcases Finset.mem_insert.mp hp with hp | hp
      · exact .inr (hp ▸ rfl)
      rcases Finset.mem_insert.mp hp with hp | hp
      · exact .inr (hp ▸ rfl)
      · exact hW' p hp
    · iexact HO
  · unfold invC10
    isplitl [Hmw]; · iexact Hmw
    isplitl [Aa]; · iexact Aa
    isplitl [Hb']; · iexists _; iexact Hb'
    isplitl [Ho]
    · iexists _; isplitl [Ho]; · iexact Ho
      ipureintro; exact done_zero m d L _
    isplitl [Hs0]; · iexact Hs0
    isplitl [Hs1]; · iexact Hs1
    iexists W; isplitr
    · ipureintro; exact fun p hp => .inl hp
    · iexact HO
  iintro %_ HI
  unfold invC10
  icases HI with ⟨Hmw, Aa, ⟨%fb, Hb⟩, ⟨%fo, Ho, %hD⟩, Hs0, Hs1, %W1, %hW1, HO⟩
  have hDn : Done m d L (ncopy L) fo := by
    have h3 := ncopy_dvd L
    have e : 64 * (k0_t23_loop L).trips = ncopy L := by rw [trips23 L]; omega
    rw [← e]; exact hD
  sl_exec
  -- the remainder of the unrolling by one: no trips
  sl_for (fun (_ : Nat) (_ : PUnit) => (iprop(emp) : sProp 𝕄)) $$ []
  case region =>
    intro t _
    exact absurd t.isLt (by have h0 := trips24 L; change ¬ (t.val < (k0_t24_loop L).trips); omega)
  · iempintro
  iintro %_ -
  sl_exec
  -- the zero-filling loop
  sl_for (invF (F := F) m d L O W) $$ [Hmw Hz Ho Hs64 HO]
  case region =>
    intro t _
    unfold invF
    iintro ⟨Hmw, Hz, ⟨%fo, Ho, %hD⟩, Hs64, %W', %hW', HO⟩
    have hnc := ncopy_le L
    have htr : ncopy L + 64 * t.val + 64 ≤ 2048 := by
      have h1 := t.isLt; have h2 := trips35 L; obtain ⟨c, hc⟩ := ncopy_dvd L
      change t.val < (k0_t35_loop L).trips at h1
      rw [h2] at h1; omega
    have hoff : k0_off66 L t 0 = R0 L + (ncopy L + 64 * t.val) := by rw [off66_eq]; unfold R0; show _ + _ + _ + _ = _; omega
    have hsub := chunk_subset L (k0_off66 L t) (k0_off66_inb L t) (fun _ => rfl) (ncopy L + 64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Hz]; · iexact Hz
    isplitl [Ho]
    · iexists _; isplitl [Ho]; · iexact Ho
      ipureintro
      have e : ncopy L + 64 * (t.val + 1) = (ncopy L + 64 * t.val) + 64 := by omega
      rw [e]
      refine done_step m d L _ _ _ (ncopy L + 64 * t.val) hoff (by rw [off66_eq]; rfl) fo _ hD ?_
      exact hw_zero m d L t.val htr _ _ _ (by rw [hoff]; omega) _ (fun y => rfl)
    isplitl [Hs64]; · iexact Hs64
    iexists (insert (SemLoc.dma cc0_scoped64.sem, (default : HIx 1)) W'); isplitr
    · ipureintro; intro p hp
      rcases Finset.mem_insert.mp hp with hp | hp
      · exact .inr (hp ▸ rfl)
      · exact hW' p hp
    · iexact HO
  · unfold invF
    isplitl [Hmw]; · iexact Hmw
    isplitl [Hz]; · iexact Hz
    isplitl [Ho]
    · iexists _; isplitl [Ho]; · iexact Ho
      ipureintro; rw [Nat.mul_zero, Nat.add_zero]; exact hDn
    isplitl [Hs64]; · iexact Hs64
    iexists W1; isplitr
    · ipureintro; exact hW1
    · iexact HO
  iintro %_ HI
  unfold invF
  icases HI with ⟨Hmw, Hz, ⟨%fo2, Ho, %hD2⟩, Hs64, %W2, %hW2, HO⟩
  have hAll : Done m d L 2048 fo2 := by
    have hnc := ncopy_le L
    obtain ⟨c, hc⟩ := ncopy_dvd L
    have e : ncopy L + 64 * (k0_t35_loop L).trips = 2048 := by rw [trips35 L]; omega
    rw [← e]; exact hD2
  sl_exec
  sl_for (fun (_ : Nat) (_ : PUnit) => (iprop(emp) : sProp 𝕄)) $$ []
  case region =>
    intro t _
    exact absurd t.isLt (by have h0 := trips36 L; change ¬ (t.val < (k0_t36_loop L).trips); omega)
  · iempintro
  iintro %_ -
  sl_exec
  sl_step
  -- hand everything back
  isplitl [A0 A1 A2 A3 A4 A5 A6 A7 A8 A9 A11 A12 A13 A14 A15 Aa Ho]
  · isplitl [A0 A1 A2 A3 A4 A5 A6 A7 A8 A9 A11 A12 A13 A14 A15 Aa]
    ·
      isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [Aa]; · iapply (Entails.of_eq (pts_a10 (F := F) d L _ _)); iexact Aa
      isplitl [A11]; · iexact A11
      isplitl [A12]; · iexact A12
      isplitl [A13]; · iexact A13
      isplitl [A14]; · iexact A14
      iexact A15
    · iapply (Entails.of_eq (pointsTo_congr (ℓ := oLoc d) (done_all m d L fo2 hAll))); iexact Ho
  isplitl [Hb Hz Hbufs]
  · isplitl [Hb]; · iexists _; iapply (Entails.of_eq (pts_b (F := F) d L _)); iexact Hb
    isplitl [Hz]; · iexists _; iapply (Entails.of_eq (pts_z (F := F) d L _)); iexact Hz
    iexact Hbufs
  isplitl [Hs0 Hs1 Hs64 Hsems]
  · isplitl [Hs0]; · iexact Hs0
    isplitl [Hs1]; · iexact Hs1
    isplitl [Hs64]; · iexact Hs64
    iexact Hsems
  iexists W2; isplitr
  · ipureintro; exact hW2
  · iexact HO

end Cert.Proof.KB

end
-- ==== Proof.KBTile11.lean ====
/-
  The task on subcore 11 (of either SparseCore): it serves sequence 11, of 1280 rows. Its second scratch buffer is
  zeroed; the rows of the sequence that fall in its half are copied, 64 at a time, through the first scratch buffer
  into its block of the output; the rest of the block is filled from the zeroed buffer. Each loop keeps "the first so
  many rows of the block hold the padded array".
-/
import proofs.«212850_g39865886441476_cont_8to1_b_277_5_alg».proof.Proof.KBTileCommon

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "a0W" => (Memref.whole Cert.Kernel.main_arg0_scv : Memref Cert.Kernel.sig Kind.scVector Space.hbm Cert.Kernel.S4096x512 EltTy.f32)
local notation "a1W" => (Memref.whole Cert.Kernel.main_arg1_scv : Memref Cert.Kernel.sig Kind.scVector Space.hbm Cert.Kernel.S3840x512 EltTy.f32)
local notation "a2W" => (Memref.whole Cert.Kernel.main_arg2_scv : Memref Cert.Kernel.sig Kind.scVector Space.hbm Cert.Kernel.S3584x512 EltTy.f32)
local notation "a3W" => (Memref.whole Cert.Kernel.main_arg3_scv : Memref Cert.Kernel.sig Kind.scVector Space.hbm Cert.Kernel.S3328x512 EltTy.f32)
local notation "a4W" => (Memref.whole Cert.Kernel.main_arg4_scv : Memref Cert.Kernel.sig Kind.scVector Space.hbm Cert.Kernel.S3072x512 EltTy.f32)
local notation "a5W" => (Memref.whole Cert.Kernel.main_arg5_scv : Memref Cert.Kernel.sig Kind.scVector Space.hbm Cert.Kernel.S2816x512 EltTy.f32)
local notation "a6W" => (Memref.whole Cert.Kernel.main_arg6_scv : Memref Cert.Kernel.sig Kind.scVector Space.hbm Cert.Kernel.S2560x512 EltTy.f32)
local notation "a7W" => (Memref.whole Cert.Kernel.main_arg7_scv : Memref Cert.Kernel.sig Kind.scVector Space.hbm Cert.Kernel.S2304x512 EltTy.f32)
local notation "a8W" => (Memref.whole Cert.Kernel.main_arg8_scv : Memref Cert.Kernel.sig Kind.scVector Space.hbm Cert.Kernel.S2048x512 EltTy.f32)
local notation "a9W" => (Memref.whole Cert.Kernel.main_arg9_scv : Memref Cert.Kernel.sig Kind.scVector Space.hbm Cert.Kernel.S1792x512 EltTy.f32)
local notation "a10W" => (Memref.whole Cert.Kernel.main_arg10_scv : Memref Cert.Kernel.sig Kind.scVector Space.hbm Cert.Kernel.S1536x512 EltTy.f32)
local notation "a11W" => (Memref.whole Cert.Kernel.main_arg11_scv : Memref Cert.Kernel.sig Kind.scVector Space.hbm Cert.Kernel.S1280x512 EltTy.f32)
local notation "a12W" => (Memref.whole Cert.Kernel.main_arg12_scv : Memref Cert.Kernel.sig Kind.scVector Space.hbm Cert.Kernel.S1024x512 EltTy.f32)
local notation "a13W" => (Memref.whole Cert.Kernel.main_arg13_scv : Memref Cert.Kernel.sig Kind.scVector Space.hbm Cert.Kernel.S768x512 EltTy.f32)
local notation "a14W" => (Memref.whole Cert.Kernel.main_arg14_scv : Memref Cert.Kernel.sig Kind.scVector Space.hbm Cert.Kernel.S512x512 EltTy.f32)
local notation "a15W" => (Memref.whole Cert.Kernel.main_arg15_scv : Memref Cert.Kernel.sig Kind.scVector Space.hbm Cert.Kernel.S256x512 EltTy.f32)
local notation "oW" => (Memref.whole Cert.Kernel.main_v0_scv : Memref Cert.Kernel.sig Kind.scVector Space.hbm Cert.Kernel.S65536x512 EltTy.f32)
local notation "bW" => (Memref.whole Cert.Kernel.cc0_scratch0 : Memref Cert.Kernel.sig Kind.scVector Space.vmem Cert.Kernel.S64x512 EltTy.f32)
local notation "zW" => (Memref.whole Cert.Kernel.cc0_scratch1 : Memref Cert.Kernel.sig Kind.scVector Space.vmem Cert.Kernel.S64x512 EltTy.f32)

variable (m : (ℓ : Loc nD τ sig) → Buf (Elt F) ℓ) (d : Dev nD)

omit [FloatOps F] in
theorem ownSems0_V11 (L : grid0.Coords) :
    (ownSems0 (thr d L) : sProp 𝕄)
      = iprop(semVal (thr d L, SemLoc.dma cc0_scoped44.sem) 0 ∗ semVal (thr d L, SemLoc.dma cc0_scoped45.sem) 0 ∗ semVal (thr d L, SemLoc.dma cc0_scoped64.sem) 0
          ∗ bigSep ((((ownCells (thr d L)).erase (thr d L, SemLoc.dma cc0_scoped44.sem)).erase (thr d L, SemLoc.dma cc0_scoped45.sem)).erase (thr d L, SemLoc.dma cc0_scoped64.sem))
              fun g => semVal g 0) := by
  unfold SparseCore.Cfg.ownSems0
  rw [SparseCore.bigSep_erase' ((mem_ownCells (g := (thr d L, SemLoc.dma cc0_scoped44.sem))).mpr ⟨rfl, by
      show (SemLoc.dma cc0_scoped44.sem : SemLoc sig).isScoped .scVector = true; decide⟩),
    SparseCore.bigSep_erase' (Finset.mem_erase.mpr ⟨by simp; decide, (mem_ownCells (g := (thr d L, SemLoc.dma cc0_scoped45.sem))).mpr ⟨rfl, by
      show (SemLoc.dma cc0_scoped45.sem : SemLoc sig).isScoped .scVector = true; decide⟩⟩),
    SparseCore.bigSep_erase' (Finset.mem_erase.mpr ⟨by simp; decide, Finset.mem_erase.mpr ⟨by simp; decide,
      (mem_ownCells (g := (thr d L, SemLoc.dma cc0_scoped64.sem))).mpr ⟨rfl, by show (SemLoc.dma cc0_scoped64.sem : SemLoc sig).isScoped .scVector = true; decide⟩⟩⟩)]

/-- The source chunk of trip `t`, as the program slices it. -/
abbrev srcS11 (L : grid0.Coords) (h : k0_cond12 L = 1#1) (t : Fin (k0_t25_loop L).trips) : Memref sig .scVector .hbm S64x512 .f32 :=
  (a11W).slice (Rect.unit (s := S1280x512) (k0_off46 L t) S64x512.size (k0_off46_inb L t h)) (fun _ => rfl)

omit [FloatOps F] in
theorem pts_a11 (L : grid0.Coords) (q : PosShare TreeShare) (f : Buf (Elt F) (aLoc11 d)) :
    ((a11W).view.loc (thr d L) ↦{q} f : sProp 𝕄) = aLoc11 d ↦{q} f := rfl

/-- The copying loop's invariant before trip `t`: the first `64 t` rows of the block hold the padded array. -/
def invC11 (L : grid0.Coords) (O : CellTallies nD τ sig (HIx 1)) (W : Waits sig (HIx 1)) (q : PosShare TreeShare) (t : Nat) (_ : PUnit) : sProp 𝕄 :=
  iprop(Transfers.MayWaits (thr d L) (none : HIx 1) O
    ∗ ((a11W).view.loc (thr d L) ↦{q} m (aLoc11 d))
    ∗ (∃ fb, (bW).view.loc (thr d L) ↦{fullShare} fb)
    ∗ (∃ fo, (oLoc d ↦[blkSet (bI L)]{fullShare} fo) ∗ ⌜Done m d L (64 * t) fo⌝)
    ∗ semVal (thr d L, SemLoc.dma cc0_scoped44.sem) 0
    ∗ semVal (thr d L, SemLoc.dma cc0_scoped45.sem) 0
    ∗ ∃ W', ⌜∀ p ∈ W', p ∈ W ∨ p.2 = none⌝ ∗ owes (thr d L) O W')

theorem tile_s11 (hF : (K (F := F)).Facts) (L : grid0.Coords) (hs : (L 1).val = 11) (O : CellTallies nD τ sig (HIx 1)) (W : Waits sig (HIx 1)) (hO : ∀ g, O g none = 0) :
    TileSpec m d L O W := by
  have k0_h1 : ¬ k0_cond1 L = 1#1 := fun h => absurd ((cond1_iff L).mp h) (by omega)
  have k0_h2 : ¬ k0_cond2 L = 1#1 := fun h => absurd ((cond2_iff L).mp h) (by omega)
  have k0_h3 : ¬ k0_cond3 L = 1#1 := fun h => absurd ((cond3_iff L).mp h) (by omega)
  have k0_h4 : ¬ k0_cond4 L = 1#1 := fun h => absurd ((cond4_iff L).mp h) (by omega)
  have k0_h5 : ¬ k0_cond5 L = 1#1 := fun h => absurd ((cond5_iff L).mp h) (by omega)
  have k0_h6 : ¬ k0_cond6 L = 1#1 := fun h => absurd ((cond6_iff L).mp h) (by omega)
  have k0_h7 : ¬ k0_cond7 L = 1#1 := fun h => absurd ((cond7_iff L).mp h) (by omega)
  have k0_h8 : ¬ k0_cond8 L = 1#1 := fun h => absurd ((cond8_iff L).mp h) (by omega)
  have k0_h9 : ¬ k0_cond9 L = 1#1 := fun h => absurd ((cond9_iff L).mp h) (by omega)
  have k0_h10 : ¬ k0_cond10 L = 1#1 := fun h => absurd ((cond10_iff L).mp h) (by omega)
  have k0_h11 : ¬ k0_cond11 L = 1#1 := fun h => absurd ((cond11_iff L).mp h) (by omega)
  have k0_h12 : k0_cond12 L = 1#1 := (cond12_iff L).mpr hs
  have k0_h13 : ¬ k0_cond13 L = 1#1 := fun h => absurd ((cond13_iff L).mp h) (by omega)
  have k0_h14 : ¬ k0_cond14 L = 1#1 := fun h => absurd ((cond14_iff L).mp h) (by omega)
  have k0_h15 : ¬ k0_cond15 L = 1#1 := fun h => absurd ((cond15_iff L).mp h) (by omega)
  have k0_h16 : ¬ k0_cond16 L = 1#1 := fun h => absurd ((cond16_iff L).mp h) (by omega)
  have rt : ∀ (fb rd : (cc0_scratch0 : Ref sig .scVector).ty.Contents (Elt F)),
      ReadAs.same.apply (View.read (Elt F) (View.whole (cc0_scratch0 : Ref sig .scVector)) (View.write (Elt F) (View.whole (cc0_scratch0 : Ref sig .scVector)) fb (ReadAs.same.apply rd) Finset.univ)) = rd :=
    fun fb rd => (congrArg (View.read (Elt F) (View.whole (cc0_scratch0 : Ref sig .scVector))) (View.write_whole_univ (Val := Elt F) (cc0_scratch0 : Ref sig .scVector) fb rd)).trans (View.read_whole _ rd)
  unfold TileSpec
  simp only [cc0__pad_body_eq_skeleton]; unfold cc0__pad_body_skel
  rw [(K (F := F)).scopedBufs_V hF d _ _, SparseCore.Cfg.scopedSems0_V (Val := Elt F) d _ _, ownSems0_V11, ownBufs_V]
  unfold argsAt
  iintro ⟨#Hlv, -, ⟨⟨A0, A1, A2, A3, A4, A5, A6, A7, A8, A9, A10, A11, A12, A13, A14, A15⟩, Ho⟩, ⟨⟨%fb, Hb⟩, ⟨%fz, Hz⟩, Hbufs⟩, ⟨Hs0, Hs1, Hs64, Hsems⟩, HO⟩
  ihave Hmw := ((K (F := F)).mayWaits_none (thr := thr d L) hO) $$ Hlv
  ihave Aa := (Entails.of_eq (pts_a11 (F := F) d L _ _).symm) $$ A11
  ihave Hb' := (Entails.of_eq (pts_b (F := F) d L _).symm) $$ Hb
  ihave Hz' := (Entails.of_eq (pts_z (F := F) d L _).symm) $$ Hz
  sl_exec
  -- the zeroing loops
  sl_for (invZ1 (F := F) d L) $$ [Hz']
  case region =>
    intro k1 _
    unfold invZ1
    iintro ⟨%f, Hz, %hf⟩
    sl_exec
    sl_for (invZ2 (F := F) d L k1) $$ [Hz]
    case region =>
      intro k2 _
      unfold invZ2
      iintro ⟨%f, Hz, %hf⟩
      sl_exec
      sl_step
      iexists _; isplitl [Hz]; · iexact Hz
      ipureintro
      exact invZ2_step k1 k2 f hf
    · unfold invZ2
      iexists f; isplitl [Hz]; · iexact Hz
      ipureintro
      exact invZ2_init k1 f hf
    iintro %_ HI
    unfold invZ2
    icases HI with ⟨%f', Hz, %hf'⟩
    sl_exec
    sl_step
    iexists f'; isplitl [Hz]; · iexact Hz
    ipureintro
    exact invZ1_step k1 f' hf'
  · unfold invZ1
    iexists fz; isplitl [Hz']; · iexact Hz'
    ipureintro
    intro r q h; omega
  iintro %_ HI
  unfold invZ1
  icases HI with ⟨%fz1, Hz, %hfz⟩
  have hfz1 : fz1 = fun _ => zF (F := F) := invZ1_final fz1 hfz
  subst hfz1
  sl_exec
  -- the copying loop
  sl_for (invC11 (F := F) m d L O W (shT (cL L) (sL L))) $$ [Hmw Aa Hb' Ho Hs0 Hs1 HO]
  case region =>
    intro t _
    unfold invC11
    iintro ⟨Hmw, Aa, ⟨%fb, Hb⟩, ⟨%fo, Ho, %hD⟩, Hs0, Hs1, %W', %hW', HO⟩
    have htr : 64 * t.val + 64 ≤ ncopy L := by
      have h1 := t.isLt; have h2 := trips25 L; have h3 := ncopy_dvd L
      change t.val < (k0_t25_loop L).trips at h1
      rw [h2] at h1; omega
    have hnc := ncopy_le L
    have hoff : k0_off47 L t 0 = R0 L + 64 * t.val := by rw [off47_eq]; unfold R0; rfl
    have hsub := chunk_subset L (k0_off47 L t) (k0_off47_inb L t k0_h12) (fun _ => rfl) (64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Aa]; · iexact Aa
    isplitl [Hb]; · iexists _; iexact Hb
    isplitl [Ho]
    · iexists _; isplitl [Ho]; · iexact Ho
      ipureintro
      have e : 64 * (t.val + 1) = 64 * t.val + 64 := by omega
      rw [e]
      refine done_step m d L _ _ _ (64 * t.val) hoff (by rw [off47_eq]; rfl) fo _ hD ?_
      refine hw_copy m d L (m (aLoc11 d)) (fun p q => by rw [hs]; rfl) (by rw [hs]) t.val htr _ _ _ hoff (by rw [off47_eq]; rfl)
        (fun y => (srcS11 L k0_h12 t).view.emb y) (fun y => ?_) _
        (fun y => (congrFun (rt fb _) y).trans ((View.read_apply (v := (srcS11 L k0_h12 t).view) _ y).trans (cast_eq _ _)))
      constructor
      · show k0_off46 L t 0 + 1 * (y 0).val = _; rw [off46_eq]; show 2048 * (L 0).val + 64 * t.val + 1 * (y 0).val = _; omega
      · show k0_off46 L t 1 + 1 * (y 1).val = _; rw [off46_eq]; show 0 + 1 * (y 1).val = _; omega
    isplitl [Hs0]; · iexact Hs0
    isplitl [Hs1]; · iexact Hs1
    iexists (insert (SemLoc.dma cc0_scoped45.sem, (default : HIx 1)) (insert (SemLoc.dma cc0_scoped44.sem, (default : HIx 1)) W')); isplitr
    · ipureintro; intro p hp
      rcases Finset.mem_insert.mp hp with hp | hp
      · exact .inr (hp ▸ rfl)
      rcases Finset.mem_insert.mp hp with hp | hp
      · exact .inr (hp ▸ rfl)
      · exact hW' p hp
    · iexact HO
  · unfold invC11
    isplitl [Hmw]; · iexact Hmw
    isplitl [Aa]; · iexact Aa
    isplitl [Hb']; · iexists _; iexact Hb'
    isplitl [Ho]
    · iexists _; isplitl [Ho]; · iexact Ho
      ipureintro; exact done_zero m d L _
    isplitl [Hs0]; · iexact Hs0
    isplitl [Hs1]; · iexact Hs1
    iexists W; isplitr
    · ipureintro; exact fun p hp => .inl hp
    · iexact HO
  iintro %_ HI
  unfold invC11
  icases HI with ⟨Hmw, Aa, ⟨%fb, Hb⟩, ⟨%fo, Ho, %hD⟩, Hs0, Hs1, %W1, %hW1, HO⟩
  have hDn : Done m d L (ncopy L) fo := by
    have h3 := ncopy_dvd L
    have e : 64 * (k0_t25_loop L).trips = ncopy L := by rw [trips25 L]; omega
    rw [← e]; exact hD
  sl_exec
  -- the remainder of the unrolling by one: no trips
  sl_for (fun (_ : Nat) (_ : PUnit) => (iprop(emp) : sProp 𝕄)) $$ []
  case region =>
    intro t _
    exact absurd t.isLt (by have h0 := trips26 L; change ¬ (t.val < (k0_t26_loop L).trips); omega)
  · iempintro
  iintro %_ -
  sl_exec
  -- the zero-filling loop
  sl_for (invF (F := F) m d L O W) $$ [Hmw Hz Ho Hs64 HO]
  case region =>
    intro t _
    unfold invF
    iintro ⟨Hmw, Hz, ⟨%fo, Ho, %hD⟩, Hs64, %W', %hW', HO⟩
    have hnc := ncopy_le L
    have htr : ncopy L + 64 * t.val + 64 ≤ 2048 := by
      have h1 := t.isLt; have h2 := trips35 L; obtain ⟨c, hc⟩ := ncopy_dvd L
      change t.val < (k0_t35_loop L).trips at h1
      rw [h2] at h1; omega
    have hoff : k0_off66 L t 0 = R0 L + (ncopy L + 64 * t.val) := by rw [off66_eq]; unfold R0; show _ + _ + _ + _ = _; omega
    have hsub := chunk_subset L (k0_off66 L t) (k0_off66_inb L t) (fun _ => rfl) (ncopy L + 64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Hz]; · iexact Hz
    isplitl [Ho]
    · iexists _; isplitl [Ho]; · iexact Ho
      ipureintro
      have e : ncopy L + 64 * (t.val + 1) = (ncopy L + 64 * t.val) + 64 := by omega
      rw [e]
      refine done_step m d L _ _ _ (ncopy L + 64 * t.val) hoff (by rw [off66_eq]; rfl) fo _ hD ?_
      exact hw_zero m d L t.val htr _ _ _ (by rw [hoff]; omega) _ (fun y => rfl)
    isplitl [Hs64]; · iexact Hs64
    iexists (insert (SemLoc.dma cc0_scoped64.sem, (default : HIx 1)) W'); isplitr
    · ipureintro; intro p hp
      rcases Finset.mem_insert.mp hp with hp | hp
      · exact .inr (hp ▸ rfl)
      · exact hW' p hp
    · iexact HO
  · unfold invF
    isplitl [Hmw]; · iexact Hmw
    isplitl [Hz]; · iexact Hz
    isplitl [Ho]
    · iexists _; isplitl [Ho]; · iexact Ho
      ipureintro; rw [Nat.mul_zero, Nat.add_zero]; exact hDn
    isplitl [Hs64]; · iexact Hs64
    iexists W1; isplitr
    · ipureintro; exact hW1
    · iexact HO
  iintro %_ HI
  unfold invF
  icases HI with ⟨Hmw, Hz, ⟨%fo2, Ho, %hD2⟩, Hs64, %W2, %hW2, HO⟩
  have hAll : Done m d L 2048 fo2 := by
    have hnc := ncopy_le L
    obtain ⟨c, hc⟩ := ncopy_dvd L
    have e : ncopy L + 64 * (k0_t35_loop L).trips = 2048 := by rw [trips35 L]; omega
    rw [← e]; exact hD2
  sl_exec
  sl_for (fun (_ : Nat) (_ : PUnit) => (iprop(emp) : sProp 𝕄)) $$ []
  case region =>
    intro t _
    exact absurd t.isLt (by have h0 := trips36 L; change ¬ (t.val < (k0_t36_loop L).trips); omega)
  · iempintro
  iintro %_ -
  sl_exec
  sl_step
  -- hand everything back
  isplitl [A0 A1 A2 A3 A4 A5 A6 A7 A8 A9 A10 A12 A13 A14 A15 Aa Ho]
  · isplitl [A0 A1 A2 A3 A4 A5 A6 A7 A8 A9 A10 A12 A13 A14 A15 Aa]
    ·
      isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [Aa]; · iapply (Entails.of_eq (pts_a11 (F := F) d L _ _)); iexact Aa
      isplitl [A12]; · iexact A12
      isplitl [A13]; · iexact A13
      isplitl [A14]; · iexact A14
      iexact A15
    · iapply (Entails.of_eq (pointsTo_congr (ℓ := oLoc d) (done_all m d L fo2 hAll))); iexact Ho
  isplitl [Hb Hz Hbufs]
  · isplitl [Hb]; · iexists _; iapply (Entails.of_eq (pts_b (F := F) d L _)); iexact Hb
    isplitl [Hz]; · iexists _; iapply (Entails.of_eq (pts_z (F := F) d L _)); iexact Hz
    iexact Hbufs
  isplitl [Hs0 Hs1 Hs64 Hsems]
  · isplitl [Hs0]; · iexact Hs0
    isplitl [Hs1]; · iexact Hs1
    isplitl [Hs64]; · iexact Hs64
    iexact Hsems
  iexists W2; isplitr
  · ipureintro; exact hW2
  · iexact HO

end Cert.Proof.KB

end
-- ==== Proof.KBTile12.lean ====
/-
  The task on subcore 12 (of either SparseCore): it serves sequence 12, of 1024 rows. Its second scratch buffer is
  zeroed; the rows of the sequence that fall in its half are copied, 64 at a time, through the first scratch buffer
  into its block of the output; the rest of the block is filled from the zeroed buffer. Each loop keeps "the first so
  many rows of the block hold the padded array".
-/
import proofs.«212850_g39865886441476_cont_8to1_b_277_5_alg».proof.Proof.KBTileCommon

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "a0W" => (Memref.whole Cert.Kernel.main_arg0_scv : Memref Cert.Kernel.sig Kind.scVector Space.hbm Cert.Kernel.S4096x512 EltTy.f32)
local notation "a1W" => (Memref.whole Cert.Kernel.main_arg1_scv : Memref Cert.Kernel.sig Kind.scVector Space.hbm Cert.Kernel.S3840x512 EltTy.f32)
local notation "a2W" => (Memref.whole Cert.Kernel.main_arg2_scv : Memref Cert.Kernel.sig Kind.scVector Space.hbm Cert.Kernel.S3584x512 EltTy.f32)
local notation "a3W" => (Memref.whole Cert.Kernel.main_arg3_scv : Memref Cert.Kernel.sig Kind.scVector Space.hbm Cert.Kernel.S3328x512 EltTy.f32)
local notation "a4W" => (Memref.whole Cert.Kernel.main_arg4_scv : Memref Cert.Kernel.sig Kind.scVector Space.hbm Cert.Kernel.S3072x512 EltTy.f32)
local notation "a5W" => (Memref.whole Cert.Kernel.main_arg5_scv : Memref Cert.Kernel.sig Kind.scVector Space.hbm Cert.Kernel.S2816x512 EltTy.f32)
local notation "a6W" => (Memref.whole Cert.Kernel.main_arg6_scv : Memref Cert.Kernel.sig Kind.scVector Space.hbm Cert.Kernel.S2560x512 EltTy.f32)
local notation "a7W" => (Memref.whole Cert.Kernel.main_arg7_scv : Memref Cert.Kernel.sig Kind.scVector Space.hbm Cert.Kernel.S2304x512 EltTy.f32)
local notation "a8W" => (Memref.whole Cert.Kernel.main_arg8_scv : Memref Cert.Kernel.sig Kind.scVector Space.hbm Cert.Kernel.S2048x512 EltTy.f32)
local notation "a9W" => (Memref.whole Cert.Kernel.main_arg9_scv : Memref Cert.Kernel.sig Kind.scVector Space.hbm Cert.Kernel.S1792x512 EltTy.f32)
local notation "a10W" => (Memref.whole Cert.Kernel.main_arg10_scv : Memref Cert.Kernel.sig Kind.scVector Space.hbm Cert.Kernel.S1536x512 EltTy.f32)
local notation "a11W" => (Memref.whole Cert.Kernel.main_arg11_scv : Memref Cert.Kernel.sig Kind.scVector Space.hbm Cert.Kernel.S1280x512 EltTy.f32)
local notation "a12W" => (Memref.whole Cert.Kernel.main_arg12_scv : Memref Cert.Kernel.sig Kind.scVector Space.hbm Cert.Kernel.S1024x512 EltTy.f32)
local notation "a13W" => (Memref.whole Cert.Kernel.main_arg13_scv : Memref Cert.Kernel.sig Kind.scVector Space.hbm Cert.Kernel.S768x512 EltTy.f32)
local notation "a14W" => (Memref.whole Cert.Kernel.main_arg14_scv : Memref Cert.Kernel.sig Kind.scVector Space.hbm Cert.Kernel.S512x512 EltTy.f32)
local notation "a15W" => (Memref.whole Cert.Kernel.main_arg15_scv : Memref Cert.Kernel.sig Kind.scVector Space.hbm Cert.Kernel.S256x512 EltTy.f32)
local notation "oW" => (Memref.whole Cert.Kernel.main_v0_scv : Memref Cert.Kernel.sig Kind.scVector Space.hbm Cert.Kernel.S65536x512 EltTy.f32)
local notation "bW" => (Memref.whole Cert.Kernel.cc0_scratch0 : Memref Cert.Kernel.sig Kind.scVector Space.vmem Cert.Kernel.S64x512 EltTy.f32)
local notation "zW" => (Memref.whole Cert.Kernel.cc0_scratch1 : Memref Cert.Kernel.sig Kind.scVector Space.vmem Cert.Kernel.S64x512 EltTy.f32)

variable (m : (ℓ : Loc nD τ sig) → Buf (Elt F) ℓ) (d : Dev nD)

omit [FloatOps F] in
theorem ownSems0_V12 (L : grid0.Coords) :
    (ownSems0 (thr d L) : sProp 𝕄)
      = iprop(semVal (thr d L, SemLoc.dma cc0_scoped48.sem) 0 ∗ semVal (thr d L, SemLoc.dma cc0_scoped49.sem) 0 ∗ semVal (thr d L, SemLoc.dma cc0_scoped64.sem) 0
          ∗ bigSep ((((ownCells (thr d L)).erase (thr d L, SemLoc.dma cc0_scoped48.sem)).erase (thr d L, SemLoc.dma cc0_scoped49.sem)).erase (thr d L, SemLoc.dma cc0_scoped64.sem))
              fun g => semVal g 0) := by
  unfold SparseCore.Cfg.ownSems0
  rw [SparseCore.bigSep_erase' ((mem_ownCells (g := (thr d L, SemLoc.dma cc0_scoped48.sem))).mpr ⟨rfl, by
      show (SemLoc.dma cc0_scoped48.sem : SemLoc sig).isScoped .scVector = true; decide⟩),
    SparseCore.bigSep_erase' (Finset.mem_erase.mpr ⟨by simp; decide, (mem_ownCells (g := (thr d L, SemLoc.dma cc0_scoped49.sem))).mpr ⟨rfl, by
      show (SemLoc.dma cc0_scoped49.sem : SemLoc sig).isScoped .scVector = true; decide⟩⟩),
    SparseCore.bigSep_erase' (Finset.mem_erase.mpr ⟨by simp; decide, Finset.mem_erase.mpr ⟨by simp; decide,
      (mem_ownCells (g := (thr d L, SemLoc.dma cc0_scoped64.sem))).mpr ⟨rfl, by show (SemLoc.dma cc0_scoped64.sem : SemLoc sig).isScoped .scVector = true; decide⟩⟩⟩)]

/-- The source chunk of trip `t`, as the program slices it. -/
abbrev srcS12 (L : grid0.Coords) (h : k0_cond13 L = 1#1) (t : Fin (k0_t27_loop L).trips) : Memref sig .scVector .hbm S64x512 .f32 :=
  (a12W).slice (Rect.unit (s := S1024x512) (k0_off50 L t) S64x512.size (k0_off50_inb L t h)) (fun _ => rfl)

omit [FloatOps F] in
theorem pts_a12 (L : grid0.Coords) (q : PosShare TreeShare) (f : Buf (Elt F) (aLoc12 d)) :
    ((a12W).view.loc (thr d L) ↦{q} f : sProp 𝕄) = aLoc12 d ↦{q} f := rfl

/-- The copying loop's invariant before trip `t`: the first `64 t` rows of the block hold the padded array. -/
def invC12 (L : grid0.Coords) (O : CellTallies nD τ sig (HIx 1)) (W : Waits sig (HIx 1)) (q : PosShare TreeShare) (t : Nat) (_ : PUnit) : sProp 𝕄 :=
  iprop(Transfers.MayWaits (thr d L) (none : HIx 1) O
    ∗ ((a12W).view.loc (thr d L) ↦{q} m (aLoc12 d))
    ∗ (∃ fb, (bW).view.loc (thr d L) ↦{fullShare} fb)
    ∗ (∃ fo, (oLoc d ↦[blkSet (bI L)]{fullShare} fo) ∗ ⌜Done m d L (64 * t) fo⌝)
    ∗ semVal (thr d L, SemLoc.dma cc0_scoped48.sem) 0
    ∗ semVal (thr d L, SemLoc.dma cc0_scoped49.sem) 0
    ∗ ∃ W', ⌜∀ p ∈ W', p ∈ W ∨ p.2 = none⌝ ∗ owes (thr d L) O W')

theorem tile_s12 (hF : (K (F := F)).Facts) (L : grid0.Coords) (hs : (L 1).val = 12) (O : CellTallies nD τ sig (HIx 1)) (W : Waits sig (HIx 1)) (hO : ∀ g, O g none = 0) :
    TileSpec m d L O W := by
  have k0_h1 : ¬ k0_cond1 L = 1#1 := fun h => absurd ((cond1_iff L).mp h) (by omega)
  have k0_h2 : ¬ k0_cond2 L = 1#1 := fun h => absurd ((cond2_iff L).mp h) (by omega)
  have k0_h3 : ¬ k0_cond3 L = 1#1 := fun h => absurd ((cond3_iff L).mp h) (by omega)
  have k0_h4 : ¬ k0_cond4 L = 1#1 := fun h => absurd ((cond4_iff L).mp h) (by omega)
  have k0_h5 : ¬ k0_cond5 L = 1#1 := fun h => absurd ((cond5_iff L).mp h) (by omega)
  have k0_h6 : ¬ k0_cond6 L = 1#1 := fun h => absurd ((cond6_iff L).mp h) (by omega)
  have k0_h7 : ¬ k0_cond7 L = 1#1 := fun h => absurd ((cond7_iff L).mp h) (by omega)
  have k0_h8 : ¬ k0_cond8 L = 1#1 := fun h => absurd ((cond8_iff L).mp h) (by omega)
  have k0_h9 : ¬ k0_cond9 L = 1#1 := fun h => absurd ((cond9_iff L).mp h) (by omega)
  have k0_h10 : ¬ k0_cond10 L = 1#1 := fun h => absurd ((cond10_iff L).mp h) (by omega)
  have k0_h11 : ¬ k0_cond11 L = 1#1 := fun h => absurd ((cond11_iff L).mp h) (by omega)
  have k0_h12 : ¬ k0_cond12 L = 1#1 := fun h => absurd ((cond12_iff L).mp h) (by omega)
  have k0_h13 : k0_cond13 L = 1#1 := (cond13_iff L).mpr hs
  have k0_h14 : ¬ k0_cond14 L = 1#1 := fun h => absurd ((cond14_iff L).mp h) (by omega)
  have k0_h15 : ¬ k0_cond15 L = 1#1 := fun h => absurd ((cond15_iff L).mp h) (by omega)
  have k0_h16 : ¬ k0_cond16 L = 1#1 := fun h => absurd ((cond16_iff L).mp h) (by omega)
  have rt : ∀ (fb rd : (cc0_scratch0 : Ref sig .scVector).ty.Contents (Elt F)),
      ReadAs.same.apply (View.read (Elt F) (View.whole (cc0_scratch0 : Ref sig .scVector)) (View.write (Elt F) (View.whole (cc0_scratch0 : Ref sig .scVector)) fb (ReadAs.same.apply rd) Finset.univ)) = rd :=
    fun fb rd => (congrArg (View.read (Elt F) (View.whole (cc0_scratch0 : Ref sig .scVector))) (View.write_whole_univ (Val := Elt F) (cc0_scratch0 : Ref sig .scVector) fb rd)).trans (View.read_whole _ rd)
  unfold TileSpec
  simp only [cc0__pad_body_eq_skeleton]; unfold cc0__pad_body_skel
  rw [(K (F := F)).scopedBufs_V hF d _ _, SparseCore.Cfg.scopedSems0_V (Val := Elt F) d _ _, ownSems0_V12, ownBufs_V]
  unfold argsAt
  iintro ⟨#Hlv, -, ⟨⟨A0, A1, A2, A3, A4, A5, A6, A7, A8, A9, A10, A11, A12, A13, A14, A15⟩, Ho⟩, ⟨⟨%fb, Hb⟩, ⟨%fz, Hz⟩, Hbufs⟩, ⟨Hs0, Hs1, Hs64, Hsems⟩, HO⟩
  ihave Hmw := ((K (F := F)).mayWaits_none (thr := thr d L) hO) $$ Hlv
  ihave Aa := (Entails.of_eq (pts_a12 (F := F) d L _ _).symm) $$ A12
  ihave Hb' := (Entails.of_eq (pts_b (F := F) d L _).symm) $$ Hb
  ihave Hz' := (Entails.of_eq (pts_z (F := F) d L _).symm) $$ Hz
  sl_exec
  -- the zeroing loops
  sl_for (invZ1 (F := F) d L) $$ [Hz']
  case region =>
    intro k1 _
    unfold invZ1
    iintro ⟨%f, Hz, %hf⟩
    sl_exec
    sl_for (invZ2 (F := F) d L k1) $$ [Hz]
    case region =>
      intro k2 _
      unfold invZ2
      iintro ⟨%f, Hz, %hf⟩
      sl_exec
      sl_step
      iexists _; isplitl [Hz]; · iexact Hz
      ipureintro
      exact invZ2_step k1 k2 f hf
    · unfold invZ2
      iexists f; isplitl [Hz]; · iexact Hz
      ipureintro
      exact invZ2_init k1 f hf
    iintro %_ HI
    unfold invZ2
    icases HI with ⟨%f', Hz, %hf'⟩
    sl_exec
    sl_step
    iexists f'; isplitl [Hz]; · iexact Hz
    ipureintro
    exact invZ1_step k1 f' hf'
  · unfold invZ1
    iexists fz; isplitl [Hz']; · iexact Hz'
    ipureintro
    intro r q h; omega
  iintro %_ HI
  unfold invZ1
  icases HI with ⟨%fz1, Hz, %hfz⟩
  have hfz1 : fz1 = fun _ => zF (F := F) := invZ1_final fz1 hfz
  subst hfz1
  sl_exec
  -- the copying loop
  sl_for (invC12 (F := F) m d L O W (shT (cL L) (sL L))) $$ [Hmw Aa Hb' Ho Hs0 Hs1 HO]
  case region =>
    intro t _
    unfold invC12
    iintro ⟨Hmw, Aa, ⟨%fb, Hb⟩, ⟨%fo, Ho, %hD⟩, Hs0, Hs1, %W', %hW', HO⟩
    have htr : 64 * t.val + 64 ≤ ncopy L := by
      have h1 := t.isLt; have h2 := trips27 L; have h3 := ncopy_dvd L
      change t.val < (k0_t27_loop L).trips at h1
      rw [h2] at h1; omega
    have hnc := ncopy_le L
    have hoff : k0_off51 L t 0 = R0 L + 64 * t.val := by rw [off51_eq]; unfold R0; rfl
    have hsub := chunk_subset L (k0_off51 L t) (k0_off51_inb L t k0_h13) (fun _ => rfl) (64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Aa]; · iexact Aa
    isplitl [Hb]; · iexists _; iexact Hb
    isplitl [Ho]
    · iexists _; isplitl [Ho]; · iexact Ho
      ipureintro
      have e : 64 * (t.val + 1) = 64 * t.val + 64 := by omega
      rw [e]
      refine done_step m d L _ _ _ (64 * t.val) hoff (by rw [off51_eq]; rfl) fo _ hD ?_
      refine hw_copy m d L (m (aLoc12 d)) (fun p q => by rw [hs]; rfl) (by rw [hs]) t.val htr _ _ _ hoff (by rw [off51_eq]; rfl)
        (fun y => (srcS12 L k0_h13 t).view.emb y) (fun y => ?_) _
        (fun y => (congrFun (rt fb _) y).trans ((View.read_apply (v := (srcS12 L k0_h13 t).view) _ y).trans (cast_eq _ _)))
      constructor
      · show k0_off50 L t 0 + 1 * (y 0).val = _; rw [off50_eq]; show 2048 * (L 0).val + 64 * t.val + 1 * (y 0).val = _; omega
      · show k0_off50 L t 1 + 1 * (y 1).val = _; rw [off50_eq]; show 0 + 1 * (y 1).val = _; omega
    isplitl [Hs0]; · iexact Hs0
    isplitl [Hs1]; · iexact Hs1
    iexists (insert (SemLoc.dma cc0_scoped49.sem, (default : HIx 1)) (insert (SemLoc.dma cc0_scoped48.sem, (default : HIx 1)) W')); isplitr
    · ipureintro; intro p hp
      rcases Finset.mem_insert.mp hp with hp | hp
      · exact .inr (hp ▸ rfl)
      rcases Finset.mem_insert.mp hp with hp | hp
      · exact .inr (hp ▸ rfl)
      · exact hW' p hp
    · iexact HO
  · unfold invC12
    isplitl [Hmw]; · iexact Hmw
    isplitl [Aa]; · iexact Aa
    isplitl [Hb']; · iexists _; iexact Hb'
    isplitl [Ho]
    · iexists _; isplitl [Ho]; · iexact Ho
      ipureintro; exact done_zero m d L _
    isplitl [Hs0]; · iexact Hs0
    isplitl [Hs1]; · iexact Hs1
    iexists W; isplitr
    · ipureintro; exact fun p hp => .inl hp
    · iexact HO
  iintro %_ HI
  unfold invC12
  icases HI with ⟨Hmw, Aa, ⟨%fb, Hb⟩, ⟨%fo, Ho, %hD⟩, Hs0, Hs1, %W1, %hW1, HO⟩
  have hDn : Done m d L (ncopy L) fo := by
    have h3 := ncopy_dvd L
    have e : 64 * (k0_t27_loop L).trips = ncopy L := by rw [trips27 L]; omega
    rw [← e]; exact hD
  sl_exec
  -- the remainder of the unrolling by one: no trips
  sl_for (fun (_ : Nat) (_ : PUnit) => (iprop(emp) : sProp 𝕄)) $$ []
  case region =>
    intro t _
    exact absurd t.isLt (by have h0 := trips28 L; change ¬ (t.val < (k0_t28_loop L).trips); omega)
  · iempintro
  iintro %_ -
  sl_exec
  -- the zero-filling loop
  sl_for (invF (F := F) m d L O W) $$ [Hmw Hz Ho Hs64 HO]
  case region =>
    intro t _
    unfold invF
    iintro ⟨Hmw, Hz, ⟨%fo, Ho, %hD⟩, Hs64, %W', %hW', HO⟩
    have hnc := ncopy_le L
    have htr : ncopy L + 64 * t.val + 64 ≤ 2048 := by
      have h1 := t.isLt; have h2 := trips35 L; obtain ⟨c, hc⟩ := ncopy_dvd L
      change t.val < (k0_t35_loop L).trips at h1
      rw [h2] at h1; omega
    have hoff : k0_off66 L t 0 = R0 L + (ncopy L + 64 * t.val) := by rw [off66_eq]; unfold R0; show _ + _ + _ + _ = _; omega
    have hsub := chunk_subset L (k0_off66 L t) (k0_off66_inb L t) (fun _ => rfl) (ncopy L + 64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Hz]; · iexact Hz
    isplitl [Ho]
    · iexists _; isplitl [Ho]; · iexact Ho
      ipureintro
      have e : ncopy L + 64 * (t.val + 1) = (ncopy L + 64 * t.val) + 64 := by omega
      rw [e]
      refine done_step m d L _ _ _ (ncopy L + 64 * t.val) hoff (by rw [off66_eq]; rfl) fo _ hD ?_
      exact hw_zero m d L t.val htr _ _ _ (by rw [hoff]; omega) _ (fun y => rfl)
    isplitl [Hs64]; · iexact Hs64
    iexists (insert (SemLoc.dma cc0_scoped64.sem, (default : HIx 1)) W'); isplitr
    · ipureintro; intro p hp
      rcases Finset.mem_insert.mp hp with hp | hp
      · exact .inr (hp ▸ rfl)
      · exact hW' p hp
    · iexact HO
  · unfold invF
    isplitl [Hmw]; · iexact Hmw
    isplitl [Hz]; · iexact Hz
    isplitl [Ho]
    · iexists _; isplitl [Ho]; · iexact Ho
      ipureintro; rw [Nat.mul_zero, Nat.add_zero]; exact hDn
    isplitl [Hs64]; · iexact Hs64
    iexists W1; isplitr
    · ipureintro; exact hW1
    · iexact HO
  iintro %_ HI
  unfold invF
  icases HI with ⟨Hmw, Hz, ⟨%fo2, Ho, %hD2⟩, Hs64, %W2, %hW2, HO⟩
  have hAll : Done m d L 2048 fo2 := by
    have hnc := ncopy_le L
    obtain ⟨c, hc⟩ := ncopy_dvd L
    have e : ncopy L + 64 * (k0_t35_loop L).trips = 2048 := by rw [trips35 L]; omega
    rw [← e]; exact hD2
  sl_exec
  sl_for (fun (_ : Nat) (_ : PUnit) => (iprop(emp) : sProp 𝕄)) $$ []
  case region =>
    intro t _
    exact absurd t.isLt (by have h0 := trips36 L; change ¬ (t.val < (k0_t36_loop L).trips); omega)
  · iempintro
  iintro %_ -
  sl_exec
  sl_step
  -- hand everything back
  isplitl [A0 A1 A2 A3 A4 A5 A6 A7 A8 A9 A10 A11 A13 A14 A15 Aa Ho]
  · isplitl [A0 A1 A2 A3 A4 A5 A6 A7 A8 A9 A10 A11 A13 A14 A15 Aa]
    ·
      isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [Aa]; · iapply (Entails.of_eq (pts_a12 (F := F) d L _ _)); iexact Aa
      isplitl [A13]; · iexact A13
      isplitl [A14]; · iexact A14
      iexact A15
    · iapply (Entails.of_eq (pointsTo_congr (ℓ := oLoc d) (done_all m d L fo2 hAll))); iexact Ho
  isplitl [Hb Hz Hbufs]
  · isplitl [Hb]; · iexists _; iapply (Entails.of_eq (pts_b (F := F) d L _)); iexact Hb
    isplitl [Hz]; · iexists _; iapply (Entails.of_eq (pts_z (F := F) d L _)); iexact Hz
    iexact Hbufs
  isplitl [Hs0 Hs1 Hs64 Hsems]
  · isplitl [Hs0]; · iexact Hs0
    isplitl [Hs1]; · iexact Hs1
    isplitl [Hs64]; · iexact Hs64
    iexact Hsems
  iexists W2; isplitr
  · ipureintro; exact hW2
  · iexact HO

end Cert.Proof.KB

end
-- ==== Proof.KBTile13.lean ====
/-
  The task on subcore 13 (of either SparseCore): it serves sequence 13, of 768 rows. Its second scratch buffer is
  zeroed; the rows of the sequence that fall in its half are copied, 64 at a time, through the first scratch buffer
  into its block of the output; the rest of the block is filled from the zeroed buffer. Each loop keeps "the first so
  many rows of the block hold the padded array".
-/
import proofs.«212850_g39865886441476_cont_8to1_b_277_5_alg».proof.Proof.KBTileCommon

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "a0W" => (Memref.whole Cert.Kernel.main_arg0_scv : Memref Cert.Kernel.sig Kind.scVector Space.hbm Cert.Kernel.S4096x512 EltTy.f32)
local notation "a1W" => (Memref.whole Cert.Kernel.main_arg1_scv : Memref Cert.Kernel.sig Kind.scVector Space.hbm Cert.Kernel.S3840x512 EltTy.f32)
local notation "a2W" => (Memref.whole Cert.Kernel.main_arg2_scv : Memref Cert.Kernel.sig Kind.scVector Space.hbm Cert.Kernel.S3584x512 EltTy.f32)
local notation "a3W" => (Memref.whole Cert.Kernel.main_arg3_scv : Memref Cert.Kernel.sig Kind.scVector Space.hbm Cert.Kernel.S3328x512 EltTy.f32)
local notation "a4W" => (Memref.whole Cert.Kernel.main_arg4_scv : Memref Cert.Kernel.sig Kind.scVector Space.hbm Cert.Kernel.S3072x512 EltTy.f32)
local notation "a5W" => (Memref.whole Cert.Kernel.main_arg5_scv : Memref Cert.Kernel.sig Kind.scVector Space.hbm Cert.Kernel.S2816x512 EltTy.f32)
local notation "a6W" => (Memref.whole Cert.Kernel.main_arg6_scv : Memref Cert.Kernel.sig Kind.scVector Space.hbm Cert.Kernel.S2560x512 EltTy.f32)
local notation "a7W" => (Memref.whole Cert.Kernel.main_arg7_scv : Memref Cert.Kernel.sig Kind.scVector Space.hbm Cert.Kernel.S2304x512 EltTy.f32)
local notation "a8W" => (Memref.whole Cert.Kernel.main_arg8_scv : Memref Cert.Kernel.sig Kind.scVector Space.hbm Cert.Kernel.S2048x512 EltTy.f32)
local notation "a9W" => (Memref.whole Cert.Kernel.main_arg9_scv : Memref Cert.Kernel.sig Kind.scVector Space.hbm Cert.Kernel.S1792x512 EltTy.f32)
local notation "a10W" => (Memref.whole Cert.Kernel.main_arg10_scv : Memref Cert.Kernel.sig Kind.scVector Space.hbm Cert.Kernel.S1536x512 EltTy.f32)
local notation "a11W" => (Memref.whole Cert.Kernel.main_arg11_scv : Memref Cert.Kernel.sig Kind.scVector Space.hbm Cert.Kernel.S1280x512 EltTy.f32)
local notation "a12W" => (Memref.whole Cert.Kernel.main_arg12_scv : Memref Cert.Kernel.sig Kind.scVector Space.hbm Cert.Kernel.S1024x512 EltTy.f32)
local notation "a13W" => (Memref.whole Cert.Kernel.main_arg13_scv : Memref Cert.Kernel.sig Kind.scVector Space.hbm Cert.Kernel.S768x512 EltTy.f32)
local notation "a14W" => (Memref.whole Cert.Kernel.main_arg14_scv : Memref Cert.Kernel.sig Kind.scVector Space.hbm Cert.Kernel.S512x512 EltTy.f32)
local notation "a15W" => (Memref.whole Cert.Kernel.main_arg15_scv : Memref Cert.Kernel.sig Kind.scVector Space.hbm Cert.Kernel.S256x512 EltTy.f32)
local notation "oW" => (Memref.whole Cert.Kernel.main_v0_scv : Memref Cert.Kernel.sig Kind.scVector Space.hbm Cert.Kernel.S65536x512 EltTy.f32)
local notation "bW" => (Memref.whole Cert.Kernel.cc0_scratch0 : Memref Cert.Kernel.sig Kind.scVector Space.vmem Cert.Kernel.S64x512 EltTy.f32)
local notation "zW" => (Memref.whole Cert.Kernel.cc0_scratch1 : Memref Cert.Kernel.sig Kind.scVector Space.vmem Cert.Kernel.S64x512 EltTy.f32)

variable (m : (ℓ : Loc nD τ sig) → Buf (Elt F) ℓ) (d : Dev nD)

omit [FloatOps F] in
theorem ownSems0_V13 (L : grid0.Coords) :
    (ownSems0 (thr d L) : sProp 𝕄)
      = iprop(semVal (thr d L, SemLoc.dma cc0_scoped52.sem) 0 ∗ semVal (thr d L, SemLoc.dma cc0_scoped53.sem) 0 ∗ semVal (thr d L, SemLoc.dma cc0_scoped64.sem) 0
          ∗ bigSep ((((ownCells (thr d L)).erase (thr d L, SemLoc.dma cc0_scoped52.sem)).erase (thr d L, SemLoc.dma cc0_scoped53.sem)).erase (thr d L, SemLoc.dma cc0_scoped64.sem))
              fun g => semVal g 0) := by
  unfold SparseCore.Cfg.ownSems0
  rw [SparseCore.bigSep_erase' ((mem_ownCells (g := (thr d L, SemLoc.dma cc0_scoped52.sem))).mpr ⟨rfl, by
      show (SemLoc.dma cc0_scoped52.sem : SemLoc sig).isScoped .scVector = true; decide⟩),
    SparseCore.bigSep_erase' (Finset.mem_erase.mpr ⟨by simp; decide, (mem_ownCells (g := (thr d L, SemLoc.dma cc0_scoped53.sem))).mpr ⟨rfl, by
      show (SemLoc.dma cc0_scoped53.sem : SemLoc sig).isScoped .scVector = true; decide⟩⟩),
    SparseCore.bigSep_erase' (Finset.mem_erase.mpr ⟨by simp; decide, Finset.mem_erase.mpr ⟨by simp; decide,
      (mem_ownCells (g := (thr d L, SemLoc.dma cc0_scoped64.sem))).mpr ⟨rfl, by show (SemLoc.dma cc0_scoped64.sem : SemLoc sig).isScoped .scVector = true; decide⟩⟩⟩)]

/-- The source chunk of trip `t`, as the program slices it. -/
abbrev srcS13 (L : grid0.Coords) (h : k0_cond14 L = 1#1) (t : Fin (k0_t29_loop L).trips) : Memref sig .scVector .hbm S64x512 .f32 :=
  (a13W).slice (Rect.unit (s := S768x512) (k0_off54 L t) S64x512.size (k0_off54_inb L t h)) (fun _ => rfl)

omit [FloatOps F] in
theorem pts_a13 (L : grid0.Coords) (q : PosShare TreeShare) (f : Buf (Elt F) (aLoc13 d)) :
    ((a13W).view.loc (thr d L) ↦{q} f : sProp 𝕄) = aLoc13 d ↦{q} f := rfl

/-- The copying loop's invariant before trip `t`: the first `64 t` rows of the block hold the padded array. -/
def invC13 (L : grid0.Coords) (O : CellTallies nD τ sig (HIx 1)) (W : Waits sig (HIx 1)) (q : PosShare TreeShare) (t : Nat) (_ : PUnit) : sProp 𝕄 :=
  iprop(Transfers.MayWaits (thr d L) (none : HIx 1) O
    ∗ ((a13W).view.loc (thr d L) ↦{q} m (aLoc13 d))
    ∗ (∃ fb, (bW).view.loc (thr d L) ↦{fullShare} fb)
    ∗ (∃ fo, (oLoc d ↦[blkSet (bI L)]{fullShare} fo) ∗ ⌜Done m d L (64 * t) fo⌝)
    ∗ semVal (thr d L, SemLoc.dma cc0_scoped52.sem) 0
    ∗ semVal (thr d L, SemLoc.dma cc0_scoped53.sem) 0
    ∗ ∃ W', ⌜∀ p ∈ W', p ∈ W ∨ p.2 = none⌝ ∗ owes (thr d L) O W')

theorem tile_s13 (hF : (K (F := F)).Facts) (L : grid0.Coords) (hs : (L 1).val = 13) (O : CellTallies nD τ sig (HIx 1)) (W : Waits sig (HIx 1)) (hO : ∀ g, O g none = 0) :
    TileSpec m d L O W := by
  have k0_h1 : ¬ k0_cond1 L = 1#1 := fun h => absurd ((cond1_iff L).mp h) (by omega)
  have k0_h2 : ¬ k0_cond2 L = 1#1 := fun h => absurd ((cond2_iff L).mp h) (by omega)
  have k0_h3 : ¬ k0_cond3 L = 1#1 := fun h => absurd ((cond3_iff L).mp h) (by omega)
  have k0_h4 : ¬ k0_cond4 L = 1#1 := fun h => absurd ((cond4_iff L).mp h) (by omega)
  have k0_h5 : ¬ k0_cond5 L = 1#1 := fun h => absurd ((cond5_iff L).mp h) (by omega)
  have k0_h6 : ¬ k0_cond6 L = 1#1 := fun h => absurd ((cond6_iff L).mp h) (by omega)
  have k0_h7 : ¬ k0_cond7 L = 1#1 := fun h => absurd ((cond7_iff L).mp h) (by omega)
  have k0_h8 : ¬ k0_cond8 L = 1#1 := fun h => absurd ((cond8_iff L).mp h) (by omega)
  have k0_h9 : ¬ k0_cond9 L = 1#1 := fun h => absurd ((cond9_iff L).mp h) (by omega)
  have k0_h10 : ¬ k0_cond10 L = 1#1 := fun h => absurd ((cond10_iff L).mp h) (by omega)
  have k0_h11 : ¬ k0_cond11 L = 1#1 := fun h => absurd ((cond11_iff L).mp h) (by omega)
  have k0_h12 : ¬ k0_cond12 L = 1#1 := fun h => absurd ((cond12_iff L).mp h) (by omega)
  have k0_h13 : ¬ k0_cond13 L = 1#1 := fun h => absurd ((cond13_iff L).mp h) (by omega)
  have k0_h14 : k0_cond14 L = 1#1 := (cond14_iff L).mpr hs
  have k0_h15 : ¬ k0_cond15 L = 1#1 := fun h => absurd ((cond15_iff L).mp h) (by omega)
  have k0_h16 : ¬ k0_cond16 L = 1#1 := fun h => absurd ((cond16_iff L).mp h) (by omega)
  have rt : ∀ (fb rd : (cc0_scratch0 : Ref sig .scVector).ty.Contents (Elt F)),
      ReadAs.same.apply (View.read (Elt F) (View.whole (cc0_scratch0 : Ref sig .scVector)) (View.write (Elt F) (View.whole (cc0_scratch0 : Ref sig .scVector)) fb (ReadAs.same.apply rd) Finset.univ)) = rd :=
    fun fb rd => (congrArg (View.read (Elt F) (View.whole (cc0_scratch0 : Ref sig .scVector))) (View.write_whole_univ (Val := Elt F) (cc0_scratch0 : Ref sig .scVector) fb rd)).trans (View.read_whole _ rd)
  unfold TileSpec
  simp only [cc0__pad_body_eq_skeleton]; unfold cc0__pad_body_skel
  rw [(K (F := F)).scopedBufs_V hF d _ _, SparseCore.Cfg.scopedSems0_V (Val := Elt F) d _ _, ownSems0_V13, ownBufs_V]
  unfold argsAt
  iintro ⟨#Hlv, -, ⟨⟨A0, A1, A2, A3, A4, A5, A6, A7, A8, A9, A10, A11, A12, A13, A14, A15⟩, Ho⟩, ⟨⟨%fb, Hb⟩, ⟨%fz, Hz⟩, Hbufs⟩, ⟨Hs0, Hs1, Hs64, Hsems⟩, HO⟩
  ihave Hmw := ((K (F := F)).mayWaits_none (thr := thr d L) hO) $$ Hlv
  ihave Aa := (Entails.of_eq (pts_a13 (F := F) d L _ _).symm) $$ A13
  ihave Hb' := (Entails.of_eq (pts_b (F := F) d L _).symm) $$ Hb
  ihave Hz' := (Entails.of_eq (pts_z (F := F) d L _).symm) $$ Hz
  sl_exec
  -- the zeroing loops
  sl_for (invZ1 (F := F) d L) $$ [Hz']
  case region =>
    intro k1 _
    unfold invZ1
    iintro ⟨%f, Hz, %hf⟩
    sl_exec
    sl_for (invZ2 (F := F) d L k1) $$ [Hz]
    case region =>
      intro k2 _
      unfold invZ2
      iintro ⟨%f, Hz, %hf⟩
      sl_exec
      sl_step
      iexists _; isplitl [Hz]; · iexact Hz
      ipureintro
      exact invZ2_step k1 k2 f hf
    · unfold invZ2
      iexists f; isplitl [Hz]; · iexact Hz
      ipureintro
      exact invZ2_init k1 f hf
    iintro %_ HI
    unfold invZ2
    icases HI with ⟨%f', Hz, %hf'⟩
    sl_exec
    sl_step
    iexists f'; isplitl [Hz]; · iexact Hz
    ipureintro
    exact invZ1_step k1 f' hf'
  · unfold invZ1
    iexists fz; isplitl [Hz']; · iexact Hz'
    ipureintro
    intro r q h; omega
  iintro %_ HI
  unfold invZ1
  icases HI with ⟨%fz1, Hz, %hfz⟩
  have hfz1 : fz1 = fun _ => zF (F := F) := invZ1_final fz1 hfz
  subst hfz1
  sl_exec
  -- the copying loop
  sl_for (invC13 (F := F) m d L O W (shT (cL L) (sL L))) $$ [Hmw Aa Hb' Ho Hs0 Hs1 HO]
  case region =>
    intro t _
    unfold invC13
    iintro ⟨Hmw, Aa, ⟨%fb, Hb⟩, ⟨%fo, Ho, %hD⟩, Hs0, Hs1, %W', %hW', HO⟩
    have htr : 64 * t.val + 64 ≤ ncopy L := by
      have h1 := t.isLt; have h2 := trips29 L; have h3 := ncopy_dvd L
      change t.val < (k0_t29_loop L).trips at h1
      rw [h2] at h1; omega
    have hnc := ncopy_le L
    have hoff : k0_off55 L t 0 = R0 L + 64 * t.val := by rw [off55_eq]; unfold R0; rfl
    have hsub := chunk_subset L (k0_off55 L t) (k0_off55_inb L t k0_h14) (fun _ => rfl) (64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Aa]; · iexact Aa
    isplitl [Hb]; · iexists _; iexact Hb
    isplitl [Ho]
    · iexists _; isplitl [Ho]; · iexact Ho
      ipureintro
      have e : 64 * (t.val + 1) = 64 * t.val + 64 := by omega
      rw [e]
      refine done_step m d L _ _ _ (64 * t.val) hoff (by rw [off55_eq]; rfl) fo _ hD ?_
      refine hw_copy m d L (m (aLoc13 d)) (fun p q => by rw [hs]; rfl) (by rw [hs]) t.val htr _ _ _ hoff (by rw [off55_eq]; rfl)
        (fun y => (srcS13 L k0_h14 t).view.emb y) (fun y => ?_) _
        (fun y => (congrFun (rt fb _) y).trans ((View.read_apply (v := (srcS13 L k0_h14 t).view) _ y).trans (cast_eq _ _)))
      constructor
      · show k0_off54 L t 0 + 1 * (y 0).val = _; rw [off54_eq]; show 2048 * (L 0).val + 64 * t.val + 1 * (y 0).val = _; omega
      · show k0_off54 L t 1 + 1 * (y 1).val = _; rw [off54_eq]; show 0 + 1 * (y 1).val = _; omega
    isplitl [Hs0]; · iexact Hs0
    isplitl [Hs1]; · iexact Hs1
    iexists (insert (SemLoc.dma cc0_scoped53.sem, (default : HIx 1)) (insert (SemLoc.dma cc0_scoped52.sem, (default : HIx 1)) W')); isplitr
    · ipureintro; intro p hp
      rcases Finset.mem_insert.mp hp with hp | hp
      · exact .inr (hp ▸ rfl)
      rcases Finset.mem_insert.mp hp with hp | hp
      · exact .inr (hp ▸ rfl)
      · exact hW' p hp
    · iexact HO
  · unfold invC13
    isplitl [Hmw]; · iexact Hmw
    isplitl [Aa]; · iexact Aa
    isplitl [Hb']; · iexists _; iexact Hb'
    isplitl [Ho]
    · iexists _; isplitl [Ho]; · iexact Ho
      ipureintro; exact done_zero m d L _
    isplitl [Hs0]; · iexact Hs0
    isplitl [Hs1]; · iexact Hs1
    iexists W; isplitr
    · ipureintro; exact fun p hp => .inl hp
    · iexact HO
  iintro %_ HI
  unfold invC13
  icases HI with ⟨Hmw, Aa, ⟨%fb, Hb⟩, ⟨%fo, Ho, %hD⟩, Hs0, Hs1, %W1, %hW1, HO⟩
  have hDn : Done m d L (ncopy L) fo := by
    have h3 := ncopy_dvd L
    have e : 64 * (k0_t29_loop L).trips = ncopy L := by rw [trips29 L]; omega
    rw [← e]; exact hD
  sl_exec
  -- the remainder of the unrolling by one: no trips
  sl_for (fun (_ : Nat) (_ : PUnit) => (iprop(emp) : sProp 𝕄)) $$ []
  case region =>
    intro t _
    exact absurd t.isLt (by have h0 := trips30 L; change ¬ (t.val < (k0_t30_loop L).trips); omega)
  · iempintro
  iintro %_ -
  sl_exec
  -- the zero-filling loop
  sl_for (invF (F := F) m d L O W) $$ [Hmw Hz Ho Hs64 HO]
  case region =>
    intro t _
    unfold invF
    iintro ⟨Hmw, Hz, ⟨%fo, Ho, %hD⟩, Hs64, %W', %hW', HO⟩
    have hnc := ncopy_le L
    have htr : ncopy L + 64 * t.val + 64 ≤ 2048 := by
      have h1 := t.isLt; have h2 := trips35 L; obtain ⟨c, hc⟩ := ncopy_dvd L
      change t.val < (k0_t35_loop L).trips at h1
      rw [h2] at h1; omega
    have hoff : k0_off66 L t 0 = R0 L + (ncopy L + 64 * t.val) := by rw [off66_eq]; unfold R0; show _ + _ + _ + _ = _; omega
    have hsub := chunk_subset L (k0_off66 L t) (k0_off66_inb L t) (fun _ => rfl) (ncopy L + 64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Hz]; · iexact Hz
    isplitl [Ho]
    · iexists _; isplitl [Ho]; · iexact Ho
      ipureintro
      have e : ncopy L + 64 * (t.val + 1) = (ncopy L + 64 * t.val) + 64 := by omega
      rw [e]
      refine done_step m d L _ _ _ (ncopy L + 64 * t.val) hoff (by rw [off66_eq]; rfl) fo _ hD ?_
      exact hw_zero m d L t.val htr _ _ _ (by rw [hoff]; omega) _ (fun y => rfl)
    isplitl [Hs64]; · iexact Hs64
    iexists (insert (SemLoc.dma cc0_scoped64.sem, (default : HIx 1)) W'); isplitr
    · ipureintro; intro p hp
      rcases Finset.mem_insert.mp hp with hp | hp
      · exact .inr (hp ▸ rfl)
      · exact hW' p hp
    · iexact HO
  · unfold invF
    isplitl [Hmw]; · iexact Hmw
    isplitl [Hz]; · iexact Hz
    isplitl [Ho]
    · iexists _; isplitl [Ho]; · iexact Ho
      ipureintro; rw [Nat.mul_zero, Nat.add_zero]; exact hDn
    isplitl [Hs64]; · iexact Hs64
    iexists W1; isplitr
    · ipureintro; exact hW1
    · iexact HO
  iintro %_ HI
  unfold invF
  icases HI with ⟨Hmw, Hz, ⟨%fo2, Ho, %hD2⟩, Hs64, %W2, %hW2, HO⟩
  have hAll : Done m d L 2048 fo2 := by
    have hnc := ncopy_le L
    obtain ⟨c, hc⟩ := ncopy_dvd L
    have e : ncopy L + 64 * (k0_t35_loop L).trips = 2048 := by rw [trips35 L]; omega
    rw [← e]; exact hD2
  sl_exec
  sl_for (fun (_ : Nat) (_ : PUnit) => (iprop(emp) : sProp 𝕄)) $$ []
  case region =>
    intro t _
    exact absurd t.isLt (by have h0 := trips36 L; change ¬ (t.val < (k0_t36_loop L).trips); omega)
  · iempintro
  iintro %_ -
  sl_exec
  sl_step
  -- hand everything back
  isplitl [A0 A1 A2 A3 A4 A5 A6 A7 A8 A9 A10 A11 A12 A14 A15 Aa Ho]
  · isplitl [A0 A1 A2 A3 A4 A5 A6 A7 A8 A9 A10 A11 A12 A14 A15 Aa]
    ·
      isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [A12]; · iexact A12
      isplitl [Aa]; · iapply (Entails.of_eq (pts_a13 (F := F) d L _ _)); iexact Aa
      isplitl [A14]; · iexact A14
      iexact A15
    · iapply (Entails.of_eq (pointsTo_congr (ℓ := oLoc d) (done_all m d L fo2 hAll))); iexact Ho
  isplitl [Hb Hz Hbufs]
  · isplitl [Hb]; · iexists _; iapply (Entails.of_eq (pts_b (F := F) d L _)); iexact Hb
    isplitl [Hz]; · iexists _; iapply (Entails.of_eq (pts_z (F := F) d L _)); iexact Hz
    iexact Hbufs
  isplitl [Hs0 Hs1 Hs64 Hsems]
  · isplitl [Hs0]; · iexact Hs0
    isplitl [Hs1]; · iexact Hs1
    isplitl [Hs64]; · iexact Hs64
    iexact Hsems
  iexists W2; isplitr
  · ipureintro; exact hW2
  · iexact HO

end Cert.Proof.KB

end
-- ==== Proof.KBTile14.lean ====
/-
  The task on subcore 14 (of either SparseCore): it serves sequence 14, of 512 rows. Its second scratch buffer is
  zeroed; the rows of the sequence that fall in its half are copied, 64 at a time, through the first scratch buffer
  into its block of the output; the rest of the block is filled from the zeroed buffer. Each loop keeps "the first so
  many rows of the block hold the padded array".
-/
import proofs.«212850_g39865886441476_cont_8to1_b_277_5_alg».proof.Proof.KBTileCommon

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "a0W" => (Memref.whole Cert.Kernel.main_arg0_scv : Memref Cert.Kernel.sig Kind.scVector Space.hbm Cert.Kernel.S4096x512 EltTy.f32)
local notation "a1W" => (Memref.whole Cert.Kernel.main_arg1_scv : Memref Cert.Kernel.sig Kind.scVector Space.hbm Cert.Kernel.S3840x512 EltTy.f32)
local notation "a2W" => (Memref.whole Cert.Kernel.main_arg2_scv : Memref Cert.Kernel.sig Kind.scVector Space.hbm Cert.Kernel.S3584x512 EltTy.f32)
local notation "a3W" => (Memref.whole Cert.Kernel.main_arg3_scv : Memref Cert.Kernel.sig Kind.scVector Space.hbm Cert.Kernel.S3328x512 EltTy.f32)
local notation "a4W" => (Memref.whole Cert.Kernel.main_arg4_scv : Memref Cert.Kernel.sig Kind.scVector Space.hbm Cert.Kernel.S3072x512 EltTy.f32)
local notation "a5W" => (Memref.whole Cert.Kernel.main_arg5_scv : Memref Cert.Kernel.sig Kind.scVector Space.hbm Cert.Kernel.S2816x512 EltTy.f32)
local notation "a6W" => (Memref.whole Cert.Kernel.main_arg6_scv : Memref Cert.Kernel.sig Kind.scVector Space.hbm Cert.Kernel.S2560x512 EltTy.f32)
local notation "a7W" => (Memref.whole Cert.Kernel.main_arg7_scv : Memref Cert.Kernel.sig Kind.scVector Space.hbm Cert.Kernel.S2304x512 EltTy.f32)
local notation "a8W" => (Memref.whole Cert.Kernel.main_arg8_scv : Memref Cert.Kernel.sig Kind.scVector Space.hbm Cert.Kernel.S2048x512 EltTy.f32)
local notation "a9W" => (Memref.whole Cert.Kernel.main_arg9_scv : Memref Cert.Kernel.sig Kind.scVector Space.hbm Cert.Kernel.S1792x512 EltTy.f32)
local notation "a10W" => (Memref.whole Cert.Kernel.main_arg10_scv : Memref Cert.Kernel.sig Kind.scVector Space.hbm Cert.Kernel.S1536x512 EltTy.f32)
local notation "a11W" => (Memref.whole Cert.Kernel.main_arg11_scv : Memref Cert.Kernel.sig Kind.scVector Space.hbm Cert.Kernel.S1280x512 EltTy.f32)
local notation "a12W" => (Memref.whole Cert.Kernel.main_arg12_scv : Memref Cert.Kernel.sig Kind.scVector Space.hbm Cert.Kernel.S1024x512 EltTy.f32)
local notation "a13W" => (Memref.whole Cert.Kernel.main_arg13_scv : Memref Cert.Kernel.sig Kind.scVector Space.hbm Cert.Kernel.S768x512 EltTy.f32)
local notation "a14W" => (Memref.whole Cert.Kernel.main_arg14_scv : Memref Cert.Kernel.sig Kind.scVector Space.hbm Cert.Kernel.S512x512 EltTy.f32)
local notation "a15W" => (Memref.whole Cert.Kernel.main_arg15_scv : Memref Cert.Kernel.sig Kind.scVector Space.hbm Cert.Kernel.S256x512 EltTy.f32)
local notation "oW" => (Memref.whole Cert.Kernel.main_v0_scv : Memref Cert.Kernel.sig Kind.scVector Space.hbm Cert.Kernel.S65536x512 EltTy.f32)
local notation "bW" => (Memref.whole Cert.Kernel.cc0_scratch0 : Memref Cert.Kernel.sig Kind.scVector Space.vmem Cert.Kernel.S64x512 EltTy.f32)
local notation "zW" => (Memref.whole Cert.Kernel.cc0_scratch1 : Memref Cert.Kernel.sig Kind.scVector Space.vmem Cert.Kernel.S64x512 EltTy.f32)

variable (m : (ℓ : Loc nD τ sig) → Buf (Elt F) ℓ) (d : Dev nD)

omit [FloatOps F] in
theorem ownSems0_V14 (L : grid0.Coords) :
    (ownSems0 (thr d L) : sProp 𝕄)
      = iprop(semVal (thr d L, SemLoc.dma cc0_scoped56.sem) 0 ∗ semVal (thr d L, SemLoc.dma cc0_scoped57.sem) 0 ∗ semVal (thr d L, SemLoc.dma cc0_scoped64.sem) 0
          ∗ bigSep ((((ownCells (thr d L)).erase (thr d L, SemLoc.dma cc0_scoped56.sem)).erase (thr d L, SemLoc.dma cc0_scoped57.sem)).erase (thr d L, SemLoc.dma cc0_scoped64.sem))
              fun g => semVal g 0) := by
  unfold SparseCore.Cfg.ownSems0
  rw [SparseCore.bigSep_erase' ((mem_ownCells (g := (thr d L, SemLoc.dma cc0_scoped56.sem))).mpr ⟨rfl, by
      show (SemLoc.dma cc0_scoped56.sem : SemLoc sig).isScoped .scVector = true; decide⟩),
    SparseCore.bigSep_erase' (Finset.mem_erase.mpr ⟨by simp; decide, (mem_ownCells (g := (thr d L, SemLoc.dma cc0_scoped57.sem))).mpr ⟨rfl, by
      show (SemLoc.dma cc0_scoped57.sem : SemLoc sig).isScoped .scVector = true; decide⟩⟩),
    SparseCore.bigSep_erase' (Finset.mem_erase.mpr ⟨by simp; decide, Finset.mem_erase.mpr ⟨by simp; decide,
      (mem_ownCells (g := (thr d L, SemLoc.dma cc0_scoped64.sem))).mpr ⟨rfl, by show (SemLoc.dma cc0_scoped64.sem : SemLoc sig).isScoped .scVector = true; decide⟩⟩⟩)]

/-- The source chunk of trip `t`, as the program slices it. -/
abbrev srcS14 (L : grid0.Coords) (h : k0_cond15 L = 1#1) (t : Fin (k0_t31_loop L).trips) : Memref sig .scVector .hbm S64x512 .f32 :=
  (a14W).slice (Rect.unit (s := S512x512) (k0_off58 L t) S64x512.size (k0_off58_inb L t h)) (fun _ => rfl)

omit [FloatOps F] in
theorem pts_a14 (L : grid0.Coords) (q : PosShare TreeShare) (f : Buf (Elt F) (aLoc14 d)) :
    ((a14W).view.loc (thr d L) ↦{q} f : sProp 𝕄) = aLoc14 d ↦{q} f := rfl

/-- The copying loop's invariant before trip `t`: the first `64 t` rows of the block hold the padded array. -/
def invC14 (L : grid0.Coords) (O : CellTallies nD τ sig (HIx 1)) (W : Waits sig (HIx 1)) (q : PosShare TreeShare) (t : Nat) (_ : PUnit) : sProp 𝕄 :=
  iprop(Transfers.MayWaits (thr d L) (none : HIx 1) O
    ∗ ((a14W).view.loc (thr d L) ↦{q} m (aLoc14 d))
    ∗ (∃ fb, (bW).view.loc (thr d L) ↦{fullShare} fb)
    ∗ (∃ fo, (oLoc d ↦[blkSet (bI L)]{fullShare} fo) ∗ ⌜Done m d L (64 * t) fo⌝)
    ∗ semVal (thr d L, SemLoc.dma cc0_scoped56.sem) 0
    ∗ semVal (thr d L, SemLoc.dma cc0_scoped57.sem) 0
    ∗ ∃ W', ⌜∀ p ∈ W', p ∈ W ∨ p.2 = none⌝ ∗ owes (thr d L) O W')

theorem tile_s14 (hF : (K (F := F)).Facts) (L : grid0.Coords) (hs : (L 1).val = 14) (O : CellTallies nD τ sig (HIx 1)) (W : Waits sig (HIx 1)) (hO : ∀ g, O g none = 0) :
    TileSpec m d L O W := by
  have k0_h1 : ¬ k0_cond1 L = 1#1 := fun h => absurd ((cond1_iff L).mp h) (by omega)
  have k0_h2 : ¬ k0_cond2 L = 1#1 := fun h => absurd ((cond2_iff L).mp h) (by omega)
  have k0_h3 : ¬ k0_cond3 L = 1#1 := fun h => absurd ((cond3_iff L).mp h) (by omega)
  have k0_h4 : ¬ k0_cond4 L = 1#1 := fun h => absurd ((cond4_iff L).mp h) (by omega)
  have k0_h5 : ¬ k0_cond5 L = 1#1 := fun h => absurd ((cond5_iff L).mp h) (by omega)
  have k0_h6 : ¬ k0_cond6 L = 1#1 := fun h => absurd ((cond6_iff L).mp h) (by omega)
  have k0_h7 : ¬ k0_cond7 L = 1#1 := fun h => absurd ((cond7_iff L).mp h) (by omega)
  have k0_h8 : ¬ k0_cond8 L = 1#1 := fun h => absurd ((cond8_iff L).mp h) (by omega)
  have k0_h9 : ¬ k0_cond9 L = 1#1 := fun h => absurd ((cond9_iff L).mp h) (by omega)
  have k0_h10 : ¬ k0_cond10 L = 1#1 := fun h => absurd ((cond10_iff L).mp h) (by omega)
  have k0_h11 : ¬ k0_cond11 L = 1#1 := fun h => absurd ((cond11_iff L).mp h) (by omega)
  have k0_h12 : ¬ k0_cond12 L = 1#1 := fun h => absurd ((cond12_iff L).mp h) (by omega)
  have k0_h13 : ¬ k0_cond13 L = 1#1 := fun h => absurd ((cond13_iff L).mp h) (by omega)
  have k0_h14 : ¬ k0_cond14 L = 1#1 := fun h => absurd ((cond14_iff L).mp h) (by omega)
  have k0_h15 : k0_cond15 L = 1#1 := (cond15_iff L).mpr hs
  have k0_h16 : ¬ k0_cond16 L = 1#1 := fun h => absurd ((cond16_iff L).mp h) (by omega)
  have rt : ∀ (fb rd : (cc0_scratch0 : Ref sig .scVector).ty.Contents (Elt F)),
      ReadAs.same.apply (View.read (Elt F) (View.whole (cc0_scratch0 : Ref sig .scVector)) (View.write (Elt F) (View.whole (cc0_scratch0 : Ref sig .scVector)) fb (ReadAs.same.apply rd) Finset.univ)) = rd :=
    fun fb rd => (congrArg (View.read (Elt F) (View.whole (cc0_scratch0 : Ref sig .scVector))) (View.write_whole_univ (Val := Elt F) (cc0_scratch0 : Ref sig .scVector) fb rd)).trans (View.read_whole _ rd)
  unfold TileSpec
  simp only [cc0__pad_body_eq_skeleton]; unfold cc0__pad_body_skel
  rw [(K (F := F)).scopedBufs_V hF d _ _, SparseCore.Cfg.scopedSems0_V (Val := Elt F) d _ _, ownSems0_V14, ownBufs_V]
  unfold argsAt
  iintro ⟨#Hlv, -, ⟨⟨A0, A1, A2, A3, A4, A5, A6, A7, A8, A9, A10, A11, A12, A13, A14, A15⟩, Ho⟩, ⟨⟨%fb, Hb⟩, ⟨%fz, Hz⟩, Hbufs⟩, ⟨Hs0, Hs1, Hs64, Hsems⟩, HO⟩
  ihave Hmw := ((K (F := F)).mayWaits_none (thr := thr d L) hO) $$ Hlv
  ihave Aa := (Entails.of_eq (pts_a14 (F := F) d L _ _).symm) $$ A14
  ihave Hb' := (Entails.of_eq (pts_b (F := F) d L _).symm) $$ Hb
  ihave Hz' := (Entails.of_eq (pts_z (F := F) d L _).symm) $$ Hz
  sl_exec
  -- the zeroing loops
  sl_for (invZ1 (F := F) d L) $$ [Hz']
  case region =>
    intro k1 _
    unfold invZ1
    iintro ⟨%f, Hz, %hf⟩
    sl_exec
    sl_for (invZ2 (F := F) d L k1) $$ [Hz]
    case region =>
      intro k2 _
      unfold invZ2
      iintro ⟨%f, Hz, %hf⟩
      sl_exec
      sl_step
      iexists _; isplitl [Hz]; · iexact Hz
      ipureintro
      exact invZ2_step k1 k2 f hf
    · unfold invZ2
      iexists f; isplitl [Hz]; · iexact Hz
      ipureintro
      exact invZ2_init k1 f hf
    iintro %_ HI
    unfold invZ2
    icases HI with ⟨%f', Hz, %hf'⟩
    sl_exec
    sl_step
    iexists f'; isplitl [Hz]; · iexact Hz
    ipureintro
    exact invZ1_step k1 f' hf'
  · unfold invZ1
    iexists fz; isplitl [Hz']; · iexact Hz'
    ipureintro
    intro r q h; omega
  iintro %_ HI
  unfold invZ1
  icases HI with ⟨%fz1, Hz, %hfz⟩
  have hfz1 : fz1 = fun _ => zF (F := F) := invZ1_final fz1 hfz
  subst hfz1
  sl_exec
  -- the copying loop
  sl_for (invC14 (F := F) m d L O W (shT (cL L) (sL L))) $$ [Hmw Aa Hb' Ho Hs0 Hs1 HO]
  case region =>
    intro t _
    unfold invC14
    iintro ⟨Hmw, Aa, ⟨%fb, Hb⟩, ⟨%fo, Ho, %hD⟩, Hs0, Hs1, %W', %hW', HO⟩
    have htr : 64 * t.val + 64 ≤ ncopy L := by
      have h1 := t.isLt; have h2 := trips31 L; have h3 := ncopy_dvd L
      change t.val < (k0_t31_loop L).trips at h1
      rw [h2] at h1; omega
    have hnc := ncopy_le L
    have hoff : k0_off59 L t 0 = R0 L + 64 * t.val := by rw [off59_eq]; unfold R0; rfl
    have hsub := chunk_subset L (k0_off59 L t) (k0_off59_inb L t k0_h15) (fun _ => rfl) (64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Aa]; · iexact Aa
    isplitl [Hb]; · iexists _; iexact Hb
    isplitl [Ho]
    · iexists _; isplitl [Ho]; · iexact Ho
      ipureintro
      have e : 64 * (t.val + 1) = 64 * t.val + 64 := by omega
      rw [e]
      refine done_step m d L _ _ _ (64 * t.val) hoff (by rw [off59_eq]; rfl) fo _ hD ?_
      refine hw_copy m d L (m (aLoc14 d)) (fun p q => by rw [hs]; rfl) (by rw [hs]) t.val htr _ _ _ hoff (by rw [off59_eq]; rfl)
        (fun y => (srcS14 L k0_h15 t).view.emb y) (fun y => ?_) _
        (fun y => (congrFun (rt fb _) y).trans ((View.read_apply (v := (srcS14 L k0_h15 t).view) _ y).trans (cast_eq _ _)))
      constructor
      · show k0_off58 L t 0 + 1 * (y 0).val = _; rw [off58_eq]; show 2048 * (L 0).val + 64 * t.val + 1 * (y 0).val = _; omega
      · show k0_off58 L t 1 + 1 * (y 1).val = _; rw [off58_eq]; show 0 + 1 * (y 1).val = _; omega
    isplitl [Hs0]; · iexact Hs0
    isplitl [Hs1]; · iexact Hs1
    iexists (insert (SemLoc.dma cc0_scoped57.sem, (default : HIx 1)) (insert (SemLoc.dma cc0_scoped56.sem, (default : HIx 1)) W')); isplitr
    · ipureintro; intro p hp
      rcases Finset.mem_insert.mp hp with hp | hp
      · exact .inr (hp ▸ rfl)
      rcases Finset.mem_insert.mp hp with hp | hp
      · exact .inr (hp ▸ rfl)
      · exact hW' p hp
    · iexact HO
  · unfold invC14
    isplitl [Hmw]; · iexact Hmw
    isplitl [Aa]; · iexact Aa
    isplitl [Hb']; · iexists _; iexact Hb'
    isplitl [Ho]
    · iexists _; isplitl [Ho]; · iexact Ho
      ipureintro; exact done_zero m d L _
    isplitl [Hs0]; · iexact Hs0
    isplitl [Hs1]; · iexact Hs1
    iexists W; isplitr
    · ipureintro; exact fun p hp => .inl hp
    · iexact HO
  iintro %_ HI
  unfold invC14
  icases HI with ⟨Hmw, Aa, ⟨%fb, Hb⟩, ⟨%fo, Ho, %hD⟩, Hs0, Hs1, %W1, %hW1, HO⟩
  have hDn : Done m d L (ncopy L) fo := by
    have h3 := ncopy_dvd L
    have e : 64 * (k0_t31_loop L).trips = ncopy L := by rw [trips31 L]; omega
    rw [← e]; exact hD
  sl_exec
  -- the remainder of the unrolling by one: no trips
  sl_for (fun (_ : Nat) (_ : PUnit) => (iprop(emp) : sProp 𝕄)) $$ []
  case region =>
    intro t _
    exact absurd t.isLt (by have h0 := trips32 L; change ¬ (t.val < (k0_t32_loop L).trips); omega)
  · iempintro
  iintro %_ -
  sl_exec
  -- the zero-filling loop
  sl_for (invF (F := F) m d L O W) $$ [Hmw Hz Ho Hs64 HO]
  case region =>
    intro t _
    unfold invF
    iintro ⟨Hmw, Hz, ⟨%fo, Ho, %hD⟩, Hs64, %W', %hW', HO⟩
    have hnc := ncopy_le L
    have htr : ncopy L + 64 * t.val + 64 ≤ 2048 := by
      have h1 := t.isLt; have h2 := trips35 L; obtain ⟨c, hc⟩ := ncopy_dvd L
      change t.val < (k0_t35_loop L).trips at h1
      rw [h2] at h1; omega
    have hoff : k0_off66 L t 0 = R0 L + (ncopy L + 64 * t.val) := by rw [off66_eq]; unfold R0; show _ + _ + _ + _ = _; omega
    have hsub := chunk_subset L (k0_off66 L t) (k0_off66_inb L t) (fun _ => rfl) (ncopy L + 64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Hz]; · iexact Hz
    isplitl [Ho]
    · iexists _; isplitl [Ho]; · iexact Ho
      ipureintro
      have e : ncopy L + 64 * (t.val + 1) = (ncopy L + 64 * t.val) + 64 := by omega
      rw [e]
      refine done_step m d L _ _ _ (ncopy L + 64 * t.val) hoff (by rw [off66_eq]; rfl) fo _ hD ?_
      exact hw_zero m d L t.val htr _ _ _ (by rw [hoff]; omega) _ (fun y => rfl)
    isplitl [Hs64]; · iexact Hs64
    iexists (insert (SemLoc.dma cc0_scoped64.sem, (default : HIx 1)) W'); isplitr
    · ipureintro; intro p hp
      rcases Finset.mem_insert.mp hp with hp | hp
      · exact .inr (hp ▸ rfl)
      · exact hW' p hp
    · iexact HO
  · unfold invF
    isplitl [Hmw]; · iexact Hmw
    isplitl [Hz]; · iexact Hz
    isplitl [Ho]
    · iexists _; isplitl [Ho]; · iexact Ho
      ipureintro; rw [Nat.mul_zero, Nat.add_zero]; exact hDn
    isplitl [Hs64]; · iexact Hs64
    iexists W1; isplitr
    · ipureintro; exact hW1
    · iexact HO
  iintro %_ HI
  unfold invF
  icases HI with ⟨Hmw, Hz, ⟨%fo2, Ho, %hD2⟩, Hs64, %W2, %hW2, HO⟩
  have hAll : Done m d L 2048 fo2 := by
    have hnc := ncopy_le L
    obtain ⟨c, hc⟩ := ncopy_dvd L
    have e : ncopy L + 64 * (k0_t35_loop L).trips = 2048 := by rw [trips35 L]; omega
    rw [← e]; exact hD2
  sl_exec
  sl_for (fun (_ : Nat) (_ : PUnit) => (iprop(emp) : sProp 𝕄)) $$ []
  case region =>
    intro t _
    exact absurd t.isLt (by have h0 := trips36 L; change ¬ (t.val < (k0_t36_loop L).trips); omega)
  · iempintro
  iintro %_ -
  sl_exec
  sl_step
  -- hand everything back
  isplitl [A0 A1 A2 A3 A4 A5 A6 A7 A8 A9 A10 A11 A12 A13 A15 Aa Ho]
  · isplitl [A0 A1 A2 A3 A4 A5 A6 A7 A8 A9 A10 A11 A12 A13 A15 Aa]
    ·
      isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [A12]; · iexact A12
      isplitl [A13]; · iexact A13
      isplitl [Aa]; · iapply (Entails.of_eq (pts_a14 (F := F) d L _ _)); iexact Aa
      iexact A15
    · iapply (Entails.of_eq (pointsTo_congr (ℓ := oLoc d) (done_all m d L fo2 hAll))); iexact Ho
  isplitl [Hb Hz Hbufs]
  · isplitl [Hb]; · iexists _; iapply (Entails.of_eq (pts_b (F := F) d L _)); iexact Hb
    isplitl [Hz]; · iexists _; iapply (Entails.of_eq (pts_z (F := F) d L _)); iexact Hz
    iexact Hbufs
  isplitl [Hs0 Hs1 Hs64 Hsems]
  · isplitl [Hs0]; · iexact Hs0
    isplitl [Hs1]; · iexact Hs1
    isplitl [Hs64]; · iexact Hs64
    iexact Hsems
  iexists W2; isplitr
  · ipureintro; exact hW2
  · iexact HO

end Cert.Proof.KB

end
-- ==== Proof.KBTile15.lean ====
/-
  The task on subcore 15 (of either SparseCore): it serves sequence 15, of 256 rows. Its second scratch buffer is
  zeroed; the rows of the sequence that fall in its half are copied, 64 at a time, through the first scratch buffer
  into its block of the output; the rest of the block is filled from the zeroed buffer. Each loop keeps "the first so
  many rows of the block hold the padded array".
-/
import proofs.«212850_g39865886441476_cont_8to1_b_277_5_alg».proof.Proof.KBTileCommon

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "a0W" => (Memref.whole Cert.Kernel.main_arg0_scv : Memref Cert.Kernel.sig Kind.scVector Space.hbm Cert.Kernel.S4096x512 EltTy.f32)
local notation "a1W" => (Memref.whole Cert.Kernel.main_arg1_scv : Memref Cert.Kernel.sig Kind.scVector Space.hbm Cert.Kernel.S3840x512 EltTy.f32)
local notation "a2W" => (Memref.whole Cert.Kernel.main_arg2_scv : Memref Cert.Kernel.sig Kind.scVector Space.hbm Cert.Kernel.S3584x512 EltTy.f32)
local notation "a3W" => (Memref.whole Cert.Kernel.main_arg3_scv : Memref Cert.Kernel.sig Kind.scVector Space.hbm Cert.Kernel.S3328x512 EltTy.f32)
local notation "a4W" => (Memref.whole Cert.Kernel.main_arg4_scv : Memref Cert.Kernel.sig Kind.scVector Space.hbm Cert.Kernel.S3072x512 EltTy.f32)
local notation "a5W" => (Memref.whole Cert.Kernel.main_arg5_scv : Memref Cert.Kernel.sig Kind.scVector Space.hbm Cert.Kernel.S2816x512 EltTy.f32)
local notation "a6W" => (Memref.whole Cert.Kernel.main_arg6_scv : Memref Cert.Kernel.sig Kind.scVector Space.hbm Cert.Kernel.S2560x512 EltTy.f32)
local notation "a7W" => (Memref.whole Cert.Kernel.main_arg7_scv : Memref Cert.Kernel.sig Kind.scVector Space.hbm Cert.Kernel.S2304x512 EltTy.f32)
local notation "a8W" => (Memref.whole Cert.Kernel.main_arg8_scv : Memref Cert.Kernel.sig Kind.scVector Space.hbm Cert.Kernel.S2048x512 EltTy.f32)
local notation "a9W" => (Memref.whole Cert.Kernel.main_arg9_scv : Memref Cert.Kernel.sig Kind.scVector Space.hbm Cert.Kernel.S1792x512 EltTy.f32)
local notation "a10W" => (Memref.whole Cert.Kernel.main_arg10_scv : Memref Cert.Kernel.sig Kind.scVector Space.hbm Cert.Kernel.S1536x512 EltTy.f32)
local notation "a11W" => (Memref.whole Cert.Kernel.main_arg11_scv : Memref Cert.Kernel.sig Kind.scVector Space.hbm Cert.Kernel.S1280x512 EltTy.f32)
local notation "a12W" => (Memref.whole Cert.Kernel.main_arg12_scv : Memref Cert.Kernel.sig Kind.scVector Space.hbm Cert.Kernel.S1024x512 EltTy.f32)
local notation "a13W" => (Memref.whole Cert.Kernel.main_arg13_scv : Memref Cert.Kernel.sig Kind.scVector Space.hbm Cert.Kernel.S768x512 EltTy.f32)
local notation "a14W" => (Memref.whole Cert.Kernel.main_arg14_scv : Memref Cert.Kernel.sig Kind.scVector Space.hbm Cert.Kernel.S512x512 EltTy.f32)
local notation "a15W" => (Memref.whole Cert.Kernel.main_arg15_scv : Memref Cert.Kernel.sig Kind.scVector Space.hbm Cert.Kernel.S256x512 EltTy.f32)
local notation "oW" => (Memref.whole Cert.Kernel.main_v0_scv : Memref Cert.Kernel.sig Kind.scVector Space.hbm Cert.Kernel.S65536x512 EltTy.f32)
local notation "bW" => (Memref.whole Cert.Kernel.cc0_scratch0 : Memref Cert.Kernel.sig Kind.scVector Space.vmem Cert.Kernel.S64x512 EltTy.f32)
local notation "zW" => (Memref.whole Cert.Kernel.cc0_scratch1 : Memref Cert.Kernel.sig Kind.scVector Space.vmem Cert.Kernel.S64x512 EltTy.f32)

variable (m : (ℓ : Loc nD τ sig) → Buf (Elt F) ℓ) (d : Dev nD)

omit [FloatOps F] in
theorem ownSems0_V15 (L : grid0.Coords) :
    (ownSems0 (thr d L) : sProp 𝕄)
      = iprop(semVal (thr d L, SemLoc.dma cc0_scoped60.sem) 0 ∗ semVal (thr d L, SemLoc.dma cc0_scoped61.sem) 0 ∗ semVal (thr d L, SemLoc.dma cc0_scoped64.sem) 0
          ∗ bigSep ((((ownCells (thr d L)).erase (thr d L, SemLoc.dma cc0_scoped60.sem)).erase (thr d L, SemLoc.dma cc0_scoped61.sem)).erase (thr d L, SemLoc.dma cc0_scoped64.sem))
              fun g => semVal g 0) := by
  unfold SparseCore.Cfg.ownSems0
  rw [SparseCore.bigSep_erase' ((mem_ownCells (g := (thr d L, SemLoc.dma cc0_scoped60.sem))).mpr ⟨rfl, by
      show (SemLoc.dma cc0_scoped60.sem : SemLoc sig).isScoped .scVector = true; decide⟩),
    SparseCore.bigSep_erase' (Finset.mem_erase.mpr ⟨by simp; decide, (mem_ownCells (g := (thr d L, SemLoc.dma cc0_scoped61.sem))).mpr ⟨rfl, by
      show (SemLoc.dma cc0_scoped61.sem : SemLoc sig).isScoped .scVector = true; decide⟩⟩),
    SparseCore.bigSep_erase' (Finset.mem_erase.mpr ⟨by simp; decide, Finset.mem_erase.mpr ⟨by simp; decide,
      (mem_ownCells (g := (thr d L, SemLoc.dma cc0_scoped64.sem))).mpr ⟨rfl, by show (SemLoc.dma cc0_scoped64.sem : SemLoc sig).isScoped .scVector = true; decide⟩⟩⟩)]

/-- The source chunk of trip `t`, as the program slices it. -/
abbrev srcS15 (L : grid0.Coords) (h : k0_cond16 L = 1#1) (t : Fin (k0_t33_loop L).trips) : Memref sig .scVector .hbm S64x512 .f32 :=
  (a15W).slice (Rect.unit (s := S256x512) (k0_off62 L t) S64x512.size (k0_off62_inb L t h)) (fun _ => rfl)

omit [FloatOps F] in
theorem pts_a15 (L : grid0.Coords) (q : PosShare TreeShare) (f : Buf (Elt F) (aLoc15 d)) :
    ((a15W).view.loc (thr d L) ↦{q} f : sProp 𝕄) = aLoc15 d ↦{q} f := rfl

/-- The copying loop's invariant before trip `t`: the first `64 t` rows of the block hold the padded array. -/
def invC15 (L : grid0.Coords) (O : CellTallies nD τ sig (HIx 1)) (W : Waits sig (HIx 1)) (q : PosShare TreeShare) (t : Nat) (_ : PUnit) : sProp 𝕄 :=
  iprop(Transfers.MayWaits (thr d L) (none : HIx 1) O
    ∗ ((a15W).view.loc (thr d L) ↦{q} m (aLoc15 d))
    ∗ (∃ fb, (bW).view.loc (thr d L) ↦{fullShare} fb)
    ∗ (∃ fo, (oLoc d ↦[blkSet (bI L)]{fullShare} fo) ∗ ⌜Done m d L (64 * t) fo⌝)
    ∗ semVal (thr d L, SemLoc.dma cc0_scoped60.sem) 0
    ∗ semVal (thr d L, SemLoc.dma cc0_scoped61.sem) 0
    ∗ ∃ W', ⌜∀ p ∈ W', p ∈ W ∨ p.2 = none⌝ ∗ owes (thr d L) O W')

theorem tile_s15 (hF : (K (F := F)).Facts) (L : grid0.Coords) (hs : (L 1).val = 15) (O : CellTallies nD τ sig (HIx 1)) (W : Waits sig (HIx 1)) (hO : ∀ g, O g none = 0) :
    TileSpec m d L O W := by
  have k0_h1 : ¬ k0_cond1 L = 1#1 := fun h => absurd ((cond1_iff L).mp h) (by omega)
  have k0_h2 : ¬ k0_cond2 L = 1#1 := fun h => absurd ((cond2_iff L).mp h) (by omega)
  have k0_h3 : ¬ k0_cond3 L = 1#1 := fun h => absurd ((cond3_iff L).mp h) (by omega)
  have k0_h4 : ¬ k0_cond4 L = 1#1 := fun h => absurd ((cond4_iff L).mp h) (by omega)
  have k0_h5 : ¬ k0_cond5 L = 1#1 := fun h => absurd ((cond5_iff L).mp h) (by omega)
  have k0_h6 : ¬ k0_cond6 L = 1#1 := fun h => absurd ((cond6_iff L).mp h) (by omega)
  have k0_h7 : ¬ k0_cond7 L = 1#1 := fun h => absurd ((cond7_iff L).mp h) (by omega)
  have k0_h8 : ¬ k0_cond8 L = 1#1 := fun h => absurd ((cond8_iff L).mp h) (by omega)
  have k0_h9 : ¬ k0_cond9 L = 1#1 := fun h => absurd ((cond9_iff L).mp h) (by omega)
  have k0_h10 : ¬ k0_cond10 L = 1#1 := fun h => absurd ((cond10_iff L).mp h) (by omega)
  have k0_h11 : ¬ k0_cond11 L = 1#1 := fun h => absurd ((cond11_iff L).mp h) (by omega)
  have k0_h12 : ¬ k0_cond12 L = 1#1 := fun h => absurd ((cond12_iff L).mp h) (by omega)
  have k0_h13 : ¬ k0_cond13 L = 1#1 := fun h => absurd ((cond13_iff L).mp h) (by omega)
  have k0_h14 : ¬ k0_cond14 L = 1#1 := fun h => absurd ((cond14_iff L).mp h) (by omega)
  have k0_h15 : ¬ k0_cond15 L = 1#1 := fun h => absurd ((cond15_iff L).mp h) (by omega)
  have k0_h16 : k0_cond16 L = 1#1 := (cond16_iff L).mpr hs
  have rt : ∀ (fb rd : (cc0_scratch0 : Ref sig .scVector).ty.Contents (Elt F)),
      ReadAs.same.apply (View.read (Elt F) (View.whole (cc0_scratch0 : Ref sig .scVector)) (View.write (Elt F) (View.whole (cc0_scratch0 : Ref sig .scVector)) fb (ReadAs.same.apply rd) Finset.univ)) = rd :=
    fun fb rd => (congrArg (View.read (Elt F) (View.whole (cc0_scratch0 : Ref sig .scVector))) (View.write_whole_univ (Val := Elt F) (cc0_scratch0 : Ref sig .scVector) fb rd)).trans (View.read_whole _ rd)
  unfold TileSpec
  simp only [cc0__pad_body_eq_skeleton]; unfold cc0__pad_body_skel
  rw [(K (F := F)).scopedBufs_V hF d _ _, SparseCore.Cfg.scopedSems0_V (Val := Elt F) d _ _, ownSems0_V15, ownBufs_V]
  unfold argsAt
  iintro ⟨#Hlv, -, ⟨⟨A0, A1, A2, A3, A4, A5, A6, A7, A8, A9, A10, A11, A12, A13, A14, A15⟩, Ho⟩, ⟨⟨%fb, Hb⟩, ⟨%fz, Hz⟩, Hbufs⟩, ⟨Hs0, Hs1, Hs64, Hsems⟩, HO⟩
  ihave Hmw := ((K (F := F)).mayWaits_none (thr := thr d L) hO) $$ Hlv
  ihave Aa := (Entails.of_eq (pts_a15 (F := F) d L _ _).symm) $$ A15
  ihave Hb' := (Entails.of_eq (pts_b (F := F) d L _).symm) $$ Hb
  ihave Hz' := (Entails.of_eq (pts_z (F := F) d L _).symm) $$ Hz
  sl_exec
  -- the zeroing loops
  sl_for (invZ1 (F := F) d L) $$ [Hz']
  case region =>
    intro k1 _
    unfold invZ1
    iintro ⟨%f, Hz, %hf⟩
    sl_exec
    sl_for (invZ2 (F := F) d L k1) $$ [Hz]
    case region =>
      intro k2 _
      unfold invZ2
      iintro ⟨%f, Hz, %hf⟩
      sl_exec
      sl_step
      iexists _; isplitl [Hz]; · iexact Hz
      ipureintro
      exact invZ2_step k1 k2 f hf
    · unfold invZ2
      iexists f; isplitl [Hz]; · iexact Hz
      ipureintro
      exact invZ2_init k1 f hf
    iintro %_ HI
    unfold invZ2
    icases HI with ⟨%f', Hz, %hf'⟩
    sl_exec
    sl_step
    iexists f'; isplitl [Hz]; · iexact Hz
    ipureintro
    exact invZ1_step k1 f' hf'
  · unfold invZ1
    iexists fz; isplitl [Hz']; · iexact Hz'
    ipureintro
    intro r q h; omega
  iintro %_ HI
  unfold invZ1
  icases HI with ⟨%fz1, Hz, %hfz⟩
  have hfz1 : fz1 = fun _ => zF (F := F) := invZ1_final fz1 hfz
  subst hfz1
  sl_exec
  -- the copying loop
  sl_for (invC15 (F := F) m d L O W (shT (cL L) (sL L))) $$ [Hmw Aa Hb' Ho Hs0 Hs1 HO]
  case region =>
    intro t _
    unfold invC15
    iintro ⟨Hmw, Aa, ⟨%fb, Hb⟩, ⟨%fo, Ho, %hD⟩, Hs0, Hs1, %W', %hW', HO⟩
    have htr : 64 * t.val + 64 ≤ ncopy L := by
      have h1 := t.isLt; have h2 := trips33 L; have h3 := ncopy_dvd L
      change t.val < (k0_t33_loop L).trips at h1
      rw [h2] at h1; omega
    have hnc := ncopy_le L
    have hoff : k0_off63 L t 0 = R0 L + 64 * t.val := by rw [off63_eq]; unfold R0; rfl
    have hsub := chunk_subset L (k0_off63 L t) (k0_off63_inb L t k0_h16) (fun _ => rfl) (64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Aa]; · iexact Aa
    isplitl [Hb]; · iexists _; iexact Hb
    isplitl [Ho]
    · iexists _; isplitl [Ho]; · iexact Ho
      ipureintro
      have e : 64 * (t.val + 1) = 64 * t.val + 64 := by omega
      rw [e]
      refine done_step m d L _ _ _ (64 * t.val) hoff (by rw [off63_eq]; rfl) fo _ hD ?_
      refine hw_copy m d L (m (aLoc15 d)) (fun p q => by rw [hs]; rfl) (by rw [hs]) t.val htr _ _ _ hoff (by rw [off63_eq]; rfl)
        (fun y => (srcS15 L k0_h16 t).view.emb y) (fun y => ?_) _
        (fun y => (congrFun (rt fb _) y).trans ((View.read_apply (v := (srcS15 L k0_h16 t).view) _ y).trans (cast_eq _ _)))
      constructor
      · show k0_off62 L t 0 + 1 * (y 0).val = _; rw [off62_eq]; show 2048 * (L 0).val + 64 * t.val + 1 * (y 0).val = _; omega
      · show k0_off62 L t 1 + 1 * (y 1).val = _; rw [off62_eq]; show 0 + 1 * (y 1).val = _; omega
    isplitl [Hs0]; · iexact Hs0
    isplitl [Hs1]; · iexact Hs1
    iexists (insert (SemLoc.dma cc0_scoped61.sem, (default : HIx 1)) (insert (SemLoc.dma cc0_scoped60.sem, (default : HIx 1)) W')); isplitr
    · ipureintro; intro p hp
      rcases Finset.mem_insert.mp hp with hp | hp
      · exact .inr (hp ▸ rfl)
      rcases Finset.mem_insert.mp hp with hp | hp
      · exact .inr (hp ▸ rfl)
      · exact hW' p hp
    · iexact HO
  · unfold invC15
    isplitl [Hmw]; · iexact Hmw
    isplitl [Aa]; · iexact Aa
    isplitl [Hb']; · iexists _; iexact Hb'
    isplitl [Ho]
    · iexists _; isplitl [Ho]; · iexact Ho
      ipureintro; exact done_zero m d L _
    isplitl [Hs0]; · iexact Hs0
    isplitl [Hs1]; · iexact Hs1
    iexists W; isplitr
    · ipureintro; exact fun p hp => .inl hp
    · iexact HO
  iintro %_ HI
  unfold invC15
  icases HI with ⟨Hmw, Aa, ⟨%fb, Hb⟩, ⟨%fo, Ho, %hD⟩, Hs0, Hs1, %W1, %hW1, HO⟩
  have hDn : Done m d L (ncopy L) fo := by
    have h3 := ncopy_dvd L
    have e : 64 * (k0_t33_loop L).trips = ncopy L := by rw [trips33 L]; omega
    rw [← e]; exact hD
  sl_exec
  -- the remainder of the unrolling by one: no trips
  sl_for (fun (_ : Nat) (_ : PUnit) => (iprop(emp) : sProp 𝕄)) $$ []
  case region =>
    intro t _
    exact absurd t.isLt (by have h0 := trips34 L; change ¬ (t.val < (k0_t34_loop L).trips); omega)
  · iempintro
  iintro %_ -
  sl_exec
  -- the zero-filling loop
  sl_for (invF (F := F) m d L O W) $$ [Hmw Hz Ho Hs64 HO]
  case region =>
    intro t _
    unfold invF
    iintro ⟨Hmw, Hz, ⟨%fo, Ho, %hD⟩, Hs64, %W', %hW', HO⟩
    have hnc := ncopy_le L
    have htr : ncopy L + 64 * t.val + 64 ≤ 2048 := by
      have h1 := t.isLt; have h2 := trips35 L; obtain ⟨c, hc⟩ := ncopy_dvd L
      change t.val < (k0_t35_loop L).trips at h1
      rw [h2] at h1; omega
    have hoff : k0_off66 L t 0 = R0 L + (ncopy L + 64 * t.val) := by rw [off66_eq]; unfold R0; show _ + _ + _ + _ = _; omega
    have hsub := chunk_subset L (k0_off66 L t) (k0_off66_inb L t) (fun _ => rfl) (ncopy L + 64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Hz]; · iexact Hz
    isplitl [Ho]
    · iexists _; isplitl [Ho]; · iexact Ho
      ipureintro
      have e : ncopy L + 64 * (t.val + 1) = (ncopy L + 64 * t.val) + 64 := by omega
      rw [e]
      refine done_step m d L _ _ _ (ncopy L + 64 * t.val) hoff (by rw [off66_eq]; rfl) fo _ hD ?_
      exact hw_zero m d L t.val htr _ _ _ (by rw [hoff]; omega) _ (fun y => rfl)
    isplitl [Hs64]; · iexact Hs64
    iexists (insert (SemLoc.dma cc0_scoped64.sem, (default : HIx 1)) W'); isplitr
    · ipureintro; intro p hp
      rcases Finset.mem_insert.mp hp with hp | hp
      · exact .inr (hp ▸ rfl)
      · exact hW' p hp
    · iexact HO
  · unfold invF
    isplitl [Hmw]; · iexact Hmw
    isplitl [Hz]; · iexact Hz
    isplitl [Ho]
    · iexists _; isplitl [Ho]; · iexact Ho
      ipureintro; rw [Nat.mul_zero, Nat.add_zero]; exact hDn
    isplitl [Hs64]; · iexact Hs64
    iexists W1; isplitr
    · ipureintro; exact hW1
    · iexact HO
  iintro %_ HI
  unfold invF
  icases HI with ⟨Hmw, Hz, ⟨%fo2, Ho, %hD2⟩, Hs64, %W2, %hW2, HO⟩
  have hAll : Done m d L 2048 fo2 := by
    have hnc := ncopy_le L
    obtain ⟨c, hc⟩ := ncopy_dvd L
    have e : ncopy L + 64 * (k0_t35_loop L).trips = 2048 := by rw [trips35 L]; omega
    rw [← e]; exact hD2
  sl_exec
  sl_for (fun (_ : Nat) (_ : PUnit) => (iprop(emp) : sProp 𝕄)) $$ []
  case region =>
    intro t _
    exact absurd t.isLt (by have h0 := trips36 L; change ¬ (t.val < (k0_t36_loop L).trips); omega)
  · iempintro
  iintro %_ -
  sl_exec
  sl_step
  -- hand everything back
  isplitl [A0 A1 A2 A3 A4 A5 A6 A7 A8 A9 A10 A11 A12 A13 A14 Aa Ho]
  · isplitl [A0 A1 A2 A3 A4 A5 A6 A7 A8 A9 A10 A11 A12 A13 A14 Aa]
    ·
      isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [A12]; · iexact A12
      isplitl [A13]; · iexact A13
      isplitl [A14]; · iexact A14
      iapply (Entails.of_eq (pts_a15 (F := F) d L _ _)); iexact Aa
    · iapply (Entails.of_eq (pointsTo_congr (ℓ := oLoc d) (done_all m d L fo2 hAll))); iexact Ho
  isplitl [Hb Hz Hbufs]
  · isplitl [Hb]; · iexists _; iapply (Entails.of_eq (pts_b (F := F) d L _)); iexact Hb
    isplitl [Hz]; · iexists _; iapply (Entails.of_eq (pts_z (F := F) d L _)); iexact Hz
    iexact Hbufs
  isplitl [Hs0 Hs1 Hs64 Hsems]
  · isplitl [Hs0]; · iexact Hs0
    isplitl [Hs1]; · iexact Hs1
    isplitl [Hs64]; · iexact Hs64
    iexact Hsems
  iexists W2; isplitr
  · ipureintro; exact hW2
  · iexact HO

end Cert.Proof.KB

end
-- ==== Proof.KBTileAll.lean ====
/-
  The task at any grid point: its subcore number is one of sixteen, and each has its proof.
-/
import proofs.«212850_g39865886441476_cont_8to1_b_277_5_alg».proof.Proof.KBTile0
import proofs.«212850_g39865886441476_cont_8to1_b_277_5_alg».proof.Proof.KBTile1
import proofs.«212850_g39865886441476_cont_8to1_b_277_5_alg».proof.Proof.KBTile2
import proofs.«212850_g39865886441476_cont_8to1_b_277_5_alg».proof.Proof.KBTile3
import proofs.«212850_g39865886441476_cont_8to1_b_277_5_alg».proof.Proof.KBTile4
import proofs.«212850_g39865886441476_cont_8to1_b_277_5_alg».proof.Proof.KBTile5
import proofs.«212850_g39865886441476_cont_8to1_b_277_5_alg».proof.Proof.KBTile6
import proofs.«212850_g39865886441476_cont_8to1_b_277_5_alg».proof.Proof.KBTile7
import proofs.«212850_g39865886441476_cont_8to1_b_277_5_alg».proof.Proof.KBTile8
import proofs.«212850_g39865886441476_cont_8to1_b_277_5_alg».proof.Proof.KBTile9
import proofs.«212850_g39865886441476_cont_8to1_b_277_5_alg».proof.Proof.KBTile10
import proofs.«212850_g39865886441476_cont_8to1_b_277_5_alg».proof.Proof.KBTile11
import proofs.«212850_g39865886441476_cont_8to1_b_277_5_alg».proof.Proof.KBTile12
import proofs.«212850_g39865886441476_cont_8to1_b_277_5_alg».proof.Proof.KBTile13
import proofs.«212850_g39865886441476_cont_8to1_b_277_5_alg».proof.Proof.KBTile14
import proofs.«212850_g39865886441476_cont_8to1_b_277_5_alg».proof.Proof.KBTile15

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

variable (m : (ℓ : Loc nD τ sig) → Buf (Elt F) ℓ) (d : Dev nD)

theorem tile_body (hF : (K (F := F)).Facts) (L : grid0.Coords) (O : CellTallies nD τ sig (HIx 1)) (W : Waits sig (HIx 1)) (hO : ∀ g, O g none = 0) :
    TileSpec m d L O W := by
  have h := coord1_lt L
  rcases (by omega : (L 1).val = 0 ∨ (L 1).val = 1 ∨ (L 1).val = 2 ∨ (L 1).val = 3 ∨ (L 1).val = 4 ∨ (L 1).val = 5 ∨ (L 1).val = 6 ∨ (L 1).val = 7 ∨ (L 1).val = 8 ∨ (L 1).val = 9 ∨ (L 1).val = 10 ∨ (L 1).val = 11 ∨ (L 1).val = 12 ∨ (L 1).val = 13 ∨ (L 1).val = 14 ∨ (L 1).val = 15) with hs | hs | hs | hs | hs | hs | hs | hs | hs | hs | hs | hs | hs | hs | hs | hs
  · exact tile_s0 m d hF L hs O W hO
  · exact tile_s1 m d hF L hs O W hO
  · exact tile_s2 m d hF L hs O W hO
  · exact tile_s3 m d hF L hs O W hO
  · exact tile_s4 m d hF L hs O W hO
  · exact tile_s5 m d hF L hs O W hO
  · exact tile_s6 m d hF L hs O W hO
  · exact tile_s7 m d hF L hs O W hO
  · exact tile_s8 m d hF L hs O W hO
  · exact tile_s9 m d hF L hs O W hO
  · exact tile_s10 m d hF L hs O W hO
  · exact tile_s11 m d hF L hs O W hO
  · exact tile_s12 m d hF L hs O W hO
  · exact tile_s13 m d hF L hs O W hO
  · exact tile_s14 m d hF L hs O W hO
  · exact tile_s15 m d hF L hs O W hO

end Cert.Proof.KB

end
-- ==== Proof.KBTileObl.lean ====
/-
  The padding kernel's task in the form the launch asks for.

  The launch runs the kernel's body on subcore `i` of SparseCore `c` of the call's grid, at the grid point `(c, i)`,
  handing it that subcore's share of the sixteen sequences and block `2 i + c` of the flat output, and asks for the
  shares back with the block at the padded array. That is the task's specification at the grid point `(c, i)`; the
  only difference is that the launch lets a returned wait belong to the call, which a task that leaves only waits of
  no call satisfies.
-/
import proofs.«212850_g39865886441476_cont_8to1_b_277_5_alg».proof.Proof.KBTileCommon

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)

/-- The grid point of subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- On a vector subcore the kernel's label runs its body at the subcore's grid point, on the whole arrays and the
    subcore's scratch. -/
theorem defs₀_vector (c : Fin τ.nSC) (s : Fin τ.nSub) :
    defs₀ (F := F) (.scVector c s) 0 ()
      = SparseCore.onTile hcore0 hsub0 (fun c s => cc0__pad_body (coordsV c s)
          (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_arg4_scv) (Memref.isWhole_whole _) (Memref.whole main_arg5_scv) (Memref.isWhole_whole _) (Memref.whole main_arg6_scv) (Memref.isWhole_whole _) (Memref.whole main_arg7_scv) (Memref.isWhole_whole _) (Memref.whole main_arg8_scv) (Memref.isWhole_whole _) (Memref.whole main_arg9_scv) (Memref.isWhole_whole _) (Memref.whole main_arg10_scv) (Memref.isWhole_whole _) (Memref.whole main_arg11_scv) (Memref.isWhole_whole _) (Memref.whole main_arg12_scv) (Memref.isWhole_whole _) (Memref.whole main_arg13_scv) (Memref.isWhole_whole _) (Memref.whole main_arg14_scv) (Memref.isWhole_whole _) (Memref.whole main_arg15_scv) (Memref.isWhole_whole _) (Memref.whole main_v0_scv) (Memref.isWhole_whole _) (Memref.whole cc0_scratch0) (Memref.isWhole_whole _) (Memref.whole cc0_scratch1) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65) ⟨⟩ c s := rfl

omit [FloatOps F] in
/-- Waits of no call are, in particular, waits of no call or of this one. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The launch's obligation for the kernel's tasks, from the task's specification at every grid point. -/
theorem tileObl (hF : (K (F := F)).Facts)
    (hbody : ∀ (d : Dev nD) (L : grid0.Coords) (O : CellTallies nD τ sig (HIx 1)) (W : Waits sig (HIx 1)),
      (∀ g, O g none = 0) → TileSpec m d L O W) :
    (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact BI.Entails.trans (hbody d (coordsV ⟨_, hc.1⟩ ⟨_, hc.2⟩) O W hO) (wp_mono frame _ _ fun _ => obl_post)

end Cert.Proof.KB

end
-- ==== Proof.KBSplit.lean ====
/-
  How a SparseCore's operands split among its sixteen tasks, and its results gather from theirs.

  The read share of each of the sixteen sequences handed to the SparseCore is cut into sixteen read shares, one per
  task, and a remainder that stays behind until the tasks return theirs; the SparseCore's sixteen blocks of the output
  go one to each task and come back at the padded array.
-/
import proofs.«212850_g39865886441476_cont_8to1_b_277_5_alg».proof.Proof.KBSetup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable (m : (ℓ : Loc nD τ sig) → Buf (Elt F) ℓ)

/-- Every sequence's share `q` cut into `n` read shares and what is left of `q`. -/
theorem argsAt_split (q : PosShare TreeShare) (n : ℕ) (d : Dev nD) :
    (argsAt m q d : sProp 𝕄)
      ⊢ iprop(argsAt m (Transfers.shareDrop q n) d ∗ bigSep Finset.univ fun i : Fin n => argsAt m (Transfers.shareTok q n i) d) := by
  unfold argsAt
  simp only [bigSep_sep']
  iintro ⟨H0, H1, H2, H3, H4, H5, H6, H7, H8, H9, H10, H11, H12, H13, H14, H15⟩
  ihave H0 := (Transfers.pointsTo_toks_split q n) $$ H0
  icases H0 with ⟨D0, T0⟩
  ihave H1 := (Transfers.pointsTo_toks_split q n) $$ H1
  icases H1 with ⟨D1, T1⟩
  ihave H2 := (Transfers.pointsTo_toks_split q n) $$ H2
  icases H2 with ⟨D2, T2⟩
  ihave H3 := (Transfers.pointsTo_toks_split q n) $$ H3
  icases H3 with ⟨D3, T3⟩
  ihave H4 := (Transfers.pointsTo_toks_split q n) $$ H4
  icases H4 with ⟨D4, T4⟩
  ihave H5 := (Transfers.pointsTo_toks_split q n) $$ H5
  icases H5 with ⟨D5, T5⟩
  ihave H6 := (Transfers.pointsTo_toks_split q n) $$ H6
  icases H6 with ⟨D6, T6⟩
  ihave H7 := (Transfers.pointsTo_toks_split q n) $$ H7
  icases H7 with ⟨D7, T7⟩
  ihave H8 := (Transfers.pointsTo_toks_split q n) $$ H8
  icases H8 with ⟨D8, T8⟩
  ihave H9 := (Transfers.pointsTo_toks_split q n) $$ H9
  icases H9 with ⟨D9, T9⟩
  ihave H10 := (Transfers.pointsTo_toks_split q n) $$ H10
  icases H10 with ⟨D10, T10⟩
  ihave H11 := (Transfers.pointsTo_toks_split q n) $$ H11
  icases H11 with ⟨D11, T11⟩
  ihave H12 := (Transfers.pointsTo_toks_split q n) $$ H12
  icases H12 with ⟨D12, T12⟩
  ihave H13 := (Transfers.pointsTo_toks_split q n) $$ H13
  icases H13 with ⟨D13, T13⟩
  ihave H14 := (Transfers.pointsTo_toks_split q n) $$ H14
  icases H14 with ⟨D14, T14⟩
  ihave H15 := (Transfers.pointsTo_toks_split q n) $$ H15
  icases H15 with ⟨D15, T15⟩
  isplitl [D0 D1 D2 D3 D4 D5 D6 D7 D8 D9 D10 D11 D12 D13 D14 D15]
  · isplitl [D0]; · iexact D0
    isplitl [D1]; · iexact D1
    isplitl [D2]; · iexact D2
    isplitl [D3]; · iexact D3
    isplitl [D4]; · iexact D4
    isplitl [D5]; · iexact D5
    isplitl [D6]; · iexact D6
    isplitl [D7]; · iexact D7
    isplitl [D8]; · iexact D8
    isplitl [D9]; · iexact D9
    isplitl [D10]; · iexact D10
    isplitl [D11]; · iexact D11
    isplitl [D12]; · iexact D12
    isplitl [D13]; · iexact D13
    isplitl [D14]; · iexact D14
    iexact D15
  isplitl [T0]; · iexact T0
  isplitl [T1]; · iexact T1
  isplitl [T2]; · iexact T2
  isplitl [T3]; · iexact T3
  isplitl [T4]; · iexact T4
  isplitl [T5]; · iexact T5
  isplitl [T6]; · iexact T6
  isplitl [T7]; · iexact T7
  isplitl [T8]; · iexact T8
  isplitl [T9]; · iexact T9
  isplitl [T10]; · iexact T10
  isplitl [T11]; · iexact T11
  isplitl [T12]; · iexact T12
  isplitl [T13]; · iexact T13
  isplitl [T14]; · iexact T14
  iexact T15

/-- and put back together. -/
theorem argsAt_join (q : PosShare TreeShare) (n : ℕ) (d : Dev nD) :
    iprop(argsAt m (Transfers.shareDrop q n) d ∗ bigSep Finset.univ fun i : Fin n => argsAt m (Transfers.shareTok q n i) d)
      ⊢ (argsAt m q d : sProp 𝕄) := by
  unfold argsAt
  simp only [bigSep_sep']
  iintro ⟨⟨D0, D1, D2, D3, D4, D5, D6, D7, D8, D9, D10, D11, D12, D13, D14, D15⟩, T0, T1, T2, T3, T4, T5, T6, T7, T8, T9, T10, T11, T12, T13, T14, T15⟩
  isplitl [D0 T0]
  · iapply (Transfers.pointsTo_toks_join q n); isplitl [D0] <;> iassumption
  isplitl [D1 T1]
  · iapply (Transfers.pointsTo_toks_join q n); isplitl [D1] <;> iassumption
  isplitl [D2 T2]
  · iapply (Transfers.pointsTo_toks_join q n); isplitl [D2] <;> iassumption
  isplitl [D3 T3]
  · iapply (Transfers.pointsTo_toks_join q n); isplitl [D3] <;> iassumption
  isplitl [D4 T4]
  · iapply (Transfers.pointsTo_toks_join q n); isplitl [D4] <;> iassumption
  isplitl [D5 T5]
  · iapply (Transfers.pointsTo_toks_join q n); isplitl [D5] <;> iassumption
  isplitl [D6 T6]
  · iapply (Transfers.pointsTo_toks_join q n); isplitl [D6] <;> iassumption
  isplitl [D7 T7]
  · iapply (Transfers.pointsTo_toks_join q n); isplitl [D7] <;> iassumption
  isplitl [D8 T8]
  · iapply (Transfers.pointsTo_toks_join q n); isplitl [D8] <;> iassumption
  isplitl [D9 T9]
  · iapply (Transfers.pointsTo_toks_join q n); isplitl [D9] <;> iassumption
  isplitl [D10 T10]
  · iapply (Transfers.pointsTo_toks_join q n); isplitl [D10] <;> iassumption
  isplitl [D11 T11]
  · iapply (Transfers.pointsTo_toks_join q n); isplitl [D11] <;> iassumption
  isplitl [D12 T12]
  · iapply (Transfers.pointsTo_toks_join q n); isplitl [D12] <;> iassumption
  isplitl [D13 T13]
  · iapply (Transfers.pointsTo_toks_join q n); isplitl [D13] <;> iassumption
  isplitl [D14 T14]
  · iapply (Transfers.pointsTo_toks_join q n); isplitl [D14] <;> iassumption
  iapply (Transfers.pointsTo_toks_join q n); isplitl [D15] <;> iassumption

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show iprop(argsAt m (shC (Fin.cast nCore_zero c)) d ∗ bigSep Finset.univ fun s : Fin 16 => oLoc d ↦[blkSet (bIx (Fin.cast nCore_zero c) s)]{fullShare} m (oLoc d))
    ⊢ |={Set.univ}=> iprop(
      (bigSep Finset.univ fun i : Fin ((K (F := F)).nSub 0) =>
        iprop(argsAt m (shT (Fin.cast nCore_zero c) (Fin.cast nSub_zero i)) d ∗ oLoc d ↦[blkSet (bIx (Fin.cast nCore_zero c) (Fin.cast nSub_zero i))]{fullShare} m (oLoc d)))
      ∗ ((bigSep Finset.univ fun i : Fin ((K (F := F)).nSub 0) =>
          iprop(argsAt m (shT (Fin.cast nCore_zero c) (Fin.cast nSub_zero i)) d ∗ oLoc d ↦[blkSet (bIx (Fin.cast nCore_zero c) (Fin.cast nSub_zero i))]{fullShare} flat m d))
          -∗ iprop(argsAt m (shC (Fin.cast nCore_zero c)) d ∗ bigSep Finset.univ fun s : Fin 16 => oLoc d ↦[blkSet (bIx (Fin.cast nCore_zero c) s)]{fullShare} flat m d)))
  rw [bigSep_tasks (F := F) (fun i => iprop(argsAt m (shT (Fin.cast nCore_zero c) i) d ∗ oLoc d ↦[blkSet (bIx (Fin.cast nCore_zero c) i)]{fullShare} m (oLoc d))),
    bigSep_tasks (F := F) (fun i => iprop(argsAt m (shT (Fin.cast nCore_zero c) i) d ∗ oLoc d ↦[blkSet (bIx (Fin.cast nCore_zero c) i)]{fullShare} flat m d)),
    bigSep_sep', bigSep_sep']
  iintro ⟨Ha, Ho⟩
  ihave Ha' := (argsAt_split m (shC (Fin.cast nCore_zero c)) 16 d) $$ Ha
  icases Ha' with ⟨Hd, Ht⟩
  imodintro
  isplitl [Ht Ho]
  · isplitl [Ht]; · iexact Ht
    iexact Ho
  iintro ⟨Ht, Ho⟩
  isplitl [Hd Ht]
  · iapply (argsAt_join m (shC (Fin.cast nCore_zero c)) 16 d)
    isplitl [Hd]; · iexact Hd
    iexact Ht
  iexact Ho

end Cert.Proof.KB

end
-- ==== Proof.KBRun.lean ====
/-
  The padding kernel's program runs to the specification.

  Every weakly fair execution of the program terminates with the stacked `16 × 4096 × 512` array at the padded
  sequences, the mask at the specification's, and the sixteen argument arrays unchanged: the launch of the call on
  the vector subcores, given each task's specification at its grid point and the split of the call's operands into
  the tasks' shares and blocks.
-/
import proofs.«212850_g39865886441476_cont_8to1_b_277_5_alg».proof.Proof.KBLaunch
import proofs.«212850_g39865886441476_cont_8to1_b_277_5_alg».proof.Proof.KBTileAll
import proofs.«212850_g39865886441476_cont_8to1_b_277_5_alg».proof.Proof.KBTileObl
import proofs.«212850_g39865886441476_cont_8to1_b_277_5_alg».proof.Proof.KBSplit

noncomputable section

namespace Cert.Proof.KB

open Cert.Kernel Cert.Kernel.Gen
open Idealize.ShloMosaic Idealize.SL.Sem

variable {F : FTy → Type} [FloatOps F]

/-- Every weakly fair execution of the program terminates at the specification's two arrays of the arguments, the
    arguments unchanged. -/
theorem run [∀ e, Nonempty (Elt F e)] (m : (ℓ : Loc nD τ sig) → Buf (Elt F) ℓ) (ρ : Dev nD → PrngReg) :
    θ_run (Cert.Kernel.defs (F := F)) (Cert.Kernel.threads (F := F)) ⟨m, fun _ => 0, ρ⟩ (QC m) :=
  run_main m ρ (tileObl m facts fun d L O W hO => tile_body m d facts L O W hO) (vecSplit m)

end Cert.Proof.KB

end
-- ==== Proof.KISetup.lean ====
/-
  The padding kernel as its launch sees it, and what its threads hand one another.

  One call runs on 2 SparseCores x 16 vector subcores. Subcore `s` of SparseCore `c` writes block `2 s + c` of the
  32 blocks of 2048 rows the flat `65536 x 512` output is cut into (rows `4096 s + 2048 c` onwards): the first
  `n = clip (4096 - 256 s - 2048 c) 0 2048` of them rows `2048 c` onwards of sequence `s`, the rest zero. Each subcore is
  handed a read share of all sixteen sequences and its own block of the output whole, and hands back the same shares
  and its block at the padded array (`Cert.Spec.padFlat`).
-/
import proofs.«212850_g39865886441476_cont_8to1_b_277_5_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Transfers
import Idealize.ShloMosaic.Lib.Tactic
import proofs.«212850_g39865886441476_cont_8to1_b_277_5_alg».proof.Proof.Gen.KernelIdeal
import proofs.«212850_g39865886441476_cont_8to1_b_277_5_alg».proof.Proof.Gen.KernelIdeal.Skeleton
import proofs.«212850_g39865886441476_cont_8to1_b_277_5_alg».proof.Proof.Spec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the mask region's staging cells' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP; infer_instance

/-! ## The launch memory, the arrays, the blocks -/

variable (m : (ℓ : Loc nD τ sig) → Buf (Elt F) ℓ) (ρ : Dev nD → PrngReg)

abbrev aLoc0 (d : Dev nD) : Loc nD τ sig := (SparseCore.T d).loc main_arg0
abbrev aLoc1 (d : Dev nD) : Loc nD τ sig := (SparseCore.T d).loc main_arg1
abbrev aLoc2 (d : Dev nD) : Loc nD τ sig := (SparseCore.T d).loc main_arg2
abbrev aLoc3 (d : Dev nD) : Loc nD τ sig := (SparseCore.T d).loc main_arg3
abbrev aLoc4 (d : Dev nD) : Loc nD τ sig := (SparseCore.T d).loc main_arg4
abbrev aLoc5 (d : Dev nD) : Loc nD τ sig := (SparseCore.T d).loc main_arg5
abbrev aLoc6 (d : Dev nD) : Loc nD τ sig := (SparseCore.T d).loc main_arg6
abbrev aLoc7 (d : Dev nD) : Loc nD τ sig := (SparseCore.T d).loc main_arg7
abbrev aLoc8 (d : Dev nD) : Loc nD τ sig := (SparseCore.T d).loc main_arg8
abbrev aLoc9 (d : Dev nD) : Loc nD τ sig := (SparseCore.T d).loc main_arg9
abbrev aLoc10 (d : Dev nD) : Loc nD τ sig := (SparseCore.T d).loc main_arg10
abbrev aLoc11 (d : Dev nD) : Loc nD τ sig := (SparseCore.T d).loc main_arg11
abbrev aLoc12 (d : Dev nD) : Loc nD τ sig := (SparseCore.T d).loc main_arg12
abbrev aLoc13 (d : Dev nD) : Loc nD τ sig := (SparseCore.T d).loc main_arg13
abbrev aLoc14 (d : Dev nD) : Loc nD τ sig := (SparseCore.T d).loc main_arg14
abbrev aLoc15 (d : Dev nD) : Loc nD τ sig := (SparseCore.T d).loc main_arg15
/-- The flat output, the SparseCore call's result. -/
abbrev oLoc (d : Dev nD) : Loc nD τ sig := (SparseCore.T d).loc main_v0

variable [FloatOps F]

/-- The padding value: the word `0x00000000` read as a float. -/
abbrev zF : F .f32 := Scalar.ofBits .f32 0x00000000#32

/-- The padded sequences, flat: what the call leaves in its result. -/
def flat (d : Dev nD) : Buf (Elt F) (oLoc d) :=
  Cert.Spec.padFlat (zF (F := F)) (m (aLoc0 d)) (m (aLoc1 d)) (m (aLoc2 d)) (m (aLoc3 d)) (m (aLoc4 d)) (m (aLoc5 d)) (m (aLoc6 d)) (m (aLoc7 d)) (m (aLoc8 d)) (m (aLoc9 d)) (m (aLoc10 d)) (m (aLoc11 d)) (m (aLoc12 d)) (m (aLoc13 d)) (m (aLoc14 d)) (m (aLoc15 d))

/-- All sixteen sequences at their launch contents, each at share `q`. -/
def argsAt (q : PosShare TreeShare) (d : Dev nD) : sProp 𝕄 :=
  iprop((aLoc0 d ↦{q} m (aLoc0 d)) ∗ (aLoc1 d ↦{q} m (aLoc1 d)) ∗ (aLoc2 d ↦{q} m (aLoc2 d)) ∗ (aLoc3 d ↦{q} m (aLoc3 d)) ∗ (aLoc4 d ↦{q} m (aLoc4 d)) ∗ (aLoc5 d ↦{q} m (aLoc5 d)) ∗ (aLoc6 d ↦{q} m (aLoc6 d)) ∗ (aLoc7 d ↦{q} m (aLoc7 d)) ∗ (aLoc8 d ↦{q} m (aLoc8 d)) ∗ (aLoc9 d ↦{q} m (aLoc9 d)) ∗ (aLoc10 d ↦{q} m (aLoc10 d)) ∗ (aLoc11 d ↦{q} m (aLoc11 d)) ∗ (aLoc12 d ↦{q} m (aLoc12 d)) ∗ (aLoc13 d ↦{q} m (aLoc13 d)) ∗ (aLoc14 d ↦{q} m (aLoc14 d)) ∗ (aLoc15 d ↦{q} m (aLoc15 d)))

theorem hdiv32 : 32 ∣ S65536x512.size 0 := ⟨2048, rfl⟩
/-- Block `b` of the 32 blocks of 2048 rows. -/
abbrev blk (b : Fin 32) : Rect S65536x512 := Rect.part (s := S65536x512) (a₀ := 0) hdiv32 b
abbrev blkSet (b : Fin 32) : Finset S65536x512.Idx := (blk b).set
/-- The block of subcore `s` of SparseCore `c`. -/
def bIx (c : Fin 2) (s : Fin 16) : Fin 32 := ⟨2 * s.val + c.val, by omega⟩

/-- The share of the sequences SparseCore `c` is handed, and subcore `s` of it. -/
abbrev shC (c : Fin 2) : PosShare TreeShare := Transfers.shareTok fullShare 2 c
abbrev shT (c : Fin 2) (s : Fin 16) : PosShare TreeShare := Transfers.shareTok (shC c) 16 s

/-! ## What the handshakes carry -/

def P : (K (F := F)).Pay (nD := nD) (Val := Elt F) (Name := ℕ) (U := UU) where
  st := fun q d c => match q with
    | 0 => iprop(argsAt m (shC (Fin.cast nCore_zero c)) d ∗ bigSep Finset.univ fun s : Fin 16 => oLoc d ↦[blkSet (bIx (Fin.cast nCore_zero c) s)]{fullShare} m (oLoc d))
  dn := fun q d c => match q with
    | 0 => iprop(argsAt m (shC (Fin.cast nCore_zero c)) d ∗ bigSep Finset.univ fun s : Fin 16 => oLoc d ↦[blkSet (bIx (Fin.cast nCore_zero c) s)]{fullShare} flat m d)
  go := fun q d c i => match q with
    | 0 => iprop(argsAt m (shT (Fin.cast nCore_zero c) (Fin.cast nSub_zero i)) d ∗ oLoc d ↦[blkSet (bIx (Fin.cast nCore_zero c) (Fin.cast nSub_zero i))]{fullShare} m (oLoc d))
  td := fun q d c i => match q with
    | 0 => iprop(argsAt m (shT (Fin.cast nCore_zero c) (Fin.cast nSub_zero i)) d ∗ oLoc d ↦[blkSet (bIx (Fin.cast nCore_zero c) (Fin.cast nSub_zero i))]{fullShare} flat m d)
  x := fun _ _ => iprop(emp)

instance argsAt_storable (q : PosShare TreeShare) (d : Dev nD) : BI.Storable (upEmb : UEmb _ 𝕄) (argsAt m q d) := by
  unfold argsAt; infer_instance

instance P_storable : (P (F := F) m).IsStorable where
  st q d c := match q with | 0 => by unfold P; dsimp only; infer_instance
  dn q d c := match q with | 0 => by unfold P; dsimp only; infer_instance
  go q d c i := match q with | 0 => by unfold P; dsimp only; infer_instance
  td q d c i := match q with | 0 => by unfold P; dsimp only; infer_instance

end Cert.Proof.KI

end
-- ==== Proof.KIMask.lean ====
/-
  The mask region of the padding program: a pipelined call with no grid and one window, its result, staged whole.

  The body reads its staging buffer (the value is not used) and overwrites it with the mask words: word `(s, p)` is
  one exactly when `4096 − 256·s ≤ p`, as 32-bit signed words. The pipeline then writes the buffer back over the
  whole result array. Stated here: the body's run on a whole staging buffer; the region's proof data (the array as
  entered, the buffer left at the mask words, nothing owed, no invariant of the body's own); that the one
  write-back covers the array, so that it ends at the mask words; and the region as a segment of the TensorCore's
  program, entered with the array at any launch contents and nothing owed, left with the array at the mask words.
  The region runs after the program's one SparseCore call: the TensorCore then owes no signal, and the pairs its
  waits have recorded all sit at the first call's levels, which the staging cell's own wait (level zero) keeps.
-/
import proofs.«212850_g39865886441476_cont_8to1_b_277_5_alg».proof.Proof.KISetup
import proofs.«212850_g39865886441476_cont_8to1_b_277_5_alg».proof.Proof.Gen.KernelIdeal.Launch
import proofs.«212850_g39865886441476_cont_8to1_b_277_5_alg».proof.Proof.Gen.KernelIdeal.Points
import Idealize.ShloMosaic.Lib.Pipeline.Regions
import Idealize.ShloMosaic.Lib.Tactic
import Idealize.ShloMosaic.Lib.Pipeline.Value

noncomputable section

namespace Cert.Proof.KI

open Cert.KernelIdeal Cert.KernelIdeal.Gen
open Idealize.ShloMosaic
open Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)

abbrev adm : (p : Fin 1) → (pcfgs (F := F) p).Adm := fun p => (cfgs p).toPCfg_adm

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The full rectangle at offset zero embeds an index as itself. -/
theorem unit00_emb (x : (Rect.unit (s := S16x4096) ![0, 0] S16x4096.size inb_S16x4096_S16x4096_0_0).shape.Idx) :
    (Rect.unit (s := S16x4096) ![0, 0] S16x4096.size inb_S16x4096_S16x4096_0_0).emb x = x := by
  funext a; apply Fin.ext; rw [Rect.emb_apply]
  fin_cases a <;> simp [Rect.unit]

/-- The mask kernel's body on its staging buffer: the buffer is read and then overwritten whole with the mask words. -/
theorem maskRun (c : Dev nD) (M0 : Memref sig .tc .vmem S16x4096 .i32) (h0 : M0.IsWhole)
    (f0 : Bf (F := F) c M0) (W : Waits sig (HIx 1)) (Q : PUnit → sProp 𝕄) :
    iprop(pt c M0 f0 ∗ owes (c : Thread nD τ) 0 W
      ∗ (iprop((∃ f, ⌜M0.view.read (Elt F) f = k1_pay1⌝ ∗ pt c M0 f) ∗ owes (c : Thread nD τ) 0 W) -∗ Q ⟨⟩))
    ⊢ wp frame (wpE (defs₀ (F := F)) Variants.none c none) Set.univ (cc1__mask_body M0 h0) Q := by
  rw [cc1__mask_body_eq_skeleton]; unfold cc1__mask_body_skel
  iintro ⟨H0, HO, Hk⟩
  sl_exec
  sl_step
  iapply Hk
  isplitl [H0]
  · iexists _; isplitr; swap; (· iexact H0)
    ipureintro
    funext y
    refine View.read_writes_apply_of_pieces (v := M0.view) (f := f0) k1_pay1 _ ?_ y ?_
    · intro p hp x
      rw [List.mem_singleton] at hp; subst hp
      exact congrArg k1_pay1 (unit00_emb x).symm
    · refine ⟨⟨Rect.unit (s := S16x4096) ![0, 0] S16x4096.size inb_S16x4096_S16x4096_0_0, k1_pay1⟩, List.mem_singleton_self _, (Rect.mem_set_unit (inb := inb_S16x4096_S16x4096_0_0)).mpr fun a => ?_⟩
      have h := (y a).isLt
      fin_cases a
      · exact ⟨by simp, by simpa using h⟩
      · exact ⟨by simp, by simpa using h⟩
  iexact HO

/-- The pairs a TensorCore's waits may have recorded once its one SparseCore call is over: those at the first call's levels. -/
def recB (c : Dev nD) : Set (SemLoc sig × HIx 1) := {p | (K (F := F)).lev ((c : Thread nD τ), p.1) p.2 ≤ 8}

/-- The mask words as the contents of the result's array. -/
abbrev maskWords (c : Dev nD) : Buf (Elt F) ((c : Thread nD τ).loc main_v2) := k1_pay1

/-- The mask region's proof data on core `c`: the array as launched; the staging buffer left at the mask words;
    no invariant of the body's own; nothing owed; the recorded pairs within the first call's. -/
def dats (_ : Fin 1) (c : Dev nD) : Dat τ (Elt F) (HIx 1) ℕ UU ℕ cfg1 c where
  A w := m ((cfg1.win w).arr.view.loc (c : Thread nD τ))
  after w _ := match w with | ⟨0, _⟩ => k1_pay1
  Φ _ := iprop(emp)
  q _ := fullShare
  owed _ := 0
  recorded _ := recB (F := F) c

theorem body_obligation (c : Dev nD) : BodyObligation (dats m 0 c) (defs₀ (F := F)) 𝒱₀ (none : HIx 1) Set.univ := fun t => by
  obtain rfl := fin_N1 t
  rw [bigSep_W1, bigSep_W1]
  simp only [owns_whole_eq]
  rw [show (dats m 0 c).Φ t1_0.castSucc = iprop(emp) from rfl, show (dats m 0 c).Φ t1_0.succ = iprop(emp) from rfl]
  unfold Dat.owesAt Pipeline.owesWithin
  rw [show (dats m 0 c).owed t1_0.castSucc = 0 from rfl, show (dats m 0 c).owed t1_0.succ = 0 from rfl]
  iintro ⟨-, ⟨%W, %hW, HO⟩, ⟨%d0, %f0, %hf0, H0⟩⟩
  iapply (maskRun c (stage1_0 0) (hstage1_0 0) f0 W)
  isplitl [H0]; · iexact H0
  isplitl [HO]; · iexact HO
  iintro ⟨⟨%f, %hf, H0⟩, HO⟩
  isplitr; · iempintro
  isplitl [HO]
  · iexists W; isplitr; · ipureintro; exact hW
    iexact HO
  iexists f; isplitr; swap; (· iexact H0)
  ipureintro; dsimp only [dats]; exact hf

/-- The region owns no semaphore beside its staging cell's. -/
abbrev osem : Fin 0 → SemLoc sig := fun i => i.elim0
theorem ownSemFacts : Pipeline.OwnSemFacts spec1 osem := by decide

omit [FloatOps F] in
theorem ownSems0_eq (c : Dev nD) :
    (Pipeline.ownSems0 (Ix := HIx 1) (Name := ℕ) (U := UU) (Lvl := ℕ) (Val := Elt F) (τ := τ) osem c : sProp 𝕄) = iprop(emp) :=
  Pipeline.ownSems0_eq_of_list c osem [] (by decide) (by decide)

/-- The region's one array, at contents `G`. -/
theorem arrays_eq1 (c : Dev nD) (G : (w : Fin cfg1.W) → Buf (Elt F) ((cfg1.win w).arr.view.loc (c : Thread nD τ))) :
    ((dats m 0 c).arrays G : sProp 𝕄) = ((c : Thread nD τ).loc main_v2 ↦{fullShare} G 0) := by
  rw [Pipeline.arrays_eq (Pipeline.pin (pcfgs (F := F)) adm) (dats m) 0 c arr_whole1 ((dats m 0 c).share_full fun _ => rfl) G, bigSep_W1]

/-- After the region the array holds the mask words: the one point's write-back covers it. -/
theorem arrAt_end (c : Dev nD) : (dats m 0 c).arrAt 0 cfg1.N = maskWords c := by
  refine (dats m 0 c).arrAt_eq_of_cover 0 (maskWords c) ?_ ?_
  · intro t _
    obtain rfl := fin_N1 t
    funext y
    refine Eq.trans (b := k1_pay1 y) rfl ?_
    rw [View.read_apply]
    refine Eq.trans ?_ (b := k1_pay1 (((cfg1.win 0).blk t1_0).view.emb y)) rfl
    congr 1
    funext a; apply Fin.ext
    exact (Pipeline.Window.rect_emb_val_of_index_zero (cfg1.win 0) t1_0 a rfl y).symm
  · intro i
    refine ⟨t1_0, flush1_0 _, ?_⟩
    show i ∈ ((View.whole (main_v2 : Ref sig .tc)).slice ((cfg1.win 0).rect t1_0)).set
    rw [View.set_slice_whole, Rect.mem_set_unit]
    intro a
    have h : (i a : ℕ) < S16x4096.size a := (i a).isLt
    refine ⟨?_, ?_⟩
    · show 0 * S16x4096.size a ≤ (i a : ℕ); omega
    · show (i a : ℕ) < 0 * S16x4096.size a + S16x4096.size a; omega

/-- The levels the mask region's waits are checked against: the SparseCore launch's own. -/
abbrev LL : GSem nD τ sig → Finset (HIx 1) := (K (F := F)).L
abbrev lvv : GSem nD τ sig → HIx 1 → ℕ := (K (F := F)).lev

/-- What the TensorCore owes once its one SparseCore call is over — nothing —, its recorded pairs at the first call's levels. -/
abbrev owesT (c : Dev nD) : sProp 𝕄 :=
  iprop(∃ W, ⌜(K (F := F)).WBelow (c : Thread nD τ) W 8⌝ ∗ owes (c : Thread nD τ) (0 : CellTallies nD τ sig (HIx 1)) W)

set_option backward.isDefEq.respectTransparency.types false in
/-- The mask region: entered with the result's array at its launch contents and nothing owed; left with the array
    at the mask words. Nothing of the kernel's own enters the pipeline's invariant. -/
def reg0 : Pipeline.RegionSeg (pcfgs (F := F)) adm (dats m) (none : HIx 1) defs₀ 𝒱₀ (LL (F := F)) (lvv (F := F)) 0 where
  win := launch1.win.to₀
  block_pos := launch1.block_pos
  stage_whole := launch1.stage_whole
  K := Fin 0
  osem := osem
  ho := ownSemFacts
  hbody c := (body_obligation m c).loose
  hwaits := Pipeline.hwaits_of_owed_zero _ _ _ _ (LL (F := F)) (lvv (F := F)) 0 fun _ _ => rfl
  pre c := iprop(((c : Thread nD τ).loc main_v2 ↦{fullShare} m ((c : Thread nD τ).loc main_v2)) ∗ owesT c)
  post c := iprop(((c : Thread nD τ).loc main_v2 ↦{fullShare} maskWords c) ∗ owesT c)
  X _ := iprop(emp)
  Y _ := iprop(emp)
  Z _ := iprop(emp)
  hentry c := by
    rw [arrays_eq1, ownSems0_eq]
    iintro ⟨⟨H2, ⟨%W, %hW, HO⟩⟩, -, -⟩
    imodintro
    isplitl [H2]; · iexact H2
    isplitr
    · unfold Pipeline.prefHeld; rw [show (Finset.univ : Finset (Fin 0)) = ∅ from rfl, BI.bigSep_empty]; iempintro
    isplitl [HO]
    · unfold Dat.owesAt Pipeline.owesWithin
      iexists W; isplitr; · ipureintro; exact fun p hp => Or.inl (hW p (Finset.mem_coe.mp hp))
      iexact HO
    isplitl <;> iempintro
  hin c := by
    rw [show (dats m 0 c).Φ 0 = iprop(emp) from rfl]
    iintro -; iempintro
  hout c := by
    rw [ownSems0_eq, scopedRest1_eq, show (dats m 0 c).Φ (Fin.last cfg1.N) = iprop(emp) from rfl]
    iintro -
    isplitl; · iempintro
    isplitl <;> iempintro
  hexit c := by
    have e : ((dats m 0 c).arrays ((dats m 0 c).arrAt · (Pipeline.pin (pcfgs (F := F)) adm 0).N) : sProp 𝕄)
        = ((c : Thread nD τ).loc main_v2 ↦{fullShare} maskWords c) := by
      rw [arrays_eq1]; exact congrArg (fun f => ((c : Thread nD τ).loc main_v2 ↦{fullShare} f : sProp 𝕄)) (arrAt_end m c)
    rw [e]
    iintro ⟨H2, HO, -, -⟩
    imodintro
    isplitl [H2]; · iexact H2
    unfold Dat.owesAt Pipeline.owesWithin
    icases HO with ⟨%W, %hW, HO⟩
    iexists W; isplitr; swap; (· iexact HO)
    ipureintro
    intro p hp
    rcases hW (Finset.mem_coe.mpr hp) with h | ⟨w, s, rfl⟩
    · exact h
    · exact Nat.zero_le _

theorem reg0_pre (c : Dev nD) :
    (reg0 m).pre c = iprop(((c : Thread nD τ).loc main_v2 ↦{fullShare} m ((c : Thread nD τ).loc main_v2)) ∗ owesT c) := rfl
theorem reg0_post (c : Dev nD) :
    (reg0 m).post c = iprop(((c : Thread nD τ).loc main_v2 ↦{fullShare} maskWords c) ∗ owesT c) := rfl

end Cert.Proof.KI

end
-- ==== Proof.KILaunch.lean ====
/-
  The padding program's launch: its run from a memory with zero counters.

  @main on each TensorCore is one SparseCore call (2 SparseCores x 16 vector subcores write the flat padded array),
  a reshape of the flat array to `16 × 4096 × 512`, one pipelined TensorCore call that writes the mask words, and
  four host operations that compare the words with zero. The run is the SparseCore launch theorem's: the call hands
  each SparseCore a read share of the sixteen sequences and its sixteen blocks of the flat output, and takes the
  blocks back at the padded array; the shares of a sequence split three ways (one kept, one per SparseCore) and join
  again, the flat output splits into its thirty-two blocks of 2048 rows and joins again. The mask region is entered
  after the call, when the TensorCore owes no signal; its staging cell's rounds are funded at the launch beside the
  handshakes'. At the end the sixteen sequences are as launched, the first result is the padded sequences
  (`Cert.Spec.pad3`) and the second the padding mask (`Cert.Spec.mask2`). The vector subcores' task and the split of
  a SparseCore's operands among them are taken as hypotheses of the run.
-/
import proofs.«212850_g39865886441476_cont_8to1_b_277_5_alg».proof.Proof.KISetup
import proofs.«212850_g39865886441476_cont_8to1_b_277_5_alg».proof.Proof.KIMask
import proofs.«212850_g39865886441476_cont_8to1_b_277_5_alg».proof.Proof.SpecLayout
import proofs.«212850_g39865886441476_cont_8to1_b_277_5_alg».proof.Proof.MaskValue
import Idealize.ShloMosaic.Lib.StableHlo.Run

noncomputable section

namespace Cert.Proof.KI

open Cert.KernelIdeal Cert.KernelIdeal.Gen
open Idealize.ShloMosaic
open Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)

open Idealize.ShloMosaic.SparseCore (S V T)
open Idealize.ShloMosaic.SparseCore.Cfg (tileRest ownBufs ownSems0 ownCells ownRefs mem_ownCells mem_ownRefs)
open Idealize.ShloMosaic.StableHlo (held held_split held_sdiff_result wp_hlo_within)

variable (ρ : Dev nD → PrngReg)

/-! ## The launch element: the handshakes' rounds, the mask region's staging cell's rounds -/

def u₀ : UU := (initOf (K (F := F)).hsCells (K (F := F)).hsToks,
  (initOf (Pipeline.cells (nD := nD) (τ := τ) cfgs cellOf_inj) (Pipeline.launchToks (nD := nD) (τ := τ) cfgs cellOf_inj), 1))

/-- What the launch leaves each TensorCore for its mask region: the staging cell's ghost state and the duty tokens of
    the region's transfers. -/
abbrev G (c : Dev nD) : sProp 𝕄 :=
  iprop(Pipeline.cellsGhost (Pipeline.pin (pcfgs (F := F)) adm) EP 0 c ∗ Pipeline.toksInit (Pipeline.pin (pcfgs (F := F)) adm) EP 0 c)

omit [FloatOps F] in
theorem own_EP (x : UP) : (BI.own (((Emb.inl : Emb UP (UP × Counters)).trans embR) x) : sProp 𝕄) ⊢ BI.own (EP x) := by
  unfold EP; exact BI.Entails.refl _

omit [FloatOps F] in
theorem bigSep_emp' {I : Type} (s : Finset I) : (bigSep s fun _ => iprop(emp)) = (iprop(emp) : sProp 𝕄) := bigSep_emp_const s

omit [FloatOps F] in
theorem hG1 : (bigSep Finset.univ fun c : Dev nD => bigSep Finset.univ fun p : Fin 1 => Pipeline.cellsGhost (nD := nD) (τ := τ) cfgs EP p c)
    ⊢ (bigSep Finset.univ fun c : Dev nD => Pipeline.cellsGhost (Pipeline.pin (pcfgs (F := F)) adm) EP 0 c : sProp 𝕄) :=
  bigSep_mono fun c _ => Entails.of_eq (bigSep_W1 fun p => Pipeline.cellsGhost (nD := nD) (τ := τ) cfgs EP p c)
omit [FloatOps F] in
theorem hG2 : (bigSep Finset.univ fun c : Dev nD => bigSep Finset.univ fun p : Fin 1 => Pipeline.toksInit (nD := nD) (τ := τ) cfgs EP p c)
    ⊢ (bigSep Finset.univ fun c : Dev nD => Pipeline.toksInit (Pipeline.pin (pcfgs (F := F)) adm) EP 0 c : sProp 𝕄) :=
  bigSep_mono fun c _ => Entails.of_eq (bigSep_W1 fun p => Pipeline.toksInit (nD := nD) (τ := τ) cfgs EP p c)

theorem hu₀ : (ownU (u₀ (F := F)) : sProp 𝕄)
    ⊢ |={Set.univ}=> iprop(BI.own (EH (initOf (K (F := F)).hsCells (K (F := F)).hsToks)) ∗ (bigSep Finset.univ fun c : Dev nD => G (F := F) c)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave HR' := (own_pair_emb embR _ _) $$ HR
  icases HR' with ⟨HP, -⟩
  ihave HP' := (own_EP _) $$ HP
  imod (Pipeline.fund_ghost (nD := nD) (τ := τ) cfgs EP cellOf_inj) $$ HP' with ⟨Hg, Ht⟩
  imodintro
  isplitl [HH]; · iexact HH
  isplitl [Hg Ht]
  · rw [bigSep_sep']
    isplitl [Hg]
    · iapply (hG1 (F := F)); iexact Hg
    · iapply (hG2 (F := F)); iexact Ht
  · rw [show (bigSep Finset.univ fun thr : Thread nD τ => bigSep Finset.univ fun q : Fin 1 => (P (F := F) m).x q thr) = (iprop(emp) : sProp 𝕄) from by
      unfold P; dsimp only; rw [bigSep_congr fun _ _ => bigSep_emp' _, bigSep_emp']]
    iempintro

/-! ## The TensorCore's arrays, the shares of the sequences, the blocks of the flat output -/

/-- The padded sequences as the `16 × 4096 × 512` result. -/
def pad3m (d : Dev nD) : Buf (Elt F) ((SparseCore.T d : Thread nD τ).loc main_v1) :=
  Cert.Spec.pad3 (zF (F := F)) (m (aLoc0 d)) (m (aLoc1 d)) (m (aLoc2 d)) (m (aLoc3 d)) (m (aLoc4 d)) (m (aLoc5 d)) (m (aLoc6 d)) (m (aLoc7 d)) (m (aLoc8 d)) (m (aLoc9 d)) (m (aLoc10 d)) (m (aLoc11 d)) (m (aLoc12 d)) (m (aLoc13 d)) (m (aLoc14 d)) (m (aLoc15 d))

omit [FloatOps F] in
/-- The TensorCore's unscoped arrays, listed: the sixteen sequences, the flat output, the two results and the mask's
    intermediate arrays. -/
theorem unscoped_eq (d : Dev nD) (W : (b : Ref sig .tc) → Buf (Elt F) ((d.tc : Thread nD τ).loc b)) :
    (unscopedBufs d W : sProp 𝕄) = iprop(((d.tc : Thread nD τ).loc main_arg0 ↦{fullShare} W main_arg0) ∗ ((d.tc : Thread nD τ).loc main_arg1 ↦{fullShare} W main_arg1) ∗ ((d.tc : Thread nD τ).loc main_arg2 ↦{fullShare} W main_arg2) ∗ ((d.tc : Thread nD τ).loc main_arg3 ↦{fullShare} W main_arg3) ∗ ((d.tc : Thread nD τ).loc main_arg4 ↦{fullShare} W main_arg4) ∗ ((d.tc : Thread nD τ).loc main_arg5 ↦{fullShare} W main_arg5) ∗ ((d.tc : Thread nD τ).loc main_arg6 ↦{fullShare} W main_arg6) ∗ ((d.tc : Thread nD τ).loc main_arg7 ↦{fullShare} W main_arg7) ∗ ((d.tc : Thread nD τ).loc main_arg8 ↦{fullShare} W main_arg8) ∗ ((d.tc : Thread nD τ).loc main_arg9 ↦{fullShare} W main_arg9) ∗ ((d.tc : Thread nD τ).loc main_arg10 ↦{fullShare} W main_arg10) ∗ ((d.tc : Thread nD τ).loc main_arg11 ↦{fullShare} W main_arg11) ∗ ((d.tc : Thread nD τ).loc main_arg12 ↦{fullShare} W main_arg12) ∗ ((d.tc : Thread nD τ).loc main_arg13 ↦{fullShare} W main_arg13) ∗ ((d.tc : Thread nD τ).loc main_arg14 ↦{fullShare} W main_arg14) ∗ ((d.tc : Thread nD τ).loc main_arg15 ↦{fullShare} W main_arg15) ∗ ((d.tc : Thread nD τ).loc main_v0 ↦{fullShare} W main_v0) ∗ ((d.tc : Thread nD τ).loc main_v1 ↦{fullShare} W main_v1) ∗ ((d.tc : Thread nD τ).loc main_v2 ↦{fullShare} W main_v2) ∗ ((d.tc : Thread nD τ).loc main_c ↦{fullShare} W main_c) ∗ ((d.tc : Thread nD τ).loc main_v3 ↦{fullShare} W main_v3) ∗ ((d.tc : Thread nD τ).loc main_v4 ↦{fullShare} W main_v4) ∗ ((d.tc : Thread nD τ).loc main_v5 ↦{fullShare} W main_v5)) := by
  unfold unscopedBufs
  exact bigSep_eq_bigSepL_of_eq [main_arg0, main_arg1, main_arg2, main_arg3, main_arg4, main_arg5, main_arg6, main_arg7, main_arg8, main_arg9, main_arg10, main_arg11, main_arg12, main_arg13, main_arg14, main_arg15, main_v0, main_v1, main_v2, main_c, main_v3, main_v4, main_v5] (by decide) (by decide) _

omit [FloatOps F] in
/-- At the launch contents: the sequences together, then the rest. -/
theorem unscoped_split (d : Dev nD) :
    (unscopedBufs d (fun b => m ((SparseCore.T d : Thread nD τ).loc b)) : sProp 𝕄)
      ⊢ iprop(argsAt m fullShare d ∗ (oLoc d ↦{fullShare} m (oLoc d))
          ∗ ((SparseCore.T d : Thread nD τ).loc main_v1 ↦{fullShare} m ((SparseCore.T d : Thread nD τ).loc main_v1)) ∗ ((SparseCore.T d : Thread nD τ).loc main_v2 ↦{fullShare} m ((SparseCore.T d : Thread nD τ).loc main_v2)) ∗ ((SparseCore.T d : Thread nD τ).loc main_c ↦{fullShare} m ((SparseCore.T d : Thread nD τ).loc main_c)) ∗ ((SparseCore.T d : Thread nD τ).loc main_v3 ↦{fullShare} m ((SparseCore.T d : Thread nD τ).loc main_v3)) ∗ ((SparseCore.T d : Thread nD τ).loc main_v4 ↦{fullShare} m ((SparseCore.T d : Thread nD τ).loc main_v4)) ∗ ((SparseCore.T d : Thread nD τ).loc main_v5 ↦{fullShare} m ((SparseCore.T d : Thread nD τ).loc main_v5))) := by
  rw [unscoped_eq]
  unfold argsAt
  iintro ⟨A0, A1, A2, A3, A4, A5, A6, A7, A8, A9, A10, A11, A12, A13, A14, A15, R⟩
  isplitr [R]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    iexact A15
  iexact R

/-- The share of each sequence the TensorCore keeps while the two SparseCores hold theirs. -/
abbrev shK : PosShare TreeShare := Transfers.shareDrop fullShare 2

omit [FloatOps F] in
theorem pts3_split (ℓ : Loc nD τ sig) (f : Buf (Elt F) ℓ) :
    (ℓ ↦{fullShare} f : sProp 𝕄) ⊢ iprop((ℓ ↦{shK} f) ∗ (ℓ ↦{shC 0} f) ∗ (ℓ ↦{shC 1} f)) := by
  refine (Transfers.pointsTo_toks_split fullShare 2).trans ?_
  rw [bigSep_univ_two]

omit [FloatOps F] in
theorem pts3_join (ℓ : Loc nD τ sig) (f : Buf (Elt F) ℓ) :
    iprop((ℓ ↦{shK} f) ∗ (ℓ ↦{shC 0} f) ∗ (ℓ ↦{shC 1} f)) ⊢ (ℓ ↦{fullShare} f : sProp 𝕄) := by
  refine BI.Entails.trans ?_ (Transfers.pointsTo_toks_join fullShare 2)
  rw [bigSep_univ_two]
  exact BI.Entails.refl _

omit [FloatOps F] in
theorem sep3_mono {A A1 A2 A3 B B1 B2 B3 : sProp 𝕄} (hA : A ⊢ iprop(A1 ∗ A2 ∗ A3)) (hB : B ⊢ iprop(B1 ∗ B2 ∗ B3)) :
    iprop(A ∗ B) ⊢ iprop((A1 ∗ B1) ∗ (A2 ∗ B2) ∗ (A3 ∗ B3)) := by
  iintro ⟨HA, HB⟩
  ihave HA' := hA $$ HA
  ihave HB' := hB $$ HB
  icases HA' with ⟨H1, H2, H3⟩
  icases HB' with ⟨G1, G2, G3⟩
  isplitl [H1 G1]; · isplitl [H1] <;> iassumption
  isplitl [H2 G2]; · isplitl [H2] <;> iassumption
  isplitl [H3] <;> iassumption

omit [FloatOps F] in
theorem sep3_join {A A1 A2 A3 B B1 B2 B3 : sProp 𝕄} (hA : iprop(A1 ∗ A2 ∗ A3) ⊢ A) (hB : iprop(B1 ∗ B2 ∗ B3) ⊢ B) :
    iprop((A1 ∗ B1) ∗ (A2 ∗ B2) ∗ (A3 ∗ B3)) ⊢ iprop(A ∗ B) := by
  iintro ⟨⟨H1, G1⟩, ⟨H2, G2⟩, ⟨H3, G3⟩⟩
  isplitl [H1 H2 H3]
  · iapply hA; isplitl [H1]; · iexact H1
    isplitl [H2] <;> iassumption
  · iapply hB; isplitl [G1]; · iexact G1
    isplitl [G2] <;> iassumption

omit [FloatOps F] in
/-- The sequences' full shares split into the share kept and one per SparseCore; -/
theorem args_split (d : Dev nD) :
    argsAt m fullShare d ⊢ (iprop(argsAt m shK d ∗ argsAt m (shC 0) d ∗ argsAt m (shC 1) d) : sProp 𝕄) := by
  unfold argsAt
  exact (sep3_mono (pts3_split _ _) (sep3_mono (pts3_split _ _) (sep3_mono (pts3_split _ _) (sep3_mono (pts3_split _ _) (sep3_mono (pts3_split _ _) (sep3_mono (pts3_split _ _) (sep3_mono (pts3_split _ _) (sep3_mono (pts3_split _ _) (sep3_mono (pts3_split _ _) (sep3_mono (pts3_split _ _) (sep3_mono (pts3_split _ _) (sep3_mono (pts3_split _ _) (sep3_mono (pts3_split _ _) (sep3_mono (pts3_split _ _) (sep3_mono (pts3_split _ _) (pts3_split _ _))))))))))))))))

omit [FloatOps F] in
/-- and join again. -/
theorem args_join (d : Dev nD) :
    (iprop(argsAt m shK d ∗ argsAt m (shC 0) d ∗ argsAt m (shC 1) d) : sProp 𝕄) ⊢ argsAt m fullShare d := by
  unfold argsAt
  exact (sep3_join (pts3_join _ _) (sep3_join (pts3_join _ _) (sep3_join (pts3_join _ _) (sep3_join (pts3_join _ _) (sep3_join (pts3_join _ _) (sep3_join (pts3_join _ _) (sep3_join (pts3_join _ _) (sep3_join (pts3_join _ _) (sep3_join (pts3_join _ _) (sep3_join (pts3_join _ _) (sep3_join (pts3_join _ _) (sep3_join (pts3_join _ _) (sep3_join (pts3_join _ _) (sep3_join (pts3_join _ _) (sep3_join (pts3_join _ _) (pts3_join _ _))))))))))))))))

omit [FloatOps F] in
theorem blocks_disjoint : ∀ i ∈ (Finset.univ : Finset (Fin 32)), ∀ j ∈ (Finset.univ : Finset (Fin 32)), i ≠ j → Disjoint (blkSet i) (blkSet j) :=
  fun _ _ _ _ h => Rect.part_disjoint hdiv32 h
omit [FloatOps F] in
theorem blocks_cover : (Finset.univ : Finset (Fin 32)).biUnion blkSet = Finset.univ := Rect.biUnion_part hdiv32

/-- Block `2 s + c` for SparseCore `c` and subcore `s`: the thirty-two blocks, each once. -/
def blkEquiv : Fin 2 × Fin 16 ≃ Fin 32 where
  toFun x := bIx x.1 x.2
  invFun b := (⟨b.val % 2, Nat.mod_lt _ (by decide)⟩, ⟨b.val / 2, by have := b.isLt; omega⟩)
  left_inv := fun ⟨c, s⟩ => by
    have hc := c.isLt
    apply Prod.ext
    · apply Fin.ext; show (2 * s.val + c.val) % 2 = c.val; omega
    · apply Fin.ext; show (2 * s.val + c.val) / 2 = s.val; omega
  right_inv := fun b => by apply Fin.ext; show 2 * (b.val / 2) + b.val % 2 = b.val; omega

omit [FloatOps F] in
set_option maxRecDepth 16384 in
/-- The flat output whole is its thirty-two blocks, grouped by SparseCore. -/
theorem oPts_blocks (d : Dev nD) (f : Buf (Elt F) (oLoc d)) :
    (oLoc d ↦{fullShare} f : sProp 𝕄)
      = iprop((bigSep Finset.univ fun s : Fin 16 => oLoc d ↦[blkSet (bIx 0 s)]{fullShare} f)
          ∗ bigSep Finset.univ fun s : Fin 16 => oLoc d ↦[blkSet (bIx 1 s)]{fullShare} f) := by
  have h1 : (oLoc d ↦[(Finset.univ : Finset (Fin 32)).biUnion blkSet]{fullShare} f : sProp 𝕄) = _ :=
    pointsTo_biUnion (ℓ := oLoc d) (q := fullShare) (f := f) Finset.univ blkSet blocks_disjoint
  rw [blocks_cover] at h1
  refine h1.trans ?_
  rw [bigSep_univ_equiv blkEquiv, bigSep_univ_prod, bigSep_univ_two]
  rfl

theorem P_st (d : Dev nD) (c : Fin ((K (F := F)).nCore 0)) :
    (P m).st 0 d c = iprop(argsAt m (shC (Fin.cast nCore_zero c)) d ∗ bigSep Finset.univ fun s : Fin 16 => oLoc d ↦[blkSet (bIx (Fin.cast nCore_zero c) s)]{fullShare} m (oLoc d)) := by
  unfold P; rfl
theorem P_dn (d : Dev nD) (c : Fin ((K (F := F)).nCore 0)) :
    (P m).dn 0 d c = iprop(argsAt m (shC (Fin.cast nCore_zero c)) d ∗ bigSep Finset.univ fun s : Fin 16 => oLoc d ↦[blkSet (bIx (Fin.cast nCore_zero c) s)]{fullShare} flat m d) := by
  unfold P; rfl

/-- What the call takes for the two SparseCores, and what it hands back. -/
theorem st0_eq (d : Dev nD) : (bigSep Finset.univ fun c : Fin ((K (F := F)).nCore 0) => (P m).st 0 d c)
    = iprop((argsAt m (shC 0) d ∗ bigSep Finset.univ fun s : Fin 16 => oLoc d ↦[blkSet (bIx 0 s)]{fullShare} m (oLoc d))
        ∗ (argsAt m (shC 1) d ∗ bigSep Finset.univ fun s : Fin 16 => oLoc d ↦[blkSet (bIx 1 s)]{fullShare} m (oLoc d))) := by
  show (bigSep (Finset.univ : Finset (Fin 2)) fun c => (P m).st 0 d c) = _
  rw [bigSep_univ_two, P_st, P_st]
  rfl
theorem dn0_eq (d : Dev nD) : (bigSep Finset.univ fun c : Fin ((K (F := F)).nCore 0) => (P m).dn 0 d c)
    = iprop((argsAt m (shC 0) d ∗ bigSep Finset.univ fun s : Fin 16 => oLoc d ↦[blkSet (bIx 0 s)]{fullShare} flat m d)
        ∗ (argsAt m (shC 1) d ∗ bigSep Finset.univ fun s : Fin 16 => oLoc d ↦[blkSet (bIx 1 s)]{fullShare} flat m d)) := by
  show (bigSep (Finset.univ : Finset (Fin 2)) fun c => (P m).dn 0 d c) = _
  rw [bigSep_univ_two, P_dn, P_dn]
  rfl

/-! ## @main on the TensorCore -/

abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev c' : DevRef τ sig := Proc.devRef .tc (main_c : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)

abbrev opRe : HloOp τ sig (Elt F) := StableHlo.reshape main_v0 main_v1 rfl shapeCasts_S65536x512_S16x4096x512
abbrev op1 : HloOp τ sig (Elt F) := StableHlo.nullary main_c (constantI S_ 32 0#32)
abbrev op2 : HloOp τ sig (Elt F) := StableHlo.unary main_c main_v3 (broadcastInDim S16x4096 ![] bcast_S_S16x4096 : (⟨S_, .i32⟩ : BufTy).Contents (Elt F) → (⟨S16x4096, .i32⟩ : BufTy).Contents (Elt F))
abbrev op3 : HloOp τ sig (Elt F) := StableHlo.binary main_v2 main_v3 main_v4 (cmpi .ne : (⟨S16x4096, .i32⟩ : BufTy).Contents (Elt F) → (⟨S16x4096, .i32⟩ : BufTy).Contents (Elt F) → (⟨S16x4096, .i1⟩ : BufTy).Contents (Elt F))
abbrev op4 : HloOp τ sig (Elt F) := StableHlo.unary main_v4 main_v5 (id : (⟨S16x4096, .i1⟩ : BufTy).Contents (Elt F) → (⟨S16x4096, .i1⟩ : BufTy).Contents (Elt F))

/-- The reshape's two arrays; the five arrays of the mask's host operations. -/
abbrev S01 : Finset (DevRef τ sig) := {v0', v1'}
abbrev S5 : Finset (DevRef τ sig) := {c', v3', v2', v4', v5'}

omit [FloatOps F] in
theorem held_S01 (d : Dev nD) (W : Valuation τ sig (Elt F)) :
    (held (T d) S01 W : sProp 𝕄) = iprop((oLoc d ↦{fullShare} W v0') ∗ (SparseCore.T d : Thread nD τ).loc main_v1 ↦{fullShare} W v1') := by
  unfold held S01
  rw [SparseCore.bigSep_insert' (by decide), bigSep_singleton]

omit [FloatOps F] in
theorem held_S5 (d : Dev nD) (W : Valuation τ sig (Elt F)) :
    (held (T d) S5 W : sProp 𝕄) = iprop(((SparseCore.T d : Thread nD τ).loc main_c ↦{fullShare} W c') ∗ ((SparseCore.T d : Thread nD τ).loc main_v3 ↦{fullShare} W v3')
      ∗ ((SparseCore.T d : Thread nD τ).loc main_v2 ↦{fullShare} W v2') ∗ ((SparseCore.T d : Thread nD τ).loc main_v4 ↦{fullShare} W v4') ∗ (SparseCore.T d : Thread nD τ).loc main_v5 ↦{fullShare} W v5') := by
  unfold held S5
  rw [SparseCore.bigSep_insert' (by decide), SparseCore.bigSep_insert' (by decide), SparseCore.bigSep_insert' (by decide), SparseCore.bigSep_insert' (by decide), bigSep_singleton]

theorem hRe : (opRe (F := F)).bufs ⊆ S01 := show ({v0', v1'} : Finset (DevRef τ sig)) ⊆ S01 by decide
theorem h1 : (op1 (F := F)).bufs ⊆ S5 := show ({c'} : Finset (DevRef τ sig)) ⊆ S5 by decide
theorem h2 : (op2 (F := F)).bufs ⊆ S5 := show ({c', v3'} : Finset (DevRef τ sig)) ⊆ S5 by decide
theorem h3 : (op3 (F := F)).bufs ⊆ S5 := show ({v2', v3', v4'} : Finset (DevRef τ sig)) ⊆ S5 by decide
theorem h4 : (op4 (F := F)).bufs ⊆ S5 := show ({v4', v5'} : Finset (DevRef τ sig)) ⊆ S5 by decide

/-- The launch contents; with the flat output at what the call left; with the mask's array at what the region left. -/
def V0 (d : Dev nD) : Valuation τ sig (Elt F) := fun b => m (d, b)
def V1 (d : Dev nD) : Valuation τ sig (Elt F) := Function.update (V0 m d) v0' (flat m d)
def V2 (d : Dev nD) : Valuation τ sig (Elt F) := Function.update (V0 m d) v2' (maskWords d)

theorem V1_v0 (d : Dev nD) : V1 m d v0' = flat m d := Function.update_self _ _ _
theorem V1_v1 (d : Dev nD) : V1 m d v1' = m ((SparseCore.T d : Thread nD τ).loc main_v1) := Function.update_of_ne (show v1' ≠ v0' by decide) _ _
theorem V2_v2 (d : Dev nD) : V2 m d v2' = maskWords d := Function.update_self _ _ _
theorem V2_c (d : Dev nD) : V2 m d c' = m ((SparseCore.T d : Thread nD τ).loc main_c) := Function.update_of_ne (show c' ≠ v2' by decide) _ _
theorem V2_v3 (d : Dev nD) : V2 m d v3' = m ((SparseCore.T d : Thread nD τ).loc main_v3) := Function.update_of_ne (show v3' ≠ v2' by decide) _ _
theorem V2_v4 (d : Dev nD) : V2 m d v4' = m ((SparseCore.T d : Thread nD τ).loc main_v4) := Function.update_of_ne (show v4' ≠ v2' by decide) _ _
theorem V2_v5 (d : Dev nD) : V2 m d v5' = m ((SparseCore.T d : Thread nD τ).loc main_v5) := Function.update_of_ne (show v5' ≠ v2' by decide) _ _

/-- After the reshape: the flat output as it was, the first result the padded sequences. -/
theorem re_v0 (d : Dev nD) : (opRe (F := F)).result (V1 m d) v0' = flat m d := by
  rw [HloOp.result_of_not_mem _ _ (show v0' ∉ ({v1'} : Finset (DevRef τ sig)) by decide)]; exact V1_v0 m d
theorem re_v1 (d : Dev nD) : (opRe (F := F)).result (V1 m d) v1' = pad3m m d := by
  refine (StableHlo.reshape_result _ _ _ _ _ _ (V1 m d)).trans ?_
  rw [V1_v0]
  exact Cert.Spec.pad3_of_flat _ _ _ _ _ _ _ _ _ _ _ _ _ _ _ _ _ _
theorem held_re (d : Dev nD) :
    (held (T d) S01 ((opRe (F := F)).result (V1 m d)) : sProp 𝕄) = iprop((oLoc d ↦{fullShare} flat m d) ∗ (SparseCore.T d : Thread nD τ).loc main_v1 ↦{fullShare} pad3m m d) := by
  rw [held_S01, re_v0, re_v1]

/-- After the four host operations the second result is the padding mask. -/
theorem fin_v5 (d : Dev nD) :
    (op4 (F := F)).result ((op3 (F := F)).result ((op2 (F := F)).result ((op1 (F := F)).result (V2 m d)))) v5' = (Cert.Spec.mask2 : Buf (Elt F) ((SparseCore.T d : Thread nD τ).loc main_v5)) := by
  rw [StableHlo.unary_result, StableHlo.binary_result, StableHlo.unary_result_ne (h := show main_v2 ≠ main_v3 by decide),
    StableHlo.nullary_result_ne (h := show main_v2 ≠ main_c by decide), StableHlo.unary_result, StableHlo.nullary_result, V2_v2]
  exact Cert.Proof.MaskValue.mask_eq iota_S16x4096_d1_w32 iota_S16x4096_d0_w32 natLt_1_32 bcast_S_S16x4096
theorem held_fin (d : Dev nD) :
    (held (T d) S5 ((op4 (F := F)).result ((op3 (F := F)).result ((op2 (F := F)).result ((op1 (F := F)).result (V2 m d))))) : sProp 𝕄)
      ⊢ (SparseCore.T d : Thread nD τ).loc main_v5 ↦{fullShare} (Cert.Spec.mask2 : Buf (Elt F) ((SparseCore.T d : Thread nD τ).loc main_v5)) := by
  unfold held
  refine (bigSep_elim (show v5' ∈ S5 by decide)).trans ?_
  rw [fin_v5]
  exact BI.Entails.refl _

/-- What @main leaves the claim: the sequences as launched, the padded sequences, the padding mask. -/
abbrev FIN (d : Dev nD) : sProp 𝕄 :=
  iprop(argsAt m fullShare d ∗ ((SparseCore.T d : Thread nD τ).loc main_v1 ↦{fullShare} pad3m m d)
    ∗ (SparseCore.T d : Thread nD τ).loc main_v5 ↦{fullShare} (Cert.Spec.mask2 : Buf (Elt F) ((SparseCore.T d : Thread nD τ).loc main_v5)))

omit [FloatOps F] in
/-- Once its one call is over the TensorCore owes nothing: its handshake state yields that, and takes it back. -/
theorem tcSt_owes (d : Dev nD) :
    (K (F := F)).tcSt EH d 1 ⊢ (iprop(owesT d ∗ (owesT d -∗ (K (F := F)).tcSt EH d 1)) : sProp 𝕄) := by
  unfold SparseCore.Cfg.tcSt
  rw [(K (F := F)).Otc_end d (le_refl 1)]
  iintro ⟨HO, Hrest⟩
  isplitl [HO]; · iexact HO
  iintro HO
  isplitl [HO]; · iexact HO
  iexact Hrest

set_option backward.isDefEq.respectTransparency.types false in
/-- @main on device `d`'s TensorCore: the SparseCore call (each SparseCore handed a read share of the sequences and its
    sixteen blocks of the flat output, the blocks handed back at the padded array), the reshape, the mask region, the
    four host operations that turn its words into the mask. -/
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  simp only [main, wp_bind, wp_pure]
  iintro ⟨#Hctx, Hst, ⟨Hb, Hub, -, -⟩, ⟨Hg, Ht⟩⟩
  ihave Hu := (unscoped_split m d) $$ Hub
  icases Hu with ⟨Hargs, Hv0, Hv1, Hv2, Hc, Hv3, Hv4, Hv5⟩
  ihave Hs := (args_split m d) $$ Hargs
  icases Hs with ⟨HaK, Ha0, Ha1⟩
  ihave Hbl := (Entails.of_eq (oPts_blocks d (m (oLoc d)))) $$ Hv0
  icases Hbl with ⟨Hb0, Hb1⟩
  -- the call: a share of the sequences and sixteen blocks to each SparseCore, and back
  iapply ((K (F := F)).wp_run (D (F := F)) 𝒱 (EH := EH) (P := P m) κ d 0)
  isplitr; · iexact Hctx
  isplitl [Hst]; · iexact Hst
  isplitl [Ha0 Ha1 Hb0 Hb1]
  · rw [st0_eq]
    isplitl [Ha0 Hb0]; · isplitl [Ha0] <;> iassumption
    isplitl [Ha1] <;> iassumption
  iintro ⟨Hst, Hdn⟩
  ihave Hst := (show ((K (F := F)).tcSt EH d ((0 : Fin 1).val + 1) : sProp 𝕄) ⊢ (K (F := F)).tcSt EH d 1 from BI.Entails.refl _) $$ Hst
  ihave Hdn' := (Entails.of_eq (dn0_eq m d)) $$ Hdn
  icases Hdn' with ⟨⟨Ha0, Hb0⟩, ⟨Ha1, Hb1⟩⟩
  ihave Hv0 := (Entails.of_eq (oPts_blocks d (flat m d)).symm) $$ [Hb0 Hb1]
  · isplitl [Hb0] <;> iassumption
  ihave Hargs := (args_join m d) $$ [HaK Ha0 Ha1]
  · isplitl [HaK]; · iexact HaK
    isplitl [Ha0] <;> iassumption
  -- the reshape
  iapply (wp_hlo_within 𝒱 (SparseCore.T d) none Set.univ (op := opRe) (S := S01) hRe (V := V1 m d)) $$ [Hb Hv0 Hv1]
  · isplitl [Hb]; · iexact Hb
    rw [held_S01, V1_v0, V1_v1]
    isplitl [Hv0] <;> iassumption
  iintro ⟨Hb, Hheld⟩
  ihave Hh := (Entails.of_eq (held_re m d)) $$ Hheld
  icases Hh with ⟨-, Hv1⟩
  rw [wp_ret]; imodintro
  -- the mask region
  ihave Hst' := (tcSt_owes d) $$ Hst
  icases Hst' with ⟨HO, Hback⟩
  iapply ((K (F := F)).wp_liftProg (D (F := F)) 𝒱 (SparseCore.T d) Set.univ none (p := Prog.op (TpuEff.customCall (Pipeline.entry (0 : Fin 1)) ()) Prog.ret))
  iapply (Pipeline.RegionSeg.wp (pcfgs (F := F)) adm (dats m) (none : HIx 1) cellOf_inj EP defs₀ 𝒱₀ (LL (F := F)) (lvv (F := F)) (reg0 m) d none (by intro u h; cases h) Prog.ret _)
  isplitr [Hb Hv2 HO Hg Ht]
  swap
  · isplitl [Hb]; · iexact Hb
    rw [reg0_pre]
    isplitl [Hv2 HO]; · isplitl [Hv2] <;> iassumption
    isplitr; · iapply (SparseCore.Cfg.ctx_levAts κ); iexact Hctx
    isplitl [Hg] <;> iassumption
  rw [reg0_post]
  iintro ⟨Hb, Hv2, HO⟩
  ihave Hst := Hback $$ HO
  rw [wp_ret]; imodintro
  -- the mask's host operations
  iapply (wp_hlo_within 𝒱 (SparseCore.T d) none Set.univ (op := op1) (S := S5) h1 (V := V2 m d)) $$ [Hb Hc Hv3 Hv2 Hv4 Hv5]
  · isplitl [Hb]; · iexact Hb
    rw [held_S5, V2_c, V2_v3, V2_v2, V2_v4, V2_v5]
    isplitl [Hc]; · iexact Hc
    isplitl [Hv3]; · iexact Hv3
    isplitl [Hv2]; · iexact Hv2
    isplitl [Hv4] <;> iassumption
  iintro H
  rw [wp_ret]; imodintro
  iapply (wp_hlo_within 𝒱 (SparseCore.T d) none Set.univ (op := op2) (S := S5) h2) $$ H
  iintro H
  rw [wp_ret]; imodintro
  iapply (wp_hlo_within 𝒱 (SparseCore.T d) none Set.univ (op := op3) (S := S5) h3) $$ H
  iintro H
  rw [wp_ret]; imodintro
  iapply (wp_hlo_within 𝒱 (SparseCore.T d) none Set.univ (op := op4) (S := S5) h4) $$ H
  iintro ⟨Hb, Hheld⟩
  rw [wp_ret]; imodintro; imodintro
  isplitl [Hst]; · iexact Hst
  isplitl [Hargs]; · iexact Hargs
  isplitl [Hv1]; · iexact Hv1
  iapply (held_fin m d); iexact Hheld

/-! ## The final memory, the program's run -/

def fq (d : Dev nD) (s' : Phys nD τ sig (Elt F)) : Prop :=
  s'.mem.mem ((SparseCore.T d : Thread nD τ).loc main_v1) = pad3m m d ∧ s'.mem.mem ((SparseCore.T d : Thread nD τ).loc main_v5) = Cert.Spec.mask2
    ∧ s'.mem.mem (aLoc0 d) = m (aLoc0 d) ∧ s'.mem.mem (aLoc1 d) = m (aLoc1 d) ∧ s'.mem.mem (aLoc2 d) = m (aLoc2 d) ∧ s'.mem.mem (aLoc3 d) = m (aLoc3 d) ∧ s'.mem.mem (aLoc4 d) = m (aLoc4 d) ∧ s'.mem.mem (aLoc5 d) = m (aLoc5 d) ∧ s'.mem.mem (aLoc6 d) = m (aLoc6 d) ∧ s'.mem.mem (aLoc7 d) = m (aLoc7 d) ∧ s'.mem.mem (aLoc8 d) = m (aLoc8 d) ∧ s'.mem.mem (aLoc9 d) = m (aLoc9 d) ∧ s'.mem.mem (aLoc10 d) = m (aLoc10 d) ∧ s'.mem.mem (aLoc11 d) = m (aLoc11 d) ∧ s'.mem.mem (aLoc12 d) = m (aLoc12 d) ∧ s'.mem.mem (aLoc13 d) = m (aLoc13 d) ∧ s'.mem.mem (aLoc14 d) = m (aLoc14 d) ∧ s'.mem.mem (aLoc15 d) = m (aLoc15 d)

theorem hfin (d : Dev nD) (s' : Phys nD τ sig (Elt F)) : iprop(FIN m d ∗ SI s') ⊢ (⌜fq m d s'⌝ : sProp 𝕄) := by
  unfold FIN argsAt
  iintro ⟨⟨⟨A0, A1, A2, A3, A4, A5, A6, A7, A8, A9, A10, A11, A12, A13, A14, A15⟩, Hv1, Hv5⟩, HSI⟩
  ihave H := (persistent_entails_right (SI_pointsTo_agree (st := s') (ℓ := (SparseCore.T d : Thread nD τ).loc main_v1) (I := Finset.univ) (q := fullShare) (f := pad3m m d))) $$ [HSI Hv1]
  · isplitl [HSI] <;> iassumption
  icases H with ⟨%hv1, HSI, -⟩
  ihave H := (persistent_entails_right (SI_pointsTo_agree (st := s') (ℓ := (SparseCore.T d : Thread nD τ).loc main_v5) (I := Finset.univ) (q := fullShare) (f := (Cert.Spec.mask2 : Buf (Elt F) ((SparseCore.T d : Thread nD τ).loc main_v5))))) $$ [HSI Hv5]
  · isplitl [HSI] <;> iassumption
  icases H with ⟨%hv5, HSI, -⟩
  ihave H := (persistent_entails_right (SI_pointsTo_agree (st := s') (ℓ := aLoc0 d) (I := Finset.univ) (q := fullShare) (f := m (aLoc0 d)))) $$ [HSI A0]
  · isplitl [HSI] <;> iassumption
  icases H with ⟨%ha0, HSI, -⟩
  ihave H := (persistent_entails_right (SI_pointsTo_agree (st := s') (ℓ := aLoc1 d) (I := Finset.univ) (q := fullShare) (f := m (aLoc1 d)))) $$ [HSI A1]
  · isplitl [HSI] <;> iassumption
  icases H with ⟨%ha1, HSI, -⟩
  ihave H := (persistent_entails_right (SI_pointsTo_agree (st := s') (ℓ := aLoc2 d) (I := Finset.univ) (q := fullShare) (f := m (aLoc2 d)))) $$ [HSI A2]
  · isplitl [HSI] <;> iassumption
  icases H with ⟨%ha2, HSI, -⟩
  ihave H := (persistent_entails_right (SI_pointsTo_agree (st := s') (ℓ := aLoc3 d) (I := Finset.univ) (q := fullShare) (f := m (aLoc3 d)))) $$ [HSI A3]
  · isplitl [HSI] <;> iassumption
  icases H with ⟨%ha3, HSI, -⟩
  ihave H := (persistent_entails_right (SI_pointsTo_agree (st := s') (ℓ := aLoc4 d) (I := Finset.univ) (q := fullShare) (f := m (aLoc4 d)))) $$ [HSI A4]
  · isplitl [HSI] <;> iassumption
  icases H with ⟨%ha4, HSI, -⟩
  ihave H := (persistent_entails_right (SI_pointsTo_agree (st := s') (ℓ := aLoc5 d) (I := Finset.univ) (q := fullShare) (f := m (aLoc5 d)))) $$ [HSI A5]
  · isplitl [HSI] <;> iassumption
  icases H with ⟨%ha5, HSI, -⟩
  ihave H := (persistent_entails_right (SI_pointsTo_agree (st := s') (ℓ := aLoc6 d) (I := Finset.univ) (q := fullShare) (f := m (aLoc6 d)))) $$ [HSI A6]
  · isplitl [HSI] <;> iassumption
  icases H with ⟨%ha6, HSI, -⟩
  ihave H := (persistent_entails_right (SI_pointsTo_agree (st := s') (ℓ := aLoc7 d) (I := Finset.univ) (q := fullShare) (f := m (aLoc7 d)))) $$ [HSI A7]
  · isplitl [HSI] <;> iassumption
  icases H with ⟨%ha7, HSI, -⟩
  ihave H := (persistent_entails_right (SI_pointsTo_agree (st := s') (ℓ := aLoc8 d) (I := Finset.univ) (q := fullShare) (f := m (aLoc8 d)))) $$ [HSI A8]
  · isplitl [HSI] <;> iassumption
  icases H with ⟨%ha8, HSI, -⟩
  ihave H := (persistent_entails_right (SI_pointsTo_agree (st := s') (ℓ := aLoc9 d) (I := Finset.univ) (q := fullShare) (f := m (aLoc9 d)))) $$ [HSI A9]
  · isplitl [HSI] <;> iassumption
  icases H with ⟨%ha9, HSI, -⟩
  ihave H := (persistent_entails_right (SI_pointsTo_agree (st := s') (ℓ := aLoc10 d) (I := Finset.univ) (q := fullShare) (f := m (aLoc10 d)))) $$ [HSI A10]
  · isplitl [HSI] <;> iassumption
  icases H with ⟨%ha10, HSI, -⟩
  ihave H := (persistent_entails_right (SI_pointsTo_agree (st := s') (ℓ := aLoc11 d) (I := Finset.univ) (q := fullShare) (f := m (aLoc11 d)))) $$ [HSI A11]
  · isplitl [HSI] <;> iassumption
  icases H with ⟨%ha11, HSI, -⟩
  ihave H := (persistent_entails_right (SI_pointsTo_agree (st := s') (ℓ := aLoc12 d) (I := Finset.univ) (q := fullShare) (f := m (aLoc12 d)))) $$ [HSI A12]
  · isplitl [HSI] <;> iassumption
  icases H with ⟨%ha12, HSI, -⟩
  ihave H := (persistent_entails_right (SI_pointsTo_agree (st := s') (ℓ := aLoc13 d) (I := Finset.univ) (q := fullShare) (f := m (aLoc13 d)))) $$ [HSI A13]
  · isplitl [HSI] <;> iassumption
  icases H with ⟨%ha13, HSI, -⟩
  ihave H := (persistent_entails_right (SI_pointsTo_agree (st := s') (ℓ := aLoc14 d) (I := Finset.univ) (q := fullShare) (f := m (aLoc14 d)))) $$ [HSI A14]
  · isplitl [HSI] <;> iassumption
  icases H with ⟨%ha14, HSI, -⟩
  ihave H := (persistent_entails_right (SI_pointsTo_agree (st := s') (ℓ := aLoc15 d) (I := Finset.univ) (q := fullShare) (f := m (aLoc15 d)))) $$ [HSI A15]
  · isplitl [HSI] <;> iassumption
  icases H with ⟨%ha15, HSI, -⟩
  ipureintro
  exact ⟨funext fun i => hv1 i (Finset.mem_univ i), funext fun i => hv5 i (Finset.mem_univ i), funext fun i => ha0 i (Finset.mem_univ i), funext fun i => ha1 i (Finset.mem_univ i), funext fun i => ha2 i (Finset.mem_univ i), funext fun i => ha3 i (Finset.mem_univ i), funext fun i => ha4 i (Finset.mem_univ i), funext fun i => ha5 i (Finset.mem_univ i), funext fun i => ha6 i (Finset.mem_univ i), funext fun i => ha7 i (Finset.mem_univ i), funext fun i => ha8 i (Finset.mem_univ i), funext fun i => ha9 i (Finset.mem_univ i), funext fun i => ha10 i (Finset.mem_univ i), funext fun i => ha11 i (Finset.mem_univ i), funext fun i => ha12 i (Finset.mem_univ i), funext fun i => ha13 i (Finset.mem_univ i), funext fun i => ha14 i (Finset.mem_univ i), funext fun i => ha15 i (Finset.mem_univ i)⟩

/-- The claim's post: on every device the two results and the sixteen sequences. -/
def QC : PUnit × MemSt nD τ sig (Elt F) → Prop := fun r => ∀ c : Dev nD,
  r.2.mem ((c.tc : Thread nD τ).loc main_v1) = pad3m m c ∧ r.2.mem ((c.tc : Thread nD τ).loc main_v5) = Cert.Spec.mask2
    ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13) ∧ r.2.mem ((c.tc : Thread nD τ).loc main_arg14) = m ((c.tc : Thread nD τ).loc main_arg14) ∧ r.2.mem ((c.tc : Thread nD τ).loc main_arg15) = m ((c.tc : Thread nD τ).loc main_arg15)

/-- From a memory with zero counters every weakly fair execution of the program's threads terminates, and every final
    memory holds the padded sequences, the padding mask and the sequences unchanged — given the vector subcores' task
    and the split of a SparseCore's operands among them. -/
theorem run_main [∀ e, Nonempty (Elt F e)] (htile : (K (F := F)).TileObl (D (F := F)) 𝒱 (P m) v₀ 0) (hvec : (K (F := F)).VecSplit' (P m) 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain hvec)
    m ρ main (G (F := F)) (FIN m) (u₀ (F := F)) (sep_elim_left.trans (hu₀ m)) (hmain m ρ) (fq m) (hfin m) (QC m) (fun _ h => h)

end Cert.Proof.KI

end
-- ==== Proof.KIArith.lean ====
/-
  The printed index arithmetic in closed form.

  At grid point `i` (`i 0` the SparseCore `c`, `i 1` the subcore `s`) the task copies
  `ncopy i = min 2048 (4096 − 256 s − 2048 c)` rows. The `k`-th conditional holds exactly when `s = k`; its copying
  loop makes `ncopy i / 64` trips, trip `t` reading rows `2048 c + 64 t` onwards of the sequence and writing rows
  `4096 s + 2048 c + 64 t` onwards of the output; the loop after it (the remainder of an unrolling by one) makes none.
  The zero-filling loop makes `(2048 − ncopy i) / 64` trips, trip `t` writing rows `4096 s + 2048 c + ncopy i + 64 t` onwards.
  Each fact is decided over the 32 grid points and the loop's trips.
-/
import proofs.«212850_g39865886441476_cont_8to1_b_277_5_alg».proof.Proof.Gen.KernelIdeal
import Idealize.ShloMosaic.Lib.Decide

set_option synthInstance.maxSize 4096
set_option Elab.async false

namespace Cert.Proof.KI

open Cert.KernelIdeal Cert.KernelIdeal.Gen Idealize.ShloMosaic

/-- The number of rows the task at `i` copies. -/
def ncopy (i : grid0.Coords) : Nat := min 2048 (4096 - 256 * (i 1).val - 2048 * (i 0).val)

theorem cond1_iff : ∀ i : grid0.Coords, k0_cond1 i = 1#1 ↔ (i 1).val = 0 := by decide +kernel
theorem trips3 : ∀ i : grid0.Coords, (k0_t3_loop i).trips = ncopy i / 64 := by decide +kernel
theorem trips4 : ∀ i : grid0.Coords, (k0_t4_loop i).trips = 0 := fun i => Nat.le_zero.mp (k0_t4_abs i).2.1
theorem off2_eq : ∀ (i : grid0.Coords) (t : Fin (k0_t3_loop i).trips), k0_off2 i t = ![2048 * (i 0).val + 64 * t.val, 0] := by decide +kernel
theorem off3_eq : ∀ (i : grid0.Coords) (t : Fin (k0_t3_loop i).trips), k0_off3 i t = ![4096 * (i 1).val + 2048 * (i 0).val + 64 * t.val, 0] := by decide +kernel
theorem cond2_iff : ∀ i : grid0.Coords, k0_cond2 i = 1#1 ↔ (i 1).val = 1 := by decide +kernel
theorem trips5 : ∀ i : grid0.Coords, (k0_t5_loop i).trips = ncopy i / 64 := by decide +kernel
theorem trips6 : ∀ i : grid0.Coords, (k0_t6_loop i).trips = 0 := fun i => Nat.le_zero.mp (k0_t6_abs i).2.1
theorem off6_eq : ∀ (i : grid0.Coords) (t : Fin (k0_t5_loop i).trips), k0_off6 i t = ![2048 * (i 0).val + 64 * t.val, 0] := by decide +kernel
theorem off7_eq : ∀ (i : grid0.Coords) (t : Fin (k0_t5_loop i).trips), k0_off7 i t = ![4096 * (i 1).val + 2048 * (i 0).val + 64 * t.val, 0] := by decide +kernel
theorem cond3_iff : ∀ i : grid0.Coords, k0_cond3 i = 1#1 ↔ (i 1).val = 2 := by decide +kernel
theorem trips7 : ∀ i : grid0.Coords, (k0_t7_loop i).trips = ncopy i / 64 := by decide +kernel
theorem trips8 : ∀ i : grid0.Coords, (k0_t8_loop i).trips = 0 := fun i => Nat.le_zero.mp (k0_t8_abs i).2.1
theorem off10_eq : ∀ (i : grid0.Coords) (t : Fin (k0_t7_loop i).trips), k0_off10 i t = ![2048 * (i 0).val + 64 * t.val, 0] := by decide +kernel
theorem off11_eq : ∀ (i : grid0.Coords) (t : Fin (k0_t7_loop i).trips), k0_off11 i t = ![4096 * (i 1).val + 2048 * (i 0).val + 64 * t.val, 0] := by decide +kernel
theorem cond4_iff : ∀ i : grid0.Coords, k0_cond4 i = 1#1 ↔ (i 1).val = 3 := by decide +kernel
theorem trips9 : ∀ i : grid0.Coords, (k0_t9_loop i).trips = ncopy i / 64 := by decide +kernel
theorem trips10 : ∀ i : grid0.Coords, (k0_t10_loop i).trips = 0 := fun i => Nat.le_zero.mp (k0_t10_abs i).2.1
theorem off14_eq : ∀ (i : grid0.Coords) (t : Fin (k0_t9_loop i).trips), k0_off14 i t = ![2048 * (i 0).val + 64 * t.val, 0] := by decide +kernel
theorem off15_eq : ∀ (i : grid0.Coords) (t : Fin (k0_t9_loop i).trips), k0_off15 i t = ![4096 * (i 1).val + 2048 * (i 0).val + 64 * t.val, 0] := by decide +kernel
theorem cond5_iff : ∀ i : grid0.Coords, k0_cond5 i = 1#1 ↔ (i 1).val = 4 := by decide +kernel
theorem trips11 : ∀ i : grid0.Coords, (k0_t11_loop i).trips = ncopy i / 64 := by decide +kernel
theorem trips12 : ∀ i : grid0.Coords, (k0_t12_loop i).trips = 0 := fun i => Nat.le_zero.mp (k0_t12_abs i).2.1
theorem off18_eq : ∀ (i : grid0.Coords) (t : Fin (k0_t11_loop i).trips), k0_off18 i t = ![2048 * (i 0).val + 64 * t.val, 0] := by decide +kernel
theorem off19_eq : ∀ (i : grid0.Coords) (t : Fin (k0_t11_loop i).trips), k0_off19 i t = ![4096 * (i 1).val + 2048 * (i 0).val + 64 * t.val, 0] := by decide +kernel
theorem cond6_iff : ∀ i : grid0.Coords, k0_cond6 i = 1#1 ↔ (i 1).val = 5 := by decide +kernel
theorem trips13 : ∀ i : grid0.Coords, (k0_t13_loop i).trips = ncopy i / 64 := by decide +kernel
theorem trips14 : ∀ i : grid0.Coords, (k0_t14_loop i).trips = 0 := fun i => Nat.le_zero.mp (k0_t14_abs i).2.1
theorem off22_eq : ∀ (i : grid0.Coords) (t : Fin (k0_t13_loop i).trips), k0_off22 i t = ![2048 * (i 0).val + 64 * t.val, 0] := by decide +kernel
theorem off23_eq : ∀ (i : grid0.Coords) (t : Fin (k0_t13_loop i).trips), k0_off23 i t = ![4096 * (i 1).val + 2048 * (i 0).val + 64 * t.val, 0] := by decide +kernel
theorem cond7_iff : ∀ i : grid0.Coords, k0_cond7 i = 1#1 ↔ (i 1).val = 6 := by decide +kernel
theorem trips15 : ∀ i : grid0.Coords, (k0_t15_loop i).trips = ncopy i / 64 := by decide +kernel
theorem trips16 : ∀ i : grid0.Coords, (k0_t16_loop i).trips = 0 := fun i => Nat.le_zero.mp (k0_t16_abs i).2.1
theorem off26_eq : ∀ (i : grid0.Coords) (t : Fin (k0_t15_loop i).trips), k0_off26 i t = ![2048 * (i 0).val + 64 * t.val, 0] := by decide +kernel
theorem off27_eq : ∀ (i : grid0.Coords) (t : Fin (k0_t15_loop i).trips), k0_off27 i t = ![4096 * (i 1).val + 2048 * (i 0).val + 64 * t.val, 0] := by decide +kernel
theorem cond8_iff : ∀ i : grid0.Coords, k0_cond8 i = 1#1 ↔ (i 1).val = 7 := by decide +kernel
theorem trips17 : ∀ i : grid0.Coords, (k0_t17_loop i).trips = ncopy i / 64 := by decide +kernel
theorem trips18 : ∀ i : grid0.Coords, (k0_t18_loop i).trips = 0 := fun i => Nat.le_zero.mp (k0_t18_abs i).2.1
theorem off30_eq : ∀ (i : grid0.Coords) (t : Fin (k0_t17_loop i).trips), k0_off30 i t = ![2048 * (i 0).val + 64 * t.val, 0] := by decide +kernel
theorem off31_eq : ∀ (i : grid0.Coords) (t : Fin (k0_t17_loop i).trips), k0_off31 i t = ![4096 * (i 1).val + 2048 * (i 0).val + 64 * t.val, 0] := by decide +kernel
theorem cond9_iff : ∀ i : grid0.Coords, k0_cond9 i = 1#1 ↔ (i 1).val = 8 := by decide +kernel
theorem trips19 : ∀ i : grid0.Coords, (k0_t19_loop i).trips = ncopy i / 64 := by decide +kernel
theorem trips20 : ∀ i : grid0.Coords, (k0_t20_loop i).trips = 0 := fun i => Nat.le_zero.mp (k0_t20_abs i).2.1
theorem off34_eq : ∀ (i : grid0.Coords) (t : Fin (k0_t19_loop i).trips), k0_off34 i t = ![2048 * (i 0).val + 64 * t.val, 0] := by decide +kernel
theorem off35_eq : ∀ (i : grid0.Coords) (t : Fin (k0_t19_loop i).trips), k0_off35 i t = ![4096 * (i 1).val + 2048 * (i 0).val + 64 * t.val, 0] := by decide +kernel
theorem cond10_iff : ∀ i : grid0.Coords, k0_cond10 i = 1#1 ↔ (i 1).val = 9 := by decide +kernel
theorem trips21 : ∀ i : grid0.Coords, (k0_t21_loop i).trips = ncopy i / 64 := by decide +kernel
theorem trips22 : ∀ i : grid0.Coords, (k0_t22_loop i).trips = 0 := fun i => Nat.le_zero.mp (k0_t22_abs i).2.1
theorem off38_eq : ∀ (i : grid0.Coords) (t : Fin (k0_t21_loop i).trips), k0_off38 i t = ![2048 * (i 0).val + 64 * t.val, 0] := by decide +kernel
theorem off39_eq : ∀ (i : grid0.Coords) (t : Fin (k0_t21_loop i).trips), k0_off39 i t = ![4096 * (i 1).val + 2048 * (i 0).val + 64 * t.val, 0] := by decide +kernel
theorem cond11_iff : ∀ i : grid0.Coords, k0_cond11 i = 1#1 ↔ (i 1).val = 10 := by decide +kernel
theorem trips23 : ∀ i : grid0.Coords, (k0_t23_loop i).trips = ncopy i / 64 := by decide +kernel
theorem trips24 : ∀ i : grid0.Coords, (k0_t24_loop i).trips = 0 := fun i => Nat.le_zero.mp (k0_t24_abs i).2.1
theorem off42_eq : ∀ (i : grid0.Coords) (t : Fin (k0_t23_loop i).trips), k0_off42 i t = ![2048 * (i 0).val + 64 * t.val, 0] := by decide +kernel
theorem off43_eq : ∀ (i : grid0.Coords) (t : Fin (k0_t23_loop i).trips), k0_off43 i t = ![4096 * (i 1).val + 2048 * (i 0).val + 64 * t.val, 0] := by decide +kernel
theorem cond12_iff : ∀ i : grid0.Coords, k0_cond12 i = 1#1 ↔ (i 1).val = 11 := by decide +kernel
theorem trips25 : ∀ i : grid0.Coords, (k0_t25_loop i).trips = ncopy i / 64 := by decide +kernel
theorem trips26 : ∀ i : grid0.Coords, (k0_t26_loop i).trips = 0 := fun i => Nat.le_zero.mp (k0_t26_abs i).2.1
theorem off46_eq : ∀ (i : grid0.Coords) (t : Fin (k0_t25_loop i).trips), k0_off46 i t = ![2048 * (i 0).val + 64 * t.val, 0] := by decide +kernel
theorem off47_eq : ∀ (i : grid0.Coords) (t : Fin (k0_t25_loop i).trips), k0_off47 i t = ![4096 * (i 1).val + 2048 * (i 0).val + 64 * t.val, 0] := by decide +kernel
theorem cond13_iff : ∀ i : grid0.Coords, k0_cond13 i = 1#1 ↔ (i 1).val = 12 := by decide +kernel
theorem trips27 : ∀ i : grid0.Coords, (k0_t27_loop i).trips = ncopy i / 64 := by decide +kernel
theorem trips28 : ∀ i : grid0.Coords, (k0_t28_loop i).trips = 0 := fun i => Nat.le_zero.mp (k0_t28_abs i).2.1
theorem off50_eq : ∀ (i : grid0.Coords) (t : Fin (k0_t27_loop i).trips), k0_off50 i t = ![2048 * (i 0).val + 64 * t.val, 0] := by decide +kernel
theorem off51_eq : ∀ (i : grid0.Coords) (t : Fin (k0_t27_loop i).trips), k0_off51 i t = ![4096 * (i 1).val + 2048 * (i 0).val + 64 * t.val, 0] := by decide +kernel
theorem cond14_iff : ∀ i : grid0.Coords, k0_cond14 i = 1#1 ↔ (i 1).val = 13 := by decide +kernel
theorem trips29 : ∀ i : grid0.Coords, (k0_t29_loop i).trips = ncopy i / 64 := by decide +kernel
theorem trips30 : ∀ i : grid0.Coords, (k0_t30_loop i).trips = 0 := fun i => Nat.le_zero.mp (k0_t30_abs i).2.1
theorem off54_eq : ∀ (i : grid0.Coords) (t : Fin (k0_t29_loop i).trips), k0_off54 i t = ![2048 * (i 0).val + 64 * t.val, 0] := by decide +kernel
theorem off55_eq : ∀ (i : grid0.Coords) (t : Fin (k0_t29_loop i).trips), k0_off55 i t = ![4096 * (i 1).val + 2048 * (i 0).val + 64 * t.val, 0] := by decide +kernel
theorem cond15_iff : ∀ i : grid0.Coords, k0_cond15 i = 1#1 ↔ (i 1).val = 14 := by decide +kernel
theorem trips31 : ∀ i : grid0.Coords, (k0_t31_loop i).trips = ncopy i / 64 := by decide +kernel
theorem trips32 : ∀ i : grid0.Coords, (k0_t32_loop i).trips = 0 := fun i => Nat.le_zero.mp (k0_t32_abs i).2.1
theorem off58_eq : ∀ (i : grid0.Coords) (t : Fin (k0_t31_loop i).trips), k0_off58 i t = ![2048 * (i 0).val + 64 * t.val, 0] := by decide +kernel
theorem off59_eq : ∀ (i : grid0.Coords) (t : Fin (k0_t31_loop i).trips), k0_off59 i t = ![4096 * (i 1).val + 2048 * (i 0).val + 64 * t.val, 0] := by decide +kernel
theorem cond16_iff : ∀ i : grid0.Coords, k0_cond16 i = 1#1 ↔ (i 1).val = 15 := by decide +kernel
theorem trips33 : ∀ i : grid0.Coords, (k0_t33_loop i).trips = ncopy i / 64 := by decide +kernel
theorem trips34 : ∀ i : grid0.Coords, (k0_t34_loop i).trips = 0 := fun i => Nat.le_zero.mp (k0_t34_abs i).2.1
theorem off62_eq : ∀ (i : grid0.Coords) (t : Fin (k0_t33_loop i).trips), k0_off62 i t = ![2048 * (i 0).val + 64 * t.val, 0] := by decide +kernel
theorem off63_eq : ∀ (i : grid0.Coords) (t : Fin (k0_t33_loop i).trips), k0_off63 i t = ![4096 * (i 1).val + 2048 * (i 0).val + 64 * t.val, 0] := by decide +kernel
theorem trips35 : ∀ i : grid0.Coords, (k0_t35_loop i).trips = (2048 - ncopy i) / 64 := by decide +kernel
theorem trips36 : ∀ i : grid0.Coords, (k0_t36_loop i).trips = 0 := fun i => Nat.le_zero.mp (k0_t36_abs i).2.1
theorem off66_eq : ∀ (i : grid0.Coords) (t : Fin (k0_t35_loop i).trips), k0_off66 i t = ![4096 * (i 1).val + 2048 * (i 0).val + ncopy i + 64 * t.val, 0] := by decide +kernel

/-- The copied rows are a whole number of 64-row chunks, at most 2048. -/
theorem ncopy_dvd : ∀ i : grid0.Coords, 64 ∣ ncopy i := by decide +kernel
theorem ncopy_le (i : grid0.Coords) : ncopy i ≤ 2048 := Nat.min_le_left _ _
/-- Row `r` of the task's half is copied exactly when row `2048 c + r` is a row of sequence `s`. -/
theorem lt_ncopy_iff (i : grid0.Coords) (r : Nat) (hr : r < 2048) :
    r < ncopy i ↔ 2048 * (i 0).val + r < 4096 - 256 * (i 1).val := by
  unfold ncopy; omega
theorem coord0_lt (i : grid0.Coords) : (i 0).val < 2 := (i 0).isLt
theorem coord1_lt (i : grid0.Coords) : (i 1).val < 16 := (i 1).isLt

end Cert.Proof.KI
-- ==== Proof.KITilePure.lean ====
/-
  The arithmetic of one task's block, apart from any program.

  The task at grid point `i` (SparseCore `c = i 0`, subcore `s = i 1`) owns rows `R0 i = 4096 s + 2048 c` onwards,
  2048 of them: block `2 s + c`. `Done hi f` says the first `hi` rows of the block already hold the padded array.
  A 64-row chunk written at offset `o` inside the block with the rows `2048 c + o` onwards of sequence `s` (while they
  are rows of it) or with zeros (past its end) extends `Done o` to `Done (o + 64)`; `Done 2048` is the whole block.
-/
import proofs.«212850_g39865886441476_cont_8to1_b_277_5_alg».proof.Proof.KISetup
import proofs.«212850_g39865886441476_cont_8to1_b_277_5_alg».proof.Proof.KIArith
import Idealize.ShloMosaic.Lib.Writes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "oW" => (Memref.whole Cert.KernelIdeal.main_v0_scv : Memref Cert.KernelIdeal.sig Kind.scVector Space.hbm Cert.KernelIdeal.S65536x512 EltTy.f32)

variable (m : (ℓ : Loc nD τ sig) → Buf (Elt F) ℓ) (d : Dev nD) (i : grid0.Coords)

/-- The first output row of the task at `i`. -/
def R0 (i : grid0.Coords) : Nat := 4096 * (i 1).val + 2048 * (i 0).val
/-- Its block. -/
def bI (i : grid0.Coords) : Fin 32 := ⟨2 * (i 1).val + (i 0).val, by have := coord0_lt i; have := coord1_lt i; omega⟩

omit [FloatOps F] in
theorem R0_eq (i : grid0.Coords) : R0 i = 2048 * (bI i).val := by unfold R0 bI; simp only; omega

omit [FloatOps F] in
theorem mem_blkSet (b : Fin 32) (j : S65536x512.Idx) : j ∈ blkSet b ↔ 2048 * b.val ≤ (j 0).val ∧ (j 0).val < 2048 * b.val + 2048 := by
  unfold blkSet blk Rect.part
  rw [Rect.mem_set_unit, Fin.forall_fin_two]
  have h1 := (j 1).isLt
  simp only [Shape.partIx, Shape.partSize] at *
  constructor
  · rintro ⟨⟨h0, h0'⟩, -⟩; simp at h0 h0'; omega
  · intro ⟨h0, h0'⟩; refine ⟨⟨by simp; omega, by simp; omega⟩, by simp, by simp; exact h1⟩

/-- The 64-row chunk of the output at rows `off 0` onwards, as the program slices it. -/
abbrev chunk (off : Fin 2 → Nat) (inb : ∀ a, off a + S64x512.size a ≤ S65536x512.size a)
    (hsl : ∀ a, (Rect.unit (s := S65536x512) off S64x512.size inb).stride a = 1) : Memref sig .scVector .hbm S64x512 .f32 :=
  (oW).slice (Rect.unit (s := S65536x512) off S64x512.size inb) hsl

omit [FloatOps F] in
theorem chunk_emb (off : Fin 2 → Nat) (inb) (hsl) (y : S64x512.Idx) (a : Fin 2) :
    (((chunk off inb hsl).view.emb y : S65536x512.Idx) a).val = off a + (y a).val := by
  show off a + 1 * (y a).val = _; omega

omit [FloatOps F] in
theorem mem_chunk (off : Fin 2 → Nat) (inb) (hsl) (j : S65536x512.Idx) :
    j ∈ (chunk off inb hsl).view.set ↔ ∃ y : S64x512.Idx, (chunk off inb hsl).view.emb y = j := by
  unfold View.set; simp

omit [FloatOps F] in
theorem chunk_subset (off : Fin 2 → Nat) (inb) (hsl) (o : Nat) (ho : o + 64 ≤ 2048) (hoff : off 0 = R0 i + o) :
    (chunk off inb hsl).view.set ⊆ blkSet (bI i) := by
  intro j hj
  obtain ⟨y, rfl⟩ := (mem_chunk off inb hsl j).mp hj
  rw [mem_blkSet, chunk_emb, hoff, ← R0_eq]
  have := (y 0).isLt
  change (y 0).val < 64 at this
  omega

/-- The first `hi` rows of the block hold the padded array. -/
def Done (hi : Nat) (f : Buf (Elt F) (oLoc d)) : Prop :=
  ∀ j : S65536x512.Idx, R0 i ≤ (j 0).val → (j 0).val < R0 i + hi → f j = flat m d j

theorem done_zero (f : Buf (Elt F) (oLoc d)) : Done m d i 0 f := fun j h1 h2 => by omega

theorem done_all (f : Buf (Elt F) (oLoc d)) (h : Done m d i 2048 f) : ∀ j ∈ blkSet (bI i), f j = flat m d j := by
  intro j hj
  rw [mem_blkSet, ← R0_eq] at hj
  exact h j hj.1 hj.2

/-- What a written chunk holds: at the image of `y`, the payload at `y`; elsewhere what was there. -/
theorem chunk_writes_emb (off) (inb) (hsl) (fo : Buf (Elt F) (oLoc d)) (w : S64x512.Idx → F .f32) (y : S64x512.Idx) :
    ((chunk off inb hsl).view.writes (Elt F) fo [⟨Rect.whole S64x512, w⟩] : Buf (Elt F) (oLoc d)) ((chunk off inb hsl).view.emb y) = w y := by
  have h := View.read_writes_cons_emb (v := (chunk off inb hsl).view) (f := fo) (Rect.whole S64x512) w [] y
  have e : (Rect.whole S64x512).emb y = y := by
    funext a; apply Fin.ext; show 0 + 1 * (y a).val = _; omega
  rw [e] at h
  exact ((View.read_apply _ _).trans (cast_eq _ _)).symm.trans h

/-- One chunk more: if the written chunk agrees with the padded array, `Done o` becomes `Done (o + 64)`. -/
theorem done_step (off) (inb) (hsl) (o : Nat) (hoff : off 0 = R0 i + o) (hoff1 : off 1 = 0)
    (fo : Buf (Elt F) (oLoc d)) (w : S64x512.Idx → F .f32) (hD : Done m d i o fo)
    (hw : ∀ y : S64x512.Idx, w y = flat m d ((chunk off inb hsl).view.emb y)) :
    Done m d i (o + 64) ((chunk off inb hsl).view.set.piecewise ((chunk off inb hsl).view.writes (Elt F) fo [⟨Rect.whole S64x512, w⟩]) fo) := by
  intro j h1 h2
  by_cases hj : j ∈ (chunk off inb hsl).view.set
  · rw [Finset.piecewise_eq_of_mem _ _ _ hj]
    obtain ⟨y, rfl⟩ := (mem_chunk off inb hsl j).mp hj
    rw [chunk_writes_emb, hw]
  · rw [Finset.piecewise_eq_of_notMem _ _ _ hj]
    refine hD j h1 ?_
    by_contra hge
    apply hj
    rw [mem_chunk]
    have hj1 := (j 1).isLt
    change (j 1).val < 512 at hj1
    refine ⟨ix2 ⟨(j 0).val - (R0 i + o), by omega⟩ ⟨(j 1).val, hj1⟩, ?_⟩
    funext a; apply Fin.ext
    rw [chunk_emb]
    match a with
    | ⟨0, _⟩ => show off 0 + ((j 0).val - (R0 i + o)) = (j 0).val; omega
    | ⟨1, _⟩ => show off 1 + (j 1).val = (j 1).val; omega

/-- The padded array on the task's block: row `R0 i + r` (`r < 2048`) is row `2048 c + r` of sequence `s`, padded. -/
theorem flat_row (j : S65536x512.Idx) (r : Nat) (hr : r < 2048) (hj : (j 0).val = R0 i + r) :
    flat m d j = Cert.Spec.padded (zF (F := F)) (m (aLoc0 d)) (m (aLoc1 d)) (m (aLoc2 d)) (m (aLoc3 d)) (m (aLoc4 d)) (m (aLoc5 d)) (m (aLoc6 d)) (m (aLoc7 d)) (m (aLoc8 d)) (m (aLoc9 d)) (m (aLoc10 d)) (m (aLoc11 d)) (m (aLoc12 d)) (m (aLoc13 d)) (m (aLoc14 d)) (m (aLoc15 d)) (i 1).val (2048 * (i 0).val + r) (j 1) := by
  have h0 := coord0_lt i
  have h1 := coord1_lt i
  unfold flat Cert.Spec.padFlat
  show Cert.Spec.padded _ _ _ _ _ _ _ _ _ _ _ _ _ _ _ _ _ ((j 0).val / 4096) ((j 0).val % 4096) (j 1) = _
  rw [hj]
  have e1 : (R0 i + r) / 4096 = (i 1).val := by unfold R0; omega
  have e2 : (R0 i + r) % 4096 = 2048 * (i 0).val + r := by unfold R0; omega
  rw [e1, e2]

/-- Past the end of sequence `s` the padded array holds the padding value. -/
theorem padded_ge {X : Type} (z : X) (a0 : (⟨2, ![4096, 512]⟩ : Shape).Idx → X) (a1 : (⟨2, ![3840, 512]⟩ : Shape).Idx → X) (a2 : (⟨2, ![3584, 512]⟩ : Shape).Idx → X) (a3 : (⟨2, ![3328, 512]⟩ : Shape).Idx → X) (a4 : (⟨2, ![3072, 512]⟩ : Shape).Idx → X) (a5 : (⟨2, ![2816, 512]⟩ : Shape).Idx → X) (a6 : (⟨2, ![2560, 512]⟩ : Shape).Idx → X) (a7 : (⟨2, ![2304, 512]⟩ : Shape).Idx → X) (a8 : (⟨2, ![2048, 512]⟩ : Shape).Idx → X) (a9 : (⟨2, ![1792, 512]⟩ : Shape).Idx → X) (a10 : (⟨2, ![1536, 512]⟩ : Shape).Idx → X) (a11 : (⟨2, ![1280, 512]⟩ : Shape).Idx → X) (a12 : (⟨2, ![1024, 512]⟩ : Shape).Idx → X) (a13 : (⟨2, ![768, 512]⟩ : Shape).Idx → X) (a14 : (⟨2, ![512, 512]⟩ : Shape).Idx → X) (a15 : (⟨2, ![256, 512]⟩ : Shape).Idx → X)
    (s p : Nat) (q : Fin 512) (h : 4096 - 256 * s ≤ p) : Cert.Spec.padded z a0 a1 a2 a3 a4 a5 a6 a7 a8 a9 a10 a11 a12 a13 a14 a15 s p q = z := by
  unfold Cert.Spec.padded
  split <;> first | rfl | exact Cert.Spec.rowOr_ge _ _ _ (by omega)

set_option backward.isDefEq.respectTransparency.types false in
/-- A chunk copied from the sequence the task serves agrees with the padded array: trip `t` of the copying loop moved
    rows `2048 c + 64 t` onwards of the sequence (`sidx`: where the source slice places its own indices) to rows
    `R0 i + 64 t` onwards of the output. -/
theorem hw_copy {Ln : Nat} (a : (⟨2, ![Ln, 512]⟩ : Shape).Idx → F .f32)
    (hpad : ∀ (p : Nat) (q : Fin 512), Cert.Spec.padded (zF (F := F)) (m (aLoc0 d)) (m (aLoc1 d)) (m (aLoc2 d)) (m (aLoc3 d)) (m (aLoc4 d)) (m (aLoc5 d)) (m (aLoc6 d)) (m (aLoc7 d)) (m (aLoc8 d)) (m (aLoc9 d)) (m (aLoc10 d)) (m (aLoc11 d)) (m (aLoc12 d)) (m (aLoc13 d)) (m (aLoc14 d)) (m (aLoc15 d)) (i 1).val p q = Cert.Spec.rowOr (zF (F := F)) a p q)
    (hLn : Ln = 4096 - 256 * (i 1).val)
    (t : Nat) (ht : 64 * t + 64 ≤ ncopy i)
    (off : Fin 2 → Nat) (inb) (hsl) (hoff0 : off 0 = R0 i + 64 * t) (hoff1 : off 1 = 0)
    (sidx : S64x512.Idx → (⟨2, ![Ln, 512]⟩ : Shape).Idx)
    (hsidx : ∀ y : S64x512.Idx, ((sidx y) 0).val = 2048 * (i 0).val + 64 * t + (y 0).val ∧ ((sidx y) 1).val = (y 1).val)
    (w : S64x512.Idx → F .f32) (hw : ∀ y, w y = a (sidx y)) :
    ∀ y : S64x512.Idx, w y = flat m d ((chunk off inb hsl).view.emb y) := by
  intro y
  have hy0 : (y 0).val < 64 := (y 0).isLt
  have hnc := ncopy_le i
  have hlt : 2048 * (i 0).val + (64 * t + (y 0).val) < Ln := by
    rw [hLn]; exact (lt_ncopy_iff i (64 * t + (y 0).val) (by omega)).mp (by omega)
  rw [hw, flat_row m d i _ (64 * t + (y 0).val) (by omega) (by rw [chunk_emb, hoff0]; omega), hpad, Cert.Spec.rowOr_lt _ _ _ hlt]
  congr 1
  funext a'
  apply Fin.ext
  match a' with
  | ⟨0, _⟩ => show ((sidx y) 0).val = 2048 * (i 0).val + (64 * t + (y 0).val); rw [(hsidx y).1]; omega
  | ⟨1, _⟩ =>
    show ((sidx y) 1).val = (((chunk off inb hsl).view.emb y : S65536x512.Idx) 1).val
    rw [(hsidx y).2, chunk_emb, hoff1]; omega

set_option backward.isDefEq.respectTransparency.types false in
/-- A chunk of zeros past the copied rows agrees with the padded array. -/
theorem hw_zero (t : Nat) (ht : ncopy i + 64 * t + 64 ≤ 2048)
    (off : Fin 2 → Nat) (inb) (hsl) (hoff0 : off 0 = R0 i + ncopy i + 64 * t)
    (w : S64x512.Idx → F .f32) (hw : ∀ y, w y = zF (F := F)) :
    ∀ y : S64x512.Idx, w y = flat m d ((chunk off inb hsl).view.emb y) := by
  intro y
  have hy0 : (y 0).val < 64 := (y 0).isLt
  rw [hw, flat_row m d i _ (ncopy i + 64 * t + (y 0).val) (by omega) (by rw [chunk_emb, hoff0]; omega),
    padded_ge _ _ _ _ _ _ _ _ _ _ _ _ _ _ _ _ _ _ _ _ ?_]
  have := (lt_ncopy_iff i (ncopy i + 64 * t + (y 0).val) (by omega)).not.mp (by omega)
  omega

end Cert.Proof.KI

end
-- ==== Proof.KITileCommon.lean ====
/-
  What every task of the padding kernel shares: its thread, its specification, its two scratch buffers, and the
  zeroing of the second one.

  The task at grid point `L` runs on subcore `L 1` of SparseCore `L 0`. It is handed a read share of the sixteen
  sequences and its block of the output, and returns the shares and the block at the padded array. Before anything
  else it fills its second scratch buffer (64 x 512) with the word `0x00000000`, sixteen lanes at a time: row by
  row, 32 stores a row.
-/
import proofs.«212850_g39865886441476_cont_8to1_b_277_5_alg».proof.Proof.KITilePure

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "a0W" => (Memref.whole Cert.KernelIdeal.main_arg0_scv : Memref Cert.KernelIdeal.sig Kind.scVector Space.hbm Cert.KernelIdeal.S4096x512 EltTy.f32)
local notation "a1W" => (Memref.whole Cert.KernelIdeal.main_arg1_scv : Memref Cert.KernelIdeal.sig Kind.scVector Space.hbm Cert.KernelIdeal.S3840x512 EltTy.f32)
local notation "a2W" => (Memref.whole Cert.KernelIdeal.main_arg2_scv : Memref Cert.KernelIdeal.sig Kind.scVector Space.hbm Cert.KernelIdeal.S3584x512 EltTy.f32)
local notation "a3W" => (Memref.whole Cert.KernelIdeal.main_arg3_scv : Memref Cert.KernelIdeal.sig Kind.scVector Space.hbm Cert.KernelIdeal.S3328x512 EltTy.f32)
local notation "a4W" => (Memref.whole Cert.KernelIdeal.main_arg4_scv : Memref Cert.KernelIdeal.sig Kind.scVector Space.hbm Cert.KernelIdeal.S3072x512 EltTy.f32)
local notation "a5W" => (Memref.whole Cert.KernelIdeal.main_arg5_scv : Memref Cert.KernelIdeal.sig Kind.scVector Space.hbm Cert.KernelIdeal.S2816x512 EltTy.f32)
local notation "a6W" => (Memref.whole Cert.KernelIdeal.main_arg6_scv : Memref Cert.KernelIdeal.sig Kind.scVector Space.hbm Cert.KernelIdeal.S2560x512 EltTy.f32)
local notation "a7W" => (Memref.whole Cert.KernelIdeal.main_arg7_scv : Memref Cert.KernelIdeal.sig Kind.scVector Space.hbm Cert.KernelIdeal.S2304x512 EltTy.f32)
local notation "a8W" => (Memref.whole Cert.KernelIdeal.main_arg8_scv : Memref Cert.KernelIdeal.sig Kind.scVector Space.hbm Cert.KernelIdeal.S2048x512 EltTy.f32)
local notation "a9W" => (Memref.whole Cert.KernelIdeal.main_arg9_scv : Memref Cert.KernelIdeal.sig Kind.scVector Space.hbm Cert.KernelIdeal.S1792x512 EltTy.f32)
local notation "a10W" => (Memref.whole Cert.KernelIdeal.main_arg10_scv : Memref Cert.KernelIdeal.sig Kind.scVector Space.hbm Cert.KernelIdeal.S1536x512 EltTy.f32)
local notation "a11W" => (Memref.whole Cert.KernelIdeal.main_arg11_scv : Memref Cert.KernelIdeal.sig Kind.scVector Space.hbm Cert.KernelIdeal.S1280x512 EltTy.f32)
local notation "a12W" => (Memref.whole Cert.KernelIdeal.main_arg12_scv : Memref Cert.KernelIdeal.sig Kind.scVector Space.hbm Cert.KernelIdeal.S1024x512 EltTy.f32)
local notation "a13W" => (Memref.whole Cert.KernelIdeal.main_arg13_scv : Memref Cert.KernelIdeal.sig Kind.scVector Space.hbm Cert.KernelIdeal.S768x512 EltTy.f32)
local notation "a14W" => (Memref.whole Cert.KernelIdeal.main_arg14_scv : Memref Cert.KernelIdeal.sig Kind.scVector Space.hbm Cert.KernelIdeal.S512x512 EltTy.f32)
local notation "a15W" => (Memref.whole Cert.KernelIdeal.main_arg15_scv : Memref Cert.KernelIdeal.sig Kind.scVector Space.hbm Cert.KernelIdeal.S256x512 EltTy.f32)
local notation "oW" => (Memref.whole Cert.KernelIdeal.main_v0_scv : Memref Cert.KernelIdeal.sig Kind.scVector Space.hbm Cert.KernelIdeal.S65536x512 EltTy.f32)
local notation "bW" => (Memref.whole Cert.KernelIdeal.cc0_scratch0 : Memref Cert.KernelIdeal.sig Kind.scVector Space.vmem Cert.KernelIdeal.S64x512 EltTy.f32)
local notation "zW" => (Memref.whole Cert.KernelIdeal.cc0_scratch1 : Memref Cert.KernelIdeal.sig Kind.scVector Space.vmem Cert.KernelIdeal.S64x512 EltTy.f32)

variable (m : (ℓ : Loc nD τ sig) → Buf (Elt F) ℓ) (d : Dev nD)

/-- The task's thread. -/
abbrev thr (d : Dev nD) (L : grid0.Coords) : Thread nD τ := V d ((L 0).castLE hcore0) ((L 1).castLE hsub0)

omit [FloatOps F] in
theorem bound_zero : grid0.bound 0 = 2 := rfl
omit [FloatOps F] in
theorem bound_one : grid0.bound 1 = 16 := rfl
abbrev cL (L : grid0.Coords) : Fin 2 := Fin.cast bound_zero (L 0)
abbrev sL (L : grid0.Coords) : Fin 16 := Fin.cast bound_one (L 1)

omit [FloatOps F] in
theorem bIx_eq (L : grid0.Coords) : bIx (cL L) (sL L) = bI L := Fin.ext rfl

/-- The task: from the launch's levels, its share of the sequences, its block of the output, its own buffers and
    semaphores and what it owes, the kernel's body runs and leaves the block at the padded array. -/
def TileSpec (L : grid0.Coords) (O : CellTallies nD τ sig (HIx 1)) (W : Waits sig (HIx 1)) : Prop :=
  iprop(levAts (K (F := F)).L (K (F := F)).lev ∗ emp
        ∗ (argsAt m (shT (cL L) (sL L)) d ∗ oLoc d ↦[blkSet (bI L)]{fullShare} m (oLoc d))
        ∗ scopedBufs (thr d L) ∗ scopedSems0 (thr d L) ∗ owes (thr d L) O W)
      ⊢ wp frame (wpE (defs₀ (F := F)) 𝒱₀ (thr d L) none) Set.univ
          (cc0__pad_body L a0W (Memref.isWhole_whole _) a1W (Memref.isWhole_whole _) a2W (Memref.isWhole_whole _) a3W (Memref.isWhole_whole _) a4W (Memref.isWhole_whole _) a5W (Memref.isWhole_whole _) a6W (Memref.isWhole_whole _) a7W (Memref.isWhole_whole _) a8W (Memref.isWhole_whole _) a9W (Memref.isWhole_whole _) a10W (Memref.isWhole_whole _) a11W (Memref.isWhole_whole _) a12W (Memref.isWhole_whole _) a13W (Memref.isWhole_whole _) a14W (Memref.isWhole_whole _) a15W (Memref.isWhole_whole _) oW (Memref.isWhole_whole _) bW (Memref.isWhole_whole _) zW (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65)
          fun _ => iprop((argsAt m (shT (cL L) (sL L)) d ∗ oLoc d ↦[blkSet (bI L)]{fullShare} flat m d)
            ∗ scopedBufs (thr d L) ∗ scopedSems0 (thr d L)
            ∗ ∃ W', ⌜∀ p ∈ W', p ∈ W ∨ p.2 = none⌝ ∗ owes (thr d L) O W')

omit [FloatOps F] in
/-- The two scratch buffers are among the subcore's own: they are them, at some contents, and the rest. -/
theorem ownBufs_V (L : grid0.Coords) :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector ((L 0).castLE hcore0) ((L 1).castLE hsub0))).erase ((Proc.scVector ((L 0).castLE hcore0) ((L 1).castLE hsub0)).devRef cc0_scratch0)).erase
              ((Proc.scVector ((L 0).castLE hcore0) ((L 1).castLE hsub0)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector ((L 0).castLE hcore0) ((L 1).castLE hsub0))
    (b := (Proc.scVector ((L 0).castLE hcore0) ((L 1).castLE hsub0)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector ((L 0).castLE hcore0) ((L 1).castLE hsub0)) (b := (Proc.scVector ((L 0).castLE hcore0) ((L 1).castLE hsub0)).devRef cc0_scratch1) rfl⟩)]

omit [FloatOps F] in
theorem pts_b (L : grid0.Coords) (f : Buf (Elt F) ((thr d L).loc cc0_scratch0)) :
    ((bW).view.loc (thr d L) ↦{fullShare} f : sProp 𝕄) = (thr d L).loc cc0_scratch0 ↦{fullShare} f := rfl
omit [FloatOps F] in
theorem pts_z (L : grid0.Coords) (f : Buf (Elt F) ((thr d L).loc cc0_scratch1)) :
    ((zW).view.loc (thr d L) ↦{fullShare} f : sProp 𝕄) = (thr d L).loc cc0_scratch1 ↦{fullShare} f := rfl
omit [FloatOps F] in
/-- A chunk of the output as its slice memref addresses it is that chunk of the TensorCore's array. -/
theorem pts_chunk (L : grid0.Coords) (off : Fin 2 → Nat) (inb) (hsl) (f : Buf (Elt F) (oLoc d)) :
    ((chunk off inb hsl).view.loc (thr d L) ↦[(chunk off inb hsl).view.set]{fullShare} f : sProp 𝕄)
      = oLoc d ↦[(chunk off inb hsl).view.set]{fullShare} f := rfl

/-! ## The zeroing loops -/

/-- Before store `k2` of row `k1`: the rows above, and the first `16 k2` lanes of this one, are zero. -/
def invZ2 (L : grid0.Coords) (k1 : Fin k0_t1_loop.trips) (k2 : Nat) (_ : PUnit) : sProp 𝕄 :=
  iprop(∃ f, ((zW).view.loc (thr d L) ↦{fullShare} f) ∗ ⌜∀ (r : Fin 64) (q : Fin 512), (r.val < k1.val ∨ (r.val = k1.val ∧ q.val < 16 * k2)) → f (ix2 r q) = zF (F := F)⌝)
/-- Before row `k1`: the rows above are zero. -/
def invZ1 (L : grid0.Coords) (k1 : Nat) (_ : PUnit) : sProp 𝕄 :=
  iprop(∃ f, ((zW).view.loc (thr d L) ↦{fullShare} f) ∗ ⌜∀ (r : Fin 64) (q : Fin 512), r.val < k1 → f (ix2 r q) = zF (F := F)⌝)

theorem pay1_apply (x : S1x16.Idx) : (k0_pay1 (F := F)) x = zF (F := F) := rfl

omit [FloatOps F] in
/-- Store `k2` of row `k1` covers lanes `16 k2 … 16 k2 + 15` of that row. -/
theorem mem_row16 (k1 : Fin k0_t1_loop.trips) (k2 : Fin k0_t2_loop.trips) (r : Fin 64) (q : Fin 512) :
    ix2 r q ∈ (Rect.unit (s := S64x512) (k0_off1 k1 k2) S1x16.size (k0_off1_inb k1 k2)).set
      ↔ (k1.val ≤ r.val ∧ r.val < k1.val + 1) ∧ (16 * k2.val ≤ q.val ∧ q.val < 16 * k2.val + 16) := by
  rw [Rect.mem_set_unit, Fin.forall_fin_two, k0_off1_eq]
  exact Iff.rfl

set_option maxHeartbeats 1000000 in
theorem invZ2_step (k1 : Fin k0_t1_loop.trips) (k2 : Fin k0_t2_loop.trips) (f : S64x512.Idx → F .f32)
    (hf : ∀ (r : Fin 64) (q : Fin 512), (r.val < k1.val ∨ (r.val = k1.val ∧ q.val < 16 * k2.val)) → f (ix2 r q) = zF (F := F)) :
    ∀ (r : Fin 64) (q : Fin 512), (r.val < k1.val ∨ (r.val = k1.val ∧ q.val < 16 * (k2.val + 1))) →
      ((zW).view.writes (Elt F) f [⟨Rect.unit (s := S64x512) (k0_off1 k1 k2) S1x16.size (k0_off1_inb k1 k2), k0_pay1 (F := F)⟩]) (ix2 r q) = zF (F := F) := by
  intro r q hrq
  have rd : ∀ g : (cc0_scratch1 : Ref sig .scVector).ty.Contents (Elt F), (View.whole (cc0_scratch1 : Ref sig .scVector)).read (Elt F) g = g :=
    fun g => View.read_whole _ g
  by_cases hm : ix2 r q ∈ (Rect.unit (s := S64x512) (k0_off1 k1 k2) S1x16.size (k0_off1_inb k1 k2)).set
  · have h := View.read_writes_apply_of_pieces (Val := Elt F) (v := View.whole (cc0_scratch1 : Ref sig .scVector)) (f := f) (fun _ => zF (F := F))
      [⟨Rect.unit (s := S64x512) (k0_off1 k1 k2) S1x16.size (k0_off1_inb k1 k2), k0_pay1 (F := F)⟩]
      (by intro p hp x; rw [List.mem_singleton] at hp; subst hp; rfl) (ix2 r q)
      ⟨⟨Rect.unit (s := S64x512) (k0_off1 k1 k2) S1x16.size (k0_off1_inb k1 k2), k0_pay1 (F := F)⟩, List.mem_singleton_self _, hm⟩
    rw [rd] at h
    exact h
  · have h := View.read_writes_apply_of_forall_not_mem (Val := Elt F) (v := View.whole (cc0_scratch1 : Ref sig .scVector)) (f := f) (ix2 r q)
      [⟨Rect.unit (s := S64x512) (k0_off1 k1 k2) S1x16.size (k0_off1_inb k1 k2), k0_pay1 (F := F)⟩]
      (by intro p hp; rw [List.mem_singleton] at hp; subst hp; exact hm)
    rw [rd, rd] at h
    refine h.trans (hf r q ?_)
    rw [mem_row16] at hm
    omega

theorem invZ2_init (k1 : Fin k0_t1_loop.trips) (f : S64x512.Idx → F .f32)
    (hf : ∀ (r : Fin 64) (q : Fin 512), r.val < k1.val → f (ix2 r q) = zF (F := F)) :
    ∀ (r : Fin 64) (q : Fin 512), (r.val < k1.val ∨ (r.val = k1.val ∧ q.val < 16 * 0)) → f (ix2 r q) = zF (F := F) := by
  intro r q h; rcases h with h | ⟨_, h⟩
  · exact hf r q h
  · omega

omit [FloatOps F] in
theorem trips2_eq : k0_t2_loop.trips = 32 := by decide
omit [FloatOps F] in
theorem trips1_eq : k0_t1_loop.trips = 64 := by decide

theorem invZ1_step (k1 : Fin k0_t1_loop.trips) (f : S64x512.Idx → F .f32)
    (hf : ∀ (r : Fin 64) (q : Fin 512), (r.val < k1.val ∨ (r.val = k1.val ∧ q.val < 16 * k0_t2_loop.trips)) → f (ix2 r q) = zF (F := F)) :
    ∀ (r : Fin 64) (q : Fin 512), r.val < k1.val + 1 → f (ix2 r q) = zF (F := F) := by
  intro r q h
  refine hf r q ?_
  rw [trips2_eq]
  have := q.isLt
  omega

theorem invZ1_final (f : S64x512.Idx → F .f32)
    (hf : ∀ (r : Fin 64) (q : Fin 512), r.val < k0_t1_loop.trips → f (ix2 r q) = zF (F := F)) : f = fun _ => zF (F := F) := by
  funext j
  rw [eq_ix2 j]
  exact hf _ _ (by rw [trips1_eq]; exact (j 0).isLt)

/-- The zero-filling loop's invariant before trip `t`: the copied rows and the first `64 t` rows after them hold the
    padded array; the second scratch buffer is all zeros. -/
def invF (L : grid0.Coords) (O : CellTallies nD τ sig (HIx 1)) (W : Waits sig (HIx 1)) (t : Nat) (_ : PUnit) : sProp 𝕄 :=
  iprop(Transfers.MayWaits (thr d L) (none : HIx 1) O
    ∗ ((zW).view.loc (thr d L) ↦{fullShare} (fun _ => zF (F := F)))
    ∗ (∃ fo, (oLoc d ↦[blkSet (bI L)]{fullShare} fo) ∗ ⌜Done m d L (ncopy L + 64 * t) fo⌝)
    ∗ semVal (thr d L, SemLoc.dma cc0_scoped64.sem) 0
    ∗ ∃ W', ⌜∀ p ∈ W', p ∈ W ∨ p.2 = none⌝ ∗ owes (thr d L) O W')

end Cert.Proof.KI

end
-- ==== Proof.KITile0.lean ====
/-
  The task on subcore 0 (of either SparseCore): it serves sequence 0, of 4096 rows. Its second scratch buffer is
  zeroed; the rows of the sequence that fall in its half are copied, 64 at a time, through the first scratch buffer
  into its block of the output; the rest of the block is filled from the zeroed buffer. Each loop keeps "the first so
  many rows of the block hold the padded array".
-/
import proofs.«212850_g39865886441476_cont_8to1_b_277_5_alg».proof.Proof.KITileCommon

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "a0W" => (Memref.whole Cert.KernelIdeal.main_arg0_scv : Memref Cert.KernelIdeal.sig Kind.scVector Space.hbm Cert.KernelIdeal.S4096x512 EltTy.f32)
local notation "a1W" => (Memref.whole Cert.KernelIdeal.main_arg1_scv : Memref Cert.KernelIdeal.sig Kind.scVector Space.hbm Cert.KernelIdeal.S3840x512 EltTy.f32)
local notation "a2W" => (Memref.whole Cert.KernelIdeal.main_arg2_scv : Memref Cert.KernelIdeal.sig Kind.scVector Space.hbm Cert.KernelIdeal.S3584x512 EltTy.f32)
local notation "a3W" => (Memref.whole Cert.KernelIdeal.main_arg3_scv : Memref Cert.KernelIdeal.sig Kind.scVector Space.hbm Cert.KernelIdeal.S3328x512 EltTy.f32)
local notation "a4W" => (Memref.whole Cert.KernelIdeal.main_arg4_scv : Memref Cert.KernelIdeal.sig Kind.scVector Space.hbm Cert.KernelIdeal.S3072x512 EltTy.f32)
local notation "a5W" => (Memref.whole Cert.KernelIdeal.main_arg5_scv : Memref Cert.KernelIdeal.sig Kind.scVector Space.hbm Cert.KernelIdeal.S2816x512 EltTy.f32)
local notation "a6W" => (Memref.whole Cert.KernelIdeal.main_arg6_scv : Memref Cert.KernelIdeal.sig Kind.scVector Space.hbm Cert.KernelIdeal.S2560x512 EltTy.f32)
local notation "a7W" => (Memref.whole Cert.KernelIdeal.main_arg7_scv : Memref Cert.KernelIdeal.sig Kind.scVector Space.hbm Cert.KernelIdeal.S2304x512 EltTy.f32)
local notation "a8W" => (Memref.whole Cert.KernelIdeal.main_arg8_scv : Memref Cert.KernelIdeal.sig Kind.scVector Space.hbm Cert.KernelIdeal.S2048x512 EltTy.f32)
local notation "a9W" => (Memref.whole Cert.KernelIdeal.main_arg9_scv : Memref Cert.KernelIdeal.sig Kind.scVector Space.hbm Cert.KernelIdeal.S1792x512 EltTy.f32)
local notation "a10W" => (Memref.whole Cert.KernelIdeal.main_arg10_scv : Memref Cert.KernelIdeal.sig Kind.scVector Space.hbm Cert.KernelIdeal.S1536x512 EltTy.f32)
local notation "a11W" => (Memref.whole Cert.KernelIdeal.main_arg11_scv : Memref Cert.KernelIdeal.sig Kind.scVector Space.hbm Cert.KernelIdeal.S1280x512 EltTy.f32)
local notation "a12W" => (Memref.whole Cert.KernelIdeal.main_arg12_scv : Memref Cert.KernelIdeal.sig Kind.scVector Space.hbm Cert.KernelIdeal.S1024x512 EltTy.f32)
local notation "a13W" => (Memref.whole Cert.KernelIdeal.main_arg13_scv : Memref Cert.KernelIdeal.sig Kind.scVector Space.hbm Cert.KernelIdeal.S768x512 EltTy.f32)
local notation "a14W" => (Memref.whole Cert.KernelIdeal.main_arg14_scv : Memref Cert.KernelIdeal.sig Kind.scVector Space.hbm Cert.KernelIdeal.S512x512 EltTy.f32)
local notation "a15W" => (Memref.whole Cert.KernelIdeal.main_arg15_scv : Memref Cert.KernelIdeal.sig Kind.scVector Space.hbm Cert.KernelIdeal.S256x512 EltTy.f32)
local notation "oW" => (Memref.whole Cert.KernelIdeal.main_v0_scv : Memref Cert.KernelIdeal.sig Kind.scVector Space.hbm Cert.KernelIdeal.S65536x512 EltTy.f32)
local notation "bW" => (Memref.whole Cert.KernelIdeal.cc0_scratch0 : Memref Cert.KernelIdeal.sig Kind.scVector Space.vmem Cert.KernelIdeal.S64x512 EltTy.f32)
local notation "zW" => (Memref.whole Cert.KernelIdeal.cc0_scratch1 : Memref Cert.KernelIdeal.sig Kind.scVector Space.vmem Cert.KernelIdeal.S64x512 EltTy.f32)

variable (m : (ℓ : Loc nD τ sig) → Buf (Elt F) ℓ) (d : Dev nD)

omit [FloatOps F] in
theorem ownSems0_V0 (L : grid0.Coords) :
    (ownSems0 (thr d L) : sProp 𝕄)
      = iprop(semVal (thr d L, SemLoc.dma cc0_scoped0.sem) 0 ∗ semVal (thr d L, SemLoc.dma cc0_scoped1.sem) 0 ∗ semVal (thr d L, SemLoc.dma cc0_scoped64.sem) 0
          ∗ bigSep ((((ownCells (thr d L)).erase (thr d L, SemLoc.dma cc0_scoped0.sem)).erase (thr d L, SemLoc.dma cc0_scoped1.sem)).erase (thr d L, SemLoc.dma cc0_scoped64.sem))
              fun g => semVal g 0) := by
  unfold SparseCore.Cfg.ownSems0
  rw [SparseCore.bigSep_erase' ((mem_ownCells (g := (thr d L, SemLoc.dma cc0_scoped0.sem))).mpr ⟨rfl, by
      show (SemLoc.dma cc0_scoped0.sem : SemLoc sig).isScoped .scVector = true; decide⟩),
    SparseCore.bigSep_erase' (Finset.mem_erase.mpr ⟨by simp; decide, (mem_ownCells (g := (thr d L, SemLoc.dma cc0_scoped1.sem))).mpr ⟨rfl, by
      show (SemLoc.dma cc0_scoped1.sem : SemLoc sig).isScoped .scVector = true; decide⟩⟩),
    SparseCore.bigSep_erase' (Finset.mem_erase.mpr ⟨by simp; decide, Finset.mem_erase.mpr ⟨by simp; decide,
      (mem_ownCells (g := (thr d L, SemLoc.dma cc0_scoped64.sem))).mpr ⟨rfl, by show (SemLoc.dma cc0_scoped64.sem : SemLoc sig).isScoped .scVector = true; decide⟩⟩⟩)]

/-- The source chunk of trip `t`, as the program slices it. -/
abbrev srcS0 (L : grid0.Coords) (h : k0_cond1 L = 1#1) (t : Fin (k0_t3_loop L).trips) : Memref sig .scVector .hbm S64x512 .f32 :=
  (a0W).slice (Rect.unit (s := S4096x512) (k0_off2 L t) S64x512.size (k0_off2_inb L t h)) (fun _ => rfl)

omit [FloatOps F] in
theorem pts_a0 (L : grid0.Coords) (q : PosShare TreeShare) (f : Buf (Elt F) (aLoc0 d)) :
    ((a0W).view.loc (thr d L) ↦{q} f : sProp 𝕄) = aLoc0 d ↦{q} f := rfl

/-- The copying loop's invariant before trip `t`: the first `64 t` rows of the block hold the padded array. -/
def invC0 (L : grid0.Coords) (O : CellTallies nD τ sig (HIx 1)) (W : Waits sig (HIx 1)) (q : PosShare TreeShare) (t : Nat) (_ : PUnit) : sProp 𝕄 :=
  iprop(Transfers.MayWaits (thr d L) (none : HIx 1) O
    ∗ ((a0W).view.loc (thr d L) ↦{q} m (aLoc0 d))
    ∗ (∃ fb, (bW).view.loc (thr d L) ↦{fullShare} fb)
    ∗ (∃ fo, (oLoc d ↦[blkSet (bI L)]{fullShare} fo) ∗ ⌜Done m d L (64 * t) fo⌝)
    ∗ semVal (thr d L, SemLoc.dma cc0_scoped0.sem) 0
    ∗ semVal (thr d L, SemLoc.dma cc0_scoped1.sem) 0
    ∗ ∃ W', ⌜∀ p ∈ W', p ∈ W ∨ p.2 = none⌝ ∗ owes (thr d L) O W')

theorem tile_s0 (hF : (K (F := F)).Facts) (L : grid0.Coords) (hs : (L 1).val = 0) (O : CellTallies nD τ sig (HIx 1)) (W : Waits sig (HIx 1)) (hO : ∀ g, O g none = 0) :
    TileSpec m d L O W := by
  have k0_h1 : k0_cond1 L = 1#1 := (cond1_iff L).mpr hs
  have k0_h2 : ¬ k0_cond2 L = 1#1 := fun h => absurd ((cond2_iff L).mp h) (by omega)
  have k0_h3 : ¬ k0_cond3 L = 1#1 := fun h => absurd ((cond3_iff L).mp h) (by omega)
  have k0_h4 : ¬ k0_cond4 L = 1#1 := fun h => absurd ((cond4_iff L).mp h) (by omega)
  have k0_h5 : ¬ k0_cond5 L = 1#1 := fun h => absurd ((cond5_iff L).mp h) (by omega)
  have k0_h6 : ¬ k0_cond6 L = 1#1 := fun h => absurd ((cond6_iff L).mp h) (by omega)
  have k0_h7 : ¬ k0_cond7 L = 1#1 := fun h => absurd ((cond7_iff L).mp h) (by omega)
  have k0_h8 : ¬ k0_cond8 L = 1#1 := fun h => absurd ((cond8_iff L).mp h) (by omega)
  have k0_h9 : ¬ k0_cond9 L = 1#1 := fun h => absurd ((cond9_iff L).mp h) (by omega)
  have k0_h10 : ¬ k0_cond10 L = 1#1 := fun h => absurd ((cond10_iff L).mp h) (by omega)
  have k0_h11 : ¬ k0_cond11 L = 1#1 := fun h => absurd ((cond11_iff L).mp h) (by omega)
  have k0_h12 : ¬ k0_cond12 L = 1#1 := fun h => absurd ((cond12_iff L).mp h) (by omega)
  have k0_h13 : ¬ k0_cond13 L = 1#1 := fun h => absurd ((cond13_iff L).mp h) (by omega)
  have k0_h14 : ¬ k0_cond14 L = 1#1 := fun h => absurd ((cond14_iff L).mp h) (by omega)
  have k0_h15 : ¬ k0_cond15 L = 1#1 := fun h => absurd ((cond15_iff L).mp h) (by omega)
  have k0_h16 : ¬ k0_cond16 L = 1#1 := fun h => absurd ((cond16_iff L).mp h) (by omega)
  have rt : ∀ (fb rd : (cc0_scratch0 : Ref sig .scVector).ty.Contents (Elt F)),
      ReadAs.same.apply (View.read (Elt F) (View.whole (cc0_scratch0 : Ref sig .scVector)) (View.write (Elt F) (View.whole (cc0_scratch0 : Ref sig .scVector)) fb (ReadAs.same.apply rd) Finset.univ)) = rd :=
    fun fb rd => (congrArg (View.read (Elt F) (View.whole (cc0_scratch0 : Ref sig .scVector))) (View.write_whole_univ (Val := Elt F) (cc0_scratch0 : Ref sig .scVector) fb rd)).trans (View.read_whole _ rd)
  unfold TileSpec
  simp only [cc0__pad_body_eq_skeleton]; unfold cc0__pad_body_skel
  rw [(K (F := F)).scopedBufs_V hF d _ _, SparseCore.Cfg.scopedSems0_V (Val := Elt F) d _ _, ownSems0_V0, ownBufs_V]
  unfold argsAt
  iintro ⟨#Hlv, -, ⟨⟨A0, A1, A2, A3, A4, A5, A6, A7, A8, A9, A10, A11, A12, A13, A14, A15⟩, Ho⟩, ⟨⟨%fb, Hb⟩, ⟨%fz, Hz⟩, Hbufs⟩, ⟨Hs0, Hs1, Hs64, Hsems⟩, HO⟩
  ihave Hmw := ((K (F := F)).mayWaits_none (thr := thr d L) hO) $$ Hlv
  ihave Aa := (Entails.of_eq (pts_a0 (F := F) d L _ _).symm) $$ A0
  ihave Hb' := (Entails.of_eq (pts_b (F := F) d L _).symm) $$ Hb
  ihave Hz' := (Entails.of_eq (pts_z (F := F) d L _).symm) $$ Hz
  sl_exec
  -- the zeroing loops
  sl_for (invZ1 (F := F) d L) $$ [Hz']
  case region =>
    intro k1 _
    unfold invZ1
    iintro ⟨%f, Hz, %hf⟩
    sl_exec
    sl_for (invZ2 (F := F) d L k1) $$ [Hz]
    case region =>
      intro k2 _
      unfold invZ2
      iintro ⟨%f, Hz, %hf⟩
      sl_exec
      sl_step
      iexists _; isplitl [Hz]; · iexact Hz
      ipureintro
      exact invZ2_step k1 k2 f hf
    · unfold invZ2
      iexists f; isplitl [Hz]; · iexact Hz
      ipureintro
      exact invZ2_init k1 f hf
    iintro %_ HI
    unfold invZ2
    icases HI with ⟨%f', Hz, %hf'⟩
    sl_exec
    sl_step
    iexists f'; isplitl [Hz]; · iexact Hz
    ipureintro
    exact invZ1_step k1 f' hf'
  · unfold invZ1
    iexists fz; isplitl [Hz']; · iexact Hz'
    ipureintro
    intro r q h; omega
  iintro %_ HI
  unfold invZ1
  icases HI with ⟨%fz1, Hz, %hfz⟩
  have hfz1 : fz1 = fun _ => zF (F := F) := invZ1_final fz1 hfz
  subst hfz1
  sl_exec
  -- the copying loop
  sl_for (invC0 (F := F) m d L O W (shT (cL L) (sL L))) $$ [Hmw Aa Hb' Ho Hs0 Hs1 HO]
  case region =>
    intro t _
    unfold invC0
    iintro ⟨Hmw, Aa, ⟨%fb, Hb⟩, ⟨%fo, Ho, %hD⟩, Hs0, Hs1, %W', %hW', HO⟩
    have htr : 64 * t.val + 64 ≤ ncopy L := by
      have h1 := t.isLt; have h2 := trips3 L; have h3 := ncopy_dvd L
      change t.val < (k0_t3_loop L).trips at h1
      rw [h2] at h1; omega
    have hnc := ncopy_le L
    have hoff : k0_off3 L t 0 = R0 L + 64 * t.val := by rw [off3_eq]; unfold R0; rfl
    have hsub := chunk_subset L (k0_off3 L t) (k0_off3_inb L t k0_h1) (fun _ => rfl) (64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Aa]; · iexact Aa
    isplitl [Hb]; · iexists _; iexact Hb
    isplitl [Ho]
    · iexists _; isplitl [Ho]; · iexact Ho
      ipureintro
      have e : 64 * (t.val + 1) = 64 * t.val + 64 := by omega
      rw [e]
      refine done_step m d L _ _ _ (64 * t.val) hoff (by rw [off3_eq]; rfl) fo _ hD ?_
      refine hw_copy m d L (m (aLoc0 d)) (fun p q => by rw [hs]; rfl) (by rw [hs]) t.val htr _ _ _ hoff (by rw [off3_eq]; rfl)
        (fun y => (srcS0 L k0_h1 t).view.emb y) (fun y => ?_) _
        (fun y => (congrFun (rt fb _) y).trans ((View.read_apply (v := (srcS0 L k0_h1 t).view) _ y).trans (cast_eq _ _)))
      constructor
      · show k0_off2 L t 0 + 1 * (y 0).val = _; rw [off2_eq]; show 2048 * (L 0).val + 64 * t.val + 1 * (y 0).val = _; omega
      · show k0_off2 L t 1 + 1 * (y 1).val = _; rw [off2_eq]; show 0 + 1 * (y 1).val = _; omega
    isplitl [Hs0]; · iexact Hs0
    isplitl [Hs1]; · iexact Hs1
    iexists (insert (SemLoc.dma cc0_scoped1.sem, (default : HIx 1)) (insert (SemLoc.dma cc0_scoped0.sem, (default : HIx 1)) W')); isplitr
    · ipureintro; intro p hp
      rcases Finset.mem_insert.mp hp with hp | hp
      · exact .inr (hp ▸ rfl)
      rcases Finset.mem_insert.mp hp with hp | hp
      · exact .inr (hp ▸ rfl)
      · exact hW' p hp
    · iexact HO
  · unfold invC0
    isplitl [Hmw]; · iexact Hmw
    isplitl [Aa]; · iexact Aa
    isplitl [Hb']; · iexists _; iexact Hb'
    isplitl [Ho]
    · iexists _; isplitl [Ho]; · iexact Ho
      ipureintro; exact done_zero m d L _
    isplitl [Hs0]; · iexact Hs0
    isplitl [Hs1]; · iexact Hs1
    iexists W; isplitr
    · ipureintro; exact fun p hp => .inl hp
    · iexact HO
  iintro %_ HI
  unfold invC0
  icases HI with ⟨Hmw, Aa, ⟨%fb, Hb⟩, ⟨%fo, Ho, %hD⟩, Hs0, Hs1, %W1, %hW1, HO⟩
  have hDn : Done m d L (ncopy L) fo := by
    have h3 := ncopy_dvd L
    have e : 64 * (k0_t3_loop L).trips = ncopy L := by rw [trips3 L]; omega
    rw [← e]; exact hD
  sl_exec
  -- the remainder of the unrolling by one: no trips
  sl_for (fun (_ : Nat) (_ : PUnit) => (iprop(emp) : sProp 𝕄)) $$ []
  case region =>
    intro t _
    exact absurd t.isLt (by have h0 := trips4 L; change ¬ (t.val < (k0_t4_loop L).trips); omega)
  · iempintro
  iintro %_ -
  sl_exec
  -- the zero-filling loop
  sl_for (invF (F := F) m d L O W) $$ [Hmw Hz Ho Hs64 HO]
  case region =>
    intro t _
    unfold invF
    iintro ⟨Hmw, Hz, ⟨%fo, Ho, %hD⟩, Hs64, %W', %hW', HO⟩
    have hnc := ncopy_le L
    have htr : ncopy L + 64 * t.val + 64 ≤ 2048 := by
      have h1 := t.isLt; have h2 := trips35 L; obtain ⟨c, hc⟩ := ncopy_dvd L
      change t.val < (k0_t35_loop L).trips at h1
      rw [h2] at h1; omega
    have hoff : k0_off66 L t 0 = R0 L + (ncopy L + 64 * t.val) := by rw [off66_eq]; unfold R0; show _ + _ + _ + _ = _; omega
    have hsub := chunk_subset L (k0_off66 L t) (k0_off66_inb L t) (fun _ => rfl) (ncopy L + 64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Hz]; · iexact Hz
    isplitl [Ho]
    · iexists _; isplitl [Ho]; · iexact Ho
      ipureintro
      have e : ncopy L + 64 * (t.val + 1) = (ncopy L + 64 * t.val) + 64 := by omega
      rw [e]
      refine done_step m d L _ _ _ (ncopy L + 64 * t.val) hoff (by rw [off66_eq]; rfl) fo _ hD ?_
      exact hw_zero m d L t.val htr _ _ _ (by rw [hoff]; omega) _ (fun y => rfl)
    isplitl [Hs64]; · iexact Hs64
    iexists (insert (SemLoc.dma cc0_scoped64.sem, (default : HIx 1)) W'); isplitr
    · ipureintro; intro p hp
      rcases Finset.mem_insert.mp hp with hp | hp
      · exact .inr (hp ▸ rfl)
      · exact hW' p hp
    · iexact HO
  · unfold invF
    isplitl [Hmw]; · iexact Hmw
    isplitl [Hz]; · iexact Hz
    isplitl [Ho]
    · iexists _; isplitl [Ho]; · iexact Ho
      ipureintro; rw [Nat.mul_zero, Nat.add_zero]; exact hDn
    isplitl [Hs64]; · iexact Hs64
    iexists W1; isplitr
    · ipureintro; exact hW1
    · iexact HO
  iintro %_ HI
  unfold invF
  icases HI with ⟨Hmw, Hz, ⟨%fo2, Ho, %hD2⟩, Hs64, %W2, %hW2, HO⟩
  have hAll : Done m d L 2048 fo2 := by
    have hnc := ncopy_le L
    obtain ⟨c, hc⟩ := ncopy_dvd L
    have e : ncopy L + 64 * (k0_t35_loop L).trips = 2048 := by rw [trips35 L]; omega
    rw [← e]; exact hD2
  sl_exec
  sl_for (fun (_ : Nat) (_ : PUnit) => (iprop(emp) : sProp 𝕄)) $$ []
  case region =>
    intro t _
    exact absurd t.isLt (by have h0 := trips36 L; change ¬ (t.val < (k0_t36_loop L).trips); omega)
  · iempintro
  iintro %_ -
  sl_exec
  sl_step
  -- hand everything back
  isplitl [A1 A2 A3 A4 A5 A6 A7 A8 A9 A10 A11 A12 A13 A14 A15 Aa Ho]
  · isplitl [A1 A2 A3 A4 A5 A6 A7 A8 A9 A10 A11 A12 A13 A14 A15 Aa]
    ·
      isplitl [Aa]; · iapply (Entails.of_eq (pts_a0 (F := F) d L _ _)); iexact Aa
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [A12]; · iexact A12
      isplitl [A13]; · iexact A13
      isplitl [A14]; · iexact A14
      iexact A15
    · iapply (Entails.of_eq (pointsTo_congr (ℓ := oLoc d) (done_all m d L fo2 hAll))); iexact Ho
  isplitl [Hb Hz Hbufs]
  · isplitl [Hb]; · iexists _; iapply (Entails.of_eq (pts_b (F := F) d L _)); iexact Hb
    isplitl [Hz]; · iexists _; iapply (Entails.of_eq (pts_z (F := F) d L _)); iexact Hz
    iexact Hbufs
  isplitl [Hs0 Hs1 Hs64 Hsems]
  · isplitl [Hs0]; · iexact Hs0
    isplitl [Hs1]; · iexact Hs1
    isplitl [Hs64]; · iexact Hs64
    iexact Hsems
  iexists W2; isplitr
  · ipureintro; exact hW2
  · iexact HO

end Cert.Proof.KI

end
-- ==== Proof.KITile1.lean ====
/-
  The task on subcore 1 (of either SparseCore): it serves sequence 1, of 3840 rows. Its second scratch buffer is
  zeroed; the rows of the sequence that fall in its half are copied, 64 at a time, through the first scratch buffer
  into its block of the output; the rest of the block is filled from the zeroed buffer. Each loop keeps "the first so
  many rows of the block hold the padded array".
-/
import proofs.«212850_g39865886441476_cont_8to1_b_277_5_alg».proof.Proof.KITileCommon

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "a0W" => (Memref.whole Cert.KernelIdeal.main_arg0_scv : Memref Cert.KernelIdeal.sig Kind.scVector Space.hbm Cert.KernelIdeal.S4096x512 EltTy.f32)
local notation "a1W" => (Memref.whole Cert.KernelIdeal.main_arg1_scv : Memref Cert.KernelIdeal.sig Kind.scVector Space.hbm Cert.KernelIdeal.S3840x512 EltTy.f32)
local notation "a2W" => (Memref.whole Cert.KernelIdeal.main_arg2_scv : Memref Cert.KernelIdeal.sig Kind.scVector Space.hbm Cert.KernelIdeal.S3584x512 EltTy.f32)
local notation "a3W" => (Memref.whole Cert.KernelIdeal.main_arg3_scv : Memref Cert.KernelIdeal.sig Kind.scVector Space.hbm Cert.KernelIdeal.S3328x512 EltTy.f32)
local notation "a4W" => (Memref.whole Cert.KernelIdeal.main_arg4_scv : Memref Cert.KernelIdeal.sig Kind.scVector Space.hbm Cert.KernelIdeal.S3072x512 EltTy.f32)
local notation "a5W" => (Memref.whole Cert.KernelIdeal.main_arg5_scv : Memref Cert.KernelIdeal.sig Kind.scVector Space.hbm Cert.KernelIdeal.S2816x512 EltTy.f32)
local notation "a6W" => (Memref.whole Cert.KernelIdeal.main_arg6_scv : Memref Cert.KernelIdeal.sig Kind.scVector Space.hbm Cert.KernelIdeal.S2560x512 EltTy.f32)
local notation "a7W" => (Memref.whole Cert.KernelIdeal.main_arg7_scv : Memref Cert.KernelIdeal.sig Kind.scVector Space.hbm Cert.KernelIdeal.S2304x512 EltTy.f32)
local notation "a8W" => (Memref.whole Cert.KernelIdeal.main_arg8_scv : Memref Cert.KernelIdeal.sig Kind.scVector Space.hbm Cert.KernelIdeal.S2048x512 EltTy.f32)
local notation "a9W" => (Memref.whole Cert.KernelIdeal.main_arg9_scv : Memref Cert.KernelIdeal.sig Kind.scVector Space.hbm Cert.KernelIdeal.S1792x512 EltTy.f32)
local notation "a10W" => (Memref.whole Cert.KernelIdeal.main_arg10_scv : Memref Cert.KernelIdeal.sig Kind.scVector Space.hbm Cert.KernelIdeal.S1536x512 EltTy.f32)
local notation "a11W" => (Memref.whole Cert.KernelIdeal.main_arg11_scv : Memref Cert.KernelIdeal.sig Kind.scVector Space.hbm Cert.KernelIdeal.S1280x512 EltTy.f32)
local notation "a12W" => (Memref.whole Cert.KernelIdeal.main_arg12_scv : Memref Cert.KernelIdeal.sig Kind.scVector Space.hbm Cert.KernelIdeal.S1024x512 EltTy.f32)
local notation "a13W" => (Memref.whole Cert.KernelIdeal.main_arg13_scv : Memref Cert.KernelIdeal.sig Kind.scVector Space.hbm Cert.KernelIdeal.S768x512 EltTy.f32)
local notation "a14W" => (Memref.whole Cert.KernelIdeal.main_arg14_scv : Memref Cert.KernelIdeal.sig Kind.scVector Space.hbm Cert.KernelIdeal.S512x512 EltTy.f32)
local notation "a15W" => (Memref.whole Cert.KernelIdeal.main_arg15_scv : Memref Cert.KernelIdeal.sig Kind.scVector Space.hbm Cert.KernelIdeal.S256x512 EltTy.f32)
local notation "oW" => (Memref.whole Cert.KernelIdeal.main_v0_scv : Memref Cert.KernelIdeal.sig Kind.scVector Space.hbm Cert.KernelIdeal.S65536x512 EltTy.f32)
local notation "bW" => (Memref.whole Cert.KernelIdeal.cc0_scratch0 : Memref Cert.KernelIdeal.sig Kind.scVector Space.vmem Cert.KernelIdeal.S64x512 EltTy.f32)
local notation "zW" => (Memref.whole Cert.KernelIdeal.cc0_scratch1 : Memref Cert.KernelIdeal.sig Kind.scVector Space.vmem Cert.KernelIdeal.S64x512 EltTy.f32)

variable (m : (ℓ : Loc nD τ sig) → Buf (Elt F) ℓ) (d : Dev nD)

omit [FloatOps F] in
theorem ownSems0_V1 (L : grid0.Coords) :
    (ownSems0 (thr d L) : sProp 𝕄)
      = iprop(semVal (thr d L, SemLoc.dma cc0_scoped4.sem) 0 ∗ semVal (thr d L, SemLoc.dma cc0_scoped5.sem) 0 ∗ semVal (thr d L, SemLoc.dma cc0_scoped64.sem) 0
          ∗ bigSep ((((ownCells (thr d L)).erase (thr d L, SemLoc.dma cc0_scoped4.sem)).erase (thr d L, SemLoc.dma cc0_scoped5.sem)).erase (thr d L, SemLoc.dma cc0_scoped64.sem))
              fun g => semVal g 0) := by
  unfold SparseCore.Cfg.ownSems0
  rw [SparseCore.bigSep_erase' ((mem_ownCells (g := (thr d L, SemLoc.dma cc0_scoped4.sem))).mpr ⟨rfl, by
      show (SemLoc.dma cc0_scoped4.sem : SemLoc sig).isScoped .scVector = true; decide⟩),
    SparseCore.bigSep_erase' (Finset.mem_erase.mpr ⟨by simp; decide, (mem_ownCells (g := (thr d L, SemLoc.dma cc0_scoped5.sem))).mpr ⟨rfl, by
      show (SemLoc.dma cc0_scoped5.sem : SemLoc sig).isScoped .scVector = true; decide⟩⟩),
    SparseCore.bigSep_erase' (Finset.mem_erase.mpr ⟨by simp; decide, Finset.mem_erase.mpr ⟨by simp; decide,
      (mem_ownCells (g := (thr d L, SemLoc.dma cc0_scoped64.sem))).mpr ⟨rfl, by show (SemLoc.dma cc0_scoped64.sem : SemLoc sig).isScoped .scVector = true; decide⟩⟩⟩)]

/-- The source chunk of trip `t`, as the program slices it. -/
abbrev srcS1 (L : grid0.Coords) (h : k0_cond2 L = 1#1) (t : Fin (k0_t5_loop L).trips) : Memref sig .scVector .hbm S64x512 .f32 :=
  (a1W).slice (Rect.unit (s := S3840x512) (k0_off6 L t) S64x512.size (k0_off6_inb L t h)) (fun _ => rfl)

omit [FloatOps F] in
theorem pts_a1 (L : grid0.Coords) (q : PosShare TreeShare) (f : Buf (Elt F) (aLoc1 d)) :
    ((a1W).view.loc (thr d L) ↦{q} f : sProp 𝕄) = aLoc1 d ↦{q} f := rfl

/-- The copying loop's invariant before trip `t`: the first `64 t` rows of the block hold the padded array. -/
def invC1 (L : grid0.Coords) (O : CellTallies nD τ sig (HIx 1)) (W : Waits sig (HIx 1)) (q : PosShare TreeShare) (t : Nat) (_ : PUnit) : sProp 𝕄 :=
  iprop(Transfers.MayWaits (thr d L) (none : HIx 1) O
    ∗ ((a1W).view.loc (thr d L) ↦{q} m (aLoc1 d))
    ∗ (∃ fb, (bW).view.loc (thr d L) ↦{fullShare} fb)
    ∗ (∃ fo, (oLoc d ↦[blkSet (bI L)]{fullShare} fo) ∗ ⌜Done m d L (64 * t) fo⌝)
    ∗ semVal (thr d L, SemLoc.dma cc0_scoped4.sem) 0
    ∗ semVal (thr d L, SemLoc.dma cc0_scoped5.sem) 0
    ∗ ∃ W', ⌜∀ p ∈ W', p ∈ W ∨ p.2 = none⌝ ∗ owes (thr d L) O W')

theorem tile_s1 (hF : (K (F := F)).Facts) (L : grid0.Coords) (hs : (L 1).val = 1) (O : CellTallies nD τ sig (HIx 1)) (W : Waits sig (HIx 1)) (hO : ∀ g, O g none = 0) :
    TileSpec m d L O W := by
  have k0_h1 : ¬ k0_cond1 L = 1#1 := fun h => absurd ((cond1_iff L).mp h) (by omega)
  have k0_h2 : k0_cond2 L = 1#1 := (cond2_iff L).mpr hs
  have k0_h3 : ¬ k0_cond3 L = 1#1 := fun h => absurd ((cond3_iff L).mp h) (by omega)
  have k0_h4 : ¬ k0_cond4 L = 1#1 := fun h => absurd ((cond4_iff L).mp h) (by omega)
  have k0_h5 : ¬ k0_cond5 L = 1#1 := fun h => absurd ((cond5_iff L).mp h) (by omega)
  have k0_h6 : ¬ k0_cond6 L = 1#1 := fun h => absurd ((cond6_iff L).mp h) (by omega)
  have k0_h7 : ¬ k0_cond7 L = 1#1 := fun h => absurd ((cond7_iff L).mp h) (by omega)
  have k0_h8 : ¬ k0_cond8 L = 1#1 := fun h => absurd ((cond8_iff L).mp h) (by omega)
  have k0_h9 : ¬ k0_cond9 L = 1#1 := fun h => absurd ((cond9_iff L).mp h) (by omega)
  have k0_h10 : ¬ k0_cond10 L = 1#1 := fun h => absurd ((cond10_iff L).mp h) (by omega)
  have k0_h11 : ¬ k0_cond11 L = 1#1 := fun h => absurd ((cond11_iff L).mp h) (by omega)
  have k0_h12 : ¬ k0_cond12 L = 1#1 := fun h => absurd ((cond12_iff L).mp h) (by omega)
  have k0_h13 : ¬ k0_cond13 L = 1#1 := fun h => absurd ((cond13_iff L).mp h) (by omega)
  have k0_h14 : ¬ k0_cond14 L = 1#1 := fun h => absurd ((cond14_iff L).mp h) (by omega)
  have k0_h15 : ¬ k0_cond15 L = 1#1 := fun h => absurd ((cond15_iff L).mp h) (by omega)
  have k0_h16 : ¬ k0_cond16 L = 1#1 := fun h => absurd ((cond16_iff L).mp h) (by omega)
  have rt : ∀ (fb rd : (cc0_scratch0 : Ref sig .scVector).ty.Contents (Elt F)),
      ReadAs.same.apply (View.read (Elt F) (View.whole (cc0_scratch0 : Ref sig .scVector)) (View.write (Elt F) (View.whole (cc0_scratch0 : Ref sig .scVector)) fb (ReadAs.same.apply rd) Finset.univ)) = rd :=
    fun fb rd => (congrArg (View.read (Elt F) (View.whole (cc0_scratch0 : Ref sig .scVector))) (View.write_whole_univ (Val := Elt F) (cc0_scratch0 : Ref sig .scVector) fb rd)).trans (View.read_whole _ rd)
  unfold TileSpec
  simp only [cc0__pad_body_eq_skeleton]; unfold cc0__pad_body_skel
  rw [(K (F := F)).scopedBufs_V hF d _ _, SparseCore.Cfg.scopedSems0_V (Val := Elt F) d _ _, ownSems0_V1, ownBufs_V]
  unfold argsAt
  iintro ⟨#Hlv, -, ⟨⟨A0, A1, A2, A3, A4, A5, A6, A7, A8, A9, A10, A11, A12, A13, A14, A15⟩, Ho⟩, ⟨⟨%fb, Hb⟩, ⟨%fz, Hz⟩, Hbufs⟩, ⟨Hs0, Hs1, Hs64, Hsems⟩, HO⟩
  ihave Hmw := ((K (F := F)).mayWaits_none (thr := thr d L) hO) $$ Hlv
  ihave Aa := (Entails.of_eq (pts_a1 (F := F) d L _ _).symm) $$ A1
  ihave Hb' := (Entails.of_eq (pts_b (F := F) d L _).symm) $$ Hb
  ihave Hz' := (Entails.of_eq (pts_z (F := F) d L _).symm) $$ Hz
  sl_exec
  -- the zeroing loops
  sl_for (invZ1 (F := F) d L) $$ [Hz']
  case region =>
    intro k1 _
    unfold invZ1
    iintro ⟨%f, Hz, %hf⟩
    sl_exec
    sl_for (invZ2 (F := F) d L k1) $$ [Hz]
    case region =>
      intro k2 _
      unfold invZ2
      iintro ⟨%f, Hz, %hf⟩
      sl_exec
      sl_step
      iexists _; isplitl [Hz]; · iexact Hz
      ipureintro
      exact invZ2_step k1 k2 f hf
    · unfold invZ2
      iexists f; isplitl [Hz]; · iexact Hz
      ipureintro
      exact invZ2_init k1 f hf
    iintro %_ HI
    unfold invZ2
    icases HI with ⟨%f', Hz, %hf'⟩
    sl_exec
    sl_step
    iexists f'; isplitl [Hz]; · iexact Hz
    ipureintro
    exact invZ1_step k1 f' hf'
  · unfold invZ1
    iexists fz; isplitl [Hz']; · iexact Hz'
    ipureintro
    intro r q h; omega
  iintro %_ HI
  unfold invZ1
  icases HI with ⟨%fz1, Hz, %hfz⟩
  have hfz1 : fz1 = fun _ => zF (F := F) := invZ1_final fz1 hfz
  subst hfz1
  sl_exec
  -- the copying loop
  sl_for (invC1 (F := F) m d L O W (shT (cL L) (sL L))) $$ [Hmw Aa Hb' Ho Hs0 Hs1 HO]
  case region =>
    intro t _
    unfold invC1
    iintro ⟨Hmw, Aa, ⟨%fb, Hb⟩, ⟨%fo, Ho, %hD⟩, Hs0, Hs1, %W', %hW', HO⟩
    have htr : 64 * t.val + 64 ≤ ncopy L := by
      have h1 := t.isLt; have h2 := trips5 L; have h3 := ncopy_dvd L
      change t.val < (k0_t5_loop L).trips at h1
      rw [h2] at h1; omega
    have hnc := ncopy_le L
    have hoff : k0_off7 L t 0 = R0 L + 64 * t.val := by rw [off7_eq]; unfold R0; rfl
    have hsub := chunk_subset L (k0_off7 L t) (k0_off7_inb L t k0_h2) (fun _ => rfl) (64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Aa]; · iexact Aa
    isplitl [Hb]; · iexists _; iexact Hb
    isplitl [Ho]
    · iexists _; isplitl [Ho]; · iexact Ho
      ipureintro
      have e : 64 * (t.val + 1) = 64 * t.val + 64 := by omega
      rw [e]
      refine done_step m d L _ _ _ (64 * t.val) hoff (by rw [off7_eq]; rfl) fo _ hD ?_
      refine hw_copy m d L (m (aLoc1 d)) (fun p q => by rw [hs]; rfl) (by rw [hs]) t.val htr _ _ _ hoff (by rw [off7_eq]; rfl)
        (fun y => (srcS1 L k0_h2 t).view.emb y) (fun y => ?_) _
        (fun y => (congrFun (rt fb _) y).trans ((View.read_apply (v := (srcS1 L k0_h2 t).view) _ y).trans (cast_eq _ _)))
      constructor
      · show k0_off6 L t 0 + 1 * (y 0).val = _; rw [off6_eq]; show 2048 * (L 0).val + 64 * t.val + 1 * (y 0).val = _; omega
      · show k0_off6 L t 1 + 1 * (y 1).val = _; rw [off6_eq]; show 0 + 1 * (y 1).val = _; omega
    isplitl [Hs0]; · iexact Hs0
    isplitl [Hs1]; · iexact Hs1
    iexists (insert (SemLoc.dma cc0_scoped5.sem, (default : HIx 1)) (insert (SemLoc.dma cc0_scoped4.sem, (default : HIx 1)) W')); isplitr
    · ipureintro; intro p hp
      rcases Finset.mem_insert.mp hp with hp | hp
      · exact .inr (hp ▸ rfl)
      rcases Finset.mem_insert.mp hp with hp | hp
      · exact .inr (hp ▸ rfl)
      · exact hW' p hp
    · iexact HO
  · unfold invC1
    isplitl [Hmw]; · iexact Hmw
    isplitl [Aa]; · iexact Aa
    isplitl [Hb']; · iexists _; iexact Hb'
    isplitl [Ho]
    · iexists _; isplitl [Ho]; · iexact Ho
      ipureintro; exact done_zero m d L _
    isplitl [Hs0]; · iexact Hs0
    isplitl [Hs1]; · iexact Hs1
    iexists W; isplitr
    · ipureintro; exact fun p hp => .inl hp
    · iexact HO
  iintro %_ HI
  unfold invC1
  icases HI with ⟨Hmw, Aa, ⟨%fb, Hb⟩, ⟨%fo, Ho, %hD⟩, Hs0, Hs1, %W1, %hW1, HO⟩
  have hDn : Done m d L (ncopy L) fo := by
    have h3 := ncopy_dvd L
    have e : 64 * (k0_t5_loop L).trips = ncopy L := by rw [trips5 L]; omega
    rw [← e]; exact hD
  sl_exec
  -- the remainder of the unrolling by one: no trips
  sl_for (fun (_ : Nat) (_ : PUnit) => (iprop(emp) : sProp 𝕄)) $$ []
  case region =>
    intro t _
    exact absurd t.isLt (by have h0 := trips6 L; change ¬ (t.val < (k0_t6_loop L).trips); omega)
  · iempintro
  iintro %_ -
  sl_exec
  -- the zero-filling loop
  sl_for (invF (F := F) m d L O W) $$ [Hmw Hz Ho Hs64 HO]
  case region =>
    intro t _
    unfold invF
    iintro ⟨Hmw, Hz, ⟨%fo, Ho, %hD⟩, Hs64, %W', %hW', HO⟩
    have hnc := ncopy_le L
    have htr : ncopy L + 64 * t.val + 64 ≤ 2048 := by
      have h1 := t.isLt; have h2 := trips35 L; obtain ⟨c, hc⟩ := ncopy_dvd L
      change t.val < (k0_t35_loop L).trips at h1
      rw [h2] at h1; omega
    have hoff : k0_off66 L t 0 = R0 L + (ncopy L + 64 * t.val) := by rw [off66_eq]; unfold R0; show _ + _ + _ + _ = _; omega
    have hsub := chunk_subset L (k0_off66 L t) (k0_off66_inb L t) (fun _ => rfl) (ncopy L + 64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Hz]; · iexact Hz
    isplitl [Ho]
    · iexists _; isplitl [Ho]; · iexact Ho
      ipureintro
      have e : ncopy L + 64 * (t.val + 1) = (ncopy L + 64 * t.val) + 64 := by omega
      rw [e]
      refine done_step m d L _ _ _ (ncopy L + 64 * t.val) hoff (by rw [off66_eq]; rfl) fo _ hD ?_
      exact hw_zero m d L t.val htr _ _ _ (by rw [hoff]; omega) _ (fun y => rfl)
    isplitl [Hs64]; · iexact Hs64
    iexists (insert (SemLoc.dma cc0_scoped64.sem, (default : HIx 1)) W'); isplitr
    · ipureintro; intro p hp
      rcases Finset.mem_insert.mp hp with hp | hp
      · exact .inr (hp ▸ rfl)
      · exact hW' p hp
    · iexact HO
  · unfold invF
    isplitl [Hmw]; · iexact Hmw
    isplitl [Hz]; · iexact Hz
    isplitl [Ho]
    · iexists _; isplitl [Ho]; · iexact Ho
      ipureintro; rw [Nat.mul_zero, Nat.add_zero]; exact hDn
    isplitl [Hs64]; · iexact Hs64
    iexists W1; isplitr
    · ipureintro; exact hW1
    · iexact HO
  iintro %_ HI
  unfold invF
  icases HI with ⟨Hmw, Hz, ⟨%fo2, Ho, %hD2⟩, Hs64, %W2, %hW2, HO⟩
  have hAll : Done m d L 2048 fo2 := by
    have hnc := ncopy_le L
    obtain ⟨c, hc⟩ := ncopy_dvd L
    have e : ncopy L + 64 * (k0_t35_loop L).trips = 2048 := by rw [trips35 L]; omega
    rw [← e]; exact hD2
  sl_exec
  sl_for (fun (_ : Nat) (_ : PUnit) => (iprop(emp) : sProp 𝕄)) $$ []
  case region =>
    intro t _
    exact absurd t.isLt (by have h0 := trips36 L; change ¬ (t.val < (k0_t36_loop L).trips); omega)
  · iempintro
  iintro %_ -
  sl_exec
  sl_step
  -- hand everything back
  isplitl [A0 A2 A3 A4 A5 A6 A7 A8 A9 A10 A11 A12 A13 A14 A15 Aa Ho]
  · isplitl [A0 A2 A3 A4 A5 A6 A7 A8 A9 A10 A11 A12 A13 A14 A15 Aa]
    ·
      isplitl [A0]; · iexact A0
      isplitl [Aa]; · iapply (Entails.of_eq (pts_a1 (F := F) d L _ _)); iexact Aa
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [A12]; · iexact A12
      isplitl [A13]; · iexact A13
      isplitl [A14]; · iexact A14
      iexact A15
    · iapply (Entails.of_eq (pointsTo_congr (ℓ := oLoc d) (done_all m d L fo2 hAll))); iexact Ho
  isplitl [Hb Hz Hbufs]
  · isplitl [Hb]; · iexists _; iapply (Entails.of_eq (pts_b (F := F) d L _)); iexact Hb
    isplitl [Hz]; · iexists _; iapply (Entails.of_eq (pts_z (F := F) d L _)); iexact Hz
    iexact Hbufs
  isplitl [Hs0 Hs1 Hs64 Hsems]
  · isplitl [Hs0]; · iexact Hs0
    isplitl [Hs1]; · iexact Hs1
    isplitl [Hs64]; · iexact Hs64
    iexact Hsems
  iexists W2; isplitr
  · ipureintro; exact hW2
  · iexact HO

end Cert.Proof.KI

end
-- ==== Proof.KITile2.lean ====
/-
  The task on subcore 2 (of either SparseCore): it serves sequence 2, of 3584 rows. Its second scratch buffer is
  zeroed; the rows of the sequence that fall in its half are copied, 64 at a time, through the first scratch buffer
  into its block of the output; the rest of the block is filled from the zeroed buffer. Each loop keeps "the first so
  many rows of the block hold the padded array".
-/
import proofs.«212850_g39865886441476_cont_8to1_b_277_5_alg».proof.Proof.KITileCommon

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "a0W" => (Memref.whole Cert.KernelIdeal.main_arg0_scv : Memref Cert.KernelIdeal.sig Kind.scVector Space.hbm Cert.KernelIdeal.S4096x512 EltTy.f32)
local notation "a1W" => (Memref.whole Cert.KernelIdeal.main_arg1_scv : Memref Cert.KernelIdeal.sig Kind.scVector Space.hbm Cert.KernelIdeal.S3840x512 EltTy.f32)
local notation "a2W" => (Memref.whole Cert.KernelIdeal.main_arg2_scv : Memref Cert.KernelIdeal.sig Kind.scVector Space.hbm Cert.KernelIdeal.S3584x512 EltTy.f32)
local notation "a3W" => (Memref.whole Cert.KernelIdeal.main_arg3_scv : Memref Cert.KernelIdeal.sig Kind.scVector Space.hbm Cert.KernelIdeal.S3328x512 EltTy.f32)
local notation "a4W" => (Memref.whole Cert.KernelIdeal.main_arg4_scv : Memref Cert.KernelIdeal.sig Kind.scVector Space.hbm Cert.KernelIdeal.S3072x512 EltTy.f32)
local notation "a5W" => (Memref.whole Cert.KernelIdeal.main_arg5_scv : Memref Cert.KernelIdeal.sig Kind.scVector Space.hbm Cert.KernelIdeal.S2816x512 EltTy.f32)
local notation "a6W" => (Memref.whole Cert.KernelIdeal.main_arg6_scv : Memref Cert.KernelIdeal.sig Kind.scVector Space.hbm Cert.KernelIdeal.S2560x512 EltTy.f32)
local notation "a7W" => (Memref.whole Cert.KernelIdeal.main_arg7_scv : Memref Cert.KernelIdeal.sig Kind.scVector Space.hbm Cert.KernelIdeal.S2304x512 EltTy.f32)
local notation "a8W" => (Memref.whole Cert.KernelIdeal.main_arg8_scv : Memref Cert.KernelIdeal.sig Kind.scVector Space.hbm Cert.KernelIdeal.S2048x512 EltTy.f32)
local notation "a9W" => (Memref.whole Cert.KernelIdeal.main_arg9_scv : Memref Cert.KernelIdeal.sig Kind.scVector Space.hbm Cert.KernelIdeal.S1792x512 EltTy.f32)
local notation "a10W" => (Memref.whole Cert.KernelIdeal.main_arg10_scv : Memref Cert.KernelIdeal.sig Kind.scVector Space.hbm Cert.KernelIdeal.S1536x512 EltTy.f32)
local notation "a11W" => (Memref.whole Cert.KernelIdeal.main_arg11_scv : Memref Cert.KernelIdeal.sig Kind.scVector Space.hbm Cert.KernelIdeal.S1280x512 EltTy.f32)
local notation "a12W" => (Memref.whole Cert.KernelIdeal.main_arg12_scv : Memref Cert.KernelIdeal.sig Kind.scVector Space.hbm Cert.KernelIdeal.S1024x512 EltTy.f32)
local notation "a13W" => (Memref.whole Cert.KernelIdeal.main_arg13_scv : Memref Cert.KernelIdeal.sig Kind.scVector Space.hbm Cert.KernelIdeal.S768x512 EltTy.f32)
local notation "a14W" => (Memref.whole Cert.KernelIdeal.main_arg14_scv : Memref Cert.KernelIdeal.sig Kind.scVector Space.hbm Cert.KernelIdeal.S512x512 EltTy.f32)
local notation "a15W" => (Memref.whole Cert.KernelIdeal.main_arg15_scv : Memref Cert.KernelIdeal.sig Kind.scVector Space.hbm Cert.KernelIdeal.S256x512 EltTy.f32)
local notation "oW" => (Memref.whole Cert.KernelIdeal.main_v0_scv : Memref Cert.KernelIdeal.sig Kind.scVector Space.hbm Cert.KernelIdeal.S65536x512 EltTy.f32)
local notation "bW" => (Memref.whole Cert.KernelIdeal.cc0_scratch0 : Memref Cert.KernelIdeal.sig Kind.scVector Space.vmem Cert.KernelIdeal.S64x512 EltTy.f32)
local notation "zW" => (Memref.whole Cert.KernelIdeal.cc0_scratch1 : Memref Cert.KernelIdeal.sig Kind.scVector Space.vmem Cert.KernelIdeal.S64x512 EltTy.f32)

variable (m : (ℓ : Loc nD τ sig) → Buf (Elt F) ℓ) (d : Dev nD)

omit [FloatOps F] in
theorem ownSems0_V2 (L : grid0.Coords) :
    (ownSems0 (thr d L) : sProp 𝕄)
      = iprop(semVal (thr d L, SemLoc.dma cc0_scoped8.sem) 0 ∗ semVal (thr d L, SemLoc.dma cc0_scoped9.sem) 0 ∗ semVal (thr d L, SemLoc.dma cc0_scoped64.sem) 0
          ∗ bigSep ((((ownCells (thr d L)).erase (thr d L, SemLoc.dma cc0_scoped8.sem)).erase (thr d L, SemLoc.dma cc0_scoped9.sem)).erase (thr d L, SemLoc.dma cc0_scoped64.sem))
              fun g => semVal g 0) := by
  unfold SparseCore.Cfg.ownSems0
  rw [SparseCore.bigSep_erase' ((mem_ownCells (g := (thr d L, SemLoc.dma cc0_scoped8.sem))).mpr ⟨rfl, by
      show (SemLoc.dma cc0_scoped8.sem : SemLoc sig).isScoped .scVector = true; decide⟩),
    SparseCore.bigSep_erase' (Finset.mem_erase.mpr ⟨by simp; decide, (mem_ownCells (g := (thr d L, SemLoc.dma cc0_scoped9.sem))).mpr ⟨rfl, by
      show (SemLoc.dma cc0_scoped9.sem : SemLoc sig).isScoped .scVector = true; decide⟩⟩),
    SparseCore.bigSep_erase' (Finset.mem_erase.mpr ⟨by simp; decide, Finset.mem_erase.mpr ⟨by simp; decide,
      (mem_ownCells (g := (thr d L, SemLoc.dma cc0_scoped64.sem))).mpr ⟨rfl, by show (SemLoc.dma cc0_scoped64.sem : SemLoc sig).isScoped .scVector = true; decide⟩⟩⟩)]

/-- The source chunk of trip `t`, as the program slices it. -/
abbrev srcS2 (L : grid0.Coords) (h : k0_cond3 L = 1#1) (t : Fin (k0_t7_loop L).trips) : Memref sig .scVector .hbm S64x512 .f32 :=
  (a2W).slice (Rect.unit (s := S3584x512) (k0_off10 L t) S64x512.size (k0_off10_inb L t h)) (fun _ => rfl)

omit [FloatOps F] in
theorem pts_a2 (L : grid0.Coords) (q : PosShare TreeShare) (f : Buf (Elt F) (aLoc2 d)) :
    ((a2W).view.loc (thr d L) ↦{q} f : sProp 𝕄) = aLoc2 d ↦{q} f := rfl

/-- The copying loop's invariant before trip `t`: the first `64 t` rows of the block hold the padded array. -/
def invC2 (L : grid0.Coords) (O : CellTallies nD τ sig (HIx 1)) (W : Waits sig (HIx 1)) (q : PosShare TreeShare) (t : Nat) (_ : PUnit) : sProp 𝕄 :=
  iprop(Transfers.MayWaits (thr d L) (none : HIx 1) O
    ∗ ((a2W).view.loc (thr d L) ↦{q} m (aLoc2 d))
    ∗ (∃ fb, (bW).view.loc (thr d L) ↦{fullShare} fb)
    ∗ (∃ fo, (oLoc d ↦[blkSet (bI L)]{fullShare} fo) ∗ ⌜Done m d L (64 * t) fo⌝)
    ∗ semVal (thr d L, SemLoc.dma cc0_scoped8.sem) 0
    ∗ semVal (thr d L, SemLoc.dma cc0_scoped9.sem) 0
    ∗ ∃ W', ⌜∀ p ∈ W', p ∈ W ∨ p.2 = none⌝ ∗ owes (thr d L) O W')

theorem tile_s2 (hF : (K (F := F)).Facts) (L : grid0.Coords) (hs : (L 1).val = 2) (O : CellTallies nD τ sig (HIx 1)) (W : Waits sig (HIx 1)) (hO : ∀ g, O g none = 0) :
    TileSpec m d L O W := by
  have k0_h1 : ¬ k0_cond1 L = 1#1 := fun h => absurd ((cond1_iff L).mp h) (by omega)
  have k0_h2 : ¬ k0_cond2 L = 1#1 := fun h => absurd ((cond2_iff L).mp h) (by omega)
  have k0_h3 : k0_cond3 L = 1#1 := (cond3_iff L).mpr hs
  have k0_h4 : ¬ k0_cond4 L = 1#1 := fun h => absurd ((cond4_iff L).mp h) (by omega)
  have k0_h5 : ¬ k0_cond5 L = 1#1 := fun h => absurd ((cond5_iff L).mp h) (by omega)
  have k0_h6 : ¬ k0_cond6 L = 1#1 := fun h => absurd ((cond6_iff L).mp h) (by omega)
  have k0_h7 : ¬ k0_cond7 L = 1#1 := fun h => absurd ((cond7_iff L).mp h) (by omega)
  have k0_h8 : ¬ k0_cond8 L = 1#1 := fun h => absurd ((cond8_iff L).mp h) (by omega)
  have k0_h9 : ¬ k0_cond9 L = 1#1 := fun h => absurd ((cond9_iff L).mp h) (by omega)
  have k0_h10 : ¬ k0_cond10 L = 1#1 := fun h => absurd ((cond10_iff L).mp h) (by omega)
  have k0_h11 : ¬ k0_cond11 L = 1#1 := fun h => absurd ((cond11_iff L).mp h) (by omega)
  have k0_h12 : ¬ k0_cond12 L = 1#1 := fun h => absurd ((cond12_iff L).mp h) (by omega)
  have k0_h13 : ¬ k0_cond13 L = 1#1 := fun h => absurd ((cond13_iff L).mp h) (by omega)
  have k0_h14 : ¬ k0_cond14 L = 1#1 := fun h => absurd ((cond14_iff L).mp h) (by omega)
  have k0_h15 : ¬ k0_cond15 L = 1#1 := fun h => absurd ((cond15_iff L).mp h) (by omega)
  have k0_h16 : ¬ k0_cond16 L = 1#1 := fun h => absurd ((cond16_iff L).mp h) (by omega)
  have rt : ∀ (fb rd : (cc0_scratch0 : Ref sig .scVector).ty.Contents (Elt F)),
      ReadAs.same.apply (View.read (Elt F) (View.whole (cc0_scratch0 : Ref sig .scVector)) (View.write (Elt F) (View.whole (cc0_scratch0 : Ref sig .scVector)) fb (ReadAs.same.apply rd) Finset.univ)) = rd :=
    fun fb rd => (congrArg (View.read (Elt F) (View.whole (cc0_scratch0 : Ref sig .scVector))) (View.write_whole_univ (Val := Elt F) (cc0_scratch0 : Ref sig .scVector) fb rd)).trans (View.read_whole _ rd)
  unfold TileSpec
  simp only [cc0__pad_body_eq_skeleton]; unfold cc0__pad_body_skel
  rw [(K (F := F)).scopedBufs_V hF d _ _, SparseCore.Cfg.scopedSems0_V (Val := Elt F) d _ _, ownSems0_V2, ownBufs_V]
  unfold argsAt
  iintro ⟨#Hlv, -, ⟨⟨A0, A1, A2, A3, A4, A5, A6, A7, A8, A9, A10, A11, A12, A13, A14, A15⟩, Ho⟩, ⟨⟨%fb, Hb⟩, ⟨%fz, Hz⟩, Hbufs⟩, ⟨Hs0, Hs1, Hs64, Hsems⟩, HO⟩
  ihave Hmw := ((K (F := F)).mayWaits_none (thr := thr d L) hO) $$ Hlv
  ihave Aa := (Entails.of_eq (pts_a2 (F := F) d L _ _).symm) $$ A2
  ihave Hb' := (Entails.of_eq (pts_b (F := F) d L _).symm) $$ Hb
  ihave Hz' := (Entails.of_eq (pts_z (F := F) d L _).symm) $$ Hz
  sl_exec
  -- the zeroing loops
  sl_for (invZ1 (F := F) d L) $$ [Hz']
  case region =>
    intro k1 _
    unfold invZ1
    iintro ⟨%f, Hz, %hf⟩
    sl_exec
    sl_for (invZ2 (F := F) d L k1) $$ [Hz]
    case region =>
      intro k2 _
      unfold invZ2
      iintro ⟨%f, Hz, %hf⟩
      sl_exec
      sl_step
      iexists _; isplitl [Hz]; · iexact Hz
      ipureintro
      exact invZ2_step k1 k2 f hf
    · unfold invZ2
      iexists f; isplitl [Hz]; · iexact Hz
      ipureintro
      exact invZ2_init k1 f hf
    iintro %_ HI
    unfold invZ2
    icases HI with ⟨%f', Hz, %hf'⟩
    sl_exec
    sl_step
    iexists f'; isplitl [Hz]; · iexact Hz
    ipureintro
    exact invZ1_step k1 f' hf'
  · unfold invZ1
    iexists fz; isplitl [Hz']; · iexact Hz'
    ipureintro
    intro r q h; omega
  iintro %_ HI
  unfold invZ1
  icases HI with ⟨%fz1, Hz, %hfz⟩
  have hfz1 : fz1 = fun _ => zF (F := F) := invZ1_final fz1 hfz
  subst hfz1
  sl_exec
  -- the copying loop
  sl_for (invC2 (F := F) m d L O W (shT (cL L) (sL L))) $$ [Hmw Aa Hb' Ho Hs0 Hs1 HO]
  case region =>
    intro t _
    unfold invC2
    iintro ⟨Hmw, Aa, ⟨%fb, Hb⟩, ⟨%fo, Ho, %hD⟩, Hs0, Hs1, %W', %hW', HO⟩
    have htr : 64 * t.val + 64 ≤ ncopy L := by
      have h1 := t.isLt; have h2 := trips7 L; have h3 := ncopy_dvd L
      change t.val < (k0_t7_loop L).trips at h1
      rw [h2] at h1; omega
    have hnc := ncopy_le L
    have hoff : k0_off11 L t 0 = R0 L + 64 * t.val := by rw [off11_eq]; unfold R0; rfl
    have hsub := chunk_subset L (k0_off11 L t) (k0_off11_inb L t k0_h3) (fun _ => rfl) (64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Aa]; · iexact Aa
    isplitl [Hb]; · iexists _; iexact Hb
    isplitl [Ho]
    · iexists _; isplitl [Ho]; · iexact Ho
      ipureintro
      have e : 64 * (t.val + 1) = 64 * t.val + 64 := by omega
      rw [e]
      refine done_step m d L _ _ _ (64 * t.val) hoff (by rw [off11_eq]; rfl) fo _ hD ?_
      refine hw_copy m d L (m (aLoc2 d)) (fun p q => by rw [hs]; rfl) (by rw [hs]) t.val htr _ _ _ hoff (by rw [off11_eq]; rfl)
        (fun y => (srcS2 L k0_h3 t).view.emb y) (fun y => ?_) _
        (fun y => (congrFun (rt fb _) y).trans ((View.read_apply (v := (srcS2 L k0_h3 t).view) _ y).trans (cast_eq _ _)))
      constructor
      · show k0_off10 L t 0 + 1 * (y 0).val = _; rw [off10_eq]; show 2048 * (L 0).val + 64 * t.val + 1 * (y 0).val = _; omega
      · show k0_off10 L t 1 + 1 * (y 1).val = _; rw [off10_eq]; show 0 + 1 * (y 1).val = _; omega
    isplitl [Hs0]; · iexact Hs0
    isplitl [Hs1]; · iexact Hs1
    iexists (insert (SemLoc.dma cc0_scoped9.sem, (default : HIx 1)) (insert (SemLoc.dma cc0_scoped8.sem, (default : HIx 1)) W')); isplitr
    · ipureintro; intro p hp
      rcases Finset.mem_insert.mp hp with hp | hp
      · exact .inr (hp ▸ rfl)
      rcases Finset.mem_insert.mp hp with hp | hp
      · exact .inr (hp ▸ rfl)
      · exact hW' p hp
    · iexact HO
  · unfold invC2
    isplitl [Hmw]; · iexact Hmw
    isplitl [Aa]; · iexact Aa
    isplitl [Hb']; · iexists _; iexact Hb'
    isplitl [Ho]
    · iexists _; isplitl [Ho]; · iexact Ho
      ipureintro; exact done_zero m d L _
    isplitl [Hs0]; · iexact Hs0
    isplitl [Hs1]; · iexact Hs1
    iexists W; isplitr
    · ipureintro; exact fun p hp => .inl hp
    · iexact HO
  iintro %_ HI
  unfold invC2
  icases HI with ⟨Hmw, Aa, ⟨%fb, Hb⟩, ⟨%fo, Ho, %hD⟩, Hs0, Hs1, %W1, %hW1, HO⟩
  have hDn : Done m d L (ncopy L) fo := by
    have h3 := ncopy_dvd L
    have e : 64 * (k0_t7_loop L).trips = ncopy L := by rw [trips7 L]; omega
    rw [← e]; exact hD
  sl_exec
  -- the remainder of the unrolling by one: no trips
  sl_for (fun (_ : Nat) (_ : PUnit) => (iprop(emp) : sProp 𝕄)) $$ []
  case region =>
    intro t _
    exact absurd t.isLt (by have h0 := trips8 L; change ¬ (t.val < (k0_t8_loop L).trips); omega)
  · iempintro
  iintro %_ -
  sl_exec
  -- the zero-filling loop
  sl_for (invF (F := F) m d L O W) $$ [Hmw Hz Ho Hs64 HO]
  case region =>
    intro t _
    unfold invF
    iintro ⟨Hmw, Hz, ⟨%fo, Ho, %hD⟩, Hs64, %W', %hW', HO⟩
    have hnc := ncopy_le L
    have htr : ncopy L + 64 * t.val + 64 ≤ 2048 := by
      have h1 := t.isLt; have h2 := trips35 L; obtain ⟨c, hc⟩ := ncopy_dvd L
      change t.val < (k0_t35_loop L).trips at h1
      rw [h2] at h1; omega
    have hoff : k0_off66 L t 0 = R0 L + (ncopy L + 64 * t.val) := by rw [off66_eq]; unfold R0; show _ + _ + _ + _ = _; omega
    have hsub := chunk_subset L (k0_off66 L t) (k0_off66_inb L t) (fun _ => rfl) (ncopy L + 64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Hz]; · iexact Hz
    isplitl [Ho]
    · iexists _; isplitl [Ho]; · iexact Ho
      ipureintro
      have e : ncopy L + 64 * (t.val + 1) = (ncopy L + 64 * t.val) + 64 := by omega
      rw [e]
      refine done_step m d L _ _ _ (ncopy L + 64 * t.val) hoff (by rw [off66_eq]; rfl) fo _ hD ?_
      exact hw_zero m d L t.val htr _ _ _ (by rw [hoff]; omega) _ (fun y => rfl)
    isplitl [Hs64]; · iexact Hs64
    iexists (insert (SemLoc.dma cc0_scoped64.sem, (default : HIx 1)) W'); isplitr
    · ipureintro; intro p hp
      rcases Finset.mem_insert.mp hp with hp | hp
      · exact .inr (hp ▸ rfl)
      · exact hW' p hp
    · iexact HO
  · unfold invF
    isplitl [Hmw]; · iexact Hmw
    isplitl [Hz]; · iexact Hz
    isplitl [Ho]
    · iexists _; isplitl [Ho]; · iexact Ho
      ipureintro; rw [Nat.mul_zero, Nat.add_zero]; exact hDn
    isplitl [Hs64]; · iexact Hs64
    iexists W1; isplitr
    · ipureintro; exact hW1
    · iexact HO
  iintro %_ HI
  unfold invF
  icases HI with ⟨Hmw, Hz, ⟨%fo2, Ho, %hD2⟩, Hs64, %W2, %hW2, HO⟩
  have hAll : Done m d L 2048 fo2 := by
    have hnc := ncopy_le L
    obtain ⟨c, hc⟩ := ncopy_dvd L
    have e : ncopy L + 64 * (k0_t35_loop L).trips = 2048 := by rw [trips35 L]; omega
    rw [← e]; exact hD2
  sl_exec
  sl_for (fun (_ : Nat) (_ : PUnit) => (iprop(emp) : sProp 𝕄)) $$ []
  case region =>
    intro t _
    exact absurd t.isLt (by have h0 := trips36 L; change ¬ (t.val < (k0_t36_loop L).trips); omega)
  · iempintro
  iintro %_ -
  sl_exec
  sl_step
  -- hand everything back
  isplitl [A0 A1 A3 A4 A5 A6 A7 A8 A9 A10 A11 A12 A13 A14 A15 Aa Ho]
  · isplitl [A0 A1 A3 A4 A5 A6 A7 A8 A9 A10 A11 A12 A13 A14 A15 Aa]
    ·
      isplitl [A0]; · iexact A0
      isplitl [A1]; · iexact A1
      isplitl [Aa]; · iapply (Entails.of_eq (pts_a2 (F := F) d L _ _)); iexact Aa
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [A12]; · iexact A12
      isplitl [A13]; · iexact A13
      isplitl [A14]; · iexact A14
      iexact A15
    · iapply (Entails.of_eq (pointsTo_congr (ℓ := oLoc d) (done_all m d L fo2 hAll))); iexact Ho
  isplitl [Hb Hz Hbufs]
  · isplitl [Hb]; · iexists _; iapply (Entails.of_eq (pts_b (F := F) d L _)); iexact Hb
    isplitl [Hz]; · iexists _; iapply (Entails.of_eq (pts_z (F := F) d L _)); iexact Hz
    iexact Hbufs
  isplitl [Hs0 Hs1 Hs64 Hsems]
  · isplitl [Hs0]; · iexact Hs0
    isplitl [Hs1]; · iexact Hs1
    isplitl [Hs64]; · iexact Hs64
    iexact Hsems
  iexists W2; isplitr
  · ipureintro; exact hW2
  · iexact HO

end Cert.Proof.KI

end
-- ==== Proof.KITile3.lean ====
/-
  The task on subcore 3 (of either SparseCore): it serves sequence 3, of 3328 rows. Its second scratch buffer is
  zeroed; the rows of the sequence that fall in its half are copied, 64 at a time, through the first scratch buffer
  into its block of the output; the rest of the block is filled from the zeroed buffer. Each loop keeps "the first so
  many rows of the block hold the padded array".
-/
import proofs.«212850_g39865886441476_cont_8to1_b_277_5_alg».proof.Proof.KITileCommon

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "a0W" => (Memref.whole Cert.KernelIdeal.main_arg0_scv : Memref Cert.KernelIdeal.sig Kind.scVector Space.hbm Cert.KernelIdeal.S4096x512 EltTy.f32)
local notation "a1W" => (Memref.whole Cert.KernelIdeal.main_arg1_scv : Memref Cert.KernelIdeal.sig Kind.scVector Space.hbm Cert.KernelIdeal.S3840x512 EltTy.f32)
local notation "a2W" => (Memref.whole Cert.KernelIdeal.main_arg2_scv : Memref Cert.KernelIdeal.sig Kind.scVector Space.hbm Cert.KernelIdeal.S3584x512 EltTy.f32)
local notation "a3W" => (Memref.whole Cert.KernelIdeal.main_arg3_scv : Memref Cert.KernelIdeal.sig Kind.scVector Space.hbm Cert.KernelIdeal.S3328x512 EltTy.f32)
local notation "a4W" => (Memref.whole Cert.KernelIdeal.main_arg4_scv : Memref Cert.KernelIdeal.sig Kind.scVector Space.hbm Cert.KernelIdeal.S3072x512 EltTy.f32)
local notation "a5W" => (Memref.whole Cert.KernelIdeal.main_arg5_scv : Memref Cert.KernelIdeal.sig Kind.scVector Space.hbm Cert.KernelIdeal.S2816x512 EltTy.f32)
local notation "a6W" => (Memref.whole Cert.KernelIdeal.main_arg6_scv : Memref Cert.KernelIdeal.sig Kind.scVector Space.hbm Cert.KernelIdeal.S2560x512 EltTy.f32)
local notation "a7W" => (Memref.whole Cert.KernelIdeal.main_arg7_scv : Memref Cert.KernelIdeal.sig Kind.scVector Space.hbm Cert.KernelIdeal.S2304x512 EltTy.f32)
local notation "a8W" => (Memref.whole Cert.KernelIdeal.main_arg8_scv : Memref Cert.KernelIdeal.sig Kind.scVector Space.hbm Cert.KernelIdeal.S2048x512 EltTy.f32)
local notation "a9W" => (Memref.whole Cert.KernelIdeal.main_arg9_scv : Memref Cert.KernelIdeal.sig Kind.scVector Space.hbm Cert.KernelIdeal.S1792x512 EltTy.f32)
local notation "a10W" => (Memref.whole Cert.KernelIdeal.main_arg10_scv : Memref Cert.KernelIdeal.sig Kind.scVector Space.hbm Cert.KernelIdeal.S1536x512 EltTy.f32)
local notation "a11W" => (Memref.whole Cert.KernelIdeal.main_arg11_scv : Memref Cert.KernelIdeal.sig Kind.scVector Space.hbm Cert.KernelIdeal.S1280x512 EltTy.f32)
local notation "a12W" => (Memref.whole Cert.KernelIdeal.main_arg12_scv : Memref Cert.KernelIdeal.sig Kind.scVector Space.hbm Cert.KernelIdeal.S1024x512 EltTy.f32)
local notation "a13W" => (Memref.whole Cert.KernelIdeal.main_arg13_scv : Memref Cert.KernelIdeal.sig Kind.scVector Space.hbm Cert.KernelIdeal.S768x512 EltTy.f32)
local notation "a14W" => (Memref.whole Cert.KernelIdeal.main_arg14_scv : Memref Cert.KernelIdeal.sig Kind.scVector Space.hbm Cert.KernelIdeal.S512x512 EltTy.f32)
local notation "a15W" => (Memref.whole Cert.KernelIdeal.main_arg15_scv : Memref Cert.KernelIdeal.sig Kind.scVector Space.hbm Cert.KernelIdeal.S256x512 EltTy.f32)
local notation "oW" => (Memref.whole Cert.KernelIdeal.main_v0_scv : Memref Cert.KernelIdeal.sig Kind.scVector Space.hbm Cert.KernelIdeal.S65536x512 EltTy.f32)
local notation "bW" => (Memref.whole Cert.KernelIdeal.cc0_scratch0 : Memref Cert.KernelIdeal.sig Kind.scVector Space.vmem Cert.KernelIdeal.S64x512 EltTy.f32)
local notation "zW" => (Memref.whole Cert.KernelIdeal.cc0_scratch1 : Memref Cert.KernelIdeal.sig Kind.scVector Space.vmem Cert.KernelIdeal.S64x512 EltTy.f32)

variable (m : (ℓ : Loc nD τ sig) → Buf (Elt F) ℓ) (d : Dev nD)

omit [FloatOps F] in
theorem ownSems0_V3 (L : grid0.Coords) :
    (ownSems0 (thr d L) : sProp 𝕄)
      = iprop(semVal (thr d L, SemLoc.dma cc0_scoped12.sem) 0 ∗ semVal (thr d L, SemLoc.dma cc0_scoped13.sem) 0 ∗ semVal (thr d L, SemLoc.dma cc0_scoped64.sem) 0
          ∗ bigSep ((((ownCells (thr d L)).erase (thr d L, SemLoc.dma cc0_scoped12.sem)).erase (thr d L, SemLoc.dma cc0_scoped13.sem)).erase (thr d L, SemLoc.dma cc0_scoped64.sem))
              fun g => semVal g 0) := by
  unfold SparseCore.Cfg.ownSems0
  rw [SparseCore.bigSep_erase' ((mem_ownCells (g := (thr d L, SemLoc.dma cc0_scoped12.sem))).mpr ⟨rfl, by
      show (SemLoc.dma cc0_scoped12.sem : SemLoc sig).isScoped .scVector = true; decide⟩),
    SparseCore.bigSep_erase' (Finset.mem_erase.mpr ⟨by simp; decide, (mem_ownCells (g := (thr d L, SemLoc.dma cc0_scoped13.sem))).mpr ⟨rfl, by
      show (SemLoc.dma cc0_scoped13.sem : SemLoc sig).isScoped .scVector = true; decide⟩⟩),
    SparseCore.bigSep_erase' (Finset.mem_erase.mpr ⟨by simp; decide, Finset.mem_erase.mpr ⟨by simp; decide,
      (mem_ownCells (g := (thr d L, SemLoc.dma cc0_scoped64.sem))).mpr ⟨rfl, by show (SemLoc.dma cc0_scoped64.sem : SemLoc sig).isScoped .scVector = true; decide⟩⟩⟩)]

/-- The source chunk of trip `t`, as the program slices it. -/
abbrev srcS3 (L : grid0.Coords) (h : k0_cond4 L = 1#1) (t : Fin (k0_t9_loop L).trips) : Memref sig .scVector .hbm S64x512 .f32 :=
  (a3W).slice (Rect.unit (s := S3328x512) (k0_off14 L t) S64x512.size (k0_off14_inb L t h)) (fun _ => rfl)

omit [FloatOps F] in
theorem pts_a3 (L : grid0.Coords) (q : PosShare TreeShare) (f : Buf (Elt F) (aLoc3 d)) :
    ((a3W).view.loc (thr d L) ↦{q} f : sProp 𝕄) = aLoc3 d ↦{q} f := rfl

/-- The copying loop's invariant before trip `t`: the first `64 t` rows of the block hold the padded array. -/
def invC3 (L : grid0.Coords) (O : CellTallies nD τ sig (HIx 1)) (W : Waits sig (HIx 1)) (q : PosShare TreeShare) (t : Nat) (_ : PUnit) : sProp 𝕄 :=
  iprop(Transfers.MayWaits (thr d L) (none : HIx 1) O
    ∗ ((a3W).view.loc (thr d L) ↦{q} m (aLoc3 d))
    ∗ (∃ fb, (bW).view.loc (thr d L) ↦{fullShare} fb)
    ∗ (∃ fo, (oLoc d ↦[blkSet (bI L)]{fullShare} fo) ∗ ⌜Done m d L (64 * t) fo⌝)
    ∗ semVal (thr d L, SemLoc.dma cc0_scoped12.sem) 0
    ∗ semVal (thr d L, SemLoc.dma cc0_scoped13.sem) 0
    ∗ ∃ W', ⌜∀ p ∈ W', p ∈ W ∨ p.2 = none⌝ ∗ owes (thr d L) O W')

theorem tile_s3 (hF : (K (F := F)).Facts) (L : grid0.Coords) (hs : (L 1).val = 3) (O : CellTallies nD τ sig (HIx 1)) (W : Waits sig (HIx 1)) (hO : ∀ g, O g none = 0) :
    TileSpec m d L O W := by
  have k0_h1 : ¬ k0_cond1 L = 1#1 := fun h => absurd ((cond1_iff L).mp h) (by omega)
  have k0_h2 : ¬ k0_cond2 L = 1#1 := fun h => absurd ((cond2_iff L).mp h) (by omega)
  have k0_h3 : ¬ k0_cond3 L = 1#1 := fun h => absurd ((cond3_iff L).mp h) (by omega)
  have k0_h4 : k0_cond4 L = 1#1 := (cond4_iff L).mpr hs
  have k0_h5 : ¬ k0_cond5 L = 1#1 := fun h => absurd ((cond5_iff L).mp h) (by omega)
  have k0_h6 : ¬ k0_cond6 L = 1#1 := fun h => absurd ((cond6_iff L).mp h) (by omega)
  have k0_h7 : ¬ k0_cond7 L = 1#1 := fun h => absurd ((cond7_iff L).mp h) (by omega)
  have k0_h8 : ¬ k0_cond8 L = 1#1 := fun h => absurd ((cond8_iff L).mp h) (by omega)
  have k0_h9 : ¬ k0_cond9 L = 1#1 := fun h => absurd ((cond9_iff L).mp h) (by omega)
  have k0_h10 : ¬ k0_cond10 L = 1#1 := fun h => absurd ((cond10_iff L).mp h) (by omega)
  have k0_h11 : ¬ k0_cond11 L = 1#1 := fun h => absurd ((cond11_iff L).mp h) (by omega)
  have k0_h12 : ¬ k0_cond12 L = 1#1 := fun h => absurd ((cond12_iff L).mp h) (by omega)
  have k0_h13 : ¬ k0_cond13 L = 1#1 := fun h => absurd ((cond13_iff L).mp h) (by omega)
  have k0_h14 : ¬ k0_cond14 L = 1#1 := fun h => absurd ((cond14_iff L).mp h) (by omega)
  have k0_h15 : ¬ k0_cond15 L = 1#1 := fun h => absurd ((cond15_iff L).mp h) (by omega)
  have k0_h16 : ¬ k0_cond16 L = 1#1 := fun h => absurd ((cond16_iff L).mp h) (by omega)
  have rt : ∀ (fb rd : (cc0_scratch0 : Ref sig .scVector).ty.Contents (Elt F)),
      ReadAs.same.apply (View.read (Elt F) (View.whole (cc0_scratch0 : Ref sig .scVector)) (View.write (Elt F) (View.whole (cc0_scratch0 : Ref sig .scVector)) fb (ReadAs.same.apply rd) Finset.univ)) = rd :=
    fun fb rd => (congrArg (View.read (Elt F) (View.whole (cc0_scratch0 : Ref sig .scVector))) (View.write_whole_univ (Val := Elt F) (cc0_scratch0 : Ref sig .scVector) fb rd)).trans (View.read_whole _ rd)
  unfold TileSpec
  simp only [cc0__pad_body_eq_skeleton]; unfold cc0__pad_body_skel
  rw [(K (F := F)).scopedBufs_V hF d _ _, SparseCore.Cfg.scopedSems0_V (Val := Elt F) d _ _, ownSems0_V3, ownBufs_V]
  unfold argsAt
  iintro ⟨#Hlv, -, ⟨⟨A0, A1, A2, A3, A4, A5, A6, A7, A8, A9, A10, A11, A12, A13, A14, A15⟩, Ho⟩, ⟨⟨%fb, Hb⟩, ⟨%fz, Hz⟩, Hbufs⟩, ⟨Hs0, Hs1, Hs64, Hsems⟩, HO⟩
  ihave Hmw := ((K (F := F)).mayWaits_none (thr := thr d L) hO) $$ Hlv
  ihave Aa := (Entails.of_eq (pts_a3 (F := F) d L _ _).symm) $$ A3
  ihave Hb' := (Entails.of_eq (pts_b (F := F) d L _).symm) $$ Hb
  ihave Hz' := (Entails.of_eq (pts_z (F := F) d L _).symm) $$ Hz
  sl_exec
  -- the zeroing loops
  sl_for (invZ1 (F := F) d L) $$ [Hz']
  case region =>
    intro k1 _
    unfold invZ1
    iintro ⟨%f, Hz, %hf⟩
    sl_exec
    sl_for (invZ2 (F := F) d L k1) $$ [Hz]
    case region =>
      intro k2 _
      unfold invZ2
      iintro ⟨%f, Hz, %hf⟩
      sl_exec
      sl_step
      iexists _; isplitl [Hz]; · iexact Hz
      ipureintro
      exact invZ2_step k1 k2 f hf
    · unfold invZ2
      iexists f; isplitl [Hz]; · iexact Hz
      ipureintro
      exact invZ2_init k1 f hf
    iintro %_ HI
    unfold invZ2
    icases HI with ⟨%f', Hz, %hf'⟩
    sl_exec
    sl_step
    iexists f'; isplitl [Hz]; · iexact Hz
    ipureintro
    exact invZ1_step k1 f' hf'
  · unfold invZ1
    iexists fz; isplitl [Hz']; · iexact Hz'
    ipureintro
    intro r q h; omega
  iintro %_ HI
  unfold invZ1
  icases HI with ⟨%fz1, Hz, %hfz⟩
  have hfz1 : fz1 = fun _ => zF (F := F) := invZ1_final fz1 hfz
  subst hfz1
  sl_exec
  -- the copying loop
  sl_for (invC3 (F := F) m d L O W (shT (cL L) (sL L))) $$ [Hmw Aa Hb' Ho Hs0 Hs1 HO]
  case region =>
    intro t _
    unfold invC3
    iintro ⟨Hmw, Aa, ⟨%fb, Hb⟩, ⟨%fo, Ho, %hD⟩, Hs0, Hs1, %W', %hW', HO⟩
    have htr : 64 * t.val + 64 ≤ ncopy L := by
      have h1 := t.isLt; have h2 := trips9 L; have h3 := ncopy_dvd L
      change t.val < (k0_t9_loop L).trips at h1
      rw [h2] at h1; omega
    have hnc := ncopy_le L
    have hoff : k0_off15 L t 0 = R0 L + 64 * t.val := by rw [off15_eq]; unfold R0; rfl
    have hsub := chunk_subset L (k0_off15 L t) (k0_off15_inb L t k0_h4) (fun _ => rfl) (64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Aa]; · iexact Aa
    isplitl [Hb]; · iexists _; iexact Hb
    isplitl [Ho]
    · iexists _; isplitl [Ho]; · iexact Ho
      ipureintro
      have e : 64 * (t.val + 1) = 64 * t.val + 64 := by omega
      rw [e]
      refine done_step m d L _ _ _ (64 * t.val) hoff (by rw [off15_eq]; rfl) fo _ hD ?_
      refine hw_copy m d L (m (aLoc3 d)) (fun p q => by rw [hs]; rfl) (by rw [hs]) t.val htr _ _ _ hoff (by rw [off15_eq]; rfl)
        (fun y => (srcS3 L k0_h4 t).view.emb y) (fun y => ?_) _
        (fun y => (congrFun (rt fb _) y).trans ((View.read_apply (v := (srcS3 L k0_h4 t).view) _ y).trans (cast_eq _ _)))
      constructor
      · show k0_off14 L t 0 + 1 * (y 0).val = _; rw [off14_eq]; show 2048 * (L 0).val + 64 * t.val + 1 * (y 0).val = _; omega
      · show k0_off14 L t 1 + 1 * (y 1).val = _; rw [off14_eq]; show 0 + 1 * (y 1).val = _; omega
    isplitl [Hs0]; · iexact Hs0
    isplitl [Hs1]; · iexact Hs1
    iexists (insert (SemLoc.dma cc0_scoped13.sem, (default : HIx 1)) (insert (SemLoc.dma cc0_scoped12.sem, (default : HIx 1)) W')); isplitr
    · ipureintro; intro p hp
      rcases Finset.mem_insert.mp hp with hp | hp
      · exact .inr (hp ▸ rfl)
      rcases Finset.mem_insert.mp hp with hp | hp
      · exact .inr (hp ▸ rfl)
      · exact hW' p hp
    · iexact HO
  · unfold invC3
    isplitl [Hmw]; · iexact Hmw
    isplitl [Aa]; · iexact Aa
    isplitl [Hb']; · iexists _; iexact Hb'
    isplitl [Ho]
    · iexists _; isplitl [Ho]; · iexact Ho
      ipureintro; exact done_zero m d L _
    isplitl [Hs0]; · iexact Hs0
    isplitl [Hs1]; · iexact Hs1
    iexists W; isplitr
    · ipureintro; exact fun p hp => .inl hp
    · iexact HO
  iintro %_ HI
  unfold invC3
  icases HI with ⟨Hmw, Aa, ⟨%fb, Hb⟩, ⟨%fo, Ho, %hD⟩, Hs0, Hs1, %W1, %hW1, HO⟩
  have hDn : Done m d L (ncopy L) fo := by
    have h3 := ncopy_dvd L
    have e : 64 * (k0_t9_loop L).trips = ncopy L := by rw [trips9 L]; omega
    rw [← e]; exact hD
  sl_exec
  -- the remainder of the unrolling by one: no trips
  sl_for (fun (_ : Nat) (_ : PUnit) => (iprop(emp) : sProp 𝕄)) $$ []
  case region =>
    intro t _
    exact absurd t.isLt (by have h0 := trips10 L; change ¬ (t.val < (k0_t10_loop L).trips); omega)
  · iempintro
  iintro %_ -
  sl_exec
  -- the zero-filling loop
  sl_for (invF (F := F) m d L O W) $$ [Hmw Hz Ho Hs64 HO]
  case region =>
    intro t _
    unfold invF
    iintro ⟨Hmw, Hz, ⟨%fo, Ho, %hD⟩, Hs64, %W', %hW', HO⟩
    have hnc := ncopy_le L
    have htr : ncopy L + 64 * t.val + 64 ≤ 2048 := by
      have h1 := t.isLt; have h2 := trips35 L; obtain ⟨c, hc⟩ := ncopy_dvd L
      change t.val < (k0_t35_loop L).trips at h1
      rw [h2] at h1; omega
    have hoff : k0_off66 L t 0 = R0 L + (ncopy L + 64 * t.val) := by rw [off66_eq]; unfold R0; show _ + _ + _ + _ = _; omega
    have hsub := chunk_subset L (k0_off66 L t) (k0_off66_inb L t) (fun _ => rfl) (ncopy L + 64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Hz]; · iexact Hz
    isplitl [Ho]
    · iexists _; isplitl [Ho]; · iexact Ho
      ipureintro
      have e : ncopy L + 64 * (t.val + 1) = (ncopy L + 64 * t.val) + 64 := by omega
      rw [e]
      refine done_step m d L _ _ _ (ncopy L + 64 * t.val) hoff (by rw [off66_eq]; rfl) fo _ hD ?_
      exact hw_zero m d L t.val htr _ _ _ (by rw [hoff]; omega) _ (fun y => rfl)
    isplitl [Hs64]; · iexact Hs64
    iexists (insert (SemLoc.dma cc0_scoped64.sem, (default : HIx 1)) W'); isplitr
    · ipureintro; intro p hp
      rcases Finset.mem_insert.mp hp with hp | hp
      · exact .inr (hp ▸ rfl)
      · exact hW' p hp
    · iexact HO
  · unfold invF
    isplitl [Hmw]; · iexact Hmw
    isplitl [Hz]; · iexact Hz
    isplitl [Ho]
    · iexists _; isplitl [Ho]; · iexact Ho
      ipureintro; rw [Nat.mul_zero, Nat.add_zero]; exact hDn
    isplitl [Hs64]; · iexact Hs64
    iexists W1; isplitr
    · ipureintro; exact hW1
    · iexact HO
  iintro %_ HI
  unfold invF
  icases HI with ⟨Hmw, Hz, ⟨%fo2, Ho, %hD2⟩, Hs64, %W2, %hW2, HO⟩
  have hAll : Done m d L 2048 fo2 := by
    have hnc := ncopy_le L
    obtain ⟨c, hc⟩ := ncopy_dvd L
    have e : ncopy L + 64 * (k0_t35_loop L).trips = 2048 := by rw [trips35 L]; omega
    rw [← e]; exact hD2
  sl_exec
  sl_for (fun (_ : Nat) (_ : PUnit) => (iprop(emp) : sProp 𝕄)) $$ []
  case region =>
    intro t _
    exact absurd t.isLt (by have h0 := trips36 L; change ¬ (t.val < (k0_t36_loop L).trips); omega)
  · iempintro
  iintro %_ -
  sl_exec
  sl_step
  -- hand everything back
  isplitl [A0 A1 A2 A4 A5 A6 A7 A8 A9 A10 A11 A12 A13 A14 A15 Aa Ho]
  · isplitl [A0 A1 A2 A4 A5 A6 A7 A8 A9 A10 A11 A12 A13 A14 A15 Aa]
    ·
      isplitl [A0]; · iexact A0
      isplitl [A1]; · iexact A1
      isplitl [A2]; · iexact A2
      isplitl [Aa]; · iapply (Entails.of_eq (pts_a3 (F := F) d L _ _)); iexact Aa
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [A12]; · iexact A12
      isplitl [A13]; · iexact A13
      isplitl [A14]; · iexact A14
      iexact A15
    · iapply (Entails.of_eq (pointsTo_congr (ℓ := oLoc d) (done_all m d L fo2 hAll))); iexact Ho
  isplitl [Hb Hz Hbufs]
  · isplitl [Hb]; · iexists _; iapply (Entails.of_eq (pts_b (F := F) d L _)); iexact Hb
    isplitl [Hz]; · iexists _; iapply (Entails.of_eq (pts_z (F := F) d L _)); iexact Hz
    iexact Hbufs
  isplitl [Hs0 Hs1 Hs64 Hsems]
  · isplitl [Hs0]; · iexact Hs0
    isplitl [Hs1]; · iexact Hs1
    isplitl [Hs64]; · iexact Hs64
    iexact Hsems
  iexists W2; isplitr
  · ipureintro; exact hW2
  · iexact HO

end Cert.Proof.KI

end
-- ==== Proof.KITile4.lean ====
/-
  The task on subcore 4 (of either SparseCore): it serves sequence 4, of 3072 rows. Its second scratch buffer is
  zeroed; the rows of the sequence that fall in its half are copied, 64 at a time, through the first scratch buffer
  into its block of the output; the rest of the block is filled from the zeroed buffer. Each loop keeps "the first so
  many rows of the block hold the padded array".
-/
import proofs.«212850_g39865886441476_cont_8to1_b_277_5_alg».proof.Proof.KITileCommon

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "a0W" => (Memref.whole Cert.KernelIdeal.main_arg0_scv : Memref Cert.KernelIdeal.sig Kind.scVector Space.hbm Cert.KernelIdeal.S4096x512 EltTy.f32)
local notation "a1W" => (Memref.whole Cert.KernelIdeal.main_arg1_scv : Memref Cert.KernelIdeal.sig Kind.scVector Space.hbm Cert.KernelIdeal.S3840x512 EltTy.f32)
local notation "a2W" => (Memref.whole Cert.KernelIdeal.main_arg2_scv : Memref Cert.KernelIdeal.sig Kind.scVector Space.hbm Cert.KernelIdeal.S3584x512 EltTy.f32)
local notation "a3W" => (Memref.whole Cert.KernelIdeal.main_arg3_scv : Memref Cert.KernelIdeal.sig Kind.scVector Space.hbm Cert.KernelIdeal.S3328x512 EltTy.f32)
local notation "a4W" => (Memref.whole Cert.KernelIdeal.main_arg4_scv : Memref Cert.KernelIdeal.sig Kind.scVector Space.hbm Cert.KernelIdeal.S3072x512 EltTy.f32)
local notation "a5W" => (Memref.whole Cert.KernelIdeal.main_arg5_scv : Memref Cert.KernelIdeal.sig Kind.scVector Space.hbm Cert.KernelIdeal.S2816x512 EltTy.f32)
local notation "a6W" => (Memref.whole Cert.KernelIdeal.main_arg6_scv : Memref Cert.KernelIdeal.sig Kind.scVector Space.hbm Cert.KernelIdeal.S2560x512 EltTy.f32)
local notation "a7W" => (Memref.whole Cert.KernelIdeal.main_arg7_scv : Memref Cert.KernelIdeal.sig Kind.scVector Space.hbm Cert.KernelIdeal.S2304x512 EltTy.f32)
local notation "a8W" => (Memref.whole Cert.KernelIdeal.main_arg8_scv : Memref Cert.KernelIdeal.sig Kind.scVector Space.hbm Cert.KernelIdeal.S2048x512 EltTy.f32)
local notation "a9W" => (Memref.whole Cert.KernelIdeal.main_arg9_scv : Memref Cert.KernelIdeal.sig Kind.scVector Space.hbm Cert.KernelIdeal.S1792x512 EltTy.f32)
local notation "a10W" => (Memref.whole Cert.KernelIdeal.main_arg10_scv : Memref Cert.KernelIdeal.sig Kind.scVector Space.hbm Cert.KernelIdeal.S1536x512 EltTy.f32)
local notation "a11W" => (Memref.whole Cert.KernelIdeal.main_arg11_scv : Memref Cert.KernelIdeal.sig Kind.scVector Space.hbm Cert.KernelIdeal.S1280x512 EltTy.f32)
local notation "a12W" => (Memref.whole Cert.KernelIdeal.main_arg12_scv : Memref Cert.KernelIdeal.sig Kind.scVector Space.hbm Cert.KernelIdeal.S1024x512 EltTy.f32)
local notation "a13W" => (Memref.whole Cert.KernelIdeal.main_arg13_scv : Memref Cert.KernelIdeal.sig Kind.scVector Space.hbm Cert.KernelIdeal.S768x512 EltTy.f32)
local notation "a14W" => (Memref.whole Cert.KernelIdeal.main_arg14_scv : Memref Cert.KernelIdeal.sig Kind.scVector Space.hbm Cert.KernelIdeal.S512x512 EltTy.f32)
local notation "a15W" => (Memref.whole Cert.KernelIdeal.main_arg15_scv : Memref Cert.KernelIdeal.sig Kind.scVector Space.hbm Cert.KernelIdeal.S256x512 EltTy.f32)
local notation "oW" => (Memref.whole Cert.KernelIdeal.main_v0_scv : Memref Cert.KernelIdeal.sig Kind.scVector Space.hbm Cert.KernelIdeal.S65536x512 EltTy.f32)
local notation "bW" => (Memref.whole Cert.KernelIdeal.cc0_scratch0 : Memref Cert.KernelIdeal.sig Kind.scVector Space.vmem Cert.KernelIdeal.S64x512 EltTy.f32)
local notation "zW" => (Memref.whole Cert.KernelIdeal.cc0_scratch1 : Memref Cert.KernelIdeal.sig Kind.scVector Space.vmem Cert.KernelIdeal.S64x512 EltTy.f32)

variable (m : (ℓ : Loc nD τ sig) → Buf (Elt F) ℓ) (d : Dev nD)

omit [FloatOps F] in
theorem ownSems0_V4 (L : grid0.Coords) :
    (ownSems0 (thr d L) : sProp 𝕄)
      = iprop(semVal (thr d L, SemLoc.dma cc0_scoped16.sem) 0 ∗ semVal (thr d L, SemLoc.dma cc0_scoped17.sem) 0 ∗ semVal (thr d L, SemLoc.dma cc0_scoped64.sem) 0
          ∗ bigSep ((((ownCells (thr d L)).erase (thr d L, SemLoc.dma cc0_scoped16.sem)).erase (thr d L, SemLoc.dma cc0_scoped17.sem)).erase (thr d L, SemLoc.dma cc0_scoped64.sem))
              fun g => semVal g 0) := by
  unfold SparseCore.Cfg.ownSems0
  rw [SparseCore.bigSep_erase' ((mem_ownCells (g := (thr d L, SemLoc.dma cc0_scoped16.sem))).mpr ⟨rfl, by
      show (SemLoc.dma cc0_scoped16.sem : SemLoc sig).isScoped .scVector = true; decide⟩),
    SparseCore.bigSep_erase' (Finset.mem_erase.mpr ⟨by simp; decide, (mem_ownCells (g := (thr d L, SemLoc.dma cc0_scoped17.sem))).mpr ⟨rfl, by
      show (SemLoc.dma cc0_scoped17.sem : SemLoc sig).isScoped .scVector = true; decide⟩⟩),
    SparseCore.bigSep_erase' (Finset.mem_erase.mpr ⟨by simp; decide, Finset.mem_erase.mpr ⟨by simp; decide,
      (mem_ownCells (g := (thr d L, SemLoc.dma cc0_scoped64.sem))).mpr ⟨rfl, by show (SemLoc.dma cc0_scoped64.sem : SemLoc sig).isScoped .scVector = true; decide⟩⟩⟩)]

/-- The source chunk of trip `t`, as the program slices it. -/
abbrev srcS4 (L : grid0.Coords) (h : k0_cond5 L = 1#1) (t : Fin (k0_t11_loop L).trips) : Memref sig .scVector .hbm S64x512 .f32 :=
  (a4W).slice (Rect.unit (s := S3072x512) (k0_off18 L t) S64x512.size (k0_off18_inb L t h)) (fun _ => rfl)

omit [FloatOps F] in
theorem pts_a4 (L : grid0.Coords) (q : PosShare TreeShare) (f : Buf (Elt F) (aLoc4 d)) :
    ((a4W).view.loc (thr d L) ↦{q} f : sProp 𝕄) = aLoc4 d ↦{q} f := rfl

/-- The copying loop's invariant before trip `t`: the first `64 t` rows of the block hold the padded array. -/
def invC4 (L : grid0.Coords) (O : CellTallies nD τ sig (HIx 1)) (W : Waits sig (HIx 1)) (q : PosShare TreeShare) (t : Nat) (_ : PUnit) : sProp 𝕄 :=
  iprop(Transfers.MayWaits (thr d L) (none : HIx 1) O
    ∗ ((a4W).view.loc (thr d L) ↦{q} m (aLoc4 d))
    ∗ (∃ fb, (bW).view.loc (thr d L) ↦{fullShare} fb)
    ∗ (∃ fo, (oLoc d ↦[blkSet (bI L)]{fullShare} fo) ∗ ⌜Done m d L (64 * t) fo⌝)
    ∗ semVal (thr d L, SemLoc.dma cc0_scoped16.sem) 0
    ∗ semVal (thr d L, SemLoc.dma cc0_scoped17.sem) 0
    ∗ ∃ W', ⌜∀ p ∈ W', p ∈ W ∨ p.2 = none⌝ ∗ owes (thr d L) O W')

theorem tile_s4 (hF : (K (F := F)).Facts) (L : grid0.Coords) (hs : (L 1).val = 4) (O : CellTallies nD τ sig (HIx 1)) (W : Waits sig (HIx 1)) (hO : ∀ g, O g none = 0) :
    TileSpec m d L O W := by
  have k0_h1 : ¬ k0_cond1 L = 1#1 := fun h => absurd ((cond1_iff L).mp h) (by omega)
  have k0_h2 : ¬ k0_cond2 L = 1#1 := fun h => absurd ((cond2_iff L).mp h) (by omega)
  have k0_h3 : ¬ k0_cond3 L = 1#1 := fun h => absurd ((cond3_iff L).mp h) (by omega)
  have k0_h4 : ¬ k0_cond4 L = 1#1 := fun h => absurd ((cond4_iff L).mp h) (by omega)
  have k0_h5 : k0_cond5 L = 1#1 := (cond5_iff L).mpr hs
  have k0_h6 : ¬ k0_cond6 L = 1#1 := fun h => absurd ((cond6_iff L).mp h) (by omega)
  have k0_h7 : ¬ k0_cond7 L = 1#1 := fun h => absurd ((cond7_iff L).mp h) (by omega)
  have k0_h8 : ¬ k0_cond8 L = 1#1 := fun h => absurd ((cond8_iff L).mp h) (by omega)
  have k0_h9 : ¬ k0_cond9 L = 1#1 := fun h => absurd ((cond9_iff L).mp h) (by omega)
  have k0_h10 : ¬ k0_cond10 L = 1#1 := fun h => absurd ((cond10_iff L).mp h) (by omega)
  have k0_h11 : ¬ k0_cond11 L = 1#1 := fun h => absurd ((cond11_iff L).mp h) (by omega)
  have k0_h12 : ¬ k0_cond12 L = 1#1 := fun h => absurd ((cond12_iff L).mp h) (by omega)
  have k0_h13 : ¬ k0_cond13 L = 1#1 := fun h => absurd ((cond13_iff L).mp h) (by omega)
  have k0_h14 : ¬ k0_cond14 L = 1#1 := fun h => absurd ((cond14_iff L).mp h) (by omega)
  have k0_h15 : ¬ k0_cond15 L = 1#1 := fun h => absurd ((cond15_iff L).mp h) (by omega)
  have k0_h16 : ¬ k0_cond16 L = 1#1 := fun h => absurd ((cond16_iff L).mp h) (by omega)
  have rt : ∀ (fb rd : (cc0_scratch0 : Ref sig .scVector).ty.Contents (Elt F)),
      ReadAs.same.apply (View.read (Elt F) (View.whole (cc0_scratch0 : Ref sig .scVector)) (View.write (Elt F) (View.whole (cc0_scratch0 : Ref sig .scVector)) fb (ReadAs.same.apply rd) Finset.univ)) = rd :=
    fun fb rd => (congrArg (View.read (Elt F) (View.whole (cc0_scratch0 : Ref sig .scVector))) (View.write_whole_univ (Val := Elt F) (cc0_scratch0 : Ref sig .scVector) fb rd)).trans (View.read_whole _ rd)
  unfold TileSpec
  simp only [cc0__pad_body_eq_skeleton]; unfold cc0__pad_body_skel
  rw [(K (F := F)).scopedBufs_V hF d _ _, SparseCore.Cfg.scopedSems0_V (Val := Elt F) d _ _, ownSems0_V4, ownBufs_V]
  unfold argsAt
  iintro ⟨#Hlv, -, ⟨⟨A0, A1, A2, A3, A4, A5, A6, A7, A8, A9, A10, A11, A12, A13, A14, A15⟩, Ho⟩, ⟨⟨%fb, Hb⟩, ⟨%fz, Hz⟩, Hbufs⟩, ⟨Hs0, Hs1, Hs64, Hsems⟩, HO⟩
  ihave Hmw := ((K (F := F)).mayWaits_none (thr := thr d L) hO) $$ Hlv
  ihave Aa := (Entails.of_eq (pts_a4 (F := F) d L _ _).symm) $$ A4
  ihave Hb' := (Entails.of_eq (pts_b (F := F) d L _).symm) $$ Hb
  ihave Hz' := (Entails.of_eq (pts_z (F := F) d L _).symm) $$ Hz
  sl_exec
  -- the zeroing loops
  sl_for (invZ1 (F := F) d L) $$ [Hz']
  case region =>
    intro k1 _
    unfold invZ1
    iintro ⟨%f, Hz, %hf⟩
    sl_exec
    sl_for (invZ2 (F := F) d L k1) $$ [Hz]
    case region =>
      intro k2 _
      unfold invZ2
      iintro ⟨%f, Hz, %hf⟩
      sl_exec
      sl_step
      iexists _; isplitl [Hz]; · iexact Hz
      ipureintro
      exact invZ2_step k1 k2 f hf
    · unfold invZ2
      iexists f; isplitl [Hz]; · iexact Hz
      ipureintro
      exact invZ2_init k1 f hf
    iintro %_ HI
    unfold invZ2
    icases HI with ⟨%f', Hz, %hf'⟩
    sl_exec
    sl_step
    iexists f'; isplitl [Hz]; · iexact Hz
    ipureintro
    exact invZ1_step k1 f' hf'
  · unfold invZ1
    iexists fz; isplitl [Hz']; · iexact Hz'
    ipureintro
    intro r q h; omega
  iintro %_ HI
  unfold invZ1
  icases HI with ⟨%fz1, Hz, %hfz⟩
  have hfz1 : fz1 = fun _ => zF (F := F) := invZ1_final fz1 hfz
  subst hfz1
  sl_exec
  -- the copying loop
  sl_for (invC4 (F := F) m d L O W (shT (cL L) (sL L))) $$ [Hmw Aa Hb' Ho Hs0 Hs1 HO]
  case region =>
    intro t _
    unfold invC4
    iintro ⟨Hmw, Aa, ⟨%fb, Hb⟩, ⟨%fo, Ho, %hD⟩, Hs0, Hs1, %W', %hW', HO⟩
    have htr : 64 * t.val + 64 ≤ ncopy L := by
      have h1 := t.isLt; have h2 := trips11 L; have h3 := ncopy_dvd L
      change t.val < (k0_t11_loop L).trips at h1
      rw [h2] at h1; omega
    have hnc := ncopy_le L
    have hoff : k0_off19 L t 0 = R0 L + 64 * t.val := by rw [off19_eq]; unfold R0; rfl
    have hsub := chunk_subset L (k0_off19 L t) (k0_off19_inb L t k0_h5) (fun _ => rfl) (64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Aa]; · iexact Aa
    isplitl [Hb]; · iexists _; iexact Hb
    isplitl [Ho]
    · iexists _; isplitl [Ho]; · iexact Ho
      ipureintro
      have e : 64 * (t.val + 1) = 64 * t.val + 64 := by omega
      rw [e]
      refine done_step m d L _ _ _ (64 * t.val) hoff (by rw [off19_eq]; rfl) fo _ hD ?_
      refine hw_copy m d L (m (aLoc4 d)) (fun p q => by rw [hs]; rfl) (by rw [hs]) t.val htr _ _ _ hoff (by rw [off19_eq]; rfl)
        (fun y => (srcS4 L k0_h5 t).view.emb y) (fun y => ?_) _
        (fun y => (congrFun (rt fb _) y).trans ((View.read_apply (v := (srcS4 L k0_h5 t).view) _ y).trans (cast_eq _ _)))
      constructor
      · show k0_off18 L t 0 + 1 * (y 0).val = _; rw [off18_eq]; show 2048 * (L 0).val + 64 * t.val + 1 * (y 0).val = _; omega
      · show k0_off18 L t 1 + 1 * (y 1).val = _; rw [off18_eq]; show 0 + 1 * (y 1).val = _; omega
    isplitl [Hs0]; · iexact Hs0
    isplitl [Hs1]; · iexact Hs1
    iexists (insert (SemLoc.dma cc0_scoped17.sem, (default : HIx 1)) (insert (SemLoc.dma cc0_scoped16.sem, (default : HIx 1)) W')); isplitr
    · ipureintro; intro p hp
      rcases Finset.mem_insert.mp hp with hp | hp
      · exact .inr (hp ▸ rfl)
      rcases Finset.mem_insert.mp hp with hp | hp
      · exact .inr (hp ▸ rfl)
      · exact hW' p hp
    · iexact HO
  · unfold invC4
    isplitl [Hmw]; · iexact Hmw
    isplitl [Aa]; · iexact Aa
    isplitl [Hb']; · iexists _; iexact Hb'
    isplitl [Ho]
    · iexists _; isplitl [Ho]; · iexact Ho
      ipureintro; exact done_zero m d L _
    isplitl [Hs0]; · iexact Hs0
    isplitl [Hs1]; · iexact Hs1
    iexists W; isplitr
    · ipureintro; exact fun p hp => .inl hp
    · iexact HO
  iintro %_ HI
  unfold invC4
  icases HI with ⟨Hmw, Aa, ⟨%fb, Hb⟩, ⟨%fo, Ho, %hD⟩, Hs0, Hs1, %W1, %hW1, HO⟩
  have hDn : Done m d L (ncopy L) fo := by
    have h3 := ncopy_dvd L
    have e : 64 * (k0_t11_loop L).trips = ncopy L := by rw [trips11 L]; omega
    rw [← e]; exact hD
  sl_exec
  -- the remainder of the unrolling by one: no trips
  sl_for (fun (_ : Nat) (_ : PUnit) => (iprop(emp) : sProp 𝕄)) $$ []
  case region =>
    intro t _
    exact absurd t.isLt (by have h0 := trips12 L; change ¬ (t.val < (k0_t12_loop L).trips); omega)
  · iempintro
  iintro %_ -
  sl_exec
  -- the zero-filling loop
  sl_for (invF (F := F) m d L O W) $$ [Hmw Hz Ho Hs64 HO]
  case region =>
    intro t _
    unfold invF
    iintro ⟨Hmw, Hz, ⟨%fo, Ho, %hD⟩, Hs64, %W', %hW', HO⟩
    have hnc := ncopy_le L
    have htr : ncopy L + 64 * t.val + 64 ≤ 2048 := by
      have h1 := t.isLt; have h2 := trips35 L; obtain ⟨c, hc⟩ := ncopy_dvd L
      change t.val < (k0_t35_loop L).trips at h1
      rw [h2] at h1; omega
    have hoff : k0_off66 L t 0 = R0 L + (ncopy L + 64 * t.val) := by rw [off66_eq]; unfold R0; show _ + _ + _ + _ = _; omega
    have hsub := chunk_subset L (k0_off66 L t) (k0_off66_inb L t) (fun _ => rfl) (ncopy L + 64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Hz]; · iexact Hz
    isplitl [Ho]
    · iexists _; isplitl [Ho]; · iexact Ho
      ipureintro
      have e : ncopy L + 64 * (t.val + 1) = (ncopy L + 64 * t.val) + 64 := by omega
      rw [e]
      refine done_step m d L _ _ _ (ncopy L + 64 * t.val) hoff (by rw [off66_eq]; rfl) fo _ hD ?_
      exact hw_zero m d L t.val htr _ _ _ (by rw [hoff]; omega) _ (fun y => rfl)
    isplitl [Hs64]; · iexact Hs64
    iexists (insert (SemLoc.dma cc0_scoped64.sem, (default : HIx 1)) W'); isplitr
    · ipureintro; intro p hp
      rcases Finset.mem_insert.mp hp with hp | hp
      · exact .inr (hp ▸ rfl)
      · exact hW' p hp
    · iexact HO
  · unfold invF
    isplitl [Hmw]; · iexact Hmw
    isplitl [Hz]; · iexact Hz
    isplitl [Ho]
    · iexists _; isplitl [Ho]; · iexact Ho
      ipureintro; rw [Nat.mul_zero, Nat.add_zero]; exact hDn
    isplitl [Hs64]; · iexact Hs64
    iexists W1; isplitr
    · ipureintro; exact hW1
    · iexact HO
  iintro %_ HI
  unfold invF
  icases HI with ⟨Hmw, Hz, ⟨%fo2, Ho, %hD2⟩, Hs64, %W2, %hW2, HO⟩
  have hAll : Done m d L 2048 fo2 := by
    have hnc := ncopy_le L
    obtain ⟨c, hc⟩ := ncopy_dvd L
    have e : ncopy L + 64 * (k0_t35_loop L).trips = 2048 := by rw [trips35 L]; omega
    rw [← e]; exact hD2
  sl_exec
  sl_for (fun (_ : Nat) (_ : PUnit) => (iprop(emp) : sProp 𝕄)) $$ []
  case region =>
    intro t _
    exact absurd t.isLt (by have h0 := trips36 L; change ¬ (t.val < (k0_t36_loop L).trips); omega)
  · iempintro
  iintro %_ -
  sl_exec
  sl_step
  -- hand everything back
  isplitl [A0 A1 A2 A3 A5 A6 A7 A8 A9 A10 A11 A12 A13 A14 A15 Aa Ho]
  · isplitl [A0 A1 A2 A3 A5 A6 A7 A8 A9 A10 A11 A12 A13 A14 A15 Aa]
    ·
      isplitl [A0]; · iexact A0
      isplitl [A1]; · iexact A1
      isplitl [A2]; · iexact A2
      isplitl [A3]; · iexact A3
      isplitl [Aa]; · iapply (Entails.of_eq (pts_a4 (F := F) d L _ _)); iexact Aa
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [A12]; · iexact A12
      isplitl [A13]; · iexact A13
      isplitl [A14]; · iexact A14
      iexact A15
    · iapply (Entails.of_eq (pointsTo_congr (ℓ := oLoc d) (done_all m d L fo2 hAll))); iexact Ho
  isplitl [Hb Hz Hbufs]
  · isplitl [Hb]; · iexists _; iapply (Entails.of_eq (pts_b (F := F) d L _)); iexact Hb
    isplitl [Hz]; · iexists _; iapply (Entails.of_eq (pts_z (F := F) d L _)); iexact Hz
    iexact Hbufs
  isplitl [Hs0 Hs1 Hs64 Hsems]
  · isplitl [Hs0]; · iexact Hs0
    isplitl [Hs1]; · iexact Hs1
    isplitl [Hs64]; · iexact Hs64
    iexact Hsems
  iexists W2; isplitr
  · ipureintro; exact hW2
  · iexact HO

end Cert.Proof.KI

end
-- ==== Proof.KITile5.lean ====
/-
  The task on subcore 5 (of either SparseCore): it serves sequence 5, of 2816 rows. Its second scratch buffer is
  zeroed; the rows of the sequence that fall in its half are copied, 64 at a time, through the first scratch buffer
  into its block of the output; the rest of the block is filled from the zeroed buffer. Each loop keeps "the first so
  many rows of the block hold the padded array".
-/
import proofs.«212850_g39865886441476_cont_8to1_b_277_5_alg».proof.Proof.KITileCommon

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "a0W" => (Memref.whole Cert.KernelIdeal.main_arg0_scv : Memref Cert.KernelIdeal.sig Kind.scVector Space.hbm Cert.KernelIdeal.S4096x512 EltTy.f32)
local notation "a1W" => (Memref.whole Cert.KernelIdeal.main_arg1_scv : Memref Cert.KernelIdeal.sig Kind.scVector Space.hbm Cert.KernelIdeal.S3840x512 EltTy.f32)
local notation "a2W" => (Memref.whole Cert.KernelIdeal.main_arg2_scv : Memref Cert.KernelIdeal.sig Kind.scVector Space.hbm Cert.KernelIdeal.S3584x512 EltTy.f32)
local notation "a3W" => (Memref.whole Cert.KernelIdeal.main_arg3_scv : Memref Cert.KernelIdeal.sig Kind.scVector Space.hbm Cert.KernelIdeal.S3328x512 EltTy.f32)
local notation "a4W" => (Memref.whole Cert.KernelIdeal.main_arg4_scv : Memref Cert.KernelIdeal.sig Kind.scVector Space.hbm Cert.KernelIdeal.S3072x512 EltTy.f32)
local notation "a5W" => (Memref.whole Cert.KernelIdeal.main_arg5_scv : Memref Cert.KernelIdeal.sig Kind.scVector Space.hbm Cert.KernelIdeal.S2816x512 EltTy.f32)
local notation "a6W" => (Memref.whole Cert.KernelIdeal.main_arg6_scv : Memref Cert.KernelIdeal.sig Kind.scVector Space.hbm Cert.KernelIdeal.S2560x512 EltTy.f32)
local notation "a7W" => (Memref.whole Cert.KernelIdeal.main_arg7_scv : Memref Cert.KernelIdeal.sig Kind.scVector Space.hbm Cert.KernelIdeal.S2304x512 EltTy.f32)
local notation "a8W" => (Memref.whole Cert.KernelIdeal.main_arg8_scv : Memref Cert.KernelIdeal.sig Kind.scVector Space.hbm Cert.KernelIdeal.S2048x512 EltTy.f32)
local notation "a9W" => (Memref.whole Cert.KernelIdeal.main_arg9_scv : Memref Cert.KernelIdeal.sig Kind.scVector Space.hbm Cert.KernelIdeal.S1792x512 EltTy.f32)
local notation "a10W" => (Memref.whole Cert.KernelIdeal.main_arg10_scv : Memref Cert.KernelIdeal.sig Kind.scVector Space.hbm Cert.KernelIdeal.S1536x512 EltTy.f32)
local notation "a11W" => (Memref.whole Cert.KernelIdeal.main_arg11_scv : Memref Cert.KernelIdeal.sig Kind.scVector Space.hbm Cert.KernelIdeal.S1280x512 EltTy.f32)
local notation "a12W" => (Memref.whole Cert.KernelIdeal.main_arg12_scv : Memref Cert.KernelIdeal.sig Kind.scVector Space.hbm Cert.KernelIdeal.S1024x512 EltTy.f32)
local notation "a13W" => (Memref.whole Cert.KernelIdeal.main_arg13_scv : Memref Cert.KernelIdeal.sig Kind.scVector Space.hbm Cert.KernelIdeal.S768x512 EltTy.f32)
local notation "a14W" => (Memref.whole Cert.KernelIdeal.main_arg14_scv : Memref Cert.KernelIdeal.sig Kind.scVector Space.hbm Cert.KernelIdeal.S512x512 EltTy.f32)
local notation "a15W" => (Memref.whole Cert.KernelIdeal.main_arg15_scv : Memref Cert.KernelIdeal.sig Kind.scVector Space.hbm Cert.KernelIdeal.S256x512 EltTy.f32)
local notation "oW" => (Memref.whole Cert.KernelIdeal.main_v0_scv : Memref Cert.KernelIdeal.sig Kind.scVector Space.hbm Cert.KernelIdeal.S65536x512 EltTy.f32)
local notation "bW" => (Memref.whole Cert.KernelIdeal.cc0_scratch0 : Memref Cert.KernelIdeal.sig Kind.scVector Space.vmem Cert.KernelIdeal.S64x512 EltTy.f32)
local notation "zW" => (Memref.whole Cert.KernelIdeal.cc0_scratch1 : Memref Cert.KernelIdeal.sig Kind.scVector Space.vmem Cert.KernelIdeal.S64x512 EltTy.f32)

variable (m : (ℓ : Loc nD τ sig) → Buf (Elt F) ℓ) (d : Dev nD)

omit [FloatOps F] in
theorem ownSems0_V5 (L : grid0.Coords) :
    (ownSems0 (thr d L) : sProp 𝕄)
      = iprop(semVal (thr d L, SemLoc.dma cc0_scoped20.sem) 0 ∗ semVal (thr d L, SemLoc.dma cc0_scoped21.sem) 0 ∗ semVal (thr d L, SemLoc.dma cc0_scoped64.sem) 0
          ∗ bigSep ((((ownCells (thr d L)).erase (thr d L, SemLoc.dma cc0_scoped20.sem)).erase (thr d L, SemLoc.dma cc0_scoped21.sem)).erase (thr d L, SemLoc.dma cc0_scoped64.sem))
              fun g => semVal g 0) := by
  unfold SparseCore.Cfg.ownSems0
  rw [SparseCore.bigSep_erase' ((mem_ownCells (g := (thr d L, SemLoc.dma cc0_scoped20.sem))).mpr ⟨rfl, by
      show (SemLoc.dma cc0_scoped20.sem : SemLoc sig).isScoped .scVector = true; decide⟩),
    SparseCore.bigSep_erase' (Finset.mem_erase.mpr ⟨by simp; decide, (mem_ownCells (g := (thr d L, SemLoc.dma cc0_scoped21.sem))).mpr ⟨rfl, by
      show (SemLoc.dma cc0_scoped21.sem : SemLoc sig).isScoped .scVector = true; decide⟩⟩),
    SparseCore.bigSep_erase' (Finset.mem_erase.mpr ⟨by simp; decide, Finset.mem_erase.mpr ⟨by simp; decide,
      (mem_ownCells (g := (thr d L, SemLoc.dma cc0_scoped64.sem))).mpr ⟨rfl, by show (SemLoc.dma cc0_scoped64.sem : SemLoc sig).isScoped .scVector = true; decide⟩⟩⟩)]

/-- The source chunk of trip `t`, as the program slices it. -/
abbrev srcS5 (L : grid0.Coords) (h : k0_cond6 L = 1#1) (t : Fin (k0_t13_loop L).trips) : Memref sig .scVector .hbm S64x512 .f32 :=
  (a5W).slice (Rect.unit (s := S2816x512) (k0_off22 L t) S64x512.size (k0_off22_inb L t h)) (fun _ => rfl)

omit [FloatOps F] in
theorem pts_a5 (L : grid0.Coords) (q : PosShare TreeShare) (f : Buf (Elt F) (aLoc5 d)) :
    ((a5W).view.loc (thr d L) ↦{q} f : sProp 𝕄) = aLoc5 d ↦{q} f := rfl

/-- The copying loop's invariant before trip `t`: the first `64 t` rows of the block hold the padded array. -/
def invC5 (L : grid0.Coords) (O : CellTallies nD τ sig (HIx 1)) (W : Waits sig (HIx 1)) (q : PosShare TreeShare) (t : Nat) (_ : PUnit) : sProp 𝕄 :=
  iprop(Transfers.MayWaits (thr d L) (none : HIx 1) O
    ∗ ((a5W).view.loc (thr d L) ↦{q} m (aLoc5 d))
    ∗ (∃ fb, (bW).view.loc (thr d L) ↦{fullShare} fb)
    ∗ (∃ fo, (oLoc d ↦[blkSet (bI L)]{fullShare} fo) ∗ ⌜Done m d L (64 * t) fo⌝)
    ∗ semVal (thr d L, SemLoc.dma cc0_scoped20.sem) 0
    ∗ semVal (thr d L, SemLoc.dma cc0_scoped21.sem) 0
    ∗ ∃ W', ⌜∀ p ∈ W', p ∈ W ∨ p.2 = none⌝ ∗ owes (thr d L) O W')

theorem tile_s5 (hF : (K (F := F)).Facts) (L : grid0.Coords) (hs : (L 1).val = 5) (O : CellTallies nD τ sig (HIx 1)) (W : Waits sig (HIx 1)) (hO : ∀ g, O g none = 0) :
    TileSpec m d L O W := by
  have k0_h1 : ¬ k0_cond1 L = 1#1 := fun h => absurd ((cond1_iff L).mp h) (by omega)
  have k0_h2 : ¬ k0_cond2 L = 1#1 := fun h => absurd ((cond2_iff L).mp h) (by omega)
  have k0_h3 : ¬ k0_cond3 L = 1#1 := fun h => absurd ((cond3_iff L).mp h) (by omega)
  have k0_h4 : ¬ k0_cond4 L = 1#1 := fun h => absurd ((cond4_iff L).mp h) (by omega)
  have k0_h5 : ¬ k0_cond5 L = 1#1 := fun h => absurd ((cond5_iff L).mp h) (by omega)
  have k0_h6 : k0_cond6 L = 1#1 := (cond6_iff L).mpr hs
  have k0_h7 : ¬ k0_cond7 L = 1#1 := fun h => absurd ((cond7_iff L).mp h) (by omega)
  have k0_h8 : ¬ k0_cond8 L = 1#1 := fun h => absurd ((cond8_iff L).mp h) (by omega)
  have k0_h9 : ¬ k0_cond9 L = 1#1 := fun h => absurd ((cond9_iff L).mp h) (by omega)
  have k0_h10 : ¬ k0_cond10 L = 1#1 := fun h => absurd ((cond10_iff L).mp h) (by omega)
  have k0_h11 : ¬ k0_cond11 L = 1#1 := fun h => absurd ((cond11_iff L).mp h) (by omega)
  have k0_h12 : ¬ k0_cond12 L = 1#1 := fun h => absurd ((cond12_iff L).mp h) (by omega)
  have k0_h13 : ¬ k0_cond13 L = 1#1 := fun h => absurd ((cond13_iff L).mp h) (by omega)
  have k0_h14 : ¬ k0_cond14 L = 1#1 := fun h => absurd ((cond14_iff L).mp h) (by omega)
  have k0_h15 : ¬ k0_cond15 L = 1#1 := fun h => absurd ((cond15_iff L).mp h) (by omega)
  have k0_h16 : ¬ k0_cond16 L = 1#1 := fun h => absurd ((cond16_iff L).mp h) (by omega)
  have rt : ∀ (fb rd : (cc0_scratch0 : Ref sig .scVector).ty.Contents (Elt F)),
      ReadAs.same.apply (View.read (Elt F) (View.whole (cc0_scratch0 : Ref sig .scVector)) (View.write (Elt F) (View.whole (cc0_scratch0 : Ref sig .scVector)) fb (ReadAs.same.apply rd) Finset.univ)) = rd :=
    fun fb rd => (congrArg (View.read (Elt F) (View.whole (cc0_scratch0 : Ref sig .scVector))) (View.write_whole_univ (Val := Elt F) (cc0_scratch0 : Ref sig .scVector) fb rd)).trans (View.read_whole _ rd)
  unfold TileSpec
  simp only [cc0__pad_body_eq_skeleton]; unfold cc0__pad_body_skel
  rw [(K (F := F)).scopedBufs_V hF d _ _, SparseCore.Cfg.scopedSems0_V (Val := Elt F) d _ _, ownSems0_V5, ownBufs_V]
  unfold argsAt
  iintro ⟨#Hlv, -, ⟨⟨A0, A1, A2, A3, A4, A5, A6, A7, A8, A9, A10, A11, A12, A13, A14, A15⟩, Ho⟩, ⟨⟨%fb, Hb⟩, ⟨%fz, Hz⟩, Hbufs⟩, ⟨Hs0, Hs1, Hs64, Hsems⟩, HO⟩
  ihave Hmw := ((K (F := F)).mayWaits_none (thr := thr d L) hO) $$ Hlv
  ihave Aa := (Entails.of_eq (pts_a5 (F := F) d L _ _).symm) $$ A5
  ihave Hb' := (Entails.of_eq (pts_b (F := F) d L _).symm) $$ Hb
  ihave Hz' := (Entails.of_eq (pts_z (F := F) d L _).symm) $$ Hz
  sl_exec
  -- the zeroing loops
  sl_for (invZ1 (F := F) d L) $$ [Hz']
  case region =>
    intro k1 _
    unfold invZ1
    iintro ⟨%f, Hz, %hf⟩
    sl_exec
    sl_for (invZ2 (F := F) d L k1) $$ [Hz]
    case region =>
      intro k2 _
      unfold invZ2
      iintro ⟨%f, Hz, %hf⟩
      sl_exec
      sl_step
      iexists _; isplitl [Hz]; · iexact Hz
      ipureintro
      exact invZ2_step k1 k2 f hf
    · unfold invZ2
      iexists f; isplitl [Hz]; · iexact Hz
      ipureintro
      exact invZ2_init k1 f hf
    iintro %_ HI
    unfold invZ2
    icases HI with ⟨%f', Hz, %hf'⟩
    sl_exec
    sl_step
    iexists f'; isplitl [Hz]; · iexact Hz
    ipureintro
    exact invZ1_step k1 f' hf'
  · unfold invZ1
    iexists fz; isplitl [Hz']; · iexact Hz'
    ipureintro
    intro r q h; omega
  iintro %_ HI
  unfold invZ1
  icases HI with ⟨%fz1, Hz, %hfz⟩
  have hfz1 : fz1 = fun _ => zF (F := F) := invZ1_final fz1 hfz
  subst hfz1
  sl_exec
  -- the copying loop
  sl_for (invC5 (F := F) m d L O W (shT (cL L) (sL L))) $$ [Hmw Aa Hb' Ho Hs0 Hs1 HO]
  case region =>
    intro t _
    unfold invC5
    iintro ⟨Hmw, Aa, ⟨%fb, Hb⟩, ⟨%fo, Ho, %hD⟩, Hs0, Hs1, %W', %hW', HO⟩
    have htr : 64 * t.val + 64 ≤ ncopy L := by
      have h1 := t.isLt; have h2 := trips13 L; have h3 := ncopy_dvd L
      change t.val < (k0_t13_loop L).trips at h1
      rw [h2] at h1; omega
    have hnc := ncopy_le L
    have hoff : k0_off23 L t 0 = R0 L + 64 * t.val := by rw [off23_eq]; unfold R0; rfl
    have hsub := chunk_subset L (k0_off23 L t) (k0_off23_inb L t k0_h6) (fun _ => rfl) (64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Aa]; · iexact Aa
    isplitl [Hb]; · iexists _; iexact Hb
    isplitl [Ho]
    · iexists _; isplitl [Ho]; · iexact Ho
      ipureintro
      have e : 64 * (t.val + 1) = 64 * t.val + 64 := by omega
      rw [e]
      refine done_step m d L _ _ _ (64 * t.val) hoff (by rw [off23_eq]; rfl) fo _ hD ?_
      refine hw_copy m d L (m (aLoc5 d)) (fun p q => by rw [hs]; rfl) (by rw [hs]) t.val htr _ _ _ hoff (by rw [off23_eq]; rfl)
        (fun y => (srcS5 L k0_h6 t).view.emb y) (fun y => ?_) _
        (fun y => (congrFun (rt fb _) y).trans ((View.read_apply (v := (srcS5 L k0_h6 t).view) _ y).trans (cast_eq _ _)))
      constructor
      · show k0_off22 L t 0 + 1 * (y 0).val = _; rw [off22_eq]; show 2048 * (L 0).val + 64 * t.val + 1 * (y 0).val = _; omega
      · show k0_off22 L t 1 + 1 * (y 1).val = _; rw [off22_eq]; show 0 + 1 * (y 1).val = _; omega
    isplitl [Hs0]; · iexact Hs0
    isplitl [Hs1]; · iexact Hs1
    iexists (insert (SemLoc.dma cc0_scoped21.sem, (default : HIx 1)) (insert (SemLoc.dma cc0_scoped20.sem, (default : HIx 1)) W')); isplitr
    · ipureintro; intro p hp
      rcases Finset.mem_insert.mp hp with hp | hp
      · exact .inr (hp ▸ rfl)
      rcases Finset.mem_insert.mp hp with hp | hp
      · exact .inr (hp ▸ rfl)
      · exact hW' p hp
    · iexact HO
  · unfold invC5
    isplitl [Hmw]; · iexact Hmw
    isplitl [Aa]; · iexact Aa
    isplitl [Hb']; · iexists _; iexact Hb'
    isplitl [Ho]
    · iexists _; isplitl [Ho]; · iexact Ho
      ipureintro; exact done_zero m d L _
    isplitl [Hs0]; · iexact Hs0
    isplitl [Hs1]; · iexact Hs1
    iexists W; isplitr
    · ipureintro; exact fun p hp => .inl hp
    · iexact HO
  iintro %_ HI
  unfold invC5
  icases HI with ⟨Hmw, Aa, ⟨%fb, Hb⟩, ⟨%fo, Ho, %hD⟩, Hs0, Hs1, %W1, %hW1, HO⟩
  have hDn : Done m d L (ncopy L) fo := by
    have h3 := ncopy_dvd L
    have e : 64 * (k0_t13_loop L).trips = ncopy L := by rw [trips13 L]; omega
    rw [← e]; exact hD
  sl_exec
  -- the remainder of the unrolling by one: no trips
  sl_for (fun (_ : Nat) (_ : PUnit) => (iprop(emp) : sProp 𝕄)) $$ []
  case region =>
    intro t _
    exact absurd t.isLt (by have h0 := trips14 L; change ¬ (t.val < (k0_t14_loop L).trips); omega)
  · iempintro
  iintro %_ -
  sl_exec
  -- the zero-filling loop
  sl_for (invF (F := F) m d L O W) $$ [Hmw Hz Ho Hs64 HO]
  case region =>
    intro t _
    unfold invF
    iintro ⟨Hmw, Hz, ⟨%fo, Ho, %hD⟩, Hs64, %W', %hW', HO⟩
    have hnc := ncopy_le L
    have htr : ncopy L + 64 * t.val + 64 ≤ 2048 := by
      have h1 := t.isLt; have h2 := trips35 L; obtain ⟨c, hc⟩ := ncopy_dvd L
      change t.val < (k0_t35_loop L).trips at h1
      rw [h2] at h1; omega
    have hoff : k0_off66 L t 0 = R0 L + (ncopy L + 64 * t.val) := by rw [off66_eq]; unfold R0; show _ + _ + _ + _ = _; omega
    have hsub := chunk_subset L (k0_off66 L t) (k0_off66_inb L t) (fun _ => rfl) (ncopy L + 64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Hz]; · iexact Hz
    isplitl [Ho]
    · iexists _; isplitl [Ho]; · iexact Ho
      ipureintro
      have e : ncopy L + 64 * (t.val + 1) = (ncopy L + 64 * t.val) + 64 := by omega
      rw [e]
      refine done_step m d L _ _ _ (ncopy L + 64 * t.val) hoff (by rw [off66_eq]; rfl) fo _ hD ?_
      exact hw_zero m d L t.val htr _ _ _ (by rw [hoff]; omega) _ (fun y => rfl)
    isplitl [Hs64]; · iexact Hs64
    iexists (insert (SemLoc.dma cc0_scoped64.sem, (default : HIx 1)) W'); isplitr
    · ipureintro; intro p hp
      rcases Finset.mem_insert.mp hp with hp | hp
      · exact .inr (hp ▸ rfl)
      · exact hW' p hp
    · iexact HO
  · unfold invF
    isplitl [Hmw]; · iexact Hmw
    isplitl [Hz]; · iexact Hz
    isplitl [Ho]
    · iexists _; isplitl [Ho]; · iexact Ho
      ipureintro; rw [Nat.mul_zero, Nat.add_zero]; exact hDn
    isplitl [Hs64]; · iexact Hs64
    iexists W1; isplitr
    · ipureintro; exact hW1
    · iexact HO
  iintro %_ HI
  unfold invF
  icases HI with ⟨Hmw, Hz, ⟨%fo2, Ho, %hD2⟩, Hs64, %W2, %hW2, HO⟩
  have hAll : Done m d L 2048 fo2 := by
    have hnc := ncopy_le L
    obtain ⟨c, hc⟩ := ncopy_dvd L
    have e : ncopy L + 64 * (k0_t35_loop L).trips = 2048 := by rw [trips35 L]; omega
    rw [← e]; exact hD2
  sl_exec
  sl_for (fun (_ : Nat) (_ : PUnit) => (iprop(emp) : sProp 𝕄)) $$ []
  case region =>
    intro t _
    exact absurd t.isLt (by have h0 := trips36 L; change ¬ (t.val < (k0_t36_loop L).trips); omega)
  · iempintro
  iintro %_ -
  sl_exec
  sl_step
  -- hand everything back
  isplitl [A0 A1 A2 A3 A4 A6 A7 A8 A9 A10 A11 A12 A13 A14 A15 Aa Ho]
  · isplitl [A0 A1 A2 A3 A4 A6 A7 A8 A9 A10 A11 A12 A13 A14 A15 Aa]
    ·
      isplitl [A0]; · iexact A0
      isplitl [A1]; · iexact A1
      isplitl [A2]; · iexact A2
      isplitl [A3]; · iexact A3
      isplitl [A4]; · iexact A4
      isplitl [Aa]; · iapply (Entails.of_eq (pts_a5 (F := F) d L _ _)); iexact Aa
      isplitl [A6]; · iexact A6
      isplitl [A7]; · iexact A7
      isplitl [A8]; · iexact A8
      isplitl [A9]; · iexact A9
      isplitl [A10]; · iexact A10
      isplitl [A11]; · iexact A11
      isplitl [A12]; · iexact A12
      isplitl [A13]; · iexact A13
      isplitl [A14]; · iexact A14
      iexact A15
    · iapply (Entails.of_eq (pointsTo_congr (ℓ := oLoc d) (done_all m d L fo2 hAll))); iexact Ho
  isplitl [Hb Hz Hbufs]
  · isplitl [Hb]; · iexists _; iapply (Entails.of_eq (pts_b (F := F) d L _)); iexact Hb
    isplitl [Hz]; · iexists _; iapply (Entails.of_eq (pts_z (F := F) d L _)); iexact Hz
    iexact Hbufs
  isplitl [Hs0 Hs1 Hs64 Hsems]
  · isplitl [Hs0]; · iexact Hs0
    isplitl [Hs1]; · iexact Hs1
    isplitl [Hs64]; · iexact Hs64
    iexact Hsems
  iexists W2; isplitr
  · ipureintro; exact hW2
  · iexact HO

end Cert.Proof.KI

end
-- ==== Proof.KITile6.lean ====
/-
  The task on subcore 6 (of either SparseCore): it serves sequence 6, of 2560 rows. Its second scratch buffer is
  zeroed; the rows of the sequence that fall in its half are copied, 64 at a time, through the first scratch buffer
  into its block of the output; the rest of the block is filled from the zeroed buffer. Each loop keeps "the first so
  many rows of the block hold the padded array".
-/
import proofs.«212850_g39865886441476_cont_8to1_b_277_5_alg».proof.Proof.KITileCommon

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "a0W" => (Memref.whole Cert.KernelIdeal.main_arg0_scv : Memref Cert.KernelIdeal.sig Kind.scVector Space.hbm Cert.KernelIdeal.S4096x512 EltTy.f32)
local notation "a1W" => (Memref.whole Cert.KernelIdeal.main_arg1_scv : Memref Cert.KernelIdeal.sig Kind.scVector Space.hbm Cert.KernelIdeal.S3840x512 EltTy.f32)
local notation "a2W" => (Memref.whole Cert.KernelIdeal.main_arg2_scv : Memref Cert.KernelIdeal.sig Kind.scVector Space.hbm Cert.KernelIdeal.S3584x512 EltTy.f32)
local notation "a3W" => (Memref.whole Cert.KernelIdeal.main_arg3_scv : Memref Cert.KernelIdeal.sig Kind.scVector Space.hbm Cert.KernelIdeal.S3328x512 EltTy.f32)
local notation "a4W" => (Memref.whole Cert.KernelIdeal.main_arg4_scv : Memref Cert.KernelIdeal.sig Kind.scVector Space.hbm Cert.KernelIdeal.S3072x512 EltTy.f32)
local notation "a5W" => (Memref.whole Cert.KernelIdeal.main_arg5_scv : Memref Cert.KernelIdeal.sig Kind.scVector Space.hbm Cert.KernelIdeal.S2816x512 EltTy.f32)
local notation "a6W" => (Memref.whole Cert.KernelIdeal.main_arg6_scv : Memref Cert.KernelIdeal.sig Kind.scVector Space.hbm Cert.KernelIdeal.S2560x512 EltTy.f32)
local notation "a7W" => (Memref.whole Cert.KernelIdeal.main_arg7_scv : Memref Cert.KernelIdeal.sig Kind.scVector Space.hbm Cert.KernelIdeal.S2304x512 EltTy.f32)
local notation "a8W" => (Memref.whole Cert.KernelIdeal.main_arg8_scv : Memref Cert.KernelIdeal.sig Kind.scVector Space.hbm Cert.KernelIdeal.S2048x512 EltTy.f32)
local notation "a9W" => (Memref.whole Cert.KernelIdeal.main_arg9_scv : Memref Cert.KernelIdeal.sig Kind.scVector Space.hbm Cert.KernelIdeal.S1792x512 EltTy.f32)
local notation "a10W" => (Memref.whole Cert.KernelIdeal.main_arg10_scv : Memref Cert.KernelIdeal.sig Kind.scVector Space.hbm Cert.KernelIdeal.S1536x512 EltTy.f32)
local notation "a11W" => (Memref.whole Cert.KernelIdeal.main_arg11_scv : Memref Cert.KernelIdeal.sig Kind.scVector Space.hbm Cert.KernelIdeal.S1280x512 EltTy.f32)
local notation "a12W" => (Memref.whole Cert.KernelIdeal.main_arg12_scv : Memref Cert.KernelIdeal.sig Kind.scVector Space.hbm Cert.KernelIdeal.S1024x512 EltTy.f32)
local notation "a13W" => (Memref.whole Cert.KernelIdeal.main_arg13_scv : Memref Cert.KernelIdeal.sig Kind.scVector Space.hbm Cert.KernelIdeal.S768x512 EltTy.f32)
local notation "a14W" => (Memref.whole Cert.KernelIdeal.main_arg14_scv : Memref Cert.KernelIdeal.sig Kind.scVector Space.hbm Cert.KernelIdeal.S512x512 EltTy.f32)
local notation "a15W" => (Memref.whole Cert.KernelIdeal.main_arg15_scv : Memref Cert.KernelIdeal.sig Kind.scVector Space.hbm Cert.KernelIdeal.S256x512 EltTy.f32)
local notation "oW" => (Memref.whole Cert.KernelIdeal.main_v0_scv : Memref Cert.KernelIdeal.sig Kind.scVector Space.hbm Cert.KernelIdeal.S65536x512 EltTy.f32)
local notation "bW" => (Memref.whole Cert.KernelIdeal.cc0_scratch0 : Memref Cert.KernelIdeal.sig Kind.scVector Space.vmem Cert.KernelIdeal.S64x512 EltTy.f32)
local notation "zW" => (Memref.whole Cert.KernelIdeal.cc0_scratch1 : Memref Cert.KernelIdeal.sig Kind.scVector Space.vmem Cert.KernelIdeal.S64x512 EltTy.f32)

variable (m : (ℓ : Loc nD τ sig) → Buf (Elt F) ℓ) (d : Dev nD)

omit [FloatOps F] in
theorem ownSems0_V6 (L : grid0.Coords) :
    (ownSems0 (thr d L) : sProp 𝕄)
      = iprop(semVal (thr d L, SemLoc.dma cc0_scoped24.sem) 0 ∗ semVal (thr d L, SemLoc.dma cc0_scoped25.sem) 0 ∗ semVal (thr d L, SemLoc.dma cc0_scoped64.sem) 0
          ∗ bigSep ((((ownCells (thr d L)).erase (thr d L, SemLoc.dma cc0_scoped24.sem)).erase (thr d L, SemLoc.dma cc0_scoped25.sem)).erase (thr d L, SemLoc.dma cc0_scoped64.sem))
              fun g => semVal g 0) := by
  unfold SparseCore.Cfg.ownSems0
  rw [SparseCore.bigSep_erase' ((mem_ownCells (g := (thr d L, SemLoc.dma cc0_scoped24.sem))).mpr ⟨rfl, by
      show (SemLoc.dma cc0_scoped24.sem : SemLoc sig).isScoped .scVector = true; decide⟩),
    SparseCore.bigSep_erase' (Finset.mem_erase.mpr ⟨by simp; decide, (mem_ownCells (g := (thr d L, SemLoc.dma cc0_scoped25.sem))).mpr ⟨rfl, by
      show (SemLoc.dma cc0_scoped25.sem : SemLoc sig).isScoped .scVector = true; decide⟩⟩),
    SparseCore.bigSep_erase' (Finset.mem_erase.mpr ⟨by simp; decide, Finset.mem_erase.mpr ⟨by simp; decide,
      (mem_ownCells (g := (thr d L, SemLoc.dma cc0_scoped64.sem))).mpr ⟨rfl, by show (SemLoc.dma cc0_scoped64.sem : SemLoc sig).isScoped .scVector = true; decide⟩⟩⟩)]

/-- The source chunk of trip `t`, as the program slices it. -/
abbrev srcS6 (L : grid0.Coords) (h : k0_cond7 L = 1#1) (t : Fin (k0_t15_loop L).trips) : Memref sig .scVector .hbm S64x512 .f32 :=
  (a6W).slice (Rect.unit (s := S2560x512) (k0_off26 L t) S64x512.size (k0_off26_inb L t h)) (fun _ => rfl)

omit [FloatOps F] in
theorem pts_a6 (L : grid0.Coords) (q : PosShare TreeShare) (f : Buf (Elt F) (aLoc6 d)) :
    ((a6W).view.loc (thr d L) ↦{q} f : sProp 𝕄) = aLoc6 d ↦{q} f := rfl

/-- The copying loop's invariant before trip `t`: the first `64 t` rows of the block hold the padded array. -/
def invC6 (L : grid0.Coords) (O : CellTallies nD τ sig (HIx 1)) (W : Waits sig (HIx 1)) (q : PosShare TreeShare) (t : Nat) (_ : PUnit) : sProp 𝕄 :=
  iprop(Transfers.MayWaits (thr d L) (none : HIx 1) O
    ∗ ((a6W).view.loc (thr d L) ↦{q} m (aLoc6 d))
    ∗ (∃ fb, (bW).view.loc (thr d L) ↦{fullShare} fb)
    ∗ (∃ fo, (oLoc d ↦[blkSet (bI L)]{fullShare} fo) ∗ ⌜Done m d L (64 * t) fo⌝)
    ∗ semVal (thr d L, SemLoc.dma cc0_scoped24.sem) 0
    ∗ semVal (thr d L, SemLoc.dma cc0_scoped25.sem) 0
    ∗ ∃ W', ⌜∀ p ∈ W', p ∈ W ∨ p.2 = none⌝ ∗ owes (thr d L) O W')

theorem tile_s6 (hF : (K (F := F)).Facts) (L : grid0.Coords) (hs : (L 1).val = 6) (O : CellTallies nD τ sig (HIx 1)) (W : Waits sig (HIx 1)) (hO : ∀ g, O g none = 0) :
    TileSpec m d L O W := by
  have k0_h1 : ¬ k0_cond1 L = 1#1 := fun h => absurd ((cond1_iff L).mp h) (by omega)
  have k0_h2 : ¬ k0_cond2 L = 1#1 := fun h => absurd ((cond2_iff L).mp h) (by omega)
  have k0_h3 : ¬ k0_cond3 L = 1#1 := fun h => absurd ((cond3_iff L).mp h) (by omega)
  have k0_h4 : ¬ k0_cond4 L = 1#1 := fun h => absurd ((cond4_iff L).mp h) (by omega)
  have k0_h5 : ¬ k0_cond5 L = 1#1 := fun h => absurd ((cond5_iff L).mp h) (by omega)
  have k0_h6 : ¬ k0_cond6 L = 1#1 := fun h => absurd ((cond6_iff L).mp h) (by omega)
  have k0_h7 : k0_cond7 L = 1#1 := (cond7_iff L).mpr hs
  have k0_h8 : ¬ k0_cond8 L = 1#1 := fun h => absurd ((cond8_iff L).mp h) (by omega)
  have k0_h9 : ¬ k0_cond9 L = 1#1 := fun h => absurd ((cond9_iff L).mp h) (by omega)
  have k0_h10 : ¬ k0_cond10 L = 1#1 := fun h => absurd ((cond10_iff L).mp h) (by omega)
  have k0_h11 : ¬ k0_cond11 L = 1#1 := fun h => absurd ((cond11_iff L).mp h) (by omega)
  have k0_h12 : ¬ k0_cond12 L = 1#1 := fun h => absurd ((cond12_iff L).mp h) (by omega)
  have k0_h13 : ¬ k0_cond13 L = 1#1 := fun h => absurd ((cond13_iff L).mp h) (by omega)
  have k0_h14 : ¬ k0_cond14 L = 1#1 := fun h => absurd ((cond14_iff L).mp h) (by omega)
  have k0_h15 : ¬ k0_cond15 L = 1#1 := fun h => absurd ((cond15_iff L).mp h) (by omega)
  have k0_h16 : ¬ k0_cond16 L = 1#1 := fun h => absurd ((cond16_iff L).mp h) (by omega)
  have rt : ∀ (fb rd : (cc0_scratch0 : Ref sig .scVector).ty.Contents (Elt F)),
      ReadAs.same.apply (View.read (Elt F) (View.whole (cc0_scratch0 : Ref sig .scVector)) (View.write (Elt F) (View.whole (cc0_scratch0 : Ref sig .scVector)) fb (ReadAs.same.apply rd) Finset.univ)) = rd :=
    fun fb rd => (congrArg (View.read (Elt F) (View.whole (cc0_scratch0 : Ref sig .scVector))) (View.write_whole_univ (Val := Elt F) (cc0_scratch0 : Ref sig .scVector) fb rd)).trans (View.read_whole _ rd)
  unfold TileSpec
  simp only [cc0__pad_body_eq_skeleton]; unfold cc0__pad_body_skel
  rw [(K (F := F)).scopedBufs_V hF d _ _, SparseCore.Cfg.scopedSems0_V (Val := Elt F) d _ _, ownSems0_V6, ownBufs_V]
  unfold argsAt
  iintro ⟨#Hlv, -, ⟨⟨A0, A1, A2, A3, A4, A5, A6, A7, A8, A9, A10, A11, A12, A13, A14, A15⟩, Ho⟩, ⟨⟨%fb, Hb⟩, ⟨%fz, Hz⟩, Hbufs⟩, ⟨Hs0, Hs1, Hs64, Hsems⟩, HO⟩
  ihave Hmw := ((K (F := F)).mayWaits_none (thr := thr d L) hO) $$ Hlv
  ihave Aa := (Entails.of_eq (pts_a6 (F := F) d L _ _).symm) $$ A6
  ihave Hb' := (Entails.of_eq (pts_b (F := F) d L _).symm) $$ Hb
  ihave Hz' := (Entails.of_eq (pts_z (F := F) d L _).symm) $$ Hz
  sl_exec
  -- the zeroing loops
  sl_for (invZ1 (F := F) d L) $$ [Hz']
  case region =>
    intro k1 _
    unfold invZ1
    iintro ⟨%f, Hz, %hf⟩
    sl_exec
    sl_for (invZ2 (F := F) d L k1) $$ [Hz]
    case region =>
      intro k2 _
      unfold invZ2
      iintro ⟨%f, Hz, %hf⟩
      sl_exec
      sl_step
      iexists _; isplitl [Hz]; · iexact Hz
      ipureintro
      exact invZ2_step k1 k2 f hf
    · unfold invZ2
      iexists f; isplitl [Hz]; · iexact Hz
      ipureintro
      exact invZ2_init k1 f hf
    iintro %_ HI
    unfold invZ2
    icases HI with ⟨%f', Hz, %hf'⟩
    sl_exec
    sl_step
    iexists f'; isplitl [Hz]; · iexact Hz
    ipureintro
    exact invZ1_step k1 f' hf'
  · unfold invZ1
    iexists fz; isplitl [Hz']; · iexact Hz'
    ipureintro
    intro r q h; omega
  iintro %_ HI
  unfold invZ1
  icases HI with ⟨%fz1, Hz, %hfz⟩
  have hfz1 : fz1 = fun _ => zF (F := F) := invZ1_final fz1 hfz
  subst hfz1
  sl_exec
  -- the copying loop
  sl_for (invC6 (F := F) m d L O W (shT (cL L) (sL L))) $$ [Hmw Aa Hb' Ho Hs0 Hs1 HO]
  case region =>
    intro t _
    unfold invC6
    iintro ⟨Hmw, Aa, ⟨%fb, Hb⟩, ⟨%fo, Ho, %hD⟩, Hs0, Hs1, %W', %hW', HO⟩
    have htr : 64 * t.val + 64 ≤ ncopy L := by
      have h1 := t.isLt; have h2 := trips15 L; have h3 := ncopy_dvd L
      change t.val < (k0_t15_loop L).trips at h1
      rw [h2] at h1; omega
    have hnc := ncopy_le L
    have hoff : k0_off27 L t 0 = R0 L + 64 * t.val := by rw [off27_eq]; unfold R0; rfl
    have hsub := chunk_subset L (k0_off27 L t) (k0_off27_inb L t k0_h7) (fun _ => rfl) (64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Aa]; · iexact Aa
    isplitl [Hb]; · iexists _; iexact Hb
    isplitl [Ho]
    · iexists _; isplitl [Ho]; · iexact Ho
      ipureintro
      have e : 64 * (t.val + 1) = 64 * t.val + 64 := by omega
      rw [e]
      refine done_step m d L _ _ _ (64 * t.val) hoff (by rw [off27_eq]; rfl) fo _ hD ?_
      refine hw_copy m d L (m (aLoc6 d)) (fun p q => by rw [hs]; rfl) (by rw [hs]) t.val htr _ _ _ hoff (by rw [off27_eq]; rfl)
        (fun y => (srcS6 L k0_h7 t).view.emb y) (fun y => ?_) _
        (fun y => (congrFun (rt fb _) y).trans ((View.read_apply (v := (srcS6 L k0_h7 t).view) _ y).trans (cast_eq _ _)))
      constructor
      · show k0_off26 L t 0 + 1 * (y 0).val = _; rw [off26_eq]; show 2048 * (L 0).val + 64 * t.val + 1 * (y 0).val = _; omega
      · show k0_off26 L t 1 + 1 * (y 1).val = _; rw [off26_eq]; show 0 + 1 * (y 1).val = _; omega
    isplitl [Hs0]; · iexact Hs0
    isplitl [Hs1]; · iexact Hs1
    iexists (insert (SemLoc.dma cc0_scoped25.sem, (default : HIx 1)) (insert (SemLoc.dma cc0_scoped24.sem, (default : HIx 1)) W')); isplitr
    · ipureintro; intro p hp
      rcases Finset.mem_insert.mp hp with hp | hp
      · exact .inr (hp ▸ rfl)
      rcases Finset.mem_insert.mp hp with hp | hp
      · exact .inr (hp ▸ rfl)
      · exact hW' p hp
    · iexact HO
  · unfold invC6
    isplitl [Hmw]; · iexact Hmw
    isplitl [Aa]; · iexact Aa
    isplitl [Hb']; · iexists _; iexact Hb'
    isplitl [Ho]
    · iexists _; isplitl [Ho]; · iexact Ho
      ipureintro; exact done_zero m d L _
    isplitl [Hs0]; · iexact Hs0
    isplitl [Hs1]; · iexact Hs1
    iexists W; isplitr
    · ipureintro; exact fun p hp => .inl hp
    · iexact HO
  iintro %_ HI
  unfold invC6
  icases HI with ⟨Hmw, Aa, ⟨%fb, Hb⟩, ⟨%fo, Ho, %hD⟩, Hs0, Hs1, %W1, %hW1, HO⟩
  have hDn : Done m d L (ncopy L) fo := by
    have h3 := ncopy_dvd L
    have e : 64 * (k0_t15_loop L).trips = ncopy L := by rw [trips15 L]; omega
    rw [← e]; exact hD
  sl_exec
  -- the remainder of the unrolling by one: no trips
  sl_for (fun (_ : Nat) (_ : PUnit) => (iprop(emp) : sProp 𝕄)) $$ []
  case region =>
    intro t _
    exact absurd t.isLt (by have h0 := trips16 L; change ¬ (t.val < (k0_t16_loop L).trips); omega)
  · iempintro
  iintro %_ -
  sl_exec
  -- the zero-filling loop
  sl_for (invF (F := F) m d L O W) $$ [Hmw Hz Ho Hs64 HO]
  case region =>
    intro t _
    unfold invF
    iintro ⟨Hmw, Hz, ⟨%fo, Ho, %hD⟩, Hs64, %W', %hW', HO⟩
    have hnc := ncopy_le L
    have htr : ncopy L + 64 * t.val + 64 ≤ 2048 := by
      have h1 := t.isLt; have h2 := trips35 L; obtain ⟨c, hc⟩ := ncopy_dvd L
      change t.val < (k0_t35_loop L).trips at h1
      rw [h2] at h1; omega
    have hoff : k0_off66 L t 0 = R0 L + (ncopy L + 64 * t.val) := by rw [off66_eq]; unfold R0; show _ + _ + _ + _ = _; omega
    have hsub := chunk_subset L (k0_off66 L t) (k0_off66_inb L t) (fun _ => rfl) (ncopy L + 64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Hz]; · iexact Hz
    isplitl [Ho]
    · iexists _; isplitl [Ho]; · iexact Ho
      ipureintro
      have e : ncopy L + 64 * (t.val + 1) = (ncopy L + 64 * t.val) + 64 := by omega
      rw [e]
      refine done_step m d L _ _ _ (ncopy L + 64 * t.val) hoff (by rw [off66_eq]; rfl) fo _ hD ?_
      exact hw_zero m d L t.val htr _ _ _ (by rw [hoff]; omega) _ (fun y => rfl)
    isplitl [Hs64]; · iexact Hs64
    iexists (insert (SemLoc.dma cc0_scoped64.sem, (default : HIx 1)) W'); isplitr
    · ipureintro; intro p hp
      rcases Finset.mem_insert.mp hp with hp | hp
      · exact .inr (hp ▸ rfl)
      · exact hW' p hp
    · iexact HO
  · unfold invF
    isplitl [Hmw]; · iexact Hmw
    isplitl [Hz]; · iexact Hz
    isplitl [Ho]
    · iexists _; isplitl [Ho]; · iexact Ho
      ipureintro; rw [Nat.mul_zero, Nat.add_zero]; exact hDn
    isplitl [Hs64]; · iexact Hs64
    iexists W1; isplitr
    · ipureintro; exact hW1
    · iexact HO
  iintro %_ HI
  unfold invF
  icases HI with ⟨Hmw, Hz, ⟨%fo2, Ho, %hD2⟩, Hs64, %W2, %hW2, HO⟩
  have hAll : Done m d L 2048 fo2 := by
    have hnc := ncopy_le L
    obtain ⟨c, hc⟩ := ncopy_dvd L
    have e : ncopy L + 64 * (k0_t35_loop L).trips = 2048 := by rw [trips35 L]; omega
    rw [← e]; exact hD2
  sl_exec
  sl_for (fun (_ : Nat) (_ : PUnit) => (iprop(emp) : sProp 𝕄)) $$ []
  case region =>
    intro t _
    exact absurd t.isLt (by have h0 := trips36 L; change ¬ (t.val < (k0_t36_loop L).trips); omega)
  · iempintro
  iintro %_ -
  sl_exec
  sl_step
  -- hand everything back
  isplitl [A0 A1 A2 A3 A4 A5 A7 A8 A9 A10 A11 A12 A13 A14 A15 Aa Ho]
  · isplitl [A0 A1 A2 A3 A4 A5 A7 A8 A9 A10 A11 A12 A13 A14 A15 Aa]
    ·
      isplitl [A0]; · iexact A0
      isplitl [A1]; · iexact A1
      isplitl [A2]; · iexact A2
      isplitl [A3]; · iexact A3
      isplitl [A4]; · iexact A4
      isplitl [A5]; · iexact A5
      isplitl [Aa]; · iapply (Entails.of_eq (pts_a6 (F := F) d L _ _)); iexact Aa
      isplitl [A7]; · iexact A7
      isplitl [A8]; · iexact A8
      isplitl [A9]; · iexact A9
      isplitl [A10]; · iexact A10
      isplitl [A11]; · iexact A11
      isplitl [A12]; · iexact A12
      isplitl [A13]; · iexact A13
      isplitl [A14]; · iexact A14
      iexact A15
    · iapply (Entails.of_eq (pointsTo_congr (ℓ := oLoc d) (done_all m d L fo2 hAll))); iexact Ho
  isplitl [Hb Hz Hbufs]
  · isplitl [Hb]; · iexists _; iapply (Entails.of_eq (pts_b (F := F) d L _)); iexact Hb
    isplitl [Hz]; · iexists _; iapply (Entails.of_eq (pts_z (F := F) d L _)); iexact Hz
    iexact Hbufs
  isplitl [Hs0 Hs1 Hs64 Hsems]
  · isplitl [Hs0]; · iexact Hs0
    isplitl [Hs1]; · iexact Hs1
    isplitl [Hs64]; · iexact Hs64
    iexact Hsems
  iexists W2; isplitr
  · ipureintro; exact hW2
  · iexact HO

end Cert.Proof.KI

end
-- ==== Proof.KITile7.lean ====
/-
  The task on subcore 7 (of either SparseCore): it serves sequence 7, of 2304 rows. Its second scratch buffer is
  zeroed; the rows of the sequence that fall in its half are copied, 64 at a time, through the first scratch buffer
  into its block of the output; the rest of the block is filled from the zeroed buffer. Each loop keeps "the first so
  many rows of the block hold the padded array".
-/
import proofs.«212850_g39865886441476_cont_8to1_b_277_5_alg».proof.Proof.KITileCommon

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "a0W" => (Memref.whole Cert.KernelIdeal.main_arg0_scv : Memref Cert.KernelIdeal.sig Kind.scVector Space.hbm Cert.KernelIdeal.S4096x512 EltTy.f32)
local notation "a1W" => (Memref.whole Cert.KernelIdeal.main_arg1_scv : Memref Cert.KernelIdeal.sig Kind.scVector Space.hbm Cert.KernelIdeal.S3840x512 EltTy.f32)
local notation "a2W" => (Memref.whole Cert.KernelIdeal.main_arg2_scv : Memref Cert.KernelIdeal.sig Kind.scVector Space.hbm Cert.KernelIdeal.S3584x512 EltTy.f32)
local notation "a3W" => (Memref.whole Cert.KernelIdeal.main_arg3_scv : Memref Cert.KernelIdeal.sig Kind.scVector Space.hbm Cert.KernelIdeal.S3328x512 EltTy.f32)
local notation "a4W" => (Memref.whole Cert.KernelIdeal.main_arg4_scv : Memref Cert.KernelIdeal.sig Kind.scVector Space.hbm Cert.KernelIdeal.S3072x512 EltTy.f32)
local notation "a5W" => (Memref.whole Cert.KernelIdeal.main_arg5_scv : Memref Cert.KernelIdeal.sig Kind.scVector Space.hbm Cert.KernelIdeal.S2816x512 EltTy.f32)
local notation "a6W" => (Memref.whole Cert.KernelIdeal.main_arg6_scv : Memref Cert.KernelIdeal.sig Kind.scVector Space.hbm Cert.KernelIdeal.S2560x512 EltTy.f32)
local notation "a7W" => (Memref.whole Cert.KernelIdeal.main_arg7_scv : Memref Cert.KernelIdeal.sig Kind.scVector Space.hbm Cert.KernelIdeal.S2304x512 EltTy.f32)
local notation "a8W" => (Memref.whole Cert.KernelIdeal.main_arg8_scv : Memref Cert.KernelIdeal.sig Kind.scVector Space.hbm Cert.KernelIdeal.S2048x512 EltTy.f32)
local notation "a9W" => (Memref.whole Cert.KernelIdeal.main_arg9_scv : Memref Cert.KernelIdeal.sig Kind.scVector Space.hbm Cert.KernelIdeal.S1792x512 EltTy.f32)
local notation "a10W" => (Memref.whole Cert.KernelIdeal.main_arg10_scv : Memref Cert.KernelIdeal.sig Kind.scVector Space.hbm Cert.KernelIdeal.S1536x512 EltTy.f32)
local notation "a11W" => (Memref.whole Cert.KernelIdeal.main_arg11_scv : Memref Cert.KernelIdeal.sig Kind.scVector Space.hbm Cert.KernelIdeal.S1280x512 EltTy.f32)
local notation "a12W" => (Memref.whole Cert.KernelIdeal.main_arg12_scv : Memref Cert.KernelIdeal.sig Kind.scVector Space.hbm Cert.KernelIdeal.S1024x512 EltTy.f32)
local notation "a13W" => (Memref.whole Cert.KernelIdeal.main_arg13_scv : Memref Cert.KernelIdeal.sig Kind.scVector Space.hbm Cert.KernelIdeal.S768x512 EltTy.f32)
local notation "a14W" => (Memref.whole Cert.KernelIdeal.main_arg14_scv : Memref Cert.KernelIdeal.sig Kind.scVector Space.hbm Cert.KernelIdeal.S512x512 EltTy.f32)
local notation "a15W" => (Memref.whole Cert.KernelIdeal.main_arg15_scv : Memref Cert.KernelIdeal.sig Kind.scVector Space.hbm Cert.KernelIdeal.S256x512 EltTy.f32)
local notation "oW" => (Memref.whole Cert.KernelIdeal.main_v0_scv : Memref Cert.KernelIdeal.sig Kind.scVector Space.hbm Cert.KernelIdeal.S65536x512 EltTy.f32)
local notation "bW" => (Memref.whole Cert.KernelIdeal.cc0_scratch0 : Memref Cert.KernelIdeal.sig Kind.scVector Space.vmem Cert.KernelIdeal.S64x512 EltTy.f32)
local notation "zW" => (Memref.whole Cert.KernelIdeal.cc0_scratch1 : Memref Cert.KernelIdeal.sig Kind.scVector Space.vmem Cert.KernelIdeal.S64x512 EltTy.f32)

variable (m : (ℓ : Loc nD τ sig) → Buf (Elt F) ℓ) (d : Dev nD)

omit [FloatOps F] in
theorem ownSems0_V7 (L : grid0.Coords) :
    (ownSems0 (thr d L) : sProp 𝕄)
      = iprop(semVal (thr d L, SemLoc.dma cc0_scoped28.sem) 0 ∗ semVal (thr d L, SemLoc.dma cc0_scoped29.sem) 0 ∗ semVal (thr d L, SemLoc.dma cc0_scoped64.sem) 0
          ∗ bigSep ((((ownCells (thr d L)).erase (thr d L, SemLoc.dma cc0_scoped28.sem)).erase (thr d L, SemLoc.dma cc0_scoped29.sem)).erase (thr d L, SemLoc.dma cc0_scoped64.sem))
              fun g => semVal g 0) := by
  unfold SparseCore.Cfg.ownSems0
  rw [SparseCore.bigSep_erase' ((mem_ownCells (g := (thr d L, SemLoc.dma cc0_scoped28.sem))).mpr ⟨rfl, by
      show (SemLoc.dma cc0_scoped28.sem : SemLoc sig).isScoped .scVector = true; decide⟩),
    SparseCore.bigSep_erase' (Finset.mem_erase.mpr ⟨by simp; decide, (mem_ownCells (g := (thr d L, SemLoc.dma cc0_scoped29.sem))).mpr ⟨rfl, by
      show (SemLoc.dma cc0_scoped29.sem : SemLoc sig).isScoped .scVector = true; decide⟩⟩),
    SparseCore.bigSep_erase' (Finset.mem_erase.mpr ⟨by simp; decide, Finset.mem_erase.mpr ⟨by simp; decide,
      (mem_ownCells (g := (thr d L, SemLoc.dma cc0_scoped64.sem))).mpr ⟨rfl, by show (SemLoc.dma cc0_scoped64.sem : SemLoc sig).isScoped .scVector = true; decide⟩⟩⟩)]

/-- The source chunk of trip `t`, as the program slices it. -/
abbrev srcS7 (L : grid0.Coords) (h : k0_cond8 L = 1#1) (t : Fin (k0_t17_loop L).trips) : Memref sig .scVector .hbm S64x512 .f32 :=
  (a7W).slice (Rect.unit (s := S2304x512) (k0_off30 L t) S64x512.size (k0_off30_inb L t h)) (fun _ => rfl)

omit [FloatOps F] in
theorem pts_a7 (L : grid0.Coords) (q : PosShare TreeShare) (f : Buf (Elt F) (aLoc7 d)) :
    ((a7W).view.loc (thr d L) ↦{q} f : sProp 𝕄) = aLoc7 d ↦{q} f := rfl

/-- The copying loop's invariant before trip `t`: the first `64 t` rows of the block hold the padded array. -/
def invC7 (L : grid0.Coords) (O : CellTallies nD τ sig (HIx 1)) (W : Waits sig (HIx 1)) (q : PosShare TreeShare) (t : Nat) (_ : PUnit) : sProp 𝕄 :=
  iprop(Transfers.MayWaits (thr d L) (none : HIx 1) O
    ∗ ((a7W).view.loc (thr d L) ↦{q} m (aLoc7 d))
    ∗ (∃ fb, (bW).view.loc (thr d L) ↦{fullShare} fb)
    ∗ (∃ fo, (oLoc d ↦[blkSet (bI L)]{fullShare} fo) ∗ ⌜Done m d L (64 * t) fo⌝)
    ∗ semVal (thr d L, SemLoc.dma cc0_scoped28.sem) 0
    ∗ semVal (thr d L, SemLoc.dma cc0_scoped29.sem) 0
    ∗ ∃ W', ⌜∀ p ∈ W', p ∈ W ∨ p.2 = none⌝ ∗ owes (thr d L) O W')

theorem tile_s7 (hF : (K (F := F)).Facts) (L : grid0.Coords) (hs : (L 1).val = 7) (O : CellTallies nD τ sig (HIx 1)) (W : Waits sig (HIx 1)) (hO : ∀ g, O g none = 0) :
    TileSpec m d L O W := by
  have k0_h1 : ¬ k0_cond1 L = 1#1 := fun h => absurd ((cond1_iff L).mp h) (by omega)
  have k0_h2 : ¬ k0_cond2 L = 1#1 := fun h => absurd ((cond2_iff L).mp h) (by omega)
  have k0_h3 : ¬ k0_cond3 L = 1#1 := fun h => absurd ((cond3_iff L).mp h) (by omega)
  have k0_h4 : ¬ k0_cond4 L = 1#1 := fun h => absurd ((cond4_iff L).mp h) (by omega)
  have k0_h5 : ¬ k0_cond5 L = 1#1 := fun h => absurd ((cond5_iff L).mp h) (by omega)
  have k0_h6 : ¬ k0_cond6 L = 1#1 := fun h => absurd ((cond6_iff L).mp h) (by omega)
  have k0_h7 : ¬ k0_cond7 L = 1#1 := fun h => absurd ((cond7_iff L).mp h) (by omega)
  have k0_h8 : k0_cond8 L = 1#1 := (cond8_iff L).mpr hs
  have k0_h9 : ¬ k0_cond9 L = 1#1 := fun h => absurd ((cond9_iff L).mp h) (by omega)
  have k0_h10 : ¬ k0_cond10 L = 1#1 := fun h => absurd ((cond10_iff L).mp h) (by omega)
  have k0_h11 : ¬ k0_cond11 L = 1#1 := fun h => absurd ((cond11_iff L).mp h) (by omega)
  have k0_h12 : ¬ k0_cond12 L = 1#1 := fun h => absurd ((cond12_iff L).mp h) (by omega)
  have k0_h13 : ¬ k0_cond13 L = 1#1 := fun h => absurd ((cond13_iff L).mp h) (by omega)
  have k0_h14 : ¬ k0_cond14 L = 1#1 := fun h => absurd ((cond14_iff L).mp h) (by omega)
  have k0_h15 : ¬ k0_cond15 L = 1#1 := fun h => absurd ((cond15_iff L).mp h) (by omega)
  have k0_h16 : ¬ k0_cond16 L = 1#1 := fun h => absurd ((cond16_iff L).mp h) (by omega)
  have rt : ∀ (fb rd : (cc0_scratch0 : Ref sig .scVector).ty.Contents (Elt F)),
      ReadAs.same.apply (View.read (Elt F) (View.whole (cc0_scratch0 : Ref sig .scVector)) (View.write (Elt F) (View.whole (cc0_scratch0 : Ref sig .scVector)) fb (ReadAs.same.apply rd) Finset.univ)) = rd :=
    fun fb rd => (congrArg (View.read (Elt F) (View.whole (cc0_scratch0 : Ref sig .scVector))) (View.write_whole_univ (Val := Elt F) (cc0_scratch0 : Ref sig .scVector) fb rd)).trans (View.read_whole _ rd)
  unfold TileSpec
  simp only [cc0__pad_body_eq_skeleton]; unfold cc0__pad_body_skel
  rw [(K (F := F)).scopedBufs_V hF d _ _, SparseCore.Cfg.scopedSems0_V (Val := Elt F) d _ _, ownSems0_V7, ownBufs_V]
  unfold argsAt
  iintro ⟨#Hlv, -, ⟨⟨A0, A1, A2, A3, A4, A5, A6, A7, A8, A9, A10, A11, A12, A13, A14, A15⟩, Ho⟩, ⟨⟨%fb, Hb⟩, ⟨%fz, Hz⟩, Hbufs⟩, ⟨Hs0, Hs1, Hs64, Hsems⟩, HO⟩
  ihave Hmw := ((K (F := F)).mayWaits_none (thr := thr d L) hO) $$ Hlv
  ihave Aa := (Entails.of_eq (pts_a7 (F := F) d L _ _).symm) $$ A7
  ihave Hb' := (Entails.of_eq (pts_b (F := F) d L _).symm) $$ Hb
  ihave Hz' := (Entails.of_eq (pts_z (F := F) d L _).symm) $$ Hz
  sl_exec
  -- the zeroing loops
  sl_for (invZ1 (F := F) d L) $$ [Hz']
  case region =>
    intro k1 _
    unfold invZ1
    iintro ⟨%f, Hz, %hf⟩
    sl_exec
    sl_for (invZ2 (F := F) d L k1) $$ [Hz]
    case region =>
      intro k2 _
      unfold invZ2
      iintro ⟨%f, Hz, %hf⟩
      sl_exec
      sl_step
      iexists _; isplitl [Hz]; · iexact Hz
      ipureintro
      exact invZ2_step k1 k2 f hf
    · unfold invZ2
      iexists f; isplitl [Hz]; · iexact Hz
      ipureintro
      exact invZ2_init k1 f hf
    iintro %_ HI
    unfold invZ2
    icases HI with ⟨%f', Hz, %hf'⟩
    sl_exec
    sl_step
    iexists f'; isplitl [Hz]; · iexact Hz
    ipureintro
    exact invZ1_step k1 f' hf'
  · unfold invZ1
    iexists fz; isplitl [Hz']; · iexact Hz'
    ipureintro
    intro r q h; omega
  iintro %_ HI
  unfold invZ1
  icases HI with ⟨%fz1, Hz, %hfz⟩
  have hfz1 : fz1 = fun _ => zF (F := F) := invZ1_final fz1 hfz
  subst hfz1
  sl_exec
  -- the copying loop
  sl_for (invC7 (F := F) m d L O W (shT (cL L) (sL L))) $$ [Hmw Aa Hb' Ho Hs0 Hs1 HO]
  case region =>
    intro t _
    unfold invC7
    iintro ⟨Hmw, Aa, ⟨%fb, Hb⟩, ⟨%fo, Ho, %hD⟩, Hs0, Hs1, %W', %hW', HO⟩
    have htr : 64 * t.val + 64 ≤ ncopy L := by
      have h1 := t.isLt; have h2 := trips17 L; have h3 := ncopy_dvd L
      change t.val < (k0_t17_loop L).trips at h1
      rw [h2] at h1; omega
    have hnc := ncopy_le L
    have hoff : k0_off31 L t 0 = R0 L + 64 * t.val := by rw [off31_eq]; unfold R0; rfl
    have hsub := chunk_subset L (k0_off31 L t) (k0_off31_inb L t k0_h8) (fun _ => rfl) (64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Aa]; · iexact Aa
    isplitl [Hb]; · iexists _; iexact Hb
    isplitl [Ho]
    · iexists _; isplitl [Ho]; · iexact Ho
      ipureintro
      have e : 64 * (t.val + 1) = 64 * t.val + 64 := by omega
      rw [e]
      refine done_step m d L _ _ _ (64 * t.val) hoff (by rw [off31_eq]; rfl) fo _ hD ?_
      refine hw_copy m d L (m (aLoc7 d)) (fun p q => by rw [hs]; rfl) (by rw [hs]) t.val htr _ _ _ hoff (by rw [off31_eq]; rfl)
        (fun y => (srcS7 L k0_h8 t).view.emb y) (fun y => ?_) _
        (fun y => (congrFun (rt fb _) y).trans ((View.read_apply (v := (srcS7 L k0_h8 t).view) _ y).trans (cast_eq _ _)))
      constructor
      · show k0_off30 L t 0 + 1 * (y 0).val = _; rw [off30_eq]; show 2048 * (L 0).val + 64 * t.val + 1 * (y 0).val = _; omega
      · show k0_off30 L t 1 + 1 * (y 1).val = _; rw [off30_eq]; show 0 + 1 * (y 1).val = _; omega
    isplitl [Hs0]; · iexact Hs0
    isplitl [Hs1]; · iexact Hs1
    iexists (insert (SemLoc.dma cc0_scoped29.sem, (default : HIx 1)) (insert (SemLoc.dma cc0_scoped28.sem, (default : HIx 1)) W')); isplitr
    · ipureintro; intro p hp
      rcases Finset.mem_insert.mp hp with hp | hp
      · exact .inr (hp ▸ rfl)
      rcases Finset.mem_insert.mp hp with hp | hp
      · exact .inr (hp ▸ rfl)
      · exact hW' p hp
    · iexact HO
  · unfold invC7
    isplitl [Hmw]; · iexact Hmw
    isplitl [Aa]; · iexact Aa
    isplitl [Hb']; · iexists _; iexact Hb'
    isplitl [Ho]
    · iexists _; isplitl [Ho]; · iexact Ho
      ipureintro; exact done_zero m d L _
    isplitl [Hs0]; · iexact Hs0
    isplitl [Hs1]; · iexact Hs1
    iexists W; isplitr
    · ipureintro; exact fun p hp => .inl hp
    · iexact HO
  iintro %_ HI
  unfold invC7
  icases HI with ⟨Hmw, Aa, ⟨%fb, Hb⟩, ⟨%fo, Ho, %hD⟩, Hs0, Hs1, %W1, %hW1, HO⟩
  have hDn : Done m d L (ncopy L) fo := by
    have h3 := ncopy_dvd L
    have e : 64 * (k0_t17_loop L).trips = ncopy L := by rw [trips17 L]; omega
    rw [← e]; exact hD
  sl_exec
  -- the remainder of the unrolling by one: no trips
  sl_for (fun (_ : Nat) (_ : PUnit) => (iprop(emp) : sProp 𝕄)) $$ []
  case region =>
    intro t _
    exact absurd t.isLt (by have h0 := trips18 L; change ¬ (t.val < (k0_t18_loop L).trips); omega)
  · iempintro
  iintro %_ -
  sl_exec
  -- the zero-filling loop
  sl_for (invF (F := F) m d L O W) $$ [Hmw Hz Ho Hs64 HO]
  case region =>
    intro t _
    unfold invF
    iintro ⟨Hmw, Hz, ⟨%fo, Ho, %hD⟩, Hs64, %W', %hW', HO⟩
    have hnc := ncopy_le L
    have htr : ncopy L + 64 * t.val + 64 ≤ 2048 := by
      have h1 := t.isLt; have h2 := trips35 L; obtain ⟨c, hc⟩ := ncopy_dvd L
      change t.val < (k0_t35_loop L).trips at h1
      rw [h2] at h1; omega
    have hoff : k0_off66 L t 0 = R0 L + (ncopy L + 64 * t.val) := by rw [off66_eq]; unfold R0; show _ + _ + _ + _ = _; omega
    have hsub := chunk_subset L (k0_off66 L t) (k0_off66_inb L t) (fun _ => rfl) (ncopy L + 64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Hz]; · iexact Hz
    isplitl [Ho]
    · iexists _; isplitl [Ho]; · iexact Ho
      ipureintro
      have e : ncopy L + 64 * (t.val + 1) = (ncopy L + 64 * t.val) + 64 := by omega
      rw [e]
      refine done_step m d L _ _ _ (ncopy L + 64 * t.val) hoff (by rw [off66_eq]; rfl) fo _ hD ?_
      exact hw_zero m d L t.val htr _ _ _ (by rw [hoff]; omega) _ (fun y => rfl)
    isplitl [Hs64]; · iexact Hs64
    iexists (insert (SemLoc.dma cc0_scoped64.sem, (default : HIx 1)) W'); isplitr
    · ipureintro; intro p hp
      rcases Finset.mem_insert.mp hp with hp | hp
      · exact .inr (hp ▸ rfl)
      · exact hW' p hp
    · iexact HO
  · unfold invF
    isplitl [Hmw]; · iexact Hmw
    isplitl [Hz]; · iexact Hz
    isplitl [Ho]
    · iexists _; isplitl [Ho]; · iexact Ho
      ipureintro; rw [Nat.mul_zero, Nat.add_zero]; exact hDn
    isplitl [Hs64]; · iexact Hs64
    iexists W1; isplitr
    · ipureintro; exact hW1
    · iexact HO
  iintro %_ HI
  unfold invF
  icases HI with ⟨Hmw, Hz, ⟨%fo2, Ho, %hD2⟩, Hs64, %W2, %hW2, HO⟩
  have hAll : Done m d L 2048 fo2 := by
    have hnc := ncopy_le L
    obtain ⟨c, hc⟩ := ncopy_dvd L
    have e : ncopy L + 64 * (k0_t35_loop L).trips = 2048 := by rw [trips35 L]; omega
    rw [← e]; exact hD2
  sl_exec
  sl_for (fun (_ : Nat) (_ : PUnit) => (iprop(emp) : sProp 𝕄)) $$ []
  case region =>
    intro t _
    exact absurd t.isLt (by have h0 := trips36 L; change ¬ (t.val < (k0_t36_loop L).trips); omega)
  · iempintro
  iintro %_ -
  sl_exec
  sl_step
  -- hand everything back
  isplitl [A0 A1 A2 A3 A4 A5 A6 A8 A9 A10 A11 A12 A13 A14 A15 Aa Ho]
  · isplitl [A0 A1 A2 A3 A4 A5 A6 A8 A9 A10 A11 A12 A13 A14 A15 Aa]
    ·
      isplitl [A0]; · iexact A0
      isplitl [A1]; · iexact A1
      isplitl [A2]; · iexact A2
      isplitl [A3]; · iexact A3
      isplitl [A4]; · iexact A4
      isplitl [A5]; · iexact A5
      isplitl [A6]; · iexact A6
      isplitl [Aa]; · iapply (Entails.of_eq (pts_a7 (F := F) d L _ _)); iexact Aa
      isplitl [A8]; · iexact A8
      isplitl [A9]; · iexact A9
      isplitl [A10]; · iexact A10
      isplitl [A11]; · iexact A11
      isplitl [A12]; · iexact A12
      isplitl [A13]; · iexact A13
      isplitl [A14]; · iexact A14
      iexact A15
    · iapply (Entails.of_eq (pointsTo_congr (ℓ := oLoc d) (done_all m d L fo2 hAll))); iexact Ho
  isplitl [Hb Hz Hbufs]
  · isplitl [Hb]; · iexists _; iapply (Entails.of_eq (pts_b (F := F) d L _)); iexact Hb
    isplitl [Hz]; · iexists _; iapply (Entails.of_eq (pts_z (F := F) d L _)); iexact Hz
    iexact Hbufs
  isplitl [Hs0 Hs1 Hs64 Hsems]
  · isplitl [Hs0]; · iexact Hs0
    isplitl [Hs1]; · iexact Hs1
    isplitl [Hs64]; · iexact Hs64
    iexact Hsems
  iexists W2; isplitr
  · ipureintro; exact hW2
  · iexact HO

end Cert.Proof.KI

end
-- ==== Proof.KITile8.lean ====
/-
  The task on subcore 8 (of either SparseCore): it serves sequence 8, of 2048 rows. Its second scratch buffer is
  zeroed; the rows of the sequence that fall in its half are copied, 64 at a time, through the first scratch buffer
  into its block of the output; the rest of the block is filled from the zeroed buffer. Each loop keeps "the first so
  many rows of the block hold the padded array".
-/
import proofs.«212850_g39865886441476_cont_8to1_b_277_5_alg».proof.Proof.KITileCommon

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "a0W" => (Memref.whole Cert.KernelIdeal.main_arg0_scv : Memref Cert.KernelIdeal.sig Kind.scVector Space.hbm Cert.KernelIdeal.S4096x512 EltTy.f32)
local notation "a1W" => (Memref.whole Cert.KernelIdeal.main_arg1_scv : Memref Cert.KernelIdeal.sig Kind.scVector Space.hbm Cert.KernelIdeal.S3840x512 EltTy.f32)
local notation "a2W" => (Memref.whole Cert.KernelIdeal.main_arg2_scv : Memref Cert.KernelIdeal.sig Kind.scVector Space.hbm Cert.KernelIdeal.S3584x512 EltTy.f32)
local notation "a3W" => (Memref.whole Cert.KernelIdeal.main_arg3_scv : Memref Cert.KernelIdeal.sig Kind.scVector Space.hbm Cert.KernelIdeal.S3328x512 EltTy.f32)
local notation "a4W" => (Memref.whole Cert.KernelIdeal.main_arg4_scv : Memref Cert.KernelIdeal.sig Kind.scVector Space.hbm Cert.KernelIdeal.S3072x512 EltTy.f32)
local notation "a5W" => (Memref.whole Cert.KernelIdeal.main_arg5_scv : Memref Cert.KernelIdeal.sig Kind.scVector Space.hbm Cert.KernelIdeal.S2816x512 EltTy.f32)
local notation "a6W" => (Memref.whole Cert.KernelIdeal.main_arg6_scv : Memref Cert.KernelIdeal.sig Kind.scVector Space.hbm Cert.KernelIdeal.S2560x512 EltTy.f32)
local notation "a7W" => (Memref.whole Cert.KernelIdeal.main_arg7_scv : Memref Cert.KernelIdeal.sig Kind.scVector Space.hbm Cert.KernelIdeal.S2304x512 EltTy.f32)
local notation "a8W" => (Memref.whole Cert.KernelIdeal.main_arg8_scv : Memref Cert.KernelIdeal.sig Kind.scVector Space.hbm Cert.KernelIdeal.S2048x512 EltTy.f32)
local notation "a9W" => (Memref.whole Cert.KernelIdeal.main_arg9_scv : Memref Cert.KernelIdeal.sig Kind.scVector Space.hbm Cert.KernelIdeal.S1792x512 EltTy.f32)
local notation "a10W" => (Memref.whole Cert.KernelIdeal.main_arg10_scv : Memref Cert.KernelIdeal.sig Kind.scVector Space.hbm Cert.KernelIdeal.S1536x512 EltTy.f32)
local notation "a11W" => (Memref.whole Cert.KernelIdeal.main_arg11_scv : Memref Cert.KernelIdeal.sig Kind.scVector Space.hbm Cert.KernelIdeal.S1280x512 EltTy.f32)
local notation "a12W" => (Memref.whole Cert.KernelIdeal.main_arg12_scv : Memref Cert.KernelIdeal.sig Kind.scVector Space.hbm Cert.KernelIdeal.S1024x512 EltTy.f32)
local notation "a13W" => (Memref.whole Cert.KernelIdeal.main_arg13_scv : Memref Cert.KernelIdeal.sig Kind.scVector Space.hbm Cert.KernelIdeal.S768x512 EltTy.f32)
local notation "a14W" => (Memref.whole Cert.KernelIdeal.main_arg14_scv : Memref Cert.KernelIdeal.sig Kind.scVector Space.hbm Cert.KernelIdeal.S512x512 EltTy.f32)
local notation "a15W" => (Memref.whole Cert.KernelIdeal.main_arg15_scv : Memref Cert.KernelIdeal.sig Kind.scVector Space.hbm Cert.KernelIdeal.S256x512 EltTy.f32)
local notation "oW" => (Memref.whole Cert.KernelIdeal.main_v0_scv : Memref Cert.KernelIdeal.sig Kind.scVector Space.hbm Cert.KernelIdeal.S65536x512 EltTy.f32)
local notation "bW" => (Memref.whole Cert.KernelIdeal.cc0_scratch0 : Memref Cert.KernelIdeal.sig Kind.scVector Space.vmem Cert.KernelIdeal.S64x512 EltTy.f32)
local notation "zW" => (Memref.whole Cert.KernelIdeal.cc0_scratch1 : Memref Cert.KernelIdeal.sig Kind.scVector Space.vmem Cert.KernelIdeal.S64x512 EltTy.f32)

variable (m : (ℓ : Loc nD τ sig) → Buf (Elt F) ℓ) (d : Dev nD)

omit [FloatOps F] in
theorem ownSems0_V8 (L : grid0.Coords) :
    (ownSems0 (thr d L) : sProp 𝕄)
      = iprop(semVal (thr d L, SemLoc.dma cc0_scoped32.sem) 0 ∗ semVal (thr d L, SemLoc.dma cc0_scoped33.sem) 0 ∗ semVal (thr d L, SemLoc.dma cc0_scoped64.sem) 0
          ∗ bigSep ((((ownCells (thr d L)).erase (thr d L, SemLoc.dma cc0_scoped32.sem)).erase (thr d L, SemLoc.dma cc0_scoped33.sem)).erase (thr d L, SemLoc.dma cc0_scoped64.sem))
              fun g => semVal g 0) := by
  unfold SparseCore.Cfg.ownSems0
  rw [SparseCore.bigSep_erase' ((mem_ownCells (g := (thr d L, SemLoc.dma cc0_scoped32.sem))).mpr ⟨rfl, by
      show (SemLoc.dma cc0_scoped32.sem : SemLoc sig).isScoped .scVector = true; decide⟩),
    SparseCore.bigSep_erase' (Finset.mem_erase.mpr ⟨by simp; decide, (mem_ownCells (g := (thr d L, SemLoc.dma cc0_scoped33.sem))).mpr ⟨rfl, by
      show (SemLoc.dma cc0_scoped33.sem : SemLoc sig).isScoped .scVector = true; decide⟩⟩),
    SparseCore.bigSep_erase' (Finset.mem_erase.mpr ⟨by simp; decide, Finset.mem_erase.mpr ⟨by simp; decide,
      (mem_ownCells (g := (thr d L, SemLoc.dma cc0_scoped64.sem))).mpr ⟨rfl, by show (SemLoc.dma cc0_scoped64.sem : SemLoc sig).isScoped .scVector = true; decide⟩⟩⟩)]

/-- The source chunk of trip `t`, as the program slices it. -/
abbrev srcS8 (L : grid0.Coords) (h : k0_cond9 L = 1#1) (t : Fin (k0_t19_loop L).trips) : Memref sig .scVector .hbm S64x512 .f32 :=
  (a8W).slice (Rect.unit (s := S2048x512) (k0_off34 L t) S64x512.size (k0_off34_inb L t h)) (fun _ => rfl)

omit [FloatOps F] in
theorem pts_a8 (L : grid0.Coords) (q : PosShare TreeShare) (f : Buf (Elt F) (aLoc8 d)) :
    ((a8W).view.loc (thr d L) ↦{q} f : sProp 𝕄) = aLoc8 d ↦{q} f := rfl

/-- The copying loop's invariant before trip `t`: the first `64 t` rows of the block hold the padded array. -/
def invC8 (L : grid0.Coords) (O : CellTallies nD τ sig (HIx 1)) (W : Waits sig (HIx 1)) (q : PosShare TreeShare) (t : Nat) (_ : PUnit) : sProp 𝕄 :=
  iprop(Transfers.MayWaits (thr d L) (none : HIx 1) O
    ∗ ((a8W).view.loc (thr d L) ↦{q} m (aLoc8 d))
    ∗ (∃ fb, (bW).view.loc (thr d L) ↦{fullShare} fb)
    ∗ (∃ fo, (oLoc d ↦[blkSet (bI L)]{fullShare} fo) ∗ ⌜Done m d L (64 * t) fo⌝)
    ∗ semVal (thr d L, SemLoc.dma cc0_scoped32.sem) 0
    ∗ semVal (thr d L, SemLoc.dma cc0_scoped33.sem) 0
    ∗ ∃ W', ⌜∀ p ∈ W', p ∈ W ∨ p.2 = none⌝ ∗ owes (thr d L) O W')

theorem tile_s8 (hF : (K (F := F)).Facts) (L : grid0.Coords) (hs : (L 1).val = 8) (O : CellTallies nD τ sig (HIx 1)) (W : Waits sig (HIx 1)) (hO : ∀ g, O g none = 0) :
    TileSpec m d L O W := by
  have k0_h1 : ¬ k0_cond1 L = 1#1 := fun h => absurd ((cond1_iff L).mp h) (by omega)
  have k0_h2 : ¬ k0_cond2 L = 1#1 := fun h => absurd ((cond2_iff L).mp h) (by omega)
  have k0_h3 : ¬ k0_cond3 L = 1#1 := fun h => absurd ((cond3_iff L).mp h) (by omega)
  have k0_h4 : ¬ k0_cond4 L = 1#1 := fun h => absurd ((cond4_iff L).mp h) (by omega)
  have k0_h5 : ¬ k0_cond5 L = 1#1 := fun h => absurd ((cond5_iff L).mp h) (by omega)
  have k0_h6 : ¬ k0_cond6 L = 1#1 := fun h => absurd ((cond6_iff L).mp h) (by omega)
  have k0_h7 : ¬ k0_cond7 L = 1#1 := fun h => absurd ((cond7_iff L).mp h) (by omega)
  have k0_h8 : ¬ k0_cond8 L = 1#1 := fun h => absurd ((cond8_iff L).mp h) (by omega)
  have k0_h9 : k0_cond9 L = 1#1 := (cond9_iff L).mpr hs
  have k0_h10 : ¬ k0_cond10 L = 1#1 := fun h => absurd ((cond10_iff L).mp h) (by omega)
  have k0_h11 : ¬ k0_cond11 L = 1#1 := fun h => absurd ((cond11_iff L).mp h) (by omega)
  have k0_h12 : ¬ k0_cond12 L = 1#1 := fun h => absurd ((cond12_iff L).mp h) (by omega)
  have k0_h13 : ¬ k0_cond13 L = 1#1 := fun h => absurd ((cond13_iff L).mp h) (by omega)
  have k0_h14 : ¬ k0_cond14 L = 1#1 := fun h => absurd ((cond14_iff L).mp h) (by omega)
  have k0_h15 : ¬ k0_cond15 L = 1#1 := fun h => absurd ((cond15_iff L).mp h) (by omega)
  have k0_h16 : ¬ k0_cond16 L = 1#1 := fun h => absurd ((cond16_iff L).mp h) (by omega)
  have rt : ∀ (fb rd : (cc0_scratch0 : Ref sig .scVector).ty.Contents (Elt F)),
      ReadAs.same.apply (View.read (Elt F) (View.whole (cc0_scratch0 : Ref sig .scVector)) (View.write (Elt F) (View.whole (cc0_scratch0 : Ref sig .scVector)) fb (ReadAs.same.apply rd) Finset.univ)) = rd :=
    fun fb rd => (congrArg (View.read (Elt F) (View.whole (cc0_scratch0 : Ref sig .scVector))) (View.write_whole_univ (Val := Elt F) (cc0_scratch0 : Ref sig .scVector) fb rd)).trans (View.read_whole _ rd)
  unfold TileSpec
  simp only [cc0__pad_body_eq_skeleton]; unfold cc0__pad_body_skel
  rw [(K (F := F)).scopedBufs_V hF d _ _, SparseCore.Cfg.scopedSems0_V (Val := Elt F) d _ _, ownSems0_V8, ownBufs_V]
  unfold argsAt
  iintro ⟨#Hlv, -, ⟨⟨A0, A1, A2, A3, A4, A5, A6, A7, A8, A9, A10, A11, A12, A13, A14, A15⟩, Ho⟩, ⟨⟨%fb, Hb⟩, ⟨%fz, Hz⟩, Hbufs⟩, ⟨Hs0, Hs1, Hs64, Hsems⟩, HO⟩
  ihave Hmw := ((K (F := F)).mayWaits_none (thr := thr d L) hO) $$ Hlv
  ihave Aa := (Entails.of_eq (pts_a8 (F := F) d L _ _).symm) $$ A8
  ihave Hb' := (Entails.of_eq (pts_b (F := F) d L _).symm) $$ Hb
  ihave Hz' := (Entails.of_eq (pts_z (F := F) d L _).symm) $$ Hz
  sl_exec
  -- the zeroing loops
  sl_for (invZ1 (F := F) d L) $$ [Hz']
  case region =>
    intro k1 _
    unfold invZ1
    iintro ⟨%f, Hz, %hf⟩
    sl_exec
    sl_for (invZ2 (F := F) d L k1) $$ [Hz]
    case region =>
      intro k2 _
      unfold invZ2
      iintro ⟨%f, Hz, %hf⟩
      sl_exec
      sl_step
      iexists _; isplitl [Hz]; · iexact Hz
      ipureintro
      exact invZ2_step k1 k2 f hf
    · unfold invZ2
      iexists f; isplitl [Hz]; · iexact Hz
      ipureintro
      exact invZ2_init k1 f hf
    iintro %_ HI
    unfold invZ2
    icases HI with ⟨%f', Hz, %hf'⟩
    sl_exec
    sl_step
    iexists f'; isplitl [Hz]; · iexact Hz
    ipureintro
    exact invZ1_step k1 f' hf'
  · unfold invZ1
    iexists fz; isplitl [Hz']; · iexact Hz'
    ipureintro
    intro r q h; omega
  iintro %_ HI
  unfold invZ1
  icases HI with ⟨%fz1, Hz, %hfz⟩
  have hfz1 : fz1 = fun _ => zF (F := F) := invZ1_final fz1 hfz
  subst hfz1
  sl_exec
  -- the copying loop
  sl_for (invC8 (F := F) m d L O W (shT (cL L) (sL L))) $$ [Hmw Aa Hb' Ho Hs0 Hs1 HO]
  case region =>
    intro t _
    unfold invC8
    iintro ⟨Hmw, Aa, ⟨%fb, Hb⟩, ⟨%fo, Ho, %hD⟩, Hs0, Hs1, %W', %hW', HO⟩
    have htr : 64 * t.val + 64 ≤ ncopy L := by
      have h1 := t.isLt; have h2 := trips19 L; have h3 := ncopy_dvd L
      change t.val < (k0_t19_loop L).trips at h1
      rw [h2] at h1; omega
    have hnc := ncopy_le L
    have hoff : k0_off35 L t 0 = R0 L + 64 * t.val := by rw [off35_eq]; unfold R0; rfl
    have hsub := chunk_subset L (k0_off35 L t) (k0_off35_inb L t k0_h9) (fun _ => rfl) (64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Aa]; · iexact Aa
    isplitl [Hb]; · iexists _; iexact Hb
    isplitl [Ho]
    · iexists _; isplitl [Ho]; · iexact Ho
      ipureintro
      have e : 64 * (t.val + 1) = 64 * t.val + 64 := by omega
      rw [e]
      refine done_step m d L _ _ _ (64 * t.val) hoff (by rw [off35_eq]; rfl) fo _ hD ?_
      refine hw_copy m d L (m (aLoc8 d)) (fun p q => by rw [hs]; rfl) (by rw [hs]) t.val htr _ _ _ hoff (by rw [off35_eq]; rfl)
        (fun y => (srcS8 L k0_h9 t).view.emb y) (fun y => ?_) _
        (fun y => (congrFun (rt fb _) y).trans ((View.read_apply (v := (srcS8 L k0_h9 t).view) _ y).trans (cast_eq _ _)))
      constructor
      · show k0_off34 L t 0 + 1 * (y 0).val = _; rw [off34_eq]; show 2048 * (L 0).val + 64 * t.val + 1 * (y 0).val = _; omega
      · show k0_off34 L t 1 + 1 * (y 1).val = _; rw [off34_eq]; show 0 + 1 * (y 1).val = _; omega
    isplitl [Hs0]; · iexact Hs0
    isplitl [Hs1]; · iexact Hs1
    iexists (insert (SemLoc.dma cc0_scoped33.sem, (default : HIx 1)) (insert (SemLoc.dma cc0_scoped32.sem, (default : HIx 1)) W')); isplitr
    · ipureintro; intro p hp
      rcases Finset.mem_insert.mp hp with hp | hp
      · exact .inr (hp ▸ rfl)
      rcases Finset.mem_insert.mp hp with hp | hp
      · exact .inr (hp ▸ rfl)
      · exact hW' p hp
    · iexact HO
  · unfold invC8
    isplitl [Hmw]; · iexact Hmw
    isplitl [Aa]; · iexact Aa
    isplitl [Hb']; · iexists _; iexact Hb'
    isplitl [Ho]
    · iexists _; isplitl [Ho]; · iexact Ho
      ipureintro; exact done_zero m d L _
    isplitl [Hs0]; · iexact Hs0
    isplitl [Hs1]; · iexact Hs1
    iexists W; isplitr
    · ipureintro; exact fun p hp => .inl hp
    · iexact HO
  iintro %_ HI
  unfold invC8
  icases HI with ⟨Hmw, Aa, ⟨%fb, Hb⟩, ⟨%fo, Ho, %hD⟩, Hs0, Hs1, %W1, %hW1, HO⟩
  have hDn : Done m d L (ncopy L) fo := by
    have h3 := ncopy_dvd L
    have e : 64 * (k0_t19_loop L).trips = ncopy L := by rw [trips19 L]; omega
    rw [← e]; exact hD
  sl_exec
  -- the remainder of the unrolling by one: no trips
  sl_for (fun (_ : Nat) (_ : PUnit) => (iprop(emp) : sProp 𝕄)) $$ []
  case region =>
    intro t _
    exact absurd t.isLt (by have h0 := trips20 L; change ¬ (t.val < (k0_t20_loop L).trips); omega)
  · iempintro
  iintro %_ -
  sl_exec
  -- the zero-filling loop
  sl_for (invF (F := F) m d L O W) $$ [Hmw Hz Ho Hs64 HO]
  case region =>
    intro t _
    unfold invF
    iintro ⟨Hmw, Hz, ⟨%fo, Ho, %hD⟩, Hs64, %W', %hW', HO⟩
    have hnc := ncopy_le L
    have htr : ncopy L + 64 * t.val + 64 ≤ 2048 := by
      have h1 := t.isLt; have h2 := trips35 L; obtain ⟨c, hc⟩ := ncopy_dvd L
      change t.val < (k0_t35_loop L).trips at h1
      rw [h2] at h1; omega
    have hoff : k0_off66 L t 0 = R0 L + (ncopy L + 64 * t.val) := by rw [off66_eq]; unfold R0; show _ + _ + _ + _ = _; omega
    have hsub := chunk_subset L (k0_off66 L t) (k0_off66_inb L t) (fun _ => rfl) (ncopy L + 64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Hz]; · iexact Hz
    isplitl [Ho]
    · iexists _; isplitl [Ho]; · iexact Ho
      ipureintro
      have e : ncopy L + 64 * (t.val + 1) = (ncopy L + 64 * t.val) + 64 := by omega
      rw [e]
      refine done_step m d L _ _ _ (ncopy L + 64 * t.val) hoff (by rw [off66_eq]; rfl) fo _ hD ?_
      exact hw_zero m d L t.val htr _ _ _ (by rw [hoff]; omega) _ (fun y => rfl)
    isplitl [Hs64]; · iexact Hs64
    iexists (insert (SemLoc.dma cc0_scoped64.sem, (default : HIx 1)) W'); isplitr
    · ipureintro; intro p hp
      rcases Finset.mem_insert.mp hp with hp | hp
      · exact .inr (hp ▸ rfl)
      · exact hW' p hp
    · iexact HO
  · unfold invF
    isplitl [Hmw]; · iexact Hmw
    isplitl [Hz]; · iexact Hz
    isplitl [Ho]
    · iexists _; isplitl [Ho]; · iexact Ho
      ipureintro; rw [Nat.mul_zero, Nat.add_zero]; exact hDn
    isplitl [Hs64]; · iexact Hs64
    iexists W1; isplitr
    · ipureintro; exact hW1
    · iexact HO
  iintro %_ HI
  unfold invF
  icases HI with ⟨Hmw, Hz, ⟨%fo2, Ho, %hD2⟩, Hs64, %W2, %hW2, HO⟩
  have hAll : Done m d L 2048 fo2 := by
    have hnc := ncopy_le L
    obtain ⟨c, hc⟩ := ncopy_dvd L
    have e : ncopy L + 64 * (k0_t35_loop L).trips = 2048 := by rw [trips35 L]; omega
    rw [← e]; exact hD2
  sl_exec
  sl_for (fun (_ : Nat) (_ : PUnit) => (iprop(emp) : sProp 𝕄)) $$ []
  case region =>
    intro t _
    exact absurd t.isLt (by have h0 := trips36 L; change ¬ (t.val < (k0_t36_loop L).trips); omega)
  · iempintro
  iintro %_ -
  sl_exec
  sl_step
  -- hand everything back
  isplitl [A0 A1 A2 A3 A4 A5 A6 A7 A9 A10 A11 A12 A13 A14 A15 Aa Ho]
  · isplitl [A0 A1 A2 A3 A4 A5 A6 A7 A9 A10 A11 A12 A13 A14 A15 Aa]
    ·
      isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [Aa]; · iapply (Entails.of_eq (pts_a8 (F := F) d L _ _)); iexact Aa
      isplitl [A9]; · iexact A9
      isplitl [A10]; · iexact A10
      isplitl [A11]; · iexact A11
      isplitl [A12]; · iexact A12
      isplitl [A13]; · iexact A13
      isplitl [A14]; · iexact A14
      iexact A15
    · iapply (Entails.of_eq (pointsTo_congr (ℓ := oLoc d) (done_all m d L fo2 hAll))); iexact Ho
  isplitl [Hb Hz Hbufs]
  · isplitl [Hb]; · iexists _; iapply (Entails.of_eq (pts_b (F := F) d L _)); iexact Hb
    isplitl [Hz]; · iexists _; iapply (Entails.of_eq (pts_z (F := F) d L _)); iexact Hz
    iexact Hbufs
  isplitl [Hs0 Hs1 Hs64 Hsems]
  · isplitl [Hs0]; · iexact Hs0
    isplitl [Hs1]; · iexact Hs1
    isplitl [Hs64]; · iexact Hs64
    iexact Hsems
  iexists W2; isplitr
  · ipureintro; exact hW2
  · iexact HO

end Cert.Proof.KI

end
-- ==== Proof.KITile9.lean ====
/-
  The task on subcore 9 (of either SparseCore): it serves sequence 9, of 1792 rows. Its second scratch buffer is
  zeroed; the rows of the sequence that fall in its half are copied, 64 at a time, through the first scratch buffer
  into its block of the output; the rest of the block is filled from the zeroed buffer. Each loop keeps "the first so
  many rows of the block hold the padded array".
-/
import proofs.«212850_g39865886441476_cont_8to1_b_277_5_alg».proof.Proof.KITileCommon

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "a0W" => (Memref.whole Cert.KernelIdeal.main_arg0_scv : Memref Cert.KernelIdeal.sig Kind.scVector Space.hbm Cert.KernelIdeal.S4096x512 EltTy.f32)
local notation "a1W" => (Memref.whole Cert.KernelIdeal.main_arg1_scv : Memref Cert.KernelIdeal.sig Kind.scVector Space.hbm Cert.KernelIdeal.S3840x512 EltTy.f32)
local notation "a2W" => (Memref.whole Cert.KernelIdeal.main_arg2_scv : Memref Cert.KernelIdeal.sig Kind.scVector Space.hbm Cert.KernelIdeal.S3584x512 EltTy.f32)
local notation "a3W" => (Memref.whole Cert.KernelIdeal.main_arg3_scv : Memref Cert.KernelIdeal.sig Kind.scVector Space.hbm Cert.KernelIdeal.S3328x512 EltTy.f32)
local notation "a4W" => (Memref.whole Cert.KernelIdeal.main_arg4_scv : Memref Cert.KernelIdeal.sig Kind.scVector Space.hbm Cert.KernelIdeal.S3072x512 EltTy.f32)
local notation "a5W" => (Memref.whole Cert.KernelIdeal.main_arg5_scv : Memref Cert.KernelIdeal.sig Kind.scVector Space.hbm Cert.KernelIdeal.S2816x512 EltTy.f32)
local notation "a6W" => (Memref.whole Cert.KernelIdeal.main_arg6_scv : Memref Cert.KernelIdeal.sig Kind.scVector Space.hbm Cert.KernelIdeal.S2560x512 EltTy.f32)
local notation "a7W" => (Memref.whole Cert.KernelIdeal.main_arg7_scv : Memref Cert.KernelIdeal.sig Kind.scVector Space.hbm Cert.KernelIdeal.S2304x512 EltTy.f32)
local notation "a8W" => (Memref.whole Cert.KernelIdeal.main_arg8_scv : Memref Cert.KernelIdeal.sig Kind.scVector Space.hbm Cert.KernelIdeal.S2048x512 EltTy.f32)
local notation "a9W" => (Memref.whole Cert.KernelIdeal.main_arg9_scv : Memref Cert.KernelIdeal.sig Kind.scVector Space.hbm Cert.KernelIdeal.S1792x512 EltTy.f32)
local notation "a10W" => (Memref.whole Cert.KernelIdeal.main_arg10_scv : Memref Cert.KernelIdeal.sig Kind.scVector Space.hbm Cert.KernelIdeal.S1536x512 EltTy.f32)
local notation "a11W" => (Memref.whole Cert.KernelIdeal.main_arg11_scv : Memref Cert.KernelIdeal.sig Kind.scVector Space.hbm Cert.KernelIdeal.S1280x512 EltTy.f32)
local notation "a12W" => (Memref.whole Cert.KernelIdeal.main_arg12_scv : Memref Cert.KernelIdeal.sig Kind.scVector Space.hbm Cert.KernelIdeal.S1024x512 EltTy.f32)
local notation "a13W" => (Memref.whole Cert.KernelIdeal.main_arg13_scv : Memref Cert.KernelIdeal.sig Kind.scVector Space.hbm Cert.KernelIdeal.S768x512 EltTy.f32)
local notation "a14W" => (Memref.whole Cert.KernelIdeal.main_arg14_scv : Memref Cert.KernelIdeal.sig Kind.scVector Space.hbm Cert.KernelIdeal.S512x512 EltTy.f32)
local notation "a15W" => (Memref.whole Cert.KernelIdeal.main_arg15_scv : Memref Cert.KernelIdeal.sig Kind.scVector Space.hbm Cert.KernelIdeal.S256x512 EltTy.f32)
local notation "oW" => (Memref.whole Cert.KernelIdeal.main_v0_scv : Memref Cert.KernelIdeal.sig Kind.scVector Space.hbm Cert.KernelIdeal.S65536x512 EltTy.f32)
local notation "bW" => (Memref.whole Cert.KernelIdeal.cc0_scratch0 : Memref Cert.KernelIdeal.sig Kind.scVector Space.vmem Cert.KernelIdeal.S64x512 EltTy.f32)
local notation "zW" => (Memref.whole Cert.KernelIdeal.cc0_scratch1 : Memref Cert.KernelIdeal.sig Kind.scVector Space.vmem Cert.KernelIdeal.S64x512 EltTy.f32)

variable (m : (ℓ : Loc nD τ sig) → Buf (Elt F) ℓ) (d : Dev nD)

omit [FloatOps F] in
theorem ownSems0_V9 (L : grid0.Coords) :
    (ownSems0 (thr d L) : sProp 𝕄)
      = iprop(semVal (thr d L, SemLoc.dma cc0_scoped36.sem) 0 ∗ semVal (thr d L, SemLoc.dma cc0_scoped37.sem) 0 ∗ semVal (thr d L, SemLoc.dma cc0_scoped64.sem) 0
          ∗ bigSep ((((ownCells (thr d L)).erase (thr d L, SemLoc.dma cc0_scoped36.sem)).erase (thr d L, SemLoc.dma cc0_scoped37.sem)).erase (thr d L, SemLoc.dma cc0_scoped64.sem))
              fun g => semVal g 0) := by
  unfold SparseCore.Cfg.ownSems0
  rw [SparseCore.bigSep_erase' ((mem_ownCells (g := (thr d L, SemLoc.dma cc0_scoped36.sem))).mpr ⟨rfl, by
      show (SemLoc.dma cc0_scoped36.sem : SemLoc sig).isScoped .scVector = true; decide⟩),
    SparseCore.bigSep_erase' (Finset.mem_erase.mpr ⟨by simp; decide, (mem_ownCells (g := (thr d L, SemLoc.dma cc0_scoped37.sem))).mpr ⟨rfl, by
      show (SemLoc.dma cc0_scoped37.sem : SemLoc sig).isScoped .scVector = true; decide⟩⟩),
    SparseCore.bigSep_erase' (Finset.mem_erase.mpr ⟨by simp; decide, Finset.mem_erase.mpr ⟨by simp; decide,
      (mem_ownCells (g := (thr d L, SemLoc.dma cc0_scoped64.sem))).mpr ⟨rfl, by show (SemLoc.dma cc0_scoped64.sem : SemLoc sig).isScoped .scVector = true; decide⟩⟩⟩)]

/-- The source chunk of trip `t`, as the program slices it. -/
abbrev srcS9 (L : grid0.Coords) (h : k0_cond10 L = 1#1) (t : Fin (k0_t21_loop L).trips) : Memref sig .scVector .hbm S64x512 .f32 :=
  (a9W).slice (Rect.unit (s := S1792x512) (k0_off38 L t) S64x512.size (k0_off38_inb L t h)) (fun _ => rfl)

omit [FloatOps F] in
theorem pts_a9 (L : grid0.Coords) (q : PosShare TreeShare) (f : Buf (Elt F) (aLoc9 d)) :
    ((a9W).view.loc (thr d L) ↦{q} f : sProp 𝕄) = aLoc9 d ↦{q} f := rfl

/-- The copying loop's invariant before trip `t`: the first `64 t` rows of the block hold the padded array. -/
def invC9 (L : grid0.Coords) (O : CellTallies nD τ sig (HIx 1)) (W : Waits sig (HIx 1)) (q : PosShare TreeShare) (t : Nat) (_ : PUnit) : sProp 𝕄 :=
  iprop(Transfers.MayWaits (thr d L) (none : HIx 1) O
    ∗ ((a9W).view.loc (thr d L) ↦{q} m (aLoc9 d))
    ∗ (∃ fb, (bW).view.loc (thr d L) ↦{fullShare} fb)
    ∗ (∃ fo, (oLoc d ↦[blkSet (bI L)]{fullShare} fo) ∗ ⌜Done m d L (64 * t) fo⌝)
    ∗ semVal (thr d L, SemLoc.dma cc0_scoped36.sem) 0
    ∗ semVal (thr d L, SemLoc.dma cc0_scoped37.sem) 0
    ∗ ∃ W', ⌜∀ p ∈ W', p ∈ W ∨ p.2 = none⌝ ∗ owes (thr d L) O W')

theorem tile_s9 (hF : (K (F := F)).Facts) (L : grid0.Coords) (hs : (L 1).val = 9) (O : CellTallies nD τ sig (HIx 1)) (W : Waits sig (HIx 1)) (hO : ∀ g, O g none = 0) :
    TileSpec m d L O W := by
  have k0_h1 : ¬ k0_cond1 L = 1#1 := fun h => absurd ((cond1_iff L).mp h) (by omega)
  have k0_h2 : ¬ k0_cond2 L = 1#1 := fun h => absurd ((cond2_iff L).mp h) (by omega)
  have k0_h3 : ¬ k0_cond3 L = 1#1 := fun h => absurd ((cond3_iff L).mp h) (by omega)
  have k0_h4 : ¬ k0_cond4 L = 1#1 := fun h => absurd ((cond4_iff L).mp h) (by omega)
  have k0_h5 : ¬ k0_cond5 L = 1#1 := fun h => absurd ((cond5_iff L).mp h) (by omega)
  have k0_h6 : ¬ k0_cond6 L = 1#1 := fun h => absurd ((cond6_iff L).mp h) (by omega)
  have k0_h7 : ¬ k0_cond7 L = 1#1 := fun h => absurd ((cond7_iff L).mp h) (by omega)
  have k0_h8 : ¬ k0_cond8 L = 1#1 := fun h => absurd ((cond8_iff L).mp h) (by omega)
  have k0_h9 : ¬ k0_cond9 L = 1#1 := fun h => absurd ((cond9_iff L).mp h) (by omega)
  have k0_h10 : k0_cond10 L = 1#1 := (cond10_iff L).mpr hs
  have k0_h11 : ¬ k0_cond11 L = 1#1 := fun h => absurd ((cond11_iff L).mp h) (by omega)
  have k0_h12 : ¬ k0_cond12 L = 1#1 := fun h => absurd ((cond12_iff L).mp h) (by omega)
  have k0_h13 : ¬ k0_cond13 L = 1#1 := fun h => absurd ((cond13_iff L).mp h) (by omega)
  have k0_h14 : ¬ k0_cond14 L = 1#1 := fun h => absurd ((cond14_iff L).mp h) (by omega)
  have k0_h15 : ¬ k0_cond15 L = 1#1 := fun h => absurd ((cond15_iff L).mp h) (by omega)
  have k0_h16 : ¬ k0_cond16 L = 1#1 := fun h => absurd ((cond16_iff L).mp h) (by omega)
  have rt : ∀ (fb rd : (cc0_scratch0 : Ref sig .scVector).ty.Contents (Elt F)),
      ReadAs.same.apply (View.read (Elt F) (View.whole (cc0_scratch0 : Ref sig .scVector)) (View.write (Elt F) (View.whole (cc0_scratch0 : Ref sig .scVector)) fb (ReadAs.same.apply rd) Finset.univ)) = rd :=
    fun fb rd => (congrArg (View.read (Elt F) (View.whole (cc0_scratch0 : Ref sig .scVector))) (View.write_whole_univ (Val := Elt F) (cc0_scratch0 : Ref sig .scVector) fb rd)).trans (View.read_whole _ rd)
  unfold TileSpec
  simp only [cc0__pad_body_eq_skeleton]; unfold cc0__pad_body_skel
  rw [(K (F := F)).scopedBufs_V hF d _ _, SparseCore.Cfg.scopedSems0_V (Val := Elt F) d _ _, ownSems0_V9, ownBufs_V]
  unfold argsAt
  iintro ⟨#Hlv, -, ⟨⟨A0, A1, A2, A3, A4, A5, A6, A7, A8, A9, A10, A11, A12, A13, A14, A15⟩, Ho⟩, ⟨⟨%fb, Hb⟩, ⟨%fz, Hz⟩, Hbufs⟩, ⟨Hs0, Hs1, Hs64, Hsems⟩, HO⟩
  ihave Hmw := ((K (F := F)).mayWaits_none (thr := thr d L) hO) $$ Hlv
  ihave Aa := (Entails.of_eq (pts_a9 (F := F) d L _ _).symm) $$ A9
  ihave Hb' := (Entails.of_eq (pts_b (F := F) d L _).symm) $$ Hb
  ihave Hz' := (Entails.of_eq (pts_z (F := F) d L _).symm) $$ Hz
  sl_exec
  -- the zeroing loops
  sl_for (invZ1 (F := F) d L) $$ [Hz']
  case region =>
    intro k1 _
    unfold invZ1
    iintro ⟨%f, Hz, %hf⟩
    sl_exec
    sl_for (invZ2 (F := F) d L k1) $$ [Hz]
    case region =>
      intro k2 _
      unfold invZ2
      iintro ⟨%f, Hz, %hf⟩
      sl_exec
      sl_step
      iexists _; isplitl [Hz]; · iexact Hz
      ipureintro
      exact invZ2_step k1 k2 f hf
    · unfold invZ2
      iexists f; isplitl [Hz]; · iexact Hz
      ipureintro
      exact invZ2_init k1 f hf
    iintro %_ HI
    unfold invZ2
    icases HI with ⟨%f', Hz, %hf'⟩
    sl_exec
    sl_step
    iexists f'; isplitl [Hz]; · iexact Hz
    ipureintro
    exact invZ1_step k1 f' hf'
  · unfold invZ1
    iexists fz; isplitl [Hz']; · iexact Hz'
    ipureintro
    intro r q h; omega
  iintro %_ HI
  unfold invZ1
  icases HI with ⟨%fz1, Hz, %hfz⟩
  have hfz1 : fz1 = fun _ => zF (F := F) := invZ1_final fz1 hfz
  subst hfz1
  sl_exec
  -- the copying loop
  sl_for (invC9 (F := F) m d L O W (shT (cL L) (sL L))) $$ [Hmw Aa Hb' Ho Hs0 Hs1 HO]
  case region =>
    intro t _
    unfold invC9
    iintro ⟨Hmw, Aa, ⟨%fb, Hb⟩, ⟨%fo, Ho, %hD⟩, Hs0, Hs1, %W', %hW', HO⟩
    have htr : 64 * t.val + 64 ≤ ncopy L := by
      have h1 := t.isLt; have h2 := trips21 L; have h3 := ncopy_dvd L
      change t.val < (k0_t21_loop L).trips at h1
      rw [h2] at h1; omega
    have hnc := ncopy_le L
    have hoff : k0_off39 L t 0 = R0 L + 64 * t.val := by rw [off39_eq]; unfold R0; rfl
    have hsub := chunk_subset L (k0_off39 L t) (k0_off39_inb L t k0_h10) (fun _ => rfl) (64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Aa]; · iexact Aa
    isplitl [Hb]; · iexists _; iexact Hb
    isplitl [Ho]
    · iexists _; isplitl [Ho]; · iexact Ho
      ipureintro
      have e : 64 * (t.val + 1) = 64 * t.val + 64 := by omega
      rw [e]
      refine done_step m d L _ _ _ (64 * t.val) hoff (by rw [off39_eq]; rfl) fo _ hD ?_
      refine hw_copy m d L (m (aLoc9 d)) (fun p q => by rw [hs]; rfl) (by rw [hs]) t.val htr _ _ _ hoff (by rw [off39_eq]; rfl)
        (fun y => (srcS9 L k0_h10 t).view.emb y) (fun y => ?_) _
        (fun y => (congrFun (rt fb _) y).trans ((View.read_apply (v := (srcS9 L k0_h10 t).view) _ y).trans (cast_eq _ _)))
      constructor
      · show k0_off38 L t 0 + 1 * (y 0).val = _; rw [off38_eq]; show 2048 * (L 0).val + 64 * t.val + 1 * (y 0).val = _; omega
      · show k0_off38 L t 1 + 1 * (y 1).val = _; rw [off38_eq]; show 0 + 1 * (y 1).val = _; omega
    isplitl [Hs0]; · iexact Hs0
    isplitl [Hs1]; · iexact Hs1
    iexists (insert (SemLoc.dma cc0_scoped37.sem, (default : HIx 1)) (insert (SemLoc.dma cc0_scoped36.sem, (default : HIx 1)) W')); isplitr
    · ipureintro; intro p hp
      rcases Finset.mem_insert.mp hp with hp | hp
      · exact .inr (hp ▸ rfl)
      rcases Finset.mem_insert.mp hp with hp | hp
      · exact .inr (hp ▸ rfl)
      · exact hW' p hp
    · iexact HO
  · unfold invC9
    isplitl [Hmw]; · iexact Hmw
    isplitl [Aa]; · iexact Aa
    isplitl [Hb']; · iexists _; iexact Hb'
    isplitl [Ho]
    · iexists _; isplitl [Ho]; · iexact Ho
      ipureintro; exact done_zero m d L _
    isplitl [Hs0]; · iexact Hs0
    isplitl [Hs1]; · iexact Hs1
    iexists W; isplitr
    · ipureintro; exact fun p hp => .inl hp
    · iexact HO
  iintro %_ HI
  unfold invC9
  icases HI with ⟨Hmw, Aa, ⟨%fb, Hb⟩, ⟨%fo, Ho, %hD⟩, Hs0, Hs1, %W1, %hW1, HO⟩
  have hDn : Done m d L (ncopy L) fo := by
    have h3 := ncopy_dvd L
    have e : 64 * (k0_t21_loop L).trips = ncopy L := by rw [trips21 L]; omega
    rw [← e]; exact hD
  sl_exec
  -- the remainder of the unrolling by one: no trips
  sl_for (fun (_ : Nat) (_ : PUnit) => (iprop(emp) : sProp 𝕄)) $$ []
  case region =>
    intro t _
    exact absurd t.isLt (by have h0 := trips22 L; change ¬ (t.val < (k0_t22_loop L).trips); omega)
  · iempintro
  iintro %_ -
  sl_exec
  -- the zero-filling loop
  sl_for (invF (F := F) m d L O W) $$ [Hmw Hz Ho Hs64 HO]
  case region =>
    intro t _
    unfold invF
    iintro ⟨Hmw, Hz, ⟨%fo, Ho, %hD⟩, Hs64, %W', %hW', HO⟩
    have hnc := ncopy_le L
    have htr : ncopy L + 64 * t.val + 64 ≤ 2048 := by
      have h1 := t.isLt; have h2 := trips35 L; obtain ⟨c, hc⟩ := ncopy_dvd L
      change t.val < (k0_t35_loop L).trips at h1
      rw [h2] at h1; omega
    have hoff : k0_off66 L t 0 = R0 L + (ncopy L + 64 * t.val) := by rw [off66_eq]; unfold R0; show _ + _ + _ + _ = _; omega
    have hsub := chunk_subset L (k0_off66 L t) (k0_off66_inb L t) (fun _ => rfl) (ncopy L + 64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Hz]; · iexact Hz
    isplitl [Ho]
    · iexists _; isplitl [Ho]; · iexact Ho
      ipureintro
      have e : ncopy L + 64 * (t.val + 1) = (ncopy L + 64 * t.val) + 64 := by omega
      rw [e]
      refine done_step m d L _ _ _ (ncopy L + 64 * t.val) hoff (by rw [off66_eq]; rfl) fo _ hD ?_
      exact hw_zero m d L t.val htr _ _ _ (by rw [hoff]; omega) _ (fun y => rfl)
    isplitl [Hs64]; · iexact Hs64
    iexists (insert (SemLoc.dma cc0_scoped64.sem, (default : HIx 1)) W'); isplitr
    · ipureintro; intro p hp
      rcases Finset.mem_insert.mp hp with hp | hp
      · exact .inr (hp ▸ rfl)
      · exact hW' p hp
    · iexact HO
  · unfold invF
    isplitl [Hmw]; · iexact Hmw
    isplitl [Hz]; · iexact Hz
    isplitl [Ho]
    · iexists _; isplitl [Ho]; · iexact Ho
      ipureintro; rw [Nat.mul_zero, Nat.add_zero]; exact hDn
    isplitl [Hs64]; · iexact Hs64
    iexists W1; isplitr
    · ipureintro; exact hW1
    · iexact HO
  iintro %_ HI
  unfold invF
  icases HI with ⟨Hmw, Hz, ⟨%fo2, Ho, %hD2⟩, Hs64, %W2, %hW2, HO⟩
  have hAll : Done m d L 2048 fo2 := by
    have hnc := ncopy_le L
    obtain ⟨c, hc⟩ := ncopy_dvd L
    have e : ncopy L + 64 * (k0_t35_loop L).trips = 2048 := by rw [trips35 L]; omega
    rw [← e]; exact hD2
  sl_exec
  sl_for (fun (_ : Nat) (_ : PUnit) => (iprop(emp) : sProp 𝕄)) $$ []
  case region =>
    intro t _
    exact absurd t.isLt (by have h0 := trips36 L; change ¬ (t.val < (k0_t36_loop L).trips); omega)
  · iempintro
  iintro %_ -
  sl_exec
  sl_step
  -- hand everything back
  isplitl [A0 A1 A2 A3 A4 A5 A6 A7 A8 A10 A11 A12 A13 A14 A15 Aa Ho]
  · isplitl [A0 A1 A2 A3 A4 A5 A6 A7 A8 A10 A11 A12 A13 A14 A15 Aa]
    ·
      isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [Aa]; · iapply (Entails.of_eq (pts_a9 (F := F) d L _ _)); iexact Aa
      isplitl [A10]; · iexact A10
      isplitl [A11]; · iexact A11
      isplitl [A12]; · iexact A12
      isplitl [A13]; · iexact A13
      isplitl [A14]; · iexact A14
      iexact A15
    · iapply (Entails.of_eq (pointsTo_congr (ℓ := oLoc d) (done_all m d L fo2 hAll))); iexact Ho
  isplitl [Hb Hz Hbufs]
  · isplitl [Hb]; · iexists _; iapply (Entails.of_eq (pts_b (F := F) d L _)); iexact Hb
    isplitl [Hz]; · iexists _; iapply (Entails.of_eq (pts_z (F := F) d L _)); iexact Hz
    iexact Hbufs
  isplitl [Hs0 Hs1 Hs64 Hsems]
  · isplitl [Hs0]; · iexact Hs0
    isplitl [Hs1]; · iexact Hs1
    isplitl [Hs64]; · iexact Hs64
    iexact Hsems
  iexists W2; isplitr
  · ipureintro; exact hW2
  · iexact HO

end Cert.Proof.KI

end
-- ==== Proof.KITile10.lean ====
/-
  The task on subcore 10 (of either SparseCore): it serves sequence 10, of 1536 rows. Its second scratch buffer is
  zeroed; the rows of the sequence that fall in its half are copied, 64 at a time, through the first scratch buffer
  into its block of the output; the rest of the block is filled from the zeroed buffer. Each loop keeps "the first so
  many rows of the block hold the padded array".
-/
import proofs.«212850_g39865886441476_cont_8to1_b_277_5_alg».proof.Proof.KITileCommon

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "a0W" => (Memref.whole Cert.KernelIdeal.main_arg0_scv : Memref Cert.KernelIdeal.sig Kind.scVector Space.hbm Cert.KernelIdeal.S4096x512 EltTy.f32)
local notation "a1W" => (Memref.whole Cert.KernelIdeal.main_arg1_scv : Memref Cert.KernelIdeal.sig Kind.scVector Space.hbm Cert.KernelIdeal.S3840x512 EltTy.f32)
local notation "a2W" => (Memref.whole Cert.KernelIdeal.main_arg2_scv : Memref Cert.KernelIdeal.sig Kind.scVector Space.hbm Cert.KernelIdeal.S3584x512 EltTy.f32)
local notation "a3W" => (Memref.whole Cert.KernelIdeal.main_arg3_scv : Memref Cert.KernelIdeal.sig Kind.scVector Space.hbm Cert.KernelIdeal.S3328x512 EltTy.f32)
local notation "a4W" => (Memref.whole Cert.KernelIdeal.main_arg4_scv : Memref Cert.KernelIdeal.sig Kind.scVector Space.hbm Cert.KernelIdeal.S3072x512 EltTy.f32)
local notation "a5W" => (Memref.whole Cert.KernelIdeal.main_arg5_scv : Memref Cert.KernelIdeal.sig Kind.scVector Space.hbm Cert.KernelIdeal.S2816x512 EltTy.f32)
local notation "a6W" => (Memref.whole Cert.KernelIdeal.main_arg6_scv : Memref Cert.KernelIdeal.sig Kind.scVector Space.hbm Cert.KernelIdeal.S2560x512 EltTy.f32)
local notation "a7W" => (Memref.whole Cert.KernelIdeal.main_arg7_scv : Memref Cert.KernelIdeal.sig Kind.scVector Space.hbm Cert.KernelIdeal.S2304x512 EltTy.f32)
local notation "a8W" => (Memref.whole Cert.KernelIdeal.main_arg8_scv : Memref Cert.KernelIdeal.sig Kind.scVector Space.hbm Cert.KernelIdeal.S2048x512 EltTy.f32)
local notation "a9W" => (Memref.whole Cert.KernelIdeal.main_arg9_scv : Memref Cert.KernelIdeal.sig Kind.scVector Space.hbm Cert.KernelIdeal.S1792x512 EltTy.f32)
local notation "a10W" => (Memref.whole Cert.KernelIdeal.main_arg10_scv : Memref Cert.KernelIdeal.sig Kind.scVector Space.hbm Cert.KernelIdeal.S1536x512 EltTy.f32)
local notation "a11W" => (Memref.whole Cert.KernelIdeal.main_arg11_scv : Memref Cert.KernelIdeal.sig Kind.scVector Space.hbm Cert.KernelIdeal.S1280x512 EltTy.f32)
local notation "a12W" => (Memref.whole Cert.KernelIdeal.main_arg12_scv : Memref Cert.KernelIdeal.sig Kind.scVector Space.hbm Cert.KernelIdeal.S1024x512 EltTy.f32)
local notation "a13W" => (Memref.whole Cert.KernelIdeal.main_arg13_scv : Memref Cert.KernelIdeal.sig Kind.scVector Space.hbm Cert.KernelIdeal.S768x512 EltTy.f32)
local notation "a14W" => (Memref.whole Cert.KernelIdeal.main_arg14_scv : Memref Cert.KernelIdeal.sig Kind.scVector Space.hbm Cert.KernelIdeal.S512x512 EltTy.f32)
local notation "a15W" => (Memref.whole Cert.KernelIdeal.main_arg15_scv : Memref Cert.KernelIdeal.sig Kind.scVector Space.hbm Cert.KernelIdeal.S256x512 EltTy.f32)
local notation "oW" => (Memref.whole Cert.KernelIdeal.main_v0_scv : Memref Cert.KernelIdeal.sig Kind.scVector Space.hbm Cert.KernelIdeal.S65536x512 EltTy.f32)
local notation "bW" => (Memref.whole Cert.KernelIdeal.cc0_scratch0 : Memref Cert.KernelIdeal.sig Kind.scVector Space.vmem Cert.KernelIdeal.S64x512 EltTy.f32)
local notation "zW" => (Memref.whole Cert.KernelIdeal.cc0_scratch1 : Memref Cert.KernelIdeal.sig Kind.scVector Space.vmem Cert.KernelIdeal.S64x512 EltTy.f32)

variable (m : (ℓ : Loc nD τ sig) → Buf (Elt F) ℓ) (d : Dev nD)

omit [FloatOps F] in
theorem ownSems0_V10 (L : grid0.Coords) :
    (ownSems0 (thr d L) : sProp 𝕄)
      = iprop(semVal (thr d L, SemLoc.dma cc0_scoped40.sem) 0 ∗ semVal (thr d L, SemLoc.dma cc0_scoped41.sem) 0 ∗ semVal (thr d L, SemLoc.dma cc0_scoped64.sem) 0
          ∗ bigSep ((((ownCells (thr d L)).erase (thr d L, SemLoc.dma cc0_scoped40.sem)).erase (thr d L, SemLoc.dma cc0_scoped41.sem)).erase (thr d L, SemLoc.dma cc0_scoped64.sem))
              fun g => semVal g 0) := by
  unfold SparseCore.Cfg.ownSems0
  rw [SparseCore.bigSep_erase' ((mem_ownCells (g := (thr d L, SemLoc.dma cc0_scoped40.sem))).mpr ⟨rfl, by
      show (SemLoc.dma cc0_scoped40.sem : SemLoc sig).isScoped .scVector = true; decide⟩),
    SparseCore.bigSep_erase' (Finset.mem_erase.mpr ⟨by simp; decide, (mem_ownCells (g := (thr d L, SemLoc.dma cc0_scoped41.sem))).mpr ⟨rfl, by
      show (SemLoc.dma cc0_scoped41.sem : SemLoc sig).isScoped .scVector = true; decide⟩⟩),
    SparseCore.bigSep_erase' (Finset.mem_erase.mpr ⟨by simp; decide, Finset.mem_erase.mpr ⟨by simp; decide,
      (mem_ownCells (g := (thr d L, SemLoc.dma cc0_scoped64.sem))).mpr ⟨rfl, by show (SemLoc.dma cc0_scoped64.sem : SemLoc sig).isScoped .scVector = true; decide⟩⟩⟩)]

/-- The source chunk of trip `t`, as the program slices it. -/
abbrev srcS10 (L : grid0.Coords) (h : k0_cond11 L = 1#1) (t : Fin (k0_t23_loop L).trips) : Memref sig .scVector .hbm S64x512 .f32 :=
  (a10W).slice (Rect.unit (s := S1536x512) (k0_off42 L t) S64x512.size (k0_off42_inb L t h)) (fun _ => rfl)

omit [FloatOps F] in
theorem pts_a10 (L : grid0.Coords) (q : PosShare TreeShare) (f : Buf (Elt F) (aLoc10 d)) :
    ((a10W).view.loc (thr d L) ↦{q} f : sProp 𝕄) = aLoc10 d ↦{q} f := rfl

/-- The copying loop's invariant before trip `t`: the first `64 t` rows of the block hold the padded array. -/
def invC10 (L : grid0.Coords) (O : CellTallies nD τ sig (HIx 1)) (W : Waits sig (HIx 1)) (q : PosShare TreeShare) (t : Nat) (_ : PUnit) : sProp 𝕄 :=
  iprop(Transfers.MayWaits (thr d L) (none : HIx 1) O
    ∗ ((a10W).view.loc (thr d L) ↦{q} m (aLoc10 d))
    ∗ (∃ fb, (bW).view.loc (thr d L) ↦{fullShare} fb)
    ∗ (∃ fo, (oLoc d ↦[blkSet (bI L)]{fullShare} fo) ∗ ⌜Done m d L (64 * t) fo⌝)
    ∗ semVal (thr d L, SemLoc.dma cc0_scoped40.sem) 0
    ∗ semVal (thr d L, SemLoc.dma cc0_scoped41.sem) 0
    ∗ ∃ W', ⌜∀ p ∈ W', p ∈ W ∨ p.2 = none⌝ ∗ owes (thr d L) O W')

theorem tile_s10 (hF : (K (F := F)).Facts) (L : grid0.Coords) (hs : (L 1).val = 10) (O : CellTallies nD τ sig (HIx 1)) (W : Waits sig (HIx 1)) (hO : ∀ g, O g none = 0) :
    TileSpec m d L O W := by
  have k0_h1 : ¬ k0_cond1 L = 1#1 := fun h => absurd ((cond1_iff L).mp h) (by omega)
  have k0_h2 : ¬ k0_cond2 L = 1#1 := fun h => absurd ((cond2_iff L).mp h) (by omega)
  have k0_h3 : ¬ k0_cond3 L = 1#1 := fun h => absurd ((cond3_iff L).mp h) (by omega)
  have k0_h4 : ¬ k0_cond4 L = 1#1 := fun h => absurd ((cond4_iff L).mp h) (by omega)
  have k0_h5 : ¬ k0_cond5 L = 1#1 := fun h => absurd ((cond5_iff L).mp h) (by omega)
  have k0_h6 : ¬ k0_cond6 L = 1#1 := fun h => absurd ((cond6_iff L).mp h) (by omega)
  have k0_h7 : ¬ k0_cond7 L = 1#1 := fun h => absurd ((cond7_iff L).mp h) (by omega)
  have k0_h8 : ¬ k0_cond8 L = 1#1 := fun h => absurd ((cond8_iff L).mp h) (by omega)
  have k0_h9 : ¬ k0_cond9 L = 1#1 := fun h => absurd ((cond9_iff L).mp h) (by omega)
  have k0_h10 : ¬ k0_cond10 L = 1#1 := fun h => absurd ((cond10_iff L).mp h) (by omega)
  have k0_h11 : k0_cond11 L = 1#1 := (cond11_iff L).mpr hs
  have k0_h12 : ¬ k0_cond12 L = 1#1 := fun h => absurd ((cond12_iff L).mp h) (by omega)
  have k0_h13 : ¬ k0_cond13 L = 1#1 := fun h => absurd ((cond13_iff L).mp h) (by omega)
  have k0_h14 : ¬ k0_cond14 L = 1#1 := fun h => absurd ((cond14_iff L).mp h) (by omega)
  have k0_h15 : ¬ k0_cond15 L = 1#1 := fun h => absurd ((cond15_iff L).mp h) (by omega)
  have k0_h16 : ¬ k0_cond16 L = 1#1 := fun h => absurd ((cond16_iff L).mp h) (by omega)
  have rt : ∀ (fb rd : (cc0_scratch0 : Ref sig .scVector).ty.Contents (Elt F)),
      ReadAs.same.apply (View.read (Elt F) (View.whole (cc0_scratch0 : Ref sig .scVector)) (View.write (Elt F) (View.whole (cc0_scratch0 : Ref sig .scVector)) fb (ReadAs.same.apply rd) Finset.univ)) = rd :=
    fun fb rd => (congrArg (View.read (Elt F) (View.whole (cc0_scratch0 : Ref sig .scVector))) (View.write_whole_univ (Val := Elt F) (cc0_scratch0 : Ref sig .scVector) fb rd)).trans (View.read_whole _ rd)
  unfold TileSpec
  simp only [cc0__pad_body_eq_skeleton]; unfold cc0__pad_body_skel
  rw [(K (F := F)).scopedBufs_V hF d _ _, SparseCore.Cfg.scopedSems0_V (Val := Elt F) d _ _, ownSems0_V10, ownBufs_V]
  unfold argsAt
  iintro ⟨#Hlv, -, ⟨⟨A0, A1, A2, A3, A4, A5, A6, A7, A8, A9, A10, A11, A12, A13, A14, A15⟩, Ho⟩, ⟨⟨%fb, Hb⟩, ⟨%fz, Hz⟩, Hbufs⟩, ⟨Hs0, Hs1, Hs64, Hsems⟩, HO⟩
  ihave Hmw := ((K (F := F)).mayWaits_none (thr := thr d L) hO) $$ Hlv
  ihave Aa := (Entails.of_eq (pts_a10 (F := F) d L _ _).symm) $$ A10
  ihave Hb' := (Entails.of_eq (pts_b (F := F) d L _).symm) $$ Hb
  ihave Hz' := (Entails.of_eq (pts_z (F := F) d L _).symm) $$ Hz
  sl_exec
  -- the zeroing loops
  sl_for (invZ1 (F := F) d L) $$ [Hz']
  case region =>
    intro k1 _
    unfold invZ1
    iintro ⟨%f, Hz, %hf⟩
    sl_exec
    sl_for (invZ2 (F := F) d L k1) $$ [Hz]
    case region =>
      intro k2 _
      unfold invZ2
      iintro ⟨%f, Hz, %hf⟩
      sl_exec
      sl_step
      iexists _; isplitl [Hz]; · iexact Hz
      ipureintro
      exact invZ2_step k1 k2 f hf
    · unfold invZ2
      iexists f; isplitl [Hz]; · iexact Hz
      ipureintro
      exact invZ2_init k1 f hf
    iintro %_ HI
    unfold invZ2
    icases HI with ⟨%f', Hz, %hf'⟩
    sl_exec
    sl_step
    iexists f'; isplitl [Hz]; · iexact Hz
    ipureintro
    exact invZ1_step k1 f' hf'
  · unfold invZ1
    iexists fz; isplitl [Hz']; · iexact Hz'
    ipureintro
    intro r q h; omega
  iintro %_ HI
  unfold invZ1
  icases HI with ⟨%fz1, Hz, %hfz⟩
  have hfz1 : fz1 = fun _ => zF (F := F) := invZ1_final fz1 hfz
  subst hfz1
  sl_exec
  -- the copying loop
  sl_for (invC10 (F := F) m d L O W (shT (cL L) (sL L))) $$ [Hmw Aa Hb' Ho Hs0 Hs1 HO]
  case region =>
    intro t _
    unfold invC10
    iintro ⟨Hmw, Aa, ⟨%fb, Hb⟩, ⟨%fo, Ho, %hD⟩, Hs0, Hs1, %W', %hW', HO⟩
    have htr : 64 * t.val + 64 ≤ ncopy L := by
      have h1 := t.isLt; have h2 := trips23 L; have h3 := ncopy_dvd L
      change t.val < (k0_t23_loop L).trips at h1
      rw [h2] at h1; omega
    have hnc := ncopy_le L
    have hoff : k0_off43 L t 0 = R0 L + 64 * t.val := by rw [off43_eq]; unfold R0; rfl
    have hsub := chunk_subset L (k0_off43 L t) (k0_off43_inb L t k0_h11) (fun _ => rfl) (64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Aa]; · iexact Aa
    isplitl [Hb]; · iexists _; iexact Hb
    isplitl [Ho]
    · iexists _; isplitl [Ho]; · iexact Ho
      ipureintro
      have e : 64 * (t.val + 1) = 64 * t.val + 64 := by omega
      rw [e]
      refine done_step m d L _ _ _ (64 * t.val) hoff (by rw [off43_eq]; rfl) fo _ hD ?_
      refine hw_copy m d L (m (aLoc10 d)) (fun p q => by rw [hs]; rfl) (by rw [hs]) t.val htr _ _ _ hoff (by rw [off43_eq]; rfl)
        (fun y => (srcS10 L k0_h11 t).view.emb y) (fun y => ?_) _
        (fun y => (congrFun (rt fb _) y).trans ((View.read_apply (v := (srcS10 L k0_h11 t).view) _ y).trans (cast_eq _ _)))
      constructor
      · show k0_off42 L t 0 + 1 * (y 0).val = _; rw [off42_eq]; show 2048 * (L 0).val + 64 * t.val + 1 * (y 0).val = _; omega
      · show k0_off42 L t 1 + 1 * (y 1).val = _; rw [off42_eq]; show 0 + 1 * (y 1).val = _; omega
    isplitl [Hs0]; · iexact Hs0
    isplitl [Hs1]; · iexact Hs1
    iexists (insert (SemLoc.dma cc0_scoped41.sem, (default : HIx 1)) (insert (SemLoc.dma cc0_scoped40.sem, (default : HIx 1)) W')); isplitr
    · ipureintro; intro p hp
      rcases Finset.mem_insert.mp hp with hp | hp
      · exact .inr (hp ▸ rfl)
      rcases Finset.mem_insert.mp hp with hp | hp
      · exact .inr (hp ▸ rfl)
      · exact hW' p hp
    · iexact HO
  · unfold invC10
    isplitl [Hmw]; · iexact Hmw
    isplitl [Aa]; · iexact Aa
    isplitl [Hb']; · iexists _; iexact Hb'
    isplitl [Ho]
    · iexists _; isplitl [Ho]; · iexact Ho
      ipureintro; exact done_zero m d L _
    isplitl [Hs0]; · iexact Hs0
    isplitl [Hs1]; · iexact Hs1
    iexists W; isplitr
    · ipureintro; exact fun p hp => .inl hp
    · iexact HO
  iintro %_ HI
  unfold invC10
  icases HI with ⟨Hmw, Aa, ⟨%fb, Hb⟩, ⟨%fo, Ho, %hD⟩, Hs0, Hs1, %W1, %hW1, HO⟩
  have hDn : Done m d L (ncopy L) fo := by
    have h3 := ncopy_dvd L
    have e : 64 * (k0_t23_loop L).trips = ncopy L := by rw [trips23 L]; omega
    rw [← e]; exact hD
  sl_exec
  -- the remainder of the unrolling by one: no trips
  sl_for (fun (_ : Nat) (_ : PUnit) => (iprop(emp) : sProp 𝕄)) $$ []
  case region =>
    intro t _
    exact absurd t.isLt (by have h0 := trips24 L; change ¬ (t.val < (k0_t24_loop L).trips); omega)
  · iempintro
  iintro %_ -
  sl_exec
  -- the zero-filling loop
  sl_for (invF (F := F) m d L O W) $$ [Hmw Hz Ho Hs64 HO]
  case region =>
    intro t _
    unfold invF
    iintro ⟨Hmw, Hz, ⟨%fo, Ho, %hD⟩, Hs64, %W', %hW', HO⟩
    have hnc := ncopy_le L
    have htr : ncopy L + 64 * t.val + 64 ≤ 2048 := by
      have h1 := t.isLt; have h2 := trips35 L; obtain ⟨c, hc⟩ := ncopy_dvd L
      change t.val < (k0_t35_loop L).trips at h1
      rw [h2] at h1; omega
    have hoff : k0_off66 L t 0 = R0 L + (ncopy L + 64 * t.val) := by rw [off66_eq]; unfold R0; show _ + _ + _ + _ = _; omega
    have hsub := chunk_subset L (k0_off66 L t) (k0_off66_inb L t) (fun _ => rfl) (ncopy L + 64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Hz]; · iexact Hz
    isplitl [Ho]
    · iexists _; isplitl [Ho]; · iexact Ho
      ipureintro
      have e : ncopy L + 64 * (t.val + 1) = (ncopy L + 64 * t.val) + 64 := by omega
      rw [e]
      refine done_step m d L _ _ _ (ncopy L + 64 * t.val) hoff (by rw [off66_eq]; rfl) fo _ hD ?_
      exact hw_zero m d L t.val htr _ _ _ (by rw [hoff]; omega) _ (fun y => rfl)
    isplitl [Hs64]; · iexact Hs64
    iexists (insert (SemLoc.dma cc0_scoped64.sem, (default : HIx 1)) W'); isplitr
    · ipureintro; intro p hp
      rcases Finset.mem_insert.mp hp with hp | hp
      · exact .inr (hp ▸ rfl)
      · exact hW' p hp
    · iexact HO
  · unfold invF
    isplitl [Hmw]; · iexact Hmw
    isplitl [Hz]; · iexact Hz
    isplitl [Ho]
    · iexists _; isplitl [Ho]; · iexact Ho
      ipureintro; rw [Nat.mul_zero, Nat.add_zero]; exact hDn
    isplitl [Hs64]; · iexact Hs64
    iexists W1; isplitr
    · ipureintro; exact hW1
    · iexact HO
  iintro %_ HI
  unfold invF
  icases HI with ⟨Hmw, Hz, ⟨%fo2, Ho, %hD2⟩, Hs64, %W2, %hW2, HO⟩
  have hAll : Done m d L 2048 fo2 := by
    have hnc := ncopy_le L
    obtain ⟨c, hc⟩ := ncopy_dvd L
    have e : ncopy L + 64 * (k0_t35_loop L).trips = 2048 := by rw [trips35 L]; omega
    rw [← e]; exact hD2
  sl_exec
  sl_for (fun (_ : Nat) (_ : PUnit) => (iprop(emp) : sProp 𝕄)) $$ []
  case region =>
    intro t _
    exact absurd t.isLt (by have h0 := trips36 L; change ¬ (t.val < (k0_t36_loop L).trips); omega)
  · iempintro
  iintro %_ -
  sl_exec
  sl_step
  -- hand everything back
  isplitl [A0 A1 A2 A3 A4 A5 A6 A7 A8 A9 A11 A12 A13 A14 A15 Aa Ho]
  · isplitl [A0 A1 A2 A3 A4 A5 A6 A7 A8 A9 A11 A12 A13 A14 A15 Aa]
    ·
      isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [Aa]; · iapply (Entails.of_eq (pts_a10 (F := F) d L _ _)); iexact Aa
      isplitl [A11]; · iexact A11
      isplitl [A12]; · iexact A12
      isplitl [A13]; · iexact A13
      isplitl [A14]; · iexact A14
      iexact A15
    · iapply (Entails.of_eq (pointsTo_congr (ℓ := oLoc d) (done_all m d L fo2 hAll))); iexact Ho
  isplitl [Hb Hz Hbufs]
  · isplitl [Hb]; · iexists _; iapply (Entails.of_eq (pts_b (F := F) d L _)); iexact Hb
    isplitl [Hz]; · iexists _; iapply (Entails.of_eq (pts_z (F := F) d L _)); iexact Hz
    iexact Hbufs
  isplitl [Hs0 Hs1 Hs64 Hsems]
  · isplitl [Hs0]; · iexact Hs0
    isplitl [Hs1]; · iexact Hs1
    isplitl [Hs64]; · iexact Hs64
    iexact Hsems
  iexists W2; isplitr
  · ipureintro; exact hW2
  · iexact HO

end Cert.Proof.KI

end
-- ==== Proof.KITile11.lean ====
/-
  The task on subcore 11 (of either SparseCore): it serves sequence 11, of 1280 rows. Its second scratch buffer is
  zeroed; the rows of the sequence that fall in its half are copied, 64 at a time, through the first scratch buffer
  into its block of the output; the rest of the block is filled from the zeroed buffer. Each loop keeps "the first so
  many rows of the block hold the padded array".
-/
import proofs.«212850_g39865886441476_cont_8to1_b_277_5_alg».proof.Proof.KITileCommon

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "a0W" => (Memref.whole Cert.KernelIdeal.main_arg0_scv : Memref Cert.KernelIdeal.sig Kind.scVector Space.hbm Cert.KernelIdeal.S4096x512 EltTy.f32)
local notation "a1W" => (Memref.whole Cert.KernelIdeal.main_arg1_scv : Memref Cert.KernelIdeal.sig Kind.scVector Space.hbm Cert.KernelIdeal.S3840x512 EltTy.f32)
local notation "a2W" => (Memref.whole Cert.KernelIdeal.main_arg2_scv : Memref Cert.KernelIdeal.sig Kind.scVector Space.hbm Cert.KernelIdeal.S3584x512 EltTy.f32)
local notation "a3W" => (Memref.whole Cert.KernelIdeal.main_arg3_scv : Memref Cert.KernelIdeal.sig Kind.scVector Space.hbm Cert.KernelIdeal.S3328x512 EltTy.f32)
local notation "a4W" => (Memref.whole Cert.KernelIdeal.main_arg4_scv : Memref Cert.KernelIdeal.sig Kind.scVector Space.hbm Cert.KernelIdeal.S3072x512 EltTy.f32)
local notation "a5W" => (Memref.whole Cert.KernelIdeal.main_arg5_scv : Memref Cert.KernelIdeal.sig Kind.scVector Space.hbm Cert.KernelIdeal.S2816x512 EltTy.f32)
local notation "a6W" => (Memref.whole Cert.KernelIdeal.main_arg6_scv : Memref Cert.KernelIdeal.sig Kind.scVector Space.hbm Cert.KernelIdeal.S2560x512 EltTy.f32)
local notation "a7W" => (Memref.whole Cert.KernelIdeal.main_arg7_scv : Memref Cert.KernelIdeal.sig Kind.scVector Space.hbm Cert.KernelIdeal.S2304x512 EltTy.f32)
local notation "a8W" => (Memref.whole Cert.KernelIdeal.main_arg8_scv : Memref Cert.KernelIdeal.sig Kind.scVector Space.hbm Cert.KernelIdeal.S2048x512 EltTy.f32)
local notation "a9W" => (Memref.whole Cert.KernelIdeal.main_arg9_scv : Memref Cert.KernelIdeal.sig Kind.scVector Space.hbm Cert.KernelIdeal.S1792x512 EltTy.f32)
local notation "a10W" => (Memref.whole Cert.KernelIdeal.main_arg10_scv : Memref Cert.KernelIdeal.sig Kind.scVector Space.hbm Cert.KernelIdeal.S1536x512 EltTy.f32)
local notation "a11W" => (Memref.whole Cert.KernelIdeal.main_arg11_scv : Memref Cert.KernelIdeal.sig Kind.scVector Space.hbm Cert.KernelIdeal.S1280x512 EltTy.f32)
local notation "a12W" => (Memref.whole Cert.KernelIdeal.main_arg12_scv : Memref Cert.KernelIdeal.sig Kind.scVector Space.hbm Cert.KernelIdeal.S1024x512 EltTy.f32)
local notation "a13W" => (Memref.whole Cert.KernelIdeal.main_arg13_scv : Memref Cert.KernelIdeal.sig Kind.scVector Space.hbm Cert.KernelIdeal.S768x512 EltTy.f32)
local notation "a14W" => (Memref.whole Cert.KernelIdeal.main_arg14_scv : Memref Cert.KernelIdeal.sig Kind.scVector Space.hbm Cert.KernelIdeal.S512x512 EltTy.f32)
local notation "a15W" => (Memref.whole Cert.KernelIdeal.main_arg15_scv : Memref Cert.KernelIdeal.sig Kind.scVector Space.hbm Cert.KernelIdeal.S256x512 EltTy.f32)
local notation "oW" => (Memref.whole Cert.KernelIdeal.main_v0_scv : Memref Cert.KernelIdeal.sig Kind.scVector Space.hbm Cert.KernelIdeal.S65536x512 EltTy.f32)
local notation "bW" => (Memref.whole Cert.KernelIdeal.cc0_scratch0 : Memref Cert.KernelIdeal.sig Kind.scVector Space.vmem Cert.KernelIdeal.S64x512 EltTy.f32)
local notation "zW" => (Memref.whole Cert.KernelIdeal.cc0_scratch1 : Memref Cert.KernelIdeal.sig Kind.scVector Space.vmem Cert.KernelIdeal.S64x512 EltTy.f32)

variable (m : (ℓ : Loc nD τ sig) → Buf (Elt F) ℓ) (d : Dev nD)

omit [FloatOps F] in
theorem ownSems0_V11 (L : grid0.Coords) :
    (ownSems0 (thr d L) : sProp 𝕄)
      = iprop(semVal (thr d L, SemLoc.dma cc0_scoped44.sem) 0 ∗ semVal (thr d L, SemLoc.dma cc0_scoped45.sem) 0 ∗ semVal (thr d L, SemLoc.dma cc0_scoped64.sem) 0
          ∗ bigSep ((((ownCells (thr d L)).erase (thr d L, SemLoc.dma cc0_scoped44.sem)).erase (thr d L, SemLoc.dma cc0_scoped45.sem)).erase (thr d L, SemLoc.dma cc0_scoped64.sem))
              fun g => semVal g 0) := by
  unfold SparseCore.Cfg.ownSems0
  rw [SparseCore.bigSep_erase' ((mem_ownCells (g := (thr d L, SemLoc.dma cc0_scoped44.sem))).mpr ⟨rfl, by
      show (SemLoc.dma cc0_scoped44.sem : SemLoc sig).isScoped .scVector = true; decide⟩),
    SparseCore.bigSep_erase' (Finset.mem_erase.mpr ⟨by simp; decide, (mem_ownCells (g := (thr d L, SemLoc.dma cc0_scoped45.sem))).mpr ⟨rfl, by
      show (SemLoc.dma cc0_scoped45.sem : SemLoc sig).isScoped .scVector = true; decide⟩⟩),
    SparseCore.bigSep_erase' (Finset.mem_erase.mpr ⟨by simp; decide, Finset.mem_erase.mpr ⟨by simp; decide,
      (mem_ownCells (g := (thr d L, SemLoc.dma cc0_scoped64.sem))).mpr ⟨rfl, by show (SemLoc.dma cc0_scoped64.sem : SemLoc sig).isScoped .scVector = true; decide⟩⟩⟩)]

/-- The source chunk of trip `t`, as the program slices it. -/
abbrev srcS11 (L : grid0.Coords) (h : k0_cond12 L = 1#1) (t : Fin (k0_t25_loop L).trips) : Memref sig .scVector .hbm S64x512 .f32 :=
  (a11W).slice (Rect.unit (s := S1280x512) (k0_off46 L t) S64x512.size (k0_off46_inb L t h)) (fun _ => rfl)

omit [FloatOps F] in
theorem pts_a11 (L : grid0.Coords) (q : PosShare TreeShare) (f : Buf (Elt F) (aLoc11 d)) :
    ((a11W).view.loc (thr d L) ↦{q} f : sProp 𝕄) = aLoc11 d ↦{q} f := rfl

/-- The copying loop's invariant before trip `t`: the first `64 t` rows of the block hold the padded array. -/
def invC11 (L : grid0.Coords) (O : CellTallies nD τ sig (HIx 1)) (W : Waits sig (HIx 1)) (q : PosShare TreeShare) (t : Nat) (_ : PUnit) : sProp 𝕄 :=
  iprop(Transfers.MayWaits (thr d L) (none : HIx 1) O
    ∗ ((a11W).view.loc (thr d L) ↦{q} m (aLoc11 d))
    ∗ (∃ fb, (bW).view.loc (thr d L) ↦{fullShare} fb)
    ∗ (∃ fo, (oLoc d ↦[blkSet (bI L)]{fullShare} fo) ∗ ⌜Done m d L (64 * t) fo⌝)
    ∗ semVal (thr d L, SemLoc.dma cc0_scoped44.sem) 0
    ∗ semVal (thr d L, SemLoc.dma cc0_scoped45.sem) 0
    ∗ ∃ W', ⌜∀ p ∈ W', p ∈ W ∨ p.2 = none⌝ ∗ owes (thr d L) O W')

theorem tile_s11 (hF : (K (F := F)).Facts) (L : grid0.Coords) (hs : (L 1).val = 11) (O : CellTallies nD τ sig (HIx 1)) (W : Waits sig (HIx 1)) (hO : ∀ g, O g none = 0) :
    TileSpec m d L O W := by
  have k0_h1 : ¬ k0_cond1 L = 1#1 := fun h => absurd ((cond1_iff L).mp h) (by omega)
  have k0_h2 : ¬ k0_cond2 L = 1#1 := fun h => absurd ((cond2_iff L).mp h) (by omega)
  have k0_h3 : ¬ k0_cond3 L = 1#1 := fun h => absurd ((cond3_iff L).mp h) (by omega)
  have k0_h4 : ¬ k0_cond4 L = 1#1 := fun h => absurd ((cond4_iff L).mp h) (by omega)
  have k0_h5 : ¬ k0_cond5 L = 1#1 := fun h => absurd ((cond5_iff L).mp h) (by omega)
  have k0_h6 : ¬ k0_cond6 L = 1#1 := fun h => absurd ((cond6_iff L).mp h) (by omega)
  have k0_h7 : ¬ k0_cond7 L = 1#1 := fun h => absurd ((cond7_iff L).mp h) (by omega)
  have k0_h8 : ¬ k0_cond8 L = 1#1 := fun h => absurd ((cond8_iff L).mp h) (by omega)
  have k0_h9 : ¬ k0_cond9 L = 1#1 := fun h => absurd ((cond9_iff L).mp h) (by omega)
  have k0_h10 : ¬ k0_cond10 L = 1#1 := fun h => absurd ((cond10_iff L).mp h) (by omega)
  have k0_h11 : ¬ k0_cond11 L = 1#1 := fun h => absurd ((cond11_iff L).mp h) (by omega)
  have k0_h12 : k0_cond12 L = 1#1 := (cond12_iff L).mpr hs
  have k0_h13 : ¬ k0_cond13 L = 1#1 := fun h => absurd ((cond13_iff L).mp h) (by omega)
  have k0_h14 : ¬ k0_cond14 L = 1#1 := fun h => absurd ((cond14_iff L).mp h) (by omega)
  have k0_h15 : ¬ k0_cond15 L = 1#1 := fun h => absurd ((cond15_iff L).mp h) (by omega)
  have k0_h16 : ¬ k0_cond16 L = 1#1 := fun h => absurd ((cond16_iff L).mp h) (by omega)
  have rt : ∀ (fb rd : (cc0_scratch0 : Ref sig .scVector).ty.Contents (Elt F)),
      ReadAs.same.apply (View.read (Elt F) (View.whole (cc0_scratch0 : Ref sig .scVector)) (View.write (Elt F) (View.whole (cc0_scratch0 : Ref sig .scVector)) fb (ReadAs.same.apply rd) Finset.univ)) = rd :=
    fun fb rd => (congrArg (View.read (Elt F) (View.whole (cc0_scratch0 : Ref sig .scVector))) (View.write_whole_univ (Val := Elt F) (cc0_scratch0 : Ref sig .scVector) fb rd)).trans (View.read_whole _ rd)
  unfold TileSpec
  simp only [cc0__pad_body_eq_skeleton]; unfold cc0__pad_body_skel
  rw [(K (F := F)).scopedBufs_V hF d _ _, SparseCore.Cfg.scopedSems0_V (Val := Elt F) d _ _, ownSems0_V11, ownBufs_V]
  unfold argsAt
  iintro ⟨#Hlv, -, ⟨⟨A0, A1, A2, A3, A4, A5, A6, A7, A8, A9, A10, A11, A12, A13, A14, A15⟩, Ho⟩, ⟨⟨%fb, Hb⟩, ⟨%fz, Hz⟩, Hbufs⟩, ⟨Hs0, Hs1, Hs64, Hsems⟩, HO⟩
  ihave Hmw := ((K (F := F)).mayWaits_none (thr := thr d L) hO) $$ Hlv
  ihave Aa := (Entails.of_eq (pts_a11 (F := F) d L _ _).symm) $$ A11
  ihave Hb' := (Entails.of_eq (pts_b (F := F) d L _).symm) $$ Hb
  ihave Hz' := (Entails.of_eq (pts_z (F := F) d L _).symm) $$ Hz
  sl_exec
  -- the zeroing loops
  sl_for (invZ1 (F := F) d L) $$ [Hz']
  case region =>
    intro k1 _
    unfold invZ1
    iintro ⟨%f, Hz, %hf⟩
    sl_exec
    sl_for (invZ2 (F := F) d L k1) $$ [Hz]
    case region =>
      intro k2 _
      unfold invZ2
      iintro ⟨%f, Hz, %hf⟩
      sl_exec
      sl_step
      iexists _; isplitl [Hz]; · iexact Hz
      ipureintro
      exact invZ2_step k1 k2 f hf
    · unfold invZ2
      iexists f; isplitl [Hz]; · iexact Hz
      ipureintro
      exact invZ2_init k1 f hf
    iintro %_ HI
    unfold invZ2
    icases HI with ⟨%f', Hz, %hf'⟩
    sl_exec
    sl_step
    iexists f'; isplitl [Hz]; · iexact Hz
    ipureintro
    exact invZ1_step k1 f' hf'
  · unfold invZ1
    iexists fz; isplitl [Hz']; · iexact Hz'
    ipureintro
    intro r q h; omega
  iintro %_ HI
  unfold invZ1
  icases HI with ⟨%fz1, Hz, %hfz⟩
  have hfz1 : fz1 = fun _ => zF (F := F) := invZ1_final fz1 hfz
  subst hfz1
  sl_exec
  -- the copying loop
  sl_for (invC11 (F := F) m d L O W (shT (cL L) (sL L))) $$ [Hmw Aa Hb' Ho Hs0 Hs1 HO]
  case region =>
    intro t _
    unfold invC11
    iintro ⟨Hmw, Aa, ⟨%fb, Hb⟩, ⟨%fo, Ho, %hD⟩, Hs0, Hs1, %W', %hW', HO⟩
    have htr : 64 * t.val + 64 ≤ ncopy L := by
      have h1 := t.isLt; have h2 := trips25 L; have h3 := ncopy_dvd L
      change t.val < (k0_t25_loop L).trips at h1
      rw [h2] at h1; omega
    have hnc := ncopy_le L
    have hoff : k0_off47 L t 0 = R0 L + 64 * t.val := by rw [off47_eq]; unfold R0; rfl
    have hsub := chunk_subset L (k0_off47 L t) (k0_off47_inb L t k0_h12) (fun _ => rfl) (64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Aa]; · iexact Aa
    isplitl [Hb]; · iexists _; iexact Hb
    isplitl [Ho]
    · iexists _; isplitl [Ho]; · iexact Ho
      ipureintro
      have e : 64 * (t.val + 1) = 64 * t.val + 64 := by omega
      rw [e]
      refine done_step m d L _ _ _ (64 * t.val) hoff (by rw [off47_eq]; rfl) fo _ hD ?_
      refine hw_copy m d L (m (aLoc11 d)) (fun p q => by rw [hs]; rfl) (by rw [hs]) t.val htr _ _ _ hoff (by rw [off47_eq]; rfl)
        (fun y => (srcS11 L k0_h12 t).view.emb y) (fun y => ?_) _
        (fun y => (congrFun (rt fb _) y).trans ((View.read_apply (v := (srcS11 L k0_h12 t).view) _ y).trans (cast_eq _ _)))
      constructor
      · show k0_off46 L t 0 + 1 * (y 0).val = _; rw [off46_eq]; show 2048 * (L 0).val + 64 * t.val + 1 * (y 0).val = _; omega
      · show k0_off46 L t 1 + 1 * (y 1).val = _; rw [off46_eq]; show 0 + 1 * (y 1).val = _; omega
    isplitl [Hs0]; · iexact Hs0
    isplitl [Hs1]; · iexact Hs1
    iexists (insert (SemLoc.dma cc0_scoped45.sem, (default : HIx 1)) (insert (SemLoc.dma cc0_scoped44.sem, (default : HIx 1)) W')); isplitr
    · ipureintro; intro p hp
      rcases Finset.mem_insert.mp hp with hp | hp
      · exact .inr (hp ▸ rfl)
      rcases Finset.mem_insert.mp hp with hp | hp
      · exact .inr (hp ▸ rfl)
      · exact hW' p hp
    · iexact HO
  · unfold invC11
    isplitl [Hmw]; · iexact Hmw
    isplitl [Aa]; · iexact Aa
    isplitl [Hb']; · iexists _; iexact Hb'
    isplitl [Ho]
    · iexists _; isplitl [Ho]; · iexact Ho
      ipureintro; exact done_zero m d L _
    isplitl [Hs0]; · iexact Hs0
    isplitl [Hs1]; · iexact Hs1
    iexists W; isplitr
    · ipureintro; exact fun p hp => .inl hp
    · iexact HO
  iintro %_ HI
  unfold invC11
  icases HI with ⟨Hmw, Aa, ⟨%fb, Hb⟩, ⟨%fo, Ho, %hD⟩, Hs0, Hs1, %W1, %hW1, HO⟩
  have hDn : Done m d L (ncopy L) fo := by
    have h3 := ncopy_dvd L
    have e : 64 * (k0_t25_loop L).trips = ncopy L := by rw [trips25 L]; omega
    rw [← e]; exact hD
  sl_exec
  -- the remainder of the unrolling by one: no trips
  sl_for (fun (_ : Nat) (_ : PUnit) => (iprop(emp) : sProp 𝕄)) $$ []
  case region =>
    intro t _
    exact absurd t.isLt (by have h0 := trips26 L; change ¬ (t.val < (k0_t26_loop L).trips); omega)
  · iempintro
  iintro %_ -
  sl_exec
  -- the zero-filling loop
  sl_for (invF (F := F) m d L O W) $$ [Hmw Hz Ho Hs64 HO]
  case region =>
    intro t _
    unfold invF
    iintro ⟨Hmw, Hz, ⟨%fo, Ho, %hD⟩, Hs64, %W', %hW', HO⟩
    have hnc := ncopy_le L
    have htr : ncopy L + 64 * t.val + 64 ≤ 2048 := by
      have h1 := t.isLt; have h2 := trips35 L; obtain ⟨c, hc⟩ := ncopy_dvd L
      change t.val < (k0_t35_loop L).trips at h1
      rw [h2] at h1; omega
    have hoff : k0_off66 L t 0 = R0 L + (ncopy L + 64 * t.val) := by rw [off66_eq]; unfold R0; show _ + _ + _ + _ = _; omega
    have hsub := chunk_subset L (k0_off66 L t) (k0_off66_inb L t) (fun _ => rfl) (ncopy L + 64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Hz]; · iexact Hz
    isplitl [Ho]
    · iexists _; isplitl [Ho]; · iexact Ho
      ipureintro
      have e : ncopy L + 64 * (t.val + 1) = (ncopy L + 64 * t.val) + 64 := by omega
      rw [e]
      refine done_step m d L _ _ _ (ncopy L + 64 * t.val) hoff (by rw [off66_eq]; rfl) fo _ hD ?_
      exact hw_zero m d L t.val htr _ _ _ (by rw [hoff]; omega) _ (fun y => rfl)
    isplitl [Hs64]; · iexact Hs64
    iexists (insert (SemLoc.dma cc0_scoped64.sem, (default : HIx 1)) W'); isplitr
    · ipureintro; intro p hp
      rcases Finset.mem_insert.mp hp with hp | hp
      · exact .inr (hp ▸ rfl)
      · exact hW' p hp
    · iexact HO
  · unfold invF
    isplitl [Hmw]; · iexact Hmw
    isplitl [Hz]; · iexact Hz
    isplitl [Ho]
    · iexists _; isplitl [Ho]; · iexact Ho
      ipureintro; rw [Nat.mul_zero, Nat.add_zero]; exact hDn
    isplitl [Hs64]; · iexact Hs64
    iexists W1; isplitr
    · ipureintro; exact hW1
    · iexact HO
  iintro %_ HI
  unfold invF
  icases HI with ⟨Hmw, Hz, ⟨%fo2, Ho, %hD2⟩, Hs64, %W2, %hW2, HO⟩
  have hAll : Done m d L 2048 fo2 := by
    have hnc := ncopy_le L
    obtain ⟨c, hc⟩ := ncopy_dvd L
    have e : ncopy L + 64 * (k0_t35_loop L).trips = 2048 := by rw [trips35 L]; omega
    rw [← e]; exact hD2
  sl_exec
  sl_for (fun (_ : Nat) (_ : PUnit) => (iprop(emp) : sProp 𝕄)) $$ []
  case region =>
    intro t _
    exact absurd t.isLt (by have h0 := trips36 L; change ¬ (t.val < (k0_t36_loop L).trips); omega)
  · iempintro
  iintro %_ -
  sl_exec
  sl_step
  -- hand everything back
  isplitl [A0 A1 A2 A3 A4 A5 A6 A7 A8 A9 A10 A12 A13 A14 A15 Aa Ho]
  · isplitl [A0 A1 A2 A3 A4 A5 A6 A7 A8 A9 A10 A12 A13 A14 A15 Aa]
    ·
      isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [Aa]; · iapply (Entails.of_eq (pts_a11 (F := F) d L _ _)); iexact Aa
      isplitl [A12]; · iexact A12
      isplitl [A13]; · iexact A13
      isplitl [A14]; · iexact A14
      iexact A15
    · iapply (Entails.of_eq (pointsTo_congr (ℓ := oLoc d) (done_all m d L fo2 hAll))); iexact Ho
  isplitl [Hb Hz Hbufs]
  · isplitl [Hb]; · iexists _; iapply (Entails.of_eq (pts_b (F := F) d L _)); iexact Hb
    isplitl [Hz]; · iexists _; iapply (Entails.of_eq (pts_z (F := F) d L _)); iexact Hz
    iexact Hbufs
  isplitl [Hs0 Hs1 Hs64 Hsems]
  · isplitl [Hs0]; · iexact Hs0
    isplitl [Hs1]; · iexact Hs1
    isplitl [Hs64]; · iexact Hs64
    iexact Hsems
  iexists W2; isplitr
  · ipureintro; exact hW2
  · iexact HO

end Cert.Proof.KI

end
-- ==== Proof.KITile12.lean ====
/-
  The task on subcore 12 (of either SparseCore): it serves sequence 12, of 1024 rows. Its second scratch buffer is
  zeroed; the rows of the sequence that fall in its half are copied, 64 at a time, through the first scratch buffer
  into its block of the output; the rest of the block is filled from the zeroed buffer. Each loop keeps "the first so
  many rows of the block hold the padded array".
-/
import proofs.«212850_g39865886441476_cont_8to1_b_277_5_alg».proof.Proof.KITileCommon

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "a0W" => (Memref.whole Cert.KernelIdeal.main_arg0_scv : Memref Cert.KernelIdeal.sig Kind.scVector Space.hbm Cert.KernelIdeal.S4096x512 EltTy.f32)
local notation "a1W" => (Memref.whole Cert.KernelIdeal.main_arg1_scv : Memref Cert.KernelIdeal.sig Kind.scVector Space.hbm Cert.KernelIdeal.S3840x512 EltTy.f32)
local notation "a2W" => (Memref.whole Cert.KernelIdeal.main_arg2_scv : Memref Cert.KernelIdeal.sig Kind.scVector Space.hbm Cert.KernelIdeal.S3584x512 EltTy.f32)
local notation "a3W" => (Memref.whole Cert.KernelIdeal.main_arg3_scv : Memref Cert.KernelIdeal.sig Kind.scVector Space.hbm Cert.KernelIdeal.S3328x512 EltTy.f32)
local notation "a4W" => (Memref.whole Cert.KernelIdeal.main_arg4_scv : Memref Cert.KernelIdeal.sig Kind.scVector Space.hbm Cert.KernelIdeal.S3072x512 EltTy.f32)
local notation "a5W" => (Memref.whole Cert.KernelIdeal.main_arg5_scv : Memref Cert.KernelIdeal.sig Kind.scVector Space.hbm Cert.KernelIdeal.S2816x512 EltTy.f32)
local notation "a6W" => (Memref.whole Cert.KernelIdeal.main_arg6_scv : Memref Cert.KernelIdeal.sig Kind.scVector Space.hbm Cert.KernelIdeal.S2560x512 EltTy.f32)
local notation "a7W" => (Memref.whole Cert.KernelIdeal.main_arg7_scv : Memref Cert.KernelIdeal.sig Kind.scVector Space.hbm Cert.KernelIdeal.S2304x512 EltTy.f32)
local notation "a8W" => (Memref.whole Cert.KernelIdeal.main_arg8_scv : Memref Cert.KernelIdeal.sig Kind.scVector Space.hbm Cert.KernelIdeal.S2048x512 EltTy.f32)
local notation "a9W" => (Memref.whole Cert.KernelIdeal.main_arg9_scv : Memref Cert.KernelIdeal.sig Kind.scVector Space.hbm Cert.KernelIdeal.S1792x512 EltTy.f32)
local notation "a10W" => (Memref.whole Cert.KernelIdeal.main_arg10_scv : Memref Cert.KernelIdeal.sig Kind.scVector Space.hbm Cert.KernelIdeal.S1536x512 EltTy.f32)
local notation "a11W" => (Memref.whole Cert.KernelIdeal.main_arg11_scv : Memref Cert.KernelIdeal.sig Kind.scVector Space.hbm Cert.KernelIdeal.S1280x512 EltTy.f32)
local notation "a12W" => (Memref.whole Cert.KernelIdeal.main_arg12_scv : Memref Cert.KernelIdeal.sig Kind.scVector Space.hbm Cert.KernelIdeal.S1024x512 EltTy.f32)
local notation "a13W" => (Memref.whole Cert.KernelIdeal.main_arg13_scv : Memref Cert.KernelIdeal.sig Kind.scVector Space.hbm Cert.KernelIdeal.S768x512 EltTy.f32)
local notation "a14W" => (Memref.whole Cert.KernelIdeal.main_arg14_scv : Memref Cert.KernelIdeal.sig Kind.scVector Space.hbm Cert.KernelIdeal.S512x512 EltTy.f32)
local notation "a15W" => (Memref.whole Cert.KernelIdeal.main_arg15_scv : Memref Cert.KernelIdeal.sig Kind.scVector Space.hbm Cert.KernelIdeal.S256x512 EltTy.f32)
local notation "oW" => (Memref.whole Cert.KernelIdeal.main_v0_scv : Memref Cert.KernelIdeal.sig Kind.scVector Space.hbm Cert.KernelIdeal.S65536x512 EltTy.f32)
local notation "bW" => (Memref.whole Cert.KernelIdeal.cc0_scratch0 : Memref Cert.KernelIdeal.sig Kind.scVector Space.vmem Cert.KernelIdeal.S64x512 EltTy.f32)
local notation "zW" => (Memref.whole Cert.KernelIdeal.cc0_scratch1 : Memref Cert.KernelIdeal.sig Kind.scVector Space.vmem Cert.KernelIdeal.S64x512 EltTy.f32)

variable (m : (ℓ : Loc nD τ sig) → Buf (Elt F) ℓ) (d : Dev nD)

omit [FloatOps F] in
theorem ownSems0_V12 (L : grid0.Coords) :
    (ownSems0 (thr d L) : sProp 𝕄)
      = iprop(semVal (thr d L, SemLoc.dma cc0_scoped48.sem) 0 ∗ semVal (thr d L, SemLoc.dma cc0_scoped49.sem) 0 ∗ semVal (thr d L, SemLoc.dma cc0_scoped64.sem) 0
          ∗ bigSep ((((ownCells (thr d L)).erase (thr d L, SemLoc.dma cc0_scoped48.sem)).erase (thr d L, SemLoc.dma cc0_scoped49.sem)).erase (thr d L, SemLoc.dma cc0_scoped64.sem))
              fun g => semVal g 0) := by
  unfold SparseCore.Cfg.ownSems0
  rw [SparseCore.bigSep_erase' ((mem_ownCells (g := (thr d L, SemLoc.dma cc0_scoped48.sem))).mpr ⟨rfl, by
      show (SemLoc.dma cc0_scoped48.sem : SemLoc sig).isScoped .scVector = true; decide⟩),
    SparseCore.bigSep_erase' (Finset.mem_erase.mpr ⟨by simp; decide, (mem_ownCells (g := (thr d L, SemLoc.dma cc0_scoped49.sem))).mpr ⟨rfl, by
      show (SemLoc.dma cc0_scoped49.sem : SemLoc sig).isScoped .scVector = true; decide⟩⟩),
    SparseCore.bigSep_erase' (Finset.mem_erase.mpr ⟨by simp; decide, Finset.mem_erase.mpr ⟨by simp; decide,
      (mem_ownCells (g := (thr d L, SemLoc.dma cc0_scoped64.sem))).mpr ⟨rfl, by show (SemLoc.dma cc0_scoped64.sem : SemLoc sig).isScoped .scVector = true; decide⟩⟩⟩)]

/-- The source chunk of trip `t`, as the program slices it. -/
abbrev srcS12 (L : grid0.Coords) (h : k0_cond13 L = 1#1) (t : Fin (k0_t27_loop L).trips) : Memref sig .scVector .hbm S64x512 .f32 :=
  (a12W).slice (Rect.unit (s := S1024x512) (k0_off50 L t) S64x512.size (k0_off50_inb L t h)) (fun _ => rfl)

omit [FloatOps F] in
theorem pts_a12 (L : grid0.Coords) (q : PosShare TreeShare) (f : Buf (Elt F) (aLoc12 d)) :
    ((a12W).view.loc (thr d L) ↦{q} f : sProp 𝕄) = aLoc12 d ↦{q} f := rfl

/-- The copying loop's invariant before trip `t`: the first `64 t` rows of the block hold the padded array. -/
def invC12 (L : grid0.Coords) (O : CellTallies nD τ sig (HIx 1)) (W : Waits sig (HIx 1)) (q : PosShare TreeShare) (t : Nat) (_ : PUnit) : sProp 𝕄 :=
  iprop(Transfers.MayWaits (thr d L) (none : HIx 1) O
    ∗ ((a12W).view.loc (thr d L) ↦{q} m (aLoc12 d))
    ∗ (∃ fb, (bW).view.loc (thr d L) ↦{fullShare} fb)
    ∗ (∃ fo, (oLoc d ↦[blkSet (bI L)]{fullShare} fo) ∗ ⌜Done m d L (64 * t) fo⌝)
    ∗ semVal (thr d L, SemLoc.dma cc0_scoped48.sem) 0
    ∗ semVal (thr d L, SemLoc.dma cc0_scoped49.sem) 0
    ∗ ∃ W', ⌜∀ p ∈ W', p ∈ W ∨ p.2 = none⌝ ∗ owes (thr d L) O W')

theorem tile_s12 (hF : (K (F := F)).Facts) (L : grid0.Coords) (hs : (L 1).val = 12) (O : CellTallies nD τ sig (HIx 1)) (W : Waits sig (HIx 1)) (hO : ∀ g, O g none = 0) :
    TileSpec m d L O W := by
  have k0_h1 : ¬ k0_cond1 L = 1#1 := fun h => absurd ((cond1_iff L).mp h) (by omega)
  have k0_h2 : ¬ k0_cond2 L = 1#1 := fun h => absurd ((cond2_iff L).mp h) (by omega)
  have k0_h3 : ¬ k0_cond3 L = 1#1 := fun h => absurd ((cond3_iff L).mp h) (by omega)
  have k0_h4 : ¬ k0_cond4 L = 1#1 := fun h => absurd ((cond4_iff L).mp h) (by omega)
  have k0_h5 : ¬ k0_cond5 L = 1#1 := fun h => absurd ((cond5_iff L).mp h) (by omega)
  have k0_h6 : ¬ k0_cond6 L = 1#1 := fun h => absurd ((cond6_iff L).mp h) (by omega)
  have k0_h7 : ¬ k0_cond7 L = 1#1 := fun h => absurd ((cond7_iff L).mp h) (by omega)
  have k0_h8 : ¬ k0_cond8 L = 1#1 := fun h => absurd ((cond8_iff L).mp h) (by omega)
  have k0_h9 : ¬ k0_cond9 L = 1#1 := fun h => absurd ((cond9_iff L).mp h) (by omega)
  have k0_h10 : ¬ k0_cond10 L = 1#1 := fun h => absurd ((cond10_iff L).mp h) (by omega)
  have k0_h11 : ¬ k0_cond11 L = 1#1 := fun h => absurd ((cond11_iff L).mp h) (by omega)
  have k0_h12 : ¬ k0_cond12 L = 1#1 := fun h => absurd ((cond12_iff L).mp h) (by omega)
  have k0_h13 : k0_cond13 L = 1#1 := (cond13_iff L).mpr hs
  have k0_h14 : ¬ k0_cond14 L = 1#1 := fun h => absurd ((cond14_iff L).mp h) (by omega)
  have k0_h15 : ¬ k0_cond15 L = 1#1 := fun h => absurd ((cond15_iff L).mp h) (by omega)
  have k0_h16 : ¬ k0_cond16 L = 1#1 := fun h => absurd ((cond16_iff L).mp h) (by omega)
  have rt : ∀ (fb rd : (cc0_scratch0 : Ref sig .scVector).ty.Contents (Elt F)),
      ReadAs.same.apply (View.read (Elt F) (View.whole (cc0_scratch0 : Ref sig .scVector)) (View.write (Elt F) (View.whole (cc0_scratch0 : Ref sig .scVector)) fb (ReadAs.same.apply rd) Finset.univ)) = rd :=
    fun fb rd => (congrArg (View.read (Elt F) (View.whole (cc0_scratch0 : Ref sig .scVector))) (View.write_whole_univ (Val := Elt F) (cc0_scratch0 : Ref sig .scVector) fb rd)).trans (View.read_whole _ rd)
  unfold TileSpec
  simp only [cc0__pad_body_eq_skeleton]; unfold cc0__pad_body_skel
  rw [(K (F := F)).scopedBufs_V hF d _ _, SparseCore.Cfg.scopedSems0_V (Val := Elt F) d _ _, ownSems0_V12, ownBufs_V]
  unfold argsAt
  iintro ⟨#Hlv, -, ⟨⟨A0, A1, A2, A3, A4, A5, A6, A7, A8, A9, A10, A11, A12, A13, A14, A15⟩, Ho⟩, ⟨⟨%fb, Hb⟩, ⟨%fz, Hz⟩, Hbufs⟩, ⟨Hs0, Hs1, Hs64, Hsems⟩, HO⟩
  ihave Hmw := ((K (F := F)).mayWaits_none (thr := thr d L) hO) $$ Hlv
  ihave Aa := (Entails.of_eq (pts_a12 (F := F) d L _ _).symm) $$ A12
  ihave Hb' := (Entails.of_eq (pts_b (F := F) d L _).symm) $$ Hb
  ihave Hz' := (Entails.of_eq (pts_z (F := F) d L _).symm) $$ Hz
  sl_exec
  -- the zeroing loops
  sl_for (invZ1 (F := F) d L) $$ [Hz']
  case region =>
    intro k1 _
    unfold invZ1
    iintro ⟨%f, Hz, %hf⟩
    sl_exec
    sl_for (invZ2 (F := F) d L k1) $$ [Hz]
    case region =>
      intro k2 _
      unfold invZ2
      iintro ⟨%f, Hz, %hf⟩
      sl_exec
      sl_step
      iexists _; isplitl [Hz]; · iexact Hz
      ipureintro
      exact invZ2_step k1 k2 f hf
    · unfold invZ2
      iexists f; isplitl [Hz]; · iexact Hz
      ipureintro
      exact invZ2_init k1 f hf
    iintro %_ HI
    unfold invZ2
    icases HI with ⟨%f', Hz, %hf'⟩
    sl_exec
    sl_step
    iexists f'; isplitl [Hz]; · iexact Hz
    ipureintro
    exact invZ1_step k1 f' hf'
  · unfold invZ1
    iexists fz; isplitl [Hz']; · iexact Hz'
    ipureintro
    intro r q h; omega
  iintro %_ HI
  unfold invZ1
  icases HI with ⟨%fz1, Hz, %hfz⟩
  have hfz1 : fz1 = fun _ => zF (F := F) := invZ1_final fz1 hfz
  subst hfz1
  sl_exec
  -- the copying loop
  sl_for (invC12 (F := F) m d L O W (shT (cL L) (sL L))) $$ [Hmw Aa Hb' Ho Hs0 Hs1 HO]
  case region =>
    intro t _
    unfold invC12
    iintro ⟨Hmw, Aa, ⟨%fb, Hb⟩, ⟨%fo, Ho, %hD⟩, Hs0, Hs1, %W', %hW', HO⟩
    have htr : 64 * t.val + 64 ≤ ncopy L := by
      have h1 := t.isLt; have h2 := trips27 L; have h3 := ncopy_dvd L
      change t.val < (k0_t27_loop L).trips at h1
      rw [h2] at h1; omega
    have hnc := ncopy_le L
    have hoff : k0_off51 L t 0 = R0 L + 64 * t.val := by rw [off51_eq]; unfold R0; rfl
    have hsub := chunk_subset L (k0_off51 L t) (k0_off51_inb L t k0_h13) (fun _ => rfl) (64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Aa]; · iexact Aa
    isplitl [Hb]; · iexists _; iexact Hb
    isplitl [Ho]
    · iexists _; isplitl [Ho]; · iexact Ho
      ipureintro
      have e : 64 * (t.val + 1) = 64 * t.val + 64 := by omega
      rw [e]
      refine done_step m d L _ _ _ (64 * t.val) hoff (by rw [off51_eq]; rfl) fo _ hD ?_
      refine hw_copy m d L (m (aLoc12 d)) (fun p q => by rw [hs]; rfl) (by rw [hs]) t.val htr _ _ _ hoff (by rw [off51_eq]; rfl)
        (fun y => (srcS12 L k0_h13 t).view.emb y) (fun y => ?_) _
        (fun y => (congrFun (rt fb _) y).trans ((View.read_apply (v := (srcS12 L k0_h13 t).view) _ y).trans (cast_eq _ _)))
      constructor
      · show k0_off50 L t 0 + 1 * (y 0).val = _; rw [off50_eq]; show 2048 * (L 0).val + 64 * t.val + 1 * (y 0).val = _; omega
      · show k0_off50 L t 1 + 1 * (y 1).val = _; rw [off50_eq]; show 0 + 1 * (y 1).val = _; omega
    isplitl [Hs0]; · iexact Hs0
    isplitl [Hs1]; · iexact Hs1
    iexists (insert (SemLoc.dma cc0_scoped49.sem, (default : HIx 1)) (insert (SemLoc.dma cc0_scoped48.sem, (default : HIx 1)) W')); isplitr
    · ipureintro; intro p hp
      rcases Finset.mem_insert.mp hp with hp | hp
      · exact .inr (hp ▸ rfl)
      rcases Finset.mem_insert.mp hp with hp | hp
      · exact .inr (hp ▸ rfl)
      · exact hW' p hp
    · iexact HO
  · unfold invC12
    isplitl [Hmw]; · iexact Hmw
    isplitl [Aa]; · iexact Aa
    isplitl [Hb']; · iexists _; iexact Hb'
    isplitl [Ho]
    · iexists _; isplitl [Ho]; · iexact Ho
      ipureintro; exact done_zero m d L _
    isplitl [Hs0]; · iexact Hs0
    isplitl [Hs1]; · iexact Hs1
    iexists W; isplitr
    · ipureintro; exact fun p hp => .inl hp
    · iexact HO
  iintro %_ HI
  unfold invC12
  icases HI with ⟨Hmw, Aa, ⟨%fb, Hb⟩, ⟨%fo, Ho, %hD⟩, Hs0, Hs1, %W1, %hW1, HO⟩
  have hDn : Done m d L (ncopy L) fo := by
    have h3 := ncopy_dvd L
    have e : 64 * (k0_t27_loop L).trips = ncopy L := by rw [trips27 L]; omega
    rw [← e]; exact hD
  sl_exec
  -- the remainder of the unrolling by one: no trips
  sl_for (fun (_ : Nat) (_ : PUnit) => (iprop(emp) : sProp 𝕄)) $$ []
  case region =>
    intro t _
    exact absurd t.isLt (by have h0 := trips28 L; change ¬ (t.val < (k0_t28_loop L).trips); omega)
  · iempintro
  iintro %_ -
  sl_exec
  -- the zero-filling loop
  sl_for (invF (F := F) m d L O W) $$ [Hmw Hz Ho Hs64 HO]
  case region =>
    intro t _
    unfold invF
    iintro ⟨Hmw, Hz, ⟨%fo, Ho, %hD⟩, Hs64, %W', %hW', HO⟩
    have hnc := ncopy_le L
    have htr : ncopy L + 64 * t.val + 64 ≤ 2048 := by
      have h1 := t.isLt; have h2 := trips35 L; obtain ⟨c, hc⟩ := ncopy_dvd L
      change t.val < (k0_t35_loop L).trips at h1
      rw [h2] at h1; omega
    have hoff : k0_off66 L t 0 = R0 L + (ncopy L + 64 * t.val) := by rw [off66_eq]; unfold R0; show _ + _ + _ + _ = _; omega
    have hsub := chunk_subset L (k0_off66 L t) (k0_off66_inb L t) (fun _ => rfl) (ncopy L + 64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Hz]; · iexact Hz
    isplitl [Ho]
    · iexists _; isplitl [Ho]; · iexact Ho
      ipureintro
      have e : ncopy L + 64 * (t.val + 1) = (ncopy L + 64 * t.val) + 64 := by omega
      rw [e]
      refine done_step m d L _ _ _ (ncopy L + 64 * t.val) hoff (by rw [off66_eq]; rfl) fo _ hD ?_
      exact hw_zero m d L t.val htr _ _ _ (by rw [hoff]; omega) _ (fun y => rfl)
    isplitl [Hs64]; · iexact Hs64
    iexists (insert (SemLoc.dma cc0_scoped64.sem, (default : HIx 1)) W'); isplitr
    · ipureintro; intro p hp
      rcases Finset.mem_insert.mp hp with hp | hp
      · exact .inr (hp ▸ rfl)
      · exact hW' p hp
    · iexact HO
  · unfold invF
    isplitl [Hmw]; · iexact Hmw
    isplitl [Hz]; · iexact Hz
    isplitl [Ho]
    · iexists _; isplitl [Ho]; · iexact Ho
      ipureintro; rw [Nat.mul_zero, Nat.add_zero]; exact hDn
    isplitl [Hs64]; · iexact Hs64
    iexists W1; isplitr
    · ipureintro; exact hW1
    · iexact HO
  iintro %_ HI
  unfold invF
  icases HI with ⟨Hmw, Hz, ⟨%fo2, Ho, %hD2⟩, Hs64, %W2, %hW2, HO⟩
  have hAll : Done m d L 2048 fo2 := by
    have hnc := ncopy_le L
    obtain ⟨c, hc⟩ := ncopy_dvd L
    have e : ncopy L + 64 * (k0_t35_loop L).trips = 2048 := by rw [trips35 L]; omega
    rw [← e]; exact hD2
  sl_exec
  sl_for (fun (_ : Nat) (_ : PUnit) => (iprop(emp) : sProp 𝕄)) $$ []
  case region =>
    intro t _
    exact absurd t.isLt (by have h0 := trips36 L; change ¬ (t.val < (k0_t36_loop L).trips); omega)
  · iempintro
  iintro %_ -
  sl_exec
  sl_step
  -- hand everything back
  isplitl [A0 A1 A2 A3 A4 A5 A6 A7 A8 A9 A10 A11 A13 A14 A15 Aa Ho]
  · isplitl [A0 A1 A2 A3 A4 A5 A6 A7 A8 A9 A10 A11 A13 A14 A15 Aa]
    ·
      isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [Aa]; · iapply (Entails.of_eq (pts_a12 (F := F) d L _ _)); iexact Aa
      isplitl [A13]; · iexact A13
      isplitl [A14]; · iexact A14
      iexact A15
    · iapply (Entails.of_eq (pointsTo_congr (ℓ := oLoc d) (done_all m d L fo2 hAll))); iexact Ho
  isplitl [Hb Hz Hbufs]
  · isplitl [Hb]; · iexists _; iapply (Entails.of_eq (pts_b (F := F) d L _)); iexact Hb
    isplitl [Hz]; · iexists _; iapply (Entails.of_eq (pts_z (F := F) d L _)); iexact Hz
    iexact Hbufs
  isplitl [Hs0 Hs1 Hs64 Hsems]
  · isplitl [Hs0]; · iexact Hs0
    isplitl [Hs1]; · iexact Hs1
    isplitl [Hs64]; · iexact Hs64
    iexact Hsems
  iexists W2; isplitr
  · ipureintro; exact hW2
  · iexact HO

end Cert.Proof.KI

end
-- ==== Proof.KITile13.lean ====
/-
  The task on subcore 13 (of either SparseCore): it serves sequence 13, of 768 rows. Its second scratch buffer is
  zeroed; the rows of the sequence that fall in its half are copied, 64 at a time, through the first scratch buffer
  into its block of the output; the rest of the block is filled from the zeroed buffer. Each loop keeps "the first so
  many rows of the block hold the padded array".
-/
import proofs.«212850_g39865886441476_cont_8to1_b_277_5_alg».proof.Proof.KITileCommon

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "a0W" => (Memref.whole Cert.KernelIdeal.main_arg0_scv : Memref Cert.KernelIdeal.sig Kind.scVector Space.hbm Cert.KernelIdeal.S4096x512 EltTy.f32)
local notation "a1W" => (Memref.whole Cert.KernelIdeal.main_arg1_scv : Memref Cert.KernelIdeal.sig Kind.scVector Space.hbm Cert.KernelIdeal.S3840x512 EltTy.f32)
local notation "a2W" => (Memref.whole Cert.KernelIdeal.main_arg2_scv : Memref Cert.KernelIdeal.sig Kind.scVector Space.hbm Cert.KernelIdeal.S3584x512 EltTy.f32)
local notation "a3W" => (Memref.whole Cert.KernelIdeal.main_arg3_scv : Memref Cert.KernelIdeal.sig Kind.scVector Space.hbm Cert.KernelIdeal.S3328x512 EltTy.f32)
local notation "a4W" => (Memref.whole Cert.KernelIdeal.main_arg4_scv : Memref Cert.KernelIdeal.sig Kind.scVector Space.hbm Cert.KernelIdeal.S3072x512 EltTy.f32)
local notation "a5W" => (Memref.whole Cert.KernelIdeal.main_arg5_scv : Memref Cert.KernelIdeal.sig Kind.scVector Space.hbm Cert.KernelIdeal.S2816x512 EltTy.f32)
local notation "a6W" => (Memref.whole Cert.KernelIdeal.main_arg6_scv : Memref Cert.KernelIdeal.sig Kind.scVector Space.hbm Cert.KernelIdeal.S2560x512 EltTy.f32)
local notation "a7W" => (Memref.whole Cert.KernelIdeal.main_arg7_scv : Memref Cert.KernelIdeal.sig Kind.scVector Space.hbm Cert.KernelIdeal.S2304x512 EltTy.f32)
local notation "a8W" => (Memref.whole Cert.KernelIdeal.main_arg8_scv : Memref Cert.KernelIdeal.sig Kind.scVector Space.hbm Cert.KernelIdeal.S2048x512 EltTy.f32)
local notation "a9W" => (Memref.whole Cert.KernelIdeal.main_arg9_scv : Memref Cert.KernelIdeal.sig Kind.scVector Space.hbm Cert.KernelIdeal.S1792x512 EltTy.f32)
local notation "a10W" => (Memref.whole Cert.KernelIdeal.main_arg10_scv : Memref Cert.KernelIdeal.sig Kind.scVector Space.hbm Cert.KernelIdeal.S1536x512 EltTy.f32)
local notation "a11W" => (Memref.whole Cert.KernelIdeal.main_arg11_scv : Memref Cert.KernelIdeal.sig Kind.scVector Space.hbm Cert.KernelIdeal.S1280x512 EltTy.f32)
local notation "a12W" => (Memref.whole Cert.KernelIdeal.main_arg12_scv : Memref Cert.KernelIdeal.sig Kind.scVector Space.hbm Cert.KernelIdeal.S1024x512 EltTy.f32)
local notation "a13W" => (Memref.whole Cert.KernelIdeal.main_arg13_scv : Memref Cert.KernelIdeal.sig Kind.scVector Space.hbm Cert.KernelIdeal.S768x512 EltTy.f32)
local notation "a14W" => (Memref.whole Cert.KernelIdeal.main_arg14_scv : Memref Cert.KernelIdeal.sig Kind.scVector Space.hbm Cert.KernelIdeal.S512x512 EltTy.f32)
local notation "a15W" => (Memref.whole Cert.KernelIdeal.main_arg15_scv : Memref Cert.KernelIdeal.sig Kind.scVector Space.hbm Cert.KernelIdeal.S256x512 EltTy.f32)
local notation "oW" => (Memref.whole Cert.KernelIdeal.main_v0_scv : Memref Cert.KernelIdeal.sig Kind.scVector Space.hbm Cert.KernelIdeal.S65536x512 EltTy.f32)
local notation "bW" => (Memref.whole Cert.KernelIdeal.cc0_scratch0 : Memref Cert.KernelIdeal.sig Kind.scVector Space.vmem Cert.KernelIdeal.S64x512 EltTy.f32)
local notation "zW" => (Memref.whole Cert.KernelIdeal.cc0_scratch1 : Memref Cert.KernelIdeal.sig Kind.scVector Space.vmem Cert.KernelIdeal.S64x512 EltTy.f32)

variable (m : (ℓ : Loc nD τ sig) → Buf (Elt F) ℓ) (d : Dev nD)

omit [FloatOps F] in
theorem ownSems0_V13 (L : grid0.Coords) :
    (ownSems0 (thr d L) : sProp 𝕄)
      = iprop(semVal (thr d L, SemLoc.dma cc0_scoped52.sem) 0 ∗ semVal (thr d L, SemLoc.dma cc0_scoped53.sem) 0 ∗ semVal (thr d L, SemLoc.dma cc0_scoped64.sem) 0
          ∗ bigSep ((((ownCells (thr d L)).erase (thr d L, SemLoc.dma cc0_scoped52.sem)).erase (thr d L, SemLoc.dma cc0_scoped53.sem)).erase (thr d L, SemLoc.dma cc0_scoped64.sem))
              fun g => semVal g 0) := by
  unfold SparseCore.Cfg.ownSems0
  rw [SparseCore.bigSep_erase' ((mem_ownCells (g := (thr d L, SemLoc.dma cc0_scoped52.sem))).mpr ⟨rfl, by
      show (SemLoc.dma cc0_scoped52.sem : SemLoc sig).isScoped .scVector = true; decide⟩),
    SparseCore.bigSep_erase' (Finset.mem_erase.mpr ⟨by simp; decide, (mem_ownCells (g := (thr d L, SemLoc.dma cc0_scoped53.sem))).mpr ⟨rfl, by
      show (SemLoc.dma cc0_scoped53.sem : SemLoc sig).isScoped .scVector = true; decide⟩⟩),
    SparseCore.bigSep_erase' (Finset.mem_erase.mpr ⟨by simp; decide, Finset.mem_erase.mpr ⟨by simp; decide,
      (mem_ownCells (g := (thr d L, SemLoc.dma cc0_scoped64.sem))).mpr ⟨rfl, by show (SemLoc.dma cc0_scoped64.sem : SemLoc sig).isScoped .scVector = true; decide⟩⟩⟩)]

/-- The source chunk of trip `t`, as the program slices it. -/
abbrev srcS13 (L : grid0.Coords) (h : k0_cond14 L = 1#1) (t : Fin (k0_t29_loop L).trips) : Memref sig .scVector .hbm S64x512 .f32 :=
  (a13W).slice (Rect.unit (s := S768x512) (k0_off54 L t) S64x512.size (k0_off54_inb L t h)) (fun _ => rfl)

omit [FloatOps F] in
theorem pts_a13 (L : grid0.Coords) (q : PosShare TreeShare) (f : Buf (Elt F) (aLoc13 d)) :
    ((a13W).view.loc (thr d L) ↦{q} f : sProp 𝕄) = aLoc13 d ↦{q} f := rfl

/-- The copying loop's invariant before trip `t`: the first `64 t` rows of the block hold the padded array. -/
def invC13 (L : grid0.Coords) (O : CellTallies nD τ sig (HIx 1)) (W : Waits sig (HIx 1)) (q : PosShare TreeShare) (t : Nat) (_ : PUnit) : sProp 𝕄 :=
  iprop(Transfers.MayWaits (thr d L) (none : HIx 1) O
    ∗ ((a13W).view.loc (thr d L) ↦{q} m (aLoc13 d))
    ∗ (∃ fb, (bW).view.loc (thr d L) ↦{fullShare} fb)
    ∗ (∃ fo, (oLoc d ↦[blkSet (bI L)]{fullShare} fo) ∗ ⌜Done m d L (64 * t) fo⌝)
    ∗ semVal (thr d L, SemLoc.dma cc0_scoped52.sem) 0
    ∗ semVal (thr d L, SemLoc.dma cc0_scoped53.sem) 0
    ∗ ∃ W', ⌜∀ p ∈ W', p ∈ W ∨ p.2 = none⌝ ∗ owes (thr d L) O W')

theorem tile_s13 (hF : (K (F := F)).Facts) (L : grid0.Coords) (hs : (L 1).val = 13) (O : CellTallies nD τ sig (HIx 1)) (W : Waits sig (HIx 1)) (hO : ∀ g, O g none = 0) :
    TileSpec m d L O W := by
  have k0_h1 : ¬ k0_cond1 L = 1#1 := fun h => absurd ((cond1_iff L).mp h) (by omega)
  have k0_h2 : ¬ k0_cond2 L = 1#1 := fun h => absurd ((cond2_iff L).mp h) (by omega)
  have k0_h3 : ¬ k0_cond3 L = 1#1 := fun h => absurd ((cond3_iff L).mp h) (by omega)
  have k0_h4 : ¬ k0_cond4 L = 1#1 := fun h => absurd ((cond4_iff L).mp h) (by omega)
  have k0_h5 : ¬ k0_cond5 L = 1#1 := fun h => absurd ((cond5_iff L).mp h) (by omega)
  have k0_h6 : ¬ k0_cond6 L = 1#1 := fun h => absurd ((cond6_iff L).mp h) (by omega)
  have k0_h7 : ¬ k0_cond7 L = 1#1 := fun h => absurd ((cond7_iff L).mp h) (by omega)
  have k0_h8 : ¬ k0_cond8 L = 1#1 := fun h => absurd ((cond8_iff L).mp h) (by omega)
  have k0_h9 : ¬ k0_cond9 L = 1#1 := fun h => absurd ((cond9_iff L).mp h) (by omega)
  have k0_h10 : ¬ k0_cond10 L = 1#1 := fun h => absurd ((cond10_iff L).mp h) (by omega)
  have k0_h11 : ¬ k0_cond11 L = 1#1 := fun h => absurd ((cond11_iff L).mp h) (by omega)
  have k0_h12 : ¬ k0_cond12 L = 1#1 := fun h => absurd ((cond12_iff L).mp h) (by omega)
  have k0_h13 : ¬ k0_cond13 L = 1#1 := fun h => absurd ((cond13_iff L).mp h) (by omega)
  have k0_h14 : k0_cond14 L = 1#1 := (cond14_iff L).mpr hs
  have k0_h15 : ¬ k0_cond15 L = 1#1 := fun h => absurd ((cond15_iff L).mp h) (by omega)
  have k0_h16 : ¬ k0_cond16 L = 1#1 := fun h => absurd ((cond16_iff L).mp h) (by omega)
  have rt : ∀ (fb rd : (cc0_scratch0 : Ref sig .scVector).ty.Contents (Elt F)),
      ReadAs.same.apply (View.read (Elt F) (View.whole (cc0_scratch0 : Ref sig .scVector)) (View.write (Elt F) (View.whole (cc0_scratch0 : Ref sig .scVector)) fb (ReadAs.same.apply rd) Finset.univ)) = rd :=
    fun fb rd => (congrArg (View.read (Elt F) (View.whole (cc0_scratch0 : Ref sig .scVector))) (View.write_whole_univ (Val := Elt F) (cc0_scratch0 : Ref sig .scVector) fb rd)).trans (View.read_whole _ rd)
  unfold TileSpec
  simp only [cc0__pad_body_eq_skeleton]; unfold cc0__pad_body_skel
  rw [(K (F := F)).scopedBufs_V hF d _ _, SparseCore.Cfg.scopedSems0_V (Val := Elt F) d _ _, ownSems0_V13, ownBufs_V]
  unfold argsAt
  iintro ⟨#Hlv, -, ⟨⟨A0, A1, A2, A3, A4, A5, A6, A7, A8, A9, A10, A11, A12, A13, A14, A15⟩, Ho⟩, ⟨⟨%fb, Hb⟩, ⟨%fz, Hz⟩, Hbufs⟩, ⟨Hs0, Hs1, Hs64, Hsems⟩, HO⟩
  ihave Hmw := ((K (F := F)).mayWaits_none (thr := thr d L) hO) $$ Hlv
  ihave Aa := (Entails.of_eq (pts_a13 (F := F) d L _ _).symm) $$ A13
  ihave Hb' := (Entails.of_eq (pts_b (F := F) d L _).symm) $$ Hb
  ihave Hz' := (Entails.of_eq (pts_z (F := F) d L _).symm) $$ Hz
  sl_exec
  -- the zeroing loops
  sl_for (invZ1 (F := F) d L) $$ [Hz']
  case region =>
    intro k1 _
    unfold invZ1
    iintro ⟨%f, Hz, %hf⟩
    sl_exec
    sl_for (invZ2 (F := F) d L k1) $$ [Hz]
    case region =>
      intro k2 _
      unfold invZ2
      iintro ⟨%f, Hz, %hf⟩
      sl_exec
      sl_step
      iexists _; isplitl [Hz]; · iexact Hz
      ipureintro
      exact invZ2_step k1 k2 f hf
    · unfold invZ2
      iexists f; isplitl [Hz]; · iexact Hz
      ipureintro
      exact invZ2_init k1 f hf
    iintro %_ HI
    unfold invZ2
    icases HI with ⟨%f', Hz, %hf'⟩
    sl_exec
    sl_step
    iexists f'; isplitl [Hz]; · iexact Hz
    ipureintro
    exact invZ1_step k1 f' hf'
  · unfold invZ1
    iexists fz; isplitl [Hz']; · iexact Hz'
    ipureintro
    intro r q h; omega
  iintro %_ HI
  unfold invZ1
  icases HI with ⟨%fz1, Hz, %hfz⟩
  have hfz1 : fz1 = fun _ => zF (F := F) := invZ1_final fz1 hfz
  subst hfz1
  sl_exec
  -- the copying loop
  sl_for (invC13 (F := F) m d L O W (shT (cL L) (sL L))) $$ [Hmw Aa Hb' Ho Hs0 Hs1 HO]
  case region =>
    intro t _
    unfold invC13
    iintro ⟨Hmw, Aa, ⟨%fb, Hb⟩, ⟨%fo, Ho, %hD⟩, Hs0, Hs1, %W', %hW', HO⟩
    have htr : 64 * t.val + 64 ≤ ncopy L := by
      have h1 := t.isLt; have h2 := trips29 L; have h3 := ncopy_dvd L
      change t.val < (k0_t29_loop L).trips at h1
      rw [h2] at h1; omega
    have hnc := ncopy_le L
    have hoff : k0_off55 L t 0 = R0 L + 64 * t.val := by rw [off55_eq]; unfold R0; rfl
    have hsub := chunk_subset L (k0_off55 L t) (k0_off55_inb L t k0_h14) (fun _ => rfl) (64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Aa]; · iexact Aa
    isplitl [Hb]; · iexists _; iexact Hb
    isplitl [Ho]
    · iexists _; isplitl [Ho]; · iexact Ho
      ipureintro
      have e : 64 * (t.val + 1) = 64 * t.val + 64 := by omega
      rw [e]
      refine done_step m d L _ _ _ (64 * t.val) hoff (by rw [off55_eq]; rfl) fo _ hD ?_
      refine hw_copy m d L (m (aLoc13 d)) (fun p q => by rw [hs]; rfl) (by rw [hs]) t.val htr _ _ _ hoff (by rw [off55_eq]; rfl)
        (fun y => (srcS13 L k0_h14 t).view.emb y) (fun y => ?_) _
        (fun y => (congrFun (rt fb _) y).trans ((View.read_apply (v := (srcS13 L k0_h14 t).view) _ y).trans (cast_eq _ _)))
      constructor
      · show k0_off54 L t 0 + 1 * (y 0).val = _; rw [off54_eq]; show 2048 * (L 0).val + 64 * t.val + 1 * (y 0).val = _; omega
      · show k0_off54 L t 1 + 1 * (y 1).val = _; rw [off54_eq]; show 0 + 1 * (y 1).val = _; omega
    isplitl [Hs0]; · iexact Hs0
    isplitl [Hs1]; · iexact Hs1
    iexists (insert (SemLoc.dma cc0_scoped53.sem, (default : HIx 1)) (insert (SemLoc.dma cc0_scoped52.sem, (default : HIx 1)) W')); isplitr
    · ipureintro; intro p hp
      rcases Finset.mem_insert.mp hp with hp | hp
      · exact .inr (hp ▸ rfl)
      rcases Finset.mem_insert.mp hp with hp | hp
      · exact .inr (hp ▸ rfl)
      · exact hW' p hp
    · iexact HO
  · unfold invC13
    isplitl [Hmw]; · iexact Hmw
    isplitl [Aa]; · iexact Aa
    isplitl [Hb']; · iexists _; iexact Hb'
    isplitl [Ho]
    · iexists _; isplitl [Ho]; · iexact Ho
      ipureintro; exact done_zero m d L _
    isplitl [Hs0]; · iexact Hs0
    isplitl [Hs1]; · iexact Hs1
    iexists W; isplitr
    · ipureintro; exact fun p hp => .inl hp
    · iexact HO
  iintro %_ HI
  unfold invC13
  icases HI with ⟨Hmw, Aa, ⟨%fb, Hb⟩, ⟨%fo, Ho, %hD⟩, Hs0, Hs1, %W1, %hW1, HO⟩
  have hDn : Done m d L (ncopy L) fo := by
    have h3 := ncopy_dvd L
    have e : 64 * (k0_t29_loop L).trips = ncopy L := by rw [trips29 L]; omega
    rw [← e]; exact hD
  sl_exec
  -- the remainder of the unrolling by one: no trips
  sl_for (fun (_ : Nat) (_ : PUnit) => (iprop(emp) : sProp 𝕄)) $$ []
  case region =>
    intro t _
    exact absurd t.isLt (by have h0 := trips30 L; change ¬ (t.val < (k0_t30_loop L).trips); omega)
  · iempintro
  iintro %_ -
  sl_exec
  -- the zero-filling loop
  sl_for (invF (F := F) m d L O W) $$ [Hmw Hz Ho Hs64 HO]
  case region =>
    intro t _
    unfold invF
    iintro ⟨Hmw, Hz, ⟨%fo, Ho, %hD⟩, Hs64, %W', %hW', HO⟩
    have hnc := ncopy_le L
    have htr : ncopy L + 64 * t.val + 64 ≤ 2048 := by
      have h1 := t.isLt; have h2 := trips35 L; obtain ⟨c, hc⟩ := ncopy_dvd L
      change t.val < (k0_t35_loop L).trips at h1
      rw [h2] at h1; omega
    have hoff : k0_off66 L t 0 = R0 L + (ncopy L + 64 * t.val) := by rw [off66_eq]; unfold R0; show _ + _ + _ + _ = _; omega
    have hsub := chunk_subset L (k0_off66 L t) (k0_off66_inb L t) (fun _ => rfl) (ncopy L + 64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Hz]; · iexact Hz
    isplitl [Ho]
    · iexists _; isplitl [Ho]; · iexact Ho
      ipureintro
      have e : ncopy L + 64 * (t.val + 1) = (ncopy L + 64 * t.val) + 64 := by omega
      rw [e]
      refine done_step m d L _ _ _ (ncopy L + 64 * t.val) hoff (by rw [off66_eq]; rfl) fo _ hD ?_
      exact hw_zero m d L t.val htr _ _ _ (by rw [hoff]; omega) _ (fun y => rfl)
    isplitl [Hs64]; · iexact Hs64
    iexists (insert (SemLoc.dma cc0_scoped64.sem, (default : HIx 1)) W'); isplitr
    · ipureintro; intro p hp
      rcases Finset.mem_insert.mp hp with hp | hp
      · exact .inr (hp ▸ rfl)
      · exact hW' p hp
    · iexact HO
  · unfold invF
    isplitl [Hmw]; · iexact Hmw
    isplitl [Hz]; · iexact Hz
    isplitl [Ho]
    · iexists _; isplitl [Ho]; · iexact Ho
      ipureintro; rw [Nat.mul_zero, Nat.add_zero]; exact hDn
    isplitl [Hs64]; · iexact Hs64
    iexists W1; isplitr
    · ipureintro; exact hW1
    · iexact HO
  iintro %_ HI
  unfold invF
  icases HI with ⟨Hmw, Hz, ⟨%fo2, Ho, %hD2⟩, Hs64, %W2, %hW2, HO⟩
  have hAll : Done m d L 2048 fo2 := by
    have hnc := ncopy_le L
    obtain ⟨c, hc⟩ := ncopy_dvd L
    have e : ncopy L + 64 * (k0_t35_loop L).trips = 2048 := by rw [trips35 L]; omega
    rw [← e]; exact hD2
  sl_exec
  sl_for (fun (_ : Nat) (_ : PUnit) => (iprop(emp) : sProp 𝕄)) $$ []
  case region =>
    intro t _
    exact absurd t.isLt (by have h0 := trips36 L; change ¬ (t.val < (k0_t36_loop L).trips); omega)
  · iempintro
  iintro %_ -
  sl_exec
  sl_step
  -- hand everything back
  isplitl [A0 A1 A2 A3 A4 A5 A6 A7 A8 A9 A10 A11 A12 A14 A15 Aa Ho]
  · isplitl [A0 A1 A2 A3 A4 A5 A6 A7 A8 A9 A10 A11 A12 A14 A15 Aa]
    ·
      isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [A12]; · iexact A12
      isplitl [Aa]; · iapply (Entails.of_eq (pts_a13 (F := F) d L _ _)); iexact Aa
      isplitl [A14]; · iexact A14
      iexact A15
    · iapply (Entails.of_eq (pointsTo_congr (ℓ := oLoc d) (done_all m d L fo2 hAll))); iexact Ho
  isplitl [Hb Hz Hbufs]
  · isplitl [Hb]; · iexists _; iapply (Entails.of_eq (pts_b (F := F) d L _)); iexact Hb
    isplitl [Hz]; · iexists _; iapply (Entails.of_eq (pts_z (F := F) d L _)); iexact Hz
    iexact Hbufs
  isplitl [Hs0 Hs1 Hs64 Hsems]
  · isplitl [Hs0]; · iexact Hs0
    isplitl [Hs1]; · iexact Hs1
    isplitl [Hs64]; · iexact Hs64
    iexact Hsems
  iexists W2; isplitr
  · ipureintro; exact hW2
  · iexact HO

end Cert.Proof.KI

end
-- ==== Proof.KITile14.lean ====
/-
  The task on subcore 14 (of either SparseCore): it serves sequence 14, of 512 rows. Its second scratch buffer is
  zeroed; the rows of the sequence that fall in its half are copied, 64 at a time, through the first scratch buffer
  into its block of the output; the rest of the block is filled from the zeroed buffer. Each loop keeps "the first so
  many rows of the block hold the padded array".
-/
import proofs.«212850_g39865886441476_cont_8to1_b_277_5_alg».proof.Proof.KITileCommon

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "a0W" => (Memref.whole Cert.KernelIdeal.main_arg0_scv : Memref Cert.KernelIdeal.sig Kind.scVector Space.hbm Cert.KernelIdeal.S4096x512 EltTy.f32)
local notation "a1W" => (Memref.whole Cert.KernelIdeal.main_arg1_scv : Memref Cert.KernelIdeal.sig Kind.scVector Space.hbm Cert.KernelIdeal.S3840x512 EltTy.f32)
local notation "a2W" => (Memref.whole Cert.KernelIdeal.main_arg2_scv : Memref Cert.KernelIdeal.sig Kind.scVector Space.hbm Cert.KernelIdeal.S3584x512 EltTy.f32)
local notation "a3W" => (Memref.whole Cert.KernelIdeal.main_arg3_scv : Memref Cert.KernelIdeal.sig Kind.scVector Space.hbm Cert.KernelIdeal.S3328x512 EltTy.f32)
local notation "a4W" => (Memref.whole Cert.KernelIdeal.main_arg4_scv : Memref Cert.KernelIdeal.sig Kind.scVector Space.hbm Cert.KernelIdeal.S3072x512 EltTy.f32)
local notation "a5W" => (Memref.whole Cert.KernelIdeal.main_arg5_scv : Memref Cert.KernelIdeal.sig Kind.scVector Space.hbm Cert.KernelIdeal.S2816x512 EltTy.f32)
local notation "a6W" => (Memref.whole Cert.KernelIdeal.main_arg6_scv : Memref Cert.KernelIdeal.sig Kind.scVector Space.hbm Cert.KernelIdeal.S2560x512 EltTy.f32)
local notation "a7W" => (Memref.whole Cert.KernelIdeal.main_arg7_scv : Memref Cert.KernelIdeal.sig Kind.scVector Space.hbm Cert.KernelIdeal.S2304x512 EltTy.f32)
local notation "a8W" => (Memref.whole Cert.KernelIdeal.main_arg8_scv : Memref Cert.KernelIdeal.sig Kind.scVector Space.hbm Cert.KernelIdeal.S2048x512 EltTy.f32)
local notation "a9W" => (Memref.whole Cert.KernelIdeal.main_arg9_scv : Memref Cert.KernelIdeal.sig Kind.scVector Space.hbm Cert.KernelIdeal.S1792x512 EltTy.f32)
local notation "a10W" => (Memref.whole Cert.KernelIdeal.main_arg10_scv : Memref Cert.KernelIdeal.sig Kind.scVector Space.hbm Cert.KernelIdeal.S1536x512 EltTy.f32)
local notation "a11W" => (Memref.whole Cert.KernelIdeal.main_arg11_scv : Memref Cert.KernelIdeal.sig Kind.scVector Space.hbm Cert.KernelIdeal.S1280x512 EltTy.f32)
local notation "a12W" => (Memref.whole Cert.KernelIdeal.main_arg12_scv : Memref Cert.KernelIdeal.sig Kind.scVector Space.hbm Cert.KernelIdeal.S1024x512 EltTy.f32)
local notation "a13W" => (Memref.whole Cert.KernelIdeal.main_arg13_scv : Memref Cert.KernelIdeal.sig Kind.scVector Space.hbm Cert.KernelIdeal.S768x512 EltTy.f32)
local notation "a14W" => (Memref.whole Cert.KernelIdeal.main_arg14_scv : Memref Cert.KernelIdeal.sig Kind.scVector Space.hbm Cert.KernelIdeal.S512x512 EltTy.f32)
local notation "a15W" => (Memref.whole Cert.KernelIdeal.main_arg15_scv : Memref Cert.KernelIdeal.sig Kind.scVector Space.hbm Cert.KernelIdeal.S256x512 EltTy.f32)
local notation "oW" => (Memref.whole Cert.KernelIdeal.main_v0_scv : Memref Cert.KernelIdeal.sig Kind.scVector Space.hbm Cert.KernelIdeal.S65536x512 EltTy.f32)
local notation "bW" => (Memref.whole Cert.KernelIdeal.cc0_scratch0 : Memref Cert.KernelIdeal.sig Kind.scVector Space.vmem Cert.KernelIdeal.S64x512 EltTy.f32)
local notation "zW" => (Memref.whole Cert.KernelIdeal.cc0_scratch1 : Memref Cert.KernelIdeal.sig Kind.scVector Space.vmem Cert.KernelIdeal.S64x512 EltTy.f32)

variable (m : (ℓ : Loc nD τ sig) → Buf (Elt F) ℓ) (d : Dev nD)

omit [FloatOps F] in
theorem ownSems0_V14 (L : grid0.Coords) :
    (ownSems0 (thr d L) : sProp 𝕄)
      = iprop(semVal (thr d L, SemLoc.dma cc0_scoped56.sem) 0 ∗ semVal (thr d L, SemLoc.dma cc0_scoped57.sem) 0 ∗ semVal (thr d L, SemLoc.dma cc0_scoped64.sem) 0
          ∗ bigSep ((((ownCells (thr d L)).erase (thr d L, SemLoc.dma cc0_scoped56.sem)).erase (thr d L, SemLoc.dma cc0_scoped57.sem)).erase (thr d L, SemLoc.dma cc0_scoped64.sem))
              fun g => semVal g 0) := by
  unfold SparseCore.Cfg.ownSems0
  rw [SparseCore.bigSep_erase' ((mem_ownCells (g := (thr d L, SemLoc.dma cc0_scoped56.sem))).mpr ⟨rfl, by
      show (SemLoc.dma cc0_scoped56.sem : SemLoc sig).isScoped .scVector = true; decide⟩),
    SparseCore.bigSep_erase' (Finset.mem_erase.mpr ⟨by simp; decide, (mem_ownCells (g := (thr d L, SemLoc.dma cc0_scoped57.sem))).mpr ⟨rfl, by
      show (SemLoc.dma cc0_scoped57.sem : SemLoc sig).isScoped .scVector = true; decide⟩⟩),
    SparseCore.bigSep_erase' (Finset.mem_erase.mpr ⟨by simp; decide, Finset.mem_erase.mpr ⟨by simp; decide,
      (mem_ownCells (g := (thr d L, SemLoc.dma cc0_scoped64.sem))).mpr ⟨rfl, by show (SemLoc.dma cc0_scoped64.sem : SemLoc sig).isScoped .scVector = true; decide⟩⟩⟩)]

/-- The source chunk of trip `t`, as the program slices it. -/
abbrev srcS14 (L : grid0.Coords) (h : k0_cond15 L = 1#1) (t : Fin (k0_t31_loop L).trips) : Memref sig .scVector .hbm S64x512 .f32 :=
  (a14W).slice (Rect.unit (s := S512x512) (k0_off58 L t) S64x512.size (k0_off58_inb L t h)) (fun _ => rfl)

omit [FloatOps F] in
theorem pts_a14 (L : grid0.Coords) (q : PosShare TreeShare) (f : Buf (Elt F) (aLoc14 d)) :
    ((a14W).view.loc (thr d L) ↦{q} f : sProp 𝕄) = aLoc14 d ↦{q} f := rfl

/-- The copying loop's invariant before trip `t`: the first `64 t` rows of the block hold the padded array. -/
def invC14 (L : grid0.Coords) (O : CellTallies nD τ sig (HIx 1)) (W : Waits sig (HIx 1)) (q : PosShare TreeShare) (t : Nat) (_ : PUnit) : sProp 𝕄 :=
  iprop(Transfers.MayWaits (thr d L) (none : HIx 1) O
    ∗ ((a14W).view.loc (thr d L) ↦{q} m (aLoc14 d))
    ∗ (∃ fb, (bW).view.loc (thr d L) ↦{fullShare} fb)
    ∗ (∃ fo, (oLoc d ↦[blkSet (bI L)]{fullShare} fo) ∗ ⌜Done m d L (64 * t) fo⌝)
    ∗ semVal (thr d L, SemLoc.dma cc0_scoped56.sem) 0
    ∗ semVal (thr d L, SemLoc.dma cc0_scoped57.sem) 0
    ∗ ∃ W', ⌜∀ p ∈ W', p ∈ W ∨ p.2 = none⌝ ∗ owes (thr d L) O W')

theorem tile_s14 (hF : (K (F := F)).Facts) (L : grid0.Coords) (hs : (L 1).val = 14) (O : CellTallies nD τ sig (HIx 1)) (W : Waits sig (HIx 1)) (hO : ∀ g, O g none = 0) :
    TileSpec m d L O W := by
  have k0_h1 : ¬ k0_cond1 L = 1#1 := fun h => absurd ((cond1_iff L).mp h) (by omega)
  have k0_h2 : ¬ k0_cond2 L = 1#1 := fun h => absurd ((cond2_iff L).mp h) (by omega)
  have k0_h3 : ¬ k0_cond3 L = 1#1 := fun h => absurd ((cond3_iff L).mp h) (by omega)
  have k0_h4 : ¬ k0_cond4 L = 1#1 := fun h => absurd ((cond4_iff L).mp h) (by omega)
  have k0_h5 : ¬ k0_cond5 L = 1#1 := fun h => absurd ((cond5_iff L).mp h) (by omega)
  have k0_h6 : ¬ k0_cond6 L = 1#1 := fun h => absurd ((cond6_iff L).mp h) (by omega)
  have k0_h7 : ¬ k0_cond7 L = 1#1 := fun h => absurd ((cond7_iff L).mp h) (by omega)
  have k0_h8 : ¬ k0_cond8 L = 1#1 := fun h => absurd ((cond8_iff L).mp h) (by omega)
  have k0_h9 : ¬ k0_cond9 L = 1#1 := fun h => absurd ((cond9_iff L).mp h) (by omega)
  have k0_h10 : ¬ k0_cond10 L = 1#1 := fun h => absurd ((cond10_iff L).mp h) (by omega)
  have k0_h11 : ¬ k0_cond11 L = 1#1 := fun h => absurd ((cond11_iff L).mp h) (by omega)
  have k0_h12 : ¬ k0_cond12 L = 1#1 := fun h => absurd ((cond12_iff L).mp h) (by omega)
  have k0_h13 : ¬ k0_cond13 L = 1#1 := fun h => absurd ((cond13_iff L).mp h) (by omega)
  have k0_h14 : ¬ k0_cond14 L = 1#1 := fun h => absurd ((cond14_iff L).mp h) (by omega)
  have k0_h15 : k0_cond15 L = 1#1 := (cond15_iff L).mpr hs
  have k0_h16 : ¬ k0_cond16 L = 1#1 := fun h => absurd ((cond16_iff L).mp h) (by omega)
  have rt : ∀ (fb rd : (cc0_scratch0 : Ref sig .scVector).ty.Contents (Elt F)),
      ReadAs.same.apply (View.read (Elt F) (View.whole (cc0_scratch0 : Ref sig .scVector)) (View.write (Elt F) (View.whole (cc0_scratch0 : Ref sig .scVector)) fb (ReadAs.same.apply rd) Finset.univ)) = rd :=
    fun fb rd => (congrArg (View.read (Elt F) (View.whole (cc0_scratch0 : Ref sig .scVector))) (View.write_whole_univ (Val := Elt F) (cc0_scratch0 : Ref sig .scVector) fb rd)).trans (View.read_whole _ rd)
  unfold TileSpec
  simp only [cc0__pad_body_eq_skeleton]; unfold cc0__pad_body_skel
  rw [(K (F := F)).scopedBufs_V hF d _ _, SparseCore.Cfg.scopedSems0_V (Val := Elt F) d _ _, ownSems0_V14, ownBufs_V]
  unfold argsAt
  iintro ⟨#Hlv, -, ⟨⟨A0, A1, A2, A3, A4, A5, A6, A7, A8, A9, A10, A11, A12, A13, A14, A15⟩, Ho⟩, ⟨⟨%fb, Hb⟩, ⟨%fz, Hz⟩, Hbufs⟩, ⟨Hs0, Hs1, Hs64, Hsems⟩, HO⟩
  ihave Hmw := ((K (F := F)).mayWaits_none (thr := thr d L) hO) $$ Hlv
  ihave Aa := (Entails.of_eq (pts_a14 (F := F) d L _ _).symm) $$ A14
  ihave Hb' := (Entails.of_eq (pts_b (F := F) d L _).symm) $$ Hb
  ihave Hz' := (Entails.of_eq (pts_z (F := F) d L _).symm) $$ Hz
  sl_exec
  -- the zeroing loops
  sl_for (invZ1 (F := F) d L) $$ [Hz']
  case region =>
    intro k1 _
    unfold invZ1
    iintro ⟨%f, Hz, %hf⟩
    sl_exec
    sl_for (invZ2 (F := F) d L k1) $$ [Hz]
    case region =>
      intro k2 _
      unfold invZ2
      iintro ⟨%f, Hz, %hf⟩
      sl_exec
      sl_step
      iexists _; isplitl [Hz]; · iexact Hz
      ipureintro
      exact invZ2_step k1 k2 f hf
    · unfold invZ2
      iexists f; isplitl [Hz]; · iexact Hz
      ipureintro
      exact invZ2_init k1 f hf
    iintro %_ HI
    unfold invZ2
    icases HI with ⟨%f', Hz, %hf'⟩
    sl_exec
    sl_step
    iexists f'; isplitl [Hz]; · iexact Hz
    ipureintro
    exact invZ1_step k1 f' hf'
  · unfold invZ1
    iexists fz; isplitl [Hz']; · iexact Hz'
    ipureintro
    intro r q h; omega
  iintro %_ HI
  unfold invZ1
  icases HI with ⟨%fz1, Hz, %hfz⟩
  have hfz1 : fz1 = fun _ => zF (F := F) := invZ1_final fz1 hfz
  subst hfz1
  sl_exec
  -- the copying loop
  sl_for (invC14 (F := F) m d L O W (shT (cL L) (sL L))) $$ [Hmw Aa Hb' Ho Hs0 Hs1 HO]
  case region =>
    intro t _
    unfold invC14
    iintro ⟨Hmw, Aa, ⟨%fb, Hb⟩, ⟨%fo, Ho, %hD⟩, Hs0, Hs1, %W', %hW', HO⟩
    have htr : 64 * t.val + 64 ≤ ncopy L := by
      have h1 := t.isLt; have h2 := trips31 L; have h3 := ncopy_dvd L
      change t.val < (k0_t31_loop L).trips at h1
      rw [h2] at h1; omega
    have hnc := ncopy_le L
    have hoff : k0_off59 L t 0 = R0 L + 64 * t.val := by rw [off59_eq]; unfold R0; rfl
    have hsub := chunk_subset L (k0_off59 L t) (k0_off59_inb L t k0_h15) (fun _ => rfl) (64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Aa]; · iexact Aa
    isplitl [Hb]; · iexists _; iexact Hb
    isplitl [Ho]
    · iexists _; isplitl [Ho]; · iexact Ho
      ipureintro
      have e : 64 * (t.val + 1) = 64 * t.val + 64 := by omega
      rw [e]
      refine done_step m d L _ _ _ (64 * t.val) hoff (by rw [off59_eq]; rfl) fo _ hD ?_
      refine hw_copy m d L (m (aLoc14 d)) (fun p q => by rw [hs]; rfl) (by rw [hs]) t.val htr _ _ _ hoff (by rw [off59_eq]; rfl)
        (fun y => (srcS14 L k0_h15 t).view.emb y) (fun y => ?_) _
        (fun y => (congrFun (rt fb _) y).trans ((View.read_apply (v := (srcS14 L k0_h15 t).view) _ y).trans (cast_eq _ _)))
      constructor
      · show k0_off58 L t 0 + 1 * (y 0).val = _; rw [off58_eq]; show 2048 * (L 0).val + 64 * t.val + 1 * (y 0).val = _; omega
      · show k0_off58 L t 1 + 1 * (y 1).val = _; rw [off58_eq]; show 0 + 1 * (y 1).val = _; omega
    isplitl [Hs0]; · iexact Hs0
    isplitl [Hs1]; · iexact Hs1
    iexists (insert (SemLoc.dma cc0_scoped57.sem, (default : HIx 1)) (insert (SemLoc.dma cc0_scoped56.sem, (default : HIx 1)) W')); isplitr
    · ipureintro; intro p hp
      rcases Finset.mem_insert.mp hp with hp | hp
      · exact .inr (hp ▸ rfl)
      rcases Finset.mem_insert.mp hp with hp | hp
      · exact .inr (hp ▸ rfl)
      · exact hW' p hp
    · iexact HO
  · unfold invC14
    isplitl [Hmw]; · iexact Hmw
    isplitl [Aa]; · iexact Aa
    isplitl [Hb']; · iexists _; iexact Hb'
    isplitl [Ho]
    · iexists _; isplitl [Ho]; · iexact Ho
      ipureintro; exact done_zero m d L _
    isplitl [Hs0]; · iexact Hs0
    isplitl [Hs1]; · iexact Hs1
    iexists W; isplitr
    · ipureintro; exact fun p hp => .inl hp
    · iexact HO
  iintro %_ HI
  unfold invC14
  icases HI with ⟨Hmw, Aa, ⟨%fb, Hb⟩, ⟨%fo, Ho, %hD⟩, Hs0, Hs1, %W1, %hW1, HO⟩
  have hDn : Done m d L (ncopy L) fo := by
    have h3 := ncopy_dvd L
    have e : 64 * (k0_t31_loop L).trips = ncopy L := by rw [trips31 L]; omega
    rw [← e]; exact hD
  sl_exec
  -- the remainder of the unrolling by one: no trips
  sl_for (fun (_ : Nat) (_ : PUnit) => (iprop(emp) : sProp 𝕄)) $$ []
  case region =>
    intro t _
    exact absurd t.isLt (by have h0 := trips32 L; change ¬ (t.val < (k0_t32_loop L).trips); omega)
  · iempintro
  iintro %_ -
  sl_exec
  -- the zero-filling loop
  sl_for (invF (F := F) m d L O W) $$ [Hmw Hz Ho Hs64 HO]
  case region =>
    intro t _
    unfold invF
    iintro ⟨Hmw, Hz, ⟨%fo, Ho, %hD⟩, Hs64, %W', %hW', HO⟩
    have hnc := ncopy_le L
    have htr : ncopy L + 64 * t.val + 64 ≤ 2048 := by
      have h1 := t.isLt; have h2 := trips35 L; obtain ⟨c, hc⟩ := ncopy_dvd L
      change t.val < (k0_t35_loop L).trips at h1
      rw [h2] at h1; omega
    have hoff : k0_off66 L t 0 = R0 L + (ncopy L + 64 * t.val) := by rw [off66_eq]; unfold R0; show _ + _ + _ + _ = _; omega
    have hsub := chunk_subset L (k0_off66 L t) (k0_off66_inb L t) (fun _ => rfl) (ncopy L + 64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Hz]; · iexact Hz
    isplitl [Ho]
    · iexists _; isplitl [Ho]; · iexact Ho
      ipureintro
      have e : ncopy L + 64 * (t.val + 1) = (ncopy L + 64 * t.val) + 64 := by omega
      rw [e]
      refine done_step m d L _ _ _ (ncopy L + 64 * t.val) hoff (by rw [off66_eq]; rfl) fo _ hD ?_
      exact hw_zero m d L t.val htr _ _ _ (by rw [hoff]; omega) _ (fun y => rfl)
    isplitl [Hs64]; · iexact Hs64
    iexists (insert (SemLoc.dma cc0_scoped64.sem, (default : HIx 1)) W'); isplitr
    · ipureintro; intro p hp
      rcases Finset.mem_insert.mp hp with hp | hp
      · exact .inr (hp ▸ rfl)
      · exact hW' p hp
    · iexact HO
  · unfold invF
    isplitl [Hmw]; · iexact Hmw
    isplitl [Hz]; · iexact Hz
    isplitl [Ho]
    · iexists _; isplitl [Ho]; · iexact Ho
      ipureintro; rw [Nat.mul_zero, Nat.add_zero]; exact hDn
    isplitl [Hs64]; · iexact Hs64
    iexists W1; isplitr
    · ipureintro; exact hW1
    · iexact HO
  iintro %_ HI
  unfold invF
  icases HI with ⟨Hmw, Hz, ⟨%fo2, Ho, %hD2⟩, Hs64, %W2, %hW2, HO⟩
  have hAll : Done m d L 2048 fo2 := by
    have hnc := ncopy_le L
    obtain ⟨c, hc⟩ := ncopy_dvd L
    have e : ncopy L + 64 * (k0_t35_loop L).trips = 2048 := by rw [trips35 L]; omega
    rw [← e]; exact hD2
  sl_exec
  sl_for (fun (_ : Nat) (_ : PUnit) => (iprop(emp) : sProp 𝕄)) $$ []
  case region =>
    intro t _
    exact absurd t.isLt (by have h0 := trips36 L; change ¬ (t.val < (k0_t36_loop L).trips); omega)
  · iempintro
  iintro %_ -
  sl_exec
  sl_step
  -- hand everything back
  isplitl [A0 A1 A2 A3 A4 A5 A6 A7 A8 A9 A10 A11 A12 A13 A15 Aa Ho]
  · isplitl [A0 A1 A2 A3 A4 A5 A6 A7 A8 A9 A10 A11 A12 A13 A15 Aa]
    ·
      isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [A12]; · iexact A12
      isplitl [A13]; · iexact A13
      isplitl [Aa]; · iapply (Entails.of_eq (pts_a14 (F := F) d L _ _)); iexact Aa
      iexact A15
    · iapply (Entails.of_eq (pointsTo_congr (ℓ := oLoc d) (done_all m d L fo2 hAll))); iexact Ho
  isplitl [Hb Hz Hbufs]
  · isplitl [Hb]; · iexists _; iapply (Entails.of_eq (pts_b (F := F) d L _)); iexact Hb
    isplitl [Hz]; · iexists _; iapply (Entails.of_eq (pts_z (F := F) d L _)); iexact Hz
    iexact Hbufs
  isplitl [Hs0 Hs1 Hs64 Hsems]
  · isplitl [Hs0]; · iexact Hs0
    isplitl [Hs1]; · iexact Hs1
    isplitl [Hs64]; · iexact Hs64
    iexact Hsems
  iexists W2; isplitr
  · ipureintro; exact hW2
  · iexact HO

end Cert.Proof.KI

end
-- ==== Proof.KITile15.lean ====
/-
  The task on subcore 15 (of either SparseCore): it serves sequence 15, of 256 rows. Its second scratch buffer is
  zeroed; the rows of the sequence that fall in its half are copied, 64 at a time, through the first scratch buffer
  into its block of the output; the rest of the block is filled from the zeroed buffer. Each loop keeps "the first so
  many rows of the block hold the padded array".
-/
import proofs.«212850_g39865886441476_cont_8to1_b_277_5_alg».proof.Proof.KITileCommon

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "a0W" => (Memref.whole Cert.KernelIdeal.main_arg0_scv : Memref Cert.KernelIdeal.sig Kind.scVector Space.hbm Cert.KernelIdeal.S4096x512 EltTy.f32)
local notation "a1W" => (Memref.whole Cert.KernelIdeal.main_arg1_scv : Memref Cert.KernelIdeal.sig Kind.scVector Space.hbm Cert.KernelIdeal.S3840x512 EltTy.f32)
local notation "a2W" => (Memref.whole Cert.KernelIdeal.main_arg2_scv : Memref Cert.KernelIdeal.sig Kind.scVector Space.hbm Cert.KernelIdeal.S3584x512 EltTy.f32)
local notation "a3W" => (Memref.whole Cert.KernelIdeal.main_arg3_scv : Memref Cert.KernelIdeal.sig Kind.scVector Space.hbm Cert.KernelIdeal.S3328x512 EltTy.f32)
local notation "a4W" => (Memref.whole Cert.KernelIdeal.main_arg4_scv : Memref Cert.KernelIdeal.sig Kind.scVector Space.hbm Cert.KernelIdeal.S3072x512 EltTy.f32)
local notation "a5W" => (Memref.whole Cert.KernelIdeal.main_arg5_scv : Memref Cert.KernelIdeal.sig Kind.scVector Space.hbm Cert.KernelIdeal.S2816x512 EltTy.f32)
local notation "a6W" => (Memref.whole Cert.KernelIdeal.main_arg6_scv : Memref Cert.KernelIdeal.sig Kind.scVector Space.hbm Cert.KernelIdeal.S2560x512 EltTy.f32)
local notation "a7W" => (Memref.whole Cert.KernelIdeal.main_arg7_scv : Memref Cert.KernelIdeal.sig Kind.scVector Space.hbm Cert.KernelIdeal.S2304x512 EltTy.f32)
local notation "a8W" => (Memref.whole Cert.KernelIdeal.main_arg8_scv : Memref Cert.KernelIdeal.sig Kind.scVector Space.hbm Cert.KernelIdeal.S2048x512 EltTy.f32)
local notation "a9W" => (Memref.whole Cert.KernelIdeal.main_arg9_scv : Memref Cert.KernelIdeal.sig Kind.scVector Space.hbm Cert.KernelIdeal.S1792x512 EltTy.f32)
local notation "a10W" => (Memref.whole Cert.KernelIdeal.main_arg10_scv : Memref Cert.KernelIdeal.sig Kind.scVector Space.hbm Cert.KernelIdeal.S1536x512 EltTy.f32)
local notation "a11W" => (Memref.whole Cert.KernelIdeal.main_arg11_scv : Memref Cert.KernelIdeal.sig Kind.scVector Space.hbm Cert.KernelIdeal.S1280x512 EltTy.f32)
local notation "a12W" => (Memref.whole Cert.KernelIdeal.main_arg12_scv : Memref Cert.KernelIdeal.sig Kind.scVector Space.hbm Cert.KernelIdeal.S1024x512 EltTy.f32)
local notation "a13W" => (Memref.whole Cert.KernelIdeal.main_arg13_scv : Memref Cert.KernelIdeal.sig Kind.scVector Space.hbm Cert.KernelIdeal.S768x512 EltTy.f32)
local notation "a14W" => (Memref.whole Cert.KernelIdeal.main_arg14_scv : Memref Cert.KernelIdeal.sig Kind.scVector Space.hbm Cert.KernelIdeal.S512x512 EltTy.f32)
local notation "a15W" => (Memref.whole Cert.KernelIdeal.main_arg15_scv : Memref Cert.KernelIdeal.sig Kind.scVector Space.hbm Cert.KernelIdeal.S256x512 EltTy.f32)
local notation "oW" => (Memref.whole Cert.KernelIdeal.main_v0_scv : Memref Cert.KernelIdeal.sig Kind.scVector Space.hbm Cert.KernelIdeal.S65536x512 EltTy.f32)
local notation "bW" => (Memref.whole Cert.KernelIdeal.cc0_scratch0 : Memref Cert.KernelIdeal.sig Kind.scVector Space.vmem Cert.KernelIdeal.S64x512 EltTy.f32)
local notation "zW" => (Memref.whole Cert.KernelIdeal.cc0_scratch1 : Memref Cert.KernelIdeal.sig Kind.scVector Space.vmem Cert.KernelIdeal.S64x512 EltTy.f32)

variable (m : (ℓ : Loc nD τ sig) → Buf (Elt F) ℓ) (d : Dev nD)

omit [FloatOps F] in
theorem ownSems0_V15 (L : grid0.Coords) :
    (ownSems0 (thr d L) : sProp 𝕄)
      = iprop(semVal (thr d L, SemLoc.dma cc0_scoped60.sem) 0 ∗ semVal (thr d L, SemLoc.dma cc0_scoped61.sem) 0 ∗ semVal (thr d L, SemLoc.dma cc0_scoped64.sem) 0
          ∗ bigSep ((((ownCells (thr d L)).erase (thr d L, SemLoc.dma cc0_scoped60.sem)).erase (thr d L, SemLoc.dma cc0_scoped61.sem)).erase (thr d L, SemLoc.dma cc0_scoped64.sem))
              fun g => semVal g 0) := by
  unfold SparseCore.Cfg.ownSems0
  rw [SparseCore.bigSep_erase' ((mem_ownCells (g := (thr d L, SemLoc.dma cc0_scoped60.sem))).mpr ⟨rfl, by
      show (SemLoc.dma cc0_scoped60.sem : SemLoc sig).isScoped .scVector = true; decide⟩),
    SparseCore.bigSep_erase' (Finset.mem_erase.mpr ⟨by simp; decide, (mem_ownCells (g := (thr d L, SemLoc.dma cc0_scoped61.sem))).mpr ⟨rfl, by
      show (SemLoc.dma cc0_scoped61.sem : SemLoc sig).isScoped .scVector = true; decide⟩⟩),
    SparseCore.bigSep_erase' (Finset.mem_erase.mpr ⟨by simp; decide, Finset.mem_erase.mpr ⟨by simp; decide,
      (mem_ownCells (g := (thr d L, SemLoc.dma cc0_scoped64.sem))).mpr ⟨rfl, by show (SemLoc.dma cc0_scoped64.sem : SemLoc sig).isScoped .scVector = true; decide⟩⟩⟩)]

/-- The source chunk of trip `t`, as the program slices it. -/
abbrev srcS15 (L : grid0.Coords) (h : k0_cond16 L = 1#1) (t : Fin (k0_t33_loop L).trips) : Memref sig .scVector .hbm S64x512 .f32 :=
  (a15W).slice (Rect.unit (s := S256x512) (k0_off62 L t) S64x512.size (k0_off62_inb L t h)) (fun _ => rfl)

omit [FloatOps F] in
theorem pts_a15 (L : grid0.Coords) (q : PosShare TreeShare) (f : Buf (Elt F) (aLoc15 d)) :
    ((a15W).view.loc (thr d L) ↦{q} f : sProp 𝕄) = aLoc15 d ↦{q} f := rfl

/-- The copying loop's invariant before trip `t`: the first `64 t` rows of the block hold the padded array. -/
def invC15 (L : grid0.Coords) (O : CellTallies nD τ sig (HIx 1)) (W : Waits sig (HIx 1)) (q : PosShare TreeShare) (t : Nat) (_ : PUnit) : sProp 𝕄 :=
  iprop(Transfers.MayWaits (thr d L) (none : HIx 1) O
    ∗ ((a15W).view.loc (thr d L) ↦{q} m (aLoc15 d))
    ∗ (∃ fb, (bW).view.loc (thr d L) ↦{fullShare} fb)
    ∗ (∃ fo, (oLoc d ↦[blkSet (bI L)]{fullShare} fo) ∗ ⌜Done m d L (64 * t) fo⌝)
    ∗ semVal (thr d L, SemLoc.dma cc0_scoped60.sem) 0
    ∗ semVal (thr d L, SemLoc.dma cc0_scoped61.sem) 0
    ∗ ∃ W', ⌜∀ p ∈ W', p ∈ W ∨ p.2 = none⌝ ∗ owes (thr d L) O W')

theorem tile_s15 (hF : (K (F := F)).Facts) (L : grid0.Coords) (hs : (L 1).val = 15) (O : CellTallies nD τ sig (HIx 1)) (W : Waits sig (HIx 1)) (hO : ∀ g, O g none = 0) :
    TileSpec m d L O W := by
  have k0_h1 : ¬ k0_cond1 L = 1#1 := fun h => absurd ((cond1_iff L).mp h) (by omega)
  have k0_h2 : ¬ k0_cond2 L = 1#1 := fun h => absurd ((cond2_iff L).mp h) (by omega)
  have k0_h3 : ¬ k0_cond3 L = 1#1 := fun h => absurd ((cond3_iff L).mp h) (by omega)
  have k0_h4 : ¬ k0_cond4 L = 1#1 := fun h => absurd ((cond4_iff L).mp h) (by omega)
  have k0_h5 : ¬ k0_cond5 L = 1#1 := fun h => absurd ((cond5_iff L).mp h) (by omega)
  have k0_h6 : ¬ k0_cond6 L = 1#1 := fun h => absurd ((cond6_iff L).mp h) (by omega)
  have k0_h7 : ¬ k0_cond7 L = 1#1 := fun h => absurd ((cond7_iff L).mp h) (by omega)
  have k0_h8 : ¬ k0_cond8 L = 1#1 := fun h => absurd ((cond8_iff L).mp h) (by omega)
  have k0_h9 : ¬ k0_cond9 L = 1#1 := fun h => absurd ((cond9_iff L).mp h) (by omega)
  have k0_h10 : ¬ k0_cond10 L = 1#1 := fun h => absurd ((cond10_iff L).mp h) (by omega)
  have k0_h11 : ¬ k0_cond11 L = 1#1 := fun h => absurd ((cond11_iff L).mp h) (by omega)
  have k0_h12 : ¬ k0_cond12 L = 1#1 := fun h => absurd ((cond12_iff L).mp h) (by omega)
  have k0_h13 : ¬ k0_cond13 L = 1#1 := fun h => absurd ((cond13_iff L).mp h) (by omega)
  have k0_h14 : ¬ k0_cond14 L = 1#1 := fun h => absurd ((cond14_iff L).mp h) (by omega)
  have k0_h15 : ¬ k0_cond15 L = 1#1 := fun h => absurd ((cond15_iff L).mp h) (by omega)
  have k0_h16 : k0_cond16 L = 1#1 := (cond16_iff L).mpr hs
  have rt : ∀ (fb rd : (cc0_scratch0 : Ref sig .scVector).ty.Contents (Elt F)),
      ReadAs.same.apply (View.read (Elt F) (View.whole (cc0_scratch0 : Ref sig .scVector)) (View.write (Elt F) (View.whole (cc0_scratch0 : Ref sig .scVector)) fb (ReadAs.same.apply rd) Finset.univ)) = rd :=
    fun fb rd => (congrArg (View.read (Elt F) (View.whole (cc0_scratch0 : Ref sig .scVector))) (View.write_whole_univ (Val := Elt F) (cc0_scratch0 : Ref sig .scVector) fb rd)).trans (View.read_whole _ rd)
  unfold TileSpec
  simp only [cc0__pad_body_eq_skeleton]; unfold cc0__pad_body_skel
  rw [(K (F := F)).scopedBufs_V hF d _ _, SparseCore.Cfg.scopedSems0_V (Val := Elt F) d _ _, ownSems0_V15, ownBufs_V]
  unfold argsAt
  iintro ⟨#Hlv, -, ⟨⟨A0, A1, A2, A3, A4, A5, A6, A7, A8, A9, A10, A11, A12, A13, A14, A15⟩, Ho⟩, ⟨⟨%fb, Hb⟩, ⟨%fz, Hz⟩, Hbufs⟩, ⟨Hs0, Hs1, Hs64, Hsems⟩, HO⟩
  ihave Hmw := ((K (F := F)).mayWaits_none (thr := thr d L) hO) $$ Hlv
  ihave Aa := (Entails.of_eq (pts_a15 (F := F) d L _ _).symm) $$ A15
  ihave Hb' := (Entails.of_eq (pts_b (F := F) d L _).symm) $$ Hb
  ihave Hz' := (Entails.of_eq (pts_z (F := F) d L _).symm) $$ Hz
  sl_exec
  -- the zeroing loops
  sl_for (invZ1 (F := F) d L) $$ [Hz']
  case region =>
    intro k1 _
    unfold invZ1
    iintro ⟨%f, Hz, %hf⟩
    sl_exec
    sl_for (invZ2 (F := F) d L k1) $$ [Hz]
    case region =>
      intro k2 _
      unfold invZ2
      iintro ⟨%f, Hz, %hf⟩
      sl_exec
      sl_step
      iexists _; isplitl [Hz]; · iexact Hz
      ipureintro
      exact invZ2_step k1 k2 f hf
    · unfold invZ2
      iexists f; isplitl [Hz]; · iexact Hz
      ipureintro
      exact invZ2_init k1 f hf
    iintro %_ HI
    unfold invZ2
    icases HI with ⟨%f', Hz, %hf'⟩
    sl_exec
    sl_step
    iexists f'; isplitl [Hz]; · iexact Hz
    ipureintro
    exact invZ1_step k1 f' hf'
  · unfold invZ1
    iexists fz; isplitl [Hz']; · iexact Hz'
    ipureintro
    intro r q h; omega
  iintro %_ HI
  unfold invZ1
  icases HI with ⟨%fz1, Hz, %hfz⟩
  have hfz1 : fz1 = fun _ => zF (F := F) := invZ1_final fz1 hfz
  subst hfz1
  sl_exec
  -- the copying loop
  sl_for (invC15 (F := F) m d L O W (shT (cL L) (sL L))) $$ [Hmw Aa Hb' Ho Hs0 Hs1 HO]
  case region =>
    intro t _
    unfold invC15
    iintro ⟨Hmw, Aa, ⟨%fb, Hb⟩, ⟨%fo, Ho, %hD⟩, Hs0, Hs1, %W', %hW', HO⟩
    have htr : 64 * t.val + 64 ≤ ncopy L := by
      have h1 := t.isLt; have h2 := trips33 L; have h3 := ncopy_dvd L
      change t.val < (k0_t33_loop L).trips at h1
      rw [h2] at h1; omega
    have hnc := ncopy_le L
    have hoff : k0_off63 L t 0 = R0 L + 64 * t.val := by rw [off63_eq]; unfold R0; rfl
    have hsub := chunk_subset L (k0_off63 L t) (k0_off63_inb L t k0_h16) (fun _ => rfl) (64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Aa]; · iexact Aa
    isplitl [Hb]; · iexists _; iexact Hb
    isplitl [Ho]
    · iexists _; isplitl [Ho]; · iexact Ho
      ipureintro
      have e : 64 * (t.val + 1) = 64 * t.val + 64 := by omega
      rw [e]
      refine done_step m d L _ _ _ (64 * t.val) hoff (by rw [off63_eq]; rfl) fo _ hD ?_
      refine hw_copy m d L (m (aLoc15 d)) (fun p q => by rw [hs]; rfl) (by rw [hs]) t.val htr _ _ _ hoff (by rw [off63_eq]; rfl)
        (fun y => (srcS15 L k0_h16 t).view.emb y) (fun y => ?_) _
        (fun y => (congrFun (rt fb _) y).trans ((View.read_apply (v := (srcS15 L k0_h16 t).view) _ y).trans (cast_eq _ _)))
      constructor
      · show k0_off62 L t 0 + 1 * (y 0).val = _; rw [off62_eq]; show 2048 * (L 0).val + 64 * t.val + 1 * (y 0).val = _; omega
      · show k0_off62 L t 1 + 1 * (y 1).val = _; rw [off62_eq]; show 0 + 1 * (y 1).val = _; omega
    isplitl [Hs0]; · iexact Hs0
    isplitl [Hs1]; · iexact Hs1
    iexists (insert (SemLoc.dma cc0_scoped61.sem, (default : HIx 1)) (insert (SemLoc.dma cc0_scoped60.sem, (default : HIx 1)) W')); isplitr
    · ipureintro; intro p hp
      rcases Finset.mem_insert.mp hp with hp | hp
      · exact .inr (hp ▸ rfl)
      rcases Finset.mem_insert.mp hp with hp | hp
      · exact .inr (hp ▸ rfl)
      · exact hW' p hp
    · iexact HO
  · unfold invC15
    isplitl [Hmw]; · iexact Hmw
    isplitl [Aa]; · iexact Aa
    isplitl [Hb']; · iexists _; iexact Hb'
    isplitl [Ho]
    · iexists _; isplitl [Ho]; · iexact Ho
      ipureintro; exact done_zero m d L _
    isplitl [Hs0]; · iexact Hs0
    isplitl [Hs1]; · iexact Hs1
    iexists W; isplitr
    · ipureintro; exact fun p hp => .inl hp
    · iexact HO
  iintro %_ HI
  unfold invC15
  icases HI with ⟨Hmw, Aa, ⟨%fb, Hb⟩, ⟨%fo, Ho, %hD⟩, Hs0, Hs1, %W1, %hW1, HO⟩
  have hDn : Done m d L (ncopy L) fo := by
    have h3 := ncopy_dvd L
    have e : 64 * (k0_t33_loop L).trips = ncopy L := by rw [trips33 L]; omega
    rw [← e]; exact hD
  sl_exec
  -- the remainder of the unrolling by one: no trips
  sl_for (fun (_ : Nat) (_ : PUnit) => (iprop(emp) : sProp 𝕄)) $$ []
  case region =>
    intro t _
    exact absurd t.isLt (by have h0 := trips34 L; change ¬ (t.val < (k0_t34_loop L).trips); omega)
  · iempintro
  iintro %_ -
  sl_exec
  -- the zero-filling loop
  sl_for (invF (F := F) m d L O W) $$ [Hmw Hz Ho Hs64 HO]
  case region =>
    intro t _
    unfold invF
    iintro ⟨Hmw, Hz, ⟨%fo, Ho, %hD⟩, Hs64, %W', %hW', HO⟩
    have hnc := ncopy_le L
    have htr : ncopy L + 64 * t.val + 64 ≤ 2048 := by
      have h1 := t.isLt; have h2 := trips35 L; obtain ⟨c, hc⟩ := ncopy_dvd L
      change t.val < (k0_t35_loop L).trips at h1
      rw [h2] at h1; omega
    have hoff : k0_off66 L t 0 = R0 L + (ncopy L + 64 * t.val) := by rw [off66_eq]; unfold R0; show _ + _ + _ + _ = _; omega
    have hsub := chunk_subset L (k0_off66 L t) (k0_off66_inb L t) (fun _ => rfl) (ncopy L + 64 * t.val) (by omega) hoff
    ihave Ho' := (pointsTo_split_subset hsub).1 $$ Ho
    icases Ho' with ⟨Hc, Hr⟩
    ihave Hc' := (Entails.of_eq (pts_chunk (F := F) d L _ _ _ fo).symm) $$ Hc
    sl_exec (disch := exact View.amount_pos _ _ (show 0 < S64x512.numel by decide))
    sl_step
    ihave Hc := (Entails.of_eq (pts_chunk (F := F) d L _ _ _ _)) $$ Hc'
    ihave Ho := (pointsTo_join_subset (ℓ := oLoc d) hsub) $$ [Hc Hr]
    · isplitl [Hc] <;> iassumption
    isplitl [Hmw]; · iexact Hmw
    isplitl [Hz]; · iexact Hz
    isplitl [Ho]
    · iexists _; isplitl [Ho]; · iexact Ho
      ipureintro
      have e : ncopy L + 64 * (t.val + 1) = (ncopy L + 64 * t.val) + 64 := by omega
      rw [e]
      refine done_step m d L _ _ _ (ncopy L + 64 * t.val) hoff (by rw [off66_eq]; rfl) fo _ hD ?_
      exact hw_zero m d L t.val htr _ _ _ (by rw [hoff]; omega) _ (fun y => rfl)
    isplitl [Hs64]; · iexact Hs64
    iexists (insert (SemLoc.dma cc0_scoped64.sem, (default : HIx 1)) W'); isplitr
    · ipureintro; intro p hp
      rcases Finset.mem_insert.mp hp with hp | hp
      · exact .inr (hp ▸ rfl)
      · exact hW' p hp
    · iexact HO
  · unfold invF
    isplitl [Hmw]; · iexact Hmw
    isplitl [Hz]; · iexact Hz
    isplitl [Ho]
    · iexists _; isplitl [Ho]; · iexact Ho
      ipureintro; rw [Nat.mul_zero, Nat.add_zero]; exact hDn
    isplitl [Hs64]; · iexact Hs64
    iexists W1; isplitr
    · ipureintro; exact hW1
    · iexact HO
  iintro %_ HI
  unfold invF
  icases HI with ⟨Hmw, Hz, ⟨%fo2, Ho, %hD2⟩, Hs64, %W2, %hW2, HO⟩
  have hAll : Done m d L 2048 fo2 := by
    have hnc := ncopy_le L
    obtain ⟨c, hc⟩ := ncopy_dvd L
    have e : ncopy L + 64 * (k0_t35_loop L).trips = 2048 := by rw [trips35 L]; omega
    rw [← e]; exact hD2
  sl_exec
  sl_for (fun (_ : Nat) (_ : PUnit) => (iprop(emp) : sProp 𝕄)) $$ []
  case region =>
    intro t _
    exact absurd t.isLt (by have h0 := trips36 L; change ¬ (t.val < (k0_t36_loop L).trips); omega)
  · iempintro
  iintro %_ -
  sl_exec
  sl_step
  -- hand everything back
  isplitl [A0 A1 A2 A3 A4 A5 A6 A7 A8 A9 A10 A11 A12 A13 A14 Aa Ho]
  · isplitl [A0 A1 A2 A3 A4 A5 A6 A7 A8 A9 A10 A11 A12 A13 A14 Aa]
    ·
      isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [A12]; · iexact A12
      isplitl [A13]; · iexact A13
      isplitl [A14]; · iexact A14
      iapply (Entails.of_eq (pts_a15 (F := F) d L _ _)); iexact Aa
    · iapply (Entails.of_eq (pointsTo_congr (ℓ := oLoc d) (done_all m d L fo2 hAll))); iexact Ho
  isplitl [Hb Hz Hbufs]
  · isplitl [Hb]; · iexists _; iapply (Entails.of_eq (pts_b (F := F) d L _)); iexact Hb
    isplitl [Hz]; · iexists _; iapply (Entails.of_eq (pts_z (F := F) d L _)); iexact Hz
    iexact Hbufs
  isplitl [Hs0 Hs1 Hs64 Hsems]
  · isplitl [Hs0]; · iexact Hs0
    isplitl [Hs1]; · iexact Hs1
    isplitl [Hs64]; · iexact Hs64
    iexact Hsems
  iexists W2; isplitr
  · ipureintro; exact hW2
  · iexact HO

end Cert.Proof.KI

end
-- ==== Proof.KITileAll.lean ====
/-
  The task at any grid point: its subcore number is one of sixteen, and each has its proof.
-/
import proofs.«212850_g39865886441476_cont_8to1_b_277_5_alg».proof.Proof.KITile0
import proofs.«212850_g39865886441476_cont_8to1_b_277_5_alg».proof.Proof.KITile1
import proofs.«212850_g39865886441476_cont_8to1_b_277_5_alg».proof.Proof.KITile2
import proofs.«212850_g39865886441476_cont_8to1_b_277_5_alg».proof.Proof.KITile3
import proofs.«212850_g39865886441476_cont_8to1_b_277_5_alg».proof.Proof.KITile4
import proofs.«212850_g39865886441476_cont_8to1_b_277_5_alg».proof.Proof.KITile5
import proofs.«212850_g39865886441476_cont_8to1_b_277_5_alg».proof.Proof.KITile6
import proofs.«212850_g39865886441476_cont_8to1_b_277_5_alg».proof.Proof.KITile7
import proofs.«212850_g39865886441476_cont_8to1_b_277_5_alg».proof.Proof.KITile8
import proofs.«212850_g39865886441476_cont_8to1_b_277_5_alg».proof.Proof.KITile9
import proofs.«212850_g39865886441476_cont_8to1_b_277_5_alg».proof.Proof.KITile10
import proofs.«212850_g39865886441476_cont_8to1_b_277_5_alg».proof.Proof.KITile11
import proofs.«212850_g39865886441476_cont_8to1_b_277_5_alg».proof.Proof.KITile12
import proofs.«212850_g39865886441476_cont_8to1_b_277_5_alg».proof.Proof.KITile13
import proofs.«212850_g39865886441476_cont_8to1_b_277_5_alg».proof.Proof.KITile14
import proofs.«212850_g39865886441476_cont_8to1_b_277_5_alg».proof.Proof.KITile15

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

variable (m : (ℓ : Loc nD τ sig) → Buf (Elt F) ℓ) (d : Dev nD)

theorem tile_body (hF : (K (F := F)).Facts) (L : grid0.Coords) (O : CellTallies nD τ sig (HIx 1)) (W : Waits sig (HIx 1)) (hO : ∀ g, O g none = 0) :
    TileSpec m d L O W := by
  have h := coord1_lt L
  rcases (by omega : (L 1).val = 0 ∨ (L 1).val = 1 ∨ (L 1).val = 2 ∨ (L 1).val = 3 ∨ (L 1).val = 4 ∨ (L 1).val = 5 ∨ (L 1).val = 6 ∨ (L 1).val = 7 ∨ (L 1).val = 8 ∨ (L 1).val = 9 ∨ (L 1).val = 10 ∨ (L 1).val = 11 ∨ (L 1).val = 12 ∨ (L 1).val = 13 ∨ (L 1).val = 14 ∨ (L 1).val = 15) with hs | hs | hs | hs | hs | hs | hs | hs | hs | hs | hs | hs | hs | hs | hs | hs
  · exact tile_s0 m d hF L hs O W hO
  · exact tile_s1 m d hF L hs O W hO
  · exact tile_s2 m d hF L hs O W hO
  · exact tile_s3 m d hF L hs O W hO
  · exact tile_s4 m d hF L hs O W hO
  · exact tile_s5 m d hF L hs O W hO
  · exact tile_s6 m d hF L hs O W hO
  · exact tile_s7 m d hF L hs O W hO
  · exact tile_s8 m d hF L hs O W hO
  · exact tile_s9 m d hF L hs O W hO
  · exact tile_s10 m d hF L hs O W hO
  · exact tile_s11 m d hF L hs O W hO
  · exact tile_s12 m d hF L hs O W hO
  · exact tile_s13 m d hF L hs O W hO
  · exact tile_s14 m d hF L hs O W hO
  · exact tile_s15 m d hF L hs O W hO

end Cert.Proof.KI

end
-- ==== Proof.KITileObl.lean ====
/-
  The padding kernel's task in the form the launch asks for.

  The launch runs the kernel's body on subcore `i` of SparseCore `c` of the call's grid, at the grid point `(c, i)`,
  handing it that subcore's share of the sixteen sequences and block `2 i + c` of the flat output, and asks for the
  shares back with the block at the padded array. That is the task's specification at the grid point `(c, i)`; the
  only difference is that the launch lets a returned wait belong to the call, which a task that leaves only waits of
  no call satisfies.
-/
import proofs.«212850_g39865886441476_cont_8to1_b_277_5_alg».proof.Proof.KITileCommon

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)

/-- The grid point of subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- On a vector subcore the kernel's label runs its body at the subcore's grid point, on the whole arrays and the
    subcore's scratch. -/
theorem defs₀_vector (c : Fin τ.nSC) (s : Fin τ.nSub) :
    defs₀ (F := F) (.scVector c s) 0 ()
      = SparseCore.onTile hcore0 hsub0 (fun c s => cc0__pad_body (coordsV c s)
          (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_arg4_scv) (Memref.isWhole_whole _) (Memref.whole main_arg5_scv) (Memref.isWhole_whole _) (Memref.whole main_arg6_scv) (Memref.isWhole_whole _) (Memref.whole main_arg7_scv) (Memref.isWhole_whole _) (Memref.whole main_arg8_scv) (Memref.isWhole_whole _) (Memref.whole main_arg9_scv) (Memref.isWhole_whole _) (Memref.whole main_arg10_scv) (Memref.isWhole_whole _) (Memref.whole main_arg11_scv) (Memref.isWhole_whole _) (Memref.whole main_arg12_scv) (Memref.isWhole_whole _) (Memref.whole main_arg13_scv) (Memref.isWhole_whole _) (Memref.whole main_arg14_scv) (Memref.isWhole_whole _) (Memref.whole main_arg15_scv) (Memref.isWhole_whole _) (Memref.whole main_v0_scv) (Memref.isWhole_whole _) (Memref.whole cc0_scratch0) (Memref.isWhole_whole _) (Memref.whole cc0_scratch1) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65) ⟨⟩ c s := rfl

omit [FloatOps F] in
/-- Waits of no call are, in particular, waits of no call or of this one. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The launch's obligation for the kernel's tasks, from the task's specification at every grid point. -/
theorem tileObl (hF : (K (F := F)).Facts)
    (hbody : ∀ (d : Dev nD) (L : grid0.Coords) (O : CellTallies nD τ sig (HIx 1)) (W : Waits sig (HIx 1)),
      (∀ g, O g none = 0) → TileSpec m d L O W) :
    (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact BI.Entails.trans (hbody d (coordsV ⟨_, hc.1⟩ ⟨_, hc.2⟩) O W hO) (wp_mono frame _ _ fun _ => obl_post)

end Cert.Proof.KI

end
-- ==== Proof.KISplit.lean ====
/-
  How a SparseCore's operands split among its sixteen tasks, and its results gather from theirs.

  The read share of each of the sixteen sequences handed to the SparseCore is cut into sixteen read shares, one per
  task, and a remainder that stays behind until the tasks return theirs; the SparseCore's sixteen blocks of the output
  go one to each task and come back at the padded array.
-/
import proofs.«212850_g39865886441476_cont_8to1_b_277_5_alg».proof.Proof.KISetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable (m : (ℓ : Loc nD τ sig) → Buf (Elt F) ℓ)

/-- Every sequence's share `q` cut into `n` read shares and what is left of `q`. -/
theorem argsAt_split (q : PosShare TreeShare) (n : ℕ) (d : Dev nD) :
    (argsAt m q d : sProp 𝕄)
      ⊢ iprop(argsAt m (Transfers.shareDrop q n) d ∗ bigSep Finset.univ fun i : Fin n => argsAt m (Transfers.shareTok q n i) d) := by
  unfold argsAt
  simp only [bigSep_sep']
  iintro ⟨H0, H1, H2, H3, H4, H5, H6, H7, H8, H9, H10, H11, H12, H13, H14, H15⟩
  ihave H0 := (Transfers.pointsTo_toks_split q n) $$ H0
  icases H0 with ⟨D0, T0⟩
  ihave H1 := (Transfers.pointsTo_toks_split q n) $$ H1
  icases H1 with ⟨D1, T1⟩
  ihave H2 := (Transfers.pointsTo_toks_split q n) $$ H2
  icases H2 with ⟨D2, T2⟩
  ihave H3 := (Transfers.pointsTo_toks_split q n) $$ H3
  icases H3 with ⟨D3, T3⟩
  ihave H4 := (Transfers.pointsTo_toks_split q n) $$ H4
  icases H4 with ⟨D4, T4⟩
  ihave H5 := (Transfers.pointsTo_toks_split q n) $$ H5
  icases H5 with ⟨D5, T5⟩
  ihave H6 := (Transfers.pointsTo_toks_split q n) $$ H6
  icases H6 with ⟨D6, T6⟩
  ihave H7 := (Transfers.pointsTo_toks_split q n) $$ H7
  icases H7 with ⟨D7, T7⟩
  ihave H8 := (Transfers.pointsTo_toks_split q n) $$ H8
  icases H8 with ⟨D8, T8⟩
  ihave H9 := (Transfers.pointsTo_toks_split q n) $$ H9
  icases H9 with ⟨D9, T9⟩
  ihave H10 := (Transfers.pointsTo_toks_split q n) $$ H10
  icases H10 with ⟨D10, T10⟩
  ihave H11 := (Transfers.pointsTo_toks_split q n) $$ H11
  icases H11 with ⟨D11, T11⟩
  ihave H12 := (Transfers.pointsTo_toks_split q n) $$ H12
  icases H12 with ⟨D12, T12⟩
  ihave H13 := (Transfers.pointsTo_toks_split q n) $$ H13
  icases H13 with ⟨D13, T13⟩
  ihave H14 := (Transfers.pointsTo_toks_split q n) $$ H14
  icases H14 with ⟨D14, T14⟩
  ihave H15 := (Transfers.pointsTo_toks_split q n) $$ H15
  icases H15 with ⟨D15, T15⟩
  isplitl [D0 D1 D2 D3 D4 D5 D6 D7 D8 D9 D10 D11 D12 D13 D14 D15]
  · isplitl [D0]; · iexact D0
    isplitl [D1]; · iexact D1
    isplitl [D2]; · iexact D2
    isplitl [D3]; · iexact D3
    isplitl [D4]; · iexact D4
    isplitl [D5]; · iexact D5
    isplitl [D6]; · iexact D6
    isplitl [D7]; · iexact D7
    isplitl [D8]; · iexact D8
    isplitl [D9]; · iexact D9
    isplitl [D10]; · iexact D10
    isplitl [D11]; · iexact D11
    isplitl [D12]; · iexact D12
    isplitl [D13]; · iexact D13
    isplitl [D14]; · iexact D14
    iexact D15
  isplitl [T0]; · iexact T0
  isplitl [T1]; · iexact T1
  isplitl [T2]; · iexact T2
  isplitl [T3]; · iexact T3
  isplitl [T4]; · iexact T4
  isplitl [T5]; · iexact T5
  isplitl [T6]; · iexact T6
  isplitl [T7]; · iexact T7
  isplitl [T8]; · iexact T8
  isplitl [T9]; · iexact T9
  isplitl [T10]; · iexact T10
  isplitl [T11]; · iexact T11
  isplitl [T12]; · iexact T12
  isplitl [T13]; · iexact T13
  isplitl [T14]; · iexact T14
  iexact T15

/-- and put back together. -/
theorem argsAt_join (q : PosShare TreeShare) (n : ℕ) (d : Dev nD) :
    iprop(argsAt m (Transfers.shareDrop q n) d ∗ bigSep Finset.univ fun i : Fin n => argsAt m (Transfers.shareTok q n i) d)
      ⊢ (argsAt m q d : sProp 𝕄) := by
  unfold argsAt
  simp only [bigSep_sep']
  iintro ⟨⟨D0, D1, D2, D3, D4, D5, D6, D7, D8, D9, D10, D11, D12, D13, D14, D15⟩, T0, T1, T2, T3, T4, T5, T6, T7, T8, T9, T10, T11, T12, T13, T14, T15⟩
  isplitl [D0 T0]
  · iapply (Transfers.pointsTo_toks_join q n); isplitl [D0] <;> iassumption
  isplitl [D1 T1]
  · iapply (Transfers.pointsTo_toks_join q n); isplitl [D1] <;> iassumption
  isplitl [D2 T2]
  · iapply (Transfers.pointsTo_toks_join q n); isplitl [D2] <;> iassumption
  isplitl [D3 T3]
  · iapply (Transfers.pointsTo_toks_join q n); isplitl [D3] <;> iassumption
  isplitl [D4 T4]
  · iapply (Transfers.pointsTo_toks_join q n); isplitl [D4] <;> iassumption
  isplitl [D5 T5]
  · iapply (Transfers.pointsTo_toks_join q n); isplitl [D5] <;> iassumption
  isplitl [D6 T6]
  · iapply (Transfers.pointsTo_toks_join q n); isplitl [D6] <;> iassumption
  isplitl [D7 T7]
  · iapply (Transfers.pointsTo_toks_join q n); isplitl [D7] <;> iassumption
  isplitl [D8 T8]
  · iapply (Transfers.pointsTo_toks_join q n); isplitl [D8] <;> iassumption
  isplitl [D9 T9]
  · iapply (Transfers.pointsTo_toks_join q n); isplitl [D9] <;> iassumption
  isplitl [D10 T10]
  · iapply (Transfers.pointsTo_toks_join q n); isplitl [D10] <;> iassumption
  isplitl [D11 T11]
  · iapply (Transfers.pointsTo_toks_join q n); isplitl [D11] <;> iassumption
  isplitl [D12 T12]
  · iapply (Transfers.pointsTo_toks_join q n); isplitl [D12] <;> iassumption
  isplitl [D13 T13]
  · iapply (Transfers.pointsTo_toks_join q n); isplitl [D13] <;> iassumption
  isplitl [D14 T14]
  · iapply (Transfers.pointsTo_toks_join q n); isplitl [D14] <;> iassumption
  iapply (Transfers.pointsTo_toks_join q n); isplitl [D15] <;> iassumption

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show iprop(argsAt m (shC (Fin.cast nCore_zero c)) d ∗ bigSep Finset.univ fun s : Fin 16 => oLoc d ↦[blkSet (bIx (Fin.cast nCore_zero c) s)]{fullShare} m (oLoc d))
    ⊢ |={Set.univ}=> iprop(
      (bigSep Finset.univ fun i : Fin ((K (F := F)).nSub 0) =>
        iprop(argsAt m (shT (Fin.cast nCore_zero c) (Fin.cast nSub_zero i)) d ∗ oLoc d ↦[blkSet (bIx (Fin.cast nCore_zero c) (Fin.cast nSub_zero i))]{fullShare} m (oLoc d)))
      ∗ ((bigSep Finset.univ fun i : Fin ((K (F := F)).nSub 0) =>
          iprop(argsAt m (shT (Fin.cast nCore_zero c) (Fin.cast nSub_zero i)) d ∗ oLoc d ↦[blkSet (bIx (Fin.cast nCore_zero c) (Fin.cast nSub_zero i))]{fullShare} flat m d))
          -∗ iprop(argsAt m (shC (Fin.cast nCore_zero c)) d ∗ bigSep Finset.univ fun s : Fin 16 => oLoc d ↦[blkSet (bIx (Fin.cast nCore_zero c) s)]{fullShare} flat m d)))
  rw [bigSep_tasks (F := F) (fun i => iprop(argsAt m (shT (Fin.cast nCore_zero c) i) d ∗ oLoc d ↦[blkSet (bIx (Fin.cast nCore_zero c) i)]{fullShare} m (oLoc d))),
    bigSep_tasks (F := F) (fun i => iprop(argsAt m (shT (Fin.cast nCore_zero c) i) d ∗ oLoc d ↦[blkSet (bIx (Fin.cast nCore_zero c) i)]{fullShare} flat m d)),
    bigSep_sep', bigSep_sep']
  iintro ⟨Ha, Ho⟩
  ihave Ha' := (argsAt_split m (shC (Fin.cast nCore_zero c)) 16 d) $$ Ha
  icases Ha' with ⟨Hd, Ht⟩
  imodintro
  isplitl [Ht Ho]
  · isplitl [Ht]; · iexact Ht
    iexact Ho
  iintro ⟨Ht, Ho⟩
  isplitl [Hd Ht]
  · iapply (argsAt_join m (shC (Fin.cast nCore_zero c)) 16 d)
    isplitl [Hd]; · iexact Hd
    iexact Ht
  iexact Ho

end Cert.Proof.KI

end
-- ==== Proof.KIRun.lean ====
/-
  The padding kernel's program runs to the specification.

  Every weakly fair execution of the program terminates with the stacked `16 × 4096 × 512` array at the padded
  sequences, the mask at the specification's, and the sixteen argument arrays unchanged: the launch of the call on
  the vector subcores, given each task's specification at its grid point and the split of the call's operands into
  the tasks' shares and blocks.
-/
import proofs.«212850_g39865886441476_cont_8to1_b_277_5_alg».proof.Proof.KILaunch
import proofs.«212850_g39865886441476_cont_8to1_b_277_5_alg».proof.Proof.KITileAll
import proofs.«212850_g39865886441476_cont_8to1_b_277_5_alg».proof.Proof.KITileObl
import proofs.«212850_g39865886441476_cont_8to1_b_277_5_alg».proof.Proof.KISplit

noncomputable section

namespace Cert.Proof.KI

open Cert.KernelIdeal Cert.KernelIdeal.Gen
open Idealize.ShloMosaic Idealize.SL.Sem

variable {F : FTy → Type} [FloatOps F]

/-- Every weakly fair execution of the program terminates at the specification's two arrays of the arguments, the
    arguments unchanged. -/
theorem run [∀ e, Nonempty (Elt F e)] (m : (ℓ : Loc nD τ sig) → Buf (Elt F) ℓ) (ρ : Dev nD → PrngReg) :
    θ_run (Cert.KernelIdeal.defs (F := F)) (Cert.KernelIdeal.threads (F := F)) ⟨m, fun _ => 0, ρ⟩ (QC m) :=
  run_main m ρ (tileObl m facts fun d L O W hO => tile_body m d facts L O W hO) (vecSplit m)

end Cert.Proof.KI

end
-- ==== Proof.RefValue.lean ====
/-
  The reference program computes the specification.

  Its first result is sixteen slabs laid end to end along a new leading axis, slab `s` being sequence `s` padded with
  zero to 4096 rows: entry `(s, p, q)` is entry `(p, q)` of sequence `s` when `p` is one of its rows and zero
  otherwise. Its second result stacks sixteen rows the same way, row `s` holding the bit of `4096 − 256·s ≤ p` at
  `p`. Both are the specification's arrays, and the run leaves the sixteen argument arrays as they were.
-/
import proofs.«212850_g39865886441476_cont_8to1_b_277_5_alg».proof.Defs
import proofs.«212850_g39865886441476_cont_8to1_b_277_5_alg».proof.Proof.Gen.ReferenceIdeal
import proofs.«212850_g39865886441476_cont_8to1_b_277_5_alg».proof.Proof.Gen.Pre_finite_inputs
import proofs.«212850_g39865886441476_cont_8to1_b_277_5_alg».proof.Proof.RefRunP
import proofs.«212850_g39865886441476_cont_8to1_b_277_5_alg».proof.Proof.Spec
import proofs.«212850_g39865886441476_cont_8to1_b_277_5_alg».proof.Proof.Stages

noncomputable section

namespace Cert.Proof.RefValue

open Idealize.ShloMosaic Idealize.SL.Sem Idealize.ShloMosaic.ValueIdx

/-- The first result's term is the padded sequences stacked, the padding value zero. -/
theorem out0_eq (m : (ℓ : Loc Cert.ReferenceIdeal.nD Cert.ReferenceIdeal.τ Cert.ReferenceIdeal.sig) → Buf (Elt Ideal) ℓ) (c : Dev Cert.ReferenceIdeal.nD) :
    Cert.ReferenceIdeal.ValueP.res_main_v32 (F := Ideal) m c
      = Cert.Spec.pad3 (Scalar.ofBits .f32 0x00000000#32 : Ideal .f32) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) := by
  unfold Cert.ReferenceIdeal.ValueP.res_main_v32
  exact Cert.Proof.Stages.stacked_eq_pad3 (X := Ideal .f32) (id (constant (F := Ideal) Cert.ReferenceIdeal.S_ .f32 0x00000000#32))
    (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))
    _ _ _ _ _ _ _ _ _ _ _ _ _ _ _ _ _ _ _

/-- Every weakly fair execution of the reference terminates with its two results at the specification's arrays of the
    arguments, and the arguments unchanged. -/
theorem run (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v32) = Cert.Spec.pad3 (Scalar.ofBits .f32 0x00000000#32 : Ideal .f32) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15))
      ∧ r.2.mem ((c.tc : Thread Cert.ReferenceIdeal.nD Cert.ReferenceIdeal.τ).loc Cert.ReferenceIdeal.main_v97) = Cert.Spec.mask2
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)) :=
  (θ_run Cert.ReferenceIdeal.defs _ _).mono (fun _ h c => ⟨(h c).1.trans (out0_eq m' c),
      (h c).2.1.trans (Cert.Proof.Stages.mask_stacked_eq _ _ _), (h c).2.2⟩)
    (Cert.ReferenceIdeal.ValueP.run (F := Ideal) m' ρ')

/-- The reference runs and leaves its arguments unchanged. -/
theorem frame : Cert.frame_ReferenceIdeal := fun m ρ _ =>
  (θ_run Cert.ReferenceIdeal.defs _ _).mono (fun _ h c => (h c).2.2) (Cert.ReferenceIdeal.ValueP.run (F := Ideal) m ρ)

end Cert.Proof.RefValue

end
-- ==== Proof.lean ====
/-
  Sixteen sequences, sequence `s` of `4096 − 256·s` rows of 512 entries, are padded with zero to 4096 rows and stacked
  into one `16 × 4096 × 512` array; with it comes the `16 × 4096` mask of the padded positions, one exactly where
  `4096 − 256·s ≤ p`.

  The two programs are compared through one specification of these two arrays as functions of the sixteen argument
  arrays (Spec.lean): entry `(s, p, q)` of the first is entry `(p, q)` of sequence `s` when `p` is one of its rows and
  zero otherwise. The kernel lays the padded rows out flat, row `4096·s + p` of a `65536 × 512` array for `(s, p)`, which
  read as `16 × 4096 × 512` in row-major order is the stacked array, and it marks a position by comparing `p` with
  `4096 − 256·s` as 32-bit words, which do not wrap at these sizes. The reference pads each sequence, gives it a leading
  axis of extent one and lays the sixteen slabs end to end, and stacks sixteen rows of comparisons the same way. Each
  side is shown to end at the specification's arrays with its arguments unchanged; no entry is ever computed on, only
  moved, so the same statement holds of the words and of the extended reals, and the padding value, the zero word, is
  the same on both sides. Agreeing arguments therefore give equal results.
-/
import proofs.«212850_g39865886441476_cont_8to1_b_277_5_alg».proof.Defs
import proofs.«212850_g39865886441476_cont_8to1_b_277_5_alg».proof.Proof.Gen.Kernel
import proofs.«212850_g39865886441476_cont_8to1_b_277_5_alg».proof.Proof.Gen.Kernel.Skeleton
import proofs.«212850_g39865886441476_cont_8to1_b_277_5_alg».proof.Proof.Gen.Kernel.Launch
import proofs.«212850_g39865886441476_cont_8to1_b_277_5_alg».proof.Proof.Gen.Kernel.Points
import proofs.«212850_g39865886441476_cont_8to1_b_277_5_alg».proof.Proof.Gen.KernelIdeal
import proofs.«212850_g39865886441476_cont_8to1_b_277_5_alg».proof.Proof.Gen.KernelIdeal.Skeleton
import proofs.«212850_g39865886441476_cont_8to1_b_277_5_alg».proof.Proof.Gen.KernelIdeal.Launch
import proofs.«212850_g39865886441476_cont_8to1_b_277_5_alg».proof.Proof.Gen.KernelIdeal.Points
import proofs.«212850_g39865886441476_cont_8to1_b_277_5_alg».proof.Proof.Gen.ReferenceIdeal
import proofs.«212850_g39865886441476_cont_8to1_b_277_5_alg».proof.Proof.Gen.Pre_finite_inputs
import proofs.«212850_g39865886441476_cont_8to1_b_277_5_alg».proof.Proof.Spec
import proofs.«212850_g39865886441476_cont_8to1_b_277_5_alg».proof.Proof.KBRun
import proofs.«212850_g39865886441476_cont_8to1_b_277_5_alg».proof.Proof.KIRun
import proofs.«212850_g39865886441476_cont_8to1_b_277_5_alg».proof.Proof.RefValue
import Idealize.ShloMosaic.Adequacy
import Idealize.ShloMosaic.Init

noncomputable section

namespace Cert.Proof

open Idealize.ShloMosaic Idealize.SL.Sem

/-- The certificate's five claims: each program runs and keeps its arguments; reading the kernel over the extended reals
    rewrote nothing; and the kernel and the reference, from agreeing arguments, end at the same two arrays. -/
theorem claim : Cert.Claim := ⟨Cert.Kernel.Gen.facts, Cert.KernelIdeal.Gen.facts, Cert.ReferenceIdeal.Gen.facts, Cert.Pre_finite_inputs.Gen.facts,
  -- the word-level program runs and keeps its arguments
  fun m ρ _ => (θ_run Cert.Kernel.defs _ _).mono (fun _ h c => (h c).2.2) (Cert.Proof.KB.run (F := Bits) m ρ),
  -- so does the program read over the extended reals
  fun m ρ _ => (θ_run Cert.KernelIdeal.defs _ _).mono (fun _ h c => (h c).2.2) (Cert.Proof.KI.run (F := Ideal) m ρ),
  -- and the reference
  Cert.Proof.RefValue.frame,
  -- no operation was rewritten on the way from the words to the extended reals
  trivial,
  -- both programs end at the specification's two arrays of the (agreeing) arguments
  fun m ρ m' ρ' _ hagree =>
    ⟨fun c => Cert.Spec.pad3 (Scalar.ofBits .f32 0x00000000#32 : Ideal .f32) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
     fun _ => Cert.Spec.mask2,
     Cert.Proof.KI.run (F := Ideal) m ρ,
     (θ_run Cert.ReferenceIdeal.defs _ _).mono
       (fun _ h c => ⟨(h c).1.trans (by obtain ⟨e0, e1, e2, e3, e4, e5, e6, e7, e8, e9, e10, e11, e12, e13, e14, e15⟩ := hagree c; rw [e0, e1, e2, e3, e4, e5, e6, e7, e8, e9, e10, e11, e12, e13, e14, e15]), (h c).2⟩)
       (Cert.Proof.RefValue.run m' ρ')⟩⟩

end Cert.Proof

end
